-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x20 : Shape := ⟨2, ![4096, 20]⟩
abbrev S4096x512 : Shape := ⟨2, ![4096, 512]⟩
abbrev S1000x512 : Shape := ⟨2, ![1000, 512]⟩
abbrev S512x512 : Shape := ⟨2, ![512, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg0 : IVec S4096x20 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 0#32
  let main_v19 : IVec S4096x20 32 := broadcastInDim S4096x20 ![] bcast_S_S4096x20 main_c_6
  let main_v20 : IVec S4096x20 1 := cmpi .sge main_arg0 main_v19
  let main_c_7 : IVec S_ 32 := constantI S_ 32 999#32
  let main_v21 : IVec S4096x20 32 := broadcastInDim S4096x20 ![] bcast_S_S4096x20 main_c_7
  let main_v22 : IVec S4096x20 1 := cmpi .sle main_arg0 main_v21
  let main_v23 : IVec S4096x20 1 := andi main_v20 main_v22
  let main_c_8 : IVec S_ 1 := constantI S_ 1 1#1
  let main_v24 : IVec S_ 1 := (fun x v => Host.reduce IntOp.andi x v reducesTo_S4096x20_S_d0_1 h_S_) main_v23 main_c_8
  let main_v25 : IVec S_ 1 := andi main_v18 main_v24
  main_v25

def fn {F : FTy → Type} [FloatOps F] (main_arg0 : IVec S4096x20 32) (main_arg1 : FVec F S4096x512 .f32) (main_arg2 : FVec F S1000x512 .f32) (main_arg3 : FVec F S512x512 .f32) (main_arg4 : FVec F S512 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_v13 main_v16
-- ==== Kernel.lean ====
abbrev S4096x20 : Shape := ⟨2, ![4096, 20]⟩
abbrev S4096x512 : Shape := ⟨2, ![4096, 512]⟩
abbrev S1000x512 : Shape := ⟨2, ![1000, 512]⟩
abbrev S512x512 : Shape := ⟨2, ![512, 512]⟩
abbrev S512 : Shape := ⟨1, ![512]⟩
abbrev S1x512 : Shape := ⟨2, ![1, 512]⟩
abbrev S4000x128 : Shape := ⟨2, ![4000, 128]⟩
abbrev S_ : Shape := ⟨0, ![]⟩
abbrev S96x128 : Shape := ⟨2, ![96, 128]⟩
abbrev S16384x128 : Shape := ⟨2, ![16384, 128]⟩
abbrev S20480x128 : Shape := ⟨2, ![20480, 128]⟩
abbrev S32x16x8x20 : Shape := ⟨4, ![32, 16, 8, 20]⟩
abbrev S32x20x16x8 : Shape := ⟨4, ![32, 20, 16, 8]⟩
abbrev S4 : Shape := ⟨1, ![4]⟩
abbrev S1x1x1x4x1 : Shape := ⟨5, ![1, 1, 1, 4, 1]⟩
abbrev S32x20x16x1x8 : Shape := ⟨5, ![32, 20, 16, 1, 8]⟩
abbrev S32x20x16x4x8 : Shape := ⟨5, ![32, 20, 16, 4, 8]⟩
abbrev S32x20x16x8x8 : Shape := ⟨5, ![32, 20, 16, 8, 8]⟩
abbrev S32x160x128 : Shape := ⟨3, ![32, 160, 128]⟩
abbrev S655360x128 : Shape := ⟨2, ![655360, 128]⟩
abbrev S32x128 : Shape := ⟨2, ![32, 128]⟩
abbrev S64x128 : Shape := ⟨2, ![64, 128]⟩
abbrev S12288x128 : Shape := ⟨2, ![12288, 128]⟩
abbrev S256x128 : Shape := ⟨2, ![256, 128]⟩
abbrev S512x128 : Shape := ⟨2, ![512, 128]⟩
abbrev S1x32x128 : Shape := ⟨3, ![1, 32, 128]⟩
abbrev S1x64 : Shape := ⟨2, ![1, 64]⟩
abbrev S64 : Shape := ⟨1, ![64]⟩
abbrev S20x512x8x8x128 : Shape := ⟨5, ![20, 512, 8, 8, 128]⟩
abbrev S512x8x20x8x128 : Shape := ⟨5, ![512, 8, 20, 8, 128]⟩
abbrev S4096x20x1024 : Shape := ⟨3, ![4096, 20, 1024]⟩

abbrev nBuf : Table → Nat
  | .hbm => 71
  | .local .tc .vmem => 4
  | .shared => 1
  | .local .scVector .vmem => 4
  | _ => 0

abbrev bufTy : (tb : Table) → Fin (nBuf tb) → BufTy
  | .hbm, ⟨0, _⟩ => ⟨S4096x20, .i32⟩
  | .hbm, ⟨1, _⟩ => ⟨S4096x512, .f32⟩
  | .hbm, ⟨2, _⟩ => ⟨S1000x512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1000x512, .f32⟩
  | .hbm, ⟨7, _⟩ => ⟨S4000x128, .f32⟩
  | .hbm, ⟨8, _⟩ => ⟨S_, .f32⟩
  | .hbm, ⟨9, _⟩ => ⟨S96x128, .f32⟩
  | .hbm, ⟨10, _⟩ => ⟨S16384x128, .f32⟩
  | .hbm, ⟨11, _⟩ => ⟨S20480x128, .f32⟩
  | .hbm, ⟨12, _⟩ => ⟨S32x16x8x20, .i32⟩
  | .hbm, ⟨13, _⟩ => ⟨S32x20x16x8, .i32⟩
  | .hbm, ⟨14, _⟩ => ⟨S4, .i32⟩
  | .hbm, ⟨15, _⟩ => ⟨S1x1x1x4x1, .i32⟩
  | .hbm, ⟨16, _⟩ => ⟨S32x20x16x1x8, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S32x20x16x1x8, .i32⟩
  | .hbm, ⟨24, _⟩ => ⟨S32x20x16x1x8, .i32⟩
  | .hbm, ⟨25, _⟩ => ⟨S_, .i32⟩
  | .hbm, ⟨26, _⟩ => ⟨S32x20x16x1x8, .i32⟩
  | .hbm, ⟨27, _⟩ => ⟨S32x20x16x1x8, .i1⟩
  | .hbm, ⟨28, _⟩ => ⟨S_, .i32⟩
  | .hbm, ⟨29, _⟩ => ⟨S32x20x16x1x8, .i32⟩
  | .hbm, ⟨30, _⟩ => ⟨S32x20x16x1x8, .i1⟩
  | .hbm, ⟨31, _⟩ => ⟨S_, .i32⟩
  | .hbm, ⟨32, _⟩ => ⟨S_, .i1⟩
  | .hbm, ⟨33, _⟩ => ⟨S32x20x16x1x8, .i1⟩
  | .hbm, ⟨34, _⟩ => ⟨S32x20x16x1x8, .i1⟩
  | .hbm, ⟨35, _⟩ => ⟨S32x20x16x1x8, .i1⟩
  | .hbm, ⟨36, _⟩ => ⟨S32x20x16x1x8, .i32⟩
  | .hbm, ⟨37, _⟩ => ⟨S32x20x16x1x8, .i32⟩
  | .hbm, ⟨38, _⟩ => ⟨S32x20x16x1x8, .i32⟩
  | .hbm, ⟨39, _⟩ => ⟨S_, .i32⟩
  | .hbm, ⟨40, _⟩ => ⟨S32x20x16x1x8, .i32⟩
  | .hbm, ⟨41, _⟩ => ⟨S32x20x16x1x8, .i32⟩
  | .hbm, ⟨42, _⟩ => ⟨S32x20x16x1x8, .i32⟩
  | .hbm, ⟨43, _⟩ => ⟨S_, .i32⟩
  | .hbm, ⟨44, _⟩ => ⟨S32x20x16x1x8, .i32⟩
  | .hbm, ⟨45, _⟩ => ⟨S32x20x16x1x8, .i32⟩
  | .hbm, ⟨46, _⟩ => ⟨S32x20x16x1x8, .i32⟩
  | .hbm, ⟨47, _⟩ => ⟨S32x20x16x1x8, .i32⟩
  | .hbm, ⟨48, _⟩ => ⟨S32x20x16x1x8, .i32⟩
  | .hbm, ⟨49, _⟩ => ⟨S32x20x16x1x8, .i32⟩
  | .hbm, ⟨50, _⟩ => ⟨S_, .i32⟩
  | .hbm, ⟨51, _⟩ => ⟨S32x20x16x1x8, .i32⟩
  | .hbm, ⟨52, _⟩ => ⟨S32x20x16x1x8, .i32⟩
  | .hbm, ⟨53, _⟩ => ⟨S32x20x16x4x8, .i32⟩
  | .hbm, ⟨54, _⟩ => ⟨S32x20x16x4x8, .i32⟩
  | .hbm, ⟨55, _⟩ => ⟨S32x20x16x4x8, .i32⟩
  | .hbm, ⟨56, _⟩ => ⟨S_, .i32⟩
  | .hbm, ⟨57, _⟩ => ⟨S32x20x16x1x8, .i32⟩
  | .hbm, ⟨58, _⟩ => ⟨S32x20x16x1x8, .i32⟩
  | .hbm, ⟨59, _⟩ => ⟨S_, .i32⟩
  | .hbm, ⟨60, _⟩ => ⟨S32x20x16x1x8, .i32⟩
  | .hbm, ⟨61, _⟩ => ⟨S32x20x16x1x8, .i32⟩
  | .hbm, ⟨62, _⟩ => ⟨S32x20x16x4x8, .i32⟩
  | .hbm, ⟨63, _⟩ => ⟨S32x20x16x4x8, .i32⟩
  | .hbm, ⟨64, _⟩ => ⟨S32x20x16x4x8, .i32⟩
  | .hbm, ⟨65, _⟩ => ⟨S32x20x16x8x8, .i32⟩
  | .hbm, ⟨66, _⟩ => ⟨S32x160x128, .i32⟩
  | .hbm, ⟨67, _⟩ => ⟨S655360x128, .f32⟩
  | .hbm, ⟨68, _⟩ => ⟨S20x512x8x8x128, .f32⟩
  | .hbm, ⟨69, _⟩ => ⟨S512x8x20x8x128, .f32⟩
  | .hbm, ⟨70, _⟩ => ⟨S4096x20x1024, .f32⟩
  | .local .tc .vmem, ⟨0, _⟩ => ⟨S1000x512, .f32⟩
  | .local .tc .vmem, ⟨1, _⟩ => ⟨S512x512, .f32⟩
  | .local .tc .vmem, ⟨2, _⟩ => ⟨S1x512, .f32⟩
  | .local .tc .vmem, ⟨3, _⟩ => ⟨S1000x512, .f32⟩
  | .shared, ⟨0, _⟩ => ⟨S12288x128, .f32⟩
  | .local .scVector .vmem, ⟨0, _⟩ => ⟨S32x128, .i32⟩
  | .local .scVector .vmem, ⟨1, _⟩ => ⟨S32x128, .i32⟩
  | .local .scVector .vmem, ⟨2, _⟩ => ⟨S64x128, .f32⟩
  | .local .scVector .vmem, ⟨3, _⟩ => ⟨S64x128, .f32⟩
  | _, _ => ⟨S4096x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 12 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 5 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v11 : Ref sig .tc := ⟨.hbm, 38, rfl⟩
abbrev main_c_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v5_scv : Ref sig .scVector := ⟨.hbm, 11, rfl⟩
abbrev main_v34_scv : Ref sig .scVector := ⟨.hbm, 66, rfl⟩
abbrev main_v35_scv : Ref sig .scVector := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch4 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := .none

abbrev stage0_0 : Fin 1 → Memref sig .tc .vmem S1000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let c256_i32_0 : BitVec 32 := 256#32
  let arg1 : BitVec 32 := BitVec.ofNat 32 (i 1).val
  let v3 : BitVec 32 := Scalar.muli c256_i32_0 arg1
  let c0_i32_225_r0 : BitVec 32 := 0#32
  ![v3.toNat, 0]
def k1_off2 (i : grid1.Coords) : Fin 2 → Nat :=
  let c256_i32 : BitVec 32 := 256#32
  let arg1 : BitVec 32 := BitVec.ofNat 32 (i 1).val
  let v2 : BitVec 32 := Scalar.muli c256_i32 arg1
  let c0_i32_226_r0 : BitVec 32 := 0#32
  ![v2.toNat, 0]
def k1_off3 (i : grid1.Coords) : Fin 2 → Nat :=
  let c4096_i32_2 : BitVec 32 := 4096#32
  let c512_i32_1 : BitVec 32 := 512#32
  let arg1 : BitVec 32 := BitVec.ofNat 32 (i 1).val
  let v8 : BitVec 32 := Scalar.muli c512_i32_1 arg1
  let v9 : BitVec 32 := Scalar.addi c4096_i32_2 v8
  let c0_i32_225_r1 : BitVec 32 := 0#32
  ![v9.toNat, 0]
def k1_off4 (i : grid1.Coords) : Fin 2 → Nat :=
  let c4096_i32 : BitVec 32 := 4096#32
  let c8192_i32 : BitVec 32 := 8192#32
  let arg0 : BitVec 32 := BitVec.ofNat 32 (i 0).val
  let v4 : BitVec 32 := Scalar.muli c8192_i32 arg0
  let v5 : BitVec 32 := Scalar.addi c4096_i32 v4
  let c512_i32 : BitVec 32 := 512#32
  let arg1 : BitVec 32 := BitVec.ofNat 32 (i 1).val
  let v6 : BitVec 32 := Scalar.muli c512_i32 arg1
  let v7 : BitVec 32 := Scalar.addi v5 v6
  let c0_i32_226_r1 : BitVec 32 := 0#32
  ![v7.toNat, 0]
def k1_off5 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_225_r2 : BitVec 32 := 0#32
  let c0_i32_226_r2 : BitVec 32 := 0#32
  ![v1.toNat, 0, 0]
def k1_off6 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let c0_i32_9 : BitVec 32 := 0#32
  ![v1.toNat, 32, 0]
@[reducible] def k1_t1_loop : Scf.Loop 32 :=
  let c0_i32_13 : BitVec 32 := 0#32
  let c31_i32 : BitVec 32 := 31#32
  let v20 : BitVec 32 := Scalar.addi c0_i32_13 c31_i32
  let c1_i32 : BitVec 32 := 1#32
  ⟨c0_i32_13, v20, c1_i32⟩
def k1_off7 (k1_t1 : Fin k1_t1_loop.trips) : Fin 2 → Nat :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c64_i32_226 : BitVec 32 := 64#32
  let c0_i32_227 : BitVec 32 := 0#32
  let v229 : BitVec 1 := Scalar.cmpi .eq c64_i32_226 c0_i32_227
  let c1_i32_228 : BitVec 32 := 1#32
  let v230 : BitVec 32 := Scalar.select v229 c1_i32_228 c64_i32_226
  let v231 : BitVec 32 := Scalar.remsi v228 v230
  let c0_i32_230 : BitVec 32 := 0#32
  let v233 : BitVec 1 := Scalar.cmpi .slt v231 c0_i32_230
  let c0_i32_231 : BitVec 32 := 0#32
  let v234 : BitVec 1 := Scalar.cmpi .slt v230 c0_i32_231
  let v235 : BitVec 1 := Scalar.xori v233 v234
  let c0_i32_229 : BitVec 32 := 0#32
  let v232 : BitVec 1 := Scalar.cmpi .ne v231 c0_i32_229
  let v236 : BitVec 1 := Scalar.andi v235 v232
  let v237 : BitVec 32 := Scalar.addi v231 v230
  let v238 : BitVec 32 := Scalar.select v236 v237 v231
  let c0_i32_233 : BitVec 32 := 0#32
  let v240 : BitVec 1 := Scalar.cmpi .sgt v238 c0_i32_233
  let v241 : BitVec 32 := Scalar.extui v240
  let c0_i32_234 : BitVec 32 := 0#32
  let v242 : BitVec 1 := Scalar.cmpi .slt v238 c0_i32_234
  let v243 : BitVec 32 := Scalar.extui v242
  let v244 : BitVec 32 := Scalar.subi v241 v243
  let c2_i32_232 : BitVec 32 := 2#32
  let c0_i32_235 : BitVec 32 := 0#32
  let v245 : BitVec 1 := Scalar.cmpi .sgt c2_i32_232 c0_i32_235
  let v246 : BitVec 32 := Scalar.extui v245
  let c0_i32_236 : BitVec 32 := 0#32
  let v247 : BitVec 1 := Scalar.cmpi .slt c2_i32_232 c0_i32_236
  let v248 : BitVec 32 := Scalar.extui v247
  let v249 : BitVec 32 := Scalar.subi v246 v248
  let v250 : BitVec 1 := Scalar.cmpi .ne v244 v249
  let v251 : BitVec 32 := Scalar.remsi v238 c2_i32_232
  let c0_i32_237 : BitVec 32 := 0#32
  let v252 : BitVec 1 := Scalar.cmpi .ne v251 c0_i32_237
  let v253 : BitVec 1 := Scalar.andi v250 v252
  let v239 : BitVec 32 := Scalar.divsi v238 c2_i32_232
  let c1_i32_238 : BitVec 32 := 1#32
  let v254 : BitVec 32 := Scalar.subi v239 c1_i32_238
  let v255 : BitVec 32 := Scalar.select v253 v254 v239
  let c2_i32_239 : BitVec 32 := 2#32
  let c0_i32_240 : BitVec 32 := 0#32
  let v256 : BitVec 1 := Scalar.cmpi .eq c2_i32_239 c0_i32_240
  let c1_i32_241 : BitVec 32 := 1#32
  let v257 : BitVec 32 := Scalar.select v256 c1_i32_241 c2_i32_239
  let v258 : BitVec 32 := Scalar.remsi v238 v257
  let c0_i32_243 : BitVec 32 := 0#32
  let v260 : BitVec 1 := Scalar.cmpi .slt v258 c0_i32_243
  let c0_i32_244 : BitVec 32 := 0#32
  let v261 : BitVec 1 := Scalar.cmpi .slt v257 c0_i32_244
  let v262 : BitVec 1 := Scalar.xori v260 v261
  let c0_i32_242 : BitVec 32 := 0#32
  let v259 : BitVec 1 := Scalar.cmpi .ne v258 c0_i32_242
  let v263 : BitVec 1 := Scalar.andi v262 v259
  let v264 : BitVec 32 := Scalar.addi v258 v257
  let v265 : BitVec 32 := Scalar.select v263 v264 v258
  let c64_i32_245 : BitVec 32 := 64#32
  let v266 : BitVec 32 := Scalar.muli v265 c64_i32_245
  ![v255.toNat, v266.toNat]
def k1_mult1 (i : grid1.Coords) (k1_t1 : Fin k1_t1_loop.trips) : BitVec 32 :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  v301
def k1_off8 (i : grid1.Coords) (k1_t1 : Fin k1_t1_loop.trips) : Fin 2 → Nat :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  let v302 : BitVec 32 := v301
  let c0_i32_263 : BitVec 32 := 0#32
  ![v302.toNat, 0]
def k1_off9 (k1_t1 : Fin k1_t1_loop.trips) (c1_i32_265 : BitVec 32) : Fin 2 → Nat :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let v305 : BitVec 32 := Scalar.addi v228 c1_i32_265
  let c64_i32_266 : BitVec 32 := 64#32
  let c0_i32_267 : BitVec 32 := 0#32
  let v306 : BitVec 1 := Scalar.cmpi .eq c64_i32_266 c0_i32_267
  let c1_i32_268 : BitVec 32 := 1#32
  let v307 : BitVec 32 := Scalar.select v306 c1_i32_268 c64_i32_266
  let v308 : BitVec 32 := Scalar.remsi v305 v307
  let c0_i32_270 : BitVec 32 := 0#32
  let v310 : BitVec 1 := Scalar.cmpi .slt v308 c0_i32_270
  let c0_i32_271 : BitVec 32 := 0#32
  let v311 : BitVec 1 := Scalar.cmpi .slt v307 c0_i32_271
  let v312 : BitVec 1 := Scalar.xori v310 v311
  let c0_i32_269 : BitVec 32 := 0#32
  let v309 : BitVec 1 := Scalar.cmpi .ne v308 c0_i32_269
  let v313 : BitVec 1 := Scalar.andi v312 v309
  let v314 : BitVec 32 := Scalar.addi v308 v307
  let v315 : BitVec 32 := Scalar.select v313 v314 v308
  let c0_i32_273 : BitVec 32 := 0#32
  let v317 : BitVec 1 := Scalar.cmpi .sgt v315 c0_i32_273
  let v318 : BitVec 32 := Scalar.extui v317
  let c0_i32_274 : BitVec 32 := 0#32
  let v319 : BitVec 1 := Scalar.cmpi .slt v315 c0_i32_274
  let v320 : BitVec 32 := Scalar.extui v319
  let v321 : BitVec 32 := Scalar.subi v318 v320
  let c2_i32_272 : BitVec 32 := 2#32
  let c0_i32_275 : BitVec 32 := 0#32
  let v322 : BitVec 1 := Scalar.cmpi .sgt c2_i32_272 c0_i32_275
  let v323 : BitVec 32 := Scalar.extui v322
  let c0_i32_276 : BitVec 32 := 0#32
  let v324 : BitVec 1 := Scalar.cmpi .slt c2_i32_272 c0_i32_276
  let v325 : BitVec 32 := Scalar.extui v324
  let v326 : BitVec 32 := Scalar.subi v323 v325
  let v327 : BitVec 1 := Scalar.cmpi .ne v321 v326
  let v328 : BitVec 32 := Scalar.remsi v315 c2_i32_272
  let c0_i32_277 : BitVec 32 := 0#32
  let v329 : BitVec 1 := Scalar.cmpi .ne v328 c0_i32_277
  let v330 : BitVec 1 := Scalar.andi v327 v329
  let v316 : BitVec 32 := Scalar.divsi v315 c2_i32_272
  let c1_i32_278 : BitVec 32 := 1#32
  let v331 : BitVec 32 := Scalar.subi v316 c1_i32_278
  let v332 : BitVec 32 := Scalar.select v330 v331 v316
  let c2_i32_279 : BitVec 32 := 2#32
  let c0_i32_280 : BitVec 32 := 0#32
  let v333 : BitVec 1 := Scalar.cmpi .eq c2_i32_279 c0_i32_280
  let c1_i32_281 : BitVec 32 := 1#32
  let v334 : BitVec 32 := Scalar.select v333 c1_i32_281 c2_i32_279
  let v335 : BitVec 32 := Scalar.remsi v315 v334
  let c0_i32_283 : BitVec 32 := 0#32
  let v337 : BitVec 1 := Scalar.cmpi .slt v335 c0_i32_283
  let c0_i32_284 : BitVec 32 := 0#32
  let v338 : BitVec 1 := Scalar.cmpi .slt v334 c0_i32_284
  let v339 : BitVec 1 := Scalar.xori v337 v338
  let c0_i32_282 : BitVec 32 := 0#32
  let v336 : BitVec 1 := Scalar.cmpi .ne v335 c0_i32_282
  let v340 : BitVec 1 := Scalar.andi v339 v336
  let v341 : BitVec 32 := Scalar.addi v335 v334
  let v342 : BitVec 32 := Scalar.select v340 v341 v335
  let c64_i32_285 : BitVec 32 := 64#32
  let v343 : BitVec 32 := Scalar.muli v342 c64_i32_285
  ![v332.toNat, v343.toNat]
def k1_mult2 (i : grid1.Coords) (k1_t1 : Fin k1_t1_loop.trips) : BitVec 32 :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  v379
def k1_off10 (i : grid1.Coords) (k1_t1 : Fin k1_t1_loop.trips) : Fin 2 → Nat :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  let v380 : BitVec 32 := v379
  let c0_i32_305 : BitVec 32 := 0#32
  ![v380.toNat, 0]
def k1_mult3 (i : grid1.Coords) (k1_t1 : Fin k1_t1_loop.trips) : BitVec 32 :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c0_i32_308 : BitVec 32 := 0#32
  let v384 : BitVec 1 := Scalar.cmpi .sgt v228 c0_i32_308
  let v385 : BitVec 32 := Scalar.extui v384
  let c0_i32_309 : BitVec 32 := 0#32
  let v386 : BitVec 1 := Scalar.cmpi .slt v228 c0_i32_309
  let v387 : BitVec 32 := Scalar.extui v386
  let v388 : BitVec 32 := Scalar.subi v385 v387
  let c16_i32_307 : BitVec 32 := 16#32
  let c0_i32_310 : BitVec 32 := 0#32
  let v389 : BitVec 1 := Scalar.cmpi .sgt c16_i32_307 c0_i32_310
  let v390 : BitVec 32 := Scalar.extui v389
  let c0_i32_311 : BitVec 32 := 0#32
  let v391 : BitVec 1 := Scalar.cmpi .slt c16_i32_307 c0_i32_311
  let v392 : BitVec 32 := Scalar.extui v391
  let v393 : BitVec 32 := Scalar.subi v390 v392
  let v394 : BitVec 1 := Scalar.cmpi .ne v388 v393
  let v395 : BitVec 32 := Scalar.remsi v228 c16_i32_307
  let c0_i32_312 : BitVec 32 := 0#32
  let v396 : BitVec 1 := Scalar.cmpi .ne v395 c0_i32_312
  let v397 : BitVec 1 := Scalar.andi v394 v396
  let v383 : BitVec 32 := Scalar.divsi v228 c16_i32_307
  let c1_i32_313 : BitVec 32 := 1#32
  let v398 : BitVec 32 := Scalar.subi v383 c1_i32_313
  let v399 : BitVec 32 := Scalar.select v397 v398 v383
  let c32768_i32_314 : BitVec 32 := 32768#32
  let v400 : BitVec 32 := Scalar.muli v399 c32768_i32_314
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_315 : BitVec 32 := 1024#32
  let v401 : BitVec 32 := Scalar.muli v1 c1024_i32_315
  let v402 : BitVec 32 := Scalar.addi v400 v401
  let c16_i32_316 : BitVec 32 := 16#32
  let c0_i32_317 : BitVec 32 := 0#32
  let v403 : BitVec 1 := Scalar.cmpi .eq c16_i32_316 c0_i32_317
  let c1_i32_318 : BitVec 32 := 1#32
  let v404 : BitVec 32 := Scalar.select v403 c1_i32_318 c16_i32_316
  let v405 : BitVec 32 := Scalar.remsi v228 v404
  let c0_i32_320 : BitVec 32 := 0#32
  let v407 : BitVec 1 := Scalar.cmpi .slt v405 c0_i32_320
  let c0_i32_321 : BitVec 32 := 0#32
  let v408 : BitVec 1 := Scalar.cmpi .slt v404 c0_i32_321
  let v409 : BitVec 1 := Scalar.xori v407 v408
  let c0_i32_319 : BitVec 32 := 0#32
  let v406 : BitVec 1 := Scalar.cmpi .ne v405 c0_i32_319
  let v410 : BitVec 1 := Scalar.andi v409 v406
  let v411 : BitVec 32 := Scalar.addi v405 v404
  let v412 : BitVec 32 := Scalar.select v410 v411 v405
  let c64_i32_322 : BitVec 32 := 64#32
  let v413 : BitVec 32 := Scalar.muli v412 c64_i32_322
  let v414 : BitVec 32 := Scalar.addi v402 v413
  v414
def k1_mult4 (i : grid1.Coords) (k1_t1 : Fin k1_t1_loop.trips) : BitVec 32 :=
  let c0_i32_225 : BitVec 32 := 0#32
  let c2_i32 : BitVec 32 := 2#32
  let c0_i32_13 : BitVec 32 := 0#32
  let c1_i32 : BitVec 32 := 1#32
  let arg15 : BitVec 32 := Scf.iv c0_i32_13 c1_i32 k1_t1
  let v227 : BitVec 32 := Scalar.muli c2_i32 arg15
  let v228 : BitVec 32 := Scalar.addi c0_i32_225 v227
  let c1_i32_348 : BitVec 32 := 1#32
  let v460 : BitVec 32 := Scalar.addi v228 c1_i32_348
  let c0_i32_350 : BitVec 32 := 0#32
  let v462 : BitVec 1 := Scalar.cmpi .sgt v460 c0_i32_350
  let v463 : BitVec 32 := Scalar.extui v462
  let c0_i32_351 : BitVec 32 := 0#32
  let v464 : BitVec 1 := Scalar.cmpi .slt v460 c0_i32_351
  let v465 : BitVec 32 := Scalar.extui v464
  let v466 : BitVec 32 := Scalar.subi v463 v465
  let c16_i32_349 : BitVec 32 := 16#32
  let c0_i32_352 : BitVec 32 := 0#32
  let v467 : BitVec 1 := Scalar.cmpi .sgt c16_i32_349 c0_i32_352
  let v468 : BitVec 32 := Scalar.extui v467
  let c0_i32_353 : BitVec 32 := 0#32
  let v469 : BitVec 1 := Scalar.cmpi .slt c16_i32_349 c0_i32_353
  let v470 : BitVec 32 := Scalar.extui v469
  let v471 : BitVec 32 := Scalar.subi v468 v470
  let v472 : BitVec 1 := Scalar.cmpi .ne v466 v471
  let v473 : BitVec 32 := Scalar.remsi v460 c16_i32_349
  let c0_i32_354 : BitVec 32 := 0#32
  let v474 : BitVec 1 := Scalar.cmpi .ne v473 c0_i32_354
  let v475 : BitVec 1 := Scalar.andi v472 v474
  let v461 : BitVec 32 := Scalar.divsi v460 c16_i32_349
  let c1_i32_355 : BitVec 32 := 1#32
  let v476 : BitVec 32 := Scalar.subi v461 c1_i32_355
  let v477 : BitVec 32 := Scalar.select v475 v476 v461
  let c32768_i32_356 : BitVec 32 := 32768#32
  let v478 : BitVec 32 := Scalar.muli v477 c32768_i32_356
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_357 : BitVec 32 := 1024#32
  let v479 : BitVec 32 := Scalar.muli v1 c1024_i32_357
  let v480 : BitVec 32 := Scalar.addi v478 v479
  let c16_i32_358 : BitVec 32 := 16#32
  let c0_i32_359 : BitVec 32 := 0#32
  let v481 : BitVec 1 := Scalar.cmpi .eq c16_i32_358 c0_i32_359
  let c1_i32_360 : BitVec 32 := 1#32
  let v482 : BitVec 32 := Scalar.select v481 c1_i32_360 c16_i32_358
  let v483 : BitVec 32 := Scalar.remsi v460 v482
  let c0_i32_362 : BitVec 32 := 0#32
  let v485 : BitVec 1 := Scalar.cmpi .slt v483 c0_i32_362
  let c0_i32_363 : BitVec 32 := 0#32
  let v486 : BitVec 1 := Scalar.cmpi .slt v482 c0_i32_363
  let v487 : BitVec 1 := Scalar.xori v485 v486
  let c0_i32_361 : BitVec 32 := 0#32
  let v484 : BitVec 1 := Scalar.cmpi .ne v483 c0_i32_361
  let v488 : BitVec 1 := Scalar.andi v487 v484
  let v489 : BitVec 32 := Scalar.addi v483 v482
  let v490 : BitVec 32 := Scalar.select v488 v489 v483
  let c64_i32_364 : BitVec 32 := 64#32
  let v491 : BitVec 32 := Scalar.muli v490 c64_i32_364
  let v492 : BitVec 32 := Scalar.addi v480 v491
  v492
def k1_mult5 (i : grid1.Coords) : BitVec 32 :=
  let c98304_i32 : BitVec 32 := 98304#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v24 : BitVec 32 := Scalar.muli v1 c1024_i32
  let v25 : BitVec 32 := Scalar.addi c98304_i32 v24
  let c896_i32 : BitVec 32 := 896#32
  let v26 : BitVec 32 := Scalar.addi v25 c896_i32
  v26
def k1_off11 (i : grid1.Coords) (c98304_i32 : BitVec 32) (c896_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32 : BitVec 32 := 1024#32
  let v24 : BitVec 32 := Scalar.muli v1 c1024_i32
  let v25 : BitVec 32 := Scalar.addi c98304_i32 v24
  let v26 : BitVec 32 := Scalar.addi v25 c896_i32
  let v27 : BitVec 32 := v26
  let c0_i32_19 : BitVec 32 := 0#32
  ![v27.toNat, 0]
def k1_mult6 (i : grid1.Coords) : BitVec 32 :=
  let c98304_i32_26 : BitVec 32 := 98304#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_25 : BitVec 32 := 1024#32
  let v33 : BitVec 32 := Scalar.muli v1 c1024_i32_25
  let v34 : BitVec 32 := Scalar.addi c98304_i32_26 v33
  let c960_i32 : BitVec 32 := 960#32
  let v35 : BitVec 32 := Scalar.addi v34 c960_i32
  v35
def k1_mult7 (i : grid1.Coords) : BitVec 32 :=
  let c98304_i32_30 : BitVec 32 := 98304#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_29 : BitVec 32 := 1024#32
  let v39 : BitVec 32 := Scalar.muli v1 c1024_i32_29
  let v40 : BitVec 32 := Scalar.addi c98304_i32_30 v39
  let c896_i32_31 : BitVec 32 := 896#32
  let v41 : BitVec 32 := Scalar.addi v40 c896_i32_31
  v41
def k1_mult8 (i : grid1.Coords) : BitVec 32 :=
  let c98304_i32_43 : BitVec 32 := 98304#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_42 : BitVec 32 := 1024#32
  let v52 : BitVec 32 := Scalar.muli v1 c1024_i32_42
  let v53 : BitVec 32 := Scalar.addi c98304_i32_43 v52
  let c960_i32_44 : BitVec 32 := 960#32
  let v54 : BitVec 32 := Scalar.addi v53 c960_i32_44
  v54
def k1_off12 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c64_i32_51 : BitVec 32 := 64#32
  let c0_i32_52 : BitVec 32 := 0#32
  ![v1.toNat, 64, 0]
@[reducible] def k1_t2_loop : Scf.Loop 32 :=
  let c0_i32_56 : BitVec 32 := 0#32
  let c31_i32_57 : BitVec 32 := 31#32
  let v65 : BitVec 32 := Scalar.addi c0_i32_56 c31_i32_57
  let c1_i32_58 : BitVec 32 := 1#32
  ⟨c0_i32_56, v65, c1_i32_58⟩
def k1_off13 (k1_t2 : Fin k1_t2_loop.trips) : Fin 2 → Nat :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c64_i32_226 : BitVec 32 := 64#32
  let c0_i32_227 : BitVec 32 := 0#32
  let v229 : BitVec 1 := Scalar.cmpi .eq c64_i32_226 c0_i32_227
  let c1_i32_228 : BitVec 32 := 1#32
  let v230 : BitVec 32 := Scalar.select v229 c1_i32_228 c64_i32_226
  let v231 : BitVec 32 := Scalar.remsi v228 v230
  let c0_i32_230 : BitVec 32 := 0#32
  let v233 : BitVec 1 := Scalar.cmpi .slt v231 c0_i32_230
  let c0_i32_231 : BitVec 32 := 0#32
  let v234 : BitVec 1 := Scalar.cmpi .slt v230 c0_i32_231
  let v235 : BitVec 1 := Scalar.xori v233 v234
  let c0_i32_229 : BitVec 32 := 0#32
  let v232 : BitVec 1 := Scalar.cmpi .ne v231 c0_i32_229
  let v236 : BitVec 1 := Scalar.andi v235 v232
  let v237 : BitVec 32 := Scalar.addi v231 v230
  let v238 : BitVec 32 := Scalar.select v236 v237 v231
  let c0_i32_233 : BitVec 32 := 0#32
  let v240 : BitVec 1 := Scalar.cmpi .sgt v238 c0_i32_233
  let v241 : BitVec 32 := Scalar.extui v240
  let c0_i32_234 : BitVec 32 := 0#32
  let v242 : BitVec 1 := Scalar.cmpi .slt v238 c0_i32_234
  let v243 : BitVec 32 := Scalar.extui v242
  let v244 : BitVec 32 := Scalar.subi v241 v243
  let c2_i32_232 : BitVec 32 := 2#32
  let c0_i32_235 : BitVec 32 := 0#32
  let v245 : BitVec 1 := Scalar.cmpi .sgt c2_i32_232 c0_i32_235
  let v246 : BitVec 32 := Scalar.extui v245
  let c0_i32_236 : BitVec 32 := 0#32
  let v247 : BitVec 1 := Scalar.cmpi .slt c2_i32_232 c0_i32_236
  let v248 : BitVec 32 := Scalar.extui v247
  let v249 : BitVec 32 := Scalar.subi v246 v248
  let v250 : BitVec 1 := Scalar.cmpi .ne v244 v249
  let v251 : BitVec 32 := Scalar.remsi v238 c2_i32_232
  let c0_i32_237 : BitVec 32 := 0#32
  let v252 : BitVec 1 := Scalar.cmpi .ne v251 c0_i32_237
  let v253 : BitVec 1 := Scalar.andi v250 v252
  let v239 : BitVec 32 := Scalar.divsi v238 c2_i32_232
  let c1_i32_238 : BitVec 32 := 1#32
  let v254 : BitVec 32 := Scalar.subi v239 c1_i32_238
  let v255 : BitVec 32 := Scalar.select v253 v254 v239
  let c2_i32_239 : BitVec 32 := 2#32
  let c0_i32_240 : BitVec 32 := 0#32
  let v256 : BitVec 1 := Scalar.cmpi .eq c2_i32_239 c0_i32_240
  let c1_i32_241 : BitVec 32 := 1#32
  let v257 : BitVec 32 := Scalar.select v256 c1_i32_241 c2_i32_239
  let v258 : BitVec 32 := Scalar.remsi v238 v257
  let c0_i32_243 : BitVec 32 := 0#32
  let v260 : BitVec 1 := Scalar.cmpi .slt v258 c0_i32_243
  let c0_i32_244 : BitVec 32 := 0#32
  let v261 : BitVec 1 := Scalar.cmpi .slt v257 c0_i32_244
  let v262 : BitVec 1 := Scalar.xori v260 v261
  let c0_i32_242 : BitVec 32 := 0#32
  let v259 : BitVec 1 := Scalar.cmpi .ne v258 c0_i32_242
  let v263 : BitVec 1 := Scalar.andi v262 v259
  let v264 : BitVec 32 := Scalar.addi v258 v257
  let v265 : BitVec 32 := Scalar.select v263 v264 v258
  let c64_i32_245 : BitVec 32 := 64#32
  let v266 : BitVec 32 := Scalar.muli v265 c64_i32_245
  ![v255.toNat, v266.toNat]
def k1_mult9 (i : grid1.Coords) (k1_t2 : Fin k1_t2_loop.trips) : BitVec 32 :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  v301
def k1_off14 (i : grid1.Coords) (k1_t2 : Fin k1_t2_loop.trips) : Fin 2 → Nat :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  let v302 : BitVec 32 := v301
  let c0_i32_263 : BitVec 32 := 0#32
  ![v302.toNat, 0]
def k1_off15 (k1_t2 : Fin k1_t2_loop.trips) (c1_i32_265 : BitVec 32) : Fin 2 → Nat :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let v305 : BitVec 32 := Scalar.addi v228 c1_i32_265
  let c64_i32_266 : BitVec 32 := 64#32
  let c0_i32_267 : BitVec 32 := 0#32
  let v306 : BitVec 1 := Scalar.cmpi .eq c64_i32_266 c0_i32_267
  let c1_i32_268 : BitVec 32 := 1#32
  let v307 : BitVec 32 := Scalar.select v306 c1_i32_268 c64_i32_266
  let v308 : BitVec 32 := Scalar.remsi v305 v307
  let c0_i32_270 : BitVec 32 := 0#32
  let v310 : BitVec 1 := Scalar.cmpi .slt v308 c0_i32_270
  let c0_i32_271 : BitVec 32 := 0#32
  let v311 : BitVec 1 := Scalar.cmpi .slt v307 c0_i32_271
  let v312 : BitVec 1 := Scalar.xori v310 v311
  let c0_i32_269 : BitVec 32 := 0#32
  let v309 : BitVec 1 := Scalar.cmpi .ne v308 c0_i32_269
  let v313 : BitVec 1 := Scalar.andi v312 v309
  let v314 : BitVec 32 := Scalar.addi v308 v307
  let v315 : BitVec 32 := Scalar.select v313 v314 v308
  let c0_i32_273 : BitVec 32 := 0#32
  let v317 : BitVec 1 := Scalar.cmpi .sgt v315 c0_i32_273
  let v318 : BitVec 32 := Scalar.extui v317
  let c0_i32_274 : BitVec 32 := 0#32
  let v319 : BitVec 1 := Scalar.cmpi .slt v315 c0_i32_274
  let v320 : BitVec 32 := Scalar.extui v319
  let v321 : BitVec 32 := Scalar.subi v318 v320
  let c2_i32_272 : BitVec 32 := 2#32
  let c0_i32_275 : BitVec 32 := 0#32
  let v322 : BitVec 1 := Scalar.cmpi .sgt c2_i32_272 c0_i32_275
  let v323 : BitVec 32 := Scalar.extui v322
  let c0_i32_276 : BitVec 32 := 0#32
  let v324 : BitVec 1 := Scalar.cmpi .slt c2_i32_272 c0_i32_276
  let v325 : BitVec 32 := Scalar.extui v324
  let v326 : BitVec 32 := Scalar.subi v323 v325
  let v327 : BitVec 1 := Scalar.cmpi .ne v321 v326
  let v328 : BitVec 32 := Scalar.remsi v315 c2_i32_272
  let c0_i32_277 : BitVec 32 := 0#32
  let v329 : BitVec 1 := Scalar.cmpi .ne v328 c0_i32_277
  let v330 : BitVec 1 := Scalar.andi v327 v329
  let v316 : BitVec 32 := Scalar.divsi v315 c2_i32_272
  let c1_i32_278 : BitVec 32 := 1#32
  let v331 : BitVec 32 := Scalar.subi v316 c1_i32_278
  let v332 : BitVec 32 := Scalar.select v330 v331 v316
  let c2_i32_279 : BitVec 32 := 2#32
  let c0_i32_280 : BitVec 32 := 0#32
  let v333 : BitVec 1 := Scalar.cmpi .eq c2_i32_279 c0_i32_280
  let c1_i32_281 : BitVec 32 := 1#32
  let v334 : BitVec 32 := Scalar.select v333 c1_i32_281 c2_i32_279
  let v335 : BitVec 32 := Scalar.remsi v315 v334
  let c0_i32_283 : BitVec 32 := 0#32
  let v337 : BitVec 1 := Scalar.cmpi .slt v335 c0_i32_283
  let c0_i32_284 : BitVec 32 := 0#32
  let v338 : BitVec 1 := Scalar.cmpi .slt v334 c0_i32_284
  let v339 : BitVec 1 := Scalar.xori v337 v338
  let c0_i32_282 : BitVec 32 := 0#32
  let v336 : BitVec 1 := Scalar.cmpi .ne v335 c0_i32_282
  let v340 : BitVec 1 := Scalar.andi v339 v336
  let v341 : BitVec 32 := Scalar.addi v335 v334
  let v342 : BitVec 32 := Scalar.select v340 v341 v335
  let c64_i32_285 : BitVec 32 := 64#32
  let v343 : BitVec 32 := Scalar.muli v342 c64_i32_285
  ![v332.toNat, v343.toNat]
def k1_mult10 (i : grid1.Coords) (k1_t2 : Fin k1_t2_loop.trips) : BitVec 32 :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  v379
def k1_off16 (i : grid1.Coords) (k1_t2 : Fin k1_t2_loop.trips) : Fin 2 → Nat :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  let v380 : BitVec 32 := v379
  let c0_i32_305 : BitVec 32 := 0#32
  ![v380.toNat, 0]
def k1_mult11 (i : grid1.Coords) (k1_t2 : Fin k1_t2_loop.trips) : BitVec 32 :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c0_i32_308 : BitVec 32 := 0#32
  let v384 : BitVec 1 := Scalar.cmpi .sgt v228 c0_i32_308
  let v385 : BitVec 32 := Scalar.extui v384
  let c0_i32_309 : BitVec 32 := 0#32
  let v386 : BitVec 1 := Scalar.cmpi .slt v228 c0_i32_309
  let v387 : BitVec 32 := Scalar.extui v386
  let v388 : BitVec 32 := Scalar.subi v385 v387
  let c16_i32_307 : BitVec 32 := 16#32
  let c0_i32_310 : BitVec 32 := 0#32
  let v389 : BitVec 1 := Scalar.cmpi .sgt c16_i32_307 c0_i32_310
  let v390 : BitVec 32 := Scalar.extui v389
  let c0_i32_311 : BitVec 32 := 0#32
  let v391 : BitVec 1 := Scalar.cmpi .slt c16_i32_307 c0_i32_311
  let v392 : BitVec 32 := Scalar.extui v391
  let v393 : BitVec 32 := Scalar.subi v390 v392
  let v394 : BitVec 1 := Scalar.cmpi .ne v388 v393
  let v395 : BitVec 32 := Scalar.remsi v228 c16_i32_307
  let c0_i32_312 : BitVec 32 := 0#32
  let v396 : BitVec 1 := Scalar.cmpi .ne v395 c0_i32_312
  let v397 : BitVec 1 := Scalar.andi v394 v396
  let v383 : BitVec 32 := Scalar.divsi v228 c16_i32_307
  let c1_i32_313 : BitVec 32 := 1#32
  let v398 : BitVec 32 := Scalar.subi v383 c1_i32_313
  let v399 : BitVec 32 := Scalar.select v397 v398 v383
  let c32768_i32_314 : BitVec 32 := 32768#32
  let v400 : BitVec 32 := Scalar.muli v399 c32768_i32_314
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_315 : BitVec 32 := 1024#32
  let v401 : BitVec 32 := Scalar.muli v1 c1024_i32_315
  let v402 : BitVec 32 := Scalar.addi v400 v401
  let c16_i32_316 : BitVec 32 := 16#32
  let c0_i32_317 : BitVec 32 := 0#32
  let v403 : BitVec 1 := Scalar.cmpi .eq c16_i32_316 c0_i32_317
  let c1_i32_318 : BitVec 32 := 1#32
  let v404 : BitVec 32 := Scalar.select v403 c1_i32_318 c16_i32_316
  let v405 : BitVec 32 := Scalar.remsi v228 v404
  let c0_i32_320 : BitVec 32 := 0#32
  let v407 : BitVec 1 := Scalar.cmpi .slt v405 c0_i32_320
  let c0_i32_321 : BitVec 32 := 0#32
  let v408 : BitVec 1 := Scalar.cmpi .slt v404 c0_i32_321
  let v409 : BitVec 1 := Scalar.xori v407 v408
  let c0_i32_319 : BitVec 32 := 0#32
  let v406 : BitVec 1 := Scalar.cmpi .ne v405 c0_i32_319
  let v410 : BitVec 1 := Scalar.andi v409 v406
  let v411 : BitVec 32 := Scalar.addi v405 v404
  let v412 : BitVec 32 := Scalar.select v410 v411 v405
  let c64_i32_322 : BitVec 32 := 64#32
  let v413 : BitVec 32 := Scalar.muli v412 c64_i32_322
  let v414 : BitVec 32 := Scalar.addi v402 v413
  v414
def k1_mult12 (i : grid1.Coords) (k1_t2 : Fin k1_t2_loop.trips) : BitVec 32 :=
  let c64_i32_225 : BitVec 32 := 64#32
  let c2_i32 : BitVec 32 := 2#32
  let c0_i32_56 : BitVec 32 := 0#32
  let c1_i32_58 : BitVec 32 := 1#32
  let arg15 : BitVec 32 := Scf.iv c0_i32_56 c1_i32_58 k1_t2
  let v227 : BitVec 32 := Scalar.muli c2_i32 arg15
  let v228 : BitVec 32 := Scalar.addi c64_i32_225 v227
  let c1_i32_348 : BitVec 32 := 1#32
  let v460 : BitVec 32 := Scalar.addi v228 c1_i32_348
  let c0_i32_350 : BitVec 32 := 0#32
  let v462 : BitVec 1 := Scalar.cmpi .sgt v460 c0_i32_350
  let v463 : BitVec 32 := Scalar.extui v462
  let c0_i32_351 : BitVec 32 := 0#32
  let v464 : BitVec 1 := Scalar.cmpi .slt v460 c0_i32_351
  let v465 : BitVec 32 := Scalar.extui v464
  let v466 : BitVec 32 := Scalar.subi v463 v465
  let c16_i32_349 : BitVec 32 := 16#32
  let c0_i32_352 : BitVec 32 := 0#32
  let v467 : BitVec 1 := Scalar.cmpi .sgt c16_i32_349 c0_i32_352
  let v468 : BitVec 32 := Scalar.extui v467
  let c0_i32_353 : BitVec 32 := 0#32
  let v469 : BitVec 1 := Scalar.cmpi .slt c16_i32_349 c0_i32_353
  let v470 : BitVec 32 := Scalar.extui v469
  let v471 : BitVec 32 := Scalar.subi v468 v470
  let v472 : BitVec 1 := Scalar.cmpi .ne v466 v471
  let v473 : BitVec 32 := Scalar.remsi v460 c16_i32_349
  let c0_i32_354 : BitVec 32 := 0#32
  let v474 : BitVec 1 := Scalar.cmpi .ne v473 c0_i32_354
  let v475 : BitVec 1 := Scalar.andi v472 v474
  let v461 : BitVec 32 := Scalar.divsi v460 c16_i32_349
  let c1_i32_355 : BitVec 32 := 1#32
  let v476 : BitVec 32 := Scalar.subi v461 c1_i32_355
  let v477 : BitVec 32 := Scalar.select v475 v476 v461
  let c32768_i32_356 : BitVec 32 := 32768#32
  let v478 : BitVec 32 := Scalar.muli v477 c32768_i32_356
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_357 : BitVec 32 := 1024#32
  let v479 : BitVec 32 := Scalar.muli v1 c1024_i32_357
  let v480 : BitVec 32 := Scalar.addi v478 v479
  let c16_i32_358 : BitVec 32 := 16#32
  let c0_i32_359 : BitVec 32 := 0#32
  let v481 : BitVec 1 := Scalar.cmpi .eq c16_i32_358 c0_i32_359
  let c1_i32_360 : BitVec 32 := 1#32
  let v482 : BitVec 32 := Scalar.select v481 c1_i32_360 c16_i32_358
  let v483 : BitVec 32 := Scalar.remsi v460 v482
  let c0_i32_362 : BitVec 32 := 0#32
  let v485 : BitVec 1 := Scalar.cmpi .slt v483 c0_i32_362
  let c0_i32_363 : BitVec 32 := 0#32
  let v486 : BitVec 1 := Scalar.cmpi .slt v482 c0_i32_363
  let v487 : BitVec 1 := Scalar.xori v485 v486
  let c0_i32_361 : BitVec 32 := 0#32
  let v484 : BitVec 1 := Scalar.cmpi .ne v483 c0_i32_361
  let v488 : BitVec 1 := Scalar.andi v487 v484
  let v489 : BitVec 32 := Scalar.addi v483 v482
  let v490 : BitVec 32 := Scalar.select v488 v489 v483
  let c64_i32_364 : BitVec 32 := 64#32
  let v491 : BitVec 32 := Scalar.muli v490 c64_i32_364
  let v492 : BitVec 32 := Scalar.addi v480 v491
  v492
def k1_mult13 (i : grid1.Coords) : BitVec 32 :=
  let c229376_i32 : BitVec 32 := 229376#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_64 : BitVec 32 := 1024#32
  let v69 : BitVec 32 := Scalar.muli v1 c1024_i32_64
  let v70 : BitVec 32 := Scalar.addi c229376_i32 v69
  let c896_i32_65 : BitVec 32 := 896#32
  let v71 : BitVec 32 := Scalar.addi v70 c896_i32_65
  v71
def k1_mult14 (i : grid1.Coords) : BitVec 32 :=
  let c229376_i32_73 : BitVec 32 := 229376#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_72 : BitVec 32 := 1024#32
  let v78 : BitVec 32 := Scalar.muli v1 c1024_i32_72
  let v79 : BitVec 32 := Scalar.addi c229376_i32_73 v78
  let c960_i32_74 : BitVec 32 := 960#32
  let v80 : BitVec 32 := Scalar.addi v79 c960_i32_74
  v80
def k1_mult15 (i : grid1.Coords) : BitVec 32 :=
  let c229376_i32_78 : BitVec 32 := 229376#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_77 : BitVec 32 := 1024#32
  let v84 : BitVec 32 := Scalar.muli v1 c1024_i32_77
  let v85 : BitVec 32 := Scalar.addi c229376_i32_78 v84
  let c896_i32_79 : BitVec 32 := 896#32
  let v86 : BitVec 32 := Scalar.addi v85 c896_i32_79
  v86
def k1_mult16 (i : grid1.Coords) : BitVec 32 :=
  let c229376_i32_91 : BitVec 32 := 229376#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_90 : BitVec 32 := 1024#32
  let v97 : BitVec 32 := Scalar.muli v1 c1024_i32_90
  let v98 : BitVec 32 := Scalar.addi c229376_i32_91 v97
  let c960_i32_92 : BitVec 32 := 960#32
  let v99 : BitVec 32 := Scalar.addi v98 c960_i32_92
  v99
def k1_off17 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c96_i32 : BitVec 32 := 96#32
  let c0_i32_99 : BitVec 32 := 0#32
  ![v1.toNat, 96, 0]
@[reducible] def k1_t3_loop : Scf.Loop 32 :=
  let c0_i32_103 : BitVec 32 := 0#32
  let c31_i32_104 : BitVec 32 := 31#32
  let v110 : BitVec 32 := Scalar.addi c0_i32_103 c31_i32_104
  let c1_i32_105 : BitVec 32 := 1#32
  ⟨c0_i32_103, v110, c1_i32_105⟩
def k1_off18 (k1_t3 : Fin k1_t3_loop.trips) : Fin 2 → Nat :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c64_i32_226 : BitVec 32 := 64#32
  let c0_i32_227 : BitVec 32 := 0#32
  let v229 : BitVec 1 := Scalar.cmpi .eq c64_i32_226 c0_i32_227
  let c1_i32_228 : BitVec 32 := 1#32
  let v230 : BitVec 32 := Scalar.select v229 c1_i32_228 c64_i32_226
  let v231 : BitVec 32 := Scalar.remsi v228 v230
  let c0_i32_230 : BitVec 32 := 0#32
  let v233 : BitVec 1 := Scalar.cmpi .slt v231 c0_i32_230
  let c0_i32_231 : BitVec 32 := 0#32
  let v234 : BitVec 1 := Scalar.cmpi .slt v230 c0_i32_231
  let v235 : BitVec 1 := Scalar.xori v233 v234
  let c0_i32_229 : BitVec 32 := 0#32
  let v232 : BitVec 1 := Scalar.cmpi .ne v231 c0_i32_229
  let v236 : BitVec 1 := Scalar.andi v235 v232
  let v237 : BitVec 32 := Scalar.addi v231 v230
  let v238 : BitVec 32 := Scalar.select v236 v237 v231
  let c0_i32_233 : BitVec 32 := 0#32
  let v240 : BitVec 1 := Scalar.cmpi .sgt v238 c0_i32_233
  let v241 : BitVec 32 := Scalar.extui v240
  let c0_i32_234 : BitVec 32 := 0#32
  let v242 : BitVec 1 := Scalar.cmpi .slt v238 c0_i32_234
  let v243 : BitVec 32 := Scalar.extui v242
  let v244 : BitVec 32 := Scalar.subi v241 v243
  let c2_i32_232 : BitVec 32 := 2#32
  let c0_i32_235 : BitVec 32 := 0#32
  let v245 : BitVec 1 := Scalar.cmpi .sgt c2_i32_232 c0_i32_235
  let v246 : BitVec 32 := Scalar.extui v245
  let c0_i32_236 : BitVec 32 := 0#32
  let v247 : BitVec 1 := Scalar.cmpi .slt c2_i32_232 c0_i32_236
  let v248 : BitVec 32 := Scalar.extui v247
  let v249 : BitVec 32 := Scalar.subi v246 v248
  let v250 : BitVec 1 := Scalar.cmpi .ne v244 v249
  let v251 : BitVec 32 := Scalar.remsi v238 c2_i32_232
  let c0_i32_237 : BitVec 32 := 0#32
  let v252 : BitVec 1 := Scalar.cmpi .ne v251 c0_i32_237
  let v253 : BitVec 1 := Scalar.andi v250 v252
  let v239 : BitVec 32 := Scalar.divsi v238 c2_i32_232
  let c1_i32_238 : BitVec 32 := 1#32
  let v254 : BitVec 32 := Scalar.subi v239 c1_i32_238
  let v255 : BitVec 32 := Scalar.select v253 v254 v239
  let c2_i32_239 : BitVec 32 := 2#32
  let c0_i32_240 : BitVec 32 := 0#32
  let v256 : BitVec 1 := Scalar.cmpi .eq c2_i32_239 c0_i32_240
  let c1_i32_241 : BitVec 32 := 1#32
  let v257 : BitVec 32 := Scalar.select v256 c1_i32_241 c2_i32_239
  let v258 : BitVec 32 := Scalar.remsi v238 v257
  let c0_i32_243 : BitVec 32 := 0#32
  let v260 : BitVec 1 := Scalar.cmpi .slt v258 c0_i32_243
  let c0_i32_244 : BitVec 32 := 0#32
  let v261 : BitVec 1 := Scalar.cmpi .slt v257 c0_i32_244
  let v262 : BitVec 1 := Scalar.xori v260 v261
  let c0_i32_242 : BitVec 32 := 0#32
  let v259 : BitVec 1 := Scalar.cmpi .ne v258 c0_i32_242
  let v263 : BitVec 1 := Scalar.andi v262 v259
  let v264 : BitVec 32 := Scalar.addi v258 v257
  let v265 : BitVec 32 := Scalar.select v263 v264 v258
  let c64_i32_245 : BitVec 32 := 64#32
  let v266 : BitVec 32 := Scalar.muli v265 c64_i32_245
  ![v255.toNat, v266.toNat]
def k1_mult17 (i : grid1.Coords) (k1_t3 : Fin k1_t3_loop.trips) : BitVec 32 :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  v301
def k1_off19 (i : grid1.Coords) (k1_t3 : Fin k1_t3_loop.trips) : Fin 2 → Nat :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  let v302 : BitVec 32 := v301
  let c0_i32_263 : BitVec 32 := 0#32
  ![v302.toNat, 0]
def k1_off20 (k1_t3 : Fin k1_t3_loop.trips) (c1_i32_265 : BitVec 32) : Fin 2 → Nat :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let v305 : BitVec 32 := Scalar.addi v228 c1_i32_265
  let c64_i32_266 : BitVec 32 := 64#32
  let c0_i32_267 : BitVec 32 := 0#32
  let v306 : BitVec 1 := Scalar.cmpi .eq c64_i32_266 c0_i32_267
  let c1_i32_268 : BitVec 32 := 1#32
  let v307 : BitVec 32 := Scalar.select v306 c1_i32_268 c64_i32_266
  let v308 : BitVec 32 := Scalar.remsi v305 v307
  let c0_i32_270 : BitVec 32 := 0#32
  let v310 : BitVec 1 := Scalar.cmpi .slt v308 c0_i32_270
  let c0_i32_271 : BitVec 32 := 0#32
  let v311 : BitVec 1 := Scalar.cmpi .slt v307 c0_i32_271
  let v312 : BitVec 1 := Scalar.xori v310 v311
  let c0_i32_269 : BitVec 32 := 0#32
  let v309 : BitVec 1 := Scalar.cmpi .ne v308 c0_i32_269
  let v313 : BitVec 1 := Scalar.andi v312 v309
  let v314 : BitVec 32 := Scalar.addi v308 v307
  let v315 : BitVec 32 := Scalar.select v313 v314 v308
  let c0_i32_273 : BitVec 32 := 0#32
  let v317 : BitVec 1 := Scalar.cmpi .sgt v315 c0_i32_273
  let v318 : BitVec 32 := Scalar.extui v317
  let c0_i32_274 : BitVec 32 := 0#32
  let v319 : BitVec 1 := Scalar.cmpi .slt v315 c0_i32_274
  let v320 : BitVec 32 := Scalar.extui v319
  let v321 : BitVec 32 := Scalar.subi v318 v320
  let c2_i32_272 : BitVec 32 := 2#32
  let c0_i32_275 : BitVec 32 := 0#32
  let v322 : BitVec 1 := Scalar.cmpi .sgt c2_i32_272 c0_i32_275
  let v323 : BitVec 32 := Scalar.extui v322
  let c0_i32_276 : BitVec 32 := 0#32
  let v324 : BitVec 1 := Scalar.cmpi .slt c2_i32_272 c0_i32_276
  let v325 : BitVec 32 := Scalar.extui v324
  let v326 : BitVec 32 := Scalar.subi v323 v325
  let v327 : BitVec 1 := Scalar.cmpi .ne v321 v326
  let v328 : BitVec 32 := Scalar.remsi v315 c2_i32_272
  let c0_i32_277 : BitVec 32 := 0#32
  let v329 : BitVec 1 := Scalar.cmpi .ne v328 c0_i32_277
  let v330 : BitVec 1 := Scalar.andi v327 v329
  let v316 : BitVec 32 := Scalar.divsi v315 c2_i32_272
  let c1_i32_278 : BitVec 32 := 1#32
  let v331 : BitVec 32 := Scalar.subi v316 c1_i32_278
  let v332 : BitVec 32 := Scalar.select v330 v331 v316
  let c2_i32_279 : BitVec 32 := 2#32
  let c0_i32_280 : BitVec 32 := 0#32
  let v333 : BitVec 1 := Scalar.cmpi .eq c2_i32_279 c0_i32_280
  let c1_i32_281 : BitVec 32 := 1#32
  let v334 : BitVec 32 := Scalar.select v333 c1_i32_281 c2_i32_279
  let v335 : BitVec 32 := Scalar.remsi v315 v334
  let c0_i32_283 : BitVec 32 := 0#32
  let v337 : BitVec 1 := Scalar.cmpi .slt v335 c0_i32_283
  let c0_i32_284 : BitVec 32 := 0#32
  let v338 : BitVec 1 := Scalar.cmpi .slt v334 c0_i32_284
  let v339 : BitVec 1 := Scalar.xori v337 v338
  let c0_i32_282 : BitVec 32 := 0#32
  let v336 : BitVec 1 := Scalar.cmpi .ne v335 c0_i32_282
  let v340 : BitVec 1 := Scalar.andi v339 v336
  let v341 : BitVec 32 := Scalar.addi v335 v334
  let v342 : BitVec 32 := Scalar.select v340 v341 v335
  let c64_i32_285 : BitVec 32 := 64#32
  let v343 : BitVec 32 := Scalar.muli v342 c64_i32_285
  ![v332.toNat, v343.toNat]
def k1_mult18 (i : grid1.Coords) (k1_t3 : Fin k1_t3_loop.trips) : BitVec 32 :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  v379
def k1_off21 (i : grid1.Coords) (k1_t3 : Fin k1_t3_loop.trips) : Fin 2 → Nat :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  let v380 : BitVec 32 := v379
  let c0_i32_305 : BitVec 32 := 0#32
  ![v380.toNat, 0]
def k1_mult19 (i : grid1.Coords) (k1_t3 : Fin k1_t3_loop.trips) : BitVec 32 :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c0_i32_308 : BitVec 32 := 0#32
  let v384 : BitVec 1 := Scalar.cmpi .sgt v228 c0_i32_308
  let v385 : BitVec 32 := Scalar.extui v384
  let c0_i32_309 : BitVec 32 := 0#32
  let v386 : BitVec 1 := Scalar.cmpi .slt v228 c0_i32_309
  let v387 : BitVec 32 := Scalar.extui v386
  let v388 : BitVec 32 := Scalar.subi v385 v387
  let c16_i32_307 : BitVec 32 := 16#32
  let c0_i32_310 : BitVec 32 := 0#32
  let v389 : BitVec 1 := Scalar.cmpi .sgt c16_i32_307 c0_i32_310
  let v390 : BitVec 32 := Scalar.extui v389
  let c0_i32_311 : BitVec 32 := 0#32
  let v391 : BitVec 1 := Scalar.cmpi .slt c16_i32_307 c0_i32_311
  let v392 : BitVec 32 := Scalar.extui v391
  let v393 : BitVec 32 := Scalar.subi v390 v392
  let v394 : BitVec 1 := Scalar.cmpi .ne v388 v393
  let v395 : BitVec 32 := Scalar.remsi v228 c16_i32_307
  let c0_i32_312 : BitVec 32 := 0#32
  let v396 : BitVec 1 := Scalar.cmpi .ne v395 c0_i32_312
  let v397 : BitVec 1 := Scalar.andi v394 v396
  let v383 : BitVec 32 := Scalar.divsi v228 c16_i32_307
  let c1_i32_313 : BitVec 32 := 1#32
  let v398 : BitVec 32 := Scalar.subi v383 c1_i32_313
  let v399 : BitVec 32 := Scalar.select v397 v398 v383
  let c32768_i32_314 : BitVec 32 := 32768#32
  let v400 : BitVec 32 := Scalar.muli v399 c32768_i32_314
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_315 : BitVec 32 := 1024#32
  let v401 : BitVec 32 := Scalar.muli v1 c1024_i32_315
  let v402 : BitVec 32 := Scalar.addi v400 v401
  let c16_i32_316 : BitVec 32 := 16#32
  let c0_i32_317 : BitVec 32 := 0#32
  let v403 : BitVec 1 := Scalar.cmpi .eq c16_i32_316 c0_i32_317
  let c1_i32_318 : BitVec 32 := 1#32
  let v404 : BitVec 32 := Scalar.select v403 c1_i32_318 c16_i32_316
  let v405 : BitVec 32 := Scalar.remsi v228 v404
  let c0_i32_320 : BitVec 32 := 0#32
  let v407 : BitVec 1 := Scalar.cmpi .slt v405 c0_i32_320
  let c0_i32_321 : BitVec 32 := 0#32
  let v408 : BitVec 1 := Scalar.cmpi .slt v404 c0_i32_321
  let v409 : BitVec 1 := Scalar.xori v407 v408
  let c0_i32_319 : BitVec 32 := 0#32
  let v406 : BitVec 1 := Scalar.cmpi .ne v405 c0_i32_319
  let v410 : BitVec 1 := Scalar.andi v409 v406
  let v411 : BitVec 32 := Scalar.addi v405 v404
  let v412 : BitVec 32 := Scalar.select v410 v411 v405
  let c64_i32_322 : BitVec 32 := 64#32
  let v413 : BitVec 32 := Scalar.muli v412 c64_i32_322
  let v414 : BitVec 32 := Scalar.addi v402 v413
  v414
def k1_mult20 (i : grid1.Coords) (k1_t3 : Fin k1_t3_loop.trips) : BitVec 32 :=
  let c128_i32_225 : BitVec 32 := 128#32
  let c2_i32 : BitVec 32 := 2#32
  let c0_i32_103 : BitVec 32 := 0#32
  let c1_i32_105 : BitVec 32 := 1#32
  let arg15 : BitVec 32 := Scf.iv c0_i32_103 c1_i32_105 k1_t3
  let v227 : BitVec 32 := Scalar.muli c2_i32 arg15
  let v228 : BitVec 32 := Scalar.addi c128_i32_225 v227
  let c1_i32_348 : BitVec 32 := 1#32
  let v460 : BitVec 32 := Scalar.addi v228 c1_i32_348
  let c0_i32_350 : BitVec 32 := 0#32
  let v462 : BitVec 1 := Scalar.cmpi .sgt v460 c0_i32_350
  let v463 : BitVec 32 := Scalar.extui v462
  let c0_i32_351 : BitVec 32 := 0#32
  let v464 : BitVec 1 := Scalar.cmpi .slt v460 c0_i32_351
  let v465 : BitVec 32 := Scalar.extui v464
  let v466 : BitVec 32 := Scalar.subi v463 v465
  let c16_i32_349 : BitVec 32 := 16#32
  let c0_i32_352 : BitVec 32 := 0#32
  let v467 : BitVec 1 := Scalar.cmpi .sgt c16_i32_349 c0_i32_352
  let v468 : BitVec 32 := Scalar.extui v467
  let c0_i32_353 : BitVec 32 := 0#32
  let v469 : BitVec 1 := Scalar.cmpi .slt c16_i32_349 c0_i32_353
  let v470 : BitVec 32 := Scalar.extui v469
  let v471 : BitVec 32 := Scalar.subi v468 v470
  let v472 : BitVec 1 := Scalar.cmpi .ne v466 v471
  let v473 : BitVec 32 := Scalar.remsi v460 c16_i32_349
  let c0_i32_354 : BitVec 32 := 0#32
  let v474 : BitVec 1 := Scalar.cmpi .ne v473 c0_i32_354
  let v475 : BitVec 1 := Scalar.andi v472 v474
  let v461 : BitVec 32 := Scalar.divsi v460 c16_i32_349
  let c1_i32_355 : BitVec 32 := 1#32
  let v476 : BitVec 32 := Scalar.subi v461 c1_i32_355
  let v477 : BitVec 32 := Scalar.select v475 v476 v461
  let c32768_i32_356 : BitVec 32 := 32768#32
  let v478 : BitVec 32 := Scalar.muli v477 c32768_i32_356
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_357 : BitVec 32 := 1024#32
  let v479 : BitVec 32 := Scalar.muli v1 c1024_i32_357
  let v480 : BitVec 32 := Scalar.addi v478 v479
  let c16_i32_358 : BitVec 32 := 16#32
  let c0_i32_359 : BitVec 32 := 0#32
  let v481 : BitVec 1 := Scalar.cmpi .eq c16_i32_358 c0_i32_359
  let c1_i32_360 : BitVec 32 := 1#32
  let v482 : BitVec 32 := Scalar.select v481 c1_i32_360 c16_i32_358
  let v483 : BitVec 32 := Scalar.remsi v460 v482
  let c0_i32_362 : BitVec 32 := 0#32
  let v485 : BitVec 1 := Scalar.cmpi .slt v483 c0_i32_362
  let c0_i32_363 : BitVec 32 := 0#32
  let v486 : BitVec 1 := Scalar.cmpi .slt v482 c0_i32_363
  let v487 : BitVec 1 := Scalar.xori v485 v486
  let c0_i32_361 : BitVec 32 := 0#32
  let v484 : BitVec 1 := Scalar.cmpi .ne v483 c0_i32_361
  let v488 : BitVec 1 := Scalar.andi v487 v484
  let v489 : BitVec 32 := Scalar.addi v483 v482
  let v490 : BitVec 32 := Scalar.select v488 v489 v483
  let c64_i32_364 : BitVec 32 := 64#32
  let v491 : BitVec 32 := Scalar.muli v490 c64_i32_364
  let v492 : BitVec 32 := Scalar.addi v480 v491
  v492
def k1_mult21 (i : grid1.Coords) : BitVec 32 :=
  let c360448_i32 : BitVec 32 := 360448#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_111 : BitVec 32 := 1024#32
  let v114 : BitVec 32 := Scalar.muli v1 c1024_i32_111
  let v115 : BitVec 32 := Scalar.addi c360448_i32 v114
  let c896_i32_112 : BitVec 32 := 896#32
  let v116 : BitVec 32 := Scalar.addi v115 c896_i32_112
  v116
def k1_mult22 (i : grid1.Coords) : BitVec 32 :=
  let c360448_i32_120 : BitVec 32 := 360448#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_119 : BitVec 32 := 1024#32
  let v123 : BitVec 32 := Scalar.muli v1 c1024_i32_119
  let v124 : BitVec 32 := Scalar.addi c360448_i32_120 v123
  let c960_i32_121 : BitVec 32 := 960#32
  let v125 : BitVec 32 := Scalar.addi v124 c960_i32_121
  v125
def k1_mult23 (i : grid1.Coords) : BitVec 32 :=
  let c360448_i32_125 : BitVec 32 := 360448#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_124 : BitVec 32 := 1024#32
  let v129 : BitVec 32 := Scalar.muli v1 c1024_i32_124
  let v130 : BitVec 32 := Scalar.addi c360448_i32_125 v129
  let c896_i32_126 : BitVec 32 := 896#32
  let v131 : BitVec 32 := Scalar.addi v130 c896_i32_126
  v131
def k1_mult24 (i : grid1.Coords) : BitVec 32 :=
  let c360448_i32_138 : BitVec 32 := 360448#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_137 : BitVec 32 := 1024#32
  let v142 : BitVec 32 := Scalar.muli v1 c1024_i32_137
  let v143 : BitVec 32 := Scalar.addi c360448_i32_138 v142
  let c960_i32_139 : BitVec 32 := 960#32
  let v144 : BitVec 32 := Scalar.addi v143 c960_i32_139
  v144
def k1_off22 (i : grid1.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let c0_i32_146 : BitVec 32 := 0#32
  ![v1.toNat, 128, 0]
@[reducible] def k1_t4_loop : Scf.Loop 32 :=
  let c0_i32_150 : BitVec 32 := 0#32
  let c31_i32_151 : BitVec 32 := 31#32
  let v155 : BitVec 32 := Scalar.addi c0_i32_150 c31_i32_151
  let c1_i32_152 : BitVec 32 := 1#32
  ⟨c0_i32_150, v155, c1_i32_152⟩
def k1_off23 (k1_t4 : Fin k1_t4_loop.trips) : Fin 2 → Nat :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c64_i32_225 : BitVec 32 := 64#32
  let c0_i32_226 : BitVec 32 := 0#32
  let v229 : BitVec 1 := Scalar.cmpi .eq c64_i32_225 c0_i32_226
  let c1_i32_227 : BitVec 32 := 1#32
  let v230 : BitVec 32 := Scalar.select v229 c1_i32_227 c64_i32_225
  let v231 : BitVec 32 := Scalar.remsi v228 v230
  let c0_i32_229 : BitVec 32 := 0#32
  let v233 : BitVec 1 := Scalar.cmpi .slt v231 c0_i32_229
  let c0_i32_230 : BitVec 32 := 0#32
  let v234 : BitVec 1 := Scalar.cmpi .slt v230 c0_i32_230
  let v235 : BitVec 1 := Scalar.xori v233 v234
  let c0_i32_228 : BitVec 32 := 0#32
  let v232 : BitVec 1 := Scalar.cmpi .ne v231 c0_i32_228
  let v236 : BitVec 1 := Scalar.andi v235 v232
  let v237 : BitVec 32 := Scalar.addi v231 v230
  let v238 : BitVec 32 := Scalar.select v236 v237 v231
  let c0_i32_232 : BitVec 32 := 0#32
  let v240 : BitVec 1 := Scalar.cmpi .sgt v238 c0_i32_232
  let v241 : BitVec 32 := Scalar.extui v240
  let c0_i32_233 : BitVec 32 := 0#32
  let v242 : BitVec 1 := Scalar.cmpi .slt v238 c0_i32_233
  let v243 : BitVec 32 := Scalar.extui v242
  let v244 : BitVec 32 := Scalar.subi v241 v243
  let c2_i32_231 : BitVec 32 := 2#32
  let c0_i32_234 : BitVec 32 := 0#32
  let v245 : BitVec 1 := Scalar.cmpi .sgt c2_i32_231 c0_i32_234
  let v246 : BitVec 32 := Scalar.extui v245
  let c0_i32_235 : BitVec 32 := 0#32
  let v247 : BitVec 1 := Scalar.cmpi .slt c2_i32_231 c0_i32_235
  let v248 : BitVec 32 := Scalar.extui v247
  let v249 : BitVec 32 := Scalar.subi v246 v248
  let v250 : BitVec 1 := Scalar.cmpi .ne v244 v249
  let v251 : BitVec 32 := Scalar.remsi v238 c2_i32_231
  let c0_i32_236 : BitVec 32 := 0#32
  let v252 : BitVec 1 := Scalar.cmpi .ne v251 c0_i32_236
  let v253 : BitVec 1 := Scalar.andi v250 v252
  let v239 : BitVec 32 := Scalar.divsi v238 c2_i32_231
  let c1_i32_237 : BitVec 32 := 1#32
  let v254 : BitVec 32 := Scalar.subi v239 c1_i32_237
  let v255 : BitVec 32 := Scalar.select v253 v254 v239
  let c2_i32_238 : BitVec 32 := 2#32
  let c0_i32_239 : BitVec 32 := 0#32
  let v256 : BitVec 1 := Scalar.cmpi .eq c2_i32_238 c0_i32_239
  let c1_i32_240 : BitVec 32 := 1#32
  let v257 : BitVec 32 := Scalar.select v256 c1_i32_240 c2_i32_238
  let v258 : BitVec 32 := Scalar.remsi v238 v257
  let c0_i32_242 : BitVec 32 := 0#32
  let v260 : BitVec 1 := Scalar.cmpi .slt v258 c0_i32_242
  let c0_i32_243 : BitVec 32 := 0#32
  let v261 : BitVec 1 := Scalar.cmpi .slt v257 c0_i32_243
  let v262 : BitVec 1 := Scalar.xori v260 v261
  let c0_i32_241 : BitVec 32 := 0#32
  let v259 : BitVec 1 := Scalar.cmpi .ne v258 c0_i32_241
  let v263 : BitVec 1 := Scalar.andi v262 v259
  let v264 : BitVec 32 := Scalar.addi v258 v257
  let v265 : BitVec 32 := Scalar.select v263 v264 v258
  let c64_i32_244 : BitVec 32 := 64#32
  let v266 : BitVec 32 := Scalar.muli v265 c64_i32_244
  ![v255.toNat, v266.toNat]
def k1_mult25 (i : grid1.Coords) (k1_t4 : Fin k1_t4_loop.trips) : BitVec 32 :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c0_i32_248 : BitVec 32 := 0#32
  let v271 : BitVec 1 := Scalar.cmpi .sgt v228 c0_i32_248
  let v272 : BitVec 32 := Scalar.extui v271
  let c0_i32_249 : BitVec 32 := 0#32
  let v273 : BitVec 1 := Scalar.cmpi .slt v228 c0_i32_249
  let v274 : BitVec 32 := Scalar.extui v273
  let v275 : BitVec 32 := Scalar.subi v272 v274
  let c16_i32_247 : BitVec 32 := 16#32
  let c0_i32_250 : BitVec 32 := 0#32
  let v276 : BitVec 1 := Scalar.cmpi .sgt c16_i32_247 c0_i32_250
  let v277 : BitVec 32 := Scalar.extui v276
  let c0_i32_251 : BitVec 32 := 0#32
  let v278 : BitVec 1 := Scalar.cmpi .slt c16_i32_247 c0_i32_251
  let v279 : BitVec 32 := Scalar.extui v278
  let v280 : BitVec 32 := Scalar.subi v277 v279
  let v281 : BitVec 1 := Scalar.cmpi .ne v275 v280
  let v282 : BitVec 32 := Scalar.remsi v228 c16_i32_247
  let c0_i32_252 : BitVec 32 := 0#32
  let v283 : BitVec 1 := Scalar.cmpi .ne v282 c0_i32_252
  let v284 : BitVec 1 := Scalar.andi v281 v283
  let v270 : BitVec 32 := Scalar.divsi v228 c16_i32_247
  let c1_i32_253 : BitVec 32 := 1#32
  let v285 : BitVec 32 := Scalar.subi v270 c1_i32_253
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_254 : BitVec 32 := 1024#32
  let v288 : BitVec 32 := Scalar.muli v1 c1024_i32_254
  let v289 : BitVec 32 := Scalar.addi v287 v288
  let c16_i32_255 : BitVec 32 := 16#32
  let c0_i32_256 : BitVec 32 := 0#32
  let v290 : BitVec 1 := Scalar.cmpi .eq c16_i32_255 c0_i32_256
  let c1_i32_257 : BitVec 32 := 1#32
  let v291 : BitVec 32 := Scalar.select v290 c1_i32_257 c16_i32_255
  let v292 : BitVec 32 := Scalar.remsi v228 v291
  let c0_i32_259 : BitVec 32 := 0#32
  let v294 : BitVec 1 := Scalar.cmpi .slt v292 c0_i32_259
  let c0_i32_260 : BitVec 32 := 0#32
  let v295 : BitVec 1 := Scalar.cmpi .slt v291 c0_i32_260
  let v296 : BitVec 1 := Scalar.xori v294 v295
  let c0_i32_258 : BitVec 32 := 0#32
  let v293 : BitVec 1 := Scalar.cmpi .ne v292 c0_i32_258
  let v297 : BitVec 1 := Scalar.andi v296 v293
  let v298 : BitVec 32 := Scalar.addi v292 v291
  let v299 : BitVec 32 := Scalar.select v297 v298 v292
  let c64_i32_261 : BitVec 32 := 64#32
  let v300 : BitVec 32 := Scalar.muli v299 c64_i32_261
  let v301 : BitVec 32 := Scalar.addi v289 v300
  v301
def k1_off24 (i : grid1.Coords) (k1_t4 : Fin k1_t4_loop.trips) : Fin 2 → Nat :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c0_i32_248 : BitVec 32 := 0#32
  let v271 : BitVec 1 := Scalar.cmpi .sgt v228 c0_i32_248
  let v272 : BitVec 32 := Scalar.extui v271
  let c0_i32_249 : BitVec 32 := 0#32
  let v273 : BitVec 1 := Scalar.cmpi .slt v228 c0_i32_249
  let v274 : BitVec 32 := Scalar.extui v273
  let v275 : BitVec 32 := Scalar.subi v272 v274
  let c16_i32_247 : BitVec 32 := 16#32
  let c0_i32_250 : BitVec 32 := 0#32
  let v276 : BitVec 1 := Scalar.cmpi .sgt c16_i32_247 c0_i32_250
  let v277 : BitVec 32 := Scalar.extui v276
  let c0_i32_251 : BitVec 32 := 0#32
  let v278 : BitVec 1 := Scalar.cmpi .slt c16_i32_247 c0_i32_251
  let v279 : BitVec 32 := Scalar.extui v278
  let v280 : BitVec 32 := Scalar.subi v277 v279
  let v281 : BitVec 1 := Scalar.cmpi .ne v275 v280
  let v282 : BitVec 32 := Scalar.remsi v228 c16_i32_247
  let c0_i32_252 : BitVec 32 := 0#32
  let v283 : BitVec 1 := Scalar.cmpi .ne v282 c0_i32_252
  let v284 : BitVec 1 := Scalar.andi v281 v283
  let v270 : BitVec 32 := Scalar.divsi v228 c16_i32_247
  let c1_i32_253 : BitVec 32 := 1#32
  let v285 : BitVec 32 := Scalar.subi v270 c1_i32_253
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_254 : BitVec 32 := 1024#32
  let v288 : BitVec 32 := Scalar.muli v1 c1024_i32_254
  let v289 : BitVec 32 := Scalar.addi v287 v288
  let c16_i32_255 : BitVec 32 := 16#32
  let c0_i32_256 : BitVec 32 := 0#32
  let v290 : BitVec 1 := Scalar.cmpi .eq c16_i32_255 c0_i32_256
  let c1_i32_257 : BitVec 32 := 1#32
  let v291 : BitVec 32 := Scalar.select v290 c1_i32_257 c16_i32_255
  let v292 : BitVec 32 := Scalar.remsi v228 v291
  let c0_i32_259 : BitVec 32 := 0#32
  let v294 : BitVec 1 := Scalar.cmpi .slt v292 c0_i32_259
  let c0_i32_260 : BitVec 32 := 0#32
  let v295 : BitVec 1 := Scalar.cmpi .slt v291 c0_i32_260
  let v296 : BitVec 1 := Scalar.xori v294 v295
  let c0_i32_258 : BitVec 32 := 0#32
  let v293 : BitVec 1 := Scalar.cmpi .ne v292 c0_i32_258
  let v297 : BitVec 1 := Scalar.andi v296 v293
  let v298 : BitVec 32 := Scalar.addi v292 v291
  let v299 : BitVec 32 := Scalar.select v297 v298 v292
  let c64_i32_261 : BitVec 32 := 64#32
  let v300 : BitVec 32 := Scalar.muli v299 c64_i32_261
  let v301 : BitVec 32 := Scalar.addi v289 v300
  let v302 : BitVec 32 := v301
  let c0_i32_262 : BitVec 32 := 0#32
  ![v302.toNat, 0]
def k1_off25 (k1_t4 : Fin k1_t4_loop.trips) (c1_i32_264 : BitVec 32) : Fin 2 → Nat :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let v305 : BitVec 32 := Scalar.addi v228 c1_i32_264
  let c64_i32_265 : BitVec 32 := 64#32
  let c0_i32_266 : BitVec 32 := 0#32
  let v306 : BitVec 1 := Scalar.cmpi .eq c64_i32_265 c0_i32_266
  let c1_i32_267 : BitVec 32 := 1#32
  let v307 : BitVec 32 := Scalar.select v306 c1_i32_267 c64_i32_265
  let v308 : BitVec 32 := Scalar.remsi v305 v307
  let c0_i32_269 : BitVec 32 := 0#32
  let v310 : BitVec 1 := Scalar.cmpi .slt v308 c0_i32_269
  let c0_i32_270 : BitVec 32 := 0#32
  let v311 : BitVec 1 := Scalar.cmpi .slt v307 c0_i32_270
  let v312 : BitVec 1 := Scalar.xori v310 v311
  let c0_i32_268 : BitVec 32 := 0#32
  let v309 : BitVec 1 := Scalar.cmpi .ne v308 c0_i32_268
  let v313 : BitVec 1 := Scalar.andi v312 v309
  let v314 : BitVec 32 := Scalar.addi v308 v307
  let v315 : BitVec 32 := Scalar.select v313 v314 v308
  let c0_i32_272 : BitVec 32 := 0#32
  let v317 : BitVec 1 := Scalar.cmpi .sgt v315 c0_i32_272
  let v318 : BitVec 32 := Scalar.extui v317
  let c0_i32_273 : BitVec 32 := 0#32
  let v319 : BitVec 1 := Scalar.cmpi .slt v315 c0_i32_273
  let v320 : BitVec 32 := Scalar.extui v319
  let v321 : BitVec 32 := Scalar.subi v318 v320
  let c2_i32_271 : BitVec 32 := 2#32
  let c0_i32_274 : BitVec 32 := 0#32
  let v322 : BitVec 1 := Scalar.cmpi .sgt c2_i32_271 c0_i32_274
  let v323 : BitVec 32 := Scalar.extui v322
  let c0_i32_275 : BitVec 32 := 0#32
  let v324 : BitVec 1 := Scalar.cmpi .slt c2_i32_271 c0_i32_275
  let v325 : BitVec 32 := Scalar.extui v324
  let v326 : BitVec 32 := Scalar.subi v323 v325
  let v327 : BitVec 1 := Scalar.cmpi .ne v321 v326
  let v328 : BitVec 32 := Scalar.remsi v315 c2_i32_271
  let c0_i32_276 : BitVec 32 := 0#32
  let v329 : BitVec 1 := Scalar.cmpi .ne v328 c0_i32_276
  let v330 : BitVec 1 := Scalar.andi v327 v329
  let v316 : BitVec 32 := Scalar.divsi v315 c2_i32_271
  let c1_i32_277 : BitVec 32 := 1#32
  let v331 : BitVec 32 := Scalar.subi v316 c1_i32_277
  let v332 : BitVec 32 := Scalar.select v330 v331 v316
  let c2_i32_278 : BitVec 32 := 2#32
  let c0_i32_279 : BitVec 32 := 0#32
  let v333 : BitVec 1 := Scalar.cmpi .eq c2_i32_278 c0_i32_279
  let c1_i32_280 : BitVec 32 := 1#32
  let v334 : BitVec 32 := Scalar.select v333 c1_i32_280 c2_i32_278
  let v335 : BitVec 32 := Scalar.remsi v315 v334
  let c0_i32_282 : BitVec 32 := 0#32
  let v337 : BitVec 1 := Scalar.cmpi .slt v335 c0_i32_282
  let c0_i32_283 : BitVec 32 := 0#32
  let v338 : BitVec 1 := Scalar.cmpi .slt v334 c0_i32_283
  let v339 : BitVec 1 := Scalar.xori v337 v338
  let c0_i32_281 : BitVec 32 := 0#32
  let v336 : BitVec 1 := Scalar.cmpi .ne v335 c0_i32_281
  let v340 : BitVec 1 := Scalar.andi v339 v336
  let v341 : BitVec 32 := Scalar.addi v335 v334
  let v342 : BitVec 32 := Scalar.select v340 v341 v335
  let c64_i32_284 : BitVec 32 := 64#32
  let v343 : BitVec 32 := Scalar.muli v342 c64_i32_284
  ![v332.toNat, v343.toNat]
def k1_mult26 (i : grid1.Coords) (k1_t4 : Fin k1_t4_loop.trips) : BitVec 32 :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c1_i32_287 : BitVec 32 := 1#32
  let v347 : BitVec 32 := Scalar.addi v228 c1_i32_287
  let c0_i32_289 : BitVec 32 := 0#32
  let v349 : BitVec 1 := Scalar.cmpi .sgt v347 c0_i32_289
  let v350 : BitVec 32 := Scalar.extui v349
  let c0_i32_290 : BitVec 32 := 0#32
  let v351 : BitVec 1 := Scalar.cmpi .slt v347 c0_i32_290
  let v352 : BitVec 32 := Scalar.extui v351
  let v353 : BitVec 32 := Scalar.subi v350 v352
  let c16_i32_288 : BitVec 32 := 16#32
  let c0_i32_291 : BitVec 32 := 0#32
  let v354 : BitVec 1 := Scalar.cmpi .sgt c16_i32_288 c0_i32_291
  let v355 : BitVec 32 := Scalar.extui v354
  let c0_i32_292 : BitVec 32 := 0#32
  let v356 : BitVec 1 := Scalar.cmpi .slt c16_i32_288 c0_i32_292
  let v357 : BitVec 32 := Scalar.extui v356
  let v358 : BitVec 32 := Scalar.subi v355 v357
  let v359 : BitVec 1 := Scalar.cmpi .ne v353 v358
  let v360 : BitVec 32 := Scalar.remsi v347 c16_i32_288
  let c0_i32_293 : BitVec 32 := 0#32
  let v361 : BitVec 1 := Scalar.cmpi .ne v360 c0_i32_293
  let v362 : BitVec 1 := Scalar.andi v359 v361
  let v348 : BitVec 32 := Scalar.divsi v347 c16_i32_288
  let c1_i32_294 : BitVec 32 := 1#32
  let v363 : BitVec 32 := Scalar.subi v348 c1_i32_294
  let v364 : BitVec 32 := Scalar.select v362 v363 v348
  let c32768_i32_295 : BitVec 32 := 32768#32
  let v365 : BitVec 32 := Scalar.muli v364 c32768_i32_295
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_296 : BitVec 32 := 1024#32
  let v366 : BitVec 32 := Scalar.muli v1 c1024_i32_296
  let v367 : BitVec 32 := Scalar.addi v365 v366
  let c16_i32_297 : BitVec 32 := 16#32
  let c0_i32_298 : BitVec 32 := 0#32
  let v368 : BitVec 1 := Scalar.cmpi .eq c16_i32_297 c0_i32_298
  let c1_i32_299 : BitVec 32 := 1#32
  let v369 : BitVec 32 := Scalar.select v368 c1_i32_299 c16_i32_297
  let v370 : BitVec 32 := Scalar.remsi v347 v369
  let c0_i32_301 : BitVec 32 := 0#32
  let v372 : BitVec 1 := Scalar.cmpi .slt v370 c0_i32_301
  let c0_i32_302 : BitVec 32 := 0#32
  let v373 : BitVec 1 := Scalar.cmpi .slt v369 c0_i32_302
  let v374 : BitVec 1 := Scalar.xori v372 v373
  let c0_i32_300 : BitVec 32 := 0#32
  let v371 : BitVec 1 := Scalar.cmpi .ne v370 c0_i32_300
  let v375 : BitVec 1 := Scalar.andi v374 v371
  let v376 : BitVec 32 := Scalar.addi v370 v369
  let v377 : BitVec 32 := Scalar.select v375 v376 v370
  let c64_i32_303 : BitVec 32 := 64#32
  let v378 : BitVec 32 := Scalar.muli v377 c64_i32_303
  let v379 : BitVec 32 := Scalar.addi v367 v378
  v379
def k1_off26 (i : grid1.Coords) (k1_t4 : Fin k1_t4_loop.trips) : Fin 2 → Nat :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c1_i32_287 : BitVec 32 := 1#32
  let v347 : BitVec 32 := Scalar.addi v228 c1_i32_287
  let c0_i32_289 : BitVec 32 := 0#32
  let v349 : BitVec 1 := Scalar.cmpi .sgt v347 c0_i32_289
  let v350 : BitVec 32 := Scalar.extui v349
  let c0_i32_290 : BitVec 32 := 0#32
  let v351 : BitVec 1 := Scalar.cmpi .slt v347 c0_i32_290
  let v352 : BitVec 32 := Scalar.extui v351
  let v353 : BitVec 32 := Scalar.subi v350 v352
  let c16_i32_288 : BitVec 32 := 16#32
  let c0_i32_291 : BitVec 32 := 0#32
  let v354 : BitVec 1 := Scalar.cmpi .sgt c16_i32_288 c0_i32_291
  let v355 : BitVec 32 := Scalar.extui v354
  let c0_i32_292 : BitVec 32 := 0#32
  let v356 : BitVec 1 := Scalar.cmpi .slt c16_i32_288 c0_i32_292
  let v357 : BitVec 32 := Scalar.extui v356
  let v358 : BitVec 32 := Scalar.subi v355 v357
  let v359 : BitVec 1 := Scalar.cmpi .ne v353 v358
  let v360 : BitVec 32 := Scalar.remsi v347 c16_i32_288
  let c0_i32_293 : BitVec 32 := 0#32
  let v361 : BitVec 1 := Scalar.cmpi .ne v360 c0_i32_293
  let v362 : BitVec 1 := Scalar.andi v359 v361
  let v348 : BitVec 32 := Scalar.divsi v347 c16_i32_288
  let c1_i32_294 : BitVec 32 := 1#32
  let v363 : BitVec 32 := Scalar.subi v348 c1_i32_294
  let v364 : BitVec 32 := Scalar.select v362 v363 v348
  let c32768_i32_295 : BitVec 32 := 32768#32
  let v365 : BitVec 32 := Scalar.muli v364 c32768_i32_295
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_296 : BitVec 32 := 1024#32
  let v366 : BitVec 32 := Scalar.muli v1 c1024_i32_296
  let v367 : BitVec 32 := Scalar.addi v365 v366
  let c16_i32_297 : BitVec 32 := 16#32
  let c0_i32_298 : BitVec 32 := 0#32
  let v368 : BitVec 1 := Scalar.cmpi .eq c16_i32_297 c0_i32_298
  let c1_i32_299 : BitVec 32 := 1#32
  let v369 : BitVec 32 := Scalar.select v368 c1_i32_299 c16_i32_297
  let v370 : BitVec 32 := Scalar.remsi v347 v369
  let c0_i32_301 : BitVec 32 := 0#32
  let v372 : BitVec 1 := Scalar.cmpi .slt v370 c0_i32_301
  let c0_i32_302 : BitVec 32 := 0#32
  let v373 : BitVec 1 := Scalar.cmpi .slt v369 c0_i32_302
  let v374 : BitVec 1 := Scalar.xori v372 v373
  let c0_i32_300 : BitVec 32 := 0#32
  let v371 : BitVec 1 := Scalar.cmpi .ne v370 c0_i32_300
  let v375 : BitVec 1 := Scalar.andi v374 v371
  let v376 : BitVec 32 := Scalar.addi v370 v369
  let v377 : BitVec 32 := Scalar.select v375 v376 v370
  let c64_i32_303 : BitVec 32 := 64#32
  let v378 : BitVec 32 := Scalar.muli v377 c64_i32_303
  let v379 : BitVec 32 := Scalar.addi v367 v378
  let v380 : BitVec 32 := v379
  let c0_i32_304 : BitVec 32 := 0#32
  ![v380.toNat, 0]
def k1_mult27 (i : grid1.Coords) (k1_t4 : Fin k1_t4_loop.trips) : BitVec 32 :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c0_i32_307 : BitVec 32 := 0#32
  let v384 : BitVec 1 := Scalar.cmpi .sgt v228 c0_i32_307
  let v385 : BitVec 32 := Scalar.extui v384
  let c0_i32_308 : BitVec 32 := 0#32
  let v386 : BitVec 1 := Scalar.cmpi .slt v228 c0_i32_308
  let v387 : BitVec 32 := Scalar.extui v386
  let v388 : BitVec 32 := Scalar.subi v385 v387
  let c16_i32_306 : BitVec 32 := 16#32
  let c0_i32_309 : BitVec 32 := 0#32
  let v389 : BitVec 1 := Scalar.cmpi .sgt c16_i32_306 c0_i32_309
  let v390 : BitVec 32 := Scalar.extui v389
  let c0_i32_310 : BitVec 32 := 0#32
  let v391 : BitVec 1 := Scalar.cmpi .slt c16_i32_306 c0_i32_310
  let v392 : BitVec 32 := Scalar.extui v391
  let v393 : BitVec 32 := Scalar.subi v390 v392
  let v394 : BitVec 1 := Scalar.cmpi .ne v388 v393
  let v395 : BitVec 32 := Scalar.remsi v228 c16_i32_306
  let c0_i32_311 : BitVec 32 := 0#32
  let v396 : BitVec 1 := Scalar.cmpi .ne v395 c0_i32_311
  let v397 : BitVec 1 := Scalar.andi v394 v396
  let v383 : BitVec 32 := Scalar.divsi v228 c16_i32_306
  let c1_i32_312 : BitVec 32 := 1#32
  let v398 : BitVec 32 := Scalar.subi v383 c1_i32_312
  let v399 : BitVec 32 := Scalar.select v397 v398 v383
  let c32768_i32_313 : BitVec 32 := 32768#32
  let v400 : BitVec 32 := Scalar.muli v399 c32768_i32_313
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_314 : BitVec 32 := 1024#32
  let v401 : BitVec 32 := Scalar.muli v1 c1024_i32_314
  let v402 : BitVec 32 := Scalar.addi v400 v401
  let c16_i32_315 : BitVec 32 := 16#32
  let c0_i32_316 : BitVec 32 := 0#32
  let v403 : BitVec 1 := Scalar.cmpi .eq c16_i32_315 c0_i32_316
  let c1_i32_317 : BitVec 32 := 1#32
  let v404 : BitVec 32 := Scalar.select v403 c1_i32_317 c16_i32_315
  let v405 : BitVec 32 := Scalar.remsi v228 v404
  let c0_i32_319 : BitVec 32 := 0#32
  let v407 : BitVec 1 := Scalar.cmpi .slt v405 c0_i32_319
  let c0_i32_320 : BitVec 32 := 0#32
  let v408 : BitVec 1 := Scalar.cmpi .slt v404 c0_i32_320
  let v409 : BitVec 1 := Scalar.xori v407 v408
  let c0_i32_318 : BitVec 32 := 0#32
  let v406 : BitVec 1 := Scalar.cmpi .ne v405 c0_i32_318
  let v410 : BitVec 1 := Scalar.andi v409 v406
  let v411 : BitVec 32 := Scalar.addi v405 v404
  let v412 : BitVec 32 := Scalar.select v410 v411 v405
  let c64_i32_321 : BitVec 32 := 64#32
  let v413 : BitVec 32 := Scalar.muli v412 c64_i32_321
  let v414 : BitVec 32 := Scalar.addi v402 v413
  v414
def k1_mult28 (i : grid1.Coords) (k1_t4 : Fin k1_t4_loop.trips) : BitVec 32 :=
  let c192_i32 : BitVec 32 := 192#32
  let c2_i32 : BitVec 32 := 2#32
  let c0_i32_150 : BitVec 32 := 0#32
  let c1_i32_152 : BitVec 32 := 1#32
  let arg15 : BitVec 32 := Scf.iv c0_i32_150 c1_i32_152 k1_t4
  let v227 : BitVec 32 := Scalar.muli c2_i32 arg15
  let v228 : BitVec 32 := Scalar.addi c192_i32 v227
  let c1_i32_347 : BitVec 32 := 1#32
  let v460 : BitVec 32 := Scalar.addi v228 c1_i32_347
  let c0_i32_349 : BitVec 32 := 0#32
  let v462 : BitVec 1 := Scalar.cmpi .sgt v460 c0_i32_349
  let v463 : BitVec 32 := Scalar.extui v462
  let c0_i32_350 : BitVec 32 := 0#32
  let v464 : BitVec 1 := Scalar.cmpi .slt v460 c0_i32_350
  let v465 : BitVec 32 := Scalar.extui v464
  let v466 : BitVec 32 := Scalar.subi v463 v465
  let c16_i32_348 : BitVec 32 := 16#32
  let c0_i32_351 : BitVec 32 := 0#32
  let v467 : BitVec 1 := Scalar.cmpi .sgt c16_i32_348 c0_i32_351
  let v468 : BitVec 32 := Scalar.extui v467
  let c0_i32_352 : BitVec 32 := 0#32
  let v469 : BitVec 1 := Scalar.cmpi .slt c16_i32_348 c0_i32_352
  let v470 : BitVec 32 := Scalar.extui v469
  let v471 : BitVec 32 := Scalar.subi v468 v470
  let v472 : BitVec 1 := Scalar.cmpi .ne v466 v471
  let v473 : BitVec 32 := Scalar.remsi v460 c16_i32_348
  let c0_i32_353 : BitVec 32 := 0#32
  let v474 : BitVec 1 := Scalar.cmpi .ne v473 c0_i32_353
  let v475 : BitVec 1 := Scalar.andi v472 v474
  let v461 : BitVec 32 := Scalar.divsi v460 c16_i32_348
  let c1_i32_354 : BitVec 32 := 1#32
  let v476 : BitVec 32 := Scalar.subi v461 c1_i32_354
  let v477 : BitVec 32 := Scalar.select v475 v476 v461
  let c32768_i32_355 : BitVec 32 := 32768#32
  let v478 : BitVec 32 := Scalar.muli v477 c32768_i32_355
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_356 : BitVec 32 := 1024#32
  let v479 : BitVec 32 := Scalar.muli v1 c1024_i32_356
  let v480 : BitVec 32 := Scalar.addi v478 v479
  let c16_i32_357 : BitVec 32 := 16#32
  let c0_i32_358 : BitVec 32 := 0#32
  let v481 : BitVec 1 := Scalar.cmpi .eq c16_i32_357 c0_i32_358
  let c1_i32_359 : BitVec 32 := 1#32
  let v482 : BitVec 32 := Scalar.select v481 c1_i32_359 c16_i32_357
  let v483 : BitVec 32 := Scalar.remsi v460 v482
  let c0_i32_361 : BitVec 32 := 0#32
  let v485 : BitVec 1 := Scalar.cmpi .slt v483 c0_i32_361
  let c0_i32_362 : BitVec 32 := 0#32
  let v486 : BitVec 1 := Scalar.cmpi .slt v482 c0_i32_362
  let v487 : BitVec 1 := Scalar.xori v485 v486
  let c0_i32_360 : BitVec 32 := 0#32
  let v484 : BitVec 1 := Scalar.cmpi .ne v483 c0_i32_360
  let v488 : BitVec 1 := Scalar.andi v487 v484
  let v489 : BitVec 32 := Scalar.addi v483 v482
  let v490 : BitVec 32 := Scalar.select v488 v489 v483
  let c64_i32_363 : BitVec 32 := 64#32
  let v491 : BitVec 32 := Scalar.muli v490 c64_i32_363
  let v492 : BitVec 32 := Scalar.addi v480 v491
  v492
def k1_mult29 (i : grid1.Coords) : BitVec 32 :=
  let c491520_i32 : BitVec 32 := 491520#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_158 : BitVec 32 := 1024#32
  let v159 : BitVec 32 := Scalar.muli v1 c1024_i32_158
  let v160 : BitVec 32 := Scalar.addi c491520_i32 v159
  let c896_i32_159 : BitVec 32 := 896#32
  let v161 : BitVec 32 := Scalar.addi v160 c896_i32_159
  v161
def k1_mult30 (i : grid1.Coords) : BitVec 32 :=
  let c491520_i32_167 : BitVec 32 := 491520#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_166 : BitVec 32 := 1024#32
  let v168 : BitVec 32 := Scalar.muli v1 c1024_i32_166
  let v169 : BitVec 32 := Scalar.addi c491520_i32_167 v168
  let c960_i32_168 : BitVec 32 := 960#32
  let v170 : BitVec 32 := Scalar.addi v169 c960_i32_168
  v170
def k1_mult31 (i : grid1.Coords) : BitVec 32 :=
  let c491520_i32_172 : BitVec 32 := 491520#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_171 : BitVec 32 := 1024#32
  let v174 : BitVec 32 := Scalar.muli v1 c1024_i32_171
  let v175 : BitVec 32 := Scalar.addi c491520_i32_172 v174
  let c896_i32_173 : BitVec 32 := 896#32
  let v176 : BitVec 32 := Scalar.addi v175 c896_i32_173
  v176
def k1_mult32 (i : grid1.Coords) : BitVec 32 :=
  let c491520_i32_185 : BitVec 32 := 491520#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_184 : BitVec 32 := 1024#32
  let v187 : BitVec 32 := Scalar.muli v1 c1024_i32_184
  let v188 : BitVec 32 := Scalar.addi c491520_i32_185 v187
  let c960_i32_186 : BitVec 32 := 960#32
  let v189 : BitVec 32 := Scalar.addi v188 c960_i32_186
  v189
@[reducible] def k1_t5_loop : Scf.Loop 32 :=
  let c0_i32_194 : BitVec 32 := 0#32
  let c31_i32_195 : BitVec 32 := 31#32
  let v196 : BitVec 32 := Scalar.addi c0_i32_194 c31_i32_195
  let c1_i32_196 : BitVec 32 := 1#32
  ⟨c0_i32_194, v196, c1_i32_196⟩
def k1_off27 (k1_t5 : Fin k1_t5_loop.trips) : Fin 2 → Nat :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c64_i32_226 : BitVec 32 := 64#32
  let c0_i32_227 : BitVec 32 := 0#32
  let v229 : BitVec 1 := Scalar.cmpi .eq c64_i32_226 c0_i32_227
  let c1_i32_228 : BitVec 32 := 1#32
  let v230 : BitVec 32 := Scalar.select v229 c1_i32_228 c64_i32_226
  let v231 : BitVec 32 := Scalar.remsi v228 v230
  let c0_i32_230 : BitVec 32 := 0#32
  let v233 : BitVec 1 := Scalar.cmpi .slt v231 c0_i32_230
  let c0_i32_231 : BitVec 32 := 0#32
  let v234 : BitVec 1 := Scalar.cmpi .slt v230 c0_i32_231
  let v235 : BitVec 1 := Scalar.xori v233 v234
  let c0_i32_229 : BitVec 32 := 0#32
  let v232 : BitVec 1 := Scalar.cmpi .ne v231 c0_i32_229
  let v236 : BitVec 1 := Scalar.andi v235 v232
  let v237 : BitVec 32 := Scalar.addi v231 v230
  let v238 : BitVec 32 := Scalar.select v236 v237 v231
  let c0_i32_233 : BitVec 32 := 0#32
  let v240 : BitVec 1 := Scalar.cmpi .sgt v238 c0_i32_233
  let v241 : BitVec 32 := Scalar.extui v240
  let c0_i32_234 : BitVec 32 := 0#32
  let v242 : BitVec 1 := Scalar.cmpi .slt v238 c0_i32_234
  let v243 : BitVec 32 := Scalar.extui v242
  let v244 : BitVec 32 := Scalar.subi v241 v243
  let c2_i32_232 : BitVec 32 := 2#32
  let c0_i32_235 : BitVec 32 := 0#32
  let v245 : BitVec 1 := Scalar.cmpi .sgt c2_i32_232 c0_i32_235
  let v246 : BitVec 32 := Scalar.extui v245
  let c0_i32_236 : BitVec 32 := 0#32
  let v247 : BitVec 1 := Scalar.cmpi .slt c2_i32_232 c0_i32_236
  let v248 : BitVec 32 := Scalar.extui v247
  let v249 : BitVec 32 := Scalar.subi v246 v248
  let v250 : BitVec 1 := Scalar.cmpi .ne v244 v249
  let v251 : BitVec 32 := Scalar.remsi v238 c2_i32_232
  let c0_i32_237 : BitVec 32 := 0#32
  let v252 : BitVec 1 := Scalar.cmpi .ne v251 c0_i32_237
  let v253 : BitVec 1 := Scalar.andi v250 v252
  let v239 : BitVec 32 := Scalar.divsi v238 c2_i32_232
  let c1_i32_238 : BitVec 32 := 1#32
  let v254 : BitVec 32 := Scalar.subi v239 c1_i32_238
  let v255 : BitVec 32 := Scalar.select v253 v254 v239
  let c2_i32_239 : BitVec 32 := 2#32
  let c0_i32_240 : BitVec 32 := 0#32
  let v256 : BitVec 1 := Scalar.cmpi .eq c2_i32_239 c0_i32_240
  let c1_i32_241 : BitVec 32 := 1#32
  let v257 : BitVec 32 := Scalar.select v256 c1_i32_241 c2_i32_239
  let v258 : BitVec 32 := Scalar.remsi v238 v257
  let c0_i32_243 : BitVec 32 := 0#32
  let v260 : BitVec 1 := Scalar.cmpi .slt v258 c0_i32_243
  let c0_i32_244 : BitVec 32 := 0#32
  let v261 : BitVec 1 := Scalar.cmpi .slt v257 c0_i32_244
  let v262 : BitVec 1 := Scalar.xori v260 v261
  let c0_i32_242 : BitVec 32 := 0#32
  let v259 : BitVec 1 := Scalar.cmpi .ne v258 c0_i32_242
  let v263 : BitVec 1 := Scalar.andi v262 v259
  let v264 : BitVec 32 := Scalar.addi v258 v257
  let v265 : BitVec 32 := Scalar.select v263 v264 v258
  let c64_i32_245 : BitVec 32 := 64#32
  let v266 : BitVec 32 := Scalar.muli v265 c64_i32_245
  ![v255.toNat, v266.toNat]
def k1_mult33 (i : grid1.Coords) (k1_t5 : Fin k1_t5_loop.trips) : BitVec 32 :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  v301
def k1_off28 (i : grid1.Coords) (k1_t5 : Fin k1_t5_loop.trips) : Fin 2 → Nat :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c0_i32_249 : BitVec 32 := 0#32
  let v271 : BitVec 1 := Scalar.cmpi .sgt v228 c0_i32_249
  let v272 : BitVec 32 := Scalar.extui v271
  let c0_i32_250 : BitVec 32 := 0#32
  let v273 : BitVec 1 := Scalar.cmpi .slt v228 c0_i32_250
  let v274 : BitVec 32 := Scalar.extui v273
  let v275 : BitVec 32 := Scalar.subi v272 v274
  let c16_i32_248 : BitVec 32 := 16#32
  let c0_i32_251 : BitVec 32 := 0#32
  let v276 : BitVec 1 := Scalar.cmpi .sgt c16_i32_248 c0_i32_251
  let v277 : BitVec 32 := Scalar.extui v276
  let c0_i32_252 : BitVec 32 := 0#32
  let v278 : BitVec 1 := Scalar.cmpi .slt c16_i32_248 c0_i32_252
  let v279 : BitVec 32 := Scalar.extui v278
  let v280 : BitVec 32 := Scalar.subi v277 v279
  let v281 : BitVec 1 := Scalar.cmpi .ne v275 v280
  let v282 : BitVec 32 := Scalar.remsi v228 c16_i32_248
  let c0_i32_253 : BitVec 32 := 0#32
  let v283 : BitVec 1 := Scalar.cmpi .ne v282 c0_i32_253
  let v284 : BitVec 1 := Scalar.andi v281 v283
  let v270 : BitVec 32 := Scalar.divsi v228 c16_i32_248
  let c1_i32_254 : BitVec 32 := 1#32
  let v285 : BitVec 32 := Scalar.subi v270 c1_i32_254
  let v286 : BitVec 32 := Scalar.select v284 v285 v270
  let c32768_i32 : BitVec 32 := 32768#32
  let v287 : BitVec 32 := Scalar.muli v286 c32768_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_255 : BitVec 32 := 1024#32
  let v288 : BitVec 32 := Scalar.muli v1 c1024_i32_255
  let v289 : BitVec 32 := Scalar.addi v287 v288
  let c16_i32_256 : BitVec 32 := 16#32
  let c0_i32_257 : BitVec 32 := 0#32
  let v290 : BitVec 1 := Scalar.cmpi .eq c16_i32_256 c0_i32_257
  let c1_i32_258 : BitVec 32 := 1#32
  let v291 : BitVec 32 := Scalar.select v290 c1_i32_258 c16_i32_256
  let v292 : BitVec 32 := Scalar.remsi v228 v291
  let c0_i32_260 : BitVec 32 := 0#32
  let v294 : BitVec 1 := Scalar.cmpi .slt v292 c0_i32_260
  let c0_i32_261 : BitVec 32 := 0#32
  let v295 : BitVec 1 := Scalar.cmpi .slt v291 c0_i32_261
  let v296 : BitVec 1 := Scalar.xori v294 v295
  let c0_i32_259 : BitVec 32 := 0#32
  let v293 : BitVec 1 := Scalar.cmpi .ne v292 c0_i32_259
  let v297 : BitVec 1 := Scalar.andi v296 v293
  let v298 : BitVec 32 := Scalar.addi v292 v291
  let v299 : BitVec 32 := Scalar.select v297 v298 v292
  let c64_i32_262 : BitVec 32 := 64#32
  let v300 : BitVec 32 := Scalar.muli v299 c64_i32_262
  let v301 : BitVec 32 := Scalar.addi v289 v300
  let v302 : BitVec 32 := v301
  let c0_i32_263 : BitVec 32 := 0#32
  ![v302.toNat, 0]
def k1_off29 (k1_t5 : Fin k1_t5_loop.trips) (c1_i32_265 : BitVec 32) : Fin 2 → Nat :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let v305 : BitVec 32 := Scalar.addi v228 c1_i32_265
  let c64_i32_266 : BitVec 32 := 64#32
  let c0_i32_267 : BitVec 32 := 0#32
  let v306 : BitVec 1 := Scalar.cmpi .eq c64_i32_266 c0_i32_267
  let c1_i32_268 : BitVec 32 := 1#32
  let v307 : BitVec 32 := Scalar.select v306 c1_i32_268 c64_i32_266
  let v308 : BitVec 32 := Scalar.remsi v305 v307
  let c0_i32_270 : BitVec 32 := 0#32
  let v310 : BitVec 1 := Scalar.cmpi .slt v308 c0_i32_270
  let c0_i32_271 : BitVec 32 := 0#32
  let v311 : BitVec 1 := Scalar.cmpi .slt v307 c0_i32_271
  let v312 : BitVec 1 := Scalar.xori v310 v311
  let c0_i32_269 : BitVec 32 := 0#32
  let v309 : BitVec 1 := Scalar.cmpi .ne v308 c0_i32_269
  let v313 : BitVec 1 := Scalar.andi v312 v309
  let v314 : BitVec 32 := Scalar.addi v308 v307
  let v315 : BitVec 32 := Scalar.select v313 v314 v308
  let c0_i32_273 : BitVec 32 := 0#32
  let v317 : BitVec 1 := Scalar.cmpi .sgt v315 c0_i32_273
  let v318 : BitVec 32 := Scalar.extui v317
  let c0_i32_274 : BitVec 32 := 0#32
  let v319 : BitVec 1 := Scalar.cmpi .slt v315 c0_i32_274
  let v320 : BitVec 32 := Scalar.extui v319
  let v321 : BitVec 32 := Scalar.subi v318 v320
  let c2_i32_272 : BitVec 32 := 2#32
  let c0_i32_275 : BitVec 32 := 0#32
  let v322 : BitVec 1 := Scalar.cmpi .sgt c2_i32_272 c0_i32_275
  let v323 : BitVec 32 := Scalar.extui v322
  let c0_i32_276 : BitVec 32 := 0#32
  let v324 : BitVec 1 := Scalar.cmpi .slt c2_i32_272 c0_i32_276
  let v325 : BitVec 32 := Scalar.extui v324
  let v326 : BitVec 32 := Scalar.subi v323 v325
  let v327 : BitVec 1 := Scalar.cmpi .ne v321 v326
  let v328 : BitVec 32 := Scalar.remsi v315 c2_i32_272
  let c0_i32_277 : BitVec 32 := 0#32
  let v329 : BitVec 1 := Scalar.cmpi .ne v328 c0_i32_277
  let v330 : BitVec 1 := Scalar.andi v327 v329
  let v316 : BitVec 32 := Scalar.divsi v315 c2_i32_272
  let c1_i32_278 : BitVec 32 := 1#32
  let v331 : BitVec 32 := Scalar.subi v316 c1_i32_278
  let v332 : BitVec 32 := Scalar.select v330 v331 v316
  let c2_i32_279 : BitVec 32 := 2#32
  let c0_i32_280 : BitVec 32 := 0#32
  let v333 : BitVec 1 := Scalar.cmpi .eq c2_i32_279 c0_i32_280
  let c1_i32_281 : BitVec 32 := 1#32
  let v334 : BitVec 32 := Scalar.select v333 c1_i32_281 c2_i32_279
  let v335 : BitVec 32 := Scalar.remsi v315 v334
  let c0_i32_283 : BitVec 32 := 0#32
  let v337 : BitVec 1 := Scalar.cmpi .slt v335 c0_i32_283
  let c0_i32_284 : BitVec 32 := 0#32
  let v338 : BitVec 1 := Scalar.cmpi .slt v334 c0_i32_284
  let v339 : BitVec 1 := Scalar.xori v337 v338
  let c0_i32_282 : BitVec 32 := 0#32
  let v336 : BitVec 1 := Scalar.cmpi .ne v335 c0_i32_282
  let v340 : BitVec 1 := Scalar.andi v339 v336
  let v341 : BitVec 32 := Scalar.addi v335 v334
  let v342 : BitVec 32 := Scalar.select v340 v341 v335
  let c64_i32_285 : BitVec 32 := 64#32
  let v343 : BitVec 32 := Scalar.muli v342 c64_i32_285
  ![v332.toNat, v343.toNat]
def k1_mult34 (i : grid1.Coords) (k1_t5 : Fin k1_t5_loop.trips) : BitVec 32 :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  v379
def k1_off30 (i : grid1.Coords) (k1_t5 : Fin k1_t5_loop.trips) : Fin 2 → Nat :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c1_i32_288 : BitVec 32 := 1#32
  let v347 : BitVec 32 := Scalar.addi v228 c1_i32_288
  let c0_i32_290 : BitVec 32 := 0#32
  let v349 : BitVec 1 := Scalar.cmpi .sgt v347 c0_i32_290
  let v350 : BitVec 32 := Scalar.extui v349
  let c0_i32_291 : BitVec 32 := 0#32
  let v351 : BitVec 1 := Scalar.cmpi .slt v347 c0_i32_291
  let v352 : BitVec 32 := Scalar.extui v351
  let v353 : BitVec 32 := Scalar.subi v350 v352
  let c16_i32_289 : BitVec 32 := 16#32
  let c0_i32_292 : BitVec 32 := 0#32
  let v354 : BitVec 1 := Scalar.cmpi .sgt c16_i32_289 c0_i32_292
  let v355 : BitVec 32 := Scalar.extui v354
  let c0_i32_293 : BitVec 32 := 0#32
  let v356 : BitVec 1 := Scalar.cmpi .slt c16_i32_289 c0_i32_293
  let v357 : BitVec 32 := Scalar.extui v356
  let v358 : BitVec 32 := Scalar.subi v355 v357
  let v359 : BitVec 1 := Scalar.cmpi .ne v353 v358
  let v360 : BitVec 32 := Scalar.remsi v347 c16_i32_289
  let c0_i32_294 : BitVec 32 := 0#32
  let v361 : BitVec 1 := Scalar.cmpi .ne v360 c0_i32_294
  let v362 : BitVec 1 := Scalar.andi v359 v361
  let v348 : BitVec 32 := Scalar.divsi v347 c16_i32_289
  let c1_i32_295 : BitVec 32 := 1#32
  let v363 : BitVec 32 := Scalar.subi v348 c1_i32_295
  let v364 : BitVec 32 := Scalar.select v362 v363 v348
  let c32768_i32_296 : BitVec 32 := 32768#32
  let v365 : BitVec 32 := Scalar.muli v364 c32768_i32_296
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_297 : BitVec 32 := 1024#32
  let v366 : BitVec 32 := Scalar.muli v1 c1024_i32_297
  let v367 : BitVec 32 := Scalar.addi v365 v366
  let c16_i32_298 : BitVec 32 := 16#32
  let c0_i32_299 : BitVec 32 := 0#32
  let v368 : BitVec 1 := Scalar.cmpi .eq c16_i32_298 c0_i32_299
  let c1_i32_300 : BitVec 32 := 1#32
  let v369 : BitVec 32 := Scalar.select v368 c1_i32_300 c16_i32_298
  let v370 : BitVec 32 := Scalar.remsi v347 v369
  let c0_i32_302 : BitVec 32 := 0#32
  let v372 : BitVec 1 := Scalar.cmpi .slt v370 c0_i32_302
  let c0_i32_303 : BitVec 32 := 0#32
  let v373 : BitVec 1 := Scalar.cmpi .slt v369 c0_i32_303
  let v374 : BitVec 1 := Scalar.xori v372 v373
  let c0_i32_301 : BitVec 32 := 0#32
  let v371 : BitVec 1 := Scalar.cmpi .ne v370 c0_i32_301
  let v375 : BitVec 1 := Scalar.andi v374 v371
  let v376 : BitVec 32 := Scalar.addi v370 v369
  let v377 : BitVec 32 := Scalar.select v375 v376 v370
  let c64_i32_304 : BitVec 32 := 64#32
  let v378 : BitVec 32 := Scalar.muli v377 c64_i32_304
  let v379 : BitVec 32 := Scalar.addi v367 v378
  let v380 : BitVec 32 := v379
  let c0_i32_305 : BitVec 32 := 0#32
  ![v380.toNat, 0]
def k1_mult35 (i : grid1.Coords) (k1_t5 : Fin k1_t5_loop.trips) : BitVec 32 :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c0_i32_308 : BitVec 32 := 0#32
  let v384 : BitVec 1 := Scalar.cmpi .sgt v228 c0_i32_308
  let v385 : BitVec 32 := Scalar.extui v384
  let c0_i32_309 : BitVec 32 := 0#32
  let v386 : BitVec 1 := Scalar.cmpi .slt v228 c0_i32_309
  let v387 : BitVec 32 := Scalar.extui v386
  let v388 : BitVec 32 := Scalar.subi v385 v387
  let c16_i32_307 : BitVec 32 := 16#32
  let c0_i32_310 : BitVec 32 := 0#32
  let v389 : BitVec 1 := Scalar.cmpi .sgt c16_i32_307 c0_i32_310
  let v390 : BitVec 32 := Scalar.extui v389
  let c0_i32_311 : BitVec 32 := 0#32
  let v391 : BitVec 1 := Scalar.cmpi .slt c16_i32_307 c0_i32_311
  let v392 : BitVec 32 := Scalar.extui v391
  let v393 : BitVec 32 := Scalar.subi v390 v392
  let v394 : BitVec 1 := Scalar.cmpi .ne v388 v393
  let v395 : BitVec 32 := Scalar.remsi v228 c16_i32_307
  let c0_i32_312 : BitVec 32 := 0#32
  let v396 : BitVec 1 := Scalar.cmpi .ne v395 c0_i32_312
  let v397 : BitVec 1 := Scalar.andi v394 v396
  let v383 : BitVec 32 := Scalar.divsi v228 c16_i32_307
  let c1_i32_313 : BitVec 32 := 1#32
  let v398 : BitVec 32 := Scalar.subi v383 c1_i32_313
  let v399 : BitVec 32 := Scalar.select v397 v398 v383
  let c32768_i32_314 : BitVec 32 := 32768#32
  let v400 : BitVec 32 := Scalar.muli v399 c32768_i32_314
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_315 : BitVec 32 := 1024#32
  let v401 : BitVec 32 := Scalar.muli v1 c1024_i32_315
  let v402 : BitVec 32 := Scalar.addi v400 v401
  let c16_i32_316 : BitVec 32 := 16#32
  let c0_i32_317 : BitVec 32 := 0#32
  let v403 : BitVec 1 := Scalar.cmpi .eq c16_i32_316 c0_i32_317
  let c1_i32_318 : BitVec 32 := 1#32
  let v404 : BitVec 32 := Scalar.select v403 c1_i32_318 c16_i32_316
  let v405 : BitVec 32 := Scalar.remsi v228 v404
  let c0_i32_320 : BitVec 32 := 0#32
  let v407 : BitVec 1 := Scalar.cmpi .slt v405 c0_i32_320
  let c0_i32_321 : BitVec 32 := 0#32
  let v408 : BitVec 1 := Scalar.cmpi .slt v404 c0_i32_321
  let v409 : BitVec 1 := Scalar.xori v407 v408
  let c0_i32_319 : BitVec 32 := 0#32
  let v406 : BitVec 1 := Scalar.cmpi .ne v405 c0_i32_319
  let v410 : BitVec 1 := Scalar.andi v409 v406
  let v411 : BitVec 32 := Scalar.addi v405 v404
  let v412 : BitVec 32 := Scalar.select v410 v411 v405
  let c64_i32_322 : BitVec 32 := 64#32
  let v413 : BitVec 32 := Scalar.muli v412 c64_i32_322
  let v414 : BitVec 32 := Scalar.addi v402 v413
  v414
def k1_mult36 (i : grid1.Coords) (k1_t5 : Fin k1_t5_loop.trips) : BitVec 32 :=
  let c256_i32_225 : BitVec 32 := 256#32
  let c2_i32 : BitVec 32 := 2#32
  let c0_i32_194 : BitVec 32 := 0#32
  let c1_i32_196 : BitVec 32 := 1#32
  let arg15 : BitVec 32 := Scf.iv c0_i32_194 c1_i32_196 k1_t5
  let v227 : BitVec 32 := Scalar.muli c2_i32 arg15
  let v228 : BitVec 32 := Scalar.addi c256_i32_225 v227
  let c1_i32_348 : BitVec 32 := 1#32
  let v460 : BitVec 32 := Scalar.addi v228 c1_i32_348
  let c0_i32_350 : BitVec 32 := 0#32
  let v462 : BitVec 1 := Scalar.cmpi .sgt v460 c0_i32_350
  let v463 : BitVec 32 := Scalar.extui v462
  let c0_i32_351 : BitVec 32 := 0#32
  let v464 : BitVec 1 := Scalar.cmpi .slt v460 c0_i32_351
  let v465 : BitVec 32 := Scalar.extui v464
  let v466 : BitVec 32 := Scalar.subi v463 v465
  let c16_i32_349 : BitVec 32 := 16#32
  let c0_i32_352 : BitVec 32 := 0#32
  let v467 : BitVec 1 := Scalar.cmpi .sgt c16_i32_349 c0_i32_352
  let v468 : BitVec 32 := Scalar.extui v467
  let c0_i32_353 : BitVec 32 := 0#32
  let v469 : BitVec 1 := Scalar.cmpi .slt c16_i32_349 c0_i32_353
  let v470 : BitVec 32 := Scalar.extui v469
  let v471 : BitVec 32 := Scalar.subi v468 v470
  let v472 : BitVec 1 := Scalar.cmpi .ne v466 v471
  let v473 : BitVec 32 := Scalar.remsi v460 c16_i32_349
  let c0_i32_354 : BitVec 32 := 0#32
  let v474 : BitVec 1 := Scalar.cmpi .ne v473 c0_i32_354
  let v475 : BitVec 1 := Scalar.andi v472 v474
  let v461 : BitVec 32 := Scalar.divsi v460 c16_i32_349
  let c1_i32_355 : BitVec 32 := 1#32
  let v476 : BitVec 32 := Scalar.subi v461 c1_i32_355
  let v477 : BitVec 32 := Scalar.select v475 v476 v461
  let c32768_i32_356 : BitVec 32 := 32768#32
  let v478 : BitVec 32 := Scalar.muli v477 c32768_i32_356
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_357 : BitVec 32 := 1024#32
  let v479 : BitVec 32 := Scalar.muli v1 c1024_i32_357
  let v480 : BitVec 32 := Scalar.addi v478 v479
  let c16_i32_358 : BitVec 32 := 16#32
  let c0_i32_359 : BitVec 32 := 0#32
  let v481 : BitVec 1 := Scalar.cmpi .eq c16_i32_358 c0_i32_359
  let c1_i32_360 : BitVec 32 := 1#32
  let v482 : BitVec 32 := Scalar.select v481 c1_i32_360 c16_i32_358
  let v483 : BitVec 32 := Scalar.remsi v460 v482
  let c0_i32_362 : BitVec 32 := 0#32
  let v485 : BitVec 1 := Scalar.cmpi .slt v483 c0_i32_362
  let c0_i32_363 : BitVec 32 := 0#32
  let v486 : BitVec 1 := Scalar.cmpi .slt v482 c0_i32_363
  let v487 : BitVec 1 := Scalar.xori v485 v486
  let c0_i32_361 : BitVec 32 := 0#32
  let v484 : BitVec 1 := Scalar.cmpi .ne v483 c0_i32_361
  let v488 : BitVec 1 := Scalar.andi v487 v484
  let v489 : BitVec 32 := Scalar.addi v483 v482
  let v490 : BitVec 32 := Scalar.select v488 v489 v483
  let c64_i32_364 : BitVec 32 := 64#32
  let v491 : BitVec 32 := Scalar.muli v490 c64_i32_364
  let v492 : BitVec 32 := Scalar.addi v480 v491
  v492
def k1_mult37 (i : grid1.Coords) : BitVec 32 :=
  let c622592_i32 : BitVec 32 := 622592#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_202 : BitVec 32 := 1024#32
  let v200 : BitVec 32 := Scalar.muli v1 c1024_i32_202
  let v201 : BitVec 32 := Scalar.addi c622592_i32 v200
  let c896_i32_203 : BitVec 32 := 896#32
  let v202 : BitVec 32 := Scalar.addi v201 c896_i32_203
  v202
def k1_mult38 (i : grid1.Coords) : BitVec 32 :=
  let c622592_i32_211 : BitVec 32 := 622592#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_210 : BitVec 32 := 1024#32
  let v209 : BitVec 32 := Scalar.muli v1 c1024_i32_210
  let v210 : BitVec 32 := Scalar.addi c622592_i32_211 v209
  let c960_i32_212 : BitVec 32 := 960#32
  let v211 : BitVec 32 := Scalar.addi v210 c960_i32_212
  v211
def k1_mult39 (i : grid1.Coords) : BitVec 32 :=
  let c622592_i32_216 : BitVec 32 := 622592#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_215 : BitVec 32 := 1024#32
  let v215 : BitVec 32 := Scalar.muli v1 c1024_i32_215
  let v216 : BitVec 32 := Scalar.addi c622592_i32_216 v215
  let c896_i32_217 : BitVec 32 := 896#32
  let v217 : BitVec 32 := Scalar.addi v216 c896_i32_217
  v217
def k1_mult40 (i : grid1.Coords) : BitVec 32 :=
  let c622592_i32_221 : BitVec 32 := 622592#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1024_i32_220 : BitVec 32 := 1024#32
  let v221 : BitVec 32 := Scalar.muli v1 c1024_i32_220
  let v222 : BitVec 32 := Scalar.addi c622592_i32_221 v221
  let c960_i32_222 : BitVec 32 := 960#32
  let v223 : BitVec 32 := Scalar.addi v222 c960_i32_222
  v223
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  shapeCasts_S1000x512_S4000x128 : S1000x512.ShapeCasts S4000x128
  bcast_S_S96x128 : S_.BroadcastsInDim S96x128 (![] : Fin 0 → Fin S96x128.rank)
  shapeCasts_S4096x512_S16384x128 : S4096x512.ShapeCasts S16384x128
  concatenates_S4000x128_S96x128_S16384x128_S20480x128_d0 : Shape.Concatenates [S4000x128, S96x128, S16384x128] S20480x128 0
  shapeCasts_S4096x20_S32x16x8x20 : S4096x20.ShapeCasts S32x16x8x20
  transposes_S32x16x8x20_S32x20x16x8_0_3_1_2 : S32x16x8x20.Transposes [0, 3, 1, 2] S32x20x16x8
  shapeCasts_S4_S1x1x1x4x1 : S4.ShapeCasts S1x1x1x4x1
  bcast_S_S32x20x16x1x8 : S_.BroadcastsInDim S32x20x16x1x8 (![] : Fin 0 → Fin S32x20x16x1x8.rank)
  bcast_S32x20x16x8_S32x20x16x1x8_0_1_2_4 : S32x20x16x8.BroadcastsInDim S32x20x16x1x8 (![0, 1, 2, 4] : Fin 4 → Fin S32x20x16x1x8.rank)
  bcast_S32x20x16x1x8_S32x20x16x4x8_0_1_2_3_4 : S32x20x16x1x8.BroadcastsInDim S32x20x16x4x8 (![0, 1, 2, 3, 4] : Fin 5 → Fin S32x20x16x4x8.rank)
  bcast_S1x1x1x4x1_S32x20x16x4x8_0_1_2_3_4 : S1x1x1x4x1.BroadcastsInDim S32x20x16x4x8 (![0, 1, 2, 3, 4] : Fin 5 → Fin S32x20x16x4x8.rank)
  concatenates_S32x20x16x4x8_S32x20x16x4x8_S32x20x16x8x8_d3 : Shape.Concatenates [S32x20x16x4x8, S32x20x16x4x8] S32x20x16x8x8 3
  shapeCasts_S32x20x16x8x8_S32x160x128 : S32x20x16x8x8.ShapeCasts S32x160x128
  squeezes_S1x32x128_S32x128 : S1x32x128.Squeezes S32x128
  inb_S32x128_S1x64_0_0 : ∀ a, (![0, 0] : Fin 2 → Nat) a + S1x64.size a ≤ S32x128.size a
  squeezes_S1x64_S64 : S1x64.Squeezes S64
  inb_S12288x128_S12288x128_0_0 : ∀ a, (![0, 0] : Fin 2 → Nat) a + S12288x128.size a ≤ S12288x128.size a
  gathers_S12288x128_S64x128 : S12288x128.Gathers 0 S64x128
  inb_S32x128_S1x64_0_64 : ∀ a, (![0, 64] : Fin 2 → Nat) a + S1x64.size a ≤ S32x128.size a
  inb_S32x128_S1x64_31_0 : ∀ a, (![31, 0] : Fin 2 → Nat) a + S1x64.size a ≤ S32x128.size a
  inb_S32x128_S1x64_31_64 : ∀ a, (![31, 64] : Fin 2 → Nat) a + S1x64.size a ≤ S32x128.size a
  shapeCasts_S655360x128_S20x512x8x8x128 : S655360x128.ShapeCasts S20x512x8x8x128
  transposes_S20x512x8x8x128_S512x8x20x8x128_1_3_0_2_4 : S20x512x8x8x128.Transposes [1, 3, 0, 2, 4] S512x8x20x8x128
  shapeCasts_S512x8x20x8x128_S4096x20x1024 : S512x8x20x8x128.ShapeCasts S4096x20x1024
  dot_S1000x512_S512x512_S1000x512_1_1_0_0_n_n_wf : DotDims.WF S1000x512 S512x512 S1000x512 [1] [1] [0] [0] [] []
  hcc1_scratch5 : 4 + S_.numel ≤ 12
  hcc1_scratch6 : 5 + S_.numel ≤ 12
  hcc1_scratch7 : 6 + S_.numel ≤ 12
  hcc1_scratch8 : 7 + S_.numel ≤ 12
  hcc1_scratch9 : 8 + S_.numel ≤ 12
  hcc1_scoped0 : 9 + S_.numel ≤ 12
  hcc1_scoped1 : 10 + S_.numel ≤ 12
  hcc1_scoped2 : 11 + S_.numel ≤ 12
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_off1_inb : ∀ i : grid1.Coords, ∀ a, (k1_off1 i) a + S256x128.size a ≤ S12288x128.size a
  k1_off2_inb : ∀ i : grid1.Coords, ∀ a, (k1_off2 i) a + S256x128.size a ≤ S20480x128.size a
  k1_off3_inb : ∀ i : grid1.Coords, ∀ a, (k1_off3 i) a + S512x128.size a ≤ S12288x128.size a
  k1_off4_inb : ∀ i : grid1.Coords, ∀ a, (k1_off4 i) a + S512x128.size a ≤ S20480x128.size a
  k1_off5_inb : ∀ i : grid1.Coords, ∀ a, (k1_off5 i) a + S1x32x128.size a ≤ S32x160x128.size a
  k1_off6_inb : ∀ i : grid1.Coords, ∀ a, (k1_off6 i) a + S1x32x128.size a ≤ S32x160x128.size a
  k1_t1_ok : k1_t1_loop.OK
  k1_off7_inb : ∀ k1_t1 : Fin k1_t1_loop.trips, ∀ a, (k1_off7 k1_t1) a + S1x64.size a ≤ S32x128.size a
  k1_mult1_dvd : ∀ (i : grid1.Coords) (k1_t1 : Fin k1_t1_loop.trips), 64 ∣ (k1_mult1 i k1_t1).toNat
  k1_off8_inb : ∀ (i : grid1.Coords) (k1_t1 : Fin k1_t1_loop.trips), ∀ a, (k1_off8 i k1_t1) a + S64x128.size a ≤ S655360x128.size a
  k1_off9_inb : ∀ k1_t1 : Fin k1_t1_loop.trips, ∀ (r : Fin 3), ∀ a, (k1_off9 k1_t1 (BitVec.ofNat 32 (1 + r.val))) a + S1x64.size a ≤ S32x128.size a
  k1_mult2_dvd : ∀ (i : grid1.Coords) (k1_t1 : Fin k1_t1_loop.trips), 64 ∣ (k1_mult2 i k1_t1).toNat
  k1_off10_inb : ∀ (i : grid1.Coords) (k1_t1 : Fin k1_t1_loop.trips), ∀ a, (k1_off10 i k1_t1) a + S64x128.size a ≤ S655360x128.size a
  k1_mult3_dvd : ∀ (i : grid1.Coords) (k1_t1 : Fin k1_t1_loop.trips), 64 ∣ (k1_mult3 i k1_t1).toNat
  k1_mult4_dvd : ∀ (i : grid1.Coords) (k1_t1 : Fin k1_t1_loop.trips), 64 ∣ (k1_mult4 i k1_t1).toNat
  k1_mult5_dvd : ∀ i : grid1.Coords, 64 ∣ (k1_mult5 i).toNat
  k1_off11_inb : ∀ i : grid1.Coords, ∀ (r₁ : Fin 5) (r₂ : Fin 2), ∀ a, (k1_off11 i (BitVec.ofNat 32 (98304 + 131072 * r₁.val)) (BitVec.ofNat 32 (896 + 64 * r₂.val))) a + S64x128.size a ≤ S655360x128.size a
  k1_mult6_dvd : ∀ i : grid1.Coords, 64 ∣ (k1_mult6 i).toNat
  k1_mult7_dvd : ∀ i : grid1.Coords, 64 ∣ (k1_mult7 i).toNat
  k1_mult8_dvd : ∀ i : grid1.Coords, 64 ∣ (k1_mult8 i).toNat
  k1_off12_inb : ∀ i : grid1.Coords, ∀ a, (k1_off12 i) a + S1x32x128.size a ≤ S32x160x128.size a
  k1_t2_ok : k1_t2_loop.OK
  k1_off13_inb : ∀ k1_t2 : Fin k1_t2_loop.trips, ∀ a, (k1_off13 k1_t2) a + S1x64.size a ≤ S32x128.size a
  k1_mult9_dvd : ∀ (i : grid1.Coords) (k1_t2 : Fin k1_t2_loop.trips), 64 ∣ (k1_mult9 i k1_t2).toNat
  k1_off14_inb : ∀ (i : grid1.Coords) (k1_t2 : Fin k1_t2_loop.trips), ∀ a, (k1_off14 i k1_t2) a + S64x128.size a ≤ S655360x128.size a
  k1_off15_inb : ∀ k1_t2 : Fin k1_t2_loop.trips, ∀ (r : Fin 3), ∀ a, (k1_off15 k1_t2 (BitVec.ofNat 32 (1 + r.val))) a + S1x64.size a ≤ S32x128.size a
  k1_mult10_dvd : ∀ (i : grid1.Coords) (k1_t2 : Fin k1_t2_loop.trips), 64 ∣ (k1_mult10 i k1_t2).toNat
  k1_off16_inb : ∀ (i : grid1.Coords) (k1_t2 : Fin k1_t2_loop.trips), ∀ a, (k1_off16 i k1_t2) a + S64x128.size a ≤ S655360x128.size a
  k1_mult11_dvd : ∀ (i : grid1.Coords) (k1_t2 : Fin k1_t2_loop.trips), 64 ∣ (k1_mult11 i k1_t2).toNat
  k1_mult12_dvd : ∀ (i : grid1.Coords) (k1_t2 : Fin k1_t2_loop.trips), 64 ∣ (k1_mult12 i k1_t2).toNat
  k1_mult13_dvd : ∀ i : grid1.Coords, 64 ∣ (k1_mult13 i).toNat
  k1_mult14_dvd : ∀ i : grid1.Coords, 64 ∣ (k1_mult14 i).toNat
  k1_mult15_dvd : ∀ i : grid1.Coords, 64 ∣ (k1_mult15 i).toNat
  k1_mult16_dvd : ∀ i : grid1.Coords, 64 ∣ (k1_mult16 i).toNat
  k1_off17_inb : ∀ i : grid1.Coords, ∀ a, (k1_off17 i) a + S1x32x128.size a ≤ S32x160x128.size a
  k1_t3_ok : k1_t3_loop.OK
  k1_off18_inb : ∀ k1_t3 : Fin k1_t3_loop.trips, ∀ a, (k1_off18 k1_t3) a + S1x64.size a ≤ S32x128.size a
  k1_mult17_dvd : ∀ (i : grid1.Coords) (k1_t3 : Fin k1_t3_loop.trips), 64 ∣ (k1_mult17 i k1_t3).toNat
  k1_off19_inb : ∀ (i : grid1.Coords) (k1_t3 : Fin k1_t3_loop.trips), ∀ a, (k1_off19 i k1_t3) a + S64x128.size a ≤ S655360x128.size a
  k1_off20_inb : ∀ k1_t3 : Fin k1_t3_loop.trips, ∀ (r : Fin 3), ∀ a, (k1_off20 k1_t3 (BitVec.ofNat 32 (1 + r.val))) a + S1x64.size a ≤ S32x128.size a
  k1_mult18_dvd : ∀ (i : grid1.Coords) (k1_t3 : Fin k1_t3_loop.trips), 64 ∣ (k1_mult18 i k1_t3).toNat
  k1_off21_inb : ∀ (i : grid1.Coords) (k1_t3 : Fin k1_t3_loop.trips), ∀ a, (k1_off21 i k1_t3) a + S64x128.size a ≤ S655360x128.size a
  k1_mult19_dvd : ∀ (i : grid1.Coords) (k1_t3 : Fin k1_t3_loop.trips), 64 ∣ (k1_mult19 i k1_t3).toNat
  k1_mult20_dvd : ∀ (i : grid1.Coords) (k1_t3 : Fin k1_t3_loop.trips), 64 ∣ (k1_mult20 i k1_t3).toNat
  k1_mult21_dvd : ∀ i : grid1.Coords, 64 ∣ (k1_mult21 i).toNat
  k1_mult22_dvd : ∀ i : grid1.Coords, 64 ∣ (k1_mult22 i).toNat
  k1_mult23_dvd : ∀ i : grid1.Coords, 64 ∣ (k1_mult23 i).toNat
  k1_mult24_dvd : ∀ i : grid1.Coords, 64 ∣ (k1_mult24 i).toNat
  k1_off22_inb : ∀ i : grid1.Coords, ∀ a, (k1_off22 i) a + S1x32x128.size a ≤ S32x160x128.size a
  k1_t4_ok : k1_t4_loop.OK
  k1_off23_inb : ∀ k1_t4 : Fin k1_t4_loop.trips, ∀ a, (k1_off23 k1_t4) a + S1x64.size a ≤ S32x128.size a
  k1_mult25_dvd : ∀ (i : grid1.Coords) (k1_t4 : Fin k1_t4_loop.trips), 64 ∣ (k1_mult25 i k1_t4).toNat
  k1_off24_inb : ∀ (i : grid1.Coords) (k1_t4 : Fin k1_t4_loop.trips), ∀ a, (k1_off24 i k1_t4) a + S64x128.size a ≤ S655360x128.size a
  k1_off25_inb : ∀ k1_t4 : Fin k1_t4_loop.trips, ∀ (r : Fin 3), ∀ a, (k1_off25 k1_t4 (BitVec.ofNat 32 (1 + r.val))) a + S1x64.size a ≤ S32x128.size a
  k1_mult26_dvd : ∀ (i : grid1.Coords) (k1_t4 : Fin k1_t4_loop.trips), 64 ∣ (k1_mult26 i k1_t4).toNat
  k1_off26_inb : ∀ (i : grid1.Coords) (k1_t4 : Fin k1_t4_loop.trips), ∀ a, (k1_off26 i k1_t4) a + S64x128.size a ≤ S655360x128.size a
  k1_mult27_dvd : ∀ (i : grid1.Coords) (k1_t4 : Fin k1_t4_loop.trips), 64 ∣ (k1_mult27 i k1_t4).toNat
  k1_mult28_dvd : ∀ (i : grid1.Coords) (k1_t4 : Fin k1_t4_loop.trips), 64 ∣ (k1_mult28 i k1_t4).toNat
  k1_mult29_dvd : ∀ i : grid1.Coords, 64 ∣ (k1_mult29 i).toNat
  k1_mult30_dvd : ∀ i : grid1.Coords, 64 ∣ (k1_mult30 i).toNat
  k1_mult31_dvd : ∀ i : grid1.Coords, 64 ∣ (k1_mult31 i).toNat
  k1_mult32_dvd : ∀ i : grid1.Coords, 64 ∣ (k1_mult32 i).toNat
  k1_t5_ok : k1_t5_loop.OK
  k1_off27_inb : ∀ k1_t5 : Fin k1_t5_loop.trips, ∀ a, (k1_off27 k1_t5) a + S1x64.size a ≤ S32x128.size a
  k1_mult33_dvd : ∀ (i : grid1.Coords) (k1_t5 : Fin k1_t5_loop.trips), 64 ∣ (k1_mult33 i k1_t5).toNat
  k1_off28_inb : ∀ (i : grid1.Coords) (k1_t5 : Fin k1_t5_loop.trips), ∀ a, (k1_off28 i k1_t5) a + S64x128.size a ≤ S655360x128.size a
  k1_off29_inb : ∀ k1_t5 : Fin k1_t5_loop.trips, ∀ (r : Fin 3), ∀ a, (k1_off29 k1_t5 (BitVec.ofNat 32 (1 + r.val))) a + S1x64.size a ≤ S32x128.size a
  k1_mult34_dvd : ∀ (i : grid1.Coords) (k1_t5 : Fin k1_t5_loop.trips), 64 ∣ (k1_mult34 i k1_t5).toNat
  k1_off30_inb : ∀ (i : grid1.Coords) (k1_t5 : Fin k1_t5_loop.trips), ∀ a, (k1_off30 i k1_t5) a + S64x128.size a ≤ S655360x128.size a
  k1_mult35_dvd : ∀ (i : grid1.Coords) (k1_t5 : Fin k1_t5_loop.trips), 64 ∣ (k1_mult35 i k1_t5).toNat
  k1_mult36_dvd : ∀ (i : grid1.Coords) (k1_t5 : Fin k1_t5_loop.trips), 64 ∣ (k1_mult36 i k1_t5).toNat
  k1_mult37_dvd : ∀ i : grid1.Coords, 64 ∣ (k1_mult37 i).toNat
  k1_mult38_dvd : ∀ i : grid1.Coords, 64 ∣ (k1_mult38 i).toNat
  k1_mult39_dvd : ∀ i : grid1.Coords, 64 ∣ (k1_mult39 i).toNat
  k1_mult40_dvd : ∀ i : grid1.Coords, 64 ∣ (k1_mult40 i).toNat

variable [Facts₀]

abbrev cc1_scratch5 : DmaSems sig S_ := SemArray.consecutive 4 S_ hcc1_scratch5
abbrev cc1_scratch6 : DmaSems sig S_ := SemArray.consecutive 5 S_ hcc1_scratch6
abbrev cc1_scratch7 : DmaSems sig S_ := SemArray.consecutive 6 S_ hcc1_scratch7
abbrev cc1_scratch8 : DmaSems sig S_ := SemArray.consecutive 7 S_ hcc1_scratch8
abbrev cc1_scratch9 : DmaSems sig S_ := SemArray.consecutive 8 S_ hcc1_scratch9
abbrev cc1_scoped0 : DmaSems sig S_ := SemArray.consecutive 9 S_ hcc1_scoped0
abbrev cc1_scoped1 : DmaSems sig S_ := SemArray.consecutive 10 S_ hcc1_scoped1
abbrev cc1_scoped2 : DmaSems sig S_ := SemArray.consecutive 11 S_ hcc1_scoped2
def dot_S1000x512_S512x512_S1000x512_1_1_0_0_n_n : DotDims S1000x512 S512x512 S1000x512 where
  lhsContracting := [1]
  rhsContracting := [1]
  lhsNonContracting := [0]
  rhsNonContracting := [0]
  lhsBatch := []
  rhsBatch := []
  wf := dot_S1000x512_S512x512_S1000x512_1_1_0_0_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x20 : Shape := ⟨2, ![4096, 20]⟩
abbrev S4096x512 : Shape := ⟨2, ![4096, 512]⟩
abbrev S1000x512 : Shape := ⟨2, ![1000, 512]⟩
abbrev S512x512 : Shape := ⟨2, ![512, 512]⟩
abbrev S512 : Shape := ⟨1, ![512]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x512 : Shape := ⟨3, ![4096, 20, 512]⟩
abbrev S1x1x512 : Shape := ⟨3, ![1, 1, 512]⟩
abbrev S4096x1x512 : Shape := ⟨3, ![4096, 1, 512]⟩
abbrev S4096x20x1024 : Shape := ⟨3, ![4096, 20, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S4096x512, .f32⟩
  | .hbm, ⟨2, _⟩ => ⟨S1000x512, .f32⟩
  | .hbm, ⟨3, _⟩ => ⟨S512x512, .f32⟩
  | .hbm, ⟨4, _⟩ => ⟨S512, .f32⟩
  | .hbm, ⟨5, _⟩ => ⟨S_, .i32⟩
  | .hbm, ⟨6, _⟩ => ⟨S4096x20, .i32⟩
  | .hbm, ⟨7, _⟩ => ⟨S4096x20, .i1⟩
  | .hbm, ⟨8, _⟩ => ⟨S_, .i32⟩
  | .hbm, ⟨9, _⟩ => ⟨S4096x20, .i32⟩
  | .hbm, ⟨10, _⟩ => ⟨S4096x20, .i32⟩
  | .hbm, ⟨11, _⟩ => ⟨S4096x20, .i32⟩
  | .hbm, ⟨12, _⟩ => ⟨S4096x20x1, .i32⟩
  | .hbm, ⟨13, _⟩ => ⟨S1, .i32⟩
  | .hbm, ⟨14, _⟩ => ⟨S_, .i32⟩
  | .hbm, ⟨15, _⟩ => ⟨S4096x20x1, .i32⟩
  | .hbm, ⟨16, _⟩ => ⟨S4096x20x1, .i1⟩
  | .hbm, ⟨17, _⟩ => ⟨S1x1x1, .i32⟩
  | .hbm, ⟨18, _⟩ => ⟨S4096x20x1, .i32⟩
  | .hbm, ⟨19, _⟩ => ⟨S4096x20x1, .i1⟩
  | .hbm, ⟨20, _⟩ => ⟨S4096x20x1, .i1⟩
  | .hbm, ⟨21, _⟩ => ⟨S_, .i1⟩
  | .hbm, ⟨22, _⟩ => ⟨S4096x20, .i1⟩
  | .hbm, ⟨23, _⟩ => ⟨S4096x20x512, .f32⟩
  | .hbm, ⟨24, _⟩ => ⟨S4096x20x512, .i1⟩
  | .hbm, ⟨25, _⟩ => ⟨S_, .f32⟩
  | .hbm, ⟨26, _⟩ => ⟨S4096x20x512, .f32⟩
  | .hbm, ⟨27, _⟩ => ⟨S4096x20x512, .f32⟩
  | .hbm, ⟨28, _⟩ => ⟨S512x512, .f32⟩
  | .hbm, ⟨29, _⟩ => ⟨S4096x20x512, .f32⟩
  | .hbm, ⟨30, _⟩ => ⟨S1x1x512, .f32⟩
  | .hbm, ⟨31, _⟩ => ⟨S4096x20x512, .f32⟩
  | .hbm, ⟨32, _⟩ => ⟨S4096x20x512, .f32⟩
  | .hbm, ⟨33, _⟩ => ⟨S4096x1x512, .f32⟩
  | .hbm, ⟨34, _⟩ => ⟨S4096x20x512, .f32⟩
  | .hbm, ⟨35, _⟩ => ⟨S4096x20x1024, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  bcast_S4096x20_S4096x20x512_0_1 : S4096x20.BroadcastsInDim S4096x20x512 (![0, 1] : Fin 2 → Fin S4096x20x512.rank)
  bcast_S_S4096x20x512 : S_.BroadcastsInDim S4096x20x512 (![] : Fin 0 → Fin S4096x20x512.rank)
  transposes_S512x512_S512x512_1_0 : S512x512.Transposes [1, 0] S512x512
  bcast_S512_S1x1x512_2 : S512.BroadcastsInDim S1x1x512 (![2] : Fin 1 → Fin S1x1x512.rank)
  bcast_S1x1x512_S4096x20x512_0_1_2 : S1x1x512.BroadcastsInDim S4096x20x512 (![0, 1, 2] : Fin 3 → Fin S4096x20x512.rank)
  bcast_S4096x512_S4096x1x512_0_2 : S4096x512.BroadcastsInDim S4096x1x512 (![0, 2] : Fin 2 → Fin S4096x1x512.rank)
  bcast_S4096x1x512_S4096x20x512_0_1_2 : S4096x1x512.BroadcastsInDim S4096x20x512 (![0, 1, 2] : Fin 3 → Fin S4096x20x512.rank)
  concatenates_S4096x20x512_S4096x20x512_S4096x20x1024_d2 : Shape.Concatenates [S4096x20x512, S4096x20x512] S4096x20x1024 2
  gather_S1000x512_S4096x20x1_S4096x20x512_2_0_n_n_0_2_1512_wf : GatherDims.WF S1000x512 S4096x20x1 S4096x20x512 [2] [0] [] [0] [] 2 ![1, 512]
  dot_S4096x20x512_S512x512_S4096x20x512_2_0_01_1_n_n_wf : DotDims.WF S4096x20x512 S512x512 S4096x20x512 [2] [0] [0, 1] [1] [] []

variable [Facts₀]

def gather_S1000x512_S4096x20x1_S4096x20x512_2_0_n_n_0_2_1512 : GatherDims S1000x512 S4096x20x1 S4096x20x512 where
  offsetDims := [2]
  collapsedSliceDims := [0]
  operandBatchingDims := []
  startIndicesBatchingDims := []
  startIndexMap := [0]
  indexVectorDim := 2
  sliceSizes := ![1, 512]
  wf := gather_S1000x512_S4096x20x1_S4096x20x512_2_0_n_n_0_2_1512_wf
def dot_S4096x20x512_S512x512_S4096x20x512_2_0_01_1_n_n : DotDims S4096x20x512 S512x512 S4096x20x512 where
  lhsContracting := [2]
  rhsContracting := [0]
  lhsNonContracting := [0, 1]
  rhsNonContracting := [1]
  lhsBatch := []
  rhsBatch := []
  wf := dot_S4096x20x512_S512x512_S4096x20x512_2_0_01_1_n_n_wf

class Facts : Prop extends Facts₀ where

variable [Facts]
-- ==== Proof.KCommon.lean ====
/-
  The gather program as the SparseCore launch theorem sees it: the configuration, the ghost algebra (the
  handshakes' rounds, the subcore barrier's rounds, the TensorCore pipeline's rounds, the transfers' counters),
  the arrays the kernel moves rows between, and what the handshakes carry.

  Every vector subcore `(c, i)` — worker `w = 16·c + i` — stages its rows of the gather table into its
  SparseCore's shared table (rows `256·i …` of the projected part and rows `4096 + 512·i …` of the core's half of
  the image part), meets the other fifteen at the subcore barrier, and then copies, chunk by chunk (320 chunks
  of 64 rows), the rows its index list names out of the shared table into its rows of the output.
  At the barrier a subcore hands every subcore of its SparseCore a read share of the rows it staged, so that after
  the barrier each holds a read share of the whole table.
-/
import proofs.«204824_g46875273068696_cont_8to1_c_371_32_alg».proof.Proof.Gen.KernelIdeal
import proofs.«204824_g46875273068696_cont_8to1_c_371_32_alg».proof.Proof.Gen.KernelIdeal.Skeleton
import proofs.«204824_g46875273068696_cont_8to1_c_371_32_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UPp : Type := URounds (GSem nD τ sig) Unit
abbrev UU : Type := UH × (UB × (UPp × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UPp × Counters))).trans (Emb.inr : Emb (UB × (UPp × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library. -/
def EPp : Emb UPp (MT nD τ sig (HIx 1) (Elt F) ℕ UU ℕ) :=
  (((Emb.inl : Emb UPp (UPp × Counters)).trans (Emb.inr : Emb (UPp × Counters) (UB × (UPp × Counters)))).trans (Emb.inr : Emb (UB × (UPp × Counters)) UU)).trans
    (uEmb (nD := nD) (sig := sig) (Ix := HIx 1) (Val := Elt F) (Name := ℕ) (U := UU) (Lvl := ℕ)).toEmb
instance EPp_landsIn : (EPp : Emb UPp 𝕄).LandsIn (upEmb : UEmb _ 𝕄) := by unfold EPp; infer_instance

/-! ## The arrays -/

abbrev tabLoc (d : Dev nD) : Loc nD τ sig := (SparseCore.T d).loc main_v5
abbrev idxLoc (d : Dev nD) : Loc nD τ sig := (SparseCore.T d).loc main_v34
abbrev outLoc (d : Dev nD) : Loc nD τ sig := (SparseCore.T d).loc main_v35

local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

theorem nSub_eq : τ.nSub = 16 := rfl
theorem nSC_eq : τ.nSC = 2 := rfl

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The rows of the shared table subcore `i` stages: 256 rows of the projected part (A) and 512 rows of its SparseCore's
    half of the image part (B). -/
theorem shRectA_inb (i : Fin 16) : ∀ a, (![256 * i.val, 0] : Fin 2 → ℕ) a + S256x128.size a ≤ S12288x128.size a := by
  have hi := i.isLt
  intro a; match a with
  | 0 => show 256 * i.val + 256 ≤ 12288; omega
  | 1 => show 0 + 128 ≤ 128; omega
theorem shRectB_inb (i : Fin 16) : ∀ a, (![512 * i.val + 4096, 0] : Fin 2 → ℕ) a + S512x128.size a ≤ S12288x128.size a := by
  have hi := i.isLt
  intro a; match a with
  | 0 => show 512 * i.val + 4096 + 512 ≤ 12288; omega
  | 1 => show 0 + 128 ≤ 128; omega
abbrev shRectA (i : Fin 16) : Rect S12288x128 := Rect.unit (s := S12288x128) ![256 * i.val, 0] S256x128.size (shRectA_inb i)
abbrev shRectB (i : Fin 16) : Rect S12288x128 := Rect.unit (s := S12288x128) ![512 * i.val + 4096, 0] S512x128.size (shRectB_inb i)
abbrev shRowsA (i : Fin 16) : Finset S12288x128.Idx := ((shV).view.slice (shRectA i)).set
abbrev shRowsB (i : Fin 16) : Finset S12288x128.Idx := ((shV).view.slice (shRectB i)).set

/-- Worker `w`'s chunk `j` of the output starts at this row: caption position `j / 16`, then the worker, then the
    sixteenth `j % 16` of the worker's 1024 rows there. -/
def chunkRow (w : Fin 32) (j : Fin 320) : ℕ := (j.val / 16) * 32768 + w.val * 1024 + (j.val % 16) * 64
theorem chunkRow_inb (w : Fin 32) (j : Fin 320) : ∀ a, (![chunkRow w j, 0] : Fin 2 → ℕ) a + S64x128.size a ≤ S655360x128.size a := by
  have hw := w.isLt; have hj := j.isLt
  intro a; match a with
  | 0 => show chunkRow w j + 64 ≤ 655360; unfold chunkRow; omega
  | 1 => show 0 + 128 ≤ 128; omega
abbrev chunkRect (w : Fin 32) (j : Fin 320) : Rect S655360x128 := Rect.unit (s := S655360x128) ![chunkRow w j, 0] S64x128.size (chunkRow_inb w j)
abbrev chunkSet (w : Fin 32) (j : Fin 320) : Finset S655360x128.Idx := ((outV).view.slice (chunkRect w j)).set

/-- The worker number of subcore `i` of SparseCore `c`. -/
def wid (c : Fin τ.nSC) (i : Fin τ.nSub) : Fin 32 := ⟨16 * c.val + i.val, by have h1 : c.val < 2 := c.isLt; have h2 : i.val < 16 := i.isLt; omega⟩
/-- Subcore `i` as a number below sixteen. -/
abbrev i16 (i : Fin τ.nSub) : Fin 16 := Fin.cast nSub_eq i

/-! ## Read shares: a half per SparseCore, a sixteenth of it per subcore -/

abbrev coreShare (c : Fin τ.nSC) : PosShare TreeShare := Transfers.shareTok fullShare 2 (Fin.cast nSC_eq c)
abbrev tileShare (c : Fin τ.nSC) (i : Fin τ.nSub) : PosShare TreeShare := Transfers.shareTok (coreShare c) 16 (i16 i)
abbrev shTok (i : Fin τ.nSub) : PosShare TreeShare := Transfers.shareTok fullShare 16 (i16 i)
abbrev shRest : PosShare TreeShare := Transfers.shareDrop fullShare 16

end Cert.KernelIdeal.KProof

end
-- ==== Proof.KPay.lean ====
/-
  The subcore barrier's cells and what the launch's handshakes carry.

  At the barrier subcore `n` of a SparseCore hands subcore `j`'s round a read share (the `j`-th sixteenth) of the rows
  of the shared table it staged; after the barrier subcore `j` has collected that sixteenth of every subcore's rows:
  a read share of the whole table.
-/
import proofs.«204824_g46875273068696_cont_8to1_c_371_32_alg».proof.Proof.KCommon

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)

-- The launch memory; the gather table, the index lists and the output as the kernel finds them and leaves it; each
-- SparseCore's shared table as the staging leaves it.
variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The read share of subcore `n`'s rows that goes to subcore `j`. -/
abbrev shPiece (d : Dev nD) (c : Fin τ.nSC) (n : Fin 16) (j : Fin τ.nSub) : sProp 𝕄 :=
  iprop((shLoc d c ↦[shRowsA n]{shTok j} SH d c) ∗ shLoc d c ↦[shRowsB n]{shTok j} SH d c)

/-- What duty `n` of subcore `j`'s round hands over: subcore `n`'s rows of the shared table, under `j`'s read share. -/
def bPay (g : GSem nD τ sig) (n : ℕ) : sProp 𝕄 :=
  match g with
  | ((d, .scVector c j), _) => if h : n < 16 then shPiece SH d c ⟨n, h⟩ j else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay SH g n
  amount_pos _ _ _ _ := Nat.one_pos

instance bRd_payload_storable (g : GSem nD τ sig) (r n : ℕ) : BI.Storable (upEmb : UEmb _ 𝕄) ((bRd (F := F) SH).payload g r n) := by
  show BI.Storable upEmb (bPay SH g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) SH).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) SH).duties (bcell d c j) 0 := by
  rw [bRd_duties₀]; exact Finset.mem_image_of_mem _ (Finset.mem_univ i)
omit [FloatOps F] in
theorem bRd_expect (d : Dev nD) (c : Fin τ.nSC) (j : Fin τ.nSub) : 0 + grid1.bound 1 = (bRd (F := F) SH).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the
    call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## A subcore's own cells for the barrier: what the launch deals its proof -/

/-- Subcore `(c, i)`'s barrier kit: every subcore's cell invariant of its SparseCore and that each has reached round 0,
    its own position at the origin of round 0, its duty token in every subcore's round 0, and the credit for the
    sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) SH) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The output rows of worker `w`, chunk by chunk, at the contents `f`. -/
abbrev outChunks (d : Dev nD) (w : Fin 32) (f : Buf (Elt F) (outLoc d)) : sProp 𝕄 :=
  bigSep Finset.univ fun j : Fin 320 => outLoc d ↦[chunkSet w j]{fullShare} f

/-- What a subcore's task starts from: read shares of the gather table and of the index lists, its chunks of the
    output as the launch left them, and its rows of the shared table at some contents. -/
abbrev goPts (d : Dev nD) (c : Fin τ.nSC) (i : Fin τ.nSub) : sProp 𝕄 :=
  iprop((tabLoc d ↦{tileShare c i} TAB d) ∗ (idxLoc d ↦{tileShare c i} IDX d) ∗ outChunks d (wid c i) (m (outLoc d))
    ∗ (∃ f, shLoc d c ↦[shRowsA (i16 i)]{fullShare} f) ∗ ∃ f, shLoc d c ↦[shRowsB (i16 i)]{fullShare} f)
/-- What it ends with: the same read shares, its chunks of the output gathered, its read share of the whole shared
    table, and what remained of its own rows. -/
abbrev tdPts (d : Dev nD) (c : Fin τ.nSC) (i : Fin τ.nSub) : sProp 𝕄 :=
  iprop((tabLoc d ↦{tileShare c i} TAB d) ∗ (idxLoc d ↦{tileShare c i} IDX d) ∗ outChunks d (wid c i) (OUT d)
    ∗ (shLoc d c ↦{shTok i} SH d c)
    ∗ (shLoc d c ↦[shRowsA (i16 i)]{shRest} SH d c)
    ∗ shLoc d c ↦[shRowsB (i16 i)]{shRest} SH d c)
/-- What a SparseCore is started with: a half read share of the table and of the index lists, its workers' chunks. -/
abbrev stPts (d : Dev nD) (c : Fin τ.nSC) : sProp 𝕄 :=
  iprop((tabLoc d ↦{coreShare c} TAB d) ∗ (idxLoc d ↦{coreShare c} IDX d) ∗ bigSep Finset.univ fun i : Fin τ.nSub => outChunks d (wid c i) (m (outLoc d)))
abbrev dnPts (d : Dev nD) (c : Fin τ.nSC) : sProp 𝕄 :=
  iprop((tabLoc d ↦{coreShare c} TAB d) ∗ (idxLoc d ↦{coreShare c} IDX d) ∗ bigSep Finset.univ fun i : Fin τ.nSub => outChunks d (wid c i) (OUT d))

def P : (K (F := F)).Pay (nD := nD) (Val := Elt F) (Name := ℕ) (U := UU) where
  st := fun q d c => match q with | 0 => stPts m TAB IDX d (coreOf c)
  dn := fun q d c => match q with | 0 => dnPts TAB IDX OUT d (coreOf c)
  go := fun q d c i => match q with | 0 => goPts m TAB IDX d (coreOf c) ((K (F := F)).sub 0 i)
  td := fun q d c i => match q with | 0 => tdPts TAB IDX OUT SH d (coreOf c) ((K (F := F)).sub 0 i)
  x := fun _ thr => match thr with
    | (d, .scVector c i) => bkit SH d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m TAB IDX OUT SH).IsStorable where
  st q d c := match q with
    | 0 => (inferInstance : BI.Storable (upEmb : UEmb _ 𝕄) (stPts m TAB IDX d (coreOf c)))
  dn q d c := match q with
    | 0 => (inferInstance : BI.Storable (upEmb : UEmb _ 𝕄) (dnPts TAB IDX OUT d (coreOf c)))
  go q d c i := match q with
    | 0 => (inferInstance : BI.Storable (upEmb : UEmb _ 𝕄) (goPts m TAB IDX d (coreOf c) ((K (F := F)).sub 0 i)))
  td q d c i := match q with
    | 0 => (inferInstance : BI.Storable (upEmb : UEmb _ 𝕄) (tdPts TAB IDX OUT SH d (coreOf c) ((K (F := F)).sub 0 i)))

end Cert.KernelIdeal.KProof

end
-- ==== Proof.KFun.lean ====
/-
  The value side of the program, as plain functions: what each stretch of the host program computes from the
  values it reads, written as the composition of the pure operations the program's lines apply, in the
  program's order. Nothing here mentions memory; every definition is generic in the float instance.

  * projF  — the projection kernel's payload: the embedding table through the linear layer.
  * tabF   — the gather table: the projected rows cut in four 128-wide pieces each, 96 zero rows, then the
             image features cut in four pieces each.
  * idxF   — the index array handed to the gather kernel (integers only).
  * tailF  — the final re-layout of the gathered rows into [batch, position, feature].
  * shTab, scOut — the meaning of the gather kernel: each core's shared table and the rows it leaves.
  * KG     — the whole program's result as a function of its five arguments.
-/
import proofs.«204824_g46875273068696_cont_8to1_c_371_32_alg».proof.KernelIdeal
import proofs.«204824_g46875273068696_cont_8to1_c_371_32_alg».proof.Proof.Gen.KernelIdeal
import proofs.«204824_g46875273068696_cont_8to1_c_371_32_alg».proof.Proof.Gen.KernelIdeal.Skeleton
import Idealize.ShloMosaic.Lib.ValueIdx

noncomputable section

namespace Cert.KernelIdeal.KFun

open Idealize.ShloMosaic Idealize.ShloMosaic.ValueIdx
open Cert.KernelIdeal Cert.KernelIdeal.Facts₀

variable {F : FTy → Type} [FloatOps F]

/-- The projection: the embedding table times the transposed weight, plus the bias broadcast over the rows
    (the bias first viewed as a one-row matrix). -/
def projF (emb : FVec F S1000x512 .f32) (W : FVec F S512x512 .f32) (b : FVec F S512 .f32) : FVec F S1000x512 .f32 :=
  Gen.k0_pay1 emb W (shapeCast S1x512 b shapeCasts_S512_S1x512)

/-- The gather table: 4000 rows of projected pieces, 96 rows of zeros, 16384 rows of image pieces. -/
def tabF (proj : FVec F S1000x512 .f32) (img : FVec F S4096x512 .f32) : FVec F S20480x128 .f32 :=
  concatenate S20480x128 0
    [⟨S4000x128, shapeCast S4000x128 proj shapeCasts_S1000x512_S4000x128⟩,
     ⟨S96x128, broadcastInDim S96x128 ![] bcast_S_S96x128 (constant (F := F) S_ .f32 0x00000000#32)⟩,
     ⟨S16384x128, shapeCast S16384x128 img shapeCasts_S4096x512_S16384x128⟩]
    concatenates_S4000x128_S96x128_S16384x128_S20480x128_d0

/-- The floor-modulo the host program calls: the truncated remainder by the divisor (one where the divisor
    is zero), moved by the divisor where the remainder is nonzero and its sign differs from the divisor's. -/
def remF (x : IVec S32x20x16x1x8 32) (m : IVec S_ 32) : IVec S32x20x16x1x8 32 :=
  let v0 : IVec S_ 32 := id m
  let c : IVec S_ 32 := constantI S_ 32 0#32
  let v1 : IVec S_ 1 := cmpi .eq v0 c
  let c_0 : IVec S_ 32 := constantI S_ 32 1#32
  let v2 : IVec S_ 32 := select v1 c_0 v0
  let v3 : IVec S32x20x16x1x8 32 := broadcastInDim S32x20x16x1x8 ![] bcast_S_S32x20x16x1x8 v2
  let v4 : IVec S32x20x16x1x8 32 := Host.remsi x v3
  let c_1 : IVec S_ 32 := constantI S_ 32 0#32
  let v5 : IVec S32x20x16x1x8 32 := broadcastInDim S32x20x16x1x8 ![] bcast_S_S32x20x16x1x8 c_1
  let v6 : IVec S32x20x16x1x8 1 := cmpi .ne v4 v5
  let c_2 : IVec S_ 32 := constantI S_ 32 0#32
  let v7 : IVec S32x20x16x1x8 32 := broadcastInDim S32x20x16x1x8 ![] bcast_S_S32x20x16x1x8 c_2
  let v8 : IVec S32x20x16x1x8 1 := cmpi .slt v4 v7
  let c_3 : IVec S_ 32 := constantI S_ 32 0#32
  let v9 : IVec S_ 1 := cmpi .slt v2 c_3
  let v10 : IVec S32x20x16x1x8 1 := broadcastInDim S32x20x16x1x8 ![] bcast_S_S32x20x16x1x8 v9
  let v11 : IVec S32x20x16x1x8 1 := cmpi .ne v8 v10
  let v12 : IVec S32x20x16x1x8 1 := andi v11 v6
  let v13 : IVec S32x20x16x1x8 32 := broadcastInDim S32x20x16x1x8 ![] bcast_S_S32x20x16x1x8 v2
  let v14 : IVec S32x20x16x1x8 32 := addi v4 v13
  select v12 v14 v4

/-- The piece number 0..3 along the fourth axis of a [1,1,1,4,1] array. -/
def pieceF : IVec S1x1x1x4x1 32 :=
  shapeCast S1x1x1x4x1 (iotaInDim S4 32 0) shapeCasts_S4_S1x1x1x4x1

/-- The caption's row within its core's half of the image rows: (worker mod 16)·128 + a·8 + b. -/
def capLocF : IVec S32x20x16x1x8 32 :=
  let v10 : IVec S32x20x16x1x8 32 := iotaInDim S32x20x16x1x8 32 0
  let c : IVec S_ 32 := constantI S_ 32 16#32
  let v11 : IVec S32x20x16x1x8 32 := remF v10 c
  let c_0 : IVec S_ 32 := constantI S_ 32 128#32
  let v12 : IVec S32x20x16x1x8 32 := broadcastInDim S32x20x16x1x8 ![] bcast_S_S32x20x16x1x8 c_0
  let v13 : IVec S32x20x16x1x8 32 := muli v11 v12
  let v14 : IVec S32x20x16x1x8 32 := iotaInDim S32x20x16x1x8 32 2
  let c_1 : IVec S_ 32 := constantI S_ 32 8#32
  let v15 : IVec S32x20x16x1x8 32 := broadcastInDim S32x20x16x1x8 ![] bcast_S_S32x20x16x1x8 c_1
  let v16 : IVec S32x20x16x1x8 32 := muli v14 v15
  let v17 : IVec S32x20x16x1x8 32 := addi v13 v16
  let v18 : IVec S32x20x16x1x8 32 := iotaInDim S32x20x16x1x8 32 4
  addi v17 v18

/-- The tokens regrouped by worker: [worker, position, a, b] from [4096, 20] read as [32, 16, 8, 20]. -/
def tokPF (cap : IVec S4096x20 32) : IVec S32x20x16x8 32 :=
  transpose S32x20x16x8 [0, 3, 1, 2] (shapeCast S32x16x8x20 cap shapeCasts_S4096x20_S32x16x8x20)
    transposes_S32x16x8x20_S32x20x16x8_0_3_1_2

/-- The word half of the index array: token·4 + piece. -/
def wordIdxF (cap : IVec S4096x20 32) : IVec S32x20x16x4x8 32 :=
  let v20 : IVec S32x20x16x1x8 32 :=
    broadcastInDim S32x20x16x1x8 ![0, 1, 2, 4] bcast_S32x20x16x8_S32x20x16x1x8_0_1_2_4 (tokPF cap)
  let c_2 : IVec S_ 32 := constantI S_ 32 4#32
  let v21 : IVec S32x20x16x1x8 32 := broadcastInDim S32x20x16x1x8 ![] bcast_S_S32x20x16x1x8 c_2
  let v22 : IVec S32x20x16x1x8 32 := muli v20 v21
  let v23 : IVec S32x20x16x4x8 32 :=
    broadcastInDim S32x20x16x4x8 ![0, 1, 2, 3, 4] bcast_S32x20x16x1x8_S32x20x16x4x8_0_1_2_3_4 v22
  let v24 : IVec S32x20x16x4x8 32 :=
    broadcastInDim S32x20x16x4x8 ![0, 1, 2, 3, 4] bcast_S1x1x1x4x1_S32x20x16x4x8_0_1_2_3_4 pieceF
  addi v23 v24

/-- The image half of the index array: 4096 + local row·4 + piece. -/
def imgIdxF : IVec S32x20x16x4x8 32 :=
  let c_3 : IVec S_ 32 := constantI S_ 32 4#32
  let v26 : IVec S32x20x16x1x8 32 := broadcastInDim S32x20x16x1x8 ![] bcast_S_S32x20x16x1x8 c_3
  let v27 : IVec S32x20x16x1x8 32 := muli capLocF v26
  let c_4 : IVec S_ 32 := constantI S_ 32 4096#32
  let v28 : IVec S32x20x16x1x8 32 := broadcastInDim S32x20x16x1x8 ![] bcast_S_S32x20x16x1x8 c_4
  let v29 : IVec S32x20x16x1x8 32 := addi v28 v27
  let v30 : IVec S32x20x16x4x8 32 :=
    broadcastInDim S32x20x16x4x8 ![0, 1, 2, 3, 4] bcast_S32x20x16x1x8_S32x20x16x4x8_0_1_2_3_4 v29
  let v31 : IVec S32x20x16x4x8 32 :=
    broadcastInDim S32x20x16x4x8 ![0, 1, 2, 3, 4] bcast_S1x1x1x4x1_S32x20x16x4x8_0_1_2_3_4 pieceF
  addi v30 v31

/-- The two halves side by side along the piece axis (eight pieces). -/
def idxFullF (cap : IVec S4096x20 32) : IVec S32x20x16x8x8 32 :=
  concatenate S32x20x16x8x8 3 [⟨S32x20x16x4x8, wordIdxF cap⟩, ⟨S32x20x16x4x8, imgIdxF⟩]
    concatenates_S32x20x16x4x8_S32x20x16x4x8_S32x20x16x8x8_d3

/-- The index array the gather kernel reads: per worker, 160 rows of 128 indices. -/
def idxF (cap : IVec S4096x20 32) : IVec S32x160x128 32 :=
  shapeCast S32x160x128 (idxFullF cap) shapeCasts_S32x20x16x8x8_S32x160x128

/-- The final re-layout: rows [position, batch/8, piece, batch%8] to [batch, position, piece·128 + lane]. -/
def tailF (o : FVec F S655360x128 .f32) : FVec F S4096x20x1024 .f32 :=
  shapeCast S4096x20x1024
    (transpose S512x8x20x8x128 [1, 3, 0, 2, 4]
      (shapeCast S20x512x8x8x128 o shapeCasts_S655360x128_S20x512x8x8x128)
      transposes_S20x512x8x8x128_S512x8x20x8x128_1_3_0_2_4)
    shapeCasts_S512x8x20x8x128_S4096x20x1024

/-- Core c's shared table: rows 0..4095 are the table's rows 0..4095 (the projected rows), row 4096 + x is
    the table's row 4096 + 8192·c + x (the core's half of the image rows). -/
def shTab (tab : FVec F S20480x128 .f32) (c : Fin 2) : FVec F S12288x128 .f32 := fun i =>
  if h : (i 0).val < 4096 then tab (ix2 ⟨(i 0).val, by omega⟩ ⟨(i 1).val, idx2_lt1 i⟩)
  else tab (ix2 ⟨(i 0).val + 8192 * c.val, by have := idx2_lt0 i; have := c.isLt; omega⟩ ⟨(i 1).val, idx2_lt1 i⟩)

/-- What the gather kernel leaves in its output: row R = L·32768 + w·1024 + e (L < 20 a caption position,
    w < 32 a worker = 16·core + subcore, e < 1024) is row idx[w, f/128, f%128] of worker w's core's shared
    table, where f = L·1024 + e. -/
def scOut (tab : FVec F S20480x128 .f32) (idx : IVec S32x160x128 32) : FVec F S655360x128 .f32 := fun i =>
  shTab tab ⟨(i 0).val % 32768 / 1024 / 16, by omega⟩
    (ix2 ⟨(idx (ix3 ⟨(i 0).val % 32768 / 1024, by omega⟩
                    ⟨((i 0).val / 32768 * 1024 + (i 0).val % 1024) / 128, by have := idx2_lt0 i; omega⟩
                    ⟨((i 0).val / 32768 * 1024 + (i 0).val % 1024) % 128, by omega⟩)).toNat % 12288,
          Nat.mod_lt _ (by decide)⟩
      ⟨(i 1).val, idx2_lt1 i⟩)

/-- The whole program's result from its five arguments. -/
def KG (cap : IVec S4096x20 32) (img : FVec F S4096x512 .f32) (emb : FVec F S1000x512 .f32)
    (W : FVec F S512x512 .f32) (b : FVec F S512 .f32) : FVec F S4096x20x1024 .f32 :=
  tailF (scOut (tabF (projF emb W b) img) (idxF cap))

end Cert.KernelIdeal.KFun

end
-- ==== Proof.KData.lean ====
/-
  The arrays the gather kernel works on, as functions of the launch memory: the gather table (the projected
  embedding rows, padding, the image rows), the index lists, the output it leaves, and each SparseCore's shared table.
-/
import proofs.«204824_g46875273068696_cont_8to1_c_371_32_alg».proof.Proof.KPay
import proofs.«204824_g46875273068696_cont_8to1_c_371_32_alg».proof.Proof.KFun

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

/-- The gather table: the host's concatenation over the TensorCore call's result and the image features. -/
def TABm (d : Dev nD) : Buf (Elt F) (tabLoc d) :=
  KFun.tabF (F := F) (KFun.projF (m ((SparseCore.T d).loc main_arg2)) (m ((SparseCore.T d).loc main_arg3)) (m ((SparseCore.T d).loc main_arg4))) (m ((SparseCore.T d).loc main_arg1))
/-- The index lists: the host's integer program over the caption tokens. -/
def IDXm (d : Dev nD) : Buf (Elt F) (idxLoc d) := KFun.idxF (m ((SparseCore.T d).loc main_arg0))
/-- What the gather kernel leaves in its output. -/
def OUTm (d : Dev nD) : Buf (Elt F) (outLoc d) := KFun.scOut (F := F) (TABm m d) (IDXm m d)
/-- SparseCore `c`'s shared table after the staging. -/
def SHm (d : Dev nD) (c : Fin τ.nSC) : Buf (Elt F) (shLoc d c) := KFun.shTab (F := F) (TABm m d) (Fin.cast nSC_eq c)

/-- The handshakes' payloads at those arrays. -/
abbrev Pm : (K (F := F)).Pay (nD := nD) (Val := Elt F) (Name := ℕ) (U := UU) := P m (TABm m) (IDXm m) (OUTm m) (SHm m)

end Cert.KernelIdeal.KProof

end
-- ==== Proof.KLaunchElem.lean ====
/-
  The launch element of the ghost state, and what the launch hands over: the handshakes' rounds library; each
  vector subcore its barrier kit (every barrier cell's invariant of its SparseCore, its duty tokens, its position,
  the credit for its own round); each TensorCore the projection pipeline's staging cells' ghost state and duty tokens.
-/
import proofs.«204824_g46875273068696_cont_8to1_c_371_32_alg».proof.Proof.KData

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (SH : (d : Dev nD) → (c : Fin τ.nSC) → Buf (Elt F) (shLoc d c))
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' rounds, the barrier cells' rounds, the projection pipeline's staging cells'
    rounds, the unit of the transfers' counters. -/
def u₀ : UU := (initOf (K (F := F)).hsCells (K (F := F)).hsToks, (initOf bCells bToks,
  (initOf (Pipeline.cells (nD := nD) (τ := τ) cfgs cellOf_inj) (Pipeline.launchToks (nD := nD) (τ := τ) cfgs cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UPp) :
    (ownU ((a, (b, (p, 1))) : UU) : sProp 𝕄) ⊢ iprop(BI.own (EH a) ∗ BI.own (EB b) ∗ BI.own (EPp p)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (p, (1 : Counters))))))).trans (BI.sep_mono_r ?_)
  exact BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op (p, (1 : Counters))))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) SH) g 0)
    ⊢ |={Set.univ}=> iprop(∃ κ : GSem nD τ sig → ℕ, bigSep bCells fun g => cellInv EB (bRd (F := F) SH) (κ g) g) := by
  refine (Rounds.bodies_intro EB (bRd (F := F) SH) bCells).trans ((inv_alloc_family bCells (Rounds.body EB (bRd (F := F) SH)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((Pm (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((Pm (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (Pm (F := F) m).oxFrom 0 (V d c i) = oxV d c := fun i => by
    rw [show (0 : ℕ) = (0 : Fin 1).val from rfl, (Pm m).oxFrom_step, (Pm m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (Pm (F := F) m).x q (SparseCore.T d)) = iprop(emp) :=
  bigSep_univ_of_subsingleton (0 : Fin 1)
theorem Px_S (d : Dev nD) (c : Fin τ.nSC) : (bigSep Finset.univ fun q : Fin 1 => (Pm (F := F) m).x q (S d c)) = iprop(emp) :=
  bigSep_univ_of_subsingleton (0 : Fin 1)
theorem Px_V (d : Dev nD) (c : Fin τ.nSC) (i : Fin τ.nSub) :
    (bigSep Finset.univ fun q : Fin 1 => (Pm (F := F) m).x q (V d c i)) = bkit (SHm m) d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) SH) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared (F := F) SH ∗ mine (F := F) dci) ⊢ (bkit (F := F) SH dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) SH) (κ (bcell₃ x)) (bcell₃ x)) fun j _ =>
        sep_elim_left.trans (bigSep_elim (Φ := fun x : DCI => (cellInv EB (bRd (F := F) SH) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each subcore its kit. -/
theorem kits_deal :
    iprop(shared (F := F) (SHm m) ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (Pm (F := F) m).x q thr : sProp 𝕄) := by
  rw [SparseCore.Cfg.bigSep_threads (fun thr : Thread nD τ => bigSep Finset.univ fun q : Fin 1 => (Pm (F := F) m).x q thr)]
  simp only [Px_T, Px_S, Px_V, bigSep_emp']
  iintro ⟨#Hsh, Hat, Htok, Hcred⟩
  isplitr; · iempintro
  isplitr; · iempintro
  iapply (bigSep_mono_frame (R := shared (F := F) (SHm m)) (Φ := mine (F := F)) fun dci _ => kit_intro (F := F) (SHm m) dci)
  isplitr; · iexact Hsh
  unfold mine
  rw [bigSep_sep', bigSep_sep']
  isplitl [Hat]; · iexact Hat
  isplitl [Htok]; · iexact Htok
  iexact Hcred

/-- What the launch hands each TensorCore beside its handshake state: the projection pipeline's staging cells' ghost
    state and duty tokens. -/
abbrev G (d : Dev nD) : sProp 𝕄 :=
  iprop(Pipeline.cellsGhost (nD := nD) (τ := τ) cfgs EPp (0 : Fin 1) d ∗ Pipeline.toksInit (nD := nD) (τ := τ) cfgs EPp (0 : Fin 1) d)

theorem hu₀ : iprop(ownU (u₀ (F := F)) ∗ (Pm (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (Pm m).x q thr) : sProp 𝕄) := by
  unfold u₀
  iintro ⟨Hu, Hcred, Hfree⟩
  ihave H := (ownU_split _ _ _) $$ Hu
  icases H with ⟨HH, HB, HP⟩
  imod (Rounds.fund EB (bRd (F := F) (SHm m)) bCells bToks) $$ HB with ⟨Hst, #Hr, Hat, Htok⟩
  imod (Pipeline.fund_ghost (nD := nD) (τ := τ) cfgs EPp cellOf_inj) $$ HP with ⟨Hg, Ht⟩
  ihave Hsems := (sems_b (F := F)) $$ Hfree
  imod (invs_b (F := F) (SHm m)) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) (SHm m)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · rw [bigSep_sep']
    isplitl [Hg]
    · iapply (SparseCore.ent (bigSep_mono (Φ := fun c : Dev nD => bigSep Finset.univ fun p : Fin 1 => Pipeline.cellsGhost (nD := nD) (τ := τ) cfgs (EPp (F := F)) p c)
        (Ψ := fun c : Dev nD => Pipeline.cellsGhost (nD := nD) (τ := τ) cfgs (EPp (F := F)) (0 : Fin 1) c) fun c _ => bigSep_elim (Finset.mem_univ (0 : Fin 1))))
      iexact Hg
    · iapply (SparseCore.ent (bigSep_mono (Φ := fun c : Dev nD => bigSep Finset.univ fun p : Fin 1 => Pipeline.toksInit (nD := nD) (τ := τ) cfgs (EPp (F := F)) p c)
        (Ψ := fun c : Dev nD => Pipeline.toksInit (nD := nD) (τ := τ) cfgs (EPp (F := F)) (0 : Fin 1) c) fun c _ => bigSep_elim (Finset.mem_univ (0 : Fin 1))))
      iexact Ht
  iapply (kits_deal m)
  isplitr
  · isplitl; · iexists κ; iexact Hinv'
    iexact Hr'
  isplitl [Hat']; · iexact Hat'
  isplitl [Htok']; · iexact Htok'
  iexact Hcred'

end Cert.KernelIdeal.KProof

end
-- ==== Proof.KMainOps.lean ====
/-
  @main on the TensorCore as the launch sees it: one host operation, the projection kernel's region, forty-five host
  operations (the floor-modulo's twenty-one listed at its call over the call's own buffers), the gather kernel's
  call, three host operations.
-/
import proofs.«204824_g46875273068696_cont_8to1_c_371_32_alg».proof.Proof.KData

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held tcRefs)

variable {F : FTy → Type}

local notation "𝕄" => MT nD τ sig (HIx 1) (Elt F) ℕ UU ℕ

variable [FloatOps F]

/-- The operation before the projection kernel: the bias as a one-row matrix. -/
abbrev ops1 : List (HloOp τ sig (Elt F)) :=
  [ StableHlo.reshape main_arg4 main_v0 rfl shapeCasts_S512_S1x512 ]

/-- The operations between the two kernels: the gather table and the index lists. -/
abbrev ops2 : List (HloOp τ sig (Elt F)) :=
  [ StableHlo.reshape main_v1 main_v2 rfl shapeCasts_S1000x512_S4000x128,
    StableHlo.nullary main_cst (constant S_ .f32 0x00000000#32),
    StableHlo.unary main_cst main_v3 (broadcastInDim S96x128 ![] bcast_S_S96x128 : (⟨S_, .f32⟩ : BufTy).Contents (Elt F) → (⟨S96x128, .f32⟩ : BufTy).Contents (Elt F)),
    StableHlo.reshape main_arg1 main_v4 rfl shapeCasts_S4096x512_S16384x128,
    StableHlo.nary ![main_v2, main_v3, main_v4] main_v5 (fun u => concatenate S20480x128 0 [⟨S4000x128, u 0⟩, ⟨S96x128, u 1⟩, ⟨S16384x128, u 2⟩] concatenates_S4000x128_S96x128_S16384x128_S20480x128_d0),
    StableHlo.reshape main_arg0 main_v6 rfl shapeCasts_S4096x20_S32x16x8x20,
    StableHlo.unary main_v6 main_v7 ((transpose S32x20x16x8 [0, 3, 1, 2] · transposes_S32x16x8x20_S32x20x16x8_0_3_1_2) : (⟨S32x16x8x20, .i32⟩ : BufTy).Contents (Elt F) → (⟨S32x20x16x8, .i32⟩ : BufTy).Contents (Elt F)),
    StableHlo.nullary main_v8 (iotaInDim S4 32 0),
    StableHlo.reshape main_v8 main_v9 rfl shapeCasts_S4_S1x1x1x4x1,
    StableHlo.nullary main_v10 (iotaInDim S32x20x16x1x8 32 0),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S32x20x16x1x8 ![] bcast_S_S32x20x16x1x8),
    StableHlo.TRef.binary (.of main_v10) main_call0.v3 main_call0.v4 Host.remsi,
    StableHlo.TRef.nullary main_call0.c_1 (constantI S_ 32 0#32),
    StableHlo.TRef.unary main_call0.c_1 main_call0.v5 (broadcastInDim S32x20x16x1x8 ![] bcast_S_S32x20x16x1x8),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S32x20x16x1x8 ![] bcast_S_S32x20x16x1x8),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S32x20x16x1x8 ![] bcast_S_S32x20x16x1x8),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S32x20x16x1x8 ![] bcast_S_S32x20x16x1x8),
    StableHlo.TRef.binary main_call0.v4 main_call0.v13 main_call0.v14 addi,
    StableHlo.TRef.ternary main_call0.v12 main_call0.v14 main_call0.v4 main_call0.v15 select,
    StableHlo.nullary main_c_0 (constantI S_ 32 128#32),
    StableHlo.unary main_c_0 main_v12 (broadcastInDim S32x20x16x1x8 ![] bcast_S_S32x20x16x1x8 : (⟨S_, .i32⟩ : BufTy).Contents (Elt F) → (⟨S32x20x16x1x8, .i32⟩ : BufTy).Contents (Elt F)),
    StableHlo.binary main_v11 main_v12 main_v13 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_v14 (iotaInDim S32x20x16x1x8 32 2),
    StableHlo.nullary main_c_1 (constantI S_ 32 8#32),
    StableHlo.unary main_c_1 main_v15 (broadcastInDim S32x20x16x1x8 ![] bcast_S_S32x20x16x1x8 : (⟨S_, .i32⟩ : BufTy).Contents (Elt F) → (⟨S32x20x16x1x8, .i32⟩ : BufTy).Contents (Elt F)),
    StableHlo.binary main_v14 main_v15 main_v16 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.binary main_v13 main_v16 main_v17 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_v18 (iotaInDim S32x20x16x1x8 32 4),
    StableHlo.binary main_v17 main_v18 main_v19 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v7 main_v20 (broadcastInDim S32x20x16x1x8 ![0, 1, 2, 4] bcast_S32x20x16x8_S32x20x16x1x8_0_1_2_4 : (⟨S32x20x16x8, .i32⟩ : BufTy).Contents (Elt F) → (⟨S32x20x16x1x8, .i32⟩ : BufTy).Contents (Elt F)),
    StableHlo.nullary main_c_2 (constantI S_ 32 4#32),
    StableHlo.unary main_c_2 main_v21 (broadcastInDim S32x20x16x1x8 ![] bcast_S_S32x20x16x1x8 : (⟨S_, .i32⟩ : BufTy).Contents (Elt F) → (⟨S32x20x16x1x8, .i32⟩ : BufTy).Contents (Elt F)),
    StableHlo.binary main_v20 main_v21 main_v22 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v22 main_v23 (broadcastInDim S32x20x16x4x8 ![0, 1, 2, 3, 4] bcast_S32x20x16x1x8_S32x20x16x4x8_0_1_2_3_4 : (⟨S32x20x16x1x8, .i32⟩ : BufTy).Contents (Elt F) → (⟨S32x20x16x4x8, .i32⟩ : BufTy).Contents (Elt F)),
    StableHlo.unary main_v9 main_v24 (broadcastInDim S32x20x16x4x8 ![0, 1, 2, 3, 4] bcast_S1x1x1x4x1_S32x20x16x4x8_0_1_2_3_4 : (⟨S1x1x1x4x1, .i32⟩ : BufTy).Contents (Elt F) → (⟨S32x20x16x4x8, .i32⟩ : BufTy).Contents (Elt F)),
    StableHlo.binary main_v23 main_v24 main_v25 (addi : (⟨S32x20x16x4x8, .i32⟩ : BufTy).Contents (Elt F) → (⟨S32x20x16x4x8, .i32⟩ : BufTy).Contents (Elt F) → (⟨S32x20x16x4x8, .i32⟩ : BufTy).Contents (Elt F)),
    StableHlo.nullary main_c_3 (constantI S_ 32 4#32),
    StableHlo.unary main_c_3 main_v26 (broadcastInDim S32x20x16x1x8 ![] bcast_S_S32x20x16x1x8 : (⟨S_, .i32⟩ : BufTy).Contents (Elt F) → (⟨S32x20x16x1x8, .i32⟩ : BufTy).Contents (Elt F)),
    StableHlo.binary main_v19 main_v26 main_v27 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_c_4 (constantI S_ 32 4096#32),
    StableHlo.unary main_c_4 main_v28 (broadcastInDim S32x20x16x1x8 ![] bcast_S_S32x20x16x1x8 : (⟨S_, .i32⟩ : BufTy).Contents (Elt F) → (⟨S32x20x16x1x8, .i32⟩ : BufTy).Contents (Elt F)),
    StableHlo.binary main_v28 main_v27 main_v29 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v29 main_v30 (broadcastInDim S32x20x16x4x8 ![0, 1, 2, 3, 4] bcast_S32x20x16x1x8_S32x20x16x4x8_0_1_2_3_4 : (⟨S32x20x16x1x8, .i32⟩ : BufTy).Contents (Elt F) → (⟨S32x20x16x4x8, .i32⟩ : BufTy).Contents (Elt F)),
    StableHlo.unary main_v9 main_v31 (broadcastInDim S32x20x16x4x8 ![0, 1, 2, 3, 4] bcast_S1x1x1x4x1_S32x20x16x4x8_0_1_2_3_4 : (⟨S1x1x1x4x1, .i32⟩ : BufTy).Contents (Elt F) → (⟨S32x20x16x4x8, .i32⟩ : BufTy).Contents (Elt F)),
    StableHlo.binary main_v30 main_v31 main_v32 (addi : (⟨S32x20x16x4x8, .i32⟩ : BufTy).Contents (Elt F) → (⟨S32x20x16x4x8, .i32⟩ : BufTy).Contents (Elt F) → (⟨S32x20x16x4x8, .i32⟩ : BufTy).Contents (Elt F)),
    StableHlo.binary main_v25 main_v32 main_v33 ((fun a b => concatenate S32x20x16x8x8 3 [⟨S32x20x16x4x8, a⟩, ⟨S32x20x16x4x8, b⟩] concatenates_S32x20x16x4x8_S32x20x16x4x8_S32x20x16x8x8_d3) : (⟨S32x20x16x4x8, .i32⟩ : BufTy).Contents (Elt F) → (⟨S32x20x16x4x8, .i32⟩ : BufTy).Contents (Elt F) → (⟨S32x20x16x8x8, .i32⟩ : BufTy).Contents (Elt F)),
    StableHlo.reshape main_v33 main_v34 rfl shapeCasts_S32x20x16x8x8_S32x160x128 ]

/-- The operations after the gather kernel: the gathered rows re-laid out. -/
abbrev ops3 : List (HloOp τ sig (Elt F)) :=
  [ StableHlo.reshape main_v35 main_v36 rfl shapeCasts_S655360x128_S20x512x8x8x128,
    StableHlo.unary main_v36 main_v37 ((transpose S512x8x20x8x128 [1, 3, 0, 2, 4] · transposes_S20x512x8x8x128_S512x8x20x8x128_1_3_0_2_4) : (⟨S20x512x8x8x128, .f32⟩ : BufTy).Contents (Elt F) → (⟨S512x8x20x8x128, .f32⟩ : BufTy).Contents (Elt F)),
    StableHlo.reshape main_v37 main_v38 rfl shapeCasts_S512x8x20x8x128_S4096x20x1024 ]

set_option maxRecDepth 8192 in
/-- @main is those three straight lines around the two kernels. -/
theorem main_eq (d : Dev nD) : main (F := F) d
    = (seq ops1 >>= fun _ => (Prog.lift (.customCall (SparseCore.inner (Pipeline.entry 0)) ()) >>= fun _ =>
        (seq ops2 >>= fun _ => (sc.run d 0 >>= fun _ => seq ops3)))) := by
  simp only [main, fn_remainder.body, fn_where.body, seq, bind_assoc, pure_bind, bind_pure]

/-- @main's arrays: the TensorCore's references that are not scoped, as device buffers. -/
def S₁ : Finset (DevRef τ sig) := (tcRefs τ sig).filter fun b => ¬ b.isScoped

omit [FloatOps F] in
theorem sub_S₁ {op : HloOp τ sig (Elt F)} (h : op.bufs ⊆ tcRefs τ sig) : op.bufs ⊆ S₁ :=
  fun b hb => Finset.mem_filter.mpr ⟨h hb, by rw [op.no_scoped b hb]; exact Bool.false_ne_true⟩

open Idealize.ShloMosaic.StableHlo in
theorem ops1_sub : ∀ op ∈ (ops1 : List (HloOp τ sig (Elt F))), op.bufs ⊆ S₁ := fun op h =>
  sub_S₁ (List.forall_iff_forall_mem.1 (show (ops1 : List (HloOp τ sig (Elt F))).Forall fun op => op.bufs ⊆ tcRefs τ sig from
    (reshape_bufs_sub ..)) op h)
open Idealize.ShloMosaic.StableHlo in
theorem ops2_sub : ∀ op ∈ (ops2 : List (HloOp τ sig (Elt F))), op.bufs ⊆ S₁ := fun op h =>
  sub_S₁ (List.forall_iff_forall_mem.1 (show (ops2 : List (HloOp τ sig (Elt F))).Forall fun op => op.bufs ⊆ tcRefs τ sig from
    ⟨reshape_bufs_sub .., nullary_bufs_sub .., unary_bufs_sub .., reshape_bufs_sub .., nary_bufs_sub .., reshape_bufs_sub .., unary_bufs_sub .., nullary_bufs_sub .., reshape_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., reshape_bufs_sub ..⟩) op h)
open Idealize.ShloMosaic.StableHlo in
theorem ops3_sub : ∀ op ∈ (ops3 : List (HloOp τ sig (Elt F))), op.bufs ⊆ S₁ := fun op h =>
  sub_S₁ (List.forall_iff_forall_mem.1 (show (ops3 : List (HloOp τ sig (Elt F))).Forall fun op => op.bufs ⊆ tcRefs τ sig from
    ⟨reshape_bufs_sub .., unary_bufs_sub .., reshape_bufs_sub ..⟩) op h)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

end Cert.KernelIdeal.KProof

end
-- ==== Proof.KMainVal.lean ====
/-
  What @main's arrays hold along the way, as functions of what they held before: after the first line the bias
  as a one-row matrix; after the second, from the projection kernel's result, the gather table and the index lists;
  after the third, from the gather kernel's result, the program's result; the five arguments never written.
  A kernel's result enters as a write of a given value into its result buffer.
-/
import proofs.«204824_g46875273068696_cont_8to1_c_371_32_alg».proof.Proof.KMainOps

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable [FloatOps F]

/-- A kernel's result `v` in its result buffer `y`, as a step of the valuation. -/
abbrev wrote (y : Ref sig .tc) (v : y.ty.Contents (Elt F))
    (hy : y.space ≠ .host ∧ (y : DevRef τ sig).isScoped = false := by exact ⟨by decide, rfl⟩) : HloOp τ sig (Elt F) :=
  nullary y v hy

attribute [local irreducible] shapeCast in
theorem v0_eq (V : Valuation τ sig (Elt F)) :
    after ops1 V (main_v0 : DevRef τ sig) = shapeCast S1x512 (V (main_arg4 : DevRef τ sig)) shapeCasts_S512_S1x512 := by
  after_results_simp
  rfl
theorem ops1_arg1 (V : Valuation τ sig (Elt F)) : after ops1 V (main_arg1 : DevRef τ sig) = V (main_arg1 : DevRef τ sig) := by after_results_simp
theorem ops1_arg0 (V : Valuation τ sig (Elt F)) : after ops1 V (main_arg0 : DevRef τ sig) = V (main_arg0 : DevRef τ sig) := by after_results_simp
theorem ops1_arg2 (V : Valuation τ sig (Elt F)) : after ops1 V (main_arg2 : DevRef τ sig) = V (main_arg2 : DevRef τ sig) := by after_results_simp
theorem ops1_arg3 (V : Valuation τ sig (Elt F)) : after ops1 V (main_arg3 : DevRef τ sig) = V (main_arg3 : DevRef τ sig) := by after_results_simp
theorem ops1_arg4 (V : Valuation τ sig (Elt F)) : after ops1 V (main_arg4 : DevRef τ sig) = V (main_arg4 : DevRef τ sig) := by after_results_simp

attribute [local irreducible] shapeCast concatenate transpose broadcastInDim iotaInDim Host.remsi in
set_option maxRecDepth 16384 in
set_option maxHeartbeats 1600000 in
/-- The gather table after the second line: the projection's rows, the zero rows, the image rows. -/
theorem tab_eq (V : Valuation τ sig (Elt F)) (P : (main_v1 : Ref sig .tc).ty.Contents (Elt F)) :
    after ops2 ((wrote main_v1 P).result V) (main_v5 : DevRef τ sig) = KFun.tabF (F := F) P (V (main_arg1 : DevRef τ sig)) := by
  after_results_simp
  rfl

attribute [local irreducible] shapeCast concatenate transpose broadcastInDim iotaInDim Host.remsi in
set_option maxRecDepth 16384 in
set_option maxHeartbeats 1600000 in
/-- The index lists after the second line. -/
theorem idx_eq (V : Valuation τ sig (Elt F)) (P : (main_v1 : Ref sig .tc).ty.Contents (Elt F)) :
    after ops2 ((wrote main_v1 P).result V) (main_v34 : DevRef τ sig) = KFun.idxF (V (main_arg0 : DevRef τ sig)) := by
  after_results_simp
  rfl

attribute [local irreducible] shapeCast transpose in
/-- The program's result after the third line, from the gather kernel's. -/
theorem v38_eq (V : Valuation τ sig (Elt F)) (O : (main_v35 : Ref sig .tc).ty.Contents (Elt F)) :
    after ops3 ((wrote main_v35 O).result V) (main_v38 : DevRef τ sig) = KFun.tailF (F := F) O := by
  after_results_simp
  rfl

set_option maxRecDepth 16384 in
set_option maxHeartbeats 1600000 in
/-- The gather kernel's result buffer is as launched until the kernel runs. -/
theorem pre_v35 (V : Valuation τ sig (Elt F)) (P : (main_v1 : Ref sig .tc).ty.Contents (Elt F)) :
    after ops2 ((wrote main_v1 P).result (after ops1 V)) (main_v35 : DevRef τ sig) = V (main_v35 : DevRef τ sig) := by
  after_results_simp

/-- What the whole of @main leaves, from the launch contents `V`, the kernels' results `P` and `O` given. -/
abbrev Vend (V : Valuation τ sig (Elt F)) (P : (main_v1 : Ref sig .tc).ty.Contents (Elt F)) (O : (main_v35 : Ref sig .tc).ty.Contents (Elt F)) :
    Valuation τ sig (Elt F) :=
  after ops3 ((wrote main_v35 O).result (after ops2 ((wrote main_v1 P).result (after ops1 V))))

set_option maxRecDepth 16384 in
set_option maxHeartbeats 1600000 in
theorem end_arg0 (V : Valuation τ sig (Elt F)) (P O) : Vend V P O (main_arg0 : DevRef τ sig) = V (main_arg0 : DevRef τ sig) := by
  unfold Vend; after_results_simp
set_option maxRecDepth 16384 in
set_option maxHeartbeats 1600000 in
theorem end_arg1 (V : Valuation τ sig (Elt F)) (P O) : Vend V P O (main_arg1 : DevRef τ sig) = V (main_arg1 : DevRef τ sig) := by
  unfold Vend; after_results_simp
set_option maxRecDepth 16384 in
set_option maxHeartbeats 1600000 in
theorem end_arg2 (V : Valuation τ sig (Elt F)) (P O) : Vend V P O (main_arg2 : DevRef τ sig) = V (main_arg2 : DevRef τ sig) := by
  unfold Vend; after_results_simp
set_option maxRecDepth 16384 in
set_option maxHeartbeats 1600000 in
theorem end_arg3 (V : Valuation τ sig (Elt F)) (P O) : Vend V P O (main_arg3 : DevRef τ sig) = V (main_arg3 : DevRef τ sig) := by
  unfold Vend; after_results_simp
set_option maxRecDepth 16384 in
set_option maxHeartbeats 1600000 in
theorem end_arg4 (V : Valuation τ sig (Elt F)) (P O) : Vend V P O (main_arg4 : DevRef τ sig) = V (main_arg4 : DevRef τ sig) := by
  unfold Vend; after_results_simp

end Cert.KernelIdeal.KProof

end
-- ==== Proof.KMainFin.lean ====
/-
  @main on the TensorCore, the final assertion read against the final state, and the program's run.
  @main: the first line; the projection kernel's region (its obligation a hypothesis here); the second line, which
  leaves the gather table and the index lists; the gather kernel's call, to which the table and the lists go as
  read shares, a half per SparseCore, and the output chunk by chunk; the third line, which leaves the result.
-/
import proofs.«204824_g46875273068696_cont_8to1_c_371_32_alg».proof.Proof.KLaunchElem
import proofs.«204824_g46875273068696_cont_8to1_c_371_32_alg».proof.Proof.KMainVal

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The valuations along @main -/

/-- The launch contents of device `d`'s buffers. -/
abbrev V₀ (d : Dev nD) : Valuation τ sig (Elt F) := launchContents m d
/-- After the first line. -/
abbrev V₁ (d : Dev nD) : Valuation τ sig (Elt F) := after ops1 (V₀ m d)
/-- The projection kernel's result. -/
abbrev P₁ (d : Dev nD) : (main_v1 : Ref sig .tc).ty.Contents (Elt F) :=
  Gen.k0_pay1 (V₁ m d (main_arg2 : DevRef τ sig)) (V₁ m d (main_arg3 : DevRef τ sig)) (V₁ m d (main_v0 : DevRef τ sig))
/-- After the second line. -/
abbrev V₂ (d : Dev nD) : Valuation τ sig (Elt F) := after ops2 ((wrote main_v1 (P₁ m d)).result (V₁ m d))

theorem P₁_eq (d : Dev nD) : P₁ m d = KFun.projF (F := F) (m ((SparseCore.T d).loc main_arg2)) (m ((SparseCore.T d).loc main_arg3)) (m ((SparseCore.T d).loc main_arg4)) := by
  unfold P₁ V₁
  rw [ops1_arg2, ops1_arg3, v0_eq]
  rfl

theorem tab_val (d : Dev nD) : V₂ m d (main_v5 : DevRef τ sig) = TABm m d := by
  unfold V₂
  rw [tab_eq, P₁_eq]
  unfold V₁
  rw [ops1_arg1]
  rfl
theorem idx_val (d : Dev nD) : V₂ m d (main_v34 : DevRef τ sig) = IDXm m d := by
  unfold V₂
  rw [idx_eq]
  unfold V₁
  rw [ops1_arg0]
  rfl
theorem out_val (d : Dev nD) : V₂ m d (main_v35 : DevRef τ sig) = m (outLoc d) := by
  unfold V₂ V₁
  rw [pre_v35]

/-- What @main leaves. -/
abbrev V₃ (d : Dev nD) : Valuation τ sig (Elt F) := after ops3 ((wrote main_v35 (OUTm m d)).result (V₂ m d))

theorem res_val (d : Dev nD) : V₃ m d (main_v38 : DevRef τ sig)
    = KFun.KG (F := F) (m ((SparseCore.T d).loc main_arg0)) (m ((SparseCore.T d).loc main_arg1)) (m ((SparseCore.T d).loc main_arg2)) (m ((SparseCore.T d).loc main_arg3)) (m ((SparseCore.T d).loc main_arg4)) := by
  unfold V₃
  rw [v38_eq]
  rfl
theorem arg0_val (d : Dev nD) : V₃ m d (main_arg0 : DevRef τ sig) = m ((SparseCore.T d).loc main_arg0) := (end_arg0 (V₀ m d) (P₁ m d) (OUTm m d)).trans rfl
theorem arg1_val (d : Dev nD) : V₃ m d (main_arg1 : DevRef τ sig) = m ((SparseCore.T d).loc main_arg1) := (end_arg1 (V₀ m d) (P₁ m d) (OUTm m d)).trans rfl
theorem arg2_val (d : Dev nD) : V₃ m d (main_arg2 : DevRef τ sig) = m ((SparseCore.T d).loc main_arg2) := (end_arg2 (V₀ m d) (P₁ m d) (OUTm m d)).trans rfl
theorem arg3_val (d : Dev nD) : V₃ m d (main_arg3 : DevRef τ sig) = m ((SparseCore.T d).loc main_arg3) := (end_arg3 (V₀ m d) (P₁ m d) (OUTm m d)).trans rfl
theorem arg4_val (d : Dev nD) : V₃ m d (main_arg4 : DevRef τ sig) = m ((SparseCore.T d).loc main_arg4) := (end_arg4 (V₀ m d) (P₁ m d) (OUTm m d)).trans rfl

/-! ## @main's arrays held whole, and a few of them taken out -/

omit [FloatOps F] in
/-- What the launch deals the TensorCore of @main's arrays is `held` over them at the launch contents. -/
theorem unscopedBufs_held (d : Dev nD) :
    (unscopedBufs d (fun b => m ((SparseCore.T d).loc b)) : sProp 𝕄) = held (SparseCore.T d) S₁ (launchContents m d) := by
  unfold unscopedBufs held S₁ tcRefs
  rw [Finset.filter_map, bigSep_map]
  rfl

omit [FloatOps F] in
theorem mem_S₁ (b : Ref sig .tc) (h : (b : DevRef τ sig).isScoped = false) : (b : DevRef τ sig) ∈ S₁ :=
  Finset.mem_filter.mpr ⟨devRef_mem_tcRefs b, by rw [h]; exact Bool.false_ne_true⟩

/-- The gather kernel's operands and result. -/
def L₃ : List (Ref sig .tc) := [main_v5, main_v34, main_v35]
def T₃ : Finset (DevRef τ sig) := (L₃.map (Proc.devRef (τ := τ) .tc)).toFinset
/-- The program's result and its arguments. -/
def L₆ : List (Ref sig .tc) := [main_v38, main_arg0, main_arg1, main_arg2, main_arg3, main_arg4]
def T₆ : Finset (DevRef τ sig) := (L₆.map (Proc.devRef (τ := τ) .tc)).toFinset

omit [FloatOps F] in
theorem sub_of_list (L : List (Ref sig .tc)) (h : ∀ r ∈ L, (r : DevRef τ sig).isScoped = false) :
    (L.map (Proc.devRef (τ := τ) .tc)).toFinset ⊆ S₁ := fun b hb => by
  obtain ⟨r, hr, rfl⟩ := List.mem_map.mp (List.mem_toFinset.mp hb)
  exact mem_S₁ r (h r hr)

omit [FloatOps F] in
theorem T₃_sub : T₃ ⊆ S₁ := sub_of_list L₃ (by decide)
omit [FloatOps F] in
theorem T₆_sub : T₆ ⊆ S₁ := sub_of_list L₆ (by decide)

omit [FloatOps F] in
theorem held_T₃ (d : Dev nD) (V : Valuation τ sig (Elt F)) :
    (held (SparseCore.T d) T₃ V : sProp 𝕄)
      = iprop((tabLoc d ↦{fullShare} V (main_v5 : DevRef τ sig)) ∗ (idxLoc d ↦{fullShare} V (main_v34 : DevRef τ sig))
          ∗ (outLoc d ↦{fullShare} V (main_v35 : DevRef τ sig))) := by
  unfold held T₃
  rw [bigSep_eq_bigSepL_of_eq (L₃.map (Proc.devRef (τ := τ) .tc)) rfl (List.Nodup.map (Proc.devRef_injective _) (by decide))]
  rfl

omit [FloatOps F] in
theorem held_T₆ (d : Dev nD) (V : Valuation τ sig (Elt F)) :
    (held (SparseCore.T d) T₆ V : sProp 𝕄)
      = iprop(((SparseCore.T d).loc main_v38 ↦{fullShare} V (main_v38 : DevRef τ sig))
          ∗ ((SparseCore.T d).loc main_arg0 ↦{fullShare} V (main_arg0 : DevRef τ sig)) ∗ ((SparseCore.T d).loc main_arg1 ↦{fullShare} V (main_arg1 : DevRef τ sig))
          ∗ ((SparseCore.T d).loc main_arg2 ↦{fullShare} V (main_arg2 : DevRef τ sig)) ∗ ((SparseCore.T d).loc main_arg3 ↦{fullShare} V (main_arg3 : DevRef τ sig))
          ∗ ((SparseCore.T d).loc main_arg4 ↦{fullShare} V (main_arg4 : DevRef τ sig))) := by
  unfold held T₆
  rw [bigSep_eq_bigSepL_of_eq (L₆.map (Proc.devRef (τ := τ) .tc)) rfl (List.Nodup.map (Proc.devRef_injective _) (by decide))]
  rfl

/-- The gather kernel's operands and result out of @main's arrays, at named contents. -/
theorem held_split3 (d : Dev nD) (V : Valuation τ sig (Elt F)) (A : Buf (Elt F) (tabLoc d)) (B : Buf (Elt F) (idxLoc d)) (C : Buf (Elt F) (outLoc d))
    (h5 : V (main_v5 : DevRef τ sig) = A) (h34 : V (main_v34 : DevRef τ sig) = B) (h35 : V (main_v35 : DevRef τ sig) = C) :
    (held (SparseCore.T d) S₁ V : sProp 𝕄)
      ⊢ iprop((tabLoc d ↦{fullShare} A) ∗ (idxLoc d ↦{fullShare} B) ∗ (outLoc d ↦{fullShare} C) ∗ held (SparseCore.T d) (S₁ \ T₃) V) := by
  rw [held_sub_split (SparseCore.T d) T₃_sub V, held_T₃, h5, h34, h35]
  iintro ⟨⟨H1, H2, H3⟩, H4⟩
  isplitl [H1]; · iexact H1
  isplitl [H2]; · iexact H2
  isplitl [H3]; · iexact H3
  iexact H4

/-- And back, the result at what the kernel left. -/
theorem held_join3 (d : Dev nD) (V : Valuation τ sig (Elt F)) (A : Buf (Elt F) (tabLoc d)) (B : Buf (Elt F) (idxLoc d)) (O : Buf (Elt F) (outLoc d))
    (h5 : V (main_v5 : DevRef τ sig) = A) (h34 : V (main_v34 : DevRef τ sig) = B) :
    iprop((tabLoc d ↦{fullShare} A) ∗ (idxLoc d ↦{fullShare} B) ∗ (outLoc d ↦{fullShare} O) ∗ held (SparseCore.T d) (S₁ \ T₃) V)
      ⊢ (held (SparseCore.T d) S₁ ((wrote main_v35 O).result V) : sProp 𝕄) := by
  rw [held_sub_split (SparseCore.T d) T₃_sub ((wrote main_v35 O).result V), held_T₃,
    nullary_result_ne (r := main_v5) _ _ _ _ (by decide), nullary_result_ne (r := main_v34) _ _ _ _ (by decide), nullary_result, h5, h34,
    held_congr (SparseCore.T d) (S := S₁ \ T₃) (V := (wrote main_v35 O).result V) (V' := V) (fun b hb => by
      refine (wrote main_v35 O).result_of_not_mem V fun hw => (Finset.mem_sdiff.mp hb).2 ?_
      rw [nullary_writes, Finset.mem_singleton] at hw
      subst hw
      exact List.mem_toFinset.mpr (List.mem_map.mpr ⟨main_v35, by decide, rfl⟩))]
  iintro ⟨H1, H2, H3, H4⟩
  isplitl [H1 H2 H3]
  · isplitl [H1]; · iexact H1
    isplitl [H2]; · iexact H2
    iexact H3
  iexact H4

/-! ## What @main ends holding, read against the final state -/

/-- What @main ends holding: the result at the program's function of the arguments, and the five arguments. -/
abbrev FIN (d : Dev nD) : sProp 𝕄 :=
  iprop(((SparseCore.T d).loc main_v38 ↦{fullShare} KFun.KG (F := F) (m ((SparseCore.T d).loc main_arg0)) (m ((SparseCore.T d).loc main_arg1)) (m ((SparseCore.T d).loc main_arg2)) (m ((SparseCore.T d).loc main_arg3)) (m ((SparseCore.T d).loc main_arg4)))
    ∗ ((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)))

/-- @main's arrays at what it leaves hold the final assertion. -/
theorem fin_of_held (d : Dev nD) : (held (SparseCore.T d) S₁ (V₃ m d) : sProp 𝕄) ⊢ FIN m d := by
  rw [held_sub_split (SparseCore.T d) T₆_sub (V₃ m d), held_T₆, res_val, arg0_val, arg1_val, arg2_val, arg3_val, arg4_val]
  exact sep_elim_left

def fq (d : Dev nD) (s' : Phys nD τ sig (Elt F)) : Prop :=
  s'.mem.mem ((SparseCore.T d).loc main_v38) = KFun.KG (F := F) (m ((SparseCore.T d).loc main_arg0)) (m ((SparseCore.T d).loc main_arg1)) (m ((SparseCore.T d).loc main_arg2)) (m ((SparseCore.T d).loc main_arg3)) (m ((SparseCore.T d).loc main_arg4))
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4)

theorem hfin (d : Dev nD) (s' : Phys nD τ sig (Elt F)) : iprop(FIN m d ∗ SI s') ⊢ (⌜fq m d s'⌝ : sProp 𝕄) := by
  iintro ⟨⟨H38, H0, H1, H2, H3, H4⟩, HSI⟩
  icombine HSI H38 gives %h38
  icombine HSI H0 gives %h0
  icombine HSI H1 gives %h1
  icombine HSI H2 gives %h2
  icombine HSI H3 gives %h3
  icombine HSI H4 gives %h4
  ipureintro
  exact ⟨funext fun i => h38 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

end Cert.KernelIdeal.KProof

end
-- ==== Proof.KMain.lean ====
/-
  @main on the TensorCore and the program's run. @main: the first line; the projection kernel's region (its
  obligation a hypothesis here); the second line, which leaves the gather table and the index lists; the gather
  kernel's call, to which the table and the lists go as read shares, a half per SparseCore, and the output chunk by
  chunk; the third line, which leaves the result.
-/
import proofs.«204824_g46875273068696_cont_8to1_c_371_32_alg».proof.Proof.KMainFin

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the TensorCore owes before the one call, its recorded pairs bounded: the part of its handshake state a
    kernel region consults and hands back. -/
abbrev owesPart (d : Dev nD) : sProp 𝕄 :=
  iprop(∃ W, ⌜(K (F := F)).WBelow (SparseCore.T d) W (8 * 0)⌝ ∗ owes (SparseCore.T d) ((K (F := F)).Otc d 0) W)

/-- The projection kernel's region, as @main meets it: from the level facts, what the TensorCore owes, the region
    boundary, the pipeline's staging cells' ghost state and @main's arrays at any contents `V`, the call runs to
    the same with the kernel's result buffer at the projection of the three operands' contents. -/
def RegionObl : Prop := ∀ (d : Dev nD) (V : Valuation τ sig (Elt F)) (Φ : PUnit → sProp 𝕄),
  iprop(levAts (K (F := F)).L (K (F := F)).lev ∗ owesPart (F := F) d ∗ boundary (SparseCore.T d) ∗ G (F := F) d
      ∗ held (SparseCore.T d) S₁ V
      ∗ (iprop(owesPart (F := F) d ∗ boundary (SparseCore.T d)
          ∗ held (SparseCore.T d) S₁ ((wrote main_v1 (Gen.k0_pay1 (V (main_arg2 : DevRef τ sig)) (V (main_arg3 : DevRef τ sig)) (V (main_v0 : DevRef τ sig)))).result V))
          -∗ Φ ⟨⟩))
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ

/-- How the output splits among the workers (the array-splitting lemmas' statement, taken as a hypothesis here). -/
def OutChunks : Prop := ∀ (d : Dev nD) (f : Buf (Elt F) (outLoc d)),
  (outLoc d ↦{fullShare} f : sProp 𝕄) = bigSep Finset.univ fun c : Fin τ.nSC => bigSep Finset.univ fun i : Fin τ.nSub => outChunks d (wid c i) f

/-- What the call's start hands the SparseCores, regrouped by array. -/
theorem st_eq (d : Dev nD) : (bigSep Finset.univ fun c : Fin ((K (F := F)).nCore 0) => (Pm m).st 0 d c)
    = iprop((bigSep Finset.univ fun j : Fin 2 => tabLoc d ↦{Transfers.shareTok fullShare 2 j} TABm m d)
        ∗ (bigSep Finset.univ fun j : Fin 2 => idxLoc d ↦{Transfers.shareTok fullShare 2 j} IDXm m d)
        ∗ bigSep Finset.univ fun c : Fin τ.nSC => bigSep Finset.univ fun i : Fin τ.nSub => outChunks d (wid c i) (m (outLoc d))) := by
  show (bigSep Finset.univ fun c : Fin 2 => iprop((tabLoc d ↦{Transfers.shareTok fullShare 2 c} TABm m d)
      ∗ (idxLoc d ↦{Transfers.shareTok fullShare 2 c} IDXm m d) ∗ bigSep Finset.univ fun i : Fin τ.nSub => outChunks d (wid c i) (m (outLoc d)))) = _
  rw [bigSep_sep', bigSep_sep']
/-- What its end brings back. -/
theorem dn_eq (d : Dev nD) : (bigSep Finset.univ fun c : Fin ((K (F := F)).nCore 0) => (Pm m).dn 0 d c)
    = iprop((bigSep Finset.univ fun j : Fin 2 => tabLoc d ↦{Transfers.shareTok fullShare 2 j} TABm m d)
        ∗ (bigSep Finset.univ fun j : Fin 2 => idxLoc d ↦{Transfers.shareTok fullShare 2 j} IDXm m d)
        ∗ bigSep Finset.univ fun c : Fin τ.nSC => bigSep Finset.univ fun i : Fin τ.nSub => outChunks d (wid c i) (OUTm m d)) := by
  show (bigSep Finset.univ fun c : Fin 2 => iprop((tabLoc d ↦{Transfers.shareTok fullShare 2 c} TABm m d)
      ∗ (idxLoc d ↦{Transfers.shareTok fullShare 2 c} IDXm m d) ∗ bigSep Finset.univ fun i : Fin τ.nSub => outChunks d (wid c i) (OUTm m d))) = _
  rw [bigSep_sep', bigSep_sep']

-- a rule stated for any thread applied at the TensorCore's: unification may unfold plain definitions in a metavariable's type
set_option backward.isDefEq.respectTransparency.types false in
set_option maxHeartbeats 1600000 in
/-- @main on device `d`'s TensorCore. -/
theorem hmain (hreg : RegionObl (F := F)) (hout : OutChunks (F := F)) (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  generalize hpost : (fun _ : PUnit => iprop((K (F := F)).tcSt EH d 1 ∗ FIN m d)) = Qp
  unfold SparseCore.Cfg.tcRes
  rw [unscopedBufs_held, main_eq]
  unfold SparseCore.Cfg.tcSt
  iintro ⟨#Hctx, ⟨HO, Hrest⟩, ⟨Hb, Hbufs, -, -⟩, HG⟩
  -- the first line
  iapply (wp_seq 𝒱 none Set.univ d S₁ _ ops1 ops1_sub ops1_fresh (launchContents m d)) $$ [Hb Hbufs]
  · isplitl [Hb] <;> iassumption
  iintro ⟨Hb, Hbufs⟩
  -- the projection kernel
  beta_reduce
  rw [wp_bind]
  iapply (hreg d (V₁ m d) _)
  isplitr; · iapply (SparseCore.Cfg.ctx_levAts κ); iexact Hctx
  isplitl [HO]; · iexact HO
  isplitl [Hb]; · iexact Hb
  isplitl [HG]; · iexact HG
  isplitl [Hbufs]; · iexact Hbufs
  iintro ⟨HO, Hb, Hbufs⟩
  -- the second line
  beta_reduce
  iapply (wp_seq 𝒱 none Set.univ d S₁ _ ops2 ops2_sub ops2_fresh _) $$ [Hb Hbufs]
  · isplitl [Hb] <;> iassumption
  iintro ⟨Hb, Hbufs⟩
  beta_reduce
  rw [wp_bind]
  -- the gather kernel's operands out of @main's arrays, as read shares and chunks
  ihave Hs := (held_split3 d (V₂ m d) (TABm m d) (IDXm m d) (m (outLoc d)) (tab_val m d) (idx_val m d) (out_val m d)) $$ Hbufs
  icases Hs with ⟨Htab, Hidx, Hout, Hframe⟩
  ihave Ht := (Transfers.pointsTo_toks_split fullShare 2) $$ Htab
  icases Ht with ⟨Htab0, Htabs⟩
  ihave Hi := (Transfers.pointsTo_toks_split fullShare 2) $$ Hidx
  icases Hi with ⟨Hidx0, Hidxs⟩
  ihave Hout' := (Entails.of_eq (hout d (m (outLoc d)))) $$ Hout
  iapply ((K (F := F)).wp_run (D (F := F)) 𝒱 (EH := EH) (P := Pm m) κ d 0)
  isplitr; · iexact Hctx
  isplitl [HO Hrest]
  · unfold SparseCore.Cfg.tcSt
    isplitl [HO]; · iexact HO
    iexact Hrest
  isplitl [Htabs Hidxs Hout']
  · rw [st_eq]
    isplitl [Htabs]; · iexact Htabs
    isplitl [Hidxs]; · iexact Hidxs
    iexact Hout'
  iintro ⟨Hst, Hdn⟩
  ihave Hdn' := (Entails.of_eq (dn_eq m d)) $$ Hdn
  icases Hdn' with ⟨Htabs, Hidxs, Houts⟩
  ihave Htab := (Transfers.pointsTo_toks_join fullShare 2) $$ [Htab0 Htabs]
  · isplitl [Htab0] <;> iassumption
  ihave Hidx := (Transfers.pointsTo_toks_join fullShare 2) $$ [Hidx0 Hidxs]
  · isplitl [Hidx0] <;> iassumption
  ihave Hout := (Entails.of_eq (hout d (OUTm m d)).symm) $$ Houts
  ihave Hbufs := (held_join3 d (V₂ m d) (TABm m d) (IDXm m d) (OUTm m d) (tab_val m d) (idx_val m d)) $$ [Htab Hidx Hout Hframe]
  · isplitl [Htab]; · iexact Htab
    isplitl [Hidx]; · iexact Hidx
    isplitl [Hout]; · iexact Hout
    iexact Hframe
  -- the third line
  rw [show (seq ops3 : Prog (TpuEff nD τ sig (Elt F) (SparseCore.Sig (ΛP (F := F)) 1) .tc) PUnit) = (seq ops3 >>= fun u => Pure.pure u) from (bind_pure _).symm]
  iapply (wp_seq 𝒱 none Set.univ d S₁ _ ops3 ops3_sub ops3_fresh _) $$ [Hb Hbufs]
  · isplitl [Hb] <;> iassumption
  iintro ⟨-, Hbufs⟩
  rw [wp_pure]; imodintro
  subst hpost
  beta_reduce
  ihave Hst' := (Entails.of_eq (show (K (F := F)).tcSt EH d ((0 : Fin 1).val + 1) = (K (F := F)).tcSt EH d 1 from rfl)) $$ Hst
  isplitl [Hst']; · iexact Hst'
  iapply (fin_of_held m d); iexact Hbufs

/-! ## The program's run -/

theorem run_main_of [∀ e, Nonempty (Elt F e)] (hreg : RegionObl (F := F)) (hout : OutChunks (F := F))
    (htile : (K (F := F)).TileObl (D (F := F)) 𝒱 (Pm m) v₀ 0) (hsplit : (K (F := F)).VecSplit (Pm m) 0) :
    θ_run (Cert.KernelIdeal.defs (F := F)) (Cert.KernelIdeal.threads (F := F)) ⟨m, fun _ => 0, ρ⟩ (fun r => ∀ c : Dev nD,
        r.2.mem ((c.tc : Thread nD τ).loc main_v38) = KFun.KG (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  SparseCore.Cfg.θ_run_sc (K := K (F := F)) (D := D (F := F)) (𝒱 := 𝒱) (EH := EH) (P := Pm m) facts v₀
    (fun q hq => match q with | 0 => nomatch hq)
    (fun q _ => match q with | 0 => htile)
    (fun q _ => match q with | 0 => hsplit)
    m ρ main (G (F := F)) (FIN m) (u₀ (F := F)) (hu₀ m) (hmain m ρ hreg hout) (fq m) (hfin m) _ (fun _ h => h)

end Cert.KernelIdeal.KProof

end
-- ==== Proof.KRegionBody.lean ====
/-
  The projection kernel's body and the pipeline's proof data: the three input windows hold their arrays whole, the
  body loads them and stores the projection into the output window's buffer, whole; the TensorCore owes its start
  signals throughout and records only waits at the transfers' own index.
-/
import proofs.«204824_g46875273068696_cont_8to1_c_371_32_alg».proof.Proof.KMain
import proofs.«204824_g46875273068696_cont_8to1_c_371_32_alg».proof.Proof.Gen.KernelIdeal.Points
import Idealize.ShloMosaic.Lib.Pipeline.FrameBody
import Idealize.ShloMosaic.Lib.Pipeline.Regions

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-- The valuation's contents at a TensorCore reference, as a core's buffer contents. -/
abbrev Vb (c : Dev nD) (b : Ref sig .tc) : Buf (Elt F) ((c : Thread nD τ).loc b) := V (b : DevRef τ sig)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (Vb V c (Pipeline.arrRef spec0 w))

abbrev rA : Rect S1000x512 := Rect.unit (s := S1000x512) ![0, 0] S1000x512.size inb_S1000x512_S1000x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the input windows' blocks: its one store, whole. -/
def out3 (x0 : Vec F S1000x512 .f32) (x1 : Vec F S512x512 .f32) (x2 : Vec F S1x512 .f32) : Vec F S1000x512 .f32 :=
  View.canon [⟨rA, k0_pay1 (View.ld x0 rA) (View.ld x1 rW) (View.ld x2 rB)⟩]

omit [FloatOps F] in
/-- The one store covers the buffer. -/
theorem cover3 (p0 : Vec F S1000x512 .f32) (y : S1000x512.Idx) :
    ∃ pc ∈ ([⟨rA, p0⟩] : List (View.Piece (Elt F) S1000x512 .f32)), y ∈ pc.1.set :=
  View.cover_of_tiled [⟨rA, p0⟩] S1000x512.size (by rfl) y

set_option maxHeartbeats 2000000 in
/-- The kernel body on whole staging memrefs: the inputs' kept, the output's at `out3` of the inputs'. -/
theorem sound_kernel (c : Dev nD) (E : Set ℕ) (arg0 : Memref sig .tc .vmem S1000x512 .f32) (harg0 : arg0.IsWhole)
    (arg1 : Memref sig .tc .vmem S512x512 .f32) (harg1 : arg1.IsWhole) (arg2 : Memref sig .tc .vmem S1x512 .f32) (harg2 : arg2.IsWhole)
    (arg3 : Memref sig .tc .vmem S1000x512 .f32) (harg3 : arg3.IsWhole)
    (x0 : Vec F S1000x512 .f32) (x1 : Vec F S512x512 .f32) (x2 : Vec F S1x512 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ Kk ⟨⟩))
      ⊢ wp frame (wpE (defs₀ (F := F)) Variants.none c none) E (cc0__proj_body arg0 harg0 arg1 harg1 arg2 harg2 arg3 harg3) Kk := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the projection pipeline on core `c`: the arrays at the valuation's contents; after the body each
    input's buffer at its block and the output's at `out3` of the input blocks; no invariant of its own; full shares;
    the core owing its start signals throughout; its recorded waits at the transfers' own index. -/
def dats (_ : Fin 1) (c : Dev nD) : Dat τ (Elt F) (HIx 1) ℕ UU ℕ cfg0 c where
  A w := Vb V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := iprop(emp)
  q _ := fullShare
  owed _ := (K (F := F)).Otc c 0
  recorded _ := {p | p.2 = none}

theorem A_eq (c : Dev nD) (w : Fin cfg0.W) : (dats V 0 c).A w = Vb V c (Pipeline.arrRef spec0 w) := by
  dsimp only [dats]
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = out3 (iblk V c 0 t) (iblk V c 1 t) (iblk V c 2 t) := by dsimp only [dats]

/-- Each input's current staging buffer holds its block at every point. -/
theorem before0_0 (c : Dev nD) (t : Fin cfg0.N) (d) : (dats V 0 c).before 0 t d = iblk V c 0 t :=
  ((dats V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V 0 c).before 1 t d = iblk V c 1 t :=
  ((dats V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V 0 c).before 2 t d = iblk V c 2 t :=
  ((dats V 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d)))

/-- and what it returns. -/
def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dats V 0 c).Φ t.succ = (dats V 0 c).Φ t.castSucc from rfl,
    show (dats V 0 c).owesAt none t.succ = (dats V 0 c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) V 0 c) (defs₀ (F := F)) Variants.none none Set.univ := fun t => by
  rw [bigSep_W0, bigSep_W0]
  exact sound_body V c t

end Cert.KernelIdeal.KProof

end
-- ==== Proof.KRegion.lean ====
/-
  The projection kernel's region, as @main meets it. The pipeline's one point fetches the three operands whole,
  runs the body, writes the result back whole; the TensorCore owes its start signals meanwhile, so every wait of the
  region is at the transfers' own index, below them. After it the result buffer holds the projection of the
  operands' contents and everything else is as it was.
-/
import proofs.«204824_g46875273068696_cont_8to1_c_371_32_alg».proof.Proof.KRegionBody
import Idealize.ShloMosaic.Lib.Pipeline.Value

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-! ## The blocks are the arrays, whole -/

omit [FloatOps F] in
theorem hz2 : (![0, 0] : Fin 2 → Nat) = fun _ => 0 := funext fun a => by fin_cases a <;> rfl

/-- The one point's block indices are zero. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem emb0 (t : Fin cfg0.N) (j : S1000x512.Idx) : ((cfg0.win 0).blk t).view.emb j = j := by
  obtain ⟨e0, e1, -⟩ := idx_zero t
  funext a; apply Fin.ext
  match a with
  | ⟨0, _⟩ => show win0_0.index t (0 : Fin 2) * 1000 + 1 * (j 0).val = (j 0).val; omega
  | ⟨1, _⟩ => show win0_0.index t (1 : Fin 2) * 512 + 1 * (j 1).val = (j 1).val; omega
theorem emb1 (t : Fin cfg0.N) (j : S512x512.Idx) : ((cfg0.win 1).blk t).view.emb j = j := by
  obtain ⟨-, -, e0, e1, -⟩ := idx_zero t
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega
theorem emb2 (t : Fin cfg0.N) (j : S1x512.Idx) : ((cfg0.win 2).blk t).view.emb j = j := by
  obtain ⟨-, -, -, -, e0, e1, -⟩ := idx_zero t
  funext a; apply Fin.ext
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem emb3 (t : Fin cfg0.N) (j : S1000x512.Idx) : ((cfg0.win 3).blk t).view.emb j = j := by
  obtain ⟨-, -, -, -, -, -, e0, e1⟩ := idx_zero t
  funext a; apply Fin.ext
  match a with
  | ⟨0, _⟩ => show win0_3.index t (0 : Fin 2) * 1000 + 1 * (j 0).val = (j 0).val; omega
  | ⟨1, _⟩ => show win0_3.index t (1 : Fin 2) * 512 + 1 * (j 1).val = (j 1).val; omega

theorem iblk0_eq (c : Dev nD) (t : Fin cfg0.N) : iblk V c 0 t = Vb V c main_arg2 := by
  funext j; unfold iblk; rw [View.read_apply, emb0]; rfl
theorem iblk1_eq (c : Dev nD) (t : Fin cfg0.N) : iblk V c 1 t = Vb V c main_arg3 := by
  funext j; unfold iblk; rw [View.read_apply, emb1]; rfl
theorem iblk2_eq (c : Dev nD) (t : Fin cfg0.N) : iblk V c 2 t = Vb V c main_v0 := by
  funext j; unfold iblk; rw [View.read_apply, emb2]; rfl

/-- The projection of the operands' contents. -/
abbrev Gout (c : Dev nD) : Buf (Elt F) ((c : Thread nD τ).loc main_v1) :=
  Gen.k0_pay1 (Vb V c main_arg2) (Vb V c main_arg3) (Vb V c main_v0)

variable [∀ e, Nonempty (Elt F e)]

/-- What the point writes back is the projection, whole. -/
theorem flushed3_eq (c : Dev nD) (t : Fin cfg0.N) :
    (dats V 0 c).flushed 3 t = ((cfg0.win 3).blk t).view.read (Elt F) (Gout V c) := by
  show (cfg0.win 3).cut (grid0.coords t) ((dats V 0 c).after 3 t) = _
  rw [after0_3, iblk0_eq, iblk1_eq, iblk2_eq]
  unfold out3
  rw [View.canon_unit_zero hz2]
  simp only [View.ld_unit_zero (S := S1000x512) hz2, View.ld_unit_zero (S := S512x512) hz2, View.ld_unit_zero (S := S1x512) hz2]
  funext j
  rw [View.read_apply, emb3]
  rfl

omit [FloatOps F] [∀ e, Nonempty (Elt F e)] in
theorem mem_blk3 (t : Fin cfg0.N) (i : S1000x512.Idx) : i ∈ ((cfg0.win 3).blk t).view.set := by
  obtain ⟨-, -, -, -, -, -, e0, e1⟩ := idx_zero t
  show i ∈ ((View.whole main_v1).slice (win0_3.rect t)).set
  rw [View.set_slice_whole, Rect.mem_set_unit]
  intro a
  match a with
  | ⟨0, _⟩ => show win0_3.index t (0 : Fin 2) * 1000 ≤ (i 0).val ∧ (i 0).val < win0_3.index t (0 : Fin 2) * 1000 + 1000; have := (i 0).isLt; have h : S1000x512.size 0 = 1000 := rfl; omega
  | ⟨1, _⟩ => show win0_3.index t (1 : Fin 2) * 512 ≤ (i 1).val ∧ (i 1).val < win0_3.index t (1 : Fin 2) * 512 + 512; have := (i 1).isLt; have h : S1000x512.size 1 = 512 := rfl; omega

/-- The result array after the region: the projection. -/
theorem final3 (c : Dev nD) : (dats V 0 c).arrAt 3 cfg0.N = Gout V c :=
  (dats V 0 c).arrAt_eq_of_cover 3 _ (fun t _ => flushed3_eq V c t) (fun i => ⟨t0_0, flush0_3 t0_0, mem_blk3 t0_0 i⟩)

/-! ## The region's record -/

/-- The one admissible contents of the pipeline's (absent) prefetched tables. -/
abbrev adm : (p : Fin 1) → (pcfgs (F := F) p).Adm := fun p => (cfgs p).toPCfg_adm

omit [∀ e, Nonempty (Elt F e)] in
/-- At the transfers' own index the TensorCore owes nothing. -/
theorem Otc_none (d : Dev nD) (g : GSem nD τ sig) : (K (F := F)).Otc d 0 g none = 0 :=
  Nat.eq_zero_of_not_pos fun h => by
    have := SparseCore.Cfg.lev_of_Otc_pos (K := K (F := F)) h
    rw [SparseCore.Cfg.lev_none] at this
    omega

/-- What the region is entered with, besides the boundary and the cells' ghost state: what the core owes, and the
    pipeline's four arrays. -/
abbrev regPre (c : Dev nD) : sProp 𝕄 :=
  iprop(owesPart (F := F) c ∗ (dats V 0 c).arrays (dats V 0 c).A)
/-- What it leaves. -/
abbrev regPost (c : Dev nD) : sProp 𝕄 :=
  iprop(owesPart (F := F) c ∗ (dats V 0 c).arrays ((dats V 0 c).arrAt · cfg0.N))

omit [∀ e, Nonempty (Elt F e)] in
theorem owes_in (c : Dev nD) : (owesPart (F := F) c : sProp 𝕄) ⊢ (dats V 0 c).owesAt none 0 := by
  iintro ⟨%W, %hW, HO⟩
  iexists W
  isplitr
  · ipureintro
    intro p hp
    refine Or.inl ?_
    show p.2 = none
    have h := hW p hp
    rcases hp2 : p.2 with _ | q
    · rfl
    · rw [hp2] at h
      exact absurd h (by have := (K (F := F)).lev_some_pos (SparseCore.T c, p.1) q; omega)
  · iexact HO

omit [∀ e, Nonempty (Elt F e)] in
theorem owes_out (c : Dev nD) : ((dats V 0 c).owesAt none (Fin.last cfg0.N) : sProp 𝕄) ⊢ owesPart (F := F) c := by
  iintro ⟨%W, %hW, HO⟩
  iexists W
  isplitr
  · ipureintro
    intro p hp
    have h : p.2 = none := by
      rcases hW hp with h | ⟨w, s, h⟩
      · exact h
      · rw [h]
    rw [h, SparseCore.Cfg.lev_none]
  · iexact HO

/-- The region, as the library's record of it: the decided layout, no semaphore of the kernel's own, the body
    obligation, the waits' evidence, and the entry and exit around the two thread states. -/
def seg : Pipeline.RegionSeg (pcfgs (F := F)) adm (fun p c => dats V p c) (none : HIx 1) (defs₀ (F := F)) Variants.none
    (K (F := F)).L (K (F := F)).lev (0 : Fin 1) where
  win := winFacts0.to₀
  block_pos := block_pos0
  stage_whole := stage_whole0
  K := Fin 0
  osem := fun k => k.elim0
  ho := ⟨fun k => k.elim0, fun k => k.elim0, fun k => k.elim0⟩
  hbody := fun c => (body_obligation V c).loose
  hwaits := fun c => Pipeline.cellsWaits_intro cfgs (fun p c => dats V p c) (none : HIx 1) (0 : Fin 1) c
    fun w s t => (K (F := F)).mayWait_none (thr := (c : Thread nD τ)) (.dma ((cfg0.win w).sem s)) (Otc_none c)
  pre := regPre V
  post := regPost V
  X := fun _ => iprop(emp)
  Y := fun _ => iprop(emp)
  Z := fun _ => iprop(emp)
  hentry := fun c => by
    iintro ⟨⟨HO, Ha⟩, -, -⟩
    imodintro
    isplitl [Ha]; · iexact Ha
    isplitr
    · unfold Pipeline.prefHeld
      rw [show (Finset.univ : Finset (Fin 0)) = ∅ from rfl, bigSep_empty]; iempintro
    isplitl [HO]; · iapply (owes_in V c); iexact HO
    isplitr <;> iempintro
  hin := fun c => fun _ _ => trivial
  hout := fun c => by
    rw [scopedRest0_eq]
    unfold Pipeline.ownSems0
    rw [show (Finset.univ : Finset (Fin 0)) = ∅ from rfl, bigSep_empty]
    iintro -
    isplitr; · iempintro
    isplitr <;> iempintro
  hexit := fun c => by
    iintro ⟨Ha, HO, -, -⟩
    imodintro
    isplitl [HO]; · iapply (owes_out V c); iexact HO
    iexact Ha

/-! ## The region in @main -/

/-- The pipeline's four arrays. -/
def L₄ : List (Ref sig .tc) := [main_arg2, main_arg3, main_v0, main_v1]
def T₄ : Finset (DevRef τ sig) := (L₄.map (Proc.devRef (τ := τ) .tc)).toFinset

omit [FloatOps F] [∀ e, Nonempty (Elt F e)] in
theorem T₄_sub : T₄ ⊆ S₁ := sub_of_list L₄ (by decide)

omit [FloatOps F] [∀ e, Nonempty (Elt F e)] in
theorem held_T₄ (d : Dev nD) (V : Valuation τ sig (Elt F)) :
    (held (SparseCore.T d) T₄ V : sProp 𝕄)
      = iprop(((SparseCore.T d).loc main_arg2 ↦{fullShare} V (main_arg2 : DevRef τ sig)) ∗ ((SparseCore.T d).loc main_arg3 ↦{fullShare} V (main_arg3 : DevRef τ sig))
          ∗ ((SparseCore.T d).loc main_v0 ↦{fullShare} V (main_v0 : DevRef τ sig)) ∗ ((SparseCore.T d).loc main_v1 ↦{fullShare} V (main_v1 : DevRef τ sig))) := by
  unfold held T₄
  rw [bigSep_eq_bigSepL_of_eq (L₄.map (Proc.devRef (τ := τ) .tc)) rfl (List.Nodup.map (Proc.devRef_injective _) (by decide))]
  rfl

omit [∀ e, Nonempty (Elt F e)] in
/-- The four arrays back among @main's, the result at what the kernel left. -/
theorem held_join4 (d : Dev nD) (V : Valuation τ sig (Elt F)) (P : (main_v1 : Ref sig .tc).ty.Contents (Elt F)) :
    iprop(((SparseCore.T d).loc main_arg2 ↦{fullShare} V (main_arg2 : DevRef τ sig)) ∗ ((SparseCore.T d).loc main_arg3 ↦{fullShare} V (main_arg3 : DevRef τ sig))
        ∗ ((SparseCore.T d).loc main_v0 ↦{fullShare} V (main_v0 : DevRef τ sig)) ∗ ((SparseCore.T d).loc main_v1 ↦{fullShare} P)
        ∗ held (SparseCore.T d) (S₁ \ T₄) V)
      ⊢ (held (SparseCore.T d) S₁ ((wrote main_v1 P).result V) : sProp 𝕄) := by
  rw [held_sub_split (SparseCore.T d) T₄_sub ((wrote main_v1 P).result V), held_T₄,
    nullary_result_ne (r := main_arg2) _ _ _ _ (by decide), nullary_result_ne (r := main_arg3) _ _ _ _ (by decide),
    nullary_result_ne (r := main_v0) _ _ _ _ (by decide), nullary_result,
    held_congr (SparseCore.T d) (S := S₁ \ T₄) (V := (wrote main_v1 P).result V) (V' := V) (fun b hb => by
      refine (wrote main_v1 P).result_of_not_mem V fun hw => (Finset.mem_sdiff.mp hb).2 ?_
      rw [nullary_writes, Finset.mem_singleton] at hw
      subst hw
      exact List.mem_toFinset.mpr (List.mem_map.mpr ⟨main_v1, by decide, rfl⟩))]
  iintro ⟨H1, H2, H3, H4, H5⟩
  isplitl [H1 H2 H3 H4]
  · isplitl [H1]; · iexact H1
    isplitl [H2]; · iexact H2
    isplitl [H3]; · iexact H3
    iexact H4
  iexact H5

end Cert.KernelIdeal.KProof

end
-- ==== Proof.KRegionWp.lean ====
/-
  The projection kernel's region in @main: the four arrays taken out of @main's, the region entered through the
  library's record of it, the arrays put back with the result at the projection.
-/
import proofs.«204824_g46875273068696_cont_8to1_c_371_32_alg».proof.Proof.KRegion

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-- The pipeline's arrays, one by one. -/
theorem arrays_eq (c : Dev nD) (Fw : (w : Fin cfg0.W) → Buf (Elt F) ((cfg0.win w).arr.view.loc (c : Thread nD τ))) :
    ((dats V 0 c).arrays Fw : sProp 𝕄)
      = iprop(((SparseCore.T c).loc main_arg2 ↦{fullShare} Fw 0) ∗ ((SparseCore.T c).loc main_arg3 ↦{fullShare} Fw 1)
          ∗ ((SparseCore.T c).loc main_v0 ↦{fullShare} Fw 2) ∗ ((SparseCore.T c).loc main_v1 ↦{fullShare} Fw 3)) := by
  rw [Pipeline.arrays_eq cfgs (fun p c => dats V p c) (0 : Fin 1) c arr_whole0 (fun w => Dat.share_full _ (fun _ => rfl) w), bigSep_W0]

/-- At entry they hold the valuation's contents; -/
theorem arraysA_eq (c : Dev nD) :
    ((dats V 0 c).arrays (dats V 0 c).A : sProp 𝕄)
      = iprop(((SparseCore.T c).loc main_arg2 ↦{fullShare} V (main_arg2 : DevRef τ sig)) ∗ ((SparseCore.T c).loc main_arg3 ↦{fullShare} V (main_arg3 : DevRef τ sig))
          ∗ ((SparseCore.T c).loc main_v0 ↦{fullShare} V (main_v0 : DevRef τ sig)) ∗ ((SparseCore.T c).loc main_v1 ↦{fullShare} V (main_v1 : DevRef τ sig))) := by
  rw [arrays_eq, A_eq, A_eq, A_eq, A_eq]

variable [∀ e, Nonempty (Elt F e)]

/-- after the region the operands' are unchanged and the result's is the projection. -/
theorem arraysN_eq (c : Dev nD) :
    ((dats V 0 c).arrays ((dats V 0 c).arrAt · cfg0.N) : sProp 𝕄)
      = iprop(((SparseCore.T c).loc main_arg2 ↦{fullShare} V (main_arg2 : DevRef τ sig)) ∗ ((SparseCore.T c).loc main_arg3 ↦{fullShare} V (main_arg3 : DevRef τ sig))
          ∗ ((SparseCore.T c).loc main_v0 ↦{fullShare} V (main_v0 : DevRef τ sig))
          ∗ ((SparseCore.T c).loc main_v1 ↦{fullShare} Gen.k0_pay1 (V (main_arg2 : DevRef τ sig)) (V (main_arg3 : DevRef τ sig)) (V (main_v0 : DevRef τ sig)))) := by
  rw [arrays_eq]
  beta_reduce
  rw [(dats V 0 c).arrAt_in 0 rfl, (dats V 0 c).arrAt_in 1 rfl, (dats V 0 c).arrAt_in 2 rfl, final3, A_eq, A_eq, A_eq]

set_option backward.isDefEq.respectTransparency.types false in
set_option maxHeartbeats 1600000 in
/-- The call, lifted to the program's extended signature. -/
theorem region_lift (d : Dev nD) (Φ : PUnit → sProp 𝕄) :
    wp frame (wpE (D (F := F)) 𝒱 (SparseCore.T d) none) Set.univ (Prog.lift (.customCall (Pipeline.entry 0) ())) Φ
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ :=
  (K (F := F)).wp_liftProg (D (F := F)) 𝒱 (SparseCore.T d) Set.univ none (Prog.lift (.customCall (Pipeline.entry 0) ())) Φ

set_option backward.isDefEq.respectTransparency.types false in
set_option maxHeartbeats 1600000 in
/-- The region through the library's rule, at the record. -/
theorem region_seg (d : Dev nD) (Φ : PUnit → sProp 𝕄) :
    iprop((iprop(boundary (SparseCore.T d) ∗ regPost V d) -∗ wp frame (wpE (D (F := F)) 𝒱 (SparseCore.T d) none) Set.univ (.ret ⟨⟩) Φ)
        ∗ boundary (SparseCore.T d) ∗ regPre V d ∗ levAts (K (F := F)).L (K (F := F)).lev ∗ G (F := F) d)
      ⊢ wp frame (wpE (D (F := F)) 𝒱 (SparseCore.T d) none) Set.univ (Prog.lift (.customCall (Pipeline.entry 0) ())) Φ :=
  Pipeline.RegionSeg.wp (pcfgs (F := F)) adm (fun p c => dats V p c) (none : HIx 1) cellOf_inj EPp (defs₀ (F := F)) Variants.none
      (K (F := F)).L (K (F := F)).lev (seg V) d none (fun u h => nomatch h) (fun u => .ret u) Φ

/-- From the four arrays and the rest of @main's, at the valuation's contents, to the same with the result at the
    projection. -/
theorem region_core (d : Dev nD) (Φ : PUnit → sProp 𝕄) :
    iprop(levAts (K (F := F)).L (K (F := F)).lev ∗ owesPart (F := F) d ∗ boundary (SparseCore.T d) ∗ G (F := F) d
      ∗ (dats V 0 d).arrays (dats V 0 d).A
      ∗ (iprop(owesPart (F := F) d ∗ boundary (SparseCore.T d) ∗ (dats V 0 d).arrays ((dats V 0 d).arrAt · cfg0.N)) -∗ Φ ⟨⟩))
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ := by
  refine BI.Entails.trans ?_ (region_lift d Φ)
  refine BI.Entails.trans ?_ (region_seg V d Φ)
  change (_ : sProp 𝕄) ⊢ _
  iintro ⟨#Hlev, HO, Hb, HG, Ha, Hk⟩
  isplitl [Hk]
  · iintro ⟨Hb, HO, Ha⟩
    rw [wp_ret]; imodintro
    iapply Hk
    isplitl [HO]; · iexact HO
    isplitl [Hb]; · iexact Hb
    iexact Ha
  isplitl [Hb]; · iexact Hb
  isplitl [HO Ha]
  · isplitl [HO]; · iexact HO
    iexact Ha
  isplitr; · iexact Hlev
  iexact HG

/-- The projection kernel's region. -/
theorem region_wp : RegionObl (F := F) := by
  intro d V Φ
  refine BI.Entails.trans ?_ (region_core V d Φ)
  rw [arraysA_eq, arraysN_eq, held_sub_split (SparseCore.T d) T₄_sub V, held_T₄]
  change (_ : sProp 𝕄) ⊢ _
  iintro ⟨#Hlev, HO, Hb, HG, ⟨Ha, Hrest⟩, Hk⟩
  isplitr; · iexact Hlev
  isplitl [HO]; · iexact HO
  isplitl [Hb]; · iexact Hb
  isplitl [HG]; · iexact HG
  isplitl [Ha]; · iexact Ha
  iintro ⟨HO, Hb, ⟨H2, H3, H0, H1⟩⟩
  iapply Hk
  isplitl [HO]; · iexact HO
  isplitl [Hb]; · iexact Hb
  iapply (held_join4 d V _)
  isplitl [H2]; · iexact H2
  isplitl [H3]; · iexact H3
  isplitl [H0]; · iexact H0
  isplitl [H1]; · iexact H1
  iexact Hrest

end Cert.KernelIdeal.KProof

end
-- ==== Proof.KSplit.lean ====
/-
  How the arrays split among the vector subcores: the output into the 32 workers' 320 chunks of 64 rows each, a
  SparseCore's shared table into the rows each of its sixteen subcores stages.

  A row `r` of the output lies in exactly one chunk — caption position `r / 32768`, worker `r % 32768 / 1024`, sixteenth
  `r % 1024 / 64` of the worker's 1024 rows there —, and a row of the shared table in exactly one subcore's rows: below
  4096 in rows A of subcore `r / 256`, from 4096 on in rows B of subcore `(r - 4096) / 512`. So a points-to of the whole
  array is the separating conjunction of the points-tos of the pieces.
-/
import proofs.«204824_g46875273068696_cont_8to1_c_371_32_alg».proof.Proof.KData

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

/-! ## The shared table's rows -/

theorem shRowsA_eq (i : Fin 16) : shRowsA i = (shRectA i).set := by
  show ((View.whole (cc1_scratch4 : Ref sig .scVector)).slice (shRectA i)).set = _
  rw [View.set_slice]; exact Finset.map_refl
theorem shRowsB_eq (i : Fin 16) : shRowsB i = (shRectB i).set := by
  show ((View.whole (cc1_scratch4 : Ref sig .scVector)).slice (shRectB i)).set = _
  rw [View.set_slice]; exact Finset.map_refl

/-- An element of the shared table lies in subcore `i`'s rows A when its row number lies in `256 i … 256 i + 255`. -/
theorem mem_shRowsA {i : Fin 16} {x : S12288x128.Idx} : x ∈ shRowsA i ↔ 256 * i.val ≤ (x 0).val ∧ (x 0).val < 256 * i.val + 256 := by
  rw [shRowsA_eq, Rect.mem_set_unit]
  constructor
  · intro h; exact h 0
  · intro h a
    match a with
    | 0 => exact h
    | 1 => exact ⟨Nat.zero_le _, by have h1 : (x 1).val < 128 := (x 1).isLt; show (x 1).val < 0 + 128; omega⟩
/-- and in its rows B when its row number lies in `4096 + 512 i … 4096 + 512 i + 511`. -/
theorem mem_shRowsB {i : Fin 16} {x : S12288x128.Idx} : x ∈ shRowsB i ↔ 512 * i.val + 4096 ≤ (x 0).val ∧ (x 0).val < 512 * i.val + 4096 + 512 := by
  rw [shRowsB_eq, Rect.mem_set_unit]
  constructor
  · intro h; exact h 0
  · intro h a
    match a with
    | 0 => exact h
    | 1 => exact ⟨Nat.zero_le _, by have h1 : (x 1).val < 128 := (x 1).isLt; show (x 1).val < 0 + 128; omega⟩

theorem shRowsAB_disjoint (i : Fin 16) : Disjoint (shRowsA i) (shRowsB i) :=
  Finset.disjoint_left.mpr fun x hA hB => by
    rw [mem_shRowsA] at hA; rw [mem_shRowsB] at hB; have := i.isLt; omega

/-- The rows of two different subcores are disjoint. -/
theorem shRows_disjoint : ∀ i ∈ (Finset.univ : Finset (Fin 16)), ∀ j ∈ (Finset.univ : Finset (Fin 16)), i ≠ j →
    Disjoint (shRowsA i ∪ shRowsB i) (shRowsA j ∪ shRowsB j) := by
  intro i _ j _ hij
  have hij' : i.val ≠ j.val := fun e => hij (Fin.ext e)
  have hi := i.isLt; have hj := j.isLt
  refine Finset.disjoint_left.mpr fun x hx hy => ?_
  rcases Finset.mem_union.mp hx with hx | hx <;> rcases Finset.mem_union.mp hy with hy | hy
  · rw [mem_shRowsA] at hx hy; omega
  · rw [mem_shRowsA] at hx; rw [mem_shRowsB] at hy; omega
  · rw [mem_shRowsB] at hx; rw [mem_shRowsA] at hy; omega
  · rw [mem_shRowsB] at hx hy; omega

/-- Every row of the table is some subcore's: a row below 4096 in rows A, the others in rows B. -/
theorem shRows_cover : (Finset.univ : Finset (Fin 16)).biUnion (fun i => shRowsA i ∪ shRowsB i) = Finset.univ := by
  ext x
  simp only [Finset.mem_biUnion, Finset.mem_univ, true_and, iff_true]
  have hx : (x 0).val < 12288 := (x 0).isLt
  by_cases h : (x 0).val < 4096
  · exact ⟨⟨(x 0).val / 256, by omega⟩, Finset.mem_union_left _ (mem_shRowsA.mpr (by show 256 * ((x 0).val / 256) ≤ _ ∧ _ < 256 * ((x 0).val / 256) + 256; omega))⟩
  · exact ⟨⟨((x 0).val - 4096) / 512, by omega⟩, Finset.mem_union_right _ (mem_shRowsB.mpr (by
      show 512 * (((x 0).val - 4096) / 512) + 4096 ≤ _ ∧ _ < 512 * (((x 0).val - 4096) / 512) + 4096 + 512; omega))⟩

/-- The shared table whole is the sixteen subcores' staged rows. -/
theorem shPts_rows (d : Dev nD) (c : Fin τ.nSC) (q : PosShare TreeShare) (f : Buf (Elt F) (shLoc d c)) :
    (shLoc d c ↦{q} f : sProp 𝕄) = bigSep Finset.univ fun i : Fin 16 => iprop((shLoc d c ↦[shRowsA i]{q} f) ∗ shLoc d c ↦[shRowsB i]{q} f) := by
  have h : (shLoc d c ↦{q} f : sProp 𝕄) = bigSep Finset.univ fun i : Fin 16 => shLoc d c ↦[shRowsA i ∪ shRowsB i]{q} f := by
    rw [← pointsTo_biUnion Finset.univ (ℓ := shLoc d c) (fun i : Fin 16 => shRowsA i ∪ shRowsB i) shRows_disjoint, shRows_cover]; try rfl
  rw [h]
  refine bigSep_congr fun i _ => ?_
  have hu : (shLoc d c ↦[shRowsA i ∪ shRowsB i]{q} f : sProp 𝕄) ⊣⊢ iprop((shLoc d c ↦[shRowsA i]{q} f) ∗ shLoc d c ↦[shRowsB i]{q} f) :=
    pointsTo_union (shRowsAB_disjoint i)
  exact BI.equiv_iff.mp ⟨hu.1, hu.2⟩

/-! ## The output's chunks -/

theorem chunkSet_eq (w : Fin 32) (j : Fin 320) : chunkSet w j = (chunkRect w j).set := by
  show ((View.whole (main_v35_scv : Ref sig .scVector)).slice (chunkRect w j)).set = _
  rw [View.set_slice]; exact Finset.map_refl

/-- An element of the output lies in worker `w`'s chunk `j` when its row number lies in the chunk's 64 rows. -/
theorem mem_chunkSet {w : Fin 32} {j : Fin 320} {x : S655360x128.Idx} :
    x ∈ chunkSet w j ↔ chunkRow w j ≤ (x 0).val ∧ (x 0).val < chunkRow w j + 64 := by
  rw [chunkSet_eq, Rect.mem_set_unit]
  constructor
  · intro h; exact h 0
  · intro h a
    match a with
    | 0 => exact h
    | 1 => exact ⟨Nat.zero_le _, by have h1 : (x 1).val < 128 := (x 1).isLt; show (x 1).val < 0 + 128; omega⟩

/-- A row `r` of the output lies in exactly one chunk: caption position `r / 32768`, worker `r % 32768 / 1024`,
    sixteenth `r % 1024 / 64`. So two different chunks are disjoint -/
theorem chunks_disjoint : ∀ p ∈ (Finset.univ : Finset (Fin 32 × Fin 320)), ∀ p' ∈ (Finset.univ : Finset (Fin 32 × Fin 320)), p ≠ p' →
    Disjoint (chunkSet p.1 p.2) (chunkSet p'.1 p'.2) := by
  rintro ⟨w, j⟩ _ ⟨w', j'⟩ _ hne
  refine Finset.disjoint_left.mpr fun x hx hy => hne ?_
  rw [mem_chunkSet] at hx hy
  unfold chunkRow at hx hy
  have hw := w.isLt; have hw' := w'.isLt; have hj := j.isLt; have hj' := j'.isLt
  dsimp only at hx hy
  refine Prod.ext (Fin.ext ?_) (Fin.ext ?_)
  · show w.val = w'.val; omega
  · show j.val = j'.val; omega

/-- and the chunks cover the output. -/
theorem chunks_cover : (Finset.univ : Finset (Fin 32 × Fin 320)).biUnion (fun p => chunkSet p.1 p.2) = Finset.univ := by
  ext x
  simp only [Finset.mem_biUnion, Finset.mem_univ, true_and, iff_true]
  have hx : (x 0).val < 655360 := (x 0).isLt
  refine ⟨(⟨(x 0).val % 32768 / 1024, by omega⟩, ⟨16 * ((x 0).val / 32768) + (x 0).val % 1024 / 64, by omega⟩), mem_chunkSet.mpr ?_⟩
  unfold chunkRow
  dsimp only
  omega

/-- Worker numbers are the pairs of a SparseCore and a subcore of it. -/
def widEquiv : Fin τ.nSC × Fin τ.nSub ≃ Fin 32 where
  toFun p := wid p.1 p.2
  invFun w := (⟨w.val / 16, by show w.val / 16 < 2; have := w.isLt; omega⟩, ⟨w.val % 16, by show w.val % 16 < 16; omega⟩)
  left_inv p := by
    obtain ⟨c, i⟩ := p
    have h1 : c.val < 2 := c.isLt
    have h2 : i.val < 16 := i.isLt
    refine Prod.ext (Fin.ext ?_) (Fin.ext ?_)
    · show (16 * c.val + i.val) / 16 = c.val; omega
    · show (16 * c.val + i.val) % 16 = i.val; omega
  right_inv w := by
    refine Fin.ext ?_
    show 16 * (w.val / 16) + w.val % 16 = w.val; omega

/-- The output array whole is its 32 × 320 chunks. -/
theorem outPts_chunks (d : Dev nD) (f : Buf (Elt F) (outLoc d)) :
    (outLoc d ↦{fullShare} f : sProp 𝕄) = bigSep Finset.univ fun c : Fin τ.nSC => bigSep Finset.univ fun i : Fin τ.nSub => outChunks d (wid c i) f := by
  have h : (outLoc d ↦{fullShare} f : sProp 𝕄) = bigSep Finset.univ fun p : Fin 32 × Fin 320 => outLoc d ↦[chunkSet p.1 p.2]{fullShare} f := by
    rw [← pointsTo_biUnion Finset.univ (ℓ := outLoc d) (fun p : Fin 32 × Fin 320 => chunkSet p.1 p.2) chunks_disjoint, chunks_cover]; try rfl
  rw [h, bigSep_univ_prod (fun p : Fin 32 × Fin 320 => (outLoc d ↦[chunkSet p.1 p.2]{fullShare} f : sProp 𝕄))]
  show (bigSep Finset.univ fun w : Fin 32 => outChunks (F := F) d w f) = _
  rw [bigSep_univ_equiv widEquiv (fun w : Fin 32 => outChunks (F := F) d w f),
    bigSep_univ_prod (fun p : Fin τ.nSC × Fin τ.nSub => outChunks (F := F) d (widEquiv p) f)]
  rfl

end Cert.KernelIdeal.KProof

end
-- ==== Proof.KRun.lean ====
/-
  The program's run: every weakly fair execution of the mesh's threads terminates with the result at the program's
  function of the five arguments and the arguments unchanged, given the vector subcores' body obligation and the
  split of a SparseCore's operands among its subcores.
-/
import proofs.«204824_g46875273068696_cont_8to1_c_371_32_alg».proof.Proof.KRegionWp
import proofs.«204824_g46875273068696_cont_8to1_c_371_32_alg».proof.Proof.KSplit

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)]
    (htile : (K (F := F)).TileObl (D (F := F)) 𝒱 (Pm m) v₀ 0) (hsplit : (K (F := F)).VecSplit (Pm m) 0) :
    θ_run (Cert.KernelIdeal.defs (F := F)) (Cert.KernelIdeal.threads (F := F)) ⟨m, fun _ => 0, ρ⟩ (fun r => ∀ c : Dev nD,
        r.2.mem ((c.tc : Thread nD τ).loc main_v38) = KFun.KG (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  run_main_of m ρ region_wp (fun d f => outPts_chunks d f) htile hsplit

end Cert.KernelIdeal.KProof

end
-- ==== Proof.KBarrierPay.lean ====
/-
  What the subcore barrier's duties carry, before and after: a subcore's staged rows of the shared table, held whole,
  are sixteen read shares (one handed to every subcore's round) and a remainder; and the sixteen shares a subcore's own
  round collects — its sixteenth of every subcore's rows — are its read share of the whole table.
-/
import proofs.«204824_g46875273068696_cont_8to1_c_371_32_alg».proof.Proof.KSplit

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

variable (SH : (d : Dev nD) → (c : Fin τ.nSC) → Buf (Elt F) (shLoc d c))

/-! ## Reindexing the sixteen subcores -/

/-- A family over the sixteen subcore numbers, indexed by the subcores. -/
theorem bigSep_i16 (Φ : Fin 16 → sProp 𝕄) : (bigSep Finset.univ fun i : Fin τ.nSub => Φ (i16 i)) = bigSep Finset.univ Φ :=
  bigSep_congr fun _ _ => congrArg Φ (Fin.ext rfl)
/-- The same indexed by the kernel's grid positions along the subcore axis. -/
theorem bigSep_grid (Φ : Fin 16 → sProp 𝕄) : (bigSep Finset.univ fun j : Fin (grid1.bound 1) => Φ (i16 (j.castLE hsub1))) = bigSep Finset.univ Φ :=
  bigSep_congr fun _ _ => congrArg Φ (Fin.ext rfl)

/-- A points-to at share `q` is what remains after sixteen read tokens and the tokens, one per subcore. -/
theorem toks16 {ℓ : Loc nD τ sig} (I : Finset (Idx ℓ)) (q : PosShare TreeShare) (f : Buf (Elt F) ℓ) :
    (ℓ ↦[I]{q} f : sProp 𝕄) ⊣⊢ iprop((ℓ ↦[I]{Transfers.shareDrop q 16} f) ∗ bigSep Finset.univ fun k : Fin 16 => ℓ ↦[I]{Transfers.shareTok q 16 k} f) :=
  Transfers.pointsTo_toks q 16

variable [FloatOps F]

/-! ## What the barrier's duties hand over -/

/-- Duty `n` of subcore `j`'s round hands over subcore `n`'s rows at `j`'s read share. -/
theorem payload_bcell (d : Dev nD) (c : Fin τ.nSC) (j : Fin τ.nSub) (n : Fin 16) :
    (bRd (F := F) SH).payload (bcell d c j) 0 n.val = shPiece SH d c n j := by
  show (if h : n.val < 16 then shPiece SH d c ⟨n.val, h⟩ j else iprop(emp)) = _
  exact dif_pos n.isLt

/-- Before the barrier: a subcore's staged rows, at the table's contents, split into the sixteen read shares it hands over
    (one to every subcore's round) and the remainder it keeps. -/
theorem pays_intro (d : Dev nD) (c : Fin τ.nSC) (i : Fin τ.nSub) :
    iprop((shLoc d c ↦[shRowsA (i16 i)]{fullShare} SH d c) ∗ (shLoc d c ↦[shRowsB (i16 i)]{fullShare} SH d c))
      ⊢ (iprop((bigSep Finset.univ fun j : Fin (grid1.bound 1) => (bRd (F := F) SH).payload (bcell d c (j.castLE hsub1)) 0 i.val)
          ∗ (shLoc d c ↦[shRowsA (i16 i)]{shRest} SH d c) ∗ (shLoc d c ↦[shRowsB (i16 i)]{shRest} SH d c)) : sProp 𝕄) := by
  have hpay : (bigSep Finset.univ fun j : Fin (grid1.bound 1) => (bRd (F := F) SH).payload (bcell d c (j.castLE hsub1)) 0 i.val)
      = iprop((bigSep Finset.univ fun k : Fin 16 => shLoc d c ↦[shRowsA (i16 i)]{Transfers.shareTok fullShare 16 k} SH d c)
        ∗ bigSep Finset.univ fun k : Fin 16 => shLoc d c ↦[shRowsB (i16 i)]{Transfers.shareTok fullShare 16 k} SH d c) := by
    rw [← bigSep_sep', ← bigSep_grid (F := F) (fun k : Fin 16 => iprop((shLoc d c ↦[shRowsA (i16 i)]{Transfers.shareTok fullShare 16 k} SH d c)
      ∗ shLoc d c ↦[shRowsB (i16 i)]{Transfers.shareTok fullShare 16 k} SH d c))]
    exact bigSep_congr fun j _ => payload_bcell SH d c (j.castLE hsub1) (i16 i)
  rw [hpay]
  iintro ⟨HA, HB⟩
  ihave HA' := (toks16 (F := F) (ℓ := shLoc d c) (shRowsA (i16 i)) fullShare (SH d c)).1 $$ HA
  ihave HB' := (toks16 (F := F) (ℓ := shLoc d c) (shRowsB (i16 i)) fullShare (SH d c)).1 $$ HB
  icases HA' with ⟨HAr, HAt⟩
  icases HB' with ⟨HBr, HBt⟩
  isplitl [HAt HBt]
  · isplitl [HAt]; · iexact HAt
    iexact HBt
  isplitl [HAr]; · iexact HAr
  iexact HBr

/-- After it: what a subcore's own round collected is its read share of the whole table. -/
theorem pays_elim (d : Dev nD) (c : Fin τ.nSC) (i : Fin τ.nSub) :
    (bigSep ((bRd (F := F) SH).duties (bcell d c i) 0 \ ∅) fun n => (bRd (F := F) SH).payload (bcell d c i) 0 n)
      ⊢ (shLoc d c ↦{shTok i} SH d c : sProp 𝕄) := by
  rw [Finset.sdiff_empty, bRd_duties₀, SparseCore.bigSep_image_of_injOn (fun a _ b _ e => Fin.val_injective e), shPts_rows d c (shTok i) (SH d c),
    ← bigSep_i16 (F := F) (fun n : Fin 16 => iprop((shLoc d c ↦[shRowsA n]{shTok i} SH d c) ∗ shLoc d c ↦[shRowsB n]{shTok i} SH d c))]
  exact Entails.of_eq (bigSep_congr fun n _ => payload_bcell SH d c i (i16 n))

end Cert.KernelIdeal.KProof

end
-- ==== Proof.KVecSplit.lean ====
/-
  How the gather kernel's operands split among a SparseCore's sixteen vector subcores at the launch, and gather back.

  The SparseCore holds a half read share of the gather table and of the index lists, its sixteen workers' chunks of the
  output, and (among its sequencer's own buffers) its shared table whole at some contents. Each subcore is dealt a
  sixteenth of the two read shares, its own chunks, and its own rows of the shared table. Each brings back its read
  shares, its chunks gathered, a read share of the WHOLE shared table (collected at the subcore barrier) and what
  remained of its own rows: the sixteen remainders are the table at the remaining share, which with the sixteen read
  shares is the table whole again.
-/
import proofs.«204824_g46875273068696_cont_8to1_c_371_32_alg».proof.Proof.KBarrierPay

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

variable (m : (ℓ : Loc nD τ sig) → Buf (Elt F) ℓ)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

/-- A family over the subcores, indexed by the call's subcore numbers. -/
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The shared table whole, at some contents, deals every subcore its rows at some contents. -/
theorem sh_deal (d : Dev nD) (c : Fin τ.nSC) (f : Buf (Elt F) (shLoc d c)) :
    (shLoc d c ↦{fullShare} f : sProp 𝕄)
      ⊢ iprop((bigSep Finset.univ fun i : Fin τ.nSub => iprop(∃ g, shLoc d c ↦[shRowsA (i16 i)]{fullShare} g))
        ∗ bigSep Finset.univ fun i : Fin τ.nSub => iprop(∃ g, shLoc d c ↦[shRowsB (i16 i)]{fullShare} g)) := by
  rw [shPts_rows d c fullShare f, bigSep_sep',
    bigSep_i16 (F := F) (fun i : Fin 16 => iprop(∃ g, shLoc d c ↦[shRowsA i]{fullShare} g)),
    bigSep_i16 (F := F) (fun i : Fin 16 => iprop(∃ g, shLoc d c ↦[shRowsB i]{fullShare} g))]
  exact BIClass.sep_mono
    (bigSep_mono fun i _ => BI.BIClass.exists_intro (Φ := fun g => (shLoc d c ↦[shRowsA i]{fullShare} g : sProp 𝕄)) f)
    (bigSep_mono fun i _ => BI.BIClass.exists_intro (Φ := fun g => (shLoc d c ↦[shRowsB i]{fullShare} g : sProp 𝕄)) f)

/-- Every subcore's read share of the whole table and what remained of its own rows are the table whole. -/
theorem sh_collect (d : Dev nD) (c : Fin τ.nSC) (f : Buf (Elt F) (shLoc d c)) :
    iprop((bigSep Finset.univ fun i : Fin τ.nSub => shLoc d c ↦{shTok i} f)
        ∗ (bigSep Finset.univ fun i : Fin τ.nSub => shLoc d c ↦[shRowsA (i16 i)]{shRest} f)
        ∗ bigSep Finset.univ fun i : Fin τ.nSub => shLoc d c ↦[shRowsB (i16 i)]{shRest} f)
      ⊢ (shLoc d c ↦{fullShare} f : sProp 𝕄) := by
  rw [bigSep_i16 (F := F) (fun i : Fin 16 => shLoc d c ↦[shRowsA i]{shRest} f),
    bigSep_i16 (F := F) (fun i : Fin 16 => shLoc d c ↦[shRowsB i]{shRest} f),
    bigSep_i16 (F := F) (fun i : Fin 16 => shLoc d c ↦{Transfers.shareTok fullShare 16 i} f),
    ← bigSep_sep', ← shPts_rows d c shRest f]
  iintro ⟨Ht, Hr⟩
  iapply (toks16 (F := F) (ℓ := shLoc d c) Finset.univ fullShare f).2
  isplitl [Hr]; · iexact Hr
  iexact Ht

/-- A read share of an array deals every subcore its sixteenth and keeps the remainder; back the same way. -/
theorem tiles_split {ℓ : Loc nD τ sig} (c : Fin τ.nSC) (f : Buf (Elt F) ℓ) :
    (ℓ ↦{coreShare c} f : sProp 𝕄) ⊣⊢ iprop((ℓ ↦{Transfers.shareDrop (coreShare c) 16} f) ∗ bigSep Finset.univ fun i : Fin τ.nSub => ℓ ↦{tileShare c i} f) := by
  rw [bigSep_i16 (F := F) (fun i : Fin 16 => ℓ ↦{Transfers.shareTok (coreShare c) 16 i} f)]
  exact toks16 (F := F) (ℓ := ℓ) Finset.univ (coreShare c) f

variable [FloatOps F]

/-- The split for any SparseCore. -/
theorem vecSplit_core (d : Dev nD) (c : Fin τ.nSC) :
    iprop(stPts m TAB IDX d c ∗ ownBufs (S d c)) ⊢ |={Set.univ}=> iprop(
      (bigSep Finset.univ fun i : Fin τ.nSub => goPts m TAB IDX d c i)
      ∗ ((bigSep Finset.univ fun i : Fin τ.nSub => tdPts TAB IDX OUT SH d c i) -∗ iprop(dnPts TAB IDX OUT d c ∗ ownBufs (S d c)))) := by
  have hgo : (bigSep Finset.univ fun i : Fin τ.nSub => goPts m TAB IDX d c i)
      = iprop((bigSep Finset.univ fun i : Fin τ.nSub => tabLoc d ↦{tileShare c i} TAB d)
        ∗ (bigSep Finset.univ fun i : Fin τ.nSub => idxLoc d ↦{tileShare c i} IDX d)
        ∗ (bigSep Finset.univ fun i : Fin τ.nSub => outChunks d (wid c i) (m (outLoc d)))
        ∗ (bigSep Finset.univ fun i : Fin τ.nSub => iprop(∃ g, shLoc d c ↦[shRowsA (i16 i)]{fullShare} g))
        ∗ bigSep Finset.univ fun i : Fin τ.nSub => iprop(∃ g, shLoc d c ↦[shRowsB (i16 i)]{fullShare} g)) := by
    unfold goPts
    rw [bigSep_sep', bigSep_sep', bigSep_sep', bigSep_sep']
  have htd : (bigSep Finset.univ fun i : Fin τ.nSub => tdPts TAB IDX OUT SH d c i)
      = iprop((bigSep Finset.univ fun i : Fin τ.nSub => tabLoc d ↦{tileShare c i} TAB d)
        ∗ (bigSep Finset.univ fun i : Fin τ.nSub => idxLoc d ↦{tileShare c i} IDX d)
        ∗ (bigSep Finset.univ fun i : Fin τ.nSub => outChunks d (wid c i) (OUT d))
        ∗ (bigSep Finset.univ fun i : Fin τ.nSub => shLoc d c ↦{shTok i} SH d c)
        ∗ (bigSep Finset.univ fun i : Fin τ.nSub => shLoc d c ↦[shRowsA (i16 i)]{shRest} SH d c)
        ∗ bigSep Finset.univ fun i : Fin τ.nSub => shLoc d c ↦[shRowsB (i16 i)]{shRest} SH d c) := by
    unfold tdPts
    rw [bigSep_sep', bigSep_sep', bigSep_sep', bigSep_sep', bigSep_sep']
  rw [hgo, htd, ownBufs_S]
  unfold stPts dnPts
  iintro ⟨⟨Htab, Hidx, Hout⟩, ⟨%fsh, Hsh⟩, Hrest⟩
  ihave Htab' := (tiles_split (F := F) (ℓ := tabLoc d) c (TAB d)).1 $$ Htab
  ihave Hidx' := (tiles_split (F := F) (ℓ := idxLoc d) c (IDX d)).1 $$ Hidx
  ihave Hsh' := (sh_deal (F := F) d c fsh) $$ Hsh
  icases Htab' with ⟨HtabR, HtabT⟩
  icases Hidx' with ⟨HidxR, HidxT⟩
  icases Hsh' with ⟨HshA, HshB⟩
  imodintro
  isplitl [HtabT HidxT Hout HshA HshB]
  · isplitl [HtabT]; · iexact HtabT
    isplitl [HidxT]; · iexact HidxT
    isplitl [Hout]; · iexact Hout
    isplitl [HshA]; · iexact HshA
    iexact HshB
  iintro ⟨HtabT, HidxT, Hout, Htok, HA, HB⟩
  isplitl [HtabR HtabT HidxR HidxT Hout]
  · isplitl [HtabR HtabT]
    · iapply (tiles_split (F := F) (ℓ := tabLoc d) c (TAB d)).2
      isplitl [HtabR]; · iexact HtabR
      iexact HtabT
    isplitl [HidxR HidxT]
    · iapply (tiles_split (F := F) (ℓ := idxLoc d) c (IDX d)).2
      isplitl [HidxR]; · iexact HidxR
      iexact HidxT
    iexact Hout
  isplitl [Htok HA HB]
  · iexists (SH d c)
    iapply (sh_collect (F := F) d c (SH d c))
    isplitl [Htok]; · iexact Htok
    isplitl [HA]; · iexact HA
    iexact HB
  iexact Hrest

/-- How a SparseCore's operands split into its sixteen tasks' and gather back: each subcore gets a sixteenth of the
    SparseCore's read shares of the gather table and of the index lists, its chunks of the output, and its rows of the
    shared table; back come the read shares, the chunks gathered, and the shared table — each subcore's read share of
    the whole of it and what remained of its own rows. -/
theorem vecSplit : (K (F := F)).VecSplit (Pm m) 0 := by
  intro d c
  show iprop(stPts m (TABm m) (IDXm m) d (coreOf c) ∗ ownBufs (S d (coreOf c))) ⊢ |={Set.univ}=> iprop(
      (bigSep Finset.univ fun i : Fin ((K (F := F)).nSub 0) => goPts m (TABm m) (IDXm m) d (coreOf c) ((K (F := F)).sub 0 i))
      ∗ ((bigSep Finset.univ fun i : Fin ((K (F := F)).nSub 0) => tdPts (TABm m) (IDXm m) (OUTm m) (SHm m) d (coreOf c) ((K (F := F)).sub 0 i))
          -∗ iprop(dnPts (TABm m) (IDXm m) (OUTm m) d (coreOf c) ∗ ownBufs (S d (coreOf c)))))
  rw [bigSep_tasks (F := F) (fun i => goPts m (TABm m) (IDXm m) d (coreOf c) i),
    bigSep_tasks (F := F) (fun i => tdPts (TABm m) (IDXm m) (OUTm m) (SHm m) d (coreOf c) i)]
  exact vecSplit_core m (TABm m) (IDXm m) (OUTm m) (SHm m) d (coreOf c)

end Cert.KernelIdeal.KProof

end
-- ==== Proof.KValIdx.lean ====
/-
  The index array read at an index. With f = ((l·16 + a)·8 + c)·8 + b the flat position of (l, a, c, b) in worker
  w's list, the entry at (w, f / 128, f % 128) is, for c < 4, the token of caption row w·128 + a·8 + b at position l
  times 4 plus c (a row of the projected part of the table), and for c ≥ 4 it is 4096 + ((w mod 16)·128 + a·8 + b)·4
  + (c − 4) (a row of the worker's core's half of the image part). Every arithmetic step stays far below 2³², so the
  words are read as natural numbers without wrap-around; in particular every entry is below 12288, the height of a
  core's shared table.
-/
import proofs.«204824_g46875273068696_cont_8to1_c_371_32_alg».proof.Proof.KFun
import Idealize.ShloMosaic.Lib.Pipeline.Value

noncomputable section

namespace Cert.KernelIdeal.KFun

open Idealize.ShloMosaic Idealize.ShloMosaic.ValueIdx
open Cert.KernelIdeal Cert.KernelIdeal.Facts₀

/-! ## Elementwise integer operations at an index -/

theorem addi_apply {s : Shape} {n : Nat} (x y : IVec s n) (i : s.Idx) : addi x y i = x i + y i := rfl
theorem muli_apply {s : Shape} {n : Nat} (x y : IVec s n) (i : s.Idx) : muli x y i = x i * y i := rfl

/-! ## The floor-modulo by 16 -/

/-- The floor-modulo by 16 on one word: the scalar the host's remainder function computes at each index. -/
def remS (x : BitVec 32) : BitVec 32 :=
  let v2 : BitVec 32 := Scalar.select (IntOp.cmpi .eq (16#32) (0#32)) (1#32) (16#32)
  let v4 : BitVec 32 := IntOp.remsi .host x v2
  let v6 : BitVec 1 := IntOp.cmpi .ne v4 (0#32)
  let v8 : BitVec 1 := IntOp.cmpi .slt v4 (0#32)
  let v9 : BitVec 1 := IntOp.cmpi .slt v2 (0#32)
  let v11 : BitVec 1 := IntOp.cmpi .ne v8 v9
  let v12 : BitVec 1 := IntOp.andi v11 v6
  let v14 : BitVec 32 := IntOp.addi v4 v2
  Scalar.select v12 v14 v4

/-- The remainder function applied to the worker iota and the constant 16, read at an index. -/
theorem remF_iota_apply (j : S32x20x16x1x8.Idx) :
    remF (iotaInDim S32x20x16x1x8 32 0) (constantI S_ 32 16#32) j = remS (BitVec.ofNat 32 (j 0).val) := rfl

/-- On a worker number below 32 it is the number modulo 16. -/
theorem remS_ofNat (w : Fin 32) : remS (BitVec.ofNat 32 w.val) = BitVec.ofNat 32 (w.val % 16) := by
  revert w; decide

/-! ## The pieces of the index array, read at an index -/

/-- The caption's local row: (worker mod 16)·128 + a·8 + b. -/
theorem capLocF_apply (w : Fin 32) (l : Fin 20) (a : Fin 16) (z : Fin 1) (bb : Fin 8) :
    capLocF (ix5 w l a z bb) = BitVec.ofNat 32 (w.val % 16 * 128 + a.val * 8 + bb.val) := by
  have h : capLocF (ix5 w l a z bb)
      = remS (BitVec.ofNat 32 w.val) * BitVec.ofNat 32 128 + BitVec.ofNat 32 a.val * BitVec.ofNat 32 8
        + BitVec.ofNat 32 bb.val := rfl
  rw [h, remS_ofNat, ← BitVec.ofNat_mul, ← BitVec.ofNat_mul, ← BitVec.ofNat_add, ← BitVec.ofNat_add]

/-- The regrouped tokens: worker w's (position l, a, b) is caption row w·128 + a·8 + b at position l. -/
theorem tokPF_apply (cap : IVec S4096x20 32) (w : Fin 32) (l : Fin 20) (a : Fin 16) (bb : Fin 8) :
    tokPF cap (ix4 w l a bb) = cap (ix2 ⟨w.val * 128 + a.val * 8 + bb.val, by omega⟩ l) := by
  unfold tokPF
  refine (transpose_apply _ _ _ _ (ix4 w a bb l)
    (fun b => match b with | ⟨0, _⟩ => rfl | ⟨1, _⟩ => rfl | ⟨2, _⟩ => rfl | ⟨3, _⟩ => rfl)).trans ?_
  exact shapeCast_apply _ _ _ _ (by
    rw [Shape.rowMajor_val_two, Shape.rowMajor_val_four]
    show (w.val * 128 + a.val * 8 + bb.val) * 20 + l.val = ((w.val * 16 + a.val) * 8 + bb.val) * 20 + l.val
    omega)

/-- The piece number along the fourth axis. -/
theorem pieceF_apply (z0 z1 z2 : Fin 1) (p : Fin 4) (z4 : Fin 1) :
    pieceF (ix5 z0 z1 z2 p z4) = BitVec.ofNat 32 p.val := by
  unfold pieceF
  refine (shapeCast_apply _ _ _ (ix1 p) (by
    rw [Shape.rowMajor_val_one, Shape.rowMajor_val_five]
    show p.val = (((z0.val * 1 + z1.val) * 1 + z2.val) * 4 + p.val) * 1 + z4.val
    omega)).trans ?_
  rfl

/-- The piece number broadcast over the index array's shape. -/
theorem pieceF_bcast_apply (w : Fin 32) (l : Fin 20) (a : Fin 16) (p : Fin 4) (bb : Fin 8) :
    broadcastInDim S32x20x16x4x8 ![0, 1, 2, 3, 4] bcast_S1x1x1x4x1_S32x20x16x4x8_0_1_2_3_4 pieceF (ix5 w l a p bb)
      = BitVec.ofNat 32 p.val := by
  refine (broadcastInDim_apply _ _ _ _ (ix5 (0 : Fin 1) (0 : Fin 1) (0 : Fin 1) p (0 : Fin 1))
    (fun c => match c with | ⟨0, _⟩ => rfl | ⟨1, _⟩ => rfl | ⟨2, _⟩ => rfl | ⟨3, _⟩ => rfl | ⟨4, _⟩ => rfl)).trans ?_
  exact pieceF_apply _ _ _ _ _

/-- The word half: token·4 + piece. -/
theorem wordIdxF_apply (cap : IVec S4096x20 32) (w : Fin 32) (l : Fin 20) (a : Fin 16) (p : Fin 4) (bb : Fin 8) :
    wordIdxF cap (ix5 w l a p bb)
      = cap (ix2 ⟨w.val * 128 + a.val * 8 + bb.val, by omega⟩ l) * 4#32 + BitVec.ofNat 32 p.val := by
  have hA : broadcastInDim S32x20x16x4x8 ![0, 1, 2, 3, 4] bcast_S32x20x16x1x8_S32x20x16x4x8_0_1_2_3_4
        (muli (broadcastInDim S32x20x16x1x8 ![0, 1, 2, 4] bcast_S32x20x16x8_S32x20x16x1x8_0_1_2_4 (tokPF cap))
          (broadcastInDim S32x20x16x1x8 ![] bcast_S_S32x20x16x1x8 (constantI S_ 32 4#32))) (ix5 w l a p bb)
      = cap (ix2 ⟨w.val * 128 + a.val * 8 + bb.val, by omega⟩ l) * 4#32 := by
    refine (broadcastInDim_apply _ _ _ _ (ix5 w l a (0 : Fin 1) bb)
      (fun c => match c with | ⟨0, _⟩ => rfl | ⟨1, _⟩ => rfl | ⟨2, _⟩ => rfl | ⟨3, _⟩ => rfl | ⟨4, _⟩ => rfl)).trans ?_
    rw [muli_apply, broadcastInDim_apply _ _ _ _ (ix4 w l a bb)
      (fun c => match c with | ⟨0, _⟩ => rfl | ⟨1, _⟩ => rfl | ⟨2, _⟩ => rfl | ⟨3, _⟩ => rfl), tokPF_apply]
    rfl
  exact congrArg₂ (· + ·) hA (pieceF_bcast_apply w l a p bb)

/-- The image half: 4096 + local row·4 + piece. -/
theorem imgIdxF_apply (w : Fin 32) (l : Fin 20) (a : Fin 16) (p : Fin 4) (bb : Fin 8) :
    imgIdxF (ix5 w l a p bb) = BitVec.ofNat 32 (4096 + (w.val % 16 * 128 + a.val * 8 + bb.val) * 4 + p.val) := by
  have hA : broadcastInDim S32x20x16x4x8 ![0, 1, 2, 3, 4] bcast_S32x20x16x1x8_S32x20x16x4x8_0_1_2_3_4
        (addi (broadcastInDim S32x20x16x1x8 ![] bcast_S_S32x20x16x1x8 (constantI S_ 32 4096#32))
          (muli capLocF (broadcastInDim S32x20x16x1x8 ![] bcast_S_S32x20x16x1x8 (constantI S_ 32 4#32)))) (ix5 w l a p bb)
      = BitVec.ofNat 32 4096 + BitVec.ofNat 32 (w.val % 16 * 128 + a.val * 8 + bb.val) * BitVec.ofNat 32 4 := by
    refine (broadcastInDim_apply _ _ _ _ (ix5 w l a (0 : Fin 1) bb)
      (fun c => match c with | ⟨0, _⟩ => rfl | ⟨1, _⟩ => rfl | ⟨2, _⟩ => rfl | ⟨3, _⟩ => rfl | ⟨4, _⟩ => rfl)).trans ?_
    rw [addi_apply, muli_apply, capLocF_apply]
    rfl
  have h : imgIdxF (ix5 w l a p bb)
      = BitVec.ofNat 32 4096 + BitVec.ofNat 32 (w.val % 16 * 128 + a.val * 8 + bb.val) * BitVec.ofNat 32 4
        + BitVec.ofNat 32 p.val := congrArg₂ (· + ·) hA (pieceF_bcast_apply w l a p bb)
  rw [h, ← BitVec.ofNat_mul, ← BitVec.ofNat_add, ← BitVec.ofNat_add]

/-- The two halves side by side: pieces 0..3 are the word half … -/
theorem idxFullF_apply_lo (cap : IVec S4096x20 32) (w : Fin 32) (l : Fin 20) (a : Fin 16) (c8 : Fin 8) (bb : Fin 8)
    (h : c8.val < 4) : idxFullF cap (ix5 w l a c8 bb) = wordIdxF cap (ix5 w l a ⟨c8.val, h⟩ bb) := by
  unfold idxFullF
  exact concatenate_apply_piece (t := S32x20x16x8x8) 3 [⟨S32x20x16x4x8, wordIdxF cap⟩, ⟨S32x20x16x4x8, imgIdxF⟩]
    concatenates_S32x20x16x4x8_S32x20x16x4x8_S32x20x16x8x8_d3 (ix5 w l a c8 bb)
    0 (by show (0 : ℕ) < 2; omega) S32x20x16x4x8 (wordIdxF cap) rfl rfl 0 rfl
    (ix5 w l a ⟨c8.val, h⟩ bb)
    (fun b => match b with
      | ⟨0, _⟩ => fun _ => rfl | ⟨1, _⟩ => fun _ => rfl | ⟨2, _⟩ => fun _ => rfl
      | ⟨3, _⟩ => fun hb => absurd rfl hb | ⟨4, _⟩ => fun _ => rfl)
    (by show 0 + c8.val = c8.val; omega)

/-- … and pieces 4..7 the image half. -/
theorem idxFullF_apply_hi (cap : IVec S4096x20 32) (w : Fin 32) (l : Fin 20) (a : Fin 16) (c8 : Fin 8) (bb : Fin 8)
    (h : 4 ≤ c8.val) : idxFullF cap (ix5 w l a c8 bb) = imgIdxF (ix5 w l a ⟨c8.val - 4, by omega⟩ bb) := by
  unfold idxFullF
  exact concatenate_apply_piece (t := S32x20x16x8x8) 3 [⟨S32x20x16x4x8, wordIdxF cap⟩, ⟨S32x20x16x4x8, imgIdxF⟩]
    concatenates_S32x20x16x4x8_S32x20x16x4x8_S32x20x16x8x8_d3 (ix5 w l a c8 bb)
    1 (by show (1 : ℕ) < 2; omega) S32x20x16x4x8 imgIdxF rfl rfl 4 rfl
    (ix5 w l a ⟨c8.val - 4, by omega⟩ bb)
    (fun b => match b with
      | ⟨0, _⟩ => fun _ => rfl | ⟨1, _⟩ => fun _ => rfl | ⟨2, _⟩ => fun _ => rfl
      | ⟨3, _⟩ => fun hb => absurd rfl hb | ⟨4, _⟩ => fun _ => rfl)
    (by show 4 + (c8.val - 4) = c8.val; omega)

/-- The index array is the five-axis array read in row-major order. -/
theorem idxF_apply (cap : IVec S4096x20 32) (w : Fin 32) (r : Fin 160) (c : Fin 128)
    (l : Fin 20) (a : Fin 16) (c8 : Fin 8) (bb : Fin 8)
    (h : r.val * 128 + c.val = ((l.val * 16 + a.val) * 8 + c8.val) * 8 + bb.val) :
    idxF cap (ix3 w r c) = idxFullF cap (ix5 w l a c8 bb) := by
  unfold idxF
  exact shapeCast_apply _ _ _ _ (by
    rw [Shape.rowMajor_val_five, Shape.rowMajor_val_three]
    show (((w.val * 20 + l.val) * 16 + a.val) * 8 + c8.val) * 8 + bb.val = (w.val * 160 + r.val) * 128 + c.val
    omega)

/-! ## The words as numbers -/

theorem wordIdx_toNat (x : BitVec 32) (p : Nat) (hx : x.toNat < 1000) (hp : p < 4) :
    (x * 4#32 + BitVec.ofNat 32 p).toNat = x.toNat * 4 + p := by
  rw [BitVec.toNat_add, BitVec.toNat_mul, BitVec.toNat_ofNat, BitVec.toNat_ofNat]
  norm_num
  omega

theorem wordIdx_lt (x : BitVec 32) (p : Nat) (hx : x.toNat < 1000) (hp : p < 4) :
    (x * 4#32 + BitVec.ofNat 32 p).toNat < 12288 := by
  rw [wordIdx_toNat x p hx hp]; omega

theorem ofNat_toNat_small (n : Nat) (h : n < 4294967296) : (BitVec.ofNat 32 n).toNat = n := by
  rw [BitVec.toNat_ofNat]; norm_num; omega

/-! ## Every index is inside the shared table -/

theorem idx_lt (cap : IVec S4096x20 32) (hcap : ∀ i, (cap i).toNat < 1000) :
    ∀ j : S32x160x128.Idx, (idxF cap j).toNat < 12288 := by
  intro j
  obtain ⟨w, r, c, rfl⟩ : ∃ (w : Fin 32) (r : Fin 160) (c : Fin 128), j = ix3 w r c := ⟨j 0, j 1, j 2, eq_ix3 j⟩
  have hr := r.isLt
  have hc := c.isLt
  rw [idxF_apply cap w r c ⟨(r.val * 128 + c.val) / 1024, by omega⟩ ⟨(r.val * 128 + c.val) % 1024 / 64, by omega⟩
    ⟨(r.val * 128 + c.val) % 64 / 8, by omega⟩ ⟨(r.val * 128 + c.val) % 8, by omega⟩ (by simp only []; omega)]
  by_cases h4 : (r.val * 128 + c.val) % 64 / 8 < 4
  · rw [idxFullF_apply_lo _ _ _ _ _ _ h4, wordIdxF_apply]
    exact wordIdx_lt _ _ (hcap _) h4
  · rw [idxFullF_apply_hi _ _ _ _ _ _ (by simp only []; omega), imgIdxF_apply, ofNat_toNat_small _ (by simp only []; omega)]
    simp only []
    omega

end Cert.KernelIdeal.KFun

end
-- ==== Proof.KValTail.lean ====
/-
  The float side's re-indexings read at an index: the final re-layout of the gathered rows, the rows of the
  gather table (a projected row's four pieces, an image row's four pieces), a core's shared table, and the
  gather's output row with its parts named.
-/
import proofs.«204824_g46875273068696_cont_8to1_c_371_32_alg».proof.Proof.KFun
import Idealize.ShloMosaic.Lib.Pipeline.Value

noncomputable section

namespace Cert.KernelIdeal.KFun

open Idealize.ShloMosaic Idealize.ShloMosaic.ValueIdx
open Cert.KernelIdeal Cert.KernelIdeal.Facts₀

variable {F : FTy → Type} [FloatOps F]

/-! ## The final re-layout read at an index -/

/-- Output element (batch b, position l, feature q) is gathered row l·32768 + (b/8)·64 + (q/128)·8 + b%8,
    lane q%128. -/
theorem tailF_apply (o : FVec F S655360x128 .f32) (b : Fin 4096) (l : Fin 20) (q : Fin 1024)
    (R : Fin 655360) (lane : Fin 128)
    (hR : R.val = l.val * 32768 + b.val / 8 * 64 + q.val / 128 * 8 + b.val % 8) (hl : lane.val = q.val % 128) :
    tailF o (ix3 b l q) = o (ix2 R lane) := by
  have hb := b.isLt
  have hq := q.isLt
  unfold tailF
  refine (shapeCast_apply _ _ _
    (ix5 (⟨b.val / 8, by omega⟩ : Fin 512) (⟨b.val % 8, by omega⟩ : Fin 8) l (⟨q.val / 128, by omega⟩ : Fin 8)
      (⟨q.val % 128, by omega⟩ : Fin 128)) (by
    rw [Shape.rowMajor_val_five, Shape.rowMajor_val_three]
    show (((b.val / 8 * 8 + b.val % 8) * 20 + l.val) * 8 + q.val / 128) * 128 + q.val % 128
      = (b.val * 20 + l.val) * 1024 + q.val
    omega)).trans ?_
  refine (transpose_apply _ _ _ _
    (ix5 l (⟨b.val / 8, by omega⟩ : Fin 512) (⟨q.val / 128, by omega⟩ : Fin 8) (⟨b.val % 8, by omega⟩ : Fin 8)
      (⟨q.val % 128, by omega⟩ : Fin 128))
    (fun c => match c with | ⟨0, _⟩ => rfl | ⟨1, _⟩ => rfl | ⟨2, _⟩ => rfl | ⟨3, _⟩ => rfl | ⟨4, _⟩ => rfl)).trans ?_
  exact shapeCast_apply _ _ _ _ (by
    rw [Shape.rowMajor_val_two, Shape.rowMajor_val_five]
    show R.val * 128 + lane.val
      = (((l.val * 512 + b.val / 8) * 8 + q.val / 128) * 8 + b.val % 8) * 128 + q.val % 128
    omega)

/-! ## The gather table read at a row -/

/-- Row t·4 + c of the table is piece c of projected row t. -/
theorem tabF_apply_proj (proj : FVec F S1000x512 .f32) (img : FVec F S4096x512 .f32)
    (row : Fin 20480) (lane : Fin 128) (t : Fin 1000) (q : Fin 512)
    (hrow : row.val = t.val * 4 + q.val / 128) (hl : lane.val = q.val % 128) :
    tabF proj img (ix2 row lane) = proj (ix2 t q) := by
  have ht := t.isLt
  have hq := q.isLt
  unfold tabF
  refine (concatenate_apply_piece (t := S20480x128) 0
    [⟨S4000x128, shapeCast S4000x128 proj shapeCasts_S1000x512_S4000x128⟩,
     ⟨S96x128, broadcastInDim S96x128 ![] bcast_S_S96x128 (constant (F := F) S_ .f32 0x00000000#32)⟩,
     ⟨S16384x128, shapeCast S16384x128 img shapeCasts_S4096x512_S16384x128⟩]
    concatenates_S4000x128_S96x128_S16384x128_S20480x128_d0
    (ix2 row lane) 0 (by show (0 : ℕ) < 3; omega) S4000x128 (shapeCast S4000x128 proj shapeCasts_S1000x512_S4000x128) rfl rfl 0 rfl
    (ix2 (⟨row.val, by omega⟩ : Fin 4000) lane)
    (fun b => match b with | ⟨0, _⟩ => fun hb => absurd rfl hb | ⟨1, _⟩ => fun _ => rfl)
    (by show 0 + row.val = row.val; omega)).trans ?_
  exact shapeCast_apply _ _ _ _ (by
    rw [Shape.rowMajor_val_two, Shape.rowMajor_val_two]
    show t.val * 512 + q.val = row.val * 128 + lane.val
    omega)

/-- Row 4096 + b·4 + c of the table is piece c of image row b. -/
theorem tabF_apply_img (proj : FVec F S1000x512 .f32) (img : FVec F S4096x512 .f32)
    (row : Fin 20480) (lane : Fin 128) (b : Fin 4096) (q : Fin 512)
    (hrow : row.val = 4096 + b.val * 4 + q.val / 128) (hl : lane.val = q.val % 128) :
    tabF proj img (ix2 row lane) = img (ix2 b q) := by
  have hb := b.isLt
  have hq := q.isLt
  unfold tabF
  refine (concatenate_apply_piece (t := S20480x128) 0
    [⟨S4000x128, shapeCast S4000x128 proj shapeCasts_S1000x512_S4000x128⟩,
     ⟨S96x128, broadcastInDim S96x128 ![] bcast_S_S96x128 (constant (F := F) S_ .f32 0x00000000#32)⟩,
     ⟨S16384x128, shapeCast S16384x128 img shapeCasts_S4096x512_S16384x128⟩]
    concatenates_S4000x128_S96x128_S16384x128_S20480x128_d0
    (ix2 row lane) 2 (by show (2 : ℕ) < 3; omega) S16384x128 (shapeCast S16384x128 img shapeCasts_S4096x512_S16384x128) rfl rfl 4096 rfl
    (ix2 (⟨row.val - 4096, by omega⟩ : Fin 16384) lane)
    (fun b => match b with | ⟨0, _⟩ => fun hb => absurd rfl hb | ⟨1, _⟩ => fun _ => rfl)
    (by show 4096 + (row.val - 4096) = row.val; omega)).trans ?_
  exact shapeCast_apply _ _ _ _ (by
    rw [Shape.rowMajor_val_two, Shape.rowMajor_val_two]
    show b.val * 512 + q.val = (row.val - 4096) * 128 + lane.val
    omega)

/-! ## A core's shared table and the gather's output -/

theorem shTab_apply_lo (tab : FVec F S20480x128 .f32) (c : Fin 2) (x : Fin 12288) (lane : Fin 128) (h : x.val < 4096) :
    shTab tab c (ix2 x lane) = tab (ix2 ⟨x.val, by omega⟩ lane) := by
  show (if h : x.val < 4096 then tab (ix2 ⟨x.val, _⟩ ⟨lane.val, _⟩) else _) = _
  rw [dif_pos h]

theorem shTab_apply_hi (tab : FVec F S20480x128 .f32) (c : Fin 2) (x : Fin 12288) (lane : Fin 128) (h : 4096 ≤ x.val) :
    shTab tab c (ix2 x lane) = tab (ix2 ⟨x.val + 8192 * c.val, by have := x.isLt; have := c.isLt; omega⟩ lane) := by
  show (if h : x.val < 4096 then _ else tab (ix2 ⟨x.val + 8192 * c.val, _⟩ ⟨lane.val, _⟩)) = _
  rw [dif_neg (by omega)]

/-- The gather's output at a row, with the row's parts named. -/
theorem scOut_apply (tab : FVec F S20480x128 .f32) (idx : IVec S32x160x128 32) (R : Fin 655360) (lane : Fin 128) :
    scOut tab idx (ix2 R lane)
      = shTab tab ⟨R.val % 32768 / 1024 / 16, by omega⟩
          (ix2 ⟨(idx (ix3 ⟨R.val % 32768 / 1024, by omega⟩
              ⟨(R.val / 32768 * 1024 + R.val % 1024) / 128, by have := R.isLt; omega⟩
              ⟨(R.val / 32768 * 1024 + R.val % 1024) % 128, by omega⟩)).toNat % 12288, Nat.mod_lt _ (by decide)⟩ lane) := rfl

end Cert.KernelIdeal.KFun

end
-- ==== Proof.KValProj.lean ====
/-
  The projection kernel's payload at the extended reals, read at an index: a matrix product into a zero accumulator
  is the plain sum of products over the contracted coordinate, and the bias, carried through a one-row view and a
  broadcast over the rows, is read at the feature.
-/
import proofs.«204824_g46875273068696_cont_8to1_c_371_32_alg».proof.Proof.KFun
import Idealize.ShloMosaic.Lib.Pipeline.Value
import Idealize.ShloMosaic.PureOps.Ideal.Laws

noncomputable section

namespace Cert.KernelIdeal.KFun

open Idealize.ShloMosaic Idealize.ShloMosaic.ValueIdx
open Cert.KernelIdeal Cert.KernelIdeal.Facts₀
open scoped BigOperators

/-- The projection at the extended reals, read at (row v, feature o): the inner product of row v of the
    embedding table with row o of the weight, plus the bias at o. -/
theorem projF_apply (emb : FVec Ideal S1000x512 .f32) (W : FVec Ideal S512x512 .f32) (b : FVec Ideal S512 .f32)
    (v : Fin 1000) (o : Fin 512) :
    projF (F := Ideal) emb W b (ix2 v o) = (∑ k : Fin 512, emb (ix2 v k) * W (ix2 o k)) + b (ix1 o) := by
  have h : projF (F := Ideal) emb W b (ix2 v o)
      = FloatOps.matmul dot_S1000x512_S512x512_S1000x512_1_1_0_0_n_n none emb W
          (constant (F := Ideal) S1000x512 .f32 0x00000000#32) (ix2 v o)
        + broadcastTo S1000x512 (shapeCast S1x512 (shapeCast S1x512 b shapeCasts_S512_S1x512)
            Gen.shapeCasts_S1x512_S1x512) Gen.broadcasts_S1x512_S1000x512 (ix2 v o) := rfl
  rw [h, Ideal.matmul_constant_zero_apply,
    ← Equiv.sum_comp (contrEquiv1 dot_S1000x512_S512x512_S1000x512_1_1_0_0_n_n 512 rfl rfl).symm]
  congr 1
  · refine Finset.sum_congr rfl fun k _ => ?_
    have ck := contrEquiv1_symm_val dot_S1000x512_S512x512_S1000x512_1_1_0_0_n_n 512 rfl rfl k
    have l2 : dot_S1000x512_S512x512_S1000x512_1_1_0_0_n_n.lhsIdx (ix2 v o)
        ((contrEquiv1 _ 512 rfl rfl).symm k) = ix2 v k := by
      funext ax; apply Fin.ext
      match ax with
      | ⟨0, _⟩ => simp [DotDims.lhsIdx, dot_S1000x512_S512x512_S1000x512_1_1_0_0_n_n]; rfl
      | ⟨1, _⟩ => simp [DotDims.lhsIdx, dot_S1000x512_S512x512_S1000x512_1_1_0_0_n_n]; exact ck
    have r2 : dot_S1000x512_S512x512_S1000x512_1_1_0_0_n_n.rhsIdx (ix2 v o)
        ((contrEquiv1 _ 512 rfl rfl).symm k) = ix2 o k := by
      funext ax; apply Fin.ext
      match ax with
      | ⟨0, _⟩ => simp [DotDims.rhsIdx, dot_S1000x512_S512x512_S1000x512_1_1_0_0_n_n]; rfl
      | ⟨1, _⟩ => simp [DotDims.rhsIdx, dot_S1000x512_S512x512_S1000x512_1_1_0_0_n_n]; exact ck
    rw [l2, r2]
  · refine (broadcastTo_apply _ _ _ (ix2 (0 : Fin 1) o)
      (fun a => match a with | ⟨0, _⟩ => rfl | ⟨1, _⟩ => rfl)).trans ?_
    rw [shapeCast_self]
    exact shapeCast_apply _ _ _ (ix1 o) (by
      rw [Shape.rowMajor_val_one, Shape.rowMajor_val_two]
      show o.val = 0 * 512 + o.val
      omega)

end Cert.KernelIdeal.KFun

end
-- ==== Proof.Spec.lean ====
/-
  The function both programs compute, index by index, on the extended reals.

  A token `t = cap[b, l]` selects a row of the embedding table; that row is projected by the linear layer,
  `proj t o = (∑ k, emb[t, k] · W[o, k]) + bias[o]`, and fills the first 512 positions of the output row
  `(b, l)`; the last 512 positions hold the image feature `img[b, ·]`, the same for every `l`.
-/
import Idealize.ShloMosaic.PureOps.Ideal
import Idealize.ShloMosaic.Lib.ValueIdx

noncomputable section

namespace Cert.Spec

open Idealize.ShloMosaic Idealize.ShloMosaic.ValueIdx
open scoped BigOperators

abbrev S4096x20 : Shape := ⟨2, ![4096, 20]⟩
abbrev S4096x512 : Shape := ⟨2, ![4096, 512]⟩
abbrev S1000x512 : Shape := ⟨2, ![1000, 512]⟩
abbrev S512x512 : Shape := ⟨2, ![512, 512]⟩
abbrev S512 : Shape := ⟨1, ![512]⟩
abbrev S4096x20x1024 : Shape := ⟨3, ![4096, 20, 1024]⟩

/-- Row `v` of the embedding table through the linear layer, at output feature `o`:
    the inner product of the row with row `o` of the weight, plus the bias. -/
def proj (emb : FVec Ideal S1000x512 .f32) (W : FVec Ideal S512x512 .f32) (bias : FVec Ideal S512 .f32)
    (v : Fin 1000) (o : Fin 512) : EReal :=
  (∑ k : Fin 512, emb (ix2 v k) * W (ix2 o k)) + bias (ix1 o)

/-- The token at caption position `(b, l)`, as a row number of the table (the word read unsigned, reduced
    modulo the table's height; under the precondition the word is already below 1000). -/
def tok (cap : IVec S4096x20 32) (b : Fin 4096) (l : Fin 20) : Fin 1000 :=
  ⟨(cap (ix2 b l)).toNat % 1000, Nat.mod_lt _ (by decide)⟩

/-- The result at `(b, l, o)`: the projected token embedding for `o < 512`, the image feature after. -/
def entry (cap : IVec S4096x20 32) (img : FVec Ideal S4096x512 .f32) (emb : FVec Ideal S1000x512 .f32)
    (W : FVec Ideal S512x512 .f32) (bias : FVec Ideal S512 .f32) (b : Fin 4096) (l : Fin 20) (o : Fin 1024) : EReal :=
  if h : o.val < 512 then proj emb W bias (tok cap b l) ⟨o.val, h⟩
  else img (ix2 b ⟨o.val - 512, by omega⟩)

/-- The whole result array. -/
def G (cap : IVec S4096x20 32) (img : FVec Ideal S4096x512 .f32) (emb : FVec Ideal S1000x512 .f32)
    (W : FVec Ideal S512x512 .f32) (bias : FVec Ideal S512 .f32) : FVec Ideal S4096x20x1024 .f32 :=
  fun i => entry cap img emb W bias (i 0) (i 1) (i 2)

theorem G_apply (cap : IVec S4096x20 32) (img : FVec Ideal S4096x512 .f32) (emb : FVec Ideal S1000x512 .f32)
    (W : FVec Ideal S512x512 .f32) (bias : FVec Ideal S512 .f32) (b : Fin 4096) (l : Fin 20) (o : Fin 1024) :
    G cap img emb W bias (ix3 b l o) = entry cap img emb W bias b l o := rfl

end Cert.Spec

end
-- ==== Proof.KValJoin.lean ====
/-
  The whole program's value is the specification's. Output element (batch b, position l, feature q) is read by the
  final re-layout from gathered row R = l·32768 + (b/8)·64 + (q/128)·8 + b%8 at lane q%128. That row is written by
  worker b/128 on core b/2048 from entry l·1024 + (b/8 mod 16)·64 + (q/128)·8 + b%8 of its index list. For q < 512 the
  entry is token·4 + q/128, a row of the projected part of the core's table, which holds features
  (q/128)·128 … +127 of the token's projected row; for q ≥ 512 it is 4096 + (b mod 2048)·4 + (q/128 − 4), which
  on core b/2048 is row 4096 + b·4 + (q/128 − 4) of the whole table: features (q − 512)/128·128 … of image row b.
-/
import proofs.«204824_g46875273068696_cont_8to1_c_371_32_alg».proof.Proof.KFun
import proofs.«204824_g46875273068696_cont_8to1_c_371_32_alg».proof.Proof.KValIdx
import proofs.«204824_g46875273068696_cont_8to1_c_371_32_alg».proof.Proof.KValTail
import proofs.«204824_g46875273068696_cont_8to1_c_371_32_alg».proof.Proof.KValProj
import proofs.«204824_g46875273068696_cont_8to1_c_371_32_alg».proof.Proof.Spec

noncomputable section

namespace Cert.KernelIdeal.KFun

open Idealize.ShloMosaic Idealize.ShloMosaic.ValueIdx
open Cert.KernelIdeal Cert.KernelIdeal.Facts₀
open scoped BigOperators

/-! ## Arithmetic of the gathered row's number

Output element (batch b, position l, piece p) is gathered row R = l·32768 + (b/8)·64 + p·8 + b%8. -/

theorem row_hi (l b p : ℕ) (hb : b < 4096) (hp : p < 8) :
    (l * 32768 + b / 8 * 64 + p * 8 + b % 8) / 32768 = l := by omega

theorem row_lo (l b p : ℕ) (hb : b < 4096) (hp : p < 8) :
    (l * 32768 + b / 8 * 64 + p * 8 + b % 8) % 32768 = b / 8 * 64 + p * 8 + b % 8 := by omega

/-- The worker that writes the row is b / 128 … -/
theorem row_worker (l b p : ℕ) (hb : b < 4096) (hp : p < 8) :
    (l * 32768 + b / 8 * 64 + p * 8 + b % 8) % 32768 / 1024 = b / 128 := by
  rw [row_lo l b p hb hp]; omega

/-- … on core b / 2048 … -/
theorem row_core (l b p : ℕ) (hb : b < 4096) (hp : p < 8) :
    (l * 32768 + b / 8 * 64 + p * 8 + b % 8) % 32768 / 1024 / 16 = b / 2048 := by
  rw [row_worker l b p hb hp]; omega

/-- … and the row's position in that worker's index list is l·1024 + (b/8 mod 16)·64 + p·8 + b%8. -/
theorem row_flat (l b p : ℕ) (hb : b < 4096) (hp : p < 8) :
    (l * 32768 + b / 8 * 64 + p * 8 + b % 8) / 32768 * 1024 + (l * 32768 + b / 8 * 64 + p * 8 + b % 8) % 1024
      = l * 1024 + b / 8 % 16 * 64 + p * 8 + b % 8 := by
  rw [row_hi l b p hb hp]; omega

/-- A batch row's digits in base (16, 16, 8) below its core: the row within the core's half of the image rows. -/
theorem local_row (b : ℕ) : b / 128 % 16 * 128 + b / 8 % 16 * 8 + b % 8 = b % 2048 := by
  have h1 : b / 8 / 16 = b / 128 := Nat.div_div_eq_div_mul b 8 16
  have h2 : b / 128 / 16 = b / 2048 := Nat.div_div_eq_div_mul b 128 16
  omega

theorem flat_bound (l b p : ℕ) (hl : l < 20) (hp : p < 8) :
    (l * 1024 + b / 8 % 16 * 64 + p * 8 + b % 8) / 128 < 160 := by omega

theorem div_mul_add_mod_128 (n : ℕ) : n / 128 * 128 + n % 128 = n := by omega

/-- The row of the whole table behind a row of a core's half of the image rows. -/
theorem img_row (b p : ℕ) : 4096 + b % 2048 * 4 + p + 8192 * (b / 2048) = 4096 + b * 4 + p := by omega

/-! ## The index array at the entry the gather reads for output element (batch, position, piece) -/

/-- Pieces 0..3: the entry is the token of (batch, position) times 4 plus the piece. -/
theorem idxF_word (cap : IVec S4096x20 32) (w : Fin 32) (r : Fin 160) (c : Fin 128) (bt : Fin 4096) (l : Fin 20)
    (p : Fin 4) (hw : w.val = bt.val / 128)
    (hf : r.val * 128 + c.val = l.val * 1024 + bt.val / 8 % 16 * 64 + p.val * 8 + bt.val % 8) :
    idxF cap (ix3 w r c) = cap (ix2 bt l) * 4#32 + BitVec.ofNat 32 p.val := by
  have hb := bt.isLt
  have hp := p.isLt
  rw [idxF_apply cap w r c l ⟨bt.val / 8 % 16, by omega⟩ ⟨p.val, by omega⟩ ⟨bt.val % 8, by omega⟩
      (by show r.val * 128 + c.val = ((l.val * 16 + bt.val / 8 % 16) * 8 + p.val) * 8 + bt.val % 8; omega),
    idxFullF_apply_lo _ _ _ _ _ _ hp, wordIdxF_apply]
  have e : ∀ (h : w.val * 128 + bt.val / 8 % 16 * 8 + bt.val % 8 < 4096),
      (⟨w.val * 128 + bt.val / 8 % 16 * 8 + bt.val % 8, h⟩ : Fin 4096) = bt :=
    fun h => Fin.ext (by show w.val * 128 + bt.val / 8 % 16 * 8 + bt.val % 8 = bt.val; omega)
  exact congrArg (fun x => cap (ix2 x l) * 4#32 + BitVec.ofNat 32 p.val) (e _)

/-- Pieces 4..7: the entry is 4096 plus the batch's row within its core's half times 4 plus the piece less 4. -/
theorem idxF_img (cap : IVec S4096x20 32) (w : Fin 32) (r : Fin 160) (c : Fin 128) (bt : Fin 4096) (l : Fin 20)
    (p : Fin 4) (hw : w.val = bt.val / 128)
    (hf : r.val * 128 + c.val = l.val * 1024 + bt.val / 8 % 16 * 64 + (p.val + 4) * 8 + bt.val % 8) :
    idxF cap (ix3 w r c) = BitVec.ofNat 32 (4096 + bt.val % 2048 * 4 + p.val) := by
  have hb := bt.isLt
  have hp := p.isLt
  rw [idxF_apply cap w r c l ⟨bt.val / 8 % 16, by omega⟩ ⟨p.val + 4, by omega⟩ ⟨bt.val % 8, by omega⟩
      (by show r.val * 128 + c.val = ((l.val * 16 + bt.val / 8 % 16) * 8 + (p.val + 4)) * 8 + bt.val % 8; omega),
    idxFullF_apply_hi _ _ _ _ _ _ (by show 4 ≤ p.val + 4; omega), imgIdxF_apply]
  congr 1
  show 4096 + (w.val % 16 * 128 + bt.val / 8 % 16 * 8 + bt.val % 8) * 4 + (p.val + 4 - 4)
    = 4096 + bt.val % 2048 * 4 + p.val
  rw [hw, local_row, Nat.add_sub_cancel]

section
variable {F : FTy → Type} [FloatOps F]

/-! ## The gather's output row, with its parts given by equations -/

theorem scOut_apply_of_eq (tab : FVec F S20480x128 .f32) (idx : IVec S32x160x128 32) (R : Fin 655360) (lane : Fin 128)
    (c : Fin 2) (w : Fin 32) (r : Fin 160) (cc : Fin 128) (x : Fin 12288)
    (hc : c.val = R.val % 32768 / 1024 / 16) (hw : w.val = R.val % 32768 / 1024)
    (hr : r.val = (R.val / 32768 * 1024 + R.val % 1024) / 128)
    (hcc : cc.val = (R.val / 32768 * 1024 + R.val % 1024) % 128)
    (hx : x.val = (idx (ix3 w r cc)).toNat % 12288) :
    scOut tab idx (ix2 R lane) = shTab tab c (ix2 x lane) := by
  have hR := R.isLt
  obtain rfl : c = ⟨R.val % 32768 / 1024 / 16, by clear hc hw hr hcc hx; omega⟩ := Fin.ext hc
  obtain rfl : w = ⟨R.val % 32768 / 1024, by clear hw hr hcc hx; omega⟩ := Fin.ext hw
  obtain rfl : r = ⟨(R.val / 32768 * 1024 + R.val % 1024) / 128, by clear hr hcc hx; omega⟩ := Fin.ext hr
  obtain rfl : cc = ⟨(R.val / 32768 * 1024 + R.val % 1024) % 128, by clear hcc hx; omega⟩ := Fin.ext hcc
  obtain rfl : x = ⟨_, Nat.mod_lt _ (by decide)⟩ := Fin.ext hx
  rfl

/-! ## What the gather leaves at the row of an output element -/

/-- A projected piece: feature q < 512 of (batch, position) is feature q of the token's projected row. -/
theorem gather_word (proj : FVec F S1000x512 .f32) (img : FVec F S4096x512 .f32) (cap : IVec S4096x20 32)
    (hcap : ∀ i, (cap i).toNat < 1000) (bt : Fin 4096) (l : Fin 20) (q : Fin 512) (R : Fin 655360) (lane : Fin 128)
    (hR : R.val = l.val * 32768 + bt.val / 8 * 64 + q.val / 128 * 8 + bt.val % 8) (hlane : lane.val = q.val % 128) :
    scOut (tabF proj img) (idxF cap) (ix2 R lane) = proj (ix2 (Cert.Spec.tok cap bt l) q) := by
  have hb := bt.isLt
  have hq := q.isLt
  have hl := l.isLt
  have htok := hcap (ix2 bt l)
  have hp4 : q.val / 128 < 4 := by omega
  have hp : q.val / 128 < 8 := by omega
  have bw : bt.val / 128 < 32 := by omega
  have bc : bt.val / 2048 < 2 := by omega
  have bx : (cap (ix2 bt l)).toNat * 4 + q.val / 128 < 12288 := by omega
  have bx' : (cap (ix2 bt l)).toNat * 4 + q.val / 128 < 4096 := by omega
  have r1 : bt.val / 128 = R.val % 32768 / 1024 := by rw [hR]; exact (row_worker _ _ _ hb hp).symm
  have r2 : bt.val / 2048 = R.val % 32768 / 1024 / 16 := by rw [hR]; exact (row_core _ _ _ hb hp).symm
  obtain ⟨fl, hfl⟩ : ∃ fl : ℕ, fl = R.val / 32768 * 1024 + R.val % 1024 := ⟨_, rfl⟩
  have r3 : fl = l.val * 1024 + bt.val / 8 % 16 * 64 + q.val / 128 * 8 + bt.val % 8 := by
    rw [hfl, hR]; exact row_flat _ _ _ hb hp
  have bf1 : fl / 128 < 160 := by rw [r3]; exact flat_bound _ _ _ hl hp
  have bf2 : fl % 128 < 128 := Nat.mod_lt _ (by decide)
  have hdm : fl / 128 * 128 + fl % 128 = fl := div_mul_add_mod_128 fl
  have hv := idxF_word cap ⟨bt.val / 128, bw⟩ ⟨fl / 128, bf1⟩ ⟨fl % 128, bf2⟩ bt l ⟨q.val / 128, hp4⟩ rfl
    (hdm.trans r3)
  have hx : (cap (ix2 bt l)).toNat * 4 + q.val / 128
      = (idxF cap (ix3 ⟨bt.val / 128, bw⟩ ⟨fl / 128, bf1⟩ ⟨fl % 128, bf2⟩)).toNat % 12288 := by
    rw [hv, wordIdx_toNat _ _ htok hp4]; exact (Nat.mod_eq_of_lt bx).symm
  refine (scOut_apply_of_eq _ _ R lane ⟨bt.val / 2048, bc⟩ ⟨bt.val / 128, bw⟩ ⟨fl / 128, bf1⟩ ⟨fl % 128, bf2⟩
    ⟨(cap (ix2 bt l)).toNat * 4 + q.val / 128, bx⟩ r2 r1 (congrArg (· / 128) hfl) (congrArg (· % 128) hfl) hx).trans ?_
  refine (shTab_apply_lo _ _ _ _ bx').trans ?_
  exact tabF_apply_proj proj img _ lane (Cert.Spec.tok cap bt l) q
    (by show (cap (ix2 bt l)).toNat * 4 + q.val / 128 = (cap (ix2 bt l)).toNat % 1000 * 4 + q.val / 128
        rw [Nat.mod_eq_of_lt htok]) hlane

/-- An image piece: feature 512 + q of (batch, position) is feature q of the batch's image row. -/
theorem gather_img (proj : FVec F S1000x512 .f32) (img : FVec F S4096x512 .f32) (cap : IVec S4096x20 32)
    (bt : Fin 4096) (l : Fin 20) (q : Fin 512) (R : Fin 655360) (lane : Fin 128)
    (hR : R.val = l.val * 32768 + bt.val / 8 * 64 + (q.val / 128 + 4) * 8 + bt.val % 8)
    (hlane : lane.val = q.val % 128) :
    scOut (tabF proj img) (idxF cap) (ix2 R lane) = img (ix2 bt q) := by
  have hb := bt.isLt
  have hq := q.isLt
  have hl := l.isLt
  have hp4 : q.val / 128 < 4 := by omega
  have hp : q.val / 128 + 4 < 8 := by omega
  have bw : bt.val / 128 < 32 := by omega
  have bc : bt.val / 2048 < 2 := by omega
  have bx : 4096 + bt.val % 2048 * 4 + q.val / 128 < 12288 := by omega
  have bx' : 4096 ≤ 4096 + bt.val % 2048 * 4 + q.val / 128 := by omega
  have r1 : bt.val / 128 = R.val % 32768 / 1024 := by rw [hR]; exact (row_worker _ _ _ hb hp).symm
  have r2 : bt.val / 2048 = R.val % 32768 / 1024 / 16 := by rw [hR]; exact (row_core _ _ _ hb hp).symm
  obtain ⟨fl, hfl⟩ : ∃ fl : ℕ, fl = R.val / 32768 * 1024 + R.val % 1024 := ⟨_, rfl⟩
  have r3 : fl = l.val * 1024 + bt.val / 8 % 16 * 64 + (q.val / 128 + 4) * 8 + bt.val % 8 := by
    rw [hfl, hR]; exact row_flat _ _ _ hb hp
  have bf1 : fl / 128 < 160 := by rw [r3]; exact flat_bound _ _ _ hl hp
  have bf2 : fl % 128 < 128 := Nat.mod_lt _ (by decide)
  have hdm : fl / 128 * 128 + fl % 128 = fl := div_mul_add_mod_128 fl
  have hv := idxF_img cap ⟨bt.val / 128, bw⟩ ⟨fl / 128, bf1⟩ ⟨fl % 128, bf2⟩ bt l ⟨q.val / 128, hp4⟩ rfl
    (hdm.trans r3)
  have hx : 4096 + bt.val % 2048 * 4 + q.val / 128
      = (idxF cap (ix3 ⟨bt.val / 128, bw⟩ ⟨fl / 128, bf1⟩ ⟨fl % 128, bf2⟩)).toNat % 12288 := by
    rw [hv, ofNat_toNat_small _ (by show 4096 + bt.val % 2048 * 4 + q.val / 128 < 4294967296; omega)]
    exact (Nat.mod_eq_of_lt bx).symm
  refine (scOut_apply_of_eq _ _ R lane ⟨bt.val / 2048, bc⟩ ⟨bt.val / 128, bw⟩ ⟨fl / 128, bf1⟩ ⟨fl % 128, bf2⟩
    ⟨4096 + bt.val % 2048 * 4 + q.val / 128, bx⟩ r2 r1 (congrArg (· / 128) hfl) (congrArg (· % 128) hfl) hx).trans ?_
  refine (shTab_apply_hi _ _ _ _ bx').trans ?_
  exact tabF_apply_img proj img _ lane bt q
    (img_row bt.val (q.val / 128)) hlane

end

/-! ## The whole program's value is the specification's -/

theorem KG_eq_G (cap : IVec S4096x20 32) (img : FVec Ideal S4096x512 .f32) (emb : FVec Ideal S1000x512 .f32)
    (W : FVec Ideal S512x512 .f32) (b : FVec Ideal S512 .f32) (hcap : ∀ i, (cap i).toNat < 1000) :
    KG (F := Ideal) cap img emb W b = Cert.Spec.G cap img emb W b := by
  funext i
  obtain ⟨bt, l, q, rfl⟩ : ∃ (bt : Fin 4096) (l : Fin 20) (q : Fin 1024), i = ix3 bt l q :=
    ⟨i 0, i 1, i 2, eq_ix3 i⟩
  have hb := bt.isLt
  have hl := l.isLt
  have hq := q.isLt
  have rR : l.val * 32768 + bt.val / 8 * 64 + q.val / 128 * 8 + bt.val % 8 < 655360 := by omega
  have rl : q.val % 128 < 128 := Nat.mod_lt _ (by decide)
  rw [Cert.Spec.G_apply]
  unfold KG
  refine (tailF_apply _ bt l q ⟨_, rR⟩ ⟨_, rl⟩ rfl rfl).trans ?_
  unfold Cert.Spec.entry
  by_cases h : q.val < 512
  · rw [dif_pos h]
    refine (gather_word (projF emb W b) img cap hcap bt l ⟨q.val, h⟩ _ _ rfl rfl).trans ?_
    exact projF_apply emb W b _ _
  · rw [dif_neg h]
    exact gather_img (projF emb W b) img cap bt l ⟨q.val - 512, by omega⟩ _ _
      (by show l.val * 32768 + bt.val / 8 * 64 + q.val / 128 * 8 + bt.val % 8
            = l.val * 32768 + bt.val / 8 * 64 + ((q.val - 512) / 128 + 4) * 8 + bt.val % 8
          have : q.val / 128 = (q.val - 512) / 128 + 4 := by omega
          rw [this])
      (by show q.val % 128 = (q.val - 512) % 128; omega)

end Cert.KernelIdeal.KFun

end
-- ==== Proof.RefRun.lean ====
/-
  The reference program's run. @main is a straight line of 32 host operations once its one call
  (the table look-up, which itself calls a select) is unfolded at the call site; every weakly fair execution
  terminates with the result buffer at the operations' composed term of the five argument arrays, and the
  arguments unchanged. The composed term is named stage by stage below: the wrapped index, the index as a
  column, the in-range mask, the looked-up rows, the projected rows, the repeated image feature, the result.
-/
import proofs.«204824_g46875273068696_cont_8to1_c_371_32_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The stages of the composed term -/

/-- The look-up index with negative words wrapped: `idx < 0 ? idx + 1000 : idx`. -/
def wrapped (cap : IVec S4096x20 32) : IVec S4096x20 32 :=
  select (cmpi .slt cap (broadcastInDim S4096x20 ![] bcast_S_S4096x20 (constantI S_ 32 0#32)))
    (addi cap (broadcastInDim S4096x20 ![] bcast_S_S4096x20 (constantI S_ 32 1000#32))) cap

/-- The wrapped index as a column of one-component start indices. -/
def column (cap : IVec S4096x20 32) : IVec S4096x20x1 32 :=
  broadcastInDim S4096x20x1 ![0, 1] bcast_S4096x20_S4096x20x1_0_1 (wrapped cap)

/-- The in-range mask: `0 ≤ idx ≤ 999`, reduced by `and` over the one component. -/
def mask (cap : IVec S4096x20 32) : IVec S4096x20 1 :=
  Host.reduce IntOp.andi
    (andi (cmpi .sge (column cap) (broadcastInDim S4096x20x1 ![] bcast_S_S4096x20x1 (constantI S_ 32 0#32)))
      (cmpi .sle (column cap)
        (broadcastInDim S4096x20x1 ![0, 1, 2] bcast_S1x1x1_S4096x20x1_0_1_2
          (broadcastInDim S1x1x1 ![2] bcast_S1_S1x1x1_2 (constantI S1 32 999#32)))))
    (constantI S_ 1 1#1) reducesTo_S4096x20x1_S4096x20_d2 h_S_

/-- The looked-up rows: the gathered row where the index is in range, the fill value elsewhere. -/
def taken (cap : IVec S4096x20 32) (emb : FVec F S1000x512 .f32) : FVec F S4096x20x512 .f32 :=
  select (broadcastInDim S4096x20x512 ![0, 1] bcast_S4096x20_S4096x20x512_0_1 (mask cap))
    (Host.gather gather_S1000x512_S4096x20x1_S4096x20x512_2_0_n_n_0_2_1512 emb (column cap))
    (broadcastInDim S4096x20x512 ![] bcast_S_S4096x20x512 (constant S_ .f32 0x7FC00000#32))

/-- The looked-up rows through the linear layer: times the transposed weight, plus the bias. -/
def word (cap : IVec S4096x20 32) (emb : FVec F S1000x512 .f32) (W : FVec F S512x512 .f32) (bias : FVec F S512 .f32) :
    FVec F S4096x20x512 .f32 :=
  addf
    (Host.dotGeneral dot_S4096x20x512_S512x512_S4096x20x512_2_0_01_1_n_n none (taken cap emb)
      (transpose S512x512 [1, 0] W transposes_S512x512_S512x512_1_0))
    (broadcastInDim S4096x20x512 ![0, 1, 2] bcast_S1x1x512_S4096x20x512_0_1_2
      (broadcastInDim S1x1x512 ![2] bcast_S512_S1x1x512_2 bias))

/-- The image feature repeated along the caption axis. -/
def imgRep (img : FVec F S4096x512 .f32) : FVec F S4096x20x512 .f32 :=
  broadcastInDim S4096x20x512 ![0, 1, 2] bcast_S4096x1x512_S4096x20x512_0_1_2
    (broadcastInDim S4096x1x512 ![0, 2] bcast_S4096x512_S4096x1x512_0_2 img)

/-- The result: the projected rows and the repeated image feature side by side on the last axis. -/
def out (cap : IVec S4096x20 32) (img : FVec F S4096x512 .f32) (emb : FVec F S1000x512 .f32) (W : FVec F S512x512 .f32)
    (bias : FVec F S512 .f32) : FVec F S4096x20x1024 .f32 :=
  concatenate S4096x20x1024 2 [⟨S4096x20x512, word cap emb W bias⟩, ⟨S4096x20x512, imgRep img⟩]
    concatenates_S4096x20x512_S4096x20x512_S4096x20x1024_d2

/-! ## The operations -/

/-- @main's 32 operations in order, the look-up's 22 and its select's one listed at the call site over the
    call's own buffers. -/
abbrev ops : List (HloOp τ sig (Elt F)) :=
  [ TRef.nullary main_call0.c (constantI S_ 32 0#32),
    TRef.unary main_call0.c main_call0.v0 (broadcastInDim S4096x20 ![] bcast_S_S4096x20),
    TRef.binary (.of main_arg0) main_call0.v0 main_call0.v1 (cmpi .slt),
    TRef.nullary main_call0.c_0 (constantI S_ 32 1000#32),
    TRef.unary main_call0.c_0 main_call0.v2 (broadcastInDim S4096x20 ![] bcast_S_S4096x20),
    TRef.binary (.of main_arg0) main_call0.v2 main_call0.v3 addi,
    TRef.ternary main_call0.v1 main_call0.v3 (.of main_arg0) main_call0.call0.v0 select,
    TRef.unary main_call0.call0.v0 main_call0.v5 (broadcastInDim S4096x20x1 ![0, 1] bcast_S4096x20_S4096x20x1_0_1),
    TRef.nullary main_call0.c_1 (constantI S1 32 999#32),
    TRef.nullary main_call0.c_2 (constantI S_ 32 0#32),
    TRef.unary main_call0.c_2 main_call0.v6 (broadcastInDim S4096x20x1 ![] bcast_S_S4096x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x20x1 ![0, 1, 2] bcast_S1x1x1_S4096x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x20x1_S4096x20_d2 h_S_),
    TRef.binary (.of main_arg2) main_call0.v5 main_call0.v13 (fun x i => Host.gather gather_S1000x512_S4096x20x1_S4096x20x512_2_0_n_n_0_2_1512 x i),
    TRef.unary main_call0.v12 main_call0.v14 (broadcastInDim S4096x20x512 ![0, 1] bcast_S4096x20_S4096x20x512_0_1),
    TRef.nullary main_call0.cst (constant S_ .f32 0x7FC00000#32),
    TRef.unary main_call0.cst main_call0.v15 (broadcastInDim S4096x20x512 ![] bcast_S_S4096x20x512),
    TRef.ternary main_call0.v14 main_call0.v13 main_call0.v15 main_call0.v16 select,
    unary main_arg3 main_v1 ((transpose S512x512 [1, 0] · transposes_S512x512_S512x512_1_0) : (⟨S512x512, .f32⟩ : BufTy).Contents (Elt F) → (⟨S512x512, .f32⟩ : BufTy).Contents (Elt F)),
    binary main_v0 main_v1 main_v2 ((fun l r => Host.dotGeneral dot_S4096x20x512_S512x512_S4096x20x512_2_0_01_1_n_n none l r) : (⟨S4096x20x512, .f32⟩ : BufTy).Contents (Elt F) → (⟨S512x512, .f32⟩ : BufTy).Contents (Elt F) → (⟨S4096x20x512, .f32⟩ : BufTy).Contents (Elt F)),
    unary main_arg4 main_v3 (broadcastInDim S1x1x512 ![2] bcast_S512_S1x1x512_2 : (⟨S512, .f32⟩ : BufTy).Contents (Elt F) → (⟨S1x1x512, .f32⟩ : BufTy).Contents (Elt F)),
    unary main_v3 main_v4 (broadcastInDim S4096x20x512 ![0, 1, 2] bcast_S1x1x512_S4096x20x512_0_1_2 : (⟨S1x1x512, .f32⟩ : BufTy).Contents (Elt F) → (⟨S4096x20x512, .f32⟩ : BufTy).Contents (Elt F)),
    binary main_v2 main_v4 main_v5 (addf : (⟨S4096x20x512, .f32⟩ : BufTy).Contents (Elt F) → (⟨S4096x20x512, .f32⟩ : BufTy).Contents (Elt F) → (⟨S4096x20x512, .f32⟩ : BufTy).Contents (Elt F)),
    unary main_arg1 main_v6 (broadcastInDim S4096x1x512 ![0, 2] bcast_S4096x512_S4096x1x512_0_2 : (⟨S4096x512, .f32⟩ : BufTy).Contents (Elt F) → (⟨S4096x1x512, .f32⟩ : BufTy).Contents (Elt F)),
    unary main_v6 main_v7 (broadcastInDim S4096x20x512 ![0, 1, 2] bcast_S4096x1x512_S4096x20x512_0_1_2 : (⟨S4096x1x512, .f32⟩ : BufTy).Contents (Elt F) → (⟨S4096x20x512, .f32⟩ : BufTy).Contents (Elt F)),
    binary main_v5 main_v7 main_v8 ((fun a b => concatenate S4096x20x1024 2 [⟨S4096x20x512, a⟩, ⟨S4096x20x512, b⟩] concatenates_S4096x20x512_S4096x20x512_S4096x20x1024_d2) : (⟨S4096x20x512, .f32⟩ : BufTy).Contents (Elt F) → (⟨S4096x20x512, .f32⟩ : BufTy).Contents (Elt F) → (⟨S4096x20x1024, .f32⟩ : BufTy).Contents (Elt F)) ]

set_option maxRecDepth 4096 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., unary_bufs_sub .., binary_bufs_sub .., unary_bufs_sub ..,
    unary_bufs_sub .., binary_bufs_sub ..⟩

/-- Every weakly fair execution of @main terminates with every buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  The reference's result buffer, and its arguments, after the run: the fold of the 32 operations at the result
  buffer is the composed term `out` of the argument arrays; at an argument buffer it is the argument, no
  operation writing there.
-/
import proofs.«204824_g46875273068696_cont_8to1_c_371_32_alg».proof.Proof.RefRun

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

attribute [local irreducible] Host.reduce Host.gather concatenate transpose broadcastInDim in
set_option maxRecDepth 8192 in
/-- The fold at the result buffer is `out` of the arguments: each operation's result decides whether the buffer
    read is the one it writes, and the typed references' transports are the identity at literal references. The
    shape operations stay folded meanwhile: the equation never looks inside them. -/
theorem out_eq (V : Valuation τ sig (Elt F)) :
    after ops V (main_v8 : DevRef τ sig)
      = out (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

/-- Every weakly fair execution of @main terminates with the result buffer at `out` of the arguments' launch
    contents, and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v8).trans (out_eq _), (h c main_arg0).trans (arg0_eq _),
      (h c main_arg1).trans (arg1_eq _), (h c main_arg2).trans (arg2_eq _), (h c main_arg3).trans (arg3_eq _),
      (h c main_arg4).trans (arg4_eq _)⟩)
    (run_fold m ρ)

end Cert.ReferenceIdeal.RefRun

end
-- ==== Proof.RefRead.lean ====
/-
  The reference's composed term read index by index, at the extended reals. Each stage of `out` (the wrapped
  index, the index column, the in-range mask, the looked-up rows, the projection, the repeated image feature,
  the concatenation) is read at an index given by its coordinates; under the hypothesis that every caption
  word is below 1000 the wrap does nothing, the mask is all ones, and the look-up is the plain row gather.
-/
import proofs.«204824_g46875273068696_cont_8to1_c_371_32_alg».proof.Proof.RefRun
import proofs.«204824_g46875273068696_cont_8to1_c_371_32_alg».proof.Proof.Spec
import Idealize.ShloMosaic.Lib.ValueIdx
import Idealize.ShloMosaic.Lib.ValueLayout
import Idealize.ShloMosaic.Lib.ReduceAll
import Idealize.ShloMosaic.PureOps.Ideal.Laws

set_option maxRecDepth 16384

noncomputable section

namespace Cert.ReferenceIdeal.RefRead

open Cert.ReferenceIdeal Cert.ReferenceIdeal.RefRun Idealize.ShloMosaic Idealize.ShloMosaic.ValueIdx
open scoped BigOperators

variable [Facts]
open Facts₀ Facts

local notation "gd" => gather_S1000x512_S4096x20x1_S4096x20x512_2_0_n_n_0_2_1512
local notation "dd" => dot_S4096x20x512_S512x512_S4096x20x512_2_0_01_1_n_n

/-! ## Words -/

/-- A word below 1000 reads the same signed and unsigned. -/
theorem toInt_of_lt (w : BitVec 32) (h : w.toNat < 1000) : w.toInt = w.toNat :=
  BitVec.toInt_eq_toNat_of_lt (by omega)

/-- A word below 1000 is not negative … -/
theorem slt_zero (w : BitVec 32) (h : w.toNat < 1000) : IntOp.cmpi .slt w 0#32 = 0#1 :=
  eq_zero_of_ne_one fun h1 => by
    rw [IntOp.cmpi_slt, toInt_of_lt w h, show (0#32 : BitVec 32).toInt = 0 from by decide] at h1
    omega
/-- … it is at least 0 … -/
theorem sge_zero (w : BitVec 32) (h : w.toNat < 1000) : IntOp.cmpi .sge w 0#32 = 1#1 := by
  rw [IntOp.cmpi_sge, toInt_of_lt w h, show (0#32 : BitVec 32).toInt = 0 from by decide]; omega
/-- … and at most 999, in the signed order. -/
theorem sle_999 (w : BitVec 32) (h : w.toNat < 1000) : IntOp.cmpi .sle w 999#32 = 1#1 := by
  rw [IntOp.cmpi_sle, toInt_of_lt w h, show (999#32 : BitVec 32).toInt = 999 from by decide]; omega

/-- A left fold by `and` from 1 over ones is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-! ## The index stages -/

/-- On a word below 1000 the wrap does nothing. -/
theorem wrapped_apply (cap : IVec S4096x20 32) (i : S4096x20.Idx) (h : (cap i).toNat < 1000) : wrapped cap i = cap i := by
  show Scalar.select (IntOp.cmpi .slt (cap i) 0#32) (IntOp.addi (cap i) 1000#32) (cap i) = cap i
  rw [slt_zero _ h, select_zero]

/-- The index column at `(b, l, 0)` is the wrapped index at `(b, l)`. -/
theorem column_apply (cap : IVec S4096x20 32) (b : Fin 4096) (l : Fin 20) (z : Fin 1) :
    column cap (ix3 b l z) = wrapped cap (ix2 b l) := by
  unfold column
  exact broadcastInDim_apply _ _ _ _ (ix2 b l) fun a => match a with | ⟨0, _⟩ => rfl | ⟨1, _⟩ => rfl

/-- With every word below 1000 the in-range mask is all ones. -/
theorem mask_apply (cap : IVec S4096x20 32) (hc : ∀ i, (cap i).toNat < 1000) (j : S4096x20.Idx) : mask cap j = 1#1 := by
  unfold mask
  rw [Host.reduce_eq_foldl]
  refine foldl_andi_one _ (fun i => ?_) _
  obtain ⟨b, l, z, rfl⟩ : ∃ b l z, i = ix3 b l z := ⟨_, _, _, eq_ix3 i⟩
  show IntOp.andi (IntOp.cmpi .sge (column cap (ix3 b l z)) 0#32) (IntOp.cmpi .sle (column cap (ix3 b l z)) 999#32) = 1#1
  rw [column_apply, wrapped_apply _ _ (hc _), sge_zero _ (hc _), sle_999 _ (hc _)]
  decide

/-! ## The gather -/

/-- The gather read at `(b, l, k)`: the table at the row the start index `idx[b, l, 0]` names, read signed and
    clamped into the table, and column `k`. -/
theorem gather_apply {α : Type} (x : S1000x512.Idx → α) (idx : IVec S4096x20x1 32) (b : Fin 4096) (l : Fin 20) (k : Fin 512) :
    Host.gather gd x idx (ix3 b l k)
      = x (ix2 ⟨min (idx (ix3 b l (0 : Fin 1))).toInt.toNat 999, by omega⟩ k) := by
  unfold Host.gather
  congr 1
  funext a
  refine Fin.ext ?_
  match a with
  | ⟨0, _⟩ =>
    show GatherDims.start gd (ix3 b l k) idx 0 + GatherDims.batchCoord gd (ix3 b l k) 0 + GatherDims.offCoord gd (ix3 b l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd (ix3 b l k) ⟨List.idxOf (0 : Fin 2) (GatherDims.startIndexMap gd),
        List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    rfl
  | ⟨1, _⟩ =>
    show GatherDims.start gd (ix3 b l k) idx 1 + GatherDims.batchCoord gd (ix3 b l k) 1 + GatherDims.offCoord gd (ix3 b l k) 1 = _
    rw [GatherDims.batchCoord_eq_zero _ _ _ List.not_mem_nil, Nat.add_zero]
    unfold GatherDims.start
    rw [dif_neg (show (1 : Fin 2) ∉ (GatherDims.startIndexMap gd) from (by decide : (1 : Fin 2) ∉ ([0] : List (Fin 2)))), Nat.zero_add]
    unfold GatherDims.offCoord
    rw [dif_pos ((GatherDims.mem_sKept _ _).mpr ⟨(by decide : (1 : Fin 2) ∉ ([0] : List (Fin 2))), List.not_mem_nil⟩)]
    rfl

/-- With every word below 1000 the looked-up rows are the plain row gather: row `cap[b, l]` of the table. -/
theorem taken_apply (cap : IVec S4096x20 32) (emb : FVec Ideal S1000x512 .f32) (hc : ∀ i, (cap i).toNat < 1000)
    (b : Fin 4096) (l : Fin 20) (k : Fin 512) :
    taken cap emb (ix3 b l k) = emb (ix2 (Cert.Spec.tok cap b l) k) := by
  have hm : broadcastInDim S4096x20x512 ![0, 1] bcast_S4096x20_S4096x20x512_0_1 (mask cap) (ix3 b l k) = 1#1 := by
    rw [broadcastInDim_apply _ _ _ _ (ix2 b l) fun a => match a with | ⟨0, _⟩ => rfl | ⟨1, _⟩ => rfl]
    exact mask_apply cap hc _
  unfold taken
  rw [select_apply, hm, select_one, gather_apply]
  have h := hc (ix2 b l)
  have e : (cap (ix2 b l)).toInt.toNat = (cap (ix2 b l)).toNat := by rw [toInt_of_lt _ h]; rfl
  refine congrArg emb (congrArg (fun r : Fin 1000 => ix2 r k) (Fin.ext ?_))
  show min (column cap (ix3 b l (0 : Fin 1))).toInt.toNat 999 = (cap (ix2 b l)).toNat % 1000
  rw [column_apply, wrapped_apply _ _ h, e, Nat.mod_eq_of_lt h]
  omega

/-! ## The projection, the image feature, the concatenation -/

/-- The host product read at `(b, l, o)`: the sum over the contracted coordinate. -/
theorem dot_apply (A : FVec Ideal S4096x20x512 .f32) (B : FVec Ideal S512x512 .f32) (b : Fin 4096) (l : Fin 20) (o : Fin 512) :
    Host.dotGeneral dd none A B (ix3 b l o) = ∑ k : Fin 512, A (ix3 b l k) * B (ix2 k o) := by
  show FloatOps.dotGeneral _ none _ A B (ix3 b l o) = _
  rw [Ideal.dotGeneral_apply, ← Equiv.sum_comp (contrEquiv1 dd 512 rfl rfl).symm]
  refine Finset.sum_congr rfl fun c _ => ?_
  have c3 := contrEquiv1_symm_val dd 512 rfl rfl c
  have l3 : DotDims.lhsIdx dd (ix3 b l o) ((contrEquiv1 dd 512 rfl rfl).symm c) = ix3 b l c := by
    funext ax; apply Fin.ext
    match ax with
    | ⟨0, _⟩ => simp [DotDims.lhsIdx, dot_S4096x20x512_S512x512_S4096x20x512_2_0_01_1_n_n]; rfl
    | ⟨1, _⟩ => simp [DotDims.lhsIdx, dot_S4096x20x512_S512x512_S4096x20x512_2_0_01_1_n_n]; rfl
    | ⟨2, _⟩ => simp [DotDims.lhsIdx, dot_S4096x20x512_S512x512_S4096x20x512_2_0_01_1_n_n]; exact c3
  have r3 : DotDims.rhsIdx dd (ix3 b l o) ((contrEquiv1 dd 512 rfl rfl).symm c) = ix2 c o := by
    funext ax; apply Fin.ext
    match ax with
    | ⟨0, _⟩ => simp [DotDims.rhsIdx, dot_S4096x20x512_S512x512_S4096x20x512_2_0_01_1_n_n]; exact c3
    | ⟨1, _⟩ => simp [DotDims.rhsIdx, dot_S4096x20x512_S512x512_S4096x20x512_2_0_01_1_n_n]; rfl
  rw [l3, r3]

/-- The bias broadcast over the batch and caption axes reads the bias at the feature. -/
theorem bias_apply (bias : FVec Ideal S512 .f32) (b : Fin 4096) (l : Fin 20) (o : Fin 512) :
    broadcastInDim S4096x20x512 ![0, 1, 2] bcast_S1x1x512_S4096x20x512_0_1_2
      (broadcastInDim S1x1x512 ![2] bcast_S512_S1x1x512_2 bias) (ix3 b l o) = bias (ix1 o) := by
  rw [broadcastInDim_apply _ _ _ _ (ix3 (0 : Fin 1) (0 : Fin 1) o) fun a => match a with | ⟨0, _⟩ => rfl | ⟨1, _⟩ => rfl | ⟨2, _⟩ => rfl]
  exact broadcastInDim_apply _ _ _ _ (ix1 o) fun a => match a with | ⟨0, _⟩ => rfl

/-- The projected rows at `(b, l, o)`: the looked-up row against row `o` of the weight, plus the bias. -/
theorem word_apply (cap : IVec S4096x20 32) (emb : FVec Ideal S1000x512 .f32) (W : FVec Ideal S512x512 .f32)
    (bias : FVec Ideal S512 .f32) (b : Fin 4096) (l : Fin 20) (o : Fin 512) :
    word cap emb W bias (ix3 b l o) = (∑ k : Fin 512, taken cap emb (ix3 b l k) * W (ix2 o k)) + bias (ix1 o) := by
  unfold word
  rw [addf_apply, dot_apply, bias_apply]
  refine congrArg (fun s => s + bias (ix1 o)) (Finset.sum_congr rfl fun k _ => ?_)
  rw [transpose_ix2_apply]

/-- The repeated image feature at `(b, l, o)` is the feature at `(b, o)`. -/
theorem imgRep_apply (img : FVec Ideal S4096x512 .f32) (b : Fin 4096) (l : Fin 20) (o : Fin 512) :
    imgRep img (ix3 b l o) = img (ix2 b o) := by
  unfold imgRep
  rw [broadcastInDim_apply _ _ _ _ (ix3 b (0 : Fin 1) o) fun a => match a with | ⟨0, _⟩ => rfl | ⟨1, _⟩ => rfl | ⟨2, _⟩ => rfl]
  exact broadcastInDim_apply _ _ _ _ (ix2 b o) fun a => match a with | ⟨0, _⟩ => rfl | ⟨1, _⟩ => rfl

/-- The result below feature 512 is the projected rows … -/
theorem out_apply_left (cap : IVec S4096x20 32) (img : FVec Ideal S4096x512 .f32) (emb : FVec Ideal S1000x512 .f32)
    (W : FVec Ideal S512x512 .f32) (bias : FVec Ideal S512 .f32) (b : Fin 4096) (l : Fin 20) (o : Fin 1024) (h : o.val < 512) :
    out cap img emb W bias (ix3 b l o) = word cap emb W bias (ix3 b l (⟨o.val, h⟩ : Fin 512)) := by
  unfold out
  exact concatenate_pair_apply_left (t := S4096x20x1024) (s₁ := S4096x20x512) (s₂ := S4096x20x512) (2 : Fin 3) _ _ _
    (ix3 b l o) rfl (ix3 b l (⟨o.val, h⟩ : Fin 512))
    fun a => match a with | ⟨0, _⟩ => rfl | ⟨1, _⟩ => rfl | ⟨2, _⟩ => rfl

/-- … and from feature 512 on the repeated image feature. -/
theorem out_apply_right (cap : IVec S4096x20 32) (img : FVec Ideal S4096x512 .f32) (emb : FVec Ideal S1000x512 .f32)
    (W : FVec Ideal S512x512 .f32) (bias : FVec Ideal S512 .f32) (b : Fin 4096) (l : Fin 20) (o : Fin 1024) (h : ¬o.val < 512) :
    out cap img emb W bias (ix3 b l o) = imgRep img (ix3 b l (⟨o.val - 512, by omega⟩ : Fin 512)) := by
  unfold out
  refine concatenate_pair_apply_right (t := S4096x20x1024) (s₁ := S4096x20x512) (s₂ := S4096x20x512) (2 : Fin 3) _ _ _
    (ix3 b l o) rfl rfl (ix3 b l (⟨o.val - 512, by omega⟩ : Fin 512)) (fun a ha => ?_) ?_
  · match a with
    | ⟨0, _⟩ => rfl
    | ⟨1, _⟩ => rfl
    | ⟨2, _⟩ => exact absurd rfl ha
  · show (o.val - 512) + 512 = o.val
    omega

/-! ## The composed term is the specification -/

/-- With every caption word below 1000, the reference's composed term is the specified array. -/
theorem out_eq_G (cap : IVec S4096x20 32) (img : FVec Ideal S4096x512 .f32) (emb : FVec Ideal S1000x512 .f32)
    (W : FVec Ideal S512x512 .f32) (bias : FVec Ideal S512 .f32) (hc : ∀ i, (cap i).toNat < 1000) :
    out cap img emb W bias = Cert.Spec.G cap img emb W bias := by
  funext i
  obtain ⟨b, l, o, rfl⟩ : ∃ b l o, i = ix3 b l o := ⟨_, _, _, eq_ix3 i⟩
  rw [Cert.Spec.G_apply]
  show out cap img emb W bias (ix3 b l o)
    = if h : o.val < 512 then Cert.Spec.proj emb W bias (Cert.Spec.tok cap b l) ⟨o.val, h⟩
      else img (ix2 b ⟨o.val - 512, by omega⟩)
  by_cases h : o.val < 512
  · rw [dif_pos h, out_apply_left _ _ _ _ _ _ _ _ h, word_apply]
    show _ = (∑ k : Fin 512, emb (ix2 (Cert.Spec.tok cap b l) k) * W (ix2 (⟨o.val, h⟩ : Fin 512) k))
      + bias (ix1 (⟨o.val, h⟩ : Fin 512))
    refine congrArg (fun s => s + bias (ix1 (⟨o.val, h⟩ : Fin 512))) (Finset.sum_congr rfl fun k _ => ?_)
    rw [taken_apply _ _ hc]
  · rw [dif_neg h, out_apply_right _ _ _ _ _ _ _ _ h, imgRep_apply]

end Cert.ReferenceIdeal.RefRead

end
-- ==== Proof.PreRange.lean ====
/-
  The precondition's integer conjunct, read back. The printed predicate ends in
  `all(0 ≤ cap) ∧ all(cap ≤ 999)` (signed) as its last conjunct; from the predicate being all ones
  every caption word is a row number of the 1000-row table: below 1000 read unsigned. Stated for any
  float instance: the float conjuncts are never opened.
-/
import proofs.«204824_g46875273068696_cont_8to1_c_371_32_alg».proof.Pre_input_domain
import proofs.«204824_g46875273068696_cont_8to1_c_371_32_alg».proof.Proof.Gen.Pre_input_domain
import Idealize.ShloMosaic.Lib.ReduceAll

namespace Cert.PreRange

open Idealize.ShloMosaic Cert.Pre_input_domain

/-- The rank-0 shape has one index. -/
instance subsingleton_S_ : Subsingleton S_.Idx := ⟨fun a b => funext fun d => d.elim0⟩

/-- A 32-bit word in [0, 999] in the signed order is below 1000 read unsigned. -/
theorem toNat_lt_of_signed (w : BitVec 32) (h0 : IntOp.cmpi .sge w 0#32 = 1#1) (h1 : IntOp.cmpi .sle w 999#32 = 1#1) :
    w.toNat < 1000 := by
  rw [IntOp.cmpi_sge, show (0#32 : BitVec 32).toInt = 0 from by decide] at h0
  rw [IntOp.cmpi_sle, show (999#32 : BitVec 32).toInt = 999 from by decide] at h1
  have hc := BitVec.toInt_eq_toNat_cond w
  have hlt := w.isLt
  split at hc <;> omega

/-- Under the input-domain predicate every caption word is below 1000 (unsigned). -/
theorem cap_lt {F : FTy → Type} [FloatOps F] [Cert.Pre_input_domain.Facts]
    (a0 : IVec Cert.Pre_input_domain.S4096x20 32) (a1 : FVec F Cert.Pre_input_domain.S4096x512 .f32) (a2 : FVec F Cert.Pre_input_domain.S1000x512 .f32)
    (a3 : FVec F Cert.Pre_input_domain.S512x512 .f32) (a4 : FVec F Cert.Pre_input_domain.S512 .f32)
    (h : Cert.Pre_input_domain.fn (F := F) a0 a1 a2 a3 a4 = fun _ => 1#1) :
    ∀ i : Cert.Pre_input_domain.S4096x20.Idx, (a0 i).toNat < 1000 := by
  intro i
  have e := congrFun h (fun d => d.elim0)
  dsimp only [fn, fn_part1] at e
  -- the predicate's value is `(floats-finite ∧ bias-finite) ∧ all(0 ≤ cap ∧ cap ≤ 999)`: keep the last conjunct
  obtain ⟨-, e24⟩ := IntOp.andi_eq_one.1 e
  have ei := Host.reduce_andi_all _ _ _ _ _ e24 i
  obtain ⟨h0, h1⟩ := IntOp.andi_eq_one.1 ei
  exact toNat_lt_of_signed (a0 i) h0 h1

end Cert.PreRange
-- ==== Proof.RefValue.lean ====
/-
  The reference side of the claim: under the input-domain precondition every weakly fair execution of the
  reference's @main terminates with the result buffer at the specified array `Cert.Spec.G` of the five argument
  arrays, and the arguments unchanged. The run gives the operations' composed term; the precondition gives every
  caption word below 1000; under that the composed term is the specified array, index by index.
-/
import proofs.«204824_g46875273068696_cont_8to1_c_371_32_alg».proof.Defs
import proofs.«204824_g46875273068696_cont_8to1_c_371_32_alg».proof.Proof.RefOut
import proofs.«204824_g46875273068696_cont_8to1_c_371_32_alg».proof.Proof.RefRead
import proofs.«204824_g46875273068696_cont_8to1_c_371_32_alg».proof.Proof.PreRange

noncomputable section

namespace Cert.ReferenceIdeal.RefValue

open Idealize.ShloMosaic Idealize.SL.Sem

theorem run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v8)
          = Cert.Spec.G (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)) :=
  (θ_run _ _ _).mono (fun _ h c => by
      obtain ⟨h8, h0, h1, h2, h3, h4⟩ := h c
      refine ⟨h8.trans ?_, h0, h1, h2, h3, h4⟩
      exact Cert.ReferenceIdeal.RefRead.out_eq_G _ _ _ _ _ (Cert.PreRange.cap_lt _ _ _ _ _ (hpre c)))
    (Cert.ReferenceIdeal.RefRun.run_out m g)

end Cert.ReferenceIdeal.RefValue

end
-- ==== Proof.KClaimsIdeal.lean ====
/-
  The claims about the idealized kernel and the reference, assembled: each of the two runs and that both end with
  the specified array, from the kernel's run (its result the program's function of the arguments, which is the
  specified array where every caption word is below 1000), the reference's run, and the precondition's range fact.
  The vector subcores' body obligation is a hypothesis here.
-/
import proofs.«204824_g46875273068696_cont_8to1_c_371_32_alg».proof.Defs
import proofs.«204824_g46875273068696_cont_8to1_c_371_32_alg».proof.Proof.KRun
import proofs.«204824_g46875273068696_cont_8to1_c_371_32_alg».proof.Proof.KVecSplit
import proofs.«204824_g46875273068696_cont_8to1_c_371_32_alg».proof.Proof.KValIdx
import proofs.«204824_g46875273068696_cont_8to1_c_371_32_alg».proof.Proof.KValJoin
import proofs.«204824_g46875273068696_cont_8to1_c_371_32_alg».proof.Proof.RefValue
import proofs.«204824_g46875273068696_cont_8to1_c_371_32_alg».proof.Proof.PreRange
import proofs.«204824_g46875273068696_cont_8to1_c_371_32_alg».proof.Proof.Gen.ReferenceIdeal
import proofs.«204824_g46875273068696_cont_8to1_c_371_32_alg».proof.Proof.Gen.Pre_input_domain

noncomputable section

namespace Cert.Proof.KClaims

open Idealize.ShloMosaic Idealize.SL.Sem

/-- The vector subcores' body obligation of the idealized kernel, for every launch memory whose index lists stay inside
    the shared table. -/
abbrev TileHyp : Prop :=
  ∀ (m : (ℓ : Loc Cert.KernelIdeal.nD Cert.KernelIdeal.τ Cert.KernelIdeal.sig) → Buf (Elt Ideal) ℓ)
    (_ : ∀ (d : Dev Cert.KernelIdeal.nD) (x : Cert.KernelIdeal.S32x160x128.Idx), ((Cert.KernelIdeal.KProof.IDXm m d x : BitVec 32)).toNat < 12288),
    (Cert.KernelIdeal.KProof.K (F := Ideal)).TileObl (Cert.KernelIdeal.KProof.D (F := Ideal)) Cert.KernelIdeal.KProof.𝒱 (Cert.KernelIdeal.KProof.Pm m) Cert.KernelIdeal.KProof.v₀ 0

/-- Under the precondition every caption word is below 1000. -/
theorem cap_lt (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    ∀ i, (m ((c.tc : Thread Cert.KernelIdeal.nD Cert.KernelIdeal.τ).loc Cert.KernelIdeal.main_arg0) i).toNat < 1000 :=
  Cert.PreRange.cap_lt _ _ _ _ _ (hpre c)

/-- So every index of the index lists is inside the shared table. -/
theorem idx_lt (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m)
    (d : Dev Cert.KernelIdeal.nD) (x : Cert.KernelIdeal.S32x160x128.Idx) : ((Cert.KernelIdeal.KProof.IDXm m d x : BitVec 32)).toNat < 12288 :=
  Cert.KernelIdeal.KFun.idx_lt _ (cap_lt m hpre d) x

/-- The idealized kernel's run, under the precondition. -/
theorem run_K (htile : TileHyp) (m : (ℓ : Loc Cert.KernelIdeal.nD Cert.KernelIdeal.τ Cert.KernelIdeal.sig) → Buf (Elt Ideal) ℓ)
    (g : Dev Cert.KernelIdeal.nD → PrngReg) (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev Cert.KernelIdeal.nD,
        r.2.mem ((c.tc : Thread Cert.KernelIdeal.nD Cert.KernelIdeal.τ).loc Cert.KernelIdeal.main_v38)
          = Cert.KernelIdeal.KFun.KG (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  Cert.KernelIdeal.KProof.run_main (F := Ideal) m g (htile m (idx_lt m hpre)) (Cert.KernelIdeal.KProof.vecSplit m)

theorem frame_KernelIdeal (htile : TileHyp) :
    Cert.frame_KernelIdeal (hKernelIdeal := Cert.KernelIdeal.Gen.facts) (hPre_input_domain := Cert.Pre_input_domain.Gen.facts) :=
  fun m g hpre => (θ_run _ _ _).mono (fun _ h c => (h c).2) (run_K htile m g hpre)

theorem frame_ReferenceIdeal :
    Cert.frame_ReferenceIdeal (hReferenceIdeal := Cert.ReferenceIdeal.Gen.facts) (hPre_input_domain := Cert.Pre_input_domain.Gen.facts) :=
  fun m g hpre => (θ_run _ _ _).mono (fun _ h c => (h c).2) (Cert.ReferenceIdeal.RefValue.run m g hpre)

theorem algebraic_KernelIdeal_ReferenceIdeal (htile : TileHyp) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  have hpre' : Cert.Pre_ReferenceIdeal (hPre_input_domain := Cert.Pre_input_domain.Gen.facts) m' := fun c => by
    obtain ⟨h0, h1, h2, h3, h4⟩ := hagree c
    show Cert.Pre_input_domain.fn (F := Ideal) _ _ _ _ _ = _
    rw [h0, h1, h2, h3, h4]
    exact hpre c
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run _ _ _).mono (fun _ h c => ⟨(h c).1.trans (Cert.KernelIdeal.KFun.KG_eq_G _ _ _ _ _ (cap_lt m hpre c)), (h c).2⟩)
      (run_K htile m g hpre)
  · refine (θ_run _ _ _).mono (fun _ h c => ⟨(h c).1.trans ?_, (h c).2⟩) (Cert.ReferenceIdeal.RefValue.run m' g' hpre')
    obtain ⟨h0, h1, h2, h3, h4⟩ := hagree c
    rw [h0, h1, h2, h3, h4]

end Cert.Proof.KClaims

end
-- ==== Proof.Bits.KCommon.lean ====
/-
  The gather program as the SparseCore launch theorem sees it: the configuration, the ghost algebra (the
  handshakes' rounds, the subcore barrier's rounds, the TensorCore pipeline's rounds, the transfers' counters),
  the arrays the kernel moves rows between, and what the handshakes carry.

  Every vector subcore `(c, i)` — worker `w = 16·c + i` — stages its rows of the gather table into its
  SparseCore's shared table (rows `256·i …` of the projected part and rows `4096 + 512·i …` of the core's half of
  the image part), meets the other fifteen at the subcore barrier, and then copies, chunk by chunk (320 chunks
  of 64 rows), the rows its index list names out of the shared table into its rows of the output.
  At the barrier a subcore hands every subcore of its SparseCore a read share of the rows it staged, so that after
  the barrier each holds a read share of the whole table.
-/
import proofs.«204824_g46875273068696_cont_8to1_c_371_32_alg».proof.Proof.Gen.Kernel
import proofs.«204824_g46875273068696_cont_8to1_c_371_32_alg».proof.Proof.Gen.Kernel.Skeleton
import proofs.«204824_g46875273068696_cont_8to1_c_371_32_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UPp : Type := URounds (GSem nD τ sig) Unit
abbrev UU : Type := UH × (UB × (UPp × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UPp × Counters))).trans (Emb.inr : Emb (UB × (UPp × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library. -/
def EPp : Emb UPp (MT nD τ sig (HIx 1) (Elt F) ℕ UU ℕ) :=
  (((Emb.inl : Emb UPp (UPp × Counters)).trans (Emb.inr : Emb (UPp × Counters) (UB × (UPp × Counters)))).trans (Emb.inr : Emb (UB × (UPp × Counters)) UU)).trans
    (uEmb (nD := nD) (sig := sig) (Ix := HIx 1) (Val := Elt F) (Name := ℕ) (U := UU) (Lvl := ℕ)).toEmb
instance EPp_landsIn : (EPp : Emb UPp 𝕄).LandsIn (upEmb : UEmb _ 𝕄) := by unfold EPp; infer_instance

/-! ## The arrays -/

abbrev tabLoc (d : Dev nD) : Loc nD τ sig := (SparseCore.T d).loc main_v5
abbrev idxLoc (d : Dev nD) : Loc nD τ sig := (SparseCore.T d).loc main_v34
abbrev outLoc (d : Dev nD) : Loc nD τ sig := (SparseCore.T d).loc main_v35

local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

theorem nSub_eq : τ.nSub = 16 := rfl
theorem nSC_eq : τ.nSC = 2 := rfl

/-- SparseCore `c`'s shared table, as every subcore of it addresses it. -/
abbrev shRef (c : Fin τ.nSC) : DevRef τ sig := ⟨.shared, ⟨0, by decide⟩, c⟩
abbrev shLoc (d : Dev nD) (c : Fin τ.nSC) : Loc nD τ sig := (d, shRef c)

/-- The rows of the shared table subcore `i` stages: 256 rows of the projected part (A) and 512 rows of its SparseCore's
    half of the image part (B). -/
theorem shRectA_inb (i : Fin 16) : ∀ a, (![256 * i.val, 0] : Fin 2 → ℕ) a + S256x128.size a ≤ S12288x128.size a := by
  have hi := i.isLt
  intro a; match a with
  | 0 => show 256 * i.val + 256 ≤ 12288; omega
  | 1 => show 0 + 128 ≤ 128; omega
theorem shRectB_inb (i : Fin 16) : ∀ a, (![512 * i.val + 4096, 0] : Fin 2 → ℕ) a + S512x128.size a ≤ S12288x128.size a := by
  have hi := i.isLt
  intro a; match a with
  | 0 => show 512 * i.val + 4096 + 512 ≤ 12288; omega
  | 1 => show 0 + 128 ≤ 128; omega
abbrev shRectA (i : Fin 16) : Rect S12288x128 := Rect.unit (s := S12288x128) ![256 * i.val, 0] S256x128.size (shRectA_inb i)
abbrev shRectB (i : Fin 16) : Rect S12288x128 := Rect.unit (s := S12288x128) ![512 * i.val + 4096, 0] S512x128.size (shRectB_inb i)
abbrev shRowsA (i : Fin 16) : Finset S12288x128.Idx := ((shV).view.slice (shRectA i)).set
abbrev shRowsB (i : Fin 16) : Finset S12288x128.Idx := ((shV).view.slice (shRectB i)).set

/-- Worker `w`'s chunk `j` of the output starts at this row: caption position `j / 16`, then the worker, then the
    sixteenth `j % 16` of the worker's 1024 rows there. -/
def chunkRow (w : Fin 32) (j : Fin 320) : ℕ := (j.val / 16) * 32768 + w.val * 1024 + (j.val % 16) * 64
theorem chunkRow_inb (w : Fin 32) (j : Fin 320) : ∀ a, (![chunkRow w j, 0] : Fin 2 → ℕ) a + S64x128.size a ≤ S655360x128.size a := by
  have hw := w.isLt; have hj := j.isLt
  intro a; match a with
  | 0 => show chunkRow w j + 64 ≤ 655360; unfold chunkRow; omega
  | 1 => show 0 + 128 ≤ 128; omega
abbrev chunkRect (w : Fin 32) (j : Fin 320) : Rect S655360x128 := Rect.unit (s := S655360x128) ![chunkRow w j, 0] S64x128.size (chunkRow_inb w j)
abbrev chunkSet (w : Fin 32) (j : Fin 320) : Finset S655360x128.Idx := ((outV).view.slice (chunkRect w j)).set

/-- The worker number of subcore `i` of SparseCore `c`. -/
def wid (c : Fin τ.nSC) (i : Fin τ.nSub) : Fin 32 := ⟨16 * c.val + i.val, by have h1 : c.val < 2 := c.isLt; have h2 : i.val < 16 := i.isLt; omega⟩
/-- Subcore `i` as a number below sixteen. -/
abbrev i16 (i : Fin τ.nSub) : Fin 16 := Fin.cast nSub_eq i

/-! ## Read shares: a half per SparseCore, a sixteenth of it per subcore -/

abbrev coreShare (c : Fin τ.nSC) : PosShare TreeShare := Transfers.shareTok fullShare 2 (Fin.cast nSC_eq c)
abbrev tileShare (c : Fin τ.nSC) (i : Fin τ.nSub) : PosShare TreeShare := Transfers.shareTok (coreShare c) 16 (i16 i)
abbrev shTok (i : Fin τ.nSub) : PosShare TreeShare := Transfers.shareTok fullShare 16 (i16 i)
abbrev shRest : PosShare TreeShare := Transfers.shareDrop fullShare 16

end Cert.Kernel.KProof

end
-- ==== Proof.Bits.KPay.lean ====
/-
  The subcore barrier's cells and what the launch's handshakes carry.

  At the barrier subcore `n` of a SparseCore hands subcore `j`'s round a read share (the `j`-th sixteenth) of the rows
  of the shared table it staged; after the barrier subcore `j` has collected that sixteenth of every subcore's rows:
  a read share of the whole table.
-/
import proofs.«204824_g46875273068696_cont_8to1_c_371_32_alg».proof.Proof.Bits.KCommon

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)

-- The launch memory; the gather table, the index lists and the output as the kernel finds them and leaves it; each
-- SparseCore's shared table as the staging leaves it.
variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

/-! ## The barrier cells -/

/-- Subcore `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The read share of subcore `n`'s rows that goes to subcore `j`. -/
abbrev shPiece (d : Dev nD) (c : Fin τ.nSC) (n : Fin 16) (j : Fin τ.nSub) : sProp 𝕄 :=
  iprop((shLoc d c ↦[shRowsA n]{shTok j} SH d c) ∗ shLoc d c ↦[shRowsB n]{shTok j} SH d c)

/-- What duty `n` of subcore `j`'s round hands over: subcore `n`'s rows of the shared table, under `j`'s read share. -/
def bPay (g : GSem nD τ sig) (n : ℕ) : sProp 𝕄 :=
  match g with
  | ((d, .scVector c j), _) => if h : n < 16 then shPiece SH d c ⟨n, h⟩ j else iprop(emp)
  | _ => iprop(emp)

/-- The barrier cells' schedule: one round on each, of one unit duty per subcore of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay SH g n
  amount_pos _ _ _ _ := Nat.one_pos

instance bRd_payload_storable (g : GSem nD τ sig) (r n : ℕ) : BI.Storable (upEmb : UEmb _ 𝕄) ((bRd (F := F) SH).payload g r n) := by
  show BI.Storable upEmb (bPay SH g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) SH).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) SH).duties (bcell d c j) 0 := by
  rw [bRd_duties₀]; exact Finset.mem_image_of_mem _ (Finset.mem_univ i)
omit [FloatOps F] in
theorem bRd_expect (d : Dev nD) (c : Fin τ.nSC) (j : Fin τ.nSub) : 0 + grid1.bound 1 = (bRd (F := F) SH).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has subcore `(c, i)` owe for the barrier: a unit on every subcore's cell of its SparseCore, at the
    call's index. -/
def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## A subcore's own cells for the barrier: what the launch deals its proof -/

/-- Subcore `(c, i)`'s barrier kit: every subcore's cell invariant of its SparseCore and that each has reached round 0,
    its own position at the origin of round 0, its duty token in every subcore's round 0, and the credit for the
    sixteen units of its own round. -/
def bkit (d : Dev nD) (c : Fin τ.nSC) (i : Fin τ.nSub) : sProp 𝕄 :=
  iprop((∃ κ : GSem nD τ sig → ℕ, bigSep Finset.univ fun j : Fin (grid1.bound 1) =>
      cellInv EB (bRd (F := F) SH) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

/-! ## What the handshakes carry -/

/-- The output rows of worker `w`, chunk by chunk, at the contents `f`. -/
abbrev outChunks (d : Dev nD) (w : Fin 32) (f : Buf (Elt F) (outLoc d)) : sProp 𝕄 :=
  bigSep Finset.univ fun j : Fin 320 => outLoc d ↦[chunkSet w j]{fullShare} f

/-- What a subcore's task starts from: read shares of the gather table and of the index lists, its chunks of the
    output as the launch left them, and its rows of the shared table at some contents. -/
abbrev goPts (d : Dev nD) (c : Fin τ.nSC) (i : Fin τ.nSub) : sProp 𝕄 :=
  iprop((tabLoc d ↦{tileShare c i} TAB d) ∗ (idxLoc d ↦{tileShare c i} IDX d) ∗ outChunks d (wid c i) (m (outLoc d))
    ∗ (∃ f, shLoc d c ↦[shRowsA (i16 i)]{fullShare} f) ∗ ∃ f, shLoc d c ↦[shRowsB (i16 i)]{fullShare} f)
/-- What it ends with: the same read shares, its chunks of the output gathered, its read share of the whole shared
    table, and what remained of its own rows. -/
abbrev tdPts (d : Dev nD) (c : Fin τ.nSC) (i : Fin τ.nSub) : sProp 𝕄 :=
  iprop((tabLoc d ↦{tileShare c i} TAB d) ∗ (idxLoc d ↦{tileShare c i} IDX d) ∗ outChunks d (wid c i) (OUT d)
    ∗ (shLoc d c ↦{shTok i} SH d c)
    ∗ (shLoc d c ↦[shRowsA (i16 i)]{shRest} SH d c)
    ∗ shLoc d c ↦[shRowsB (i16 i)]{shRest} SH d c)
/-- What a SparseCore is started with: a half read share of the table and of the index lists, its workers' chunks. -/
abbrev stPts (d : Dev nD) (c : Fin τ.nSC) : sProp 𝕄 :=
  iprop((tabLoc d ↦{coreShare c} TAB d) ∗ (idxLoc d ↦{coreShare c} IDX d) ∗ bigSep Finset.univ fun i : Fin τ.nSub => outChunks d (wid c i) (m (outLoc d)))
abbrev dnPts (d : Dev nD) (c : Fin τ.nSC) : sProp 𝕄 :=
  iprop((tabLoc d ↦{coreShare c} TAB d) ∗ (idxLoc d ↦{coreShare c} IDX d) ∗ bigSep Finset.univ fun i : Fin τ.nSub => outChunks d (wid c i) (OUT d))

def P : (K (F := F)).Pay (nD := nD) (Val := Elt F) (Name := ℕ) (U := UU) where
  st := fun q d c => match q with | 0 => stPts m TAB IDX d (coreOf c)
  dn := fun q d c => match q with | 0 => dnPts TAB IDX OUT d (coreOf c)
  go := fun q d c i => match q with | 0 => goPts m TAB IDX d (coreOf c) ((K (F := F)).sub 0 i)
  td := fun q d c i => match q with | 0 => tdPts TAB IDX OUT SH d (coreOf c) ((K (F := F)).sub 0 i)
  x := fun _ thr => match thr with
    | (d, .scVector c i) => bkit SH d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m TAB IDX OUT SH).IsStorable where
  st q d c := match q with
    | 0 => (inferInstance : BI.Storable (upEmb : UEmb _ 𝕄) (stPts m TAB IDX d (coreOf c)))
  dn q d c := match q with
    | 0 => (inferInstance : BI.Storable (upEmb : UEmb _ 𝕄) (dnPts TAB IDX OUT d (coreOf c)))
  go q d c i := match q with
    | 0 => (inferInstance : BI.Storable (upEmb : UEmb _ 𝕄) (goPts m TAB IDX d (coreOf c) ((K (F := F)).sub 0 i)))
  td q d c i := match q with
    | 0 => (inferInstance : BI.Storable (upEmb : UEmb _ 𝕄) (tdPts TAB IDX OUT SH d (coreOf c) ((K (F := F)).sub 0 i)))

end Cert.Kernel.KProof

end
-- ==== Proof.Bits.KFun.lean ====
/-
  The value side of the program, as plain functions: what each stretch of the host program computes from the
  values it reads, written as the composition of the pure operations the program's lines apply, in the
  program's order. Nothing here mentions memory; every definition is generic in the float instance.

  * projF  — the projection kernel's payload: the embedding table through the linear layer.
  * tabF   — the gather table: the projected rows cut in four 128-wide pieces each, 96 zero rows, then the
             image features cut in four pieces each.
  * idxF   — the index array handed to the gather kernel (integers only).
  * tailF  — the final re-layout of the gathered rows into [batch, position, feature].
  * shTab, scOut — the meaning of the gather kernel: each core's shared table and the rows it leaves.
  * KG     — the whole program's result as a function of its five arguments.
-/
import proofs.«204824_g46875273068696_cont_8to1_c_371_32_alg».proof.Kernel
import proofs.«204824_g46875273068696_cont_8to1_c_371_32_alg».proof.Proof.Gen.Kernel
import proofs.«204824_g46875273068696_cont_8to1_c_371_32_alg».proof.Proof.Gen.Kernel.Skeleton
import Idealize.ShloMosaic.Lib.ValueIdx

noncomputable section

namespace Cert.Kernel.KFun

open Idealize.ShloMosaic Idealize.ShloMosaic.ValueIdx
open Cert.Kernel Cert.Kernel.Facts₀

variable {F : FTy → Type} [FloatOps F]

/-- The projection: the embedding table times the transposed weight, plus the bias broadcast over the rows
    (the bias first viewed as a one-row matrix). -/
def projF (emb : FVec F S1000x512 .f32) (W : FVec F S512x512 .f32) (b : FVec F S512 .f32) : FVec F S1000x512 .f32 :=
  Gen.k0_pay1 emb W (shapeCast S1x512 b shapeCasts_S512_S1x512)

/-- The gather table: 4000 rows of projected pieces, 96 rows of zeros, 16384 rows of image pieces. -/
def tabF (proj : FVec F S1000x512 .f32) (img : FVec F S4096x512 .f32) : FVec F S20480x128 .f32 :=
  concatenate S20480x128 0
    [⟨S4000x128, shapeCast S4000x128 proj shapeCasts_S1000x512_S4000x128⟩,
     ⟨S96x128, broadcastInDim S96x128 ![] bcast_S_S96x128 (constant (F := F) S_ .f32 0x00000000#32)⟩,
     ⟨S16384x128, shapeCast S16384x128 img shapeCasts_S4096x512_S16384x128⟩]
    concatenates_S4000x128_S96x128_S16384x128_S20480x128_d0

/-- The floor-modulo the host program calls: the truncated remainder by the divisor (one where the divisor
    is zero), moved by the divisor where the remainder is nonzero and its sign differs from the divisor's. -/
def remF (x : IVec S32x20x16x1x8 32) (m : IVec S_ 32) : IVec S32x20x16x1x8 32 :=
  let v0 : IVec S_ 32 := id m
  let c : IVec S_ 32 := constantI S_ 32 0#32
  let v1 : IVec S_ 1 := cmpi .eq v0 c
  let c_0 : IVec S_ 32 := constantI S_ 32 1#32
  let v2 : IVec S_ 32 := select v1 c_0 v0
  let v3 : IVec S32x20x16x1x8 32 := broadcastInDim S32x20x16x1x8 ![] bcast_S_S32x20x16x1x8 v2
  let v4 : IVec S32x20x16x1x8 32 := Host.remsi x v3
  let c_1 : IVec S_ 32 := constantI S_ 32 0#32
  let v5 : IVec S32x20x16x1x8 32 := broadcastInDim S32x20x16x1x8 ![] bcast_S_S32x20x16x1x8 c_1
  let v6 : IVec S32x20x16x1x8 1 := cmpi .ne v4 v5
  let c_2 : IVec S_ 32 := constantI S_ 32 0#32
  let v7 : IVec S32x20x16x1x8 32 := broadcastInDim S32x20x16x1x8 ![] bcast_S_S32x20x16x1x8 c_2
  let v8 : IVec S32x20x16x1x8 1 := cmpi .slt v4 v7
  let c_3 : IVec S_ 32 := constantI S_ 32 0#32
  let v9 : IVec S_ 1 := cmpi .slt v2 c_3
  let v10 : IVec S32x20x16x1x8 1 := broadcastInDim S32x20x16x1x8 ![] bcast_S_S32x20x16x1x8 v9
  let v11 : IVec S32x20x16x1x8 1 := cmpi .ne v8 v10
  let v12 : IVec S32x20x16x1x8 1 := andi v11 v6
  let v13 : IVec S32x20x16x1x8 32 := broadcastInDim S32x20x16x1x8 ![] bcast_S_S32x20x16x1x8 v2
  let v14 : IVec S32x20x16x1x8 32 := addi v4 v13
  select v12 v14 v4

/-- The piece number 0..3 along the fourth axis of a [1,1,1,4,1] array. -/
def pieceF : IVec S1x1x1x4x1 32 :=
  shapeCast S1x1x1x4x1 (iotaInDim S4 32 0) shapeCasts_S4_S1x1x1x4x1

/-- The caption's row within its core's half of the image rows: (worker mod 16)·128 + a·8 + b. -/
def capLocF : IVec S32x20x16x1x8 32 :=
  let v10 : IVec S32x20x16x1x8 32 := iotaInDim S32x20x16x1x8 32 0
  let c : IVec S_ 32 := constantI S_ 32 16#32
  let v11 : IVec S32x20x16x1x8 32 := remF v10 c
  let c_0 : IVec S_ 32 := constantI S_ 32 128#32
  let v12 : IVec S32x20x16x1x8 32 := broadcastInDim S32x20x16x1x8 ![] bcast_S_S32x20x16x1x8 c_0
  let v13 : IVec S32x20x16x1x8 32 := muli v11 v12
  let v14 : IVec S32x20x16x1x8 32 := iotaInDim S32x20x16x1x8 32 2
  let c_1 : IVec S_ 32 := constantI S_ 32 8#32
  let v15 : IVec S32x20x16x1x8 32 := broadcastInDim S32x20x16x1x8 ![] bcast_S_S32x20x16x1x8 c_1
  let v16 : IVec S32x20x16x1x8 32 := muli v14 v15
  let v17 : IVec S32x20x16x1x8 32 := addi v13 v16
  let v18 : IVec S32x20x16x1x8 32 := iotaInDim S32x20x16x1x8 32 4
  addi v17 v18

/-- The tokens regrouped by worker: [worker, position, a, b] from [4096, 20] read as [32, 16, 8, 20]. -/
def tokPF (cap : IVec S4096x20 32) : IVec S32x20x16x8 32 :=
  transpose S32x20x16x8 [0, 3, 1, 2] (shapeCast S32x16x8x20 cap shapeCasts_S4096x20_S32x16x8x20)
    transposes_S32x16x8x20_S32x20x16x8_0_3_1_2

/-- The word half of the index array: token·4 + piece. -/
def wordIdxF (cap : IVec S4096x20 32) : IVec S32x20x16x4x8 32 :=
  let v20 : IVec S32x20x16x1x8 32 :=
    broadcastInDim S32x20x16x1x8 ![0, 1, 2, 4] bcast_S32x20x16x8_S32x20x16x1x8_0_1_2_4 (tokPF cap)
  let c_2 : IVec S_ 32 := constantI S_ 32 4#32
  let v21 : IVec S32x20x16x1x8 32 := broadcastInDim S32x20x16x1x8 ![] bcast_S_S32x20x16x1x8 c_2
  let v22 : IVec S32x20x16x1x8 32 := muli v20 v21
  let v23 : IVec S32x20x16x4x8 32 :=
    broadcastInDim S32x20x16x4x8 ![0, 1, 2, 3, 4] bcast_S32x20x16x1x8_S32x20x16x4x8_0_1_2_3_4 v22
  let v24 : IVec S32x20x16x4x8 32 :=
    broadcastInDim S32x20x16x4x8 ![0, 1, 2, 3, 4] bcast_S1x1x1x4x1_S32x20x16x4x8_0_1_2_3_4 pieceF
  addi v23 v24

/-- The image half of the index array: 4096 + local row·4 + piece. -/
def imgIdxF : IVec S32x20x16x4x8 32 :=
  let c_3 : IVec S_ 32 := constantI S_ 32 4#32
  let v26 : IVec S32x20x16x1x8 32 := broadcastInDim S32x20x16x1x8 ![] bcast_S_S32x20x16x1x8 c_3
  let v27 : IVec S32x20x16x1x8 32 := muli capLocF v26
  let c_4 : IVec S_ 32 := constantI S_ 32 4096#32
  let v28 : IVec S32x20x16x1x8 32 := broadcastInDim S32x20x16x1x8 ![] bcast_S_S32x20x16x1x8 c_4
  let v29 : IVec S32x20x16x1x8 32 := addi v28 v27
  let v30 : IVec S32x20x16x4x8 32 :=
    broadcastInDim S32x20x16x4x8 ![0, 1, 2, 3, 4] bcast_S32x20x16x1x8_S32x20x16x4x8_0_1_2_3_4 v29
  let v31 : IVec S32x20x16x4x8 32 :=
    broadcastInDim S32x20x16x4x8 ![0, 1, 2, 3, 4] bcast_S1x1x1x4x1_S32x20x16x4x8_0_1_2_3_4 pieceF
  addi v30 v31

/-- The two halves side by side along the piece axis (eight pieces). -/
def idxFullF (cap : IVec S4096x20 32) : IVec S32x20x16x8x8 32 :=
  concatenate S32x20x16x8x8 3 [⟨S32x20x16x4x8, wordIdxF cap⟩, ⟨S32x20x16x4x8, imgIdxF⟩]
    concatenates_S32x20x16x4x8_S32x20x16x4x8_S32x20x16x8x8_d3

/-- The index array the gather kernel reads: per worker, 160 rows of 128 indices. -/
def idxF (cap : IVec S4096x20 32) : IVec S32x160x128 32 :=
  shapeCast S32x160x128 (idxFullF cap) shapeCasts_S32x20x16x8x8_S32x160x128

/-- The final re-layout: rows [position, batch/8, piece, batch%8] to [batch, position, piece·128 + lane]. -/
def tailF (o : FVec F S655360x128 .f32) : FVec F S4096x20x1024 .f32 :=
  shapeCast S4096x20x1024
    (transpose S512x8x20x8x128 [1, 3, 0, 2, 4]
      (shapeCast S20x512x8x8x128 o shapeCasts_S655360x128_S20x512x8x8x128)
      transposes_S20x512x8x8x128_S512x8x20x8x128_1_3_0_2_4)
    shapeCasts_S512x8x20x8x128_S4096x20x1024

/-- Core c's shared table: rows 0..4095 are the table's rows 0..4095 (the projected rows), row 4096 + x is
    the table's row 4096 + 8192·c + x (the core's half of the image rows). -/
def shTab (tab : FVec F S20480x128 .f32) (c : Fin 2) : FVec F S12288x128 .f32 := fun i =>
  if h : (i 0).val < 4096 then tab (ix2 ⟨(i 0).val, by omega⟩ ⟨(i 1).val, idx2_lt1 i⟩)
  else tab (ix2 ⟨(i 0).val + 8192 * c.val, by have := idx2_lt0 i; have := c.isLt; omega⟩ ⟨(i 1).val, idx2_lt1 i⟩)

/-- What the gather kernel leaves in its output: row R = L·32768 + w·1024 + e (L < 20 a caption position,
    w < 32 a worker = 16·core + subcore, e < 1024) is row idx[w, f/128, f%128] of worker w's core's shared
    table, where f = L·1024 + e. -/
def scOut (tab : FVec F S20480x128 .f32) (idx : IVec S32x160x128 32) : FVec F S655360x128 .f32 := fun i =>
  shTab tab ⟨(i 0).val % 32768 / 1024 / 16, by omega⟩
    (ix2 ⟨(idx (ix3 ⟨(i 0).val % 32768 / 1024, by omega⟩
                    ⟨((i 0).val / 32768 * 1024 + (i 0).val % 1024) / 128, by have := idx2_lt0 i; omega⟩
                    ⟨((i 0).val / 32768 * 1024 + (i 0).val % 1024) % 128, by omega⟩)).toNat % 12288,
          Nat.mod_lt _ (by decide)⟩
      ⟨(i 1).val, idx2_lt1 i⟩)

/-- The whole program's result from its five arguments. -/
def KG (cap : IVec S4096x20 32) (img : FVec F S4096x512 .f32) (emb : FVec F S1000x512 .f32)
    (W : FVec F S512x512 .f32) (b : FVec F S512 .f32) : FVec F S4096x20x1024 .f32 :=
  tailF (scOut (tabF (projF emb W b) img) (idxF cap))

end Cert.Kernel.KFun

end
-- ==== Proof.Bits.KData.lean ====
/-
  The arrays the gather kernel works on, as functions of the launch memory: the gather table (the projected
  embedding rows, padding, the image rows), the index lists, the output it leaves, and each SparseCore's shared table.
-/
import proofs.«204824_g46875273068696_cont_8to1_c_371_32_alg».proof.Proof.Bits.KPay
import proofs.«204824_g46875273068696_cont_8to1_c_371_32_alg».proof.Proof.Bits.KFun

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

/-- The gather table: the host's concatenation over the TensorCore call's result and the image features. -/
def TABm (d : Dev nD) : Buf (Elt F) (tabLoc d) :=
  KFun.tabF (F := F) (KFun.projF (m ((SparseCore.T d).loc main_arg2)) (m ((SparseCore.T d).loc main_arg3)) (m ((SparseCore.T d).loc main_arg4))) (m ((SparseCore.T d).loc main_arg1))
/-- The index lists: the host's integer program over the caption tokens. -/
def IDXm (d : Dev nD) : Buf (Elt F) (idxLoc d) := KFun.idxF (m ((SparseCore.T d).loc main_arg0))
/-- What the gather kernel leaves in its output. -/
def OUTm (d : Dev nD) : Buf (Elt F) (outLoc d) := KFun.scOut (F := F) (TABm m d) (IDXm m d)
/-- SparseCore `c`'s shared table after the staging. -/
def SHm (d : Dev nD) (c : Fin τ.nSC) : Buf (Elt F) (shLoc d c) := KFun.shTab (F := F) (TABm m d) (Fin.cast nSC_eq c)

/-- The handshakes' payloads at those arrays. -/
abbrev Pm : (K (F := F)).Pay (nD := nD) (Val := Elt F) (Name := ℕ) (U := UU) := P m (TABm m) (IDXm m) (OUTm m) (SHm m)

end Cert.Kernel.KProof

end
-- ==== Proof.Bits.KLaunchElem.lean ====
/-
  The launch element of the ghost state, and what the launch hands over: the handshakes' rounds library; each
  vector subcore its barrier kit (every barrier cell's invariant of its SparseCore, its duty tokens, its position,
  the credit for its own round); each TensorCore the projection pipeline's staging cells' ghost state and duty tokens.
-/
import proofs.«204824_g46875273068696_cont_8to1_c_371_32_alg».proof.Proof.Bits.KData

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable (SH : (d : Dev nD) → (c : Fin τ.nSC) → Buf (Elt F) (shLoc d c))
variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Subcore `i`'s token in subcore `j`'s cell, for every pair of subcores of a SparseCore. -/
def bToks : Finset (GSem nD τ sig × ℕ × ℕ) :=
  Finset.univ.image fun x : DCI × Fin (grid1.bound 1) => (bcell x.1.1 x.1.2.1 (x.2.castLE hsub1), 0, x.1.2.2.val)
/-- The launch element: the handshakes' rounds, the barrier cells' rounds, the projection pipeline's staging cells'
    rounds, the unit of the transfers' counters. -/
def u₀ : UU := (initOf (K (F := F)).hsCells (K (F := F)).hsToks, (initOf bCells bToks,
  (initOf (Pipeline.cells (nD := nD) (τ := τ) cfgs cellOf_inj) (Pipeline.launchToks (nD := nD) (τ := τ) cfgs cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) (p : UPp) :
    (ownU ((a, (b, (p, 1))) : UU) : sProp 𝕄) ⊢ iprop(BI.own (EH a) ∗ BI.own (EB b) ∗ BI.own (EPp p)) := by
  refine (BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (p, (1 : Counters))))))).trans (BI.sep_mono_r ?_)
  exact BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op (p, (1 : Counters))))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) SH) g 0)
    ⊢ |={Set.univ}=> iprop(∃ κ : GSem nD τ sig → ℕ, bigSep bCells fun g => cellInv EB (bRd (F := F) SH) (κ g) g) := by
  refine (Rounds.bodies_intro EB (bRd (F := F) SH) bCells).trans ((inv_alloc_family bCells (Rounds.body EB (bRd (F := F) SH)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each subcore the sixteen units of its own cell. -/
theorem creds_b : ((Pm (F := F) m).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((Pm (F := F) m).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (Pm (F := F) m).oxFrom 0 (V d c i) = oxV d c := fun i => by
    rw [show (0 : ℕ) = (0 : Fin 1).val from rfl, (Pm m).oxFrom_step, (Pm m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (Pm (F := F) m).x q (SparseCore.T d)) = iprop(emp) :=
  bigSep_univ_of_subsingleton (0 : Fin 1)
theorem Px_S (d : Dev nD) (c : Fin τ.nSC) : (bigSep Finset.univ fun q : Fin 1 => (Pm (F := F) m).x q (S d c)) = iprop(emp) :=
  bigSep_univ_of_subsingleton (0 : Fin 1)
theorem Px_V (d : Dev nD) (c : Fin τ.nSC) (i : Fin τ.nSub) :
    (bigSep Finset.univ fun q : Fin 1 => (Pm (F := F) m).x q (V d c i)) = bkit (SHm m) d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every subcore is handed alike: every barrier cell's invariant, and that each has reached round 0. -/
abbrev shared : sProp 𝕄 :=
  iprop((∃ κ : GSem nD τ sig → ℕ, bigSep Finset.univ fun x : DCI => cellInv EB (bRd (F := F) SH) (κ (bcell₃ x)) (bcell₃ x))
    ∗ bigSep Finset.univ fun x : DCI => reached EB (bcell₃ x) 0)
/-- What each subcore is handed of its own: its position, its tokens, its credit. -/
abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

/-- One subcore's kit out of those. -/
theorem kit_intro (dci : DCI) : iprop(shared (F := F) SH ∗ mine (F := F) dci) ⊢ (bkit (F := F) SH dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) SH) (κ (bcell₃ x)) (bcell₃ x)) fun j _ =>
        sep_elim_left.trans (bigSep_elim (Φ := fun x : DCI => (cellInv EB (bRd (F := F) SH) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub1 j)) (Finset.mem_univ _))))
    isplitl; · iexact Hr
    rw [bigSep_emp']; iempintro
  isplitl [Hat]; · iexact Hat
  iexact Hcred

/-- Each subcore its kit. -/
theorem kits_deal :
    iprop(shared (F := F) (SHm m) ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (Pm (F := F) m).x q thr : sProp 𝕄) := by
  rw [SparseCore.Cfg.bigSep_threads (fun thr : Thread nD τ => bigSep Finset.univ fun q : Fin 1 => (Pm (F := F) m).x q thr)]
  simp only [Px_T, Px_S, Px_V, bigSep_emp']
  iintro ⟨#Hsh, Hat, Htok, Hcred⟩
  isplitr; · iempintro
  isplitr; · iempintro
  iapply (bigSep_mono_frame (R := shared (F := F) (SHm m)) (Φ := mine (F := F)) fun dci _ => kit_intro (F := F) (SHm m) dci)
  isplitr; · iexact Hsh
  unfold mine
  rw [bigSep_sep', bigSep_sep']
  isplitl [Hat]; · iexact Hat
  isplitl [Htok]; · iexact Htok
  iexact Hcred

/-- What the launch hands each TensorCore beside its handshake state: the projection pipeline's staging cells' ghost
    state and duty tokens. -/
abbrev G (d : Dev nD) : sProp 𝕄 :=
  iprop(Pipeline.cellsGhost (nD := nD) (τ := τ) cfgs EPp (0 : Fin 1) d ∗ Pipeline.toksInit (nD := nD) (τ := τ) cfgs EPp (0 : Fin 1) d)

theorem hu₀ : iprop(ownU (u₀ (F := F)) ∗ (Pm (F := F) m).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (Pm m).x q thr) : sProp 𝕄) := by
  unfold u₀
  iintro ⟨Hu, Hcred, Hfree⟩
  ihave H := (ownU_split _ _ _) $$ Hu
  icases H with ⟨HH, HB, HP⟩
  imod (Rounds.fund EB (bRd (F := F) (SHm m)) bCells bToks) $$ HB with ⟨Hst, #Hr, Hat, Htok⟩
  imod (Pipeline.fund_ghost (nD := nD) (τ := τ) cfgs EPp cellOf_inj) $$ HP with ⟨Hg, Ht⟩
  ihave Hsems := (sems_b (F := F)) $$ Hfree
  imod (invs_b (F := F) (SHm m)) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) (SHm m)) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · rw [bigSep_sep']
    isplitl [Hg]
    · iapply (SparseCore.ent (bigSep_mono (Φ := fun c : Dev nD => bigSep Finset.univ fun p : Fin 1 => Pipeline.cellsGhost (nD := nD) (τ := τ) cfgs (EPp (F := F)) p c)
        (Ψ := fun c : Dev nD => Pipeline.cellsGhost (nD := nD) (τ := τ) cfgs (EPp (F := F)) (0 : Fin 1) c) fun c _ => bigSep_elim (Finset.mem_univ (0 : Fin 1))))
      iexact Hg
    · iapply (SparseCore.ent (bigSep_mono (Φ := fun c : Dev nD => bigSep Finset.univ fun p : Fin 1 => Pipeline.toksInit (nD := nD) (τ := τ) cfgs (EPp (F := F)) p c)
        (Ψ := fun c : Dev nD => Pipeline.toksInit (nD := nD) (τ := τ) cfgs (EPp (F := F)) (0 : Fin 1) c) fun c _ => bigSep_elim (Finset.mem_univ (0 : Fin 1))))
      iexact Ht
  iapply (kits_deal m)
  isplitr
  · isplitl; · iexists κ; iexact Hinv'
    iexact Hr'
  isplitl [Hat']; · iexact Hat'
  isplitl [Htok']; · iexact Htok'
  iexact Hcred'

end Cert.Kernel.KProof

end
-- ==== Proof.Bits.KMainOps.lean ====
/-
  @main on the TensorCore as the launch sees it: one host operation, the projection kernel's region, forty-five host
  operations (the floor-modulo's twenty-one listed at its call over the call's own buffers), the gather kernel's
  call, three host operations.
-/
import proofs.«204824_g46875273068696_cont_8to1_c_371_32_alg».proof.Proof.Bits.KData

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held tcRefs)

variable {F : FTy → Type}

local notation "𝕄" => MT nD τ sig (HIx 1) (Elt F) ℕ UU ℕ

variable [FloatOps F]

/-- The operation before the projection kernel: the bias as a one-row matrix. -/
abbrev ops1 : List (HloOp τ sig (Elt F)) :=
  [ StableHlo.reshape main_arg4 main_v0 rfl shapeCasts_S512_S1x512 ]

/-- The operations between the two kernels: the gather table and the index lists. -/
abbrev ops2 : List (HloOp τ sig (Elt F)) :=
  [ StableHlo.reshape main_v1 main_v2 rfl shapeCasts_S1000x512_S4000x128,
    StableHlo.nullary main_cst (constant S_ .f32 0x00000000#32),
    StableHlo.unary main_cst main_v3 (broadcastInDim S96x128 ![] bcast_S_S96x128 : (⟨S_, .f32⟩ : BufTy).Contents (Elt F) → (⟨S96x128, .f32⟩ : BufTy).Contents (Elt F)),
    StableHlo.reshape main_arg1 main_v4 rfl shapeCasts_S4096x512_S16384x128,
    StableHlo.nary ![main_v2, main_v3, main_v4] main_v5 (fun u => concatenate S20480x128 0 [⟨S4000x128, u 0⟩, ⟨S96x128, u 1⟩, ⟨S16384x128, u 2⟩] concatenates_S4000x128_S96x128_S16384x128_S20480x128_d0),
    StableHlo.reshape main_arg0 main_v6 rfl shapeCasts_S4096x20_S32x16x8x20,
    StableHlo.unary main_v6 main_v7 ((transpose S32x20x16x8 [0, 3, 1, 2] · transposes_S32x16x8x20_S32x20x16x8_0_3_1_2) : (⟨S32x16x8x20, .i32⟩ : BufTy).Contents (Elt F) → (⟨S32x20x16x8, .i32⟩ : BufTy).Contents (Elt F)),
    StableHlo.nullary main_v8 (iotaInDim S4 32 0),
    StableHlo.reshape main_v8 main_v9 rfl shapeCasts_S4_S1x1x1x4x1,
    StableHlo.nullary main_v10 (iotaInDim S32x20x16x1x8 32 0),
    StableHlo.nullary main_c (constantI S_ 32 16#32),
    StableHlo.TRef.unary (.of main_c) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S32x20x16x1x8 ![] bcast_S_S32x20x16x1x8),
    StableHlo.TRef.binary (.of main_v10) main_call0.v3 main_call0.v4 Host.remsi,
    StableHlo.TRef.nullary main_call0.c_1 (constantI S_ 32 0#32),
    StableHlo.TRef.unary main_call0.c_1 main_call0.v5 (broadcastInDim S32x20x16x1x8 ![] bcast_S_S32x20x16x1x8),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S32x20x16x1x8 ![] bcast_S_S32x20x16x1x8),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S32x20x16x1x8 ![] bcast_S_S32x20x16x1x8),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S32x20x16x1x8 ![] bcast_S_S32x20x16x1x8),
    StableHlo.TRef.binary main_call0.v4 main_call0.v13 main_call0.v14 addi,
    StableHlo.TRef.ternary main_call0.v12 main_call0.v14 main_call0.v4 main_call0.v15 select,
    StableHlo.nullary main_c_0 (constantI S_ 32 128#32),
    StableHlo.unary main_c_0 main_v12 (broadcastInDim S32x20x16x1x8 ![] bcast_S_S32x20x16x1x8 : (⟨S_, .i32⟩ : BufTy).Contents (Elt F) → (⟨S32x20x16x1x8, .i32⟩ : BufTy).Contents (Elt F)),
    StableHlo.binary main_v11 main_v12 main_v13 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_v14 (iotaInDim S32x20x16x1x8 32 2),
    StableHlo.nullary main_c_1 (constantI S_ 32 8#32),
    StableHlo.unary main_c_1 main_v15 (broadcastInDim S32x20x16x1x8 ![] bcast_S_S32x20x16x1x8 : (⟨S_, .i32⟩ : BufTy).Contents (Elt F) → (⟨S32x20x16x1x8, .i32⟩ : BufTy).Contents (Elt F)),
    StableHlo.binary main_v14 main_v15 main_v16 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.binary main_v13 main_v16 main_v17 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_v18 (iotaInDim S32x20x16x1x8 32 4),
    StableHlo.binary main_v17 main_v18 main_v19 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v7 main_v20 (broadcastInDim S32x20x16x1x8 ![0, 1, 2, 4] bcast_S32x20x16x8_S32x20x16x1x8_0_1_2_4 : (⟨S32x20x16x8, .i32⟩ : BufTy).Contents (Elt F) → (⟨S32x20x16x1x8, .i32⟩ : BufTy).Contents (Elt F)),
    StableHlo.nullary main_c_2 (constantI S_ 32 4#32),
    StableHlo.unary main_c_2 main_v21 (broadcastInDim S32x20x16x1x8 ![] bcast_S_S32x20x16x1x8 : (⟨S_, .i32⟩ : BufTy).Contents (Elt F) → (⟨S32x20x16x1x8, .i32⟩ : BufTy).Contents (Elt F)),
    StableHlo.binary main_v20 main_v21 main_v22 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v22 main_v23 (broadcastInDim S32x20x16x4x8 ![0, 1, 2, 3, 4] bcast_S32x20x16x1x8_S32x20x16x4x8_0_1_2_3_4 : (⟨S32x20x16x1x8, .i32⟩ : BufTy).Contents (Elt F) → (⟨S32x20x16x4x8, .i32⟩ : BufTy).Contents (Elt F)),
    StableHlo.unary main_v9 main_v24 (broadcastInDim S32x20x16x4x8 ![0, 1, 2, 3, 4] bcast_S1x1x1x4x1_S32x20x16x4x8_0_1_2_3_4 : (⟨S1x1x1x4x1, .i32⟩ : BufTy).Contents (Elt F) → (⟨S32x20x16x4x8, .i32⟩ : BufTy).Contents (Elt F)),
    StableHlo.binary main_v23 main_v24 main_v25 (addi : (⟨S32x20x16x4x8, .i32⟩ : BufTy).Contents (Elt F) → (⟨S32x20x16x4x8, .i32⟩ : BufTy).Contents (Elt F) → (⟨S32x20x16x4x8, .i32⟩ : BufTy).Contents (Elt F)),
    StableHlo.nullary main_c_3 (constantI S_ 32 4#32),
    StableHlo.unary main_c_3 main_v26 (broadcastInDim S32x20x16x1x8 ![] bcast_S_S32x20x16x1x8 : (⟨S_, .i32⟩ : BufTy).Contents (Elt F) → (⟨S32x20x16x1x8, .i32⟩ : BufTy).Contents (Elt F)),
    StableHlo.binary main_v19 main_v26 main_v27 (muli : (⟨S32x20x16x1x8, .i32⟩ : BufTy).Contents (Elt F) → (⟨S32x20x16x1x8, .i32⟩ : BufTy).Contents (Elt F) → (⟨S32x20x16x1x8, .i32⟩ : BufTy).Contents (Elt F)),
    StableHlo.nullary main_c_4 (constantI S_ 32 4096#32),
    StableHlo.unary main_c_4 main_v28 (broadcastInDim S32x20x16x1x8 ![] bcast_S_S32x20x16x1x8 : (⟨S_, .i32⟩ : BufTy).Contents (Elt F) → (⟨S32x20x16x1x8, .i32⟩ : BufTy).Contents (Elt F)),
    StableHlo.binary main_v28 main_v27 main_v29 (addi : (⟨S32x20x16x1x8, .i32⟩ : BufTy).Contents (Elt F) → (⟨S32x20x16x1x8, .i32⟩ : BufTy).Contents (Elt F) → (⟨S32x20x16x1x8, .i32⟩ : BufTy).Contents (Elt F)),
    StableHlo.unary main_v29 main_v30 (broadcastInDim S32x20x16x4x8 ![0, 1, 2, 3, 4] bcast_S32x20x16x1x8_S32x20x16x4x8_0_1_2_3_4 : (⟨S32x20x16x1x8, .i32⟩ : BufTy).Contents (Elt F) → (⟨S32x20x16x4x8, .i32⟩ : BufTy).Contents (Elt F)),
    StableHlo.unary main_v9 main_v31 (broadcastInDim S32x20x16x4x8 ![0, 1, 2, 3, 4] bcast_S1x1x1x4x1_S32x20x16x4x8_0_1_2_3_4 : (⟨S1x1x1x4x1, .i32⟩ : BufTy).Contents (Elt F) → (⟨S32x20x16x4x8, .i32⟩ : BufTy).Contents (Elt F)),
    StableHlo.binary main_v30 main_v31 main_v32 (addi : (⟨S32x20x16x4x8, .i32⟩ : BufTy).Contents (Elt F) → (⟨S32x20x16x4x8, .i32⟩ : BufTy).Contents (Elt F) → (⟨S32x20x16x4x8, .i32⟩ : BufTy).Contents (Elt F)),
    StableHlo.binary main_v25 main_v32 main_v33 ((fun a b => concatenate S32x20x16x8x8 3 [⟨S32x20x16x4x8, a⟩, ⟨S32x20x16x4x8, b⟩] concatenates_S32x20x16x4x8_S32x20x16x4x8_S32x20x16x8x8_d3) : (⟨S32x20x16x4x8, .i32⟩ : BufTy).Contents (Elt F) → (⟨S32x20x16x4x8, .i32⟩ : BufTy).Contents (Elt F) → (⟨S32x20x16x8x8, .i32⟩ : BufTy).Contents (Elt F)),
    StableHlo.reshape main_v33 main_v34 rfl shapeCasts_S32x20x16x8x8_S32x160x128 ]

/-- The operations after the gather kernel: the gathered rows re-laid out. -/
abbrev ops3 : List (HloOp τ sig (Elt F)) :=
  [ StableHlo.reshape main_v35 main_v36 rfl shapeCasts_S655360x128_S20x512x8x8x128,
    StableHlo.unary main_v36 main_v37 ((transpose S512x8x20x8x128 [1, 3, 0, 2, 4] · transposes_S20x512x8x8x128_S512x8x20x8x128_1_3_0_2_4) : (⟨S20x512x8x8x128, .f32⟩ : BufTy).Contents (Elt F) → (⟨S512x8x20x8x128, .f32⟩ : BufTy).Contents (Elt F)),
    StableHlo.reshape main_v37 main_v38 rfl shapeCasts_S512x8x20x8x128_S4096x20x1024 ]

set_option maxRecDepth 8192 in
/-- @main is those three straight lines around the two kernels. -/
theorem main_eq (d : Dev nD) : main (F := F) d
    = (seq ops1 >>= fun _ => (Prog.lift (.customCall (SparseCore.inner (Pipeline.entry 0)) ()) >>= fun _ =>
        (seq ops2 >>= fun _ => (sc.run d 0 >>= fun _ => seq ops3)))) := by
  simp only [main, fn_remainder.body, fn_where.body, seq, bind_assoc, pure_bind, bind_pure]

/-- @main's arrays: the TensorCore's references that are not scoped, as device buffers. -/
def S₁ : Finset (DevRef τ sig) := (tcRefs τ sig).filter fun b => ¬ b.isScoped

omit [FloatOps F] in
theorem sub_S₁ {op : HloOp τ sig (Elt F)} (h : op.bufs ⊆ tcRefs τ sig) : op.bufs ⊆ S₁ :=
  fun b hb => Finset.mem_filter.mpr ⟨h hb, by rw [op.no_scoped b hb]; exact Bool.false_ne_true⟩

open Idealize.ShloMosaic.StableHlo in
theorem ops1_sub : ∀ op ∈ (ops1 : List (HloOp τ sig (Elt F))), op.bufs ⊆ S₁ := fun op h =>
  sub_S₁ (List.forall_iff_forall_mem.1 (show (ops1 : List (HloOp τ sig (Elt F))).Forall fun op => op.bufs ⊆ tcRefs τ sig from
    (reshape_bufs_sub ..)) op h)
open Idealize.ShloMosaic.StableHlo in
theorem ops2_sub : ∀ op ∈ (ops2 : List (HloOp τ sig (Elt F))), op.bufs ⊆ S₁ := fun op h =>
  sub_S₁ (List.forall_iff_forall_mem.1 (show (ops2 : List (HloOp τ sig (Elt F))).Forall fun op => op.bufs ⊆ tcRefs τ sig from
    ⟨reshape_bufs_sub .., nullary_bufs_sub .., unary_bufs_sub .., reshape_bufs_sub .., nary_bufs_sub .., reshape_bufs_sub .., unary_bufs_sub .., nullary_bufs_sub .., reshape_bufs_sub .., nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., reshape_bufs_sub ..⟩) op h)
open Idealize.ShloMosaic.StableHlo in
theorem ops3_sub : ∀ op ∈ (ops3 : List (HloOp τ sig (Elt F))), op.bufs ⊆ S₁ := fun op h =>
  sub_S₁ (List.forall_iff_forall_mem.1 (show (ops3 : List (HloOp τ sig (Elt F))).Forall fun op => op.bufs ⊆ tcRefs τ sig from
    ⟨reshape_bufs_sub .., unary_bufs_sub .., reshape_bufs_sub ..⟩) op h)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h

end Cert.Kernel.KProof

end
-- ==== Proof.Bits.KMainVal.lean ====
/-
  What @main's arrays hold along the way, as functions of what they held before: after the first line the bias
  as a one-row matrix; after the second, from the projection kernel's result, the gather table and the index lists;
  after the third, from the gather kernel's result, the program's result; the five arguments never written.
  A kernel's result enters as a write of a given value into its result buffer.
-/
import proofs.«204824_g46875273068696_cont_8to1_c_371_32_alg».proof.Proof.Bits.KMainOps

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable [FloatOps F]

/-- A kernel's result `v` in its result buffer `y`, as a step of the valuation. -/
abbrev wrote (y : Ref sig .tc) (v : y.ty.Contents (Elt F))
    (hy : y.space ≠ .host ∧ (y : DevRef τ sig).isScoped = false := by exact ⟨by decide, rfl⟩) : HloOp τ sig (Elt F) :=
  nullary y v hy

attribute [local irreducible] shapeCast in
theorem v0_eq (V : Valuation τ sig (Elt F)) :
    after ops1 V (main_v0 : DevRef τ sig) = shapeCast S1x512 (V (main_arg4 : DevRef τ sig)) shapeCasts_S512_S1x512 := by
  after_results_simp
  rfl
theorem ops1_arg1 (V : Valuation τ sig (Elt F)) : after ops1 V (main_arg1 : DevRef τ sig) = V (main_arg1 : DevRef τ sig) := by after_results_simp
theorem ops1_arg0 (V : Valuation τ sig (Elt F)) : after ops1 V (main_arg0 : DevRef τ sig) = V (main_arg0 : DevRef τ sig) := by after_results_simp
theorem ops1_arg2 (V : Valuation τ sig (Elt F)) : after ops1 V (main_arg2 : DevRef τ sig) = V (main_arg2 : DevRef τ sig) := by after_results_simp
theorem ops1_arg3 (V : Valuation τ sig (Elt F)) : after ops1 V (main_arg3 : DevRef τ sig) = V (main_arg3 : DevRef τ sig) := by after_results_simp
theorem ops1_arg4 (V : Valuation τ sig (Elt F)) : after ops1 V (main_arg4 : DevRef τ sig) = V (main_arg4 : DevRef τ sig) := by after_results_simp

attribute [local irreducible] shapeCast concatenate transpose broadcastInDim iotaInDim Host.remsi in
set_option maxRecDepth 16384 in
set_option maxHeartbeats 1600000 in
/-- The gather table after the second line: the projection's rows, the zero rows, the image rows. -/
theorem tab_eq (V : Valuation τ sig (Elt F)) (P : (main_v1 : Ref sig .tc).ty.Contents (Elt F)) :
    after ops2 ((wrote main_v1 P).result V) (main_v5 : DevRef τ sig) = KFun.tabF (F := F) P (V (main_arg1 : DevRef τ sig)) := by
  after_results_simp
  rfl

attribute [local irreducible] shapeCast concatenate transpose broadcastInDim iotaInDim Host.remsi in
set_option maxRecDepth 16384 in
set_option maxHeartbeats 1600000 in
/-- The index lists after the second line. -/
theorem idx_eq (V : Valuation τ sig (Elt F)) (P : (main_v1 : Ref sig .tc).ty.Contents (Elt F)) :
    after ops2 ((wrote main_v1 P).result V) (main_v34 : DevRef τ sig) = KFun.idxF (V (main_arg0 : DevRef τ sig)) := by
  after_results_simp
  rfl

attribute [local irreducible] shapeCast transpose in
/-- The program's result after the third line, from the gather kernel's. -/
theorem v38_eq (V : Valuation τ sig (Elt F)) (O : (main_v35 : Ref sig .tc).ty.Contents (Elt F)) :
    after ops3 ((wrote main_v35 O).result V) (main_v38 : DevRef τ sig) = KFun.tailF (F := F) O := by
  after_results_simp
  rfl

set_option maxRecDepth 16384 in
set_option maxHeartbeats 1600000 in
/-- The gather kernel's result buffer is as launched until the kernel runs. -/
theorem pre_v35 (V : Valuation τ sig (Elt F)) (P : (main_v1 : Ref sig .tc).ty.Contents (Elt F)) :
    after ops2 ((wrote main_v1 P).result (after ops1 V)) (main_v35 : DevRef τ sig) = V (main_v35 : DevRef τ sig) := by
  after_results_simp

/-- What the whole of @main leaves, from the launch contents `V`, the kernels' results `P` and `O` given. -/
abbrev Vend (V : Valuation τ sig (Elt F)) (P : (main_v1 : Ref sig .tc).ty.Contents (Elt F)) (O : (main_v35 : Ref sig .tc).ty.Contents (Elt F)) :
    Valuation τ sig (Elt F) :=
  after ops3 ((wrote main_v35 O).result (after ops2 ((wrote main_v1 P).result (after ops1 V))))

set_option maxRecDepth 16384 in
set_option maxHeartbeats 1600000 in
theorem end_arg0 (V : Valuation τ sig (Elt F)) (P O) : Vend V P O (main_arg0 : DevRef τ sig) = V (main_arg0 : DevRef τ sig) := by
  unfold Vend; after_results_simp
set_option maxRecDepth 16384 in
set_option maxHeartbeats 1600000 in
theorem end_arg1 (V : Valuation τ sig (Elt F)) (P O) : Vend V P O (main_arg1 : DevRef τ sig) = V (main_arg1 : DevRef τ sig) := by
  unfold Vend; after_results_simp
set_option maxRecDepth 16384 in
set_option maxHeartbeats 1600000 in
theorem end_arg2 (V : Valuation τ sig (Elt F)) (P O) : Vend V P O (main_arg2 : DevRef τ sig) = V (main_arg2 : DevRef τ sig) := by
  unfold Vend; after_results_simp
set_option maxRecDepth 16384 in
set_option maxHeartbeats 1600000 in
theorem end_arg3 (V : Valuation τ sig (Elt F)) (P O) : Vend V P O (main_arg3 : DevRef τ sig) = V (main_arg3 : DevRef τ sig) := by
  unfold Vend; after_results_simp
set_option maxRecDepth 16384 in
set_option maxHeartbeats 1600000 in
theorem end_arg4 (V : Valuation τ sig (Elt F)) (P O) : Vend V P O (main_arg4 : DevRef τ sig) = V (main_arg4 : DevRef τ sig) := by
  unfold Vend; after_results_simp

end Cert.Kernel.KProof

end
-- ==== Proof.Bits.KMainFin.lean ====
/-
  @main on the TensorCore, the final assertion read against the final state, and the program's run.
  @main: the first line; the projection kernel's region (its obligation a hypothesis here); the second line, which
  leaves the gather table and the index lists; the gather kernel's call, to which the table and the lists go as
  read shares, a half per SparseCore, and the output chunk by chunk; the third line, which leaves the result.
-/
import proofs.«204824_g46875273068696_cont_8to1_c_371_32_alg».proof.Proof.Bits.KLaunchElem
import proofs.«204824_g46875273068696_cont_8to1_c_371_32_alg».proof.Proof.Bits.KMainVal

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The valuations along @main -/

/-- The launch contents of device `d`'s buffers. -/
abbrev V₀ (d : Dev nD) : Valuation τ sig (Elt F) := launchContents m d
/-- After the first line. -/
abbrev V₁ (d : Dev nD) : Valuation τ sig (Elt F) := after ops1 (V₀ m d)
/-- The projection kernel's result. -/
abbrev P₁ (d : Dev nD) : (main_v1 : Ref sig .tc).ty.Contents (Elt F) :=
  Gen.k0_pay1 (V₁ m d (main_arg2 : DevRef τ sig)) (V₁ m d (main_arg3 : DevRef τ sig)) (V₁ m d (main_v0 : DevRef τ sig))
/-- After the second line. -/
abbrev V₂ (d : Dev nD) : Valuation τ sig (Elt F) := after ops2 ((wrote main_v1 (P₁ m d)).result (V₁ m d))

theorem P₁_eq (d : Dev nD) : P₁ m d = KFun.projF (F := F) (m ((SparseCore.T d).loc main_arg2)) (m ((SparseCore.T d).loc main_arg3)) (m ((SparseCore.T d).loc main_arg4)) := by
  unfold P₁ V₁
  rw [ops1_arg2, ops1_arg3, v0_eq]
  rfl

theorem tab_val (d : Dev nD) : V₂ m d (main_v5 : DevRef τ sig) = TABm m d := by
  unfold V₂
  rw [tab_eq, P₁_eq]
  unfold V₁
  rw [ops1_arg1]
  rfl
theorem idx_val (d : Dev nD) : V₂ m d (main_v34 : DevRef τ sig) = IDXm m d := by
  unfold V₂
  rw [idx_eq]
  unfold V₁
  rw [ops1_arg0]
  rfl
theorem out_val (d : Dev nD) : V₂ m d (main_v35 : DevRef τ sig) = m (outLoc d) := by
  unfold V₂ V₁
  rw [pre_v35]

/-- What @main leaves. -/
abbrev V₃ (d : Dev nD) : Valuation τ sig (Elt F) := after ops3 ((wrote main_v35 (OUTm m d)).result (V₂ m d))

theorem res_val (d : Dev nD) : V₃ m d (main_v38 : DevRef τ sig)
    = KFun.KG (F := F) (m ((SparseCore.T d).loc main_arg0)) (m ((SparseCore.T d).loc main_arg1)) (m ((SparseCore.T d).loc main_arg2)) (m ((SparseCore.T d).loc main_arg3)) (m ((SparseCore.T d).loc main_arg4)) := by
  unfold V₃
  rw [v38_eq]
  rfl
theorem arg0_val (d : Dev nD) : V₃ m d (main_arg0 : DevRef τ sig) = m ((SparseCore.T d).loc main_arg0) := (end_arg0 (V₀ m d) (P₁ m d) (OUTm m d)).trans rfl
theorem arg1_val (d : Dev nD) : V₃ m d (main_arg1 : DevRef τ sig) = m ((SparseCore.T d).loc main_arg1) := (end_arg1 (V₀ m d) (P₁ m d) (OUTm m d)).trans rfl
theorem arg2_val (d : Dev nD) : V₃ m d (main_arg2 : DevRef τ sig) = m ((SparseCore.T d).loc main_arg2) := (end_arg2 (V₀ m d) (P₁ m d) (OUTm m d)).trans rfl
theorem arg3_val (d : Dev nD) : V₃ m d (main_arg3 : DevRef τ sig) = m ((SparseCore.T d).loc main_arg3) := (end_arg3 (V₀ m d) (P₁ m d) (OUTm m d)).trans rfl
theorem arg4_val (d : Dev nD) : V₃ m d (main_arg4 : DevRef τ sig) = m ((SparseCore.T d).loc main_arg4) := (end_arg4 (V₀ m d) (P₁ m d) (OUTm m d)).trans rfl

/-! ## @main's arrays held whole, and a few of them taken out -/

omit [FloatOps F] in
/-- What the launch deals the TensorCore of @main's arrays is `held` over them at the launch contents. -/
theorem unscopedBufs_held (d : Dev nD) :
    (unscopedBufs d (fun b => m ((SparseCore.T d).loc b)) : sProp 𝕄) = held (SparseCore.T d) S₁ (launchContents m d) := by
  unfold unscopedBufs held S₁ tcRefs
  rw [Finset.filter_map, bigSep_map]
  rfl

omit [FloatOps F] in
theorem mem_S₁ (b : Ref sig .tc) (h : (b : DevRef τ sig).isScoped = false) : (b : DevRef τ sig) ∈ S₁ :=
  Finset.mem_filter.mpr ⟨devRef_mem_tcRefs b, by rw [h]; exact Bool.false_ne_true⟩

/-- The gather kernel's operands and result. -/
def L₃ : List (Ref sig .tc) := [main_v5, main_v34, main_v35]
def T₃ : Finset (DevRef τ sig) := (L₃.map (Proc.devRef (τ := τ) .tc)).toFinset
/-- The program's result and its arguments. -/
def L₆ : List (Ref sig .tc) := [main_v38, main_arg0, main_arg1, main_arg2, main_arg3, main_arg4]
def T₆ : Finset (DevRef τ sig) := (L₆.map (Proc.devRef (τ := τ) .tc)).toFinset

omit [FloatOps F] in
theorem sub_of_list (L : List (Ref sig .tc)) (h : ∀ r ∈ L, (r : DevRef τ sig).isScoped = false) :
    (L.map (Proc.devRef (τ := τ) .tc)).toFinset ⊆ S₁ := fun b hb => by
  obtain ⟨r, hr, rfl⟩ := List.mem_map.mp (List.mem_toFinset.mp hb)
  exact mem_S₁ r (h r hr)

omit [FloatOps F] in
theorem T₃_sub : T₃ ⊆ S₁ := sub_of_list L₃ (by decide)
omit [FloatOps F] in
theorem T₆_sub : T₆ ⊆ S₁ := sub_of_list L₆ (by decide)

omit [FloatOps F] in
theorem held_T₃ (d : Dev nD) (V : Valuation τ sig (Elt F)) :
    (held (SparseCore.T d) T₃ V : sProp 𝕄)
      = iprop((tabLoc d ↦{fullShare} V (main_v5 : DevRef τ sig)) ∗ (idxLoc d ↦{fullShare} V (main_v34 : DevRef τ sig))
          ∗ (outLoc d ↦{fullShare} V (main_v35 : DevRef τ sig))) := by
  unfold held T₃
  rw [bigSep_eq_bigSepL_of_eq (L₃.map (Proc.devRef (τ := τ) .tc)) rfl (List.Nodup.map (Proc.devRef_injective _) (by decide))]
  rfl

omit [FloatOps F] in
theorem held_T₆ (d : Dev nD) (V : Valuation τ sig (Elt F)) :
    (held (SparseCore.T d) T₆ V : sProp 𝕄)
      = iprop(((SparseCore.T d).loc main_v38 ↦{fullShare} V (main_v38 : DevRef τ sig))
          ∗ ((SparseCore.T d).loc main_arg0 ↦{fullShare} V (main_arg0 : DevRef τ sig)) ∗ ((SparseCore.T d).loc main_arg1 ↦{fullShare} V (main_arg1 : DevRef τ sig))
          ∗ ((SparseCore.T d).loc main_arg2 ↦{fullShare} V (main_arg2 : DevRef τ sig)) ∗ ((SparseCore.T d).loc main_arg3 ↦{fullShare} V (main_arg3 : DevRef τ sig))
          ∗ ((SparseCore.T d).loc main_arg4 ↦{fullShare} V (main_arg4 : DevRef τ sig))) := by
  unfold held T₆
  rw [bigSep_eq_bigSepL_of_eq (L₆.map (Proc.devRef (τ := τ) .tc)) rfl (List.Nodup.map (Proc.devRef_injective _) (by decide))]
  rfl

/-- The gather kernel's operands and result out of @main's arrays, at named contents. -/
theorem held_split3 (d : Dev nD) (V : Valuation τ sig (Elt F)) (A : Buf (Elt F) (tabLoc d)) (B : Buf (Elt F) (idxLoc d)) (C : Buf (Elt F) (outLoc d))
    (h5 : V (main_v5 : DevRef τ sig) = A) (h34 : V (main_v34 : DevRef τ sig) = B) (h35 : V (main_v35 : DevRef τ sig) = C) :
    (held (SparseCore.T d) S₁ V : sProp 𝕄)
      ⊢ iprop((tabLoc d ↦{fullShare} A) ∗ (idxLoc d ↦{fullShare} B) ∗ (outLoc d ↦{fullShare} C) ∗ held (SparseCore.T d) (S₁ \ T₃) V) := by
  rw [held_sub_split (SparseCore.T d) T₃_sub V, held_T₃, h5, h34, h35]
  iintro ⟨⟨H1, H2, H3⟩, H4⟩
  isplitl [H1]; · iexact H1
  isplitl [H2]; · iexact H2
  isplitl [H3]; · iexact H3
  iexact H4

/-- And back, the result at what the kernel left. -/
theorem held_join3 (d : Dev nD) (V : Valuation τ sig (Elt F)) (A : Buf (Elt F) (tabLoc d)) (B : Buf (Elt F) (idxLoc d)) (O : Buf (Elt F) (outLoc d))
    (h5 : V (main_v5 : DevRef τ sig) = A) (h34 : V (main_v34 : DevRef τ sig) = B) :
    iprop((tabLoc d ↦{fullShare} A) ∗ (idxLoc d ↦{fullShare} B) ∗ (outLoc d ↦{fullShare} O) ∗ held (SparseCore.T d) (S₁ \ T₃) V)
      ⊢ (held (SparseCore.T d) S₁ ((wrote main_v35 O).result V) : sProp 𝕄) := by
  rw [held_sub_split (SparseCore.T d) T₃_sub ((wrote main_v35 O).result V), held_T₃,
    nullary_result_ne (r := main_v5) _ _ _ _ (by decide), nullary_result_ne (r := main_v34) _ _ _ _ (by decide), nullary_result, h5, h34,
    held_congr (SparseCore.T d) (S := S₁ \ T₃) (V := (wrote main_v35 O).result V) (V' := V) (fun b hb => by
      refine (wrote main_v35 O).result_of_not_mem V fun hw => (Finset.mem_sdiff.mp hb).2 ?_
      rw [nullary_writes, Finset.mem_singleton] at hw
      subst hw
      exact List.mem_toFinset.mpr (List.mem_map.mpr ⟨main_v35, by decide, rfl⟩))]
  iintro ⟨H1, H2, H3, H4⟩
  isplitl [H1 H2 H3]
  · isplitl [H1]; · iexact H1
    isplitl [H2]; · iexact H2
    iexact H3
  iexact H4

/-! ## What @main ends holding, read against the final state -/

/-- What @main ends holding: the result at the program's function of the arguments, and the five arguments. -/
abbrev FIN (d : Dev nD) : sProp 𝕄 :=
  iprop(((SparseCore.T d).loc main_v38 ↦{fullShare} KFun.KG (F := F) (m ((SparseCore.T d).loc main_arg0)) (m ((SparseCore.T d).loc main_arg1)) (m ((SparseCore.T d).loc main_arg2)) (m ((SparseCore.T d).loc main_arg3)) (m ((SparseCore.T d).loc main_arg4)))
    ∗ ((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)))

/-- @main's arrays at what it leaves hold the final assertion. -/
theorem fin_of_held (d : Dev nD) : (held (SparseCore.T d) S₁ (V₃ m d) : sProp 𝕄) ⊢ FIN m d := by
  rw [held_sub_split (SparseCore.T d) T₆_sub (V₃ m d), held_T₆, res_val, arg0_val, arg1_val, arg2_val, arg3_val, arg4_val]
  exact sep_elim_left

def fq (d : Dev nD) (s' : Phys nD τ sig (Elt F)) : Prop :=
  s'.mem.mem ((SparseCore.T d).loc main_v38) = KFun.KG (F := F) (m ((SparseCore.T d).loc main_arg0)) (m ((SparseCore.T d).loc main_arg1)) (m ((SparseCore.T d).loc main_arg2)) (m ((SparseCore.T d).loc main_arg3)) (m ((SparseCore.T d).loc main_arg4))
  ∧ s'.mem.mem ((SparseCore.T d).loc main_arg0) = m ((SparseCore.T d).loc main_arg0) ∧ s'.mem.mem ((SparseCore.T d).loc main_arg1) = m ((SparseCore.T d).loc main_arg1)
  ∧ s'.mem.mem ((SparseCore.T d).loc main_arg2) = m ((SparseCore.T d).loc main_arg2) ∧ s'.mem.mem ((SparseCore.T d).loc main_arg3) = m ((SparseCore.T d).loc main_arg3)
  ∧ s'.mem.mem ((SparseCore.T d).loc main_arg4) = m ((SparseCore.T d).loc main_arg4)

theorem hfin (d : Dev nD) (s' : Phys nD τ sig (Elt F)) : iprop(FIN m d ∗ SI s') ⊢ (⌜fq m d s'⌝ : sProp 𝕄) := by
  iintro ⟨⟨H38, H0, H1, H2, H3, H4⟩, HSI⟩
  icombine HSI H38 gives %h38
  icombine HSI H0 gives %h0
  icombine HSI H1 gives %h1
  icombine HSI H2 gives %h2
  icombine HSI H3 gives %h3
  icombine HSI H4 gives %h4
  ipureintro
  exact ⟨funext fun i => h38 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

end Cert.Kernel.KProof

end
-- ==== Proof.Bits.KMain.lean ====
/-
  @main on the TensorCore and the program's run. @main: the first line; the projection kernel's region (its
  obligation a hypothesis here); the second line, which leaves the gather table and the index lists; the gather
  kernel's call, to which the table and the lists go as read shares, a half per SparseCore, and the output chunk by
  chunk; the third line, which leaves the result.
-/
import proofs.«204824_g46875273068696_cont_8to1_c_371_32_alg».proof.Proof.Bits.KMainFin

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the TensorCore owes before the one call, its recorded pairs bounded: the part of its handshake state a
    kernel region consults and hands back. -/
abbrev owesPart (d : Dev nD) : sProp 𝕄 :=
  iprop(∃ W, ⌜(K (F := F)).WBelow (SparseCore.T d) W (8 * 0)⌝ ∗ owes (SparseCore.T d) ((K (F := F)).Otc d 0) W)

/-- The projection kernel's region, as @main meets it: from the level facts, what the TensorCore owes, the region
    boundary, the pipeline's staging cells' ghost state and @main's arrays at any contents `V`, the call runs to
    the same with the kernel's result buffer at the projection of the three operands' contents. -/
def RegionObl : Prop := ∀ (d : Dev nD) (V : Valuation τ sig (Elt F)) (Φ : PUnit → sProp 𝕄),
  iprop(levAts (K (F := F)).L (K (F := F)).lev ∗ owesPart (F := F) d ∗ boundary (SparseCore.T d) ∗ G (F := F) d
      ∗ held (SparseCore.T d) S₁ V
      ∗ (iprop(owesPart (F := F) d ∗ boundary (SparseCore.T d)
          ∗ held (SparseCore.T d) S₁ ((wrote main_v1 (Gen.k0_pay1 (V (main_arg2 : DevRef τ sig)) (V (main_arg3 : DevRef τ sig)) (V (main_v0 : DevRef τ sig)))).result V))
          -∗ Φ ⟨⟩))
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ

/-- How the output splits among the workers (the array-splitting lemmas' statement, taken as a hypothesis here). -/
def OutChunks : Prop := ∀ (d : Dev nD) (f : Buf (Elt F) (outLoc d)),
  (outLoc d ↦{fullShare} f : sProp 𝕄) = bigSep Finset.univ fun c : Fin τ.nSC => bigSep Finset.univ fun i : Fin τ.nSub => outChunks d (wid c i) f

/-- What the call's start hands the SparseCores, regrouped by array. -/
theorem st_eq (d : Dev nD) : (bigSep Finset.univ fun c : Fin ((K (F := F)).nCore 0) => (Pm m).st 0 d c)
    = iprop((bigSep Finset.univ fun j : Fin 2 => tabLoc d ↦{Transfers.shareTok fullShare 2 j} TABm m d)
        ∗ (bigSep Finset.univ fun j : Fin 2 => idxLoc d ↦{Transfers.shareTok fullShare 2 j} IDXm m d)
        ∗ bigSep Finset.univ fun c : Fin τ.nSC => bigSep Finset.univ fun i : Fin τ.nSub => outChunks d (wid c i) (m (outLoc d))) := by
  show (bigSep Finset.univ fun c : Fin 2 => iprop((tabLoc d ↦{Transfers.shareTok fullShare 2 c} TABm m d)
      ∗ (idxLoc d ↦{Transfers.shareTok fullShare 2 c} IDXm m d) ∗ bigSep Finset.univ fun i : Fin τ.nSub => outChunks d (wid c i) (m (outLoc d)))) = _
  rw [bigSep_sep', bigSep_sep']
/-- What its end brings back. -/
theorem dn_eq (d : Dev nD) : (bigSep Finset.univ fun c : Fin ((K (F := F)).nCore 0) => (Pm m).dn 0 d c)
    = iprop((bigSep Finset.univ fun j : Fin 2 => tabLoc d ↦{Transfers.shareTok fullShare 2 j} TABm m d)
        ∗ (bigSep Finset.univ fun j : Fin 2 => idxLoc d ↦{Transfers.shareTok fullShare 2 j} IDXm m d)
        ∗ bigSep Finset.univ fun c : Fin τ.nSC => bigSep Finset.univ fun i : Fin τ.nSub => outChunks d (wid c i) (OUTm m d)) := by
  show (bigSep Finset.univ fun c : Fin 2 => iprop((tabLoc d ↦{Transfers.shareTok fullShare 2 c} TABm m d)
      ∗ (idxLoc d ↦{Transfers.shareTok fullShare 2 c} IDXm m d) ∗ bigSep Finset.univ fun i : Fin τ.nSub => outChunks d (wid c i) (OUTm m d))) = _
  rw [bigSep_sep', bigSep_sep']

-- a rule stated for any thread applied at the TensorCore's: unification may unfold plain definitions in a metavariable's type
set_option backward.isDefEq.respectTransparency.types false in
set_option maxHeartbeats 1600000 in
/-- @main on device `d`'s TensorCore. -/
theorem hmain (hreg : RegionObl (F := F)) (hout : OutChunks (F := F)) (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  generalize hpost : (fun _ : PUnit => iprop((K (F := F)).tcSt EH d 1 ∗ FIN m d)) = Qp
  unfold SparseCore.Cfg.tcRes
  rw [unscopedBufs_held, main_eq]
  unfold SparseCore.Cfg.tcSt
  iintro ⟨#Hctx, ⟨HO, Hrest⟩, ⟨Hb, Hbufs, -, -⟩, HG⟩
  -- the first line
  iapply (wp_seq 𝒱 none Set.univ d S₁ _ ops1 ops1_sub ops1_fresh (launchContents m d)) $$ [Hb Hbufs]
  · isplitl [Hb] <;> iassumption
  iintro ⟨Hb, Hbufs⟩
  -- the projection kernel
  beta_reduce
  rw [wp_bind]
  iapply (hreg d (V₁ m d) _)
  isplitr; · iapply (SparseCore.Cfg.ctx_levAts κ); iexact Hctx
  isplitl [HO]; · iexact HO
  isplitl [Hb]; · iexact Hb
  isplitl [HG]; · iexact HG
  isplitl [Hbufs]; · iexact Hbufs
  iintro ⟨HO, Hb, Hbufs⟩
  -- the second line
  beta_reduce
  iapply (wp_seq 𝒱 none Set.univ d S₁ _ ops2 ops2_sub ops2_fresh _) $$ [Hb Hbufs]
  · isplitl [Hb] <;> iassumption
  iintro ⟨Hb, Hbufs⟩
  beta_reduce
  rw [wp_bind]
  -- the gather kernel's operands out of @main's arrays, as read shares and chunks
  ihave Hs := (held_split3 d (V₂ m d) (TABm m d) (IDXm m d) (m (outLoc d)) (tab_val m d) (idx_val m d) (out_val m d)) $$ Hbufs
  icases Hs with ⟨Htab, Hidx, Hout, Hframe⟩
  ihave Ht := (Transfers.pointsTo_toks_split fullShare 2) $$ Htab
  icases Ht with ⟨Htab0, Htabs⟩
  ihave Hi := (Transfers.pointsTo_toks_split fullShare 2) $$ Hidx
  icases Hi with ⟨Hidx0, Hidxs⟩
  ihave Hout' := (Entails.of_eq (hout d (m (outLoc d)))) $$ Hout
  iapply ((K (F := F)).wp_run (D (F := F)) 𝒱 (EH := EH) (P := Pm m) κ d 0)
  isplitr; · iexact Hctx
  isplitl [HO Hrest]
  · unfold SparseCore.Cfg.tcSt
    isplitl [HO]; · iexact HO
    iexact Hrest
  isplitl [Htabs Hidxs Hout']
  · rw [st_eq]
    isplitl [Htabs]; · iexact Htabs
    isplitl [Hidxs]; · iexact Hidxs
    iexact Hout'
  iintro ⟨Hst, Hdn⟩
  ihave Hdn' := (Entails.of_eq (dn_eq m d)) $$ Hdn
  icases Hdn' with ⟨Htabs, Hidxs, Houts⟩
  ihave Htab := (Transfers.pointsTo_toks_join fullShare 2) $$ [Htab0 Htabs]
  · isplitl [Htab0] <;> iassumption
  ihave Hidx := (Transfers.pointsTo_toks_join fullShare 2) $$ [Hidx0 Hidxs]
  · isplitl [Hidx0] <;> iassumption
  ihave Hout := (Entails.of_eq (hout d (OUTm m d)).symm) $$ Houts
  ihave Hbufs := (held_join3 d (V₂ m d) (TABm m d) (IDXm m d) (OUTm m d) (tab_val m d) (idx_val m d)) $$ [Htab Hidx Hout Hframe]
  · isplitl [Htab]; · iexact Htab
    isplitl [Hidx]; · iexact Hidx
    isplitl [Hout]; · iexact Hout
    iexact Hframe
  -- the third line
  rw [show (seq ops3 : Prog (TpuEff nD τ sig (Elt F) (SparseCore.Sig (ΛP (F := F)) 1) .tc) PUnit) = (seq ops3 >>= fun u => Pure.pure u) from (bind_pure _).symm]
  iapply (wp_seq 𝒱 none Set.univ d S₁ _ ops3 ops3_sub ops3_fresh _) $$ [Hb Hbufs]
  · isplitl [Hb] <;> iassumption
  iintro ⟨-, Hbufs⟩
  rw [wp_pure]; imodintro
  subst hpost
  beta_reduce
  ihave Hst' := (Entails.of_eq (show (K (F := F)).tcSt EH d ((0 : Fin 1).val + 1) = (K (F := F)).tcSt EH d 1 from rfl)) $$ Hst
  isplitl [Hst']; · iexact Hst'
  iapply (fin_of_held m d); iexact Hbufs

/-! ## The program's run -/

theorem run_main_of [∀ e, Nonempty (Elt F e)] (hreg : RegionObl (F := F)) (hout : OutChunks (F := F))
    (htile : (K (F := F)).TileObl (D (F := F)) 𝒱 (Pm m) v₀ 0) (hsplit : (K (F := F)).VecSplit (Pm m) 0) :
    θ_run (Cert.Kernel.defs (F := F)) (Cert.Kernel.threads (F := F)) ⟨m, fun _ => 0, ρ⟩ (fun r => ∀ c : Dev nD,
        r.2.mem ((c.tc : Thread nD τ).loc main_v38) = KFun.KG (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  SparseCore.Cfg.θ_run_sc (K := K (F := F)) (D := D (F := F)) (𝒱 := 𝒱) (EH := EH) (P := Pm m) facts v₀
    (fun q hq => match q with | 0 => nomatch hq)
    (fun q _ => match q with | 0 => htile)
    (fun q _ => match q with | 0 => hsplit)
    m ρ main (G (F := F)) (FIN m) (u₀ (F := F)) (hu₀ m) (hmain m ρ hreg hout) (fq m) (hfin m) _ (fun _ h => h)

end Cert.Kernel.KProof

end
-- ==== Proof.Bits.KRegionBody.lean ====
/-
  The projection kernel's body and the pipeline's proof data: the three input windows hold their arrays whole, the
  body loads them and stores the projection into the output window's buffer, whole; the TensorCore owes its start
  signals throughout and records only waits at the transfers' own index.
-/
import proofs.«204824_g46875273068696_cont_8to1_c_371_32_alg».proof.Proof.Bits.KMain
import proofs.«204824_g46875273068696_cont_8to1_c_371_32_alg».proof.Proof.Gen.Kernel.Points
import Idealize.ShloMosaic.Lib.Pipeline.FrameBody
import Idealize.ShloMosaic.Lib.Pipeline.Regions

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-- The valuation's contents at a TensorCore reference, as a core's buffer contents. -/
abbrev Vb (c : Dev nD) (b : Ref sig .tc) : Buf (Elt F) ((c : Thread nD τ).loc b) := V (b : DevRef τ sig)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (Vb V c (Pipeline.arrRef spec0 w))

abbrev rA : Rect S1000x512 := Rect.unit (s := S1000x512) ![0, 0] S1000x512.size inb_S1000x512_S1000x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-- The output window's buffer after the body, from the input windows' blocks: its one store, whole. -/
def out3 (x0 : Vec F S1000x512 .f32) (x1 : Vec F S512x512 .f32) (x2 : Vec F S1x512 .f32) : Vec F S1000x512 .f32 :=
  View.canon [⟨rA, k0_pay1 (View.ld x0 rA) (View.ld x1 rW) (View.ld x2 rB)⟩]

omit [FloatOps F] in
/-- The one store covers the buffer. -/
theorem cover3 (p0 : Vec F S1000x512 .f32) (y : S1000x512.Idx) :
    ∃ pc ∈ ([⟨rA, p0⟩] : List (View.Piece (Elt F) S1000x512 .f32)), y ∈ pc.1.set :=
  View.cover_of_tiled [⟨rA, p0⟩] S1000x512.size (by rfl) y

set_option maxHeartbeats 2000000 in
/-- The kernel body on whole staging memrefs: the inputs' kept, the output's at `out3` of the inputs'. -/
theorem sound_kernel (c : Dev nD) (E : Set ℕ) (arg0 : Memref sig .tc .vmem S1000x512 .f32) (harg0 : arg0.IsWhole)
    (arg1 : Memref sig .tc .vmem S512x512 .f32) (harg1 : arg1.IsWhole) (arg2 : Memref sig .tc .vmem S1x512 .f32) (harg2 : arg2.IsWhole)
    (arg3 : Memref sig .tc .vmem S1000x512 .f32) (harg3 : arg3.IsWhole)
    (x0 : Vec F S1000x512 .f32) (x1 : Vec F S512x512 .f32) (x2 : Vec F S1x512 .f32) (Kk : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ Kk ⟨⟩))
      ⊢ wp frame (wpE (defs₀ (F := F)) Variants.none c none) E (cc0__proj_body arg0 harg0 arg1 harg1 arg2 harg2 arg3 harg3) Kk := by
  simp only [cc0__proj_body_eq_skeleton]; unfold cc0__proj_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the projection pipeline on core `c`: the arrays at the valuation's contents; after the body each
    input's buffer at its block and the output's at `out3` of the input blocks; no invariant of its own; full shares;
    the core owing its start signals throughout; its recorded waits at the transfers' own index. -/
def dats (_ : Fin 1) (c : Dev nD) : Dat τ (Elt F) (HIx 1) ℕ UU ℕ cfg0 c where
  A w := Vb V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := iprop(emp)
  q _ := fullShare
  owed _ := (K (F := F)).Otc c 0
  recorded _ := {p | p.2 = none}

theorem A_eq (c : Dev nD) (w : Fin cfg0.W) : (dats V 0 c).A w = Vb V c (Pipeline.arrRef spec0 w) := by
  dsimp only [dats]
theorem after0_0 (c : Dev nD) (t : Fin cfg0.N) : (dats V 0 c).after 0 t = iblk V c 0 t := by dsimp only [dats]
theorem after0_1 (c : Dev nD) (t : Fin cfg0.N) : (dats V 0 c).after 1 t = iblk V c 1 t := by dsimp only [dats]
theorem after0_2 (c : Dev nD) (t : Fin cfg0.N) : (dats V 0 c).after 2 t = iblk V c 2 t := by dsimp only [dats]
theorem after0_3 (c : Dev nD) (t : Fin cfg0.N) : (dats V 0 c).after 3 t = out3 (iblk V c 0 t) (iblk V c 1 t) (iblk V c 2 t) := by dsimp only [dats]

/-- Each input's current staging buffer holds its block at every point. -/
theorem before0_0 (c : Dev nD) (t : Fin cfg0.N) (d) : (dats V 0 c).before 0 t d = iblk V c 0 t :=
  ((dats V 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats V 0 c).before 1 t d = iblk V c 1 t :=
  ((dats V 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats V 0 c).before 2 t d = iblk V c 2 t :=
  ((dats V 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d)))

/-- and what it returns. -/
def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dats V 0 c).Φ t.succ = (dats V 0 c).Φ t.castSucc from rfl,
    show (dats V 0 c).owesAt none t.succ = (dats V 0 c).owesAt none t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) V 0 c) (defs₀ (F := F)) Variants.none none Set.univ := fun t => by
  rw [bigSep_W0, bigSep_W0]
  exact sound_body V c t

end Cert.Kernel.KProof

end
-- ==== Proof.Bits.KRegion.lean ====
/-
  The projection kernel's region, as @main meets it. The pipeline's one point fetches the three operands whole,
  runs the body, writes the result back whole; the TensorCore owes its start signals meanwhile, so every wait of the
  region is at the transfers' own index, below them. After it the result buffer holds the projection of the
  operands' contents and everything else is as it was.
-/
import proofs.«204824_g46875273068696_cont_8to1_c_371_32_alg».proof.Proof.Bits.KRegionBody
import Idealize.ShloMosaic.Lib.Pipeline.Value

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-! ## The blocks are the arrays, whole -/

omit [FloatOps F] in
theorem hz2 : (![0, 0] : Fin 2 → Nat) = fun _ => 0 := funext fun a => by fin_cases a <;> rfl

/-- The one point's block indices are zero. -/
theorem idx_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem emb0 (t : Fin cfg0.N) (j : S1000x512.Idx) : ((cfg0.win 0).blk t).view.emb j = j := by
  obtain ⟨e0, e1, -⟩ := idx_zero t
  funext a; apply Fin.ext
  match a with
  | ⟨0, _⟩ => show win0_0.index t (0 : Fin 2) * 1000 + 1 * (j 0).val = (j 0).val; omega
  | ⟨1, _⟩ => show win0_0.index t (1 : Fin 2) * 512 + 1 * (j 1).val = (j 1).val; omega
theorem emb1 (t : Fin cfg0.N) (j : S512x512.Idx) : ((cfg0.win 1).blk t).view.emb j = j := by
  obtain ⟨-, -, e0, e1, -⟩ := idx_zero t
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega
theorem emb2 (t : Fin cfg0.N) (j : S1x512.Idx) : ((cfg0.win 2).blk t).view.emb j = j := by
  obtain ⟨-, -, -, -, e0, e1, -⟩ := idx_zero t
  funext a; apply Fin.ext
  match a with
  | ⟨0, _⟩ => show win0_2.index t (0 : Fin 2) * 1 + 1 * (j 0).val = (j 0).val; omega
  | ⟨1, _⟩ => show win0_2.index t (1 : Fin 2) * 512 + 1 * (j 1).val = (j 1).val; omega
theorem emb3 (t : Fin cfg0.N) (j : S1000x512.Idx) : ((cfg0.win 3).blk t).view.emb j = j := by
  obtain ⟨-, -, -, -, -, -, e0, e1⟩ := idx_zero t
  funext a; apply Fin.ext
  match a with
  | ⟨0, _⟩ => show win0_3.index t (0 : Fin 2) * 1000 + 1 * (j 0).val = (j 0).val; omega
  | ⟨1, _⟩ => show win0_3.index t (1 : Fin 2) * 512 + 1 * (j 1).val = (j 1).val; omega

theorem iblk0_eq (c : Dev nD) (t : Fin cfg0.N) : iblk V c 0 t = Vb V c main_arg2 := by
  funext j; unfold iblk; rw [View.read_apply, emb0]; rfl
theorem iblk1_eq (c : Dev nD) (t : Fin cfg0.N) : iblk V c 1 t = Vb V c main_arg3 := by
  funext j; unfold iblk; rw [View.read_apply, emb1]; rfl
theorem iblk2_eq (c : Dev nD) (t : Fin cfg0.N) : iblk V c 2 t = Vb V c main_v0 := by
  funext j; unfold iblk; rw [View.read_apply, emb2]; rfl

/-- The projection of the operands' contents. -/
abbrev Gout (c : Dev nD) : Buf (Elt F) ((c : Thread nD τ).loc main_v1) :=
  Gen.k0_pay1 (Vb V c main_arg2) (Vb V c main_arg3) (Vb V c main_v0)

variable [∀ e, Nonempty (Elt F e)]

/-- What the point writes back is the projection, whole. -/
theorem flushed3_eq (c : Dev nD) (t : Fin cfg0.N) :
    (dats V 0 c).flushed 3 t = ((cfg0.win 3).blk t).view.read (Elt F) (Gout V c) := by
  show (cfg0.win 3).cut (grid0.coords t) ((dats V 0 c).after 3 t) = _
  rw [after0_3, iblk0_eq, iblk1_eq, iblk2_eq]
  unfold out3
  rw [View.canon_unit_zero hz2]
  simp only [View.ld_unit_zero (S := S1000x512) hz2, View.ld_unit_zero (S := S512x512) hz2, View.ld_unit_zero (S := S1x512) hz2]
  funext j
  rw [View.read_apply, emb3]
  rfl

omit [FloatOps F] [∀ e, Nonempty (Elt F e)] in
theorem mem_blk3 (t : Fin cfg0.N) (i : S1000x512.Idx) : i ∈ ((cfg0.win 3).blk t).view.set := by
  obtain ⟨-, -, -, -, -, -, e0, e1⟩ := idx_zero t
  show i ∈ ((View.whole main_v1).slice (win0_3.rect t)).set
  rw [View.set_slice_whole, Rect.mem_set_unit]
  intro a
  match a with
  | ⟨0, _⟩ => show win0_3.index t (0 : Fin 2) * 1000 ≤ (i 0).val ∧ (i 0).val < win0_3.index t (0 : Fin 2) * 1000 + 1000; have := (i 0).isLt; have h : S1000x512.size 0 = 1000 := rfl; omega
  | ⟨1, _⟩ => show win0_3.index t (1 : Fin 2) * 512 ≤ (i 1).val ∧ (i 1).val < win0_3.index t (1 : Fin 2) * 512 + 512; have := (i 1).isLt; have h : S1000x512.size 1 = 512 := rfl; omega

/-- The result array after the region: the projection. -/
theorem final3 (c : Dev nD) : (dats V 0 c).arrAt 3 cfg0.N = Gout V c :=
  (dats V 0 c).arrAt_eq_of_cover 3 _ (fun t _ => flushed3_eq V c t) (fun i => ⟨t0_0, flush0_3 t0_0, mem_blk3 t0_0 i⟩)

/-! ## The region's record -/

/-- The one admissible contents of the pipeline's (absent) prefetched tables. -/
abbrev adm : (p : Fin 1) → (pcfgs (F := F) p).Adm := fun p => (cfgs p).toPCfg_adm

omit [∀ e, Nonempty (Elt F e)] in
/-- At the transfers' own index the TensorCore owes nothing. -/
theorem Otc_none (d : Dev nD) (g : GSem nD τ sig) : (K (F := F)).Otc d 0 g none = 0 :=
  Nat.eq_zero_of_not_pos fun h => by
    have := SparseCore.Cfg.lev_of_Otc_pos (K := K (F := F)) h
    rw [SparseCore.Cfg.lev_none] at this
    omega

/-- What the region is entered with, besides the boundary and the cells' ghost state: what the core owes, and the
    pipeline's four arrays. -/
abbrev regPre (c : Dev nD) : sProp 𝕄 :=
  iprop(owesPart (F := F) c ∗ (dats V 0 c).arrays (dats V 0 c).A)
/-- What it leaves. -/
abbrev regPost (c : Dev nD) : sProp 𝕄 :=
  iprop(owesPart (F := F) c ∗ (dats V 0 c).arrays ((dats V 0 c).arrAt · cfg0.N))

omit [∀ e, Nonempty (Elt F e)] in
theorem owes_in (c : Dev nD) : (owesPart (F := F) c : sProp 𝕄) ⊢ (dats V 0 c).owesAt none 0 := by
  iintro ⟨%W, %hW, HO⟩
  iexists W
  isplitr
  · ipureintro
    intro p hp
    refine Or.inl ?_
    show p.2 = none
    have h := hW p hp
    rcases hp2 : p.2 with _ | q
    · rfl
    · rw [hp2] at h
      exact absurd h (by have := (K (F := F)).lev_some_pos (SparseCore.T c, p.1) q; omega)
  · iexact HO

omit [∀ e, Nonempty (Elt F e)] in
theorem owes_out (c : Dev nD) : ((dats V 0 c).owesAt none (Fin.last cfg0.N) : sProp 𝕄) ⊢ owesPart (F := F) c := by
  iintro ⟨%W, %hW, HO⟩
  iexists W
  isplitr
  · ipureintro
    intro p hp
    have h : p.2 = none := by
      rcases hW hp with h | ⟨w, s, h⟩
      · exact h
      · rw [h]
    rw [h, SparseCore.Cfg.lev_none]
  · iexact HO

/-- The region, as the library's record of it: the decided layout, no semaphore of the kernel's own, the body
    obligation, the waits' evidence, and the entry and exit around the two thread states. -/
def seg : Pipeline.RegionSeg (pcfgs (F := F)) adm (fun p c => dats V p c) (none : HIx 1) (defs₀ (F := F)) Variants.none
    (K (F := F)).L (K (F := F)).lev (0 : Fin 1) where
  win := winFacts0.to₀
  block_pos := block_pos0
  stage_whole := stage_whole0
  K := Fin 0
  osem := fun k => k.elim0
  ho := ⟨fun k => k.elim0, fun k => k.elim0, fun k => k.elim0⟩
  hbody := fun c => (body_obligation V c).loose
  hwaits := fun c => Pipeline.cellsWaits_intro cfgs (fun p c => dats V p c) (none : HIx 1) (0 : Fin 1) c
    fun w s t => (K (F := F)).mayWait_none (thr := (c : Thread nD τ)) (.dma ((cfg0.win w).sem s)) (Otc_none c)
  pre := regPre V
  post := regPost V
  X := fun _ => iprop(emp)
  Y := fun _ => iprop(emp)
  Z := fun _ => iprop(emp)
  hentry := fun c => by
    iintro ⟨⟨HO, Ha⟩, -, -⟩
    imodintro
    isplitl [Ha]; · iexact Ha
    isplitr
    · unfold Pipeline.prefHeld
      rw [show (Finset.univ : Finset (Fin 0)) = ∅ from rfl, bigSep_empty]; iempintro
    isplitl [HO]; · iapply (owes_in V c); iexact HO
    isplitr <;> iempintro
  hin := fun c => fun _ _ => trivial
  hout := fun c => by
    rw [scopedRest0_eq]
    unfold Pipeline.ownSems0
    rw [show (Finset.univ : Finset (Fin 0)) = ∅ from rfl, bigSep_empty]
    iintro -
    isplitr; · iempintro
    isplitr <;> iempintro
  hexit := fun c => by
    iintro ⟨Ha, HO, -, -⟩
    imodintro
    isplitl [HO]; · iapply (owes_out V c); iexact HO
    iexact Ha

/-! ## The region in @main -/

/-- The pipeline's four arrays. -/
def L₄ : List (Ref sig .tc) := [main_arg2, main_arg3, main_v0, main_v1]
def T₄ : Finset (DevRef τ sig) := (L₄.map (Proc.devRef (τ := τ) .tc)).toFinset

omit [FloatOps F] [∀ e, Nonempty (Elt F e)] in
theorem T₄_sub : T₄ ⊆ S₁ := sub_of_list L₄ (by decide)

omit [FloatOps F] [∀ e, Nonempty (Elt F e)] in
theorem held_T₄ (d : Dev nD) (V : Valuation τ sig (Elt F)) :
    (held (SparseCore.T d) T₄ V : sProp 𝕄)
      = iprop(((SparseCore.T d).loc main_arg2 ↦{fullShare} V (main_arg2 : DevRef τ sig)) ∗ ((SparseCore.T d).loc main_arg3 ↦{fullShare} V (main_arg3 : DevRef τ sig))
          ∗ ((SparseCore.T d).loc main_v0 ↦{fullShare} V (main_v0 : DevRef τ sig)) ∗ ((SparseCore.T d).loc main_v1 ↦{fullShare} V (main_v1 : DevRef τ sig))) := by
  unfold held T₄
  rw [bigSep_eq_bigSepL_of_eq (L₄.map (Proc.devRef (τ := τ) .tc)) rfl (List.Nodup.map (Proc.devRef_injective _) (by decide))]
  rfl

omit [∀ e, Nonempty (Elt F e)] in
/-- The four arrays back among @main's, the result at what the kernel left. -/
theorem held_join4 (d : Dev nD) (V : Valuation τ sig (Elt F)) (P : (main_v1 : Ref sig .tc).ty.Contents (Elt F)) :
    iprop(((SparseCore.T d).loc main_arg2 ↦{fullShare} V (main_arg2 : DevRef τ sig)) ∗ ((SparseCore.T d).loc main_arg3 ↦{fullShare} V (main_arg3 : DevRef τ sig))
        ∗ ((SparseCore.T d).loc main_v0 ↦{fullShare} V (main_v0 : DevRef τ sig)) ∗ ((SparseCore.T d).loc main_v1 ↦{fullShare} P)
        ∗ held (SparseCore.T d) (S₁ \ T₄) V)
      ⊢ (held (SparseCore.T d) S₁ ((wrote main_v1 P).result V) : sProp 𝕄) := by
  rw [held_sub_split (SparseCore.T d) T₄_sub ((wrote main_v1 P).result V), held_T₄,
    nullary_result_ne (r := main_arg2) _ _ _ _ (by decide), nullary_result_ne (r := main_arg3) _ _ _ _ (by decide),
    nullary_result_ne (r := main_v0) _ _ _ _ (by decide), nullary_result,
    held_congr (SparseCore.T d) (S := S₁ \ T₄) (V := (wrote main_v1 P).result V) (V' := V) (fun b hb => by
      refine (wrote main_v1 P).result_of_not_mem V fun hw => (Finset.mem_sdiff.mp hb).2 ?_
      rw [nullary_writes, Finset.mem_singleton] at hw
      subst hw
      exact List.mem_toFinset.mpr (List.mem_map.mpr ⟨main_v1, by decide, rfl⟩))]
  iintro ⟨H1, H2, H3, H4, H5⟩
  isplitl [H1 H2 H3 H4]
  · isplitl [H1]; · iexact H1
    isplitl [H2]; · iexact H2
    isplitl [H3]; · iexact H3
    iexact H4
  iexact H5

end Cert.Kernel.KProof

end
-- ==== Proof.Bits.KRegionWp.lean ====
/-
  The projection kernel's region in @main: the four arrays taken out of @main's, the region entered through the
  library's record of it, the arrays put back with the result at the projection.
-/
import proofs.«204824_g46875273068696_cont_8to1_c_371_32_alg».proof.Proof.Bits.KRegion

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo
open Idealize.ShloMosaic.TcCoe
open Idealize.ShloMosaic.Pipeline (Dat Cfg Window BodyObligation cellOf)

variable {F : FTy → Type}

local notation "𝕄" => MT nD τ sig (HIx 1) (Elt F) ℕ UU ℕ

set_option maxRecDepth 16384

variable [FloatOps F]
variable (V : Valuation τ sig (Elt F))

/-- The pipeline's arrays, one by one. -/
theorem arrays_eq (c : Dev nD) (Fw : (w : Fin cfg0.W) → Buf (Elt F) ((cfg0.win w).arr.view.loc (c : Thread nD τ))) :
    ((dats V 0 c).arrays Fw : sProp 𝕄)
      = iprop(((SparseCore.T c).loc main_arg2 ↦{fullShare} Fw 0) ∗ ((SparseCore.T c).loc main_arg3 ↦{fullShare} Fw 1)
          ∗ ((SparseCore.T c).loc main_v0 ↦{fullShare} Fw 2) ∗ ((SparseCore.T c).loc main_v1 ↦{fullShare} Fw 3)) := by
  rw [Pipeline.arrays_eq cfgs (fun p c => dats V p c) (0 : Fin 1) c arr_whole0 (fun w => Dat.share_full _ (fun _ => rfl) w), bigSep_W0]

/-- At entry they hold the valuation's contents; -/
theorem arraysA_eq (c : Dev nD) :
    ((dats V 0 c).arrays (dats V 0 c).A : sProp 𝕄)
      = iprop(((SparseCore.T c).loc main_arg2 ↦{fullShare} V (main_arg2 : DevRef τ sig)) ∗ ((SparseCore.T c).loc main_arg3 ↦{fullShare} V (main_arg3 : DevRef τ sig))
          ∗ ((SparseCore.T c).loc main_v0 ↦{fullShare} V (main_v0 : DevRef τ sig)) ∗ ((SparseCore.T c).loc main_v1 ↦{fullShare} V (main_v1 : DevRef τ sig))) := by
  rw [arrays_eq, A_eq, A_eq, A_eq, A_eq]

variable [∀ e, Nonempty (Elt F e)]

/-- after the region the operands' are unchanged and the result's is the projection. -/
theorem arraysN_eq (c : Dev nD) :
    ((dats V 0 c).arrays ((dats V 0 c).arrAt · cfg0.N) : sProp 𝕄)
      = iprop(((SparseCore.T c).loc main_arg2 ↦{fullShare} V (main_arg2 : DevRef τ sig)) ∗ ((SparseCore.T c).loc main_arg3 ↦{fullShare} V (main_arg3 : DevRef τ sig))
          ∗ ((SparseCore.T c).loc main_v0 ↦{fullShare} V (main_v0 : DevRef τ sig))
          ∗ ((SparseCore.T c).loc main_v1 ↦{fullShare} Gen.k0_pay1 (V (main_arg2 : DevRef τ sig)) (V (main_arg3 : DevRef τ sig)) (V (main_v0 : DevRef τ sig)))) := by
  rw [arrays_eq]
  beta_reduce
  rw [(dats V 0 c).arrAt_in 0 rfl, (dats V 0 c).arrAt_in 1 rfl, (dats V 0 c).arrAt_in 2 rfl, final3, A_eq, A_eq, A_eq]

set_option backward.isDefEq.respectTransparency.types false in
set_option maxHeartbeats 1600000 in
/-- The call, lifted to the program's extended signature. -/
theorem region_lift (d : Dev nD) (Φ : PUnit → sProp 𝕄) :
    wp frame (wpE (D (F := F)) 𝒱 (SparseCore.T d) none) Set.univ (Prog.lift (.customCall (Pipeline.entry 0) ())) Φ
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ :=
  (K (F := F)).wp_liftProg (D (F := F)) 𝒱 (SparseCore.T d) Set.univ none (Prog.lift (.customCall (Pipeline.entry 0) ())) Φ

set_option backward.isDefEq.respectTransparency.types false in
set_option maxHeartbeats 1600000 in
/-- The region through the library's rule, at the record. -/
theorem region_seg (d : Dev nD) (Φ : PUnit → sProp 𝕄) :
    iprop((iprop(boundary (SparseCore.T d) ∗ regPost V d) -∗ wp frame (wpE (D (F := F)) 𝒱 (SparseCore.T d) none) Set.univ (.ret ⟨⟩) Φ)
        ∗ boundary (SparseCore.T d) ∗ regPre V d ∗ levAts (K (F := F)).L (K (F := F)).lev ∗ G (F := F) d)
      ⊢ wp frame (wpE (D (F := F)) 𝒱 (SparseCore.T d) none) Set.univ (Prog.lift (.customCall (Pipeline.entry 0) ())) Φ :=
  Pipeline.RegionSeg.wp (pcfgs (F := F)) adm (fun p c => dats V p c) (none : HIx 1) cellOf_inj EPp (defs₀ (F := F)) Variants.none
      (K (F := F)).L (K (F := F)).lev (seg V) d none (fun u h => nomatch h) (fun u => .ret u) Φ

/-- From the four arrays and the rest of @main's, at the valuation's contents, to the same with the result at the
    projection. -/
theorem region_core (d : Dev nD) (Φ : PUnit → sProp 𝕄) :
    iprop(levAts (K (F := F)).L (K (F := F)).lev ∗ owesPart (F := F) d ∗ boundary (SparseCore.T d) ∗ G (F := F) d
      ∗ (dats V 0 d).arrays (dats V 0 d).A
      ∗ (iprop(owesPart (F := F) d ∗ boundary (SparseCore.T d) ∗ (dats V 0 d).arrays ((dats V 0 d).arrAt · cfg0.N)) -∗ Φ ⟨⟩))
    ⊢ wp frame (wpE ((K (F := F)).defs (D (F := F))) 𝒱 (SparseCore.T d) none) Set.univ
        (Prog.lift (.customCall (SparseCore.inner (Pipeline.entry 0)) ()) : Prog (TpuEff nD τ sig (Elt F) (SparseCore.Sig (ΛP (F := F)) 1) .tc) PUnit) Φ := by
  refine BI.Entails.trans ?_ (region_lift d Φ)
  refine BI.Entails.trans ?_ (region_seg V d Φ)
  change (_ : sProp 𝕄) ⊢ _
  iintro ⟨#Hlev, HO, Hb, HG, Ha, Hk⟩
  isplitl [Hk]
  · iintro ⟨Hb, HO, Ha⟩
    rw [wp_ret]; imodintro
    iapply Hk
    isplitl [HO]; · iexact HO
    isplitl [Hb]; · iexact Hb
    iexact Ha
  isplitl [Hb]; · iexact Hb
  isplitl [HO Ha]
  · isplitl [HO]; · iexact HO
    iexact Ha
  isplitr; · iexact Hlev
  iexact HG

/-- The projection kernel's region. -/
theorem region_wp : RegionObl (F := F) := by
  intro d V Φ
  refine BI.Entails.trans ?_ (region_core V d Φ)
  rw [arraysA_eq, arraysN_eq, held_sub_split (SparseCore.T d) T₄_sub V, held_T₄]
  change (_ : sProp 𝕄) ⊢ _
  iintro ⟨#Hlev, HO, Hb, HG, ⟨Ha, Hrest⟩, Hk⟩
  isplitr; · iexact Hlev
  isplitl [HO]; · iexact HO
  isplitl [Hb]; · iexact Hb
  isplitl [HG]; · iexact HG
  isplitl [Ha]; · iexact Ha
  iintro ⟨HO, Hb, ⟨H2, H3, H0, H1⟩⟩
  iapply Hk
  isplitl [HO]; · iexact HO
  isplitl [Hb]; · iexact Hb
  iapply (held_join4 d V _)
  isplitl [H2]; · iexact H2
  isplitl [H3]; · iexact H3
  isplitl [H0]; · iexact H0
  isplitl [H1]; · iexact H1
  iexact Hrest

end Cert.Kernel.KProof

end
-- ==== Proof.Bits.KSplit.lean ====
/-
  How the arrays split among the vector subcores: the output into the 32 workers' 320 chunks of 64 rows each, a
  SparseCore's shared table into the rows each of its sixteen subcores stages.

  A row `r` of the output lies in exactly one chunk — caption position `r / 32768`, worker `r % 32768 / 1024`, sixteenth
  `r % 1024 / 64` of the worker's 1024 rows there —, and a row of the shared table in exactly one subcore's rows: below
  4096 in rows A of subcore `r / 256`, from 4096 on in rows B of subcore `(r - 4096) / 512`. So a points-to of the whole
  array is the separating conjunction of the points-tos of the pieces.
-/
import proofs.«204824_g46875273068696_cont_8to1_c_371_32_alg».proof.Proof.Bits.KData

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

/-! ## The shared table's rows -/

theorem shRowsA_eq (i : Fin 16) : shRowsA i = (shRectA i).set := by
  show ((View.whole (cc1_scratch4 : Ref sig .scVector)).slice (shRectA i)).set = _
  rw [View.set_slice]; exact Finset.map_refl
theorem shRowsB_eq (i : Fin 16) : shRowsB i = (shRectB i).set := by
  show ((View.whole (cc1_scratch4 : Ref sig .scVector)).slice (shRectB i)).set = _
  rw [View.set_slice]; exact Finset.map_refl

/-- An element of the shared table lies in subcore `i`'s rows A when its row number lies in `256 i … 256 i + 255`. -/
theorem mem_shRowsA {i : Fin 16} {x : S12288x128.Idx} : x ∈ shRowsA i ↔ 256 * i.val ≤ (x 0).val ∧ (x 0).val < 256 * i.val + 256 := by
  rw [shRowsA_eq, Rect.mem_set_unit]
  constructor
  · intro h; exact h 0
  · intro h a
    match a with
    | 0 => exact h
    | 1 => exact ⟨Nat.zero_le _, by have h1 : (x 1).val < 128 := (x 1).isLt; show (x 1).val < 0 + 128; omega⟩
/-- and in its rows B when its row number lies in `4096 + 512 i … 4096 + 512 i + 511`. -/
theorem mem_shRowsB {i : Fin 16} {x : S12288x128.Idx} : x ∈ shRowsB i ↔ 512 * i.val + 4096 ≤ (x 0).val ∧ (x 0).val < 512 * i.val + 4096 + 512 := by
  rw [shRowsB_eq, Rect.mem_set_unit]
  constructor
  · intro h; exact h 0
  · intro h a
    match a with
    | 0 => exact h
    | 1 => exact ⟨Nat.zero_le _, by have h1 : (x 1).val < 128 := (x 1).isLt; show (x 1).val < 0 + 128; omega⟩

theorem shRowsAB_disjoint (i : Fin 16) : Disjoint (shRowsA i) (shRowsB i) :=
  Finset.disjoint_left.mpr fun x hA hB => by
    rw [mem_shRowsA] at hA; rw [mem_shRowsB] at hB; have := i.isLt; omega

/-- The rows of two different subcores are disjoint. -/
theorem shRows_disjoint : ∀ i ∈ (Finset.univ : Finset (Fin 16)), ∀ j ∈ (Finset.univ : Finset (Fin 16)), i ≠ j →
    Disjoint (shRowsA i ∪ shRowsB i) (shRowsA j ∪ shRowsB j) := by
  intro i _ j _ hij
  have hij' : i.val ≠ j.val := fun e => hij (Fin.ext e)
  have hi := i.isLt; have hj := j.isLt
  refine Finset.disjoint_left.mpr fun x hx hy => ?_
  rcases Finset.mem_union.mp hx with hx | hx <;> rcases Finset.mem_union.mp hy with hy | hy
  · rw [mem_shRowsA] at hx hy; omega
  · rw [mem_shRowsA] at hx; rw [mem_shRowsB] at hy; omega
  · rw [mem_shRowsB] at hx; rw [mem_shRowsA] at hy; omega
  · rw [mem_shRowsB] at hx hy; omega

/-- Every row of the table is some subcore's: a row below 4096 in rows A, the others in rows B. -/
theorem shRows_cover : (Finset.univ : Finset (Fin 16)).biUnion (fun i => shRowsA i ∪ shRowsB i) = Finset.univ := by
  ext x
  simp only [Finset.mem_biUnion, Finset.mem_univ, true_and, iff_true]
  have hx : (x 0).val < 12288 := (x 0).isLt
  by_cases h : (x 0).val < 4096
  · exact ⟨⟨(x 0).val / 256, by omega⟩, Finset.mem_union_left _ (mem_shRowsA.mpr (by show 256 * ((x 0).val / 256) ≤ _ ∧ _ < 256 * ((x 0).val / 256) + 256; omega))⟩
  · exact ⟨⟨((x 0).val - 4096) / 512, by omega⟩, Finset.mem_union_right _ (mem_shRowsB.mpr (by
      show 512 * (((x 0).val - 4096) / 512) + 4096 ≤ _ ∧ _ < 512 * (((x 0).val - 4096) / 512) + 4096 + 512; omega))⟩

/-- The shared table whole is the sixteen subcores' staged rows. -/
theorem shPts_rows (d : Dev nD) (c : Fin τ.nSC) (q : PosShare TreeShare) (f : Buf (Elt F) (shLoc d c)) :
    (shLoc d c ↦{q} f : sProp 𝕄) = bigSep Finset.univ fun i : Fin 16 => iprop((shLoc d c ↦[shRowsA i]{q} f) ∗ shLoc d c ↦[shRowsB i]{q} f) := by
  have h : (shLoc d c ↦{q} f : sProp 𝕄) = bigSep Finset.univ fun i : Fin 16 => shLoc d c ↦[shRowsA i ∪ shRowsB i]{q} f := by
    rw [← pointsTo_biUnion Finset.univ (ℓ := shLoc d c) (fun i : Fin 16 => shRowsA i ∪ shRowsB i) shRows_disjoint, shRows_cover]; try rfl
  rw [h]
  refine bigSep_congr fun i _ => ?_
  have hu : (shLoc d c ↦[shRowsA i ∪ shRowsB i]{q} f : sProp 𝕄) ⊣⊢ iprop((shLoc d c ↦[shRowsA i]{q} f) ∗ shLoc d c ↦[shRowsB i]{q} f) :=
    pointsTo_union (shRowsAB_disjoint i)
  exact BI.equiv_iff.mp ⟨hu.1, hu.2⟩

/-! ## The output's chunks -/

theorem chunkSet_eq (w : Fin 32) (j : Fin 320) : chunkSet w j = (chunkRect w j).set := by
  show ((View.whole (main_v35_scv : Ref sig .scVector)).slice (chunkRect w j)).set = _
  rw [View.set_slice]; exact Finset.map_refl

/-- An element of the output lies in worker `w`'s chunk `j` when its row number lies in the chunk's 64 rows. -/
theorem mem_chunkSet {w : Fin 32} {j : Fin 320} {x : S655360x128.Idx} :
    x ∈ chunkSet w j ↔ chunkRow w j ≤ (x 0).val ∧ (x 0).val < chunkRow w j + 64 := by
  rw [chunkSet_eq, Rect.mem_set_unit]
  constructor
  · intro h; exact h 0
  · intro h a
    match a with
    | 0 => exact h
    | 1 => exact ⟨Nat.zero_le _, by have h1 : (x 1).val < 128 := (x 1).isLt; show (x 1).val < 0 + 128; omega⟩

/-- A row `r` of the output lies in exactly one chunk: caption position `r / 32768`, worker `r % 32768 / 1024`,
    sixteenth `r % 1024 / 64`. So two different chunks are disjoint -/
theorem chunks_disjoint : ∀ p ∈ (Finset.univ : Finset (Fin 32 × Fin 320)), ∀ p' ∈ (Finset.univ : Finset (Fin 32 × Fin 320)), p ≠ p' →
    Disjoint (chunkSet p.1 p.2) (chunkSet p'.1 p'.2) := by
  rintro ⟨w, j⟩ _ ⟨w', j'⟩ _ hne
  refine Finset.disjoint_left.mpr fun x hx hy => hne ?_
  rw [mem_chunkSet] at hx hy
  unfold chunkRow at hx hy
  have hw := w.isLt; have hw' := w'.isLt; have hj := j.isLt; have hj' := j'.isLt
  dsimp only at hx hy
  refine Prod.ext (Fin.ext ?_) (Fin.ext ?_)
  · show w.val = w'.val; omega
  · show j.val = j'.val; omega

/-- and the chunks cover the output. -/
theorem chunks_cover : (Finset.univ : Finset (Fin 32 × Fin 320)).biUnion (fun p => chunkSet p.1 p.2) = Finset.univ := by
  ext x
  simp only [Finset.mem_biUnion, Finset.mem_univ, true_and, iff_true]
  have hx : (x 0).val < 655360 := (x 0).isLt
  refine ⟨(⟨(x 0).val % 32768 / 1024, by omega⟩, ⟨16 * ((x 0).val / 32768) + (x 0).val % 1024 / 64, by omega⟩), mem_chunkSet.mpr ?_⟩
  unfold chunkRow
  dsimp only
  omega

/-- Worker numbers are the pairs of a SparseCore and a subcore of it. -/
def widEquiv : Fin τ.nSC × Fin τ.nSub ≃ Fin 32 where
  toFun p := wid p.1 p.2
  invFun w := (⟨w.val / 16, by show w.val / 16 < 2; have := w.isLt; omega⟩, ⟨w.val % 16, by show w.val % 16 < 16; omega⟩)
  left_inv p := by
    obtain ⟨c, i⟩ := p
    have h1 : c.val < 2 := c.isLt
    have h2 : i.val < 16 := i.isLt
    refine Prod.ext (Fin.ext ?_) (Fin.ext ?_)
    · show (16 * c.val + i.val) / 16 = c.val; omega
    · show (16 * c.val + i.val) % 16 = i.val; omega
  right_inv w := by
    refine Fin.ext ?_
    show 16 * (w.val / 16) + w.val % 16 = w.val; omega

/-- The output array whole is its 32 × 320 chunks. -/
theorem outPts_chunks (d : Dev nD) (f : Buf (Elt F) (outLoc d)) :
    (outLoc d ↦{fullShare} f : sProp 𝕄) = bigSep Finset.univ fun c : Fin τ.nSC => bigSep Finset.univ fun i : Fin τ.nSub => outChunks d (wid c i) f := by
  have h : (outLoc d ↦{fullShare} f : sProp 𝕄) = bigSep Finset.univ fun p : Fin 32 × Fin 320 => outLoc d ↦[chunkSet p.1 p.2]{fullShare} f := by
    rw [← pointsTo_biUnion Finset.univ (ℓ := outLoc d) (fun p : Fin 32 × Fin 320 => chunkSet p.1 p.2) chunks_disjoint, chunks_cover]; try rfl
  rw [h, bigSep_univ_prod (fun p : Fin 32 × Fin 320 => (outLoc d ↦[chunkSet p.1 p.2]{fullShare} f : sProp 𝕄))]
  show (bigSep Finset.univ fun w : Fin 32 => outChunks (F := F) d w f) = _
  rw [bigSep_univ_equiv widEquiv (fun w : Fin 32 => outChunks (F := F) d w f),
    bigSep_univ_prod (fun p : Fin τ.nSC × Fin τ.nSub => outChunks (F := F) d (widEquiv p) f)]
  rfl

end Cert.Kernel.KProof

end
-- ==== Proof.Bits.KRun.lean ====
/-
  The program's run: every weakly fair execution of the mesh's threads terminates with the result at the program's
  function of the five arguments and the arguments unchanged, given the vector subcores' body obligation and the
  split of a SparseCore's operands among its subcores.
-/
import proofs.«204824_g46875273068696_cont_8to1_c_371_32_alg».proof.Proof.Bits.KRegionWp
import proofs.«204824_g46875273068696_cont_8to1_c_371_32_alg».proof.Proof.Bits.KSplit

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)]
    (htile : (K (F := F)).TileObl (D (F := F)) 𝒱 (Pm m) v₀ 0) (hsplit : (K (F := F)).VecSplit (Pm m) 0) :
    θ_run (Cert.Kernel.defs (F := F)) (Cert.Kernel.threads (F := F)) ⟨m, fun _ => 0, ρ⟩ (fun r => ∀ c : Dev nD,
        r.2.mem ((c.tc : Thread nD τ).loc main_v38) = KFun.KG (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  run_main_of m ρ region_wp (fun d f => outPts_chunks d f) htile hsplit

end Cert.Kernel.KProof

end
-- ==== Proof.Bits.KBarrierPay.lean ====
/-
  What the subcore barrier's duties carry, before and after: a subcore's staged rows of the shared table, held whole,
  are sixteen read shares (one handed to every subcore's round) and a remainder; and the sixteen shares a subcore's own
  round collects — its sixteenth of every subcore's rows — are its read share of the whole table.
-/
import proofs.«204824_g46875273068696_cont_8to1_c_371_32_alg».proof.Proof.Bits.KSplit

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

variable (SH : (d : Dev nD) → (c : Fin τ.nSC) → Buf (Elt F) (shLoc d c))

/-! ## Reindexing the sixteen subcores -/

/-- A family over the sixteen subcore numbers, indexed by the subcores. -/
theorem bigSep_i16 (Φ : Fin 16 → sProp 𝕄) : (bigSep Finset.univ fun i : Fin τ.nSub => Φ (i16 i)) = bigSep Finset.univ Φ :=
  bigSep_congr fun _ _ => congrArg Φ (Fin.ext rfl)
/-- The same indexed by the kernel's grid positions along the subcore axis. -/
theorem bigSep_grid (Φ : Fin 16 → sProp 𝕄) : (bigSep Finset.univ fun j : Fin (grid1.bound 1) => Φ (i16 (j.castLE hsub1))) = bigSep Finset.univ Φ :=
  bigSep_congr fun _ _ => congrArg Φ (Fin.ext rfl)

/-- A points-to at share `q` is what remains after sixteen read tokens and the tokens, one per subcore. -/
theorem toks16 {ℓ : Loc nD τ sig} (I : Finset (Idx ℓ)) (q : PosShare TreeShare) (f : Buf (Elt F) ℓ) :
    (ℓ ↦[I]{q} f : sProp 𝕄) ⊣⊢ iprop((ℓ ↦[I]{Transfers.shareDrop q 16} f) ∗ bigSep Finset.univ fun k : Fin 16 => ℓ ↦[I]{Transfers.shareTok q 16 k} f) :=
  Transfers.pointsTo_toks q 16

variable [FloatOps F]

/-! ## What the barrier's duties hand over -/

/-- Duty `n` of subcore `j`'s round hands over subcore `n`'s rows at `j`'s read share. -/
theorem payload_bcell (d : Dev nD) (c : Fin τ.nSC) (j : Fin τ.nSub) (n : Fin 16) :
    (bRd (F := F) SH).payload (bcell d c j) 0 n.val = shPiece SH d c n j := by
  show (if h : n.val < 16 then shPiece SH d c ⟨n.val, h⟩ j else iprop(emp)) = _
  exact dif_pos n.isLt

/-- Before the barrier: a subcore's staged rows, at the table's contents, split into the sixteen read shares it hands over
    (one to every subcore's round) and the remainder it keeps. -/
theorem pays_intro (d : Dev nD) (c : Fin τ.nSC) (i : Fin τ.nSub) :
    iprop((shLoc d c ↦[shRowsA (i16 i)]{fullShare} SH d c) ∗ (shLoc d c ↦[shRowsB (i16 i)]{fullShare} SH d c))
      ⊢ (iprop((bigSep Finset.univ fun j : Fin (grid1.bound 1) => (bRd (F := F) SH).payload (bcell d c (j.castLE hsub1)) 0 i.val)
          ∗ (shLoc d c ↦[shRowsA (i16 i)]{shRest} SH d c) ∗ (shLoc d c ↦[shRowsB (i16 i)]{shRest} SH d c)) : sProp 𝕄) := by
  have hpay : (bigSep Finset.univ fun j : Fin (grid1.bound 1) => (bRd (F := F) SH).payload (bcell d c (j.castLE hsub1)) 0 i.val)
      = iprop((bigSep Finset.univ fun k : Fin 16 => shLoc d c ↦[shRowsA (i16 i)]{Transfers.shareTok fullShare 16 k} SH d c)
        ∗ bigSep Finset.univ fun k : Fin 16 => shLoc d c ↦[shRowsB (i16 i)]{Transfers.shareTok fullShare 16 k} SH d c) := by
    rw [← bigSep_sep', ← bigSep_grid (F := F) (fun k : Fin 16 => iprop((shLoc d c ↦[shRowsA (i16 i)]{Transfers.shareTok fullShare 16 k} SH d c)
      ∗ shLoc d c ↦[shRowsB (i16 i)]{Transfers.shareTok fullShare 16 k} SH d c))]
    exact bigSep_congr fun j _ => payload_bcell SH d c (j.castLE hsub1) (i16 i)
  rw [hpay]
  iintro ⟨HA, HB⟩
  ihave HA' := (toks16 (F := F) (ℓ := shLoc d c) (shRowsA (i16 i)) fullShare (SH d c)).1 $$ HA
  ihave HB' := (toks16 (F := F) (ℓ := shLoc d c) (shRowsB (i16 i)) fullShare (SH d c)).1 $$ HB
  icases HA' with ⟨HAr, HAt⟩
  icases HB' with ⟨HBr, HBt⟩
  isplitl [HAt HBt]
  · isplitl [HAt]; · iexact HAt
    iexact HBt
  isplitl [HAr]; · iexact HAr
  iexact HBr

/-- After it: what a subcore's own round collected is its read share of the whole table. -/
theorem pays_elim (d : Dev nD) (c : Fin τ.nSC) (i : Fin τ.nSub) :
    (bigSep ((bRd (F := F) SH).duties (bcell d c i) 0 \ ∅) fun n => (bRd (F := F) SH).payload (bcell d c i) 0 n)
      ⊢ (shLoc d c ↦{shTok i} SH d c : sProp 𝕄) := by
  rw [Finset.sdiff_empty, bRd_duties₀, SparseCore.bigSep_image_of_injOn (fun a _ b _ e => Fin.val_injective e), shPts_rows d c (shTok i) (SH d c),
    ← bigSep_i16 (F := F) (fun n : Fin 16 => iprop((shLoc d c ↦[shRowsA n]{shTok i} SH d c) ∗ shLoc d c ↦[shRowsB n]{shTok i} SH d c))]
  exact Entails.of_eq (bigSep_congr fun n _ => payload_bcell SH d c i (i16 n))

end Cert.Kernel.KProof

end
-- ==== Proof.Bits.KVecSplit.lean ====
/-
  How the gather kernel's operands split among a SparseCore's sixteen vector subcores at the launch, and gather back.

  The SparseCore holds a half read share of the gather table and of the index lists, its sixteen workers' chunks of the
  output, and (among its sequencer's own buffers) its shared table whole at some contents. Each subcore is dealt a
  sixteenth of the two read shares, its own chunks, and its own rows of the shared table. Each brings back its read
  shares, its chunks gathered, a read share of the WHOLE shared table (collected at the subcore barrier) and what
  remained of its own rows: the sixteen remainders are the table at the remaining share, which with the sixteen read
  shares is the table whole again.
-/
import proofs.«204824_g46875273068696_cont_8to1_c_371_32_alg».proof.Proof.Bits.KBarrierPay

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

variable (m : (ℓ : Loc nD τ sig) → Buf (Elt F) ℓ)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

/-- A family over the subcores, indexed by the call's subcore numbers. -/
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)

/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The shared table whole, at some contents, deals every subcore its rows at some contents. -/
theorem sh_deal (d : Dev nD) (c : Fin τ.nSC) (f : Buf (Elt F) (shLoc d c)) :
    (shLoc d c ↦{fullShare} f : sProp 𝕄)
      ⊢ iprop((bigSep Finset.univ fun i : Fin τ.nSub => iprop(∃ g, shLoc d c ↦[shRowsA (i16 i)]{fullShare} g))
        ∗ bigSep Finset.univ fun i : Fin τ.nSub => iprop(∃ g, shLoc d c ↦[shRowsB (i16 i)]{fullShare} g)) := by
  rw [shPts_rows d c fullShare f, bigSep_sep',
    bigSep_i16 (F := F) (fun i : Fin 16 => iprop(∃ g, shLoc d c ↦[shRowsA i]{fullShare} g)),
    bigSep_i16 (F := F) (fun i : Fin 16 => iprop(∃ g, shLoc d c ↦[shRowsB i]{fullShare} g))]
  exact BIClass.sep_mono
    (bigSep_mono fun i _ => BI.BIClass.exists_intro (Φ := fun g => (shLoc d c ↦[shRowsA i]{fullShare} g : sProp 𝕄)) f)
    (bigSep_mono fun i _ => BI.BIClass.exists_intro (Φ := fun g => (shLoc d c ↦[shRowsB i]{fullShare} g : sProp 𝕄)) f)

/-- Every subcore's read share of the whole table and what remained of its own rows are the table whole. -/
theorem sh_collect (d : Dev nD) (c : Fin τ.nSC) (f : Buf (Elt F) (shLoc d c)) :
    iprop((bigSep Finset.univ fun i : Fin τ.nSub => shLoc d c ↦{shTok i} f)
        ∗ (bigSep Finset.univ fun i : Fin τ.nSub => shLoc d c ↦[shRowsA (i16 i)]{shRest} f)
        ∗ bigSep Finset.univ fun i : Fin τ.nSub => shLoc d c ↦[shRowsB (i16 i)]{shRest} f)
      ⊢ (shLoc d c ↦{fullShare} f : sProp 𝕄) := by
  rw [bigSep_i16 (F := F) (fun i : Fin 16 => shLoc d c ↦[shRowsA i]{shRest} f),
    bigSep_i16 (F := F) (fun i : Fin 16 => shLoc d c ↦[shRowsB i]{shRest} f),
    bigSep_i16 (F := F) (fun i : Fin 16 => shLoc d c ↦{Transfers.shareTok fullShare 16 i} f),
    ← bigSep_sep', ← shPts_rows d c shRest f]
  iintro ⟨Ht, Hr⟩
  iapply (toks16 (F := F) (ℓ := shLoc d c) Finset.univ fullShare f).2
  isplitl [Hr]; · iexact Hr
  iexact Ht

/-- A read share of an array deals every subcore its sixteenth and keeps the remainder; back the same way. -/
theorem tiles_split {ℓ : Loc nD τ sig} (c : Fin τ.nSC) (f : Buf (Elt F) ℓ) :
    (ℓ ↦{coreShare c} f : sProp 𝕄) ⊣⊢ iprop((ℓ ↦{Transfers.shareDrop (coreShare c) 16} f) ∗ bigSep Finset.univ fun i : Fin τ.nSub => ℓ ↦{tileShare c i} f) := by
  rw [bigSep_i16 (F := F) (fun i : Fin 16 => ℓ ↦{Transfers.shareTok (coreShare c) 16 i} f)]
  exact toks16 (F := F) (ℓ := ℓ) Finset.univ (coreShare c) f

variable [FloatOps F]

/-- The split for any SparseCore. -/
theorem vecSplit_core (d : Dev nD) (c : Fin τ.nSC) :
    iprop(stPts m TAB IDX d c ∗ ownBufs (S d c)) ⊢ |={Set.univ}=> iprop(
      (bigSep Finset.univ fun i : Fin τ.nSub => goPts m TAB IDX d c i)
      ∗ ((bigSep Finset.univ fun i : Fin τ.nSub => tdPts TAB IDX OUT SH d c i) -∗ iprop(dnPts TAB IDX OUT d c ∗ ownBufs (S d c)))) := by
  have hgo : (bigSep Finset.univ fun i : Fin τ.nSub => goPts m TAB IDX d c i)
      = iprop((bigSep Finset.univ fun i : Fin τ.nSub => tabLoc d ↦{tileShare c i} TAB d)
        ∗ (bigSep Finset.univ fun i : Fin τ.nSub => idxLoc d ↦{tileShare c i} IDX d)
        ∗ (bigSep Finset.univ fun i : Fin τ.nSub => outChunks d (wid c i) (m (outLoc d)))
        ∗ (bigSep Finset.univ fun i : Fin τ.nSub => iprop(∃ g, shLoc d c ↦[shRowsA (i16 i)]{fullShare} g))
        ∗ bigSep Finset.univ fun i : Fin τ.nSub => iprop(∃ g, shLoc d c ↦[shRowsB (i16 i)]{fullShare} g)) := by
    unfold goPts
    rw [bigSep_sep', bigSep_sep', bigSep_sep', bigSep_sep']
  have htd : (bigSep Finset.univ fun i : Fin τ.nSub => tdPts TAB IDX OUT SH d c i)
      = iprop((bigSep Finset.univ fun i : Fin τ.nSub => tabLoc d ↦{tileShare c i} TAB d)
        ∗ (bigSep Finset.univ fun i : Fin τ.nSub => idxLoc d ↦{tileShare c i} IDX d)
        ∗ (bigSep Finset.univ fun i : Fin τ.nSub => outChunks d (wid c i) (OUT d))
        ∗ (bigSep Finset.univ fun i : Fin τ.nSub => shLoc d c ↦{shTok i} SH d c)
        ∗ (bigSep Finset.univ fun i : Fin τ.nSub => shLoc d c ↦[shRowsA (i16 i)]{shRest} SH d c)
        ∗ bigSep Finset.univ fun i : Fin τ.nSub => shLoc d c ↦[shRowsB (i16 i)]{shRest} SH d c) := by
    unfold tdPts
    rw [bigSep_sep', bigSep_sep', bigSep_sep', bigSep_sep', bigSep_sep']
  rw [hgo, htd, ownBufs_S]
  unfold stPts dnPts
  iintro ⟨⟨Htab, Hidx, Hout⟩, ⟨%fsh, Hsh⟩, Hrest⟩
  ihave Htab' := (tiles_split (F := F) (ℓ := tabLoc d) c (TAB d)).1 $$ Htab
  ihave Hidx' := (tiles_split (F := F) (ℓ := idxLoc d) c (IDX d)).1 $$ Hidx
  ihave Hsh' := (sh_deal (F := F) d c fsh) $$ Hsh
  icases Htab' with ⟨HtabR, HtabT⟩
  icases Hidx' with ⟨HidxR, HidxT⟩
  icases Hsh' with ⟨HshA, HshB⟩
  imodintro
  isplitl [HtabT HidxT Hout HshA HshB]
  · isplitl [HtabT]; · iexact HtabT
    isplitl [HidxT]; · iexact HidxT
    isplitl [Hout]; · iexact Hout
    isplitl [HshA]; · iexact HshA
    iexact HshB
  iintro ⟨HtabT, HidxT, Hout, Htok, HA, HB⟩
  isplitl [HtabR HtabT HidxR HidxT Hout]
  · isplitl [HtabR HtabT]
    · iapply (tiles_split (F := F) (ℓ := tabLoc d) c (TAB d)).2
      isplitl [HtabR]; · iexact HtabR
      iexact HtabT
    isplitl [HidxR HidxT]
    · iapply (tiles_split (F := F) (ℓ := idxLoc d) c (IDX d)).2
      isplitl [HidxR]; · iexact HidxR
      iexact HidxT
    iexact Hout
  isplitl [Htok HA HB]
  · iexists (SH d c)
    iapply (sh_collect (F := F) d c (SH d c))
    isplitl [Htok]; · iexact Htok
    isplitl [HA]; · iexact HA
    iexact HB
  iexact Hrest

/-- How a SparseCore's operands split into its sixteen tasks' and gather back: each subcore gets a sixteenth of the
    SparseCore's read shares of the gather table and of the index lists, its chunks of the output, and its rows of the
    shared table; back come the read shares, the chunks gathered, and the shared table — each subcore's read share of
    the whole of it and what remained of its own rows. -/
theorem vecSplit : (K (F := F)).VecSplit (Pm m) 0 := by
  intro d c
  show iprop(stPts m (TABm m) (IDXm m) d (coreOf c) ∗ ownBufs (S d (coreOf c))) ⊢ |={Set.univ}=> iprop(
      (bigSep Finset.univ fun i : Fin ((K (F := F)).nSub 0) => goPts m (TABm m) (IDXm m) d (coreOf c) ((K (F := F)).sub 0 i))
      ∗ ((bigSep Finset.univ fun i : Fin ((K (F := F)).nSub 0) => tdPts (TABm m) (IDXm m) (OUTm m) (SHm m) d (coreOf c) ((K (F := F)).sub 0 i))
          -∗ iprop(dnPts (TABm m) (IDXm m) (OUTm m) d (coreOf c) ∗ ownBufs (S d (coreOf c)))))
  rw [bigSep_tasks (F := F) (fun i => goPts m (TABm m) (IDXm m) d (coreOf c) i),
    bigSep_tasks (F := F) (fun i => tdPts (TABm m) (IDXm m) (OUTm m) (SHm m) d (coreOf c) i)]
  exact vecSplit_core m (TABm m) (IDXm m) (OUTm m) (SHm m) d (coreOf c)

end Cert.Kernel.KProof

end
-- ==== Proof.KClaims.lean ====
/-
  The certificate's five claims, assembled: the printed kernel's frame from its run (the run of the idealized kernel
  stated over the printed kernel's names), the idealized kernel's and the reference's frames, that the idealization
  rewrote nothing, and that the idealized kernel and the reference end with equal results.
  The vector subcores' body obligations of the two kernels are hypotheses here.
-/
import proofs.«204824_g46875273068696_cont_8to1_c_371_32_alg».proof.Proof.KClaimsIdeal
import proofs.«204824_g46875273068696_cont_8to1_c_371_32_alg».proof.Proof.Bits.KRun
import proofs.«204824_g46875273068696_cont_8to1_c_371_32_alg».proof.Proof.Bits.KVecSplit
import proofs.«204824_g46875273068696_cont_8to1_c_371_32_alg».proof.Proof.Gen.Kernel

noncomputable section

namespace Cert.Proof.KClaims

open Idealize.ShloMosaic Idealize.SL.Sem

/-- The vector subcores' body obligation of the printed kernel, for every launch memory whose index lists stay inside
    the shared table. -/
abbrev TileHypB : Prop :=
  ∀ (m : (ℓ : Loc Cert.Kernel.nD Cert.Kernel.τ Cert.Kernel.sig) → Buf (Elt Bits) ℓ)
    (_ : ∀ (d : Dev Cert.Kernel.nD) (x : Cert.Kernel.S32x160x128.Idx), ((Cert.Kernel.KProof.IDXm m d x : BitVec 32)).toNat < 12288),
    (Cert.Kernel.KProof.K (F := Bits)).TileObl (Cert.Kernel.KProof.D (F := Bits)) Cert.Kernel.KProof.𝒱 (Cert.Kernel.KProof.Pm m) Cert.Kernel.KProof.v₀ 0

/-- The two programs' index lists are one function of the caption words. -/
theorem idxF_twin (cap : IVec Cert.Kernel.S4096x20 32) : Cert.Kernel.KFun.idxF cap = Cert.KernelIdeal.KFun.idxF cap := rfl

/-- Under the precondition every index of the printed kernel's index lists is inside the shared table. -/
theorem idx_ltB (m : (ℓ : Loc Cert.Kernel.nD Cert.Kernel.τ Cert.Kernel.sig) → Buf (Elt Bits) ℓ)
    (hpre : Cert.Pre_Kernel (hPre_input_domain := Cert.Pre_input_domain.Gen.facts) m)
    (d : Dev Cert.Kernel.nD) (x : Cert.Kernel.S32x160x128.Idx) : ((Cert.Kernel.KProof.IDXm m d x : BitVec 32)).toNat < 12288 := by
  show (Cert.Kernel.KFun.idxF (m ((SparseCore.T d).loc Cert.Kernel.main_arg0)) x).toNat < 12288
  rw [idxF_twin]
  exact Cert.KernelIdeal.KFun.idx_lt _ (Cert.PreRange.cap_lt (F := Bits) _ _ _ _ _ (hpre d)) x

theorem frame_Kernel (htileB : TileHypB) :
    Cert.frame_Kernel (hKernel := Cert.Kernel.Gen.facts) (hPre_input_domain := Cert.Pre_input_domain.Gen.facts) :=
  fun m g hpre => (θ_run _ _ _).mono (fun _ h c => (h c).2)
    (Cert.Kernel.KProof.run_main (F := Bits) m g (htileB m (idx_ltB m hpre)) (Cert.Kernel.KProof.vecSplit m))

/-- The idealization rewrote no operation. -/
theorem preserves_Kernel_KernelIdeal : Cert.preserves_Kernel_KernelIdeal := trivial

/-- Everything the certificate claims. -/
theorem claim (htile : TileHyp) (htileB : TileHypB) : Cert.Claim :=
  ⟨Cert.Kernel.Gen.facts, Cert.KernelIdeal.Gen.facts, Cert.ReferenceIdeal.Gen.facts, Cert.Pre_input_domain.Gen.facts,
    frame_Kernel htileB, frame_KernelIdeal htile, frame_ReferenceIdeal, preserves_Kernel_KernelIdeal,
    algebraic_KernelIdeal_ReferenceIdeal htile⟩

end Cert.Proof.KClaims

end
-- ==== Proof.KTile.lean ====
/-
  A vector subcore's own storage, as its task's proof opens it: the four scratch buffers (two index staging
  buffers, two row buffers) and the eight DMA semaphores (one per gather slot, one per write slot, one for the
  index staging, three for the staging copies before the barrier), each carved out of the subcore's scoped storage.
-/
import proofs.«204824_g46875273068696_cont_8to1_c_371_32_alg».proof.Proof.KPay

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev jL (L : grid1.Coords) : Fin 16 := i16 (jV L)

/-- The subcore's DMA semaphores as cells. -/
abbrev gs0cell (d : Dev nD) (c : Fin τ.nSC) (i : Fin τ.nSub) : GSem nD τ sig := (V d c i, .dma cc1_scratch5.sem)
abbrev gs1cell (d : Dev nD) (c : Fin τ.nSC) (i : Fin τ.nSub) : GSem nD τ sig := (V d c i, .dma cc1_scratch6.sem)
abbrev os0cell (d : Dev nD) (c : Fin τ.nSC) (i : Fin τ.nSub) : GSem nD τ sig := (V d c i, .dma cc1_scratch7.sem)
abbrev os1cell (d : Dev nD) (c : Fin τ.nSC) (i : Fin τ.nSub) : GSem nD τ sig := (V d c i, .dma cc1_scratch8.sem)
abbrev sscell (d : Dev nD) (c : Fin τ.nSC) (i : Fin τ.nSub) : GSem nD τ sig := (V d c i, .dma cc1_scratch9.sem)
abbrev r0cell (d : Dev nD) (c : Fin τ.nSC) (i : Fin τ.nSub) : GSem nD τ sig := (V d c i, .dma cc1_scoped0.sem)
abbrev r1cell (d : Dev nD) (c : Fin τ.nSC) (i : Fin τ.nSub) : GSem nD τ sig := (V d c i, .dma cc1_scoped1.sem)
abbrev r2cell (d : Dev nD) (c : Fin τ.nSC) (i : Fin τ.nSub) : GSem nD τ sig := (V d c i, .dma cc1_scoped2.sem)

/-- The eight cells, in the order they are carved out. -/
def myCells (d : Dev nD) (c : Fin τ.nSC) (i : Fin τ.nSub) : List (GSem nD τ sig) :=
  [gs0cell d c i, gs1cell d c i, os0cell d c i, os1cell d c i, sscell d c i, r0cell d c i, r1cell d c i, r2cell d c i]

omit [FloatOps F] in
theorem myCells_nodup (c : Fin τ.nSC) (i : Fin τ.nSub) : (myCells d c i).Nodup := by
  simp only [myCells, List.nodup_cons, List.mem_cons, List.not_mem_nil, or_false, not_or, Prod.mk.injEq, true_and, List.nodup_nil, and_true]
  decide

omit [FloatOps F] in
theorem myCells_own (c : Fin τ.nSC) (i : Fin τ.nSub) : ∀ g ∈ myCells d c i, g ∈ ownCells (V d c i) := by
  intro g hg
  simp only [myCells, List.mem_cons, List.not_mem_nil, or_false] at hg
  rcases hg with rfl | rfl | rfl | rfl | rfl | rfl | rfl | rfl
  · exact (mem_ownCells).mpr ⟨rfl, by show (SemLoc.dma cc1_scratch5.sem : SemLoc sig).isScoped .scVector = true; decide⟩
  · exact (mem_ownCells).mpr ⟨rfl, by show (SemLoc.dma cc1_scratch6.sem : SemLoc sig).isScoped .scVector = true; decide⟩
  · exact (mem_ownCells).mpr ⟨rfl, by show (SemLoc.dma cc1_scratch7.sem : SemLoc sig).isScoped .scVector = true; decide⟩
  · exact (mem_ownCells).mpr ⟨rfl, by show (SemLoc.dma cc1_scratch8.sem : SemLoc sig).isScoped .scVector = true; decide⟩
  · exact (mem_ownCells).mpr ⟨rfl, by show (SemLoc.dma cc1_scratch9.sem : SemLoc sig).isScoped .scVector = true; decide⟩
  · exact (mem_ownCells).mpr ⟨rfl, by show (SemLoc.dma cc1_scoped0.sem : SemLoc sig).isScoped .scVector = true; decide⟩
  · exact (mem_ownCells).mpr ⟨rfl, by show (SemLoc.dma cc1_scoped1.sem : SemLoc sig).isScoped .scVector = true; decide⟩
  · exact (mem_ownCells).mpr ⟨rfl, by show (SemLoc.dma cc1_scoped2.sem : SemLoc sig).isScoped .scVector = true; decide⟩

omit [FloatOps F] in
/-- The subcore's scoped semaphores at zero: its eight, one by one, and the rest. -/
theorem ownSems0_V (c : Fin τ.nSC) (i : Fin τ.nSub) :
    (ownSems0 (V d c i) : sProp 𝕄)
      = iprop((semVal (gs0cell d c i) 0 ∗ semVal (gs1cell d c i) 0 ∗ semVal (os0cell d c i) 0 ∗ semVal (os1cell d c i) 0 ∗ semVal (sscell d c i) 0
            ∗ semVal (r0cell d c i) 0 ∗ semVal (r1cell d c i) 0 ∗ semVal (r2cell d c i) 0)
          ∗ bigSep (ownCells (V d c i) \ (myCells d c i).toFinset) fun g => semVal g 0) := by
  unfold SparseCore.Cfg.ownSems0
  rw [SparseCore.bigSep_sdiff_split' (t := (myCells d c i).toFinset) (fun g hg => myCells_own d c i g (List.mem_toFinset.mp hg)),
    bigSep_eq_bigSepL _ (myCells_nodup d c i)]
  rfl

/-- The subcore's four scratch buffers as its own references. -/
def myRefs (c : Fin τ.nSC) (i : Fin τ.nSub) : List (DevRef τ sig) :=
  [(Proc.scVector c i).devRef cc1_scratch0, (Proc.scVector c i).devRef cc1_scratch1, (Proc.scVector c i).devRef cc1_scratch2, (Proc.scVector c i).devRef cc1_scratch3]

omit [FloatOps F] in
theorem myRefs_nodup (c : Fin τ.nSC) (i : Fin τ.nSub) : (myRefs c i).Nodup := by
  simp only [myRefs, List.nodup_cons, List.mem_cons, List.not_mem_nil, or_false, not_or, List.nodup_nil, and_true]
  decide +revert

omit [FloatOps F] in
theorem myRefs_own (c : Fin τ.nSC) (i : Fin τ.nSub) : ∀ b ∈ myRefs c i, b ∈ ownRefs (τ := τ) (sig := sig) (.scVector c i) := by
  intro b hb
  simp only [myRefs, List.mem_cons, List.not_mem_nil, or_false] at hb
  rcases hb with rfl | rfl | rfl | rfl <;> exact SparseCore.Cfg.mem_ownRefs_of_owner (p := Proc.scVector c i) rfl

omit [FloatOps F] in
/-- The subcore's own buffers: the four scratch buffers, each whole at some contents, and the rest. -/
theorem ownBufs_V (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f))
          ∗ bigSep (ownRefs (τ := τ) (.scVector c i) \ (myRefs c i).toFinset) fun b => iprop(∃ f, ((d, b) : Loc nD τ sig) ↦{fullShare} f)) := by
  unfold SparseCore.Cfg.ownBufs
  rw [SparseCore.bigSep_sdiff_split' (t := (myRefs c i).toFinset) (fun b hb => myRefs_own c i b (List.mem_toFinset.mp hb)),
    bigSep_eq_bigSepL _ (myRefs_nodup c i)]
  rfl

/-! ### The arrays as the subcore's memrefs address them -/

/-- The two slices of the shared table the subcore stages, the table's rows it reads them from, and its rows of the
    index array, section by section, as the program slices them. -/
abbrev shA (L : grid1.Coords) : Memref sig .scVector .shared S256x128 .f32 := (shV).slice (Rect.unit (s := S12288x128) (k1_off1 L) S256x128.size (k1_off1_inb L)) (fun _ => rfl)
abbrev shB (L : grid1.Coords) : Memref sig .scVector .shared S512x128 .f32 := (shV).slice (Rect.unit (s := S12288x128) (k1_off3 L) S512x128.size (k1_off3_inb L)) (fun _ => rfl)

omit [FloatOps F] in
theorem rectA_eq : Rect.unit (s := S12288x128) (k1_off1 L) S256x128.size (k1_off1_inb L) = shRectA (jL L) :=
  Rect.unit_congr ((k1_off1_eq L).trans rfl) _ _
omit [FloatOps F] in
theorem rectB_eq : Rect.unit (s := S12288x128) (k1_off3 L) S512x128.size (k1_off3_inb L) = shRectB (jL L) :=
  Rect.unit_congr ((k1_off3_eq L).trans rfl) _ _

omit [FloatOps F] in
theorem set_shA : (shA L).view.set = shRowsA (jL L) := by
  show ((shV).view.slice (Rect.unit (s := S12288x128) (k1_off1 L) S256x128.size (k1_off1_inb L))).set = ((shV).view.slice (shRectA (jL L))).set
  rw [rectA_eq]
omit [FloatOps F] in
theorem set_shB : (shB L).view.set = shRowsB (jL L) := by
  show ((shV).view.slice (Rect.unit (s := S12288x128) (k1_off3 L) S512x128.size (k1_off3_inb L))).set = ((shV).view.slice (shRectB (jL L))).set
  rw [rectB_eq]

omit [FloatOps F] in
theorem pts_shA (q : PosShare TreeShare) (f : Buf (Elt F) (shLoc d (cV L))) :
    ((shA L).view.loc (V d (cV L) (jV L)) ↦[(shA L).view.set]{q} f : sProp 𝕄) = shLoc d (cV L) ↦[shRowsA (jL L)]{q} f := by
  rw [set_shA]; rfl
omit [FloatOps F] in
theorem pts_shB (q : PosShare TreeShare) (f : Buf (Elt F) (shLoc d (cV L))) :
    ((shB L).view.loc (V d (cV L) (jV L)) ↦[(shB L).view.set]{q} f : sProp 𝕄) = shLoc d (cV L) ↦[shRowsB (jL L)]{q} f := by
  rw [set_shB]; rfl
omit [FloatOps F] in
theorem pts_tab (q : PosShare TreeShare) (f : Buf (Elt F) (tabLoc d)) :
    ((tabV).view.loc (V d (cV L) (jV L)) ↦{q} f : sProp 𝕄) = tabLoc d ↦{q} f := by
  simp only [Memref.view_whole, View.set_whole]
omit [FloatOps F] in
theorem pts_idx (q : PosShare TreeShare) (f : Buf (Elt F) (idxLoc d)) :
    ((idxV).view.loc (V d (cV L) (jV L)) ↦{q} f : sProp 𝕄) = idxLoc d ↦{q} f := by
  simp only [Memref.view_whole, View.set_whole]
omit [FloatOps F] in
theorem pts_sb0 (f : Buf (Elt F) ((V d (cV L) (jV L)).loc cc1_scratch0)) :
    ((sb0V).view.loc (V d (cV L) (jV L)) ↦{fullShare} f : sProp 𝕄) = (V d (cV L) (jV L)).loc cc1_scratch0 ↦{fullShare} f := rfl
omit [FloatOps F] in
theorem pts_sb1 (f : Buf (Elt F) ((V d (cV L) (jV L)).loc cc1_scratch1)) :
    ((sb1V).view.loc (V d (cV L) (jV L)) ↦{fullShare} f : sProp 𝕄) = (V d (cV L) (jV L)).loc cc1_scratch1 ↦{fullShare} f := rfl
omit [FloatOps F] in
theorem pts_buf0 (f : Buf (Elt F) ((V d (cV L) (jV L)).loc cc1_scratch2)) :
    ((buf0V).view.loc (V d (cV L) (jV L)) ↦{fullShare} f : sProp 𝕄) = (V d (cV L) (jV L)).loc cc1_scratch2 ↦{fullShare} f := rfl
omit [FloatOps F] in
theorem pts_buf1 (f : Buf (Elt F) ((V d (cV L) (jV L)).loc cc1_scratch3)) :
    ((buf1V).view.loc (V d (cV L) (jV L)) ↦{fullShare} f : sProp 𝕄) = (V d (cV L) (jV L)).loc cc1_scratch3 ↦{fullShare} f := rfl

/-- The rows of the gather table the subcore stages, as the program slices them. -/
abbrev srcA (L : grid1.Coords) : Memref sig .scVector .hbm S256x128 .f32 := (tabV).slice (Rect.unit (s := S20480x128) (k1_off2 L) S256x128.size (k1_off2_inb L)) (fun _ => rfl)
abbrev srcB (L : grid1.Coords) : Memref sig .scVector .hbm S512x128 .f32 := (tabV).slice (Rect.unit (s := S20480x128) (k1_off4 L) S512x128.size (k1_off4_inb L)) (fun _ => rfl)
/-- What the two staging copies carry: those rows' contents. -/
def stagedA (L : grid1.Coords) : S256x128.Idx → Elt F .f32 := ReadAs.same.apply (View.read (Elt F) (srcA L).view (TAB d))
def stagedB (L : grid1.Coords) : S512x128.Idx → Elt F .f32 := ReadAs.same.apply (View.read (Elt F) (srcB L).view (TAB d))

end Tile

end Cert.KernelIdeal.KProof

end
-- ==== Proof.KOffs1.lean ====
/-
  Closed forms of the offsets computed inside counted loop 1 of the gather kernel.

  Trip `t` (`t < 31`) of this loop handles the two chunks `c = 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 2·t` this is
      `c / 16 = t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.KernelIdeal
import Idealize.ShloMosaic.Lib.Exec.Geometry
import Idealize.ShloMosaic.Lib.Decide

set_option synthInstance.maxSize 4096
set_option Elab.async false

namespace Cert.KernelIdeal.KProof

open Cert.KernelIdeal Cert.KernelIdeal.Gen
open Idealize.ShloMosaic

/-- The index window of chunk `2·t`: row `t`, lanes `0 …`. -/
theorem k1_off7_eq : ∀ t : Fin k1_t1_loop.trips, k1_off7 t = ![t.val, 0] := by decide +kernel
instance closedOff_k1_off7 (t : Fin k1_t1_loop.trips) : ClosedOff (k1_off7 t) := ⟨![t.val, 0], k1_off7_eq t⟩

/-- The output rows of chunk `2·t`. -/
theorem k1_off8_eq : ∀ (i : grid1.Coords) (t : Fin k1_t1_loop.trips),
    k1_off8 i t = ![32768 * (t.val / 8) + 16384 * (i 0).val + 1024 * (i 1).val + 128 * (t.val % 8), 0] := by decide +kernel
instance closedOff_k1_off8 (i : grid1.Coords) (t : Fin k1_t1_loop.trips) : ClosedOff (k1_off8 i t) :=
  ⟨![32768 * (t.val / 8) + 16384 * (i 0).val + 1024 * (i 1).val + 128 * (t.val % 8), 0], k1_off8_eq i t⟩

/-- The index window of chunk `2·t + k`, `k = 1 + r ∈ {1, 2, 3}`: row `t + k / 2`, lanes `64·(k mod 2) …`. -/
theorem k1_off9_eq : ∀ (t : Fin k1_t1_loop.trips) (r : Fin 3),
    k1_off9 t (BitVec.ofNat 32 (1 + r.val)) = ![t.val + (1 + r.val) / 2, 64 * ((1 + r.val) % 2)] := by decide +kernel
theorem k1_off9_eq_1 : ∀ t : Fin k1_t1_loop.trips, k1_off9 t 1#32 = ![t.val, 64] := by decide +kernel
theorem k1_off9_eq_2 : ∀ t : Fin k1_t1_loop.trips, k1_off9 t 2#32 = ![t.val + 1, 0] := by decide +kernel
theorem k1_off9_eq_3 : ∀ t : Fin k1_t1_loop.trips, k1_off9 t 3#32 = ![t.val + 1, 64] := by decide +kernel
instance closedOff_k1_off9_1 (t : Fin k1_t1_loop.trips) : ClosedOff (k1_off9 t 1#32) := ⟨![t.val, 64], k1_off9_eq_1 t⟩
instance closedOff_k1_off9_2 (t : Fin k1_t1_loop.trips) : ClosedOff (k1_off9 t 2#32) := ⟨![t.val + 1, 0], k1_off9_eq_2 t⟩
instance closedOff_k1_off9_3 (t : Fin k1_t1_loop.trips) : ClosedOff (k1_off9 t 3#32) := ⟨![t.val + 1, 64], k1_off9_eq_3 t⟩

/-- The output rows of chunk `2·t + 1`. -/
theorem k1_off10_eq : ∀ (i : grid1.Coords) (t : Fin k1_t1_loop.trips),
    k1_off10 i t = ![32768 * (t.val / 8) + 16384 * (i 0).val + 1024 * (i 1).val + 128 * (t.val % 8) + 64, 0] := by decide +kernel
instance closedOff_k1_off10 (i : grid1.Coords) (t : Fin k1_t1_loop.trips) : ClosedOff (k1_off10 i t) :=
  ⟨![32768 * (t.val / 8) + 16384 * (i 0).val + 1024 * (i 1).val + 128 * (t.val % 8) + 64, 0], k1_off10_eq i t⟩

end Cert.KernelIdeal.KProof
-- ==== Proof.KOffs2.lean ====
/-
  Closed forms of the offsets computed inside counted loop 2 of the gather kernel.

  Trip `t` (`t < 31`) of this loop handles the two chunks `c = 64 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `64` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 64 + 2·t` this is
      `c / 16 = 4 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.KernelIdeal
import Idealize.ShloMosaic.Lib.Exec.Geometry
import Idealize.ShloMosaic.Lib.Decide

set_option synthInstance.maxSize 4096
set_option Elab.async false

namespace Cert.KernelIdeal.KProof

open Cert.KernelIdeal Cert.KernelIdeal.Gen
open Idealize.ShloMosaic

/-- The index window of chunk `64 + 2·t`: row `t`, lanes `0 …`. -/
theorem k1_off13_eq : ∀ t : Fin k1_t2_loop.trips, k1_off13 t = ![t.val, 0] := by decide +kernel
instance closedOff_k1_off13 (t : Fin k1_t2_loop.trips) : ClosedOff (k1_off13 t) := ⟨![t.val, 0], k1_off13_eq t⟩

/-- The output rows of chunk `64 + 2·t`. -/
theorem k1_off14_eq : ∀ (i : grid1.Coords) (t : Fin k1_t2_loop.trips),
    k1_off14 i t = ![32768 * (t.val / 8) + 16384 * (i 0).val + 1024 * (i 1).val + 128 * (t.val % 8) + 131072, 0] := by decide +kernel
instance closedOff_k1_off14 (i : grid1.Coords) (t : Fin k1_t2_loop.trips) : ClosedOff (k1_off14 i t) :=
  ⟨![32768 * (t.val / 8) + 16384 * (i 0).val + 1024 * (i 1).val + 128 * (t.val % 8) + 131072, 0], k1_off14_eq i t⟩

/-- The index window of chunk `64 + 2·t + k`, `k = 1 + r ∈ {1, 2, 3}`: row `t + k / 2`, lanes `64·(k mod 2) …`. -/
theorem k1_off15_eq : ∀ (t : Fin k1_t2_loop.trips) (r : Fin 3),
    k1_off15 t (BitVec.ofNat 32 (1 + r.val)) = ![t.val + (1 + r.val) / 2, 64 * ((1 + r.val) % 2)] := by decide +kernel
theorem k1_off15_eq_1 : ∀ t : Fin k1_t2_loop.trips, k1_off15 t 1#32 = ![t.val, 64] := by decide +kernel
theorem k1_off15_eq_2 : ∀ t : Fin k1_t2_loop.trips, k1_off15 t 2#32 = ![t.val + 1, 0] := by decide +kernel
theorem k1_off15_eq_3 : ∀ t : Fin k1_t2_loop.trips, k1_off15 t 3#32 = ![t.val + 1, 64] := by decide +kernel
instance closedOff_k1_off15_1 (t : Fin k1_t2_loop.trips) : ClosedOff (k1_off15 t 1#32) := ⟨![t.val, 64], k1_off15_eq_1 t⟩
instance closedOff_k1_off15_2 (t : Fin k1_t2_loop.trips) : ClosedOff (k1_off15 t 2#32) := ⟨![t.val + 1, 0], k1_off15_eq_2 t⟩
instance closedOff_k1_off15_3 (t : Fin k1_t2_loop.trips) : ClosedOff (k1_off15 t 3#32) := ⟨![t.val + 1, 64], k1_off15_eq_3 t⟩

/-- The output rows of chunk `64 + 2·t + 1`. -/
theorem k1_off16_eq : ∀ (i : grid1.Coords) (t : Fin k1_t2_loop.trips),
    k1_off16 i t = ![32768 * (t.val / 8) + 16384 * (i 0).val + 1024 * (i 1).val + 128 * (t.val % 8) + 131136, 0] := by decide +kernel
instance closedOff_k1_off16 (i : grid1.Coords) (t : Fin k1_t2_loop.trips) : ClosedOff (k1_off16 i t) :=
  ⟨![32768 * (t.val / 8) + 16384 * (i 0).val + 1024 * (i 1).val + 128 * (t.val % 8) + 131136, 0], k1_off16_eq i t⟩

end Cert.KernelIdeal.KProof
-- ==== Proof.KOffs3.lean ====
/-
  Closed forms of the offsets computed inside counted loop 3 of the gather kernel.

  Trip `t` (`t < 31`) of this loop handles the two chunks `c = 128 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `128` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 128 + 2·t` this is
      `c / 16 = 8 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.KernelIdeal
import Idealize.ShloMosaic.Lib.Exec.Geometry
import Idealize.ShloMosaic.Lib.Decide

set_option synthInstance.maxSize 4096
set_option Elab.async false

namespace Cert.KernelIdeal.KProof

open Cert.KernelIdeal Cert.KernelIdeal.Gen
open Idealize.ShloMosaic

/-- The index window of chunk `128 + 2·t`: row `t`, lanes `0 …`. -/
theorem k1_off18_eq : ∀ t : Fin k1_t3_loop.trips, k1_off18 t = ![t.val, 0] := by decide +kernel
instance closedOff_k1_off18 (t : Fin k1_t3_loop.trips) : ClosedOff (k1_off18 t) := ⟨![t.val, 0], k1_off18_eq t⟩

/-- The output rows of chunk `128 + 2·t`. -/
theorem k1_off19_eq : ∀ (i : grid1.Coords) (t : Fin k1_t3_loop.trips),
    k1_off19 i t = ![32768 * (t.val / 8) + 16384 * (i 0).val + 1024 * (i 1).val + 128 * (t.val % 8) + 262144, 0] := by decide +kernel
instance closedOff_k1_off19 (i : grid1.Coords) (t : Fin k1_t3_loop.trips) : ClosedOff (k1_off19 i t) :=
  ⟨![32768 * (t.val / 8) + 16384 * (i 0).val + 1024 * (i 1).val + 128 * (t.val % 8) + 262144, 0], k1_off19_eq i t⟩

/-- The index window of chunk `128 + 2·t + k`, `k = 1 + r ∈ {1, 2, 3}`: row `t + k / 2`, lanes `64·(k mod 2) …`. -/
theorem k1_off20_eq : ∀ (t : Fin k1_t3_loop.trips) (r : Fin 3),
    k1_off20 t (BitVec.ofNat 32 (1 + r.val)) = ![t.val + (1 + r.val) / 2, 64 * ((1 + r.val) % 2)] := by decide +kernel
theorem k1_off20_eq_1 : ∀ t : Fin k1_t3_loop.trips, k1_off20 t 1#32 = ![t.val, 64] := by decide +kernel
theorem k1_off20_eq_2 : ∀ t : Fin k1_t3_loop.trips, k1_off20 t 2#32 = ![t.val + 1, 0] := by decide +kernel
theorem k1_off20_eq_3 : ∀ t : Fin k1_t3_loop.trips, k1_off20 t 3#32 = ![t.val + 1, 64] := by decide +kernel
instance closedOff_k1_off20_1 (t : Fin k1_t3_loop.trips) : ClosedOff (k1_off20 t 1#32) := ⟨![t.val, 64], k1_off20_eq_1 t⟩
instance closedOff_k1_off20_2 (t : Fin k1_t3_loop.trips) : ClosedOff (k1_off20 t 2#32) := ⟨![t.val + 1, 0], k1_off20_eq_2 t⟩
instance closedOff_k1_off20_3 (t : Fin k1_t3_loop.trips) : ClosedOff (k1_off20 t 3#32) := ⟨![t.val + 1, 64], k1_off20_eq_3 t⟩

/-- The output rows of chunk `128 + 2·t + 1`. -/
theorem k1_off21_eq : ∀ (i : grid1.Coords) (t : Fin k1_t3_loop.trips),
    k1_off21 i t = ![32768 * (t.val / 8) + 16384 * (i 0).val + 1024 * (i 1).val + 128 * (t.val % 8) + 262208, 0] := by decide +kernel
instance closedOff_k1_off21 (i : grid1.Coords) (t : Fin k1_t3_loop.trips) : ClosedOff (k1_off21 i t) :=
  ⟨![32768 * (t.val / 8) + 16384 * (i 0).val + 1024 * (i 1).val + 128 * (t.val % 8) + 262208, 0], k1_off21_eq i t⟩

end Cert.KernelIdeal.KProof
-- ==== Proof.KOffs4.lean ====
/-
  Closed forms of the offsets computed inside counted loop 4 of the gather kernel.

  Trip `t` (`t < 31`) of this loop handles the two chunks `c = 192 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `192` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 192 + 2·t` this is
      `c / 16 = 12 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.KernelIdeal
import Idealize.ShloMosaic.Lib.Exec.Geometry
import Idealize.ShloMosaic.Lib.Decide

set_option synthInstance.maxSize 4096
set_option Elab.async false

namespace Cert.KernelIdeal.KProof

open Cert.KernelIdeal Cert.KernelIdeal.Gen
open Idealize.ShloMosaic

/-- The index window of chunk `192 + 2·t`: row `t`, lanes `0 …`. -/
theorem k1_off23_eq : ∀ t : Fin k1_t4_loop.trips, k1_off23 t = ![t.val, 0] := by decide +kernel
instance closedOff_k1_off23 (t : Fin k1_t4_loop.trips) : ClosedOff (k1_off23 t) := ⟨![t.val, 0], k1_off23_eq t⟩

/-- The output rows of chunk `192 + 2·t`. -/
theorem k1_off24_eq : ∀ (i : grid1.Coords) (t : Fin k1_t4_loop.trips),
    k1_off24 i t = ![32768 * (t.val / 8) + 16384 * (i 0).val + 1024 * (i 1).val + 128 * (t.val % 8) + 393216, 0] := by decide +kernel
instance closedOff_k1_off24 (i : grid1.Coords) (t : Fin k1_t4_loop.trips) : ClosedOff (k1_off24 i t) :=
  ⟨![32768 * (t.val / 8) + 16384 * (i 0).val + 1024 * (i 1).val + 128 * (t.val % 8) + 393216, 0], k1_off24_eq i t⟩

/-- The index window of chunk `192 + 2·t + k`, `k = 1 + r ∈ {1, 2, 3}`: row `t + k / 2`, lanes `64·(k mod 2) …`. -/
theorem k1_off25_eq : ∀ (t : Fin k1_t4_loop.trips) (r : Fin 3),
    k1_off25 t (BitVec.ofNat 32 (1 + r.val)) = ![t.val + (1 + r.val) / 2, 64 * ((1 + r.val) % 2)] := by decide +kernel
theorem k1_off25_eq_1 : ∀ t : Fin k1_t4_loop.trips, k1_off25 t 1#32 = ![t.val, 64] := by decide +kernel
theorem k1_off25_eq_2 : ∀ t : Fin k1_t4_loop.trips, k1_off25 t 2#32 = ![t.val + 1, 0] := by decide +kernel
theorem k1_off25_eq_3 : ∀ t : Fin k1_t4_loop.trips, k1_off25 t 3#32 = ![t.val + 1, 64] := by decide +kernel
instance closedOff_k1_off25_1 (t : Fin k1_t4_loop.trips) : ClosedOff (k1_off25 t 1#32) := ⟨![t.val, 64], k1_off25_eq_1 t⟩
instance closedOff_k1_off25_2 (t : Fin k1_t4_loop.trips) : ClosedOff (k1_off25 t 2#32) := ⟨![t.val + 1, 0], k1_off25_eq_2 t⟩
instance closedOff_k1_off25_3 (t : Fin k1_t4_loop.trips) : ClosedOff (k1_off25 t 3#32) := ⟨![t.val + 1, 64], k1_off25_eq_3 t⟩

/-- The output rows of chunk `192 + 2·t + 1`. -/
theorem k1_off26_eq : ∀ (i : grid1.Coords) (t : Fin k1_t4_loop.trips),
    k1_off26 i t = ![32768 * (t.val / 8) + 16384 * (i 0).val + 1024 * (i 1).val + 128 * (t.val % 8) + 393280, 0] := by decide +kernel
instance closedOff_k1_off26 (i : grid1.Coords) (t : Fin k1_t4_loop.trips) : ClosedOff (k1_off26 i t) :=
  ⟨![32768 * (t.val / 8) + 16384 * (i 0).val + 1024 * (i 1).val + 128 * (t.val % 8) + 393280, 0], k1_off26_eq i t⟩

end Cert.KernelIdeal.KProof
-- ==== Proof.KOffs5.lean ====
/-
  Closed forms of the offsets computed inside counted loop 5 of the gather kernel.

  Trip `t` (`t < 31`) of this loop handles the two chunks `c = 256 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `256` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 256 + 2·t` this is
      `c / 16 = 16 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.KernelIdeal
import Idealize.ShloMosaic.Lib.Exec.Geometry
import Idealize.ShloMosaic.Lib.Decide

set_option synthInstance.maxSize 4096
set_option Elab.async false

namespace Cert.KernelIdeal.KProof

open Cert.KernelIdeal Cert.KernelIdeal.Gen
open Idealize.ShloMosaic

/-- The index window of chunk `256 + 2·t`: row `t`, lanes `0 …`. -/
theorem k1_off27_eq : ∀ t : Fin k1_t5_loop.trips, k1_off27 t = ![t.val, 0] := by decide +kernel
instance closedOff_k1_off27 (t : Fin k1_t5_loop.trips) : ClosedOff (k1_off27 t) := ⟨![t.val, 0], k1_off27_eq t⟩

/-- The output rows of chunk `256 + 2·t`. -/
theorem k1_off28_eq : ∀ (i : grid1.Coords) (t : Fin k1_t5_loop.trips),
    k1_off28 i t = ![32768 * (t.val / 8) + 16384 * (i 0).val + 1024 * (i 1).val + 128 * (t.val % 8) + 524288, 0] := by decide +kernel
instance closedOff_k1_off28 (i : grid1.Coords) (t : Fin k1_t5_loop.trips) : ClosedOff (k1_off28 i t) :=
  ⟨![32768 * (t.val / 8) + 16384 * (i 0).val + 1024 * (i 1).val + 128 * (t.val % 8) + 524288, 0], k1_off28_eq i t⟩

/-- The index window of chunk `256 + 2·t + k`, `k = 1 + r ∈ {1, 2, 3}`: row `t + k / 2`, lanes `64·(k mod 2) …`. -/
theorem k1_off29_eq : ∀ (t : Fin k1_t5_loop.trips) (r : Fin 3),
    k1_off29 t (BitVec.ofNat 32 (1 + r.val)) = ![t.val + (1 + r.val) / 2, 64 * ((1 + r.val) % 2)] := by decide +kernel
theorem k1_off29_eq_1 : ∀ t : Fin k1_t5_loop.trips, k1_off29 t 1#32 = ![t.val, 64] := by decide +kernel
theorem k1_off29_eq_2 : ∀ t : Fin k1_t5_loop.trips, k1_off29 t 2#32 = ![t.val + 1, 0] := by decide +kernel
theorem k1_off29_eq_3 : ∀ t : Fin k1_t5_loop.trips, k1_off29 t 3#32 = ![t.val + 1, 64] := by decide +kernel
instance closedOff_k1_off29_1 (t : Fin k1_t5_loop.trips) : ClosedOff (k1_off29 t 1#32) := ⟨![t.val, 64], k1_off29_eq_1 t⟩
instance closedOff_k1_off29_2 (t : Fin k1_t5_loop.trips) : ClosedOff (k1_off29 t 2#32) := ⟨![t.val + 1, 0], k1_off29_eq_2 t⟩
instance closedOff_k1_off29_3 (t : Fin k1_t5_loop.trips) : ClosedOff (k1_off29 t 3#32) := ⟨![t.val + 1, 64], k1_off29_eq_3 t⟩

/-- The output rows of chunk `256 + 2·t + 1`. -/
theorem k1_off30_eq : ∀ (i : grid1.Coords) (t : Fin k1_t5_loop.trips),
    k1_off30 i t = ![32768 * (t.val / 8) + 16384 * (i 0).val + 1024 * (i 1).val + 128 * (t.val % 8) + 524352, 0] := by decide +kernel
instance closedOff_k1_off30 (i : grid1.Coords) (t : Fin k1_t5_loop.trips) : ClosedOff (k1_off30 i t) :=
  ⟨![32768 * (t.val / 8) + 16384 * (i 0).val + 1024 * (i 1).val + 128 * (t.val % 8) + 524352, 0], k1_off30_eq i t⟩

end Cert.KernelIdeal.KProof
-- ==== Proof.KLoop.lean ====
/-
  The section loops of a vector subcore's task: the windows of the index staging buffers, the gathers in flight, the
  invariant between two pairs of chunks, and, section by section, the program's chunk slices and gather windows in
  closed form.
-/
import proofs.«204824_g46875273068696_cont_8to1_c_371_32_alg».proof.Proof.KTile
import proofs.«204824_g46875273068696_cont_8to1_c_371_32_alg».proof.Proof.KFun
import proofs.«204824_g46875273068696_cont_8to1_c_371_32_alg».proof.Proof.KOffs1
import proofs.«204824_g46875273068696_cont_8to1_c_371_32_alg».proof.Proof.KOffs2
import proofs.«204824_g46875273068696_cont_8to1_c_371_32_alg».proof.Proof.KOffs3
import proofs.«204824_g46875273068696_cont_8to1_c_371_32_alg».proof.Proof.KOffs4
import proofs.«204824_g46875273068696_cont_8to1_c_371_32_alg».proof.Proof.KOffs5

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-! ### The section loops' invariant: what is in flight between two pairs of chunks -/

/-- A 64-entry window of an index staging buffer: row `r`, half `h`. -/
theorem win_inb (r : Fin 32) (h : Fin 2) : ∀ a, (![r.val, 64 * h.val] : Fin 2 → ℕ) a + S1x64.size a ≤ S32x128.size a := by
  have hr := r.isLt; have hh := h.isLt
  intro a; match a with
  | 0 => show r.val + 1 ≤ 32; omega
  | 1 => show 64 * h.val + 64 ≤ 128; omega
abbrev win0 (r : Fin 32) (h : Fin 2) : Memref sig .scVector .vmem S64 .i32 :=
  ((sb0V).slice (Rect.unit (s := S32x128) ![r.val, 64 * h.val] S1x64.size (win_inb r h)) (fun _ => rfl)).squeeze S64 squeezes_S1x64_S64
abbrev win1 (r : Fin 32) (h : Fin 2) : Memref sig .scVector .vmem S64 .i32 :=
  ((sb1V).slice (Rect.unit (s := S32x128) ![r.val, 64 * h.val] S1x64.size (win_inb r h)) (fun _ => rfl)).squeeze S64 squeezes_S1x64_S64
/-- The shared table as the gathers slice it: whole. -/
abbrev shW : Memref sig .scVector .shared S12288x128 .f32 :=
  (shV).slice (Rect.unit (s := S12288x128) ![0, 0] S12288x128.size inb_S12288x128_S12288x128_0_0) (fun _ => rfl)
/-- The row a trip number stands for (the loops run 31 trips; row 31 is the section's last pair). -/
abbrev rowOf (k : ℕ) : Fin 32 := ⟨k % 32, Nat.mod_lt _ (by decide)⟩

/-- A gather in flight on a gather slot's semaphore: it delivers the slot's row buffer written with the gathered rows `g`,
    the window of the staging buffer it reads its indices from, and its read share of the shared table. (Slot 0 or 1; the
    staging buffer 0 or 1.) -/
abbrev gFlight00 (r : Fin 32)
    (fb : Buf (Elt F) ((buf0V).view.loc (V d (cV L) (jV L)))) (g : S64x128.Idx → Elt F .f32) (C : Buf (Elt F) ((sb0V).view.loc (V d (cV L) (jV L)))) : sProp 𝕄 :=
  Transfers.Flight (countersEmb (U := UU)) (V d (cV L) (jV L)) (SemLoc.dma cc1_scratch5.sem) (default : HIx 1) 262144
    iprop((((buf0V).view.loc (V d (cV L) (jV L)) ↦[(buf0V).view.set]{fullShare} (buf0V).view.writes (Elt F) fb [⟨Rect.whole _, g⟩])
          ∗ ((sb0V).view.loc (V d (cV L) (jV L)) ↦[(win0 r 0).view.set]{fullShare} C))
        ∗ ((shV).view.loc (V d (cV L) (jV L)) ↦[(shW).view.set]{Transfers.shareTokN (shTok (jV L)) 4} SH d (cV L)))
abbrev gFlight10 (r : Fin 32)
    (fb : Buf (Elt F) ((buf1V).view.loc (V d (cV L) (jV L)))) (g : S64x128.Idx → Elt F .f32) (C : Buf (Elt F) ((sb0V).view.loc (V d (cV L) (jV L)))) : sProp 𝕄 :=
  Transfers.Flight (countersEmb (U := UU)) (V d (cV L) (jV L)) (SemLoc.dma cc1_scratch6.sem) (default : HIx 1) 262144
    iprop((((buf1V).view.loc (V d (cV L) (jV L)) ↦[(buf1V).view.set]{fullShare} (buf1V).view.writes (Elt F) fb [⟨Rect.whole _, g⟩])
          ∗ ((sb0V).view.loc (V d (cV L) (jV L)) ↦[(win0 r 1).view.set]{fullShare} C))
        ∗ ((shV).view.loc (V d (cV L) (jV L)) ↦[(shW).view.set]{Transfers.shareTokN (shTok (jV L)) 5} SH d (cV L)))
abbrev gFlight01 (r : Fin 32)
    (fb : Buf (Elt F) ((buf0V).view.loc (V d (cV L) (jV L)))) (g : S64x128.Idx → Elt F .f32) (C : Buf (Elt F) ((sb1V).view.loc (V d (cV L) (jV L)))) : sProp 𝕄 :=
  Transfers.Flight (countersEmb (U := UU)) (V d (cV L) (jV L)) (SemLoc.dma cc1_scratch5.sem) (default : HIx 1) 262144
    iprop((((buf0V).view.loc (V d (cV L) (jV L)) ↦[(buf0V).view.set]{fullShare} (buf0V).view.writes (Elt F) fb [⟨Rect.whole _, g⟩])
          ∗ ((sb1V).view.loc (V d (cV L) (jV L)) ↦[(win1 r 0).view.set]{fullShare} C))
        ∗ ((shV).view.loc (V d (cV L) (jV L)) ↦[(shW).view.set]{Transfers.shareTokN (shTok (jV L)) 4} SH d (cV L)))
abbrev gFlight11 (r : Fin 32)
    (fb : Buf (Elt F) ((buf1V).view.loc (V d (cV L) (jV L)))) (g : S64x128.Idx → Elt F .f32) (C : Buf (Elt F) ((sb1V).view.loc (V d (cV L) (jV L)))) : sProp 𝕄 :=
  Transfers.Flight (countersEmb (U := UU)) (V d (cV L) (jV L)) (SemLoc.dma cc1_scratch6.sem) (default : HIx 1) 262144
    iprop((((buf1V).view.loc (V d (cV L) (jV L)) ↦[(buf1V).view.set]{fullShare} (buf1V).view.writes (Elt F) fb [⟨Rect.whole _, g⟩])
          ∗ ((sb1V).view.loc (V d (cV L) (jV L)) ↦[(win1 r 1).view.set]{fullShare} C))
        ∗ ((shV).view.loc (V d (cV L) (jV L)) ↦[(shW).view.set]{Transfers.shareTokN (shTok (jV L)) 5} SH d (cV L)))

/-- A 64×128 block of values is chunk `j` of what the kernel leaves in worker `w`'s rows of the output. -/
def isChunk (d : Dev nD) (w : Fin 32) (j : Fin 320) (g : S64x128.Idx → Elt F .f32) : Prop :=
  ∀ y : S64x128.Idx, g y = OUT d (((outV).view.slice (chunkRect w j)).emb y)
/-- The same for a chunk number given as a natural number (nothing asked past the last chunk). -/
def isChunkN (d : Dev nD) (w : Fin 32) (j : ℕ) (g : S64x128.Idx → Elt F .f32) : Prop :=
  ∀ hj : j < 320, isChunk OUT d w ⟨j, hj⟩ g

/-- The worker's chunks of the output, the first `n` of them holding what the kernel leaves there. -/
def outUpTo (d : Dev nD) (w : Fin 32) (n : ℕ) : sProp 𝕄 :=
  bigSep Finset.univ fun j : Fin 320 => iprop(∃ f, (outLoc d ↦[chunkSet w j]{fullShare} f) ∗ ⌜j.val < n → ∀ x ∈ chunkSet w j, f x = OUT d x⌝)

/-- Between two pairs of a section whose indices sit in staging buffer 0: the two gathers of pair `k` in flight (rows
    `k` of the staging buffer, halves 0 and 1), the staging buffer less their two windows, the write semaphores free, the
    worker's chunks of the output — the first `n₀ + 2·k` of them holding the gathered rows —, and what the subcore owes. -/
def inv0 (O : CellTallies nD τ sig (HIx 1)) (W₀ : Waits sig (HIx 1)) (n₀ : ℕ) (C : Buf (Elt F) ((sb0V).view.loc (V d (cV L) (jV L)))) (k : ℕ) (_ : PUnit) : sProp 𝕄 :=
  iprop(∃ (fb0 : Buf (Elt F) ((buf0V).view.loc (V d (cV L) (jV L)))) (g0 : S64x128.Idx → Elt F .f32)
      (fb1 : Buf (Elt F) ((buf1V).view.loc (V d (cV L) (jV L)))) (g1 : S64x128.Idx → Elt F .f32),
    ⌜isChunkN OUT d (wid (cV L) (jV L)) (n₀ + 2 * k) g0⌝ ∗ ⌜isChunkN OUT d (wid (cV L) (jV L)) (n₀ + 2 * k + 1) g1⌝
    ∗ Transfers.MayWaits (V d (cV L) (jV L)) (default : HIx 1) O
    ∗ gFlight00 SH d L (rowOf k) fb0 g0 C
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} (buf0V).view.writes (Elt F) fb0 [⟨Rect.whole _, g0⟩])
    ∗ gFlight10 SH d L (rowOf k) fb1 g1 C
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} (buf1V).view.writes (Elt F) fb1 [⟨Rect.whole _, g1⟩])
    ∗ ((sb0V).view.loc (V d (cV L) (jV L)) ↦[(Finset.univ \ (win0 (rowOf k) 0).view.set) \ (win0 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ ∃ W', ⌜∀ p ∈ W', p ∈ W₀ ∨ p.2 = none⌝ ∗ owes (V d (cV L) (jV L)) O W')

/-- Between two pairs of a section whose indices sit in staging buffer 1: the two gathers of pair `k` in flight (rows
    `k` of the staging buffer, halves 0 and 1), the staging buffer less their two windows, the write semaphores free, the
    worker's chunks of the output — the first `n₀ + 2·k` of them holding the gathered rows —, and what the subcore owes. -/
def inv1 (O : CellTallies nD τ sig (HIx 1)) (W₀ : Waits sig (HIx 1)) (n₀ : ℕ) (C : Buf (Elt F) ((sb1V).view.loc (V d (cV L) (jV L)))) (k : ℕ) (_ : PUnit) : sProp 𝕄 :=
  iprop(∃ (fb0 : Buf (Elt F) ((buf0V).view.loc (V d (cV L) (jV L)))) (g0 : S64x128.Idx → Elt F .f32)
      (fb1 : Buf (Elt F) ((buf1V).view.loc (V d (cV L) (jV L)))) (g1 : S64x128.Idx → Elt F .f32),
    ⌜isChunkN OUT d (wid (cV L) (jV L)) (n₀ + 2 * k) g0⌝ ∗ ⌜isChunkN OUT d (wid (cV L) (jV L)) (n₀ + 2 * k + 1) g1⌝
    ∗ Transfers.MayWaits (V d (cV L) (jV L)) (default : HIx 1) O
    ∗ gFlight01 SH d L (rowOf k) fb0 g0 C
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} (buf0V).view.writes (Elt F) fb0 [⟨Rect.whole _, g0⟩])
    ∗ gFlight11 SH d L (rowOf k) fb1 g1 C
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} (buf1V).view.writes (Elt F) fb1 [⟨Rect.whole _, g1⟩])
    ∗ ((sb1V).view.loc (V d (cV L) (jV L)) ↦[(Finset.univ \ (win1 (rowOf k) 0).view.set) \ (win1 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ ∃ W', ⌜∀ p ∈ W', p ∈ W₀ ∨ p.2 = none⌝ ∗ owes (V d (cV L) (jV L)) O W')

omit [FloatOps F] in
theorem rowOf_lt (k : ℕ) (hk : k < 32) : rowOf k = ⟨k, hk⟩ := Fin.ext (Nat.mod_eq_of_lt hk)

/-- Nothing gathered yet: the chunks as the launch left them. -/
theorem out_init (w : Fin 32) : outChunks d w (m (outLoc d)) ⊢ outUpTo OUT d w 0 := by
  unfold outUpTo
  refine SparseCore.ent (bigSep_mono fun j _ => ?_)
  exact (show ((outLoc d ↦[chunkSet w j]{fullShare} m (outLoc d)) : sProp 𝕄)
      ⊢ iprop(∃ f, (outLoc d ↦[chunkSet w j]{fullShare} f) ∗ ⌜j.val < 0 → ∀ x ∈ chunkSet w j, f x = OUT d x⌝) from by
    iintro H; iexists _; isplitl [H]; · iexact H
    ipureintro; intro h; exact absurd h (Nat.not_lt_zero _))

/-- Two chunks taken out of the worker's chunks, and put back. -/
theorem out_take2 (w : Fin 32) (n : ℕ) (j0 j1 : Fin 320) (hne : j0 ≠ j1) :
    outUpTo OUT d w n = iprop((∃ f, (outLoc d ↦[chunkSet w j0]{fullShare} f) ∗ ⌜j0.val < n → ∀ x ∈ chunkSet w j0, f x = OUT d x⌝)
      ∗ (∃ f, (outLoc d ↦[chunkSet w j1]{fullShare} f) ∗ ⌜j1.val < n → ∀ x ∈ chunkSet w j1, f x = OUT d x⌝)
      ∗ bigSep ((Finset.univ.erase j0).erase j1) fun j : Fin 320 => iprop(∃ f, (outLoc d ↦[chunkSet w j]{fullShare} f) ∗ ⌜j.val < n → ∀ x ∈ chunkSet w j, f x = OUT d x⌝)) := by
  unfold outUpTo
  rw [SparseCore.bigSep_erase' (Finset.mem_univ j0), SparseCore.bigSep_erase' (Finset.mem_erase.mpr ⟨hne.symm, Finset.mem_univ j1⟩)]

/-! #### Section 0 (chunks 0 … 63; indices in staging buffer 0) -/

omit [FloatOps F] in
theorem k1_t1_trips : k1_t1_loop.trips = 31 := by decide +kernel

/-- The chunks of pair `t` of the section, as the program slices them. -/
abbrev oc10 (t : Fin k1_t1_loop.trips) : Memref sig .scVector .hbm S64x128 .f32 := (outV).slice (Rect.unit (s := S655360x128) (k1_off8 L t) S64x128.size (k1_off8_inb L t)) (fun _ => rfl)
abbrev oc11 (t : Fin k1_t1_loop.trips) : Memref sig .scVector .hbm S64x128 .f32 := (outV).slice (Rect.unit (s := S655360x128) (k1_off10 L t) S64x128.size (k1_off10_inb L t)) (fun _ => rfl)

omit [FloatOps F] in
theorem oc10_rect (t : Fin k1_t1_loop.trips) (hj : 0 + 2 * t.val < 320) :
    Rect.unit (s := S655360x128) (k1_off8 L t) S64x128.size (k1_off8_inb L t) = chunkRect (wid (cV L) (jV L)) ⟨0 + 2 * t.val, hj⟩ :=
  Rect.unit_congr ((k1_off8_eq L t).trans (by
    funext a
    match a with
    | 0 => show 32768 * (t.val / 8) + 16384 * (L 0).val + 1024 * (L 1).val + 128 * (t.val % 8) = chunkRow (wid (cV L) (jV L)) ⟨0 + 2 * t.val, hj⟩
           unfold chunkRow wid; simp only [Fin.val_mk, Fin.coe_castLE]; omega
    | 1 => rfl)) _ _
omit [FloatOps F] in
theorem oc11_rect (t : Fin k1_t1_loop.trips) (hj : 0 + 2 * t.val + 1 < 320) :
    Rect.unit (s := S655360x128) (k1_off10 L t) S64x128.size (k1_off10_inb L t) = chunkRect (wid (cV L) (jV L)) ⟨0 + 2 * t.val + 1, hj⟩ :=
  Rect.unit_congr ((k1_off10_eq L t).trans (by
    funext a
    match a with
    | 0 => show 32768 * (t.val / 8) + 16384 * (L 0).val + 1024 * (L 1).val + 128 * (t.val % 8) + 64 = chunkRow (wid (cV L) (jV L)) ⟨0 + 2 * t.val + 1, hj⟩
           unfold chunkRow wid; simp only [Fin.val_mk, Fin.coe_castLE]; omega
    | 1 => rfl)) _ _
omit [FloatOps F] in
theorem pts_oc10 (t : Fin k1_t1_loop.trips) (hj : 0 + 2 * t.val < 320) (q : PosShare TreeShare) (f : Buf (Elt F) (outLoc d)) :
    ((oc10 L t).view.loc (V d (cV L) (jV L)) ↦[(oc10 L t).view.set]{q} f : sProp 𝕄) = outLoc d ↦[chunkSet (wid (cV L) (jV L)) ⟨0 + 2 * t.val, hj⟩]{q} f := by
  show (_ ↦[((outV).view.slice (Rect.unit (s := S655360x128) (k1_off8 L t) S64x128.size (k1_off8_inb L t))).set]{q} f : sProp 𝕄) = _
  rw [oc10_rect L t hj]
omit [FloatOps F] in
theorem pts_oc11 (t : Fin k1_t1_loop.trips) (hj : 0 + 2 * t.val + 1 < 320) (q : PosShare TreeShare) (f : Buf (Elt F) (outLoc d)) :
    ((oc11 L t).view.loc (V d (cV L) (jV L)) ↦[(oc11 L t).view.set]{q} f : sProp 𝕄) = outLoc d ↦[chunkSet (wid (cV L) (jV L)) ⟨0 + 2 * t.val + 1, hj⟩]{q} f := by
  show (_ ↦[((outV).view.slice (Rect.unit (s := S655360x128) (k1_off10 L t) S64x128.size (k1_off10_inb L t))).set]{q} f : sProp 𝕄) = _
  rw [oc11_rect L t hj]

omit [FloatOps F] in
/-- The windows the trip's two new gathers read, in closed form: row `t + 1`, halves 0 and 1. -/
theorem win1_eq2 (t : Fin k1_t1_loop.trips) (ht : t.val + 1 < 32) (inb : ∀ a, (k1_off9 t 2#32) a + S1x64.size a ≤ S32x128.size a)
    (hr : ∀ a, (Rect.unit (s := S32x128) (k1_off9 t 2#32) S1x64.size inb).stride a = 1) (sq : S1x64.Squeezes S64) :
    ((sb0V).slice (Rect.unit (s := S32x128) (k1_off9 t 2#32) S1x64.size inb) hr).squeeze S64 sq = win0 ⟨t.val + 1, ht⟩ 0 := by
  unfold win0
  congr 1
  exact Memref.slice_unit_congr _ ((k1_off9_eq_2 t).trans (by funext a; match a with | 0 => rfl | 1 => rfl)) _ _ _ _
omit [FloatOps F] in
theorem win1_eq3 (t : Fin k1_t1_loop.trips) (ht : t.val + 1 < 32) (inb : ∀ a, (k1_off9 t 3#32) a + S1x64.size a ≤ S32x128.size a)
    (hr : ∀ a, (Rect.unit (s := S32x128) (k1_off9 t 3#32) S1x64.size inb).stride a = 1) (sq : S1x64.Squeezes S64) :
    ((sb0V).slice (Rect.unit (s := S32x128) (k1_off9 t 3#32) S1x64.size inb) hr).squeeze S64 sq = win0 ⟨t.val + 1, ht⟩ 1 := by
  unfold win0
  congr 1
  exact Memref.slice_unit_congr _ ((k1_off9_eq_3 t).trans (by funext a; match a with | 0 => rfl | 1 => rfl)) _ _ _ _

/-! #### Section 1 (chunks 64 … 127; indices in staging buffer 1) -/

omit [FloatOps F] in
theorem k1_t2_trips : k1_t2_loop.trips = 31 := by decide +kernel

/-- The chunks of pair `t` of the section, as the program slices them. -/
abbrev oc20 (t : Fin k1_t2_loop.trips) : Memref sig .scVector .hbm S64x128 .f32 := (outV).slice (Rect.unit (s := S655360x128) (k1_off14 L t) S64x128.size (k1_off14_inb L t)) (fun _ => rfl)
abbrev oc21 (t : Fin k1_t2_loop.trips) : Memref sig .scVector .hbm S64x128 .f32 := (outV).slice (Rect.unit (s := S655360x128) (k1_off16 L t) S64x128.size (k1_off16_inb L t)) (fun _ => rfl)

omit [FloatOps F] in
theorem oc20_rect (t : Fin k1_t2_loop.trips) (hj : 64 + 2 * t.val < 320) :
    Rect.unit (s := S655360x128) (k1_off14 L t) S64x128.size (k1_off14_inb L t) = chunkRect (wid (cV L) (jV L)) ⟨64 + 2 * t.val, hj⟩ :=
  Rect.unit_congr ((k1_off14_eq L t).trans (by
    funext a
    match a with
    | 0 => show 32768 * (t.val / 8) + 16384 * (L 0).val + 1024 * (L 1).val + 128 * (t.val % 8) + 131072 = chunkRow (wid (cV L) (jV L)) ⟨64 + 2 * t.val, hj⟩
           unfold chunkRow wid; simp only [Fin.val_mk, Fin.coe_castLE]; omega
    | 1 => rfl)) _ _
omit [FloatOps F] in
theorem oc21_rect (t : Fin k1_t2_loop.trips) (hj : 64 + 2 * t.val + 1 < 320) :
    Rect.unit (s := S655360x128) (k1_off16 L t) S64x128.size (k1_off16_inb L t) = chunkRect (wid (cV L) (jV L)) ⟨64 + 2 * t.val + 1, hj⟩ :=
  Rect.unit_congr ((k1_off16_eq L t).trans (by
    funext a
    match a with
    | 0 => show 32768 * (t.val / 8) + 16384 * (L 0).val + 1024 * (L 1).val + 128 * (t.val % 8) + 131136 = chunkRow (wid (cV L) (jV L)) ⟨64 + 2 * t.val + 1, hj⟩
           unfold chunkRow wid; simp only [Fin.val_mk, Fin.coe_castLE]; omega
    | 1 => rfl)) _ _
omit [FloatOps F] in
theorem pts_oc20 (t : Fin k1_t2_loop.trips) (hj : 64 + 2 * t.val < 320) (q : PosShare TreeShare) (f : Buf (Elt F) (outLoc d)) :
    ((oc20 L t).view.loc (V d (cV L) (jV L)) ↦[(oc20 L t).view.set]{q} f : sProp 𝕄) = outLoc d ↦[chunkSet (wid (cV L) (jV L)) ⟨64 + 2 * t.val, hj⟩]{q} f := by
  show (_ ↦[((outV).view.slice (Rect.unit (s := S655360x128) (k1_off14 L t) S64x128.size (k1_off14_inb L t))).set]{q} f : sProp 𝕄) = _
  rw [oc20_rect L t hj]
omit [FloatOps F] in
theorem pts_oc21 (t : Fin k1_t2_loop.trips) (hj : 64 + 2 * t.val + 1 < 320) (q : PosShare TreeShare) (f : Buf (Elt F) (outLoc d)) :
    ((oc21 L t).view.loc (V d (cV L) (jV L)) ↦[(oc21 L t).view.set]{q} f : sProp 𝕄) = outLoc d ↦[chunkSet (wid (cV L) (jV L)) ⟨64 + 2 * t.val + 1, hj⟩]{q} f := by
  show (_ ↦[((outV).view.slice (Rect.unit (s := S655360x128) (k1_off16 L t) S64x128.size (k1_off16_inb L t))).set]{q} f : sProp 𝕄) = _
  rw [oc21_rect L t hj]

omit [FloatOps F] in
/-- The windows the trip's two new gathers read, in closed form: row `t + 1`, halves 0 and 1. -/
theorem win2_eq2 (t : Fin k1_t2_loop.trips) (ht : t.val + 1 < 32) (inb : ∀ a, (k1_off15 t 2#32) a + S1x64.size a ≤ S32x128.size a)
    (hr : ∀ a, (Rect.unit (s := S32x128) (k1_off15 t 2#32) S1x64.size inb).stride a = 1) (sq : S1x64.Squeezes S64) :
    ((sb1V).slice (Rect.unit (s := S32x128) (k1_off15 t 2#32) S1x64.size inb) hr).squeeze S64 sq = win1 ⟨t.val + 1, ht⟩ 0 := by
  unfold win1
  congr 1
  exact Memref.slice_unit_congr _ ((k1_off15_eq_2 t).trans (by funext a; match a with | 0 => rfl | 1 => rfl)) _ _ _ _
omit [FloatOps F] in
theorem win2_eq3 (t : Fin k1_t2_loop.trips) (ht : t.val + 1 < 32) (inb : ∀ a, (k1_off15 t 3#32) a + S1x64.size a ≤ S32x128.size a)
    (hr : ∀ a, (Rect.unit (s := S32x128) (k1_off15 t 3#32) S1x64.size inb).stride a = 1) (sq : S1x64.Squeezes S64) :
    ((sb1V).slice (Rect.unit (s := S32x128) (k1_off15 t 3#32) S1x64.size inb) hr).squeeze S64 sq = win1 ⟨t.val + 1, ht⟩ 1 := by
  unfold win1
  congr 1
  exact Memref.slice_unit_congr _ ((k1_off15_eq_3 t).trans (by funext a; match a with | 0 => rfl | 1 => rfl)) _ _ _ _

/-! #### Section 2 (chunks 128 … 191; indices in staging buffer 0) -/

omit [FloatOps F] in
theorem k1_t3_trips : k1_t3_loop.trips = 31 := by decide +kernel

/-- The chunks of pair `t` of the section, as the program slices them. -/
abbrev oc30 (t : Fin k1_t3_loop.trips) : Memref sig .scVector .hbm S64x128 .f32 := (outV).slice (Rect.unit (s := S655360x128) (k1_off19 L t) S64x128.size (k1_off19_inb L t)) (fun _ => rfl)
abbrev oc31 (t : Fin k1_t3_loop.trips) : Memref sig .scVector .hbm S64x128 .f32 := (outV).slice (Rect.unit (s := S655360x128) (k1_off21 L t) S64x128.size (k1_off21_inb L t)) (fun _ => rfl)

omit [FloatOps F] in
theorem oc30_rect (t : Fin k1_t3_loop.trips) (hj : 128 + 2 * t.val < 320) :
    Rect.unit (s := S655360x128) (k1_off19 L t) S64x128.size (k1_off19_inb L t) = chunkRect (wid (cV L) (jV L)) ⟨128 + 2 * t.val, hj⟩ :=
  Rect.unit_congr ((k1_off19_eq L t).trans (by
    funext a
    match a with
    | 0 => show 32768 * (t.val / 8) + 16384 * (L 0).val + 1024 * (L 1).val + 128 * (t.val % 8) + 262144 = chunkRow (wid (cV L) (jV L)) ⟨128 + 2 * t.val, hj⟩
           unfold chunkRow wid; simp only [Fin.val_mk, Fin.coe_castLE]; omega
    | 1 => rfl)) _ _
omit [FloatOps F] in
theorem oc31_rect (t : Fin k1_t3_loop.trips) (hj : 128 + 2 * t.val + 1 < 320) :
    Rect.unit (s := S655360x128) (k1_off21 L t) S64x128.size (k1_off21_inb L t) = chunkRect (wid (cV L) (jV L)) ⟨128 + 2 * t.val + 1, hj⟩ :=
  Rect.unit_congr ((k1_off21_eq L t).trans (by
    funext a
    match a with
    | 0 => show 32768 * (t.val / 8) + 16384 * (L 0).val + 1024 * (L 1).val + 128 * (t.val % 8) + 262208 = chunkRow (wid (cV L) (jV L)) ⟨128 + 2 * t.val + 1, hj⟩
           unfold chunkRow wid; simp only [Fin.val_mk, Fin.coe_castLE]; omega
    | 1 => rfl)) _ _
omit [FloatOps F] in
theorem pts_oc30 (t : Fin k1_t3_loop.trips) (hj : 128 + 2 * t.val < 320) (q : PosShare TreeShare) (f : Buf (Elt F) (outLoc d)) :
    ((oc30 L t).view.loc (V d (cV L) (jV L)) ↦[(oc30 L t).view.set]{q} f : sProp 𝕄) = outLoc d ↦[chunkSet (wid (cV L) (jV L)) ⟨128 + 2 * t.val, hj⟩]{q} f := by
  show (_ ↦[((outV).view.slice (Rect.unit (s := S655360x128) (k1_off19 L t) S64x128.size (k1_off19_inb L t))).set]{q} f : sProp 𝕄) = _
  rw [oc30_rect L t hj]
omit [FloatOps F] in
theorem pts_oc31 (t : Fin k1_t3_loop.trips) (hj : 128 + 2 * t.val + 1 < 320) (q : PosShare TreeShare) (f : Buf (Elt F) (outLoc d)) :
    ((oc31 L t).view.loc (V d (cV L) (jV L)) ↦[(oc31 L t).view.set]{q} f : sProp 𝕄) = outLoc d ↦[chunkSet (wid (cV L) (jV L)) ⟨128 + 2 * t.val + 1, hj⟩]{q} f := by
  show (_ ↦[((outV).view.slice (Rect.unit (s := S655360x128) (k1_off21 L t) S64x128.size (k1_off21_inb L t))).set]{q} f : sProp 𝕄) = _
  rw [oc31_rect L t hj]

omit [FloatOps F] in
/-- The windows the trip's two new gathers read, in closed form: row `t + 1`, halves 0 and 1. -/
theorem win3_eq2 (t : Fin k1_t3_loop.trips) (ht : t.val + 1 < 32) (inb : ∀ a, (k1_off20 t 2#32) a + S1x64.size a ≤ S32x128.size a)
    (hr : ∀ a, (Rect.unit (s := S32x128) (k1_off20 t 2#32) S1x64.size inb).stride a = 1) (sq : S1x64.Squeezes S64) :
    ((sb0V).slice (Rect.unit (s := S32x128) (k1_off20 t 2#32) S1x64.size inb) hr).squeeze S64 sq = win0 ⟨t.val + 1, ht⟩ 0 := by
  unfold win0
  congr 1
  exact Memref.slice_unit_congr _ ((k1_off20_eq_2 t).trans (by funext a; match a with | 0 => rfl | 1 => rfl)) _ _ _ _
omit [FloatOps F] in
theorem win3_eq3 (t : Fin k1_t3_loop.trips) (ht : t.val + 1 < 32) (inb : ∀ a, (k1_off20 t 3#32) a + S1x64.size a ≤ S32x128.size a)
    (hr : ∀ a, (Rect.unit (s := S32x128) (k1_off20 t 3#32) S1x64.size inb).stride a = 1) (sq : S1x64.Squeezes S64) :
    ((sb0V).slice (Rect.unit (s := S32x128) (k1_off20 t 3#32) S1x64.size inb) hr).squeeze S64 sq = win0 ⟨t.val + 1, ht⟩ 1 := by
  unfold win0
  congr 1
  exact Memref.slice_unit_congr _ ((k1_off20_eq_3 t).trans (by funext a; match a with | 0 => rfl | 1 => rfl)) _ _ _ _

/-! #### Section 3 (chunks 192 … 255; indices in staging buffer 1) -/

omit [FloatOps F] in
theorem k1_t4_trips : k1_t4_loop.trips = 31 := by decide +kernel

/-- The chunks of pair `t` of the section, as the program slices them. -/
abbrev oc40 (t : Fin k1_t4_loop.trips) : Memref sig .scVector .hbm S64x128 .f32 := (outV).slice (Rect.unit (s := S655360x128) (k1_off24 L t) S64x128.size (k1_off24_inb L t)) (fun _ => rfl)
abbrev oc41 (t : Fin k1_t4_loop.trips) : Memref sig .scVector .hbm S64x128 .f32 := (outV).slice (Rect.unit (s := S655360x128) (k1_off26 L t) S64x128.size (k1_off26_inb L t)) (fun _ => rfl)

omit [FloatOps F] in
theorem oc40_rect (t : Fin k1_t4_loop.trips) (hj : 192 + 2 * t.val < 320) :
    Rect.unit (s := S655360x128) (k1_off24 L t) S64x128.size (k1_off24_inb L t) = chunkRect (wid (cV L) (jV L)) ⟨192 + 2 * t.val, hj⟩ :=
  Rect.unit_congr ((k1_off24_eq L t).trans (by
    funext a
    match a with
    | 0 => show 32768 * (t.val / 8) + 16384 * (L 0).val + 1024 * (L 1).val + 128 * (t.val % 8) + 393216 = chunkRow (wid (cV L) (jV L)) ⟨192 + 2 * t.val, hj⟩
           unfold chunkRow wid; simp only [Fin.val_mk, Fin.coe_castLE]; omega
    | 1 => rfl)) _ _
omit [FloatOps F] in
theorem oc41_rect (t : Fin k1_t4_loop.trips) (hj : 192 + 2 * t.val + 1 < 320) :
    Rect.unit (s := S655360x128) (k1_off26 L t) S64x128.size (k1_off26_inb L t) = chunkRect (wid (cV L) (jV L)) ⟨192 + 2 * t.val + 1, hj⟩ :=
  Rect.unit_congr ((k1_off26_eq L t).trans (by
    funext a
    match a with
    | 0 => show 32768 * (t.val / 8) + 16384 * (L 0).val + 1024 * (L 1).val + 128 * (t.val % 8) + 393280 = chunkRow (wid (cV L) (jV L)) ⟨192 + 2 * t.val + 1, hj⟩
           unfold chunkRow wid; simp only [Fin.val_mk, Fin.coe_castLE]; omega
    | 1 => rfl)) _ _
omit [FloatOps F] in
theorem pts_oc40 (t : Fin k1_t4_loop.trips) (hj : 192 + 2 * t.val < 320) (q : PosShare TreeShare) (f : Buf (Elt F) (outLoc d)) :
    ((oc40 L t).view.loc (V d (cV L) (jV L)) ↦[(oc40 L t).view.set]{q} f : sProp 𝕄) = outLoc d ↦[chunkSet (wid (cV L) (jV L)) ⟨192 + 2 * t.val, hj⟩]{q} f := by
  show (_ ↦[((outV).view.slice (Rect.unit (s := S655360x128) (k1_off24 L t) S64x128.size (k1_off24_inb L t))).set]{q} f : sProp 𝕄) = _
  rw [oc40_rect L t hj]
omit [FloatOps F] in
theorem pts_oc41 (t : Fin k1_t4_loop.trips) (hj : 192 + 2 * t.val + 1 < 320) (q : PosShare TreeShare) (f : Buf (Elt F) (outLoc d)) :
    ((oc41 L t).view.loc (V d (cV L) (jV L)) ↦[(oc41 L t).view.set]{q} f : sProp 𝕄) = outLoc d ↦[chunkSet (wid (cV L) (jV L)) ⟨192 + 2 * t.val + 1, hj⟩]{q} f := by
  show (_ ↦[((outV).view.slice (Rect.unit (s := S655360x128) (k1_off26 L t) S64x128.size (k1_off26_inb L t))).set]{q} f : sProp 𝕄) = _
  rw [oc41_rect L t hj]

omit [FloatOps F] in
/-- The windows the trip's two new gathers read, in closed form: row `t + 1`, halves 0 and 1. -/
theorem win4_eq2 (t : Fin k1_t4_loop.trips) (ht : t.val + 1 < 32) (inb : ∀ a, (k1_off25 t 2#32) a + S1x64.size a ≤ S32x128.size a)
    (hr : ∀ a, (Rect.unit (s := S32x128) (k1_off25 t 2#32) S1x64.size inb).stride a = 1) (sq : S1x64.Squeezes S64) :
    ((sb1V).slice (Rect.unit (s := S32x128) (k1_off25 t 2#32) S1x64.size inb) hr).squeeze S64 sq = win1 ⟨t.val + 1, ht⟩ 0 := by
  unfold win1
  congr 1
  exact Memref.slice_unit_congr _ ((k1_off25_eq_2 t).trans (by funext a; match a with | 0 => rfl | 1 => rfl)) _ _ _ _
omit [FloatOps F] in
theorem win4_eq3 (t : Fin k1_t4_loop.trips) (ht : t.val + 1 < 32) (inb : ∀ a, (k1_off25 t 3#32) a + S1x64.size a ≤ S32x128.size a)
    (hr : ∀ a, (Rect.unit (s := S32x128) (k1_off25 t 3#32) S1x64.size inb).stride a = 1) (sq : S1x64.Squeezes S64) :
    ((sb1V).slice (Rect.unit (s := S32x128) (k1_off25 t 3#32) S1x64.size inb) hr).squeeze S64 sq = win1 ⟨t.val + 1, ht⟩ 1 := by
  unfold win1
  congr 1
  exact Memref.slice_unit_congr _ ((k1_off25_eq_3 t).trans (by funext a; match a with | 0 => rfl | 1 => rfl)) _ _ _ _

/-! #### Section 4 (chunks 256 … 319; indices in staging buffer 0) -/

omit [FloatOps F] in
theorem k1_t5_trips : k1_t5_loop.trips = 31 := by decide +kernel

/-- The chunks of pair `t` of the section, as the program slices them. -/
abbrev oc50 (t : Fin k1_t5_loop.trips) : Memref sig .scVector .hbm S64x128 .f32 := (outV).slice (Rect.unit (s := S655360x128) (k1_off28 L t) S64x128.size (k1_off28_inb L t)) (fun _ => rfl)
abbrev oc51 (t : Fin k1_t5_loop.trips) : Memref sig .scVector .hbm S64x128 .f32 := (outV).slice (Rect.unit (s := S655360x128) (k1_off30 L t) S64x128.size (k1_off30_inb L t)) (fun _ => rfl)

omit [FloatOps F] in
theorem oc50_rect (t : Fin k1_t5_loop.trips) (hj : 256 + 2 * t.val < 320) :
    Rect.unit (s := S655360x128) (k1_off28 L t) S64x128.size (k1_off28_inb L t) = chunkRect (wid (cV L) (jV L)) ⟨256 + 2 * t.val, hj⟩ :=
  Rect.unit_congr ((k1_off28_eq L t).trans (by
    funext a
    match a with
    | 0 => show 32768 * (t.val / 8) + 16384 * (L 0).val + 1024 * (L 1).val + 128 * (t.val % 8) + 524288 = chunkRow (wid (cV L) (jV L)) ⟨256 + 2 * t.val, hj⟩
           unfold chunkRow wid; simp only [Fin.val_mk, Fin.coe_castLE]; omega
    | 1 => rfl)) _ _
omit [FloatOps F] in
theorem oc51_rect (t : Fin k1_t5_loop.trips) (hj : 256 + 2 * t.val + 1 < 320) :
    Rect.unit (s := S655360x128) (k1_off30 L t) S64x128.size (k1_off30_inb L t) = chunkRect (wid (cV L) (jV L)) ⟨256 + 2 * t.val + 1, hj⟩ :=
  Rect.unit_congr ((k1_off30_eq L t).trans (by
    funext a
    match a with
    | 0 => show 32768 * (t.val / 8) + 16384 * (L 0).val + 1024 * (L 1).val + 128 * (t.val % 8) + 524352 = chunkRow (wid (cV L) (jV L)) ⟨256 + 2 * t.val + 1, hj⟩
           unfold chunkRow wid; simp only [Fin.val_mk, Fin.coe_castLE]; omega
    | 1 => rfl)) _ _
omit [FloatOps F] in
theorem pts_oc50 (t : Fin k1_t5_loop.trips) (hj : 256 + 2 * t.val < 320) (q : PosShare TreeShare) (f : Buf (Elt F) (outLoc d)) :
    ((oc50 L t).view.loc (V d (cV L) (jV L)) ↦[(oc50 L t).view.set]{q} f : sProp 𝕄) = outLoc d ↦[chunkSet (wid (cV L) (jV L)) ⟨256 + 2 * t.val, hj⟩]{q} f := by
  show (_ ↦[((outV).view.slice (Rect.unit (s := S655360x128) (k1_off28 L t) S64x128.size (k1_off28_inb L t))).set]{q} f : sProp 𝕄) = _
  rw [oc50_rect L t hj]
omit [FloatOps F] in
theorem pts_oc51 (t : Fin k1_t5_loop.trips) (hj : 256 + 2 * t.val + 1 < 320) (q : PosShare TreeShare) (f : Buf (Elt F) (outLoc d)) :
    ((oc51 L t).view.loc (V d (cV L) (jV L)) ↦[(oc51 L t).view.set]{q} f : sProp 𝕄) = outLoc d ↦[chunkSet (wid (cV L) (jV L)) ⟨256 + 2 * t.val + 1, hj⟩]{q} f := by
  show (_ ↦[((outV).view.slice (Rect.unit (s := S655360x128) (k1_off30 L t) S64x128.size (k1_off30_inb L t))).set]{q} f : sProp 𝕄) = _
  rw [oc51_rect L t hj]

omit [FloatOps F] in
/-- The windows the trip's two new gathers read, in closed form: row `t + 1`, halves 0 and 1. -/
theorem win5_eq2 (t : Fin k1_t5_loop.trips) (ht : t.val + 1 < 32) (inb : ∀ a, (k1_off29 t 2#32) a + S1x64.size a ≤ S32x128.size a)
    (hr : ∀ a, (Rect.unit (s := S32x128) (k1_off29 t 2#32) S1x64.size inb).stride a = 1) (sq : S1x64.Squeezes S64) :
    ((sb0V).slice (Rect.unit (s := S32x128) (k1_off29 t 2#32) S1x64.size inb) hr).squeeze S64 sq = win0 ⟨t.val + 1, ht⟩ 0 := by
  unfold win0
  congr 1
  exact Memref.slice_unit_congr _ ((k1_off29_eq_2 t).trans (by funext a; match a with | 0 => rfl | 1 => rfl)) _ _ _ _
omit [FloatOps F] in
theorem win5_eq3 (t : Fin k1_t5_loop.trips) (ht : t.val + 1 < 32) (inb : ∀ a, (k1_off29 t 3#32) a + S1x64.size a ≤ S32x128.size a)
    (hr : ∀ a, (Rect.unit (s := S32x128) (k1_off29 t 3#32) S1x64.size inb).stride a = 1) (sq : S1x64.Squeezes S64) :
    ((sb0V).slice (Rect.unit (s := S32x128) (k1_off29 t 3#32) S1x64.size inb) hr).squeeze S64 sq = win0 ⟨t.val + 1, ht⟩ 1 := by
  unfold win0
  congr 1
  exact Memref.slice_unit_congr _ ((k1_off29_eq_3 t).trans (by funext a; match a with | 0 => rfl | 1 => rfl)) _ _ _ _

end Tile

end Cert.KernelIdeal.KProof

end
-- ==== Proof.KChunkVal.lean ====
/-
  The values the section loops of a vector subcore move, as pure facts about the arrays.

  * Write-back: a row buffer that holds chunk `j` of the kernel's result, copied whole into the chunk's slice of the output,
    leaves the result on the chunk's elements.
  * Gather: output row `R = (j/16)·32768 + w·1024 + (j%16)·64 + e` (row `e` of worker `w`'s chunk `j`) reads index
    `f = (R/32768)·1024 + R%1024 = 64 j + e` of the worker's lists, that is entry `64 (j%2) + e` of row `j/2`; a staging buffer
    holds rows `32 s …` of the lists, so the window row `r`, half `h` of it names the rows of chunk `64 s + 2 r + h`, and the
    gather over those rows of the shared table is that chunk.
  * The staged index rows: section `s`'s staging copy carries rows `32 s … 32 s + 31` of the worker's lists.
-/
import proofs.«204824_g46875273068696_cont_8to1_c_371_32_alg».proof.Proof.KLoop
import Idealize.ShloMosaic.Lib.ValueLayout

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

open Idealize.ShloMosaic.ValueIdx

local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-! ## Write-back: a row buffer holding a chunk, copied whole into the chunk's slice of the output -/

/-- The chunk's slice of the output, as a memref. -/
abbrev ocC (w : Fin 32) (j : Fin 320) : Memref sig .scVector .hbm S64x128 .f32 := (outV).slice (chunkRect w j) (fun _ => rfl)

/-- A block that is chunk `j`, written whole through the chunk's slice, leaves the kernel's result on the chunk. -/
theorem chunk_written_of_payload (w : Fin 32) (j : Fin 320) (g : S64x128.Idx → Elt F .f32) (hg : isChunk OUT d w j g)
    (fc : Buf (Elt F) (outLoc d)) (p : S64x128.Idx → Elt F .f32) (hp : ∀ y, p y = g y) :
    ∀ x ∈ chunkSet w j, (ocC w j).view.writes (Elt F) fc [⟨Rect.whole S64x128, p⟩] x = OUT d x := by
  intro x hx
  obtain ⟨y, -, rfl⟩ := Finset.mem_map.mp hx
  have h1 := View.read_writes_cons_emb (ocC w j).view fc (Rect.whole S64x128) p [] y
  rw [Rect.emb_whole_apply, View.read_apply] at h1
  refine (cast_eq _ _).symm.trans (h1.trans ?_)
  rw [hp y]
  exact hg y

/-- The same, the block read off any buffer that holds it. -/
theorem chunk_written_of_read {sp : Space} (bv : View sig .scVector sp S64x128 .f32) (B : bv.ty.Contents (Elt F))
    (w : Fin 32) (j : Fin 320) (g : S64x128.Idx → Elt F .f32) (hg : isChunk OUT d w j g) (hB : ∀ y, View.read (Elt F) bv B y = g y)
    (fc : Buf (Elt F) (outLoc d)) :
    ∀ x ∈ chunkSet w j, (ocC w j).view.writes (Elt F) fc [⟨Rect.whole S64x128, ReadAs.same.apply (View.read (Elt F) bv B)⟩] x = OUT d x :=
  chunk_written_of_payload OUT d w j g hg fc _ hB

/-- A view written whole with a block reads the block. -/
theorem read_written_whole {sp : Space} {s : Shape} {e : EltTy} (bv : View sig .scVector sp s e) (fb : bv.ty.Contents (Elt F)) (g : s.Idx → Elt F e) (y : s.Idx) :
    View.read (Elt F) bv (bv.writes (Elt F) fb [⟨Rect.whole s, g⟩]) y = g y := by
  have h1 := View.read_writes_cons_emb bv fb (Rect.whole s) g [] y
  rwa [Rect.emb_whole_apply] at h1

theorem chunk_written0 (w : Fin 32) (j : Fin 320) (g : S64x128.Idx → Elt F .f32) (hg : isChunk OUT d w j g)
    (fc : Buf (Elt F) (outLoc d)) (fb : Buf (Elt F) ((buf0V).view.loc (V d (cV L) (jV L)))) :
    ∀ x ∈ chunkSet w j, (ocC w j).view.writes (Elt F) fc [⟨Rect.whole S64x128, ReadAs.same.apply (View.read (Elt F) (buf0V).view ((buf0V).view.writes (Elt F) fb [⟨Rect.whole _, g⟩]))⟩] x = OUT d x :=
  chunk_written_of_read OUT d (buf0V).view _ w j g hg (fun y => read_written_whole (buf0V).view fb g y) fc
theorem chunk_written1 (w : Fin 32) (j : Fin 320) (g : S64x128.Idx → Elt F .f32) (hg : isChunk OUT d w j g)
    (fc : Buf (Elt F) (outLoc d)) (fb : Buf (Elt F) ((buf1V).view.loc (V d (cV L) (jV L)))) :
    ∀ x ∈ chunkSet w j, (ocC w j).view.writes (Elt F) fc [⟨Rect.whole S64x128, ReadAs.same.apply (View.read (Elt F) (buf1V).view ((buf1V).view.writes (Elt F) fb [⟨Rect.whole _, g⟩]))⟩] x = OUT d x :=
  chunk_written_of_read OUT d (buf1V).view _ w j g hg (fun y => read_written_whole (buf1V).view fb g y) fc

/-! ## The staged index rows -/

/-- Section `s`'s window of the index lists — 32 rows of worker `w`'s 160 from row `32 s` on, the leading unit axis
    dropped — reads row `x 0`, lane `x 1` off row `32 s + x 0` of the worker's lists. -/
theorem secIdx_gen (s : ℕ) (hs : s < 5) (off : Fin 3 → ℕ) (inb : ∀ a, off a + S1x32x128.size a ≤ S32x160x128.size a)
    (hr : ∀ a, (Rect.unit (s := S32x160x128) off S1x32x128.size inb).stride a = 1) (sq : S1x32x128.Squeezes S32x128)
    (hoff : off = ![16 * (L 0).val + (L 1).val, 32 * s, 0]) (x : S32x128.Idx) :
    ReadAs.same.apply (View.read (Elt F) (((idxV).slice (Rect.unit (s := S32x160x128) off S1x32x128.size inb) hr).squeeze S32x128 sq).view (IDX d)) x
      = IDX d (ix3 (wid (cV L) (jV L)) ⟨32 * s + (x 0).val, by have := idx2_lt0 x; omega⟩ ⟨(x 1).val, idx2_lt1 x⟩) := by
  subst hoff
  show View.read (Elt F) (((idxV).view.slice (Rect.unit (s := S32x160x128) _ S1x32x128.size inb)).reshape S32x128 sq.numel_eq) (IDX d) x = _
  rw [View.read_apply, cast_eq]
  refine congrArg (IDX d) ?_
  show (Rect.unit (s := S32x160x128) _ S1x32x128.size inb).emb (Shape.reshapeEquiv sq.numel_eq x) = _
  have hx : Shape.reshapeEquiv sq.numel_eq x = ix3 (⟨0, Nat.one_pos⟩ : Fin 1) (x 0) (x 1) :=
    (congrArg (Shape.reshapeEquiv sq.numel_eq) (eq_ix2 (n0 := 32) (n1 := 128) x)).trans (reshapeEquiv_ix2_1ab sq.numel_eq (x 0) (x 1))
  rw [hx]
  funext a
  apply Fin.ext
  match a with
  | ⟨0, _⟩ => show 16 * (L 0).val + (L 1).val + 1 * 0 = 16 * (L 0).val + (L 1).val; omega
  | ⟨1, _⟩ => show 32 * s + 1 * (x 0).val = 32 * s + (x 0).val; omega
  | ⟨2, _⟩ => show 0 + 1 * (x 1).val = (x 1).val; omega

/-- The five sections' staging copies carry the worker's index rows `32 s …`. -/
theorem secIdx0 (x : S32x128.Idx) :
    ReadAs.same.apply (View.read (Elt F) (((idxV).slice (Rect.unit (s := S32x160x128) (k1_off5 L) S1x32x128.size (k1_off5_inb L)) (fun _ => rfl)).squeeze S32x128 squeezes_S1x32x128_S32x128).view (IDX d)) x
      = IDX d (ix3 (wid (cV L) (jV L)) ⟨32 * 0 + (x 0).val, by have := idx2_lt0 x; omega⟩ ⟨(x 1).val, idx2_lt1 x⟩) :=
  secIdx_gen IDX d L 0 (by decide) _ _ _ _ (k1_off5_eq L) x
theorem secIdx1 (x : S32x128.Idx) :
    ReadAs.same.apply (View.read (Elt F) (((idxV).slice (Rect.unit (s := S32x160x128) (k1_off6 L) S1x32x128.size (k1_off6_inb L)) (fun _ => rfl)).squeeze S32x128 squeezes_S1x32x128_S32x128).view (IDX d)) x
      = IDX d (ix3 (wid (cV L) (jV L)) ⟨32 * 1 + (x 0).val, by have := idx2_lt0 x; omega⟩ ⟨(x 1).val, idx2_lt1 x⟩) :=
  secIdx_gen IDX d L 1 (by decide) _ _ _ _ (k1_off6_eq L) x
theorem secIdx2 (x : S32x128.Idx) :
    ReadAs.same.apply (View.read (Elt F) (((idxV).slice (Rect.unit (s := S32x160x128) (k1_off12 L) S1x32x128.size (k1_off12_inb L)) (fun _ => rfl)).squeeze S32x128 squeezes_S1x32x128_S32x128).view (IDX d)) x
      = IDX d (ix3 (wid (cV L) (jV L)) ⟨32 * 2 + (x 0).val, by have := idx2_lt0 x; omega⟩ ⟨(x 1).val, idx2_lt1 x⟩) :=
  secIdx_gen IDX d L 2 (by decide) _ _ _ _ (k1_off12_eq L) x
theorem secIdx3 (x : S32x128.Idx) :
    ReadAs.same.apply (View.read (Elt F) (((idxV).slice (Rect.unit (s := S32x160x128) (k1_off17 L) S1x32x128.size (k1_off17_inb L)) (fun _ => rfl)).squeeze S32x128 squeezes_S1x32x128_S32x128).view (IDX d)) x
      = IDX d (ix3 (wid (cV L) (jV L)) ⟨32 * 3 + (x 0).val, by have := idx2_lt0 x; omega⟩ ⟨(x 1).val, idx2_lt1 x⟩) :=
  secIdx_gen IDX d L 3 (by decide) _ _ _ _ (k1_off17_eq L) x
theorem secIdx4 (x : S32x128.Idx) :
    ReadAs.same.apply (View.read (Elt F) (((idxV).slice (Rect.unit (s := S32x160x128) (k1_off22 L) S1x32x128.size (k1_off22_inb L)) (fun _ => rfl)).squeeze S32x128 squeezes_S1x32x128_S32x128).view (IDX d)) x
      = IDX d (ix3 (wid (cV L) (jV L)) ⟨32 * 4 + (x 0).val, by have := idx2_lt0 x; omega⟩ ⟨(x 1).val, idx2_lt1 x⟩) :=
  secIdx_gen IDX d L 4 (by decide) _ _ _ _ (k1_off22_eq L) x

/-- A staging buffer written whole holds what was written. -/
theorem sb0_written (f : (sb0V).view.ty.Contents (Elt F)) (pay : S32x128.Idx → Elt F .i32) :
    View.write (Elt F) (sb0V).view f pay Finset.univ = pay :=
  View.write_whole_univ (cc1_scratch0 : Ref sig .scVector) f pay
theorem sb1_written (f : (sb1V).view.ty.Contents (Elt F)) (pay : S32x128.Idx → Elt F .i32) :
    View.write (Elt F) (sb1V).view f pay Finset.univ = pay :=
  View.write_whole_univ (cc1_scratch1 : Ref sig .scVector) f pay

/-! ## The gathers -/

/-- The row of the worker's index lists chunk `j` reads (two chunks per row), and the lane of it row `y 0` of the chunk reads. -/
abbrev idxRowOf (j : Fin 320) : Fin 160 := ⟨j.val / 2, by have := j.isLt; omega⟩
abbrev idxLaneOf (j : Fin 320) (y : S64x128.Idx) : Fin 128 := ⟨64 * (j.val % 2) + (y 0).val, by have := idx2_lt0 y; omega⟩

omit [FloatOps F] in
theorem emb_chunk_row (w : Fin 32) (j : Fin 320) (y : S64x128.Idx) : ((((outV).view.slice (chunkRect w j)).emb y) 0).val = chunkRow w j + (y 0).val := by
  show chunkRow w j + 1 * (y 0).val = _; omega
omit [FloatOps F] in
theorem emb_chunk_col (w : Fin 32) (j : Fin 320) (y : S64x128.Idx) : ((((outV).view.slice (chunkRect w j)).emb y) 1).val = (y 1).val := by
  show 0 + 1 * (y 1).val = _; omega

/-- The kernel's result at row `e` of chunk `j` of worker `w`: output row `R = (j/16)·32768 + w·1024 + (j%16)·64 + e` reads
    index `f = (R/32768)·1024 + R%1024 = 64 j + e`, that is entry `64 (j%2) + e` of row `j/2` of the worker's lists, and is
    that row of the worker's SparseCore's shared table. -/
theorem scOut_chunk (tab : FVec F S20480x128 .f32) (idx : IVec S32x160x128 32) (w : Fin 32) (j : Fin 320) (y : S64x128.Idx)
    (hlt : (idx (ix3 w (idxRowOf j) (idxLaneOf j y))).toNat < 12288) :
    KFun.scOut tab idx (((outV).view.slice (chunkRect w j)).emb y)
      = KFun.shTab tab ⟨w.val / 16, by have := w.isLt; omega⟩ (ix2 ⟨(idx (ix3 w (idxRowOf j) (idxLaneOf j y))).toNat, hlt⟩ ⟨(y 1).val, idx2_lt1 y⟩) := by
  have e0 := emb_chunk_row w j y
  have e1 := emb_chunk_col w j y
  have hy : (y 0).val < 64 := idx2_lt0 y
  have hw := w.isLt; have hj := j.isLt
  have a1 : ((((outV).view.slice (chunkRect w j)).emb y) 0).val % 32768 / 1024 = w.val := by rw [e0]; unfold chunkRow; omega
  have a2 : (((((outV).view.slice (chunkRect w j)).emb y) 0).val / 32768 * 1024 + ((((outV).view.slice (chunkRect w j)).emb y) 0).val % 1024) / 128 = j.val / 2 := by
    rw [e0]; unfold chunkRow; omega
  have a3 : (((((outV).view.slice (chunkRect w j)).emb y) 0).val / 32768 * 1024 + ((((outV).view.slice (chunkRect w j)).emb y) 0).val % 1024) % 128 = 64 * (j.val % 2) + (y 0).val := by
    rw [e0]; unfold chunkRow; omega
  unfold KFun.scOut
  refine congrArg₂ (KFun.shTab tab) (Fin.ext ?_) (congrArg₂ (ix2 (n0 := 12288) (n1 := 128)) (Fin.ext ?_) (Fin.ext ?_))
  · show ((((outV).view.slice (chunkRect w j)).emb y) 0).val % 32768 / 1024 / 16 = w.val / 16
    rw [a1]
  · show (idx (ix3 _ _ _)).toNat % 12288 = (idx (ix3 w (idxRowOf j) (idxLaneOf j y))).toNat
    have hI : ∀ (A : Fin 32) (B : Fin 160) (C : Fin 128), A.val = w.val → B.val = j.val / 2 → C.val = 64 * (j.val % 2) + (y 0).val →
        (idx (ix3 A B C)).toNat % 12288 = (idx (ix3 w (idxRowOf j) (idxLaneOf j y))).toNat := by
      intro A B C hA hB hC
      obtain rfl : A = w := Fin.ext hA
      obtain rfl : B = idxRowOf j := Fin.ext hB
      obtain rfl : C = idxLaneOf j y := Fin.ext hC
      exact Nat.mod_eq_of_lt hlt
    exact hI _ _ _ a1 a2 a3
  · exact e1

/-- A gather whose row list names, for row `k` of the block, the row of the shared table that entry `64 (j%2) + k` of row `j/2`
    of the worker's index lists holds, delivers chunk `j`. -/
theorem gathered_of_rows (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288) (j : Fin 320)
    (ρ : Fin (S64x128.size (gathers_S12288x128_S64x128).axis') → Fin (S12288x128.size (gathers_S12288x128_S64x128).axis))
    (hρ : ∀ y : S64x128.Idx, (ρ (y (gathers_S12288x128_S64x128).axis')).val = (IDX d (ix3 (wid (cV L) (jV L)) (idxRowOf j) (idxLaneOf j y)) : BitVec 32).toNat) :
    isChunk OUT d (wid (cV L) (jV L)) j (SparseCore.gatherPayload gathers_S12288x128_S64x128 (View.read (Elt F) (shW).view (SH d (cV L))) ρ) := by
  intro y
  have hlt := hIDX d (ix3 (wid (cV L) (jV L)) (idxRowOf j) (idxLaneOf j y))
  rw [hOUT, scOut_chunk (TAB d) (IDX d) (wid (cV L) (jV L)) j y hlt]
  show View.read (Elt F) (shW).view (SH d (cV L)) ((gathers_S12288x128_S64x128).idx ρ y) = _
  rw [View.read_apply, cast_eq, hSH]
  refine congrArg₂ (KFun.shTab (TAB d)) (Fin.ext ?_) (funext fun a => Fin.ext ?_)
  · show (L 0).val = (16 * (L 0).val + (L 1).val) / 16
    have := (L 1).isLt
    have h16 : (L 1).val < 16 := this
    omega
  · match a with
    | ⟨0, _⟩ =>
      show 0 + 1 * ((gathers_S12288x128_S64x128).idx ρ y (gathers_S12288x128_S64x128).axis).val = _
      rw [Shape.Gathers.idx_axis, hρ y, Nat.zero_add, Nat.one_mul]
    | ⟨1, _⟩ =>
      show 0 + 1 * ((gathers_S12288x128_S64x128).idx ρ y ⟨1, by decide⟩).val = (y 1).val
      rw [Shape.Gathers.idx_of_ne (gathers_S12288x128_S64x128) ρ y ⟨1, by decide⟩ (by decide), Nat.zero_add, Nat.one_mul]
      rfl

/-- A 64-entry window of a 32 × 128 buffer — row `r`, half `h`, the unit axis dropped — reads entry `x` off lane `64 h + x` of row `r`. -/
theorem read_win {κ : Kind} {sp : Space} (bv : View sig κ sp S32x128 .i32) (C : bv.ty.Contents (Elt F)) (r : Fin 32) (h : Fin 2) (x : S64.Idx) :
    View.read (Elt F) ((bv.slice (Rect.unit (s := S32x128) ![r.val, 64 * h.val] S1x64.size (win_inb r h))).reshape S64 squeezes_S1x64_S64.numel_eq) C x
      = View.read (Elt F) bv C (ix2 r ⟨64 * h.val + (x 0).val, by have := h.isLt; have hx : (x 0).val < 64 := (x 0).isLt; omega⟩) := by
  have hx : (Rect.unit (s := S32x128) ![r.val, 64 * h.val] S1x64.size (win_inb r h)).emb (Shape.reshapeEquiv squeezes_S1x64_S64.numel_eq x)
      = ix2 r ⟨64 * h.val + (x 0).val, by have := h.isLt; have hx : (x 0).val < 64 := (x 0).isLt; omega⟩ := by
    rw [Shape.reshapeEquiv_cons_one]
    funext a
    apply Fin.ext
    match a with
    | ⟨0, _⟩ => show r.val + 1 * 0 = r.val; omega
    | ⟨1, _⟩ => show 64 * h.val + 1 * (x 0).val = 64 * h.val + (x 0).val; omega
  show View.read (Elt F) bv C ((Rect.unit (s := S32x128) ![r.val, 64 * h.val] S1x64.size (win_inb r h)).emb (Shape.reshapeEquiv squeezes_S1x64_S64.numel_eq x)) = _
  rw [hx]

omit [FloatOps F] in
/-- Entry `k` of a one-axis shape in row-major order is index `k`. -/
theorem rowMajor_symm_val {n : ℕ} (k : Fin (⟨1, ![n]⟩ : Shape).numel) : (((⟨1, ![n]⟩ : Shape).rowMajor.symm k) 0).val = k.val :=
  (Shape.rowMajor_val_one _).symm.trans (congrArg Fin.val (Equiv.apply_symm_apply _ k))

/-- The rows the window `(r, h)` of staging buffer 0 names, the buffer holding section `s` of the worker's index lists. -/
theorem rows_win0_val {o z : ℕ} (s : Fin 5) (r : Fin 32) (h : Fin 2) (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = o) (hin : ∀ x : S64.Idx, (View.read (Elt F) (win0 r h).view C x : BitVec 32).toNat < z) (k : Fin o) (hk : k.val < 64) :
    (SparseCore.rows (F := F) (View.read (Elt F) (win0 r h).view C) hn hin k).val
      = (IDX d (ix3 (wid (cV L) (jV L)) ⟨32 * s.val + r.val, by have := s.isLt; have := r.isLt; omega⟩ ⟨64 * h.val + k.val, by have := h.isLt; omega⟩) : BitVec 32).toNat := by
  show (View.read (Elt F) (win0 r h).view C (S64.rowMajor.symm (k.cast hn.symm)) : BitVec 32).toNat = _
  have e := read_win (F := F) (sb0V).view C r h (S64.rowMajor.symm (k.cast hn.symm))
  have e' : View.read (Elt F) (win0 r h).view C (S64.rowMajor.symm (k.cast hn.symm))
      = C (ix2 r ⟨64 * h.val + ((S64.rowMajor.symm (k.cast hn.symm)) 0).val, by
          have := h.isLt; have hx : ((S64.rowMajor.symm (k.cast hn.symm)) 0).val < 64 := ((S64.rowMajor.symm (k.cast hn.symm)) 0).isLt; omega⟩) := e
  rw [e', hC]
  have hv : ((S64.rowMajor.symm (k.cast hn.symm)) 0).val = k.val := rowMajor_symm_val (n := 64) (k.cast hn.symm)
  congr 3
  exact Fin.ext (by show 64 * h.val + ((S64.rowMajor.symm (k.cast hn.symm)) 0).val = 64 * h.val + k.val; rw [hv])
/-- The rows the window `(r, h)` of staging buffer 1 names, the buffer holding section `s` of the worker's index lists. -/
theorem rows_win1_val {o z : ℕ} (s : Fin 5) (r : Fin 32) (h : Fin 2) (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = o) (hin : ∀ x : S64.Idx, (View.read (Elt F) (win1 r h).view C x : BitVec 32).toNat < z) (k : Fin o) (hk : k.val < 64) :
    (SparseCore.rows (F := F) (View.read (Elt F) (win1 r h).view C) hn hin k).val
      = (IDX d (ix3 (wid (cV L) (jV L)) ⟨32 * s.val + r.val, by have := s.isLt; have := r.isLt; omega⟩ ⟨64 * h.val + k.val, by have := h.isLt; omega⟩) : BitVec 32).toNat := by
  show (View.read (Elt F) (win1 r h).view C (S64.rowMajor.symm (k.cast hn.symm)) : BitVec 32).toNat = _
  have e := read_win (F := F) (sb1V).view C r h (S64.rowMajor.symm (k.cast hn.symm))
  have e' : View.read (Elt F) (win1 r h).view C (S64.rowMajor.symm (k.cast hn.symm))
      = C (ix2 r ⟨64 * h.val + ((S64.rowMajor.symm (k.cast hn.symm)) 0).val, by
          have := h.isLt; have hx : ((S64.rowMajor.symm (k.cast hn.symm)) 0).val < 64 := ((S64.rowMajor.symm (k.cast hn.symm)) 0).isLt; omega⟩) := e
  rw [e', hC]
  have hv : ((S64.rowMajor.symm (k.cast hn.symm)) 0).val = k.val := rowMajor_symm_val (n := 64) (k.cast hn.symm)
  congr 3
  exact Fin.ext (by show 64 * h.val + ((S64.rowMajor.symm (k.cast hn.symm)) 0).val = 64 * h.val + k.val; rw [hv])

/-- The gather of window `(r, h)` of staging buffer 0, the buffer holding section `s` of the worker's index lists, delivers
    chunk `64 s + 2 r + h`. -/
theorem gathered0 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2) (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = 64)
    (hin : ∀ x : S64.Idx, (View.read (Elt F) (win0 r h).view C x : BitVec 32).toNat < S12288x128.size (gathers_S12288x128_S64x128).axis) :
    isChunk OUT d (wid (cV L) (jV L)) ⟨64 * s.val + 2 * r.val + h.val, by have := s.isLt; have := r.isLt; have := h.isLt; omega⟩
      (SparseCore.gatherPayload gathers_S12288x128_S64x128 (View.read (Elt F) (shW).view (SH d (cV L)))
        (SparseCore.rows (F := F) (View.read (Elt F) (win0 r h).view C) hn hin)) := by
  refine gathered_of_rows TAB IDX OUT SH d L hSH hOUT hIDX _ _ fun y => ?_
  have hy : (y (gathers_S12288x128_S64x128).axis').val < 64 := (y (gathers_S12288x128_S64x128).axis').isLt
  refine (rows_win0_val (o := 64) IDX d L s r h C hC hn hin (y (gathers_S12288x128_S64x128).axis') hy).trans ?_
  have hs := s.isLt; have hr := r.isLt; have hh := h.isLt
  congr 3
  · exact Fin.ext (by show 32 * s.val + r.val = (64 * s.val + 2 * r.val + h.val) / 2; omega)
  · exact Fin.ext (by show 64 * h.val + (y (gathers_S12288x128_S64x128).axis').val = 64 * ((64 * s.val + 2 * r.val + h.val) % 2) + (y 0).val
                      have : (y (gathers_S12288x128_S64x128).axis').val = (y 0).val := rfl
                      omega)

/-- The gather of window `(r, h)` of staging buffer 1, the buffer holding section `s` of the worker's index lists, delivers
    chunk `64 s + 2 r + h`. -/
theorem gathered1 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2) (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = 64)
    (hin : ∀ x : S64.Idx, (View.read (Elt F) (win1 r h).view C x : BitVec 32).toNat < S12288x128.size (gathers_S12288x128_S64x128).axis) :
    isChunk OUT d (wid (cV L) (jV L)) ⟨64 * s.val + 2 * r.val + h.val, by have := s.isLt; have := r.isLt; have := h.isLt; omega⟩
      (SparseCore.gatherPayload gathers_S12288x128_S64x128 (View.read (Elt F) (shW).view (SH d (cV L)))
        (SparseCore.rows (F := F) (View.read (Elt F) (win1 r h).view C) hn hin)) := by
  refine gathered_of_rows TAB IDX OUT SH d L hSH hOUT hIDX _ _ fun y => ?_
  have hy : (y (gathers_S12288x128_S64x128).axis').val < 64 := (y (gathers_S12288x128_S64x128).axis').isLt
  refine (rows_win1_val (o := 64) IDX d L s r h C hC hn hin (y (gathers_S12288x128_S64x128).axis') hy).trans ?_
  have hs := s.isLt; have hr := r.isLt; have hh := h.isLt
  congr 3
  · exact Fin.ext (by show 32 * s.val + r.val = (64 * s.val + 2 * r.val + h.val) / 2; omega)
  · exact Fin.ext (by show 64 * h.val + (y (gathers_S12288x128_S64x128).axis').val = 64 * ((64 * s.val + 2 * r.val + h.val) % 2) + (y 0).val
                      have : (y (gathers_S12288x128_S64x128).axis').val = (y 0).val := rfl
                      omega)

end Tile

end Cert.KernelIdeal.KProof

end
-- ==== Proof.KChunkVal2.lean ====
/-
  The gathers and the write-back of the section loops once more, stated for a window and a chunk slice given by ANY offsets
  equal to the window's (row `r`, lane `64 h` of a staging buffer) or to the chunk's (row `chunkRow w j` of the output), and
  with the gathered block read back off the row buffer it was written to whole: the block a row buffer reads after the
  gather of window `(r, h)` of section `s` is chunk `64 s + 2 r + h`, and a row buffer that reads chunk `j`, copied whole
  into the chunk's slice of the output, leaves the kernel's result there.
-/
import proofs.«204824_g46875273068696_cont_8to1_c_371_32_alg».proof.Proof.KChunkVal

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

open Idealize.ShloMosaic.ValueIdx

local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- The gather of a window of staging buffer 0 given by any offsets equal to row `r`, lane `64 h`. -/
theorem gathered_off0 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (hj : 64 * s.val + 2 * r.val + h.val < 320) :
    isChunk OUT d (wid (cV L) (jV L)) ⟨64 * s.val + 2 * r.val + h.val, hj⟩
      (SparseCore.gatherPayload gathers_S12288x128_S64x128 (View.read (Elt F) (shW).view (SH d (cV L)))
        (SparseCore.rows (F := F) (View.read (Elt F) (((sb0V).slice (Rect.unit (s := S32x128) off S1x64.size inb) hr).squeeze S64 sq).view C) hn hin)) := by
  subst hoff
  exact gathered0 TAB IDX OUT SH d L hSH hOUT hIDX s r h C hC hn hin

/-- The gather of a window of staging buffer 1 given by any offsets equal to row `r`, lane `64 h`. -/
theorem gathered_off1 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (hj : 64 * s.val + 2 * r.val + h.val < 320) :
    isChunk OUT d (wid (cV L) (jV L)) ⟨64 * s.val + 2 * r.val + h.val, hj⟩
      (SparseCore.gatherPayload gathers_S12288x128_S64x128 (View.read (Elt F) (shW).view (SH d (cV L)))
        (SparseCore.rows (F := F) (View.read (Elt F) (((sb1V).slice (Rect.unit (s := S32x128) off S1x64.size inb) hr).squeeze S64 sq).view C) hn hin)) := by
  subst hoff
  exact gathered1 TAB IDX OUT SH d L hSH hOUT hIDX s r h C hC hn hin

/-- The row buffer 0, written whole with the gather of a window of staging buffer 0, reads chunk `64 s + 2 r + h`. -/
theorem gathered_read00 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (B : Buf (Elt F) ((buf0V).view.loc (V d (cV L) (jV L)))) (j : ℕ) (hjeq : j = 64 * s.val + 2 * r.val + h.val) :
    isChunkN OUT d (wid (cV L) (jV L)) j
      (View.read (Elt F) (buf0V).view ((buf0V).view.writes (Elt F) B [⟨Rect.whole _,
        SparseCore.gatherPayload gathers_S12288x128_S64x128 (View.read (Elt F) (shW).view (SH d (cV L)))
          (SparseCore.rows (F := F) (View.read (Elt F) (((sb0V).slice (Rect.unit (s := S32x128) off S1x64.size inb) hr).squeeze S64 sq).view C) hn hin)⟩])) := by
  subst hjeq
  intro hj y
  refine (read_written_whole (F := F) (buf0V).view B _ y).trans ?_
  exact gathered_off0 TAB IDX OUT SH d L hSH hOUT hIDX s r h off inb hr sq hoff C hC hn hin hj y

/-- The row buffer 1, written whole with the gather of a window of staging buffer 0, reads chunk `64 s + 2 r + h`. -/
theorem gathered_read10 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (B : Buf (Elt F) ((buf1V).view.loc (V d (cV L) (jV L)))) (j : ℕ) (hjeq : j = 64 * s.val + 2 * r.val + h.val) :
    isChunkN OUT d (wid (cV L) (jV L)) j
      (View.read (Elt F) (buf1V).view ((buf1V).view.writes (Elt F) B [⟨Rect.whole _,
        SparseCore.gatherPayload gathers_S12288x128_S64x128 (View.read (Elt F) (shW).view (SH d (cV L)))
          (SparseCore.rows (F := F) (View.read (Elt F) (((sb0V).slice (Rect.unit (s := S32x128) off S1x64.size inb) hr).squeeze S64 sq).view C) hn hin)⟩])) := by
  subst hjeq
  intro hj y
  refine (read_written_whole (F := F) (buf1V).view B _ y).trans ?_
  exact gathered_off0 TAB IDX OUT SH d L hSH hOUT hIDX s r h off inb hr sq hoff C hC hn hin hj y

/-- The row buffer 0, written whole with the gather of a window of staging buffer 1, reads chunk `64 s + 2 r + h`. -/
theorem gathered_read01 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (B : Buf (Elt F) ((buf0V).view.loc (V d (cV L) (jV L)))) (j : ℕ) (hjeq : j = 64 * s.val + 2 * r.val + h.val) :
    isChunkN OUT d (wid (cV L) (jV L)) j
      (View.read (Elt F) (buf0V).view ((buf0V).view.writes (Elt F) B [⟨Rect.whole _,
        SparseCore.gatherPayload gathers_S12288x128_S64x128 (View.read (Elt F) (shW).view (SH d (cV L)))
          (SparseCore.rows (F := F) (View.read (Elt F) (((sb1V).slice (Rect.unit (s := S32x128) off S1x64.size inb) hr).squeeze S64 sq).view C) hn hin)⟩])) := by
  subst hjeq
  intro hj y
  refine (read_written_whole (F := F) (buf0V).view B _ y).trans ?_
  exact gathered_off1 TAB IDX OUT SH d L hSH hOUT hIDX s r h off inb hr sq hoff C hC hn hin hj y

/-- The row buffer 1, written whole with the gather of a window of staging buffer 1, reads chunk `64 s + 2 r + h`. -/
theorem gathered_read11 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (B : Buf (Elt F) ((buf1V).view.loc (V d (cV L) (jV L)))) (j : ℕ) (hjeq : j = 64 * s.val + 2 * r.val + h.val) :
    isChunkN OUT d (wid (cV L) (jV L)) j
      (View.read (Elt F) (buf1V).view ((buf1V).view.writes (Elt F) B [⟨Rect.whole _,
        SparseCore.gatherPayload gathers_S12288x128_S64x128 (View.read (Elt F) (shW).view (SH d (cV L)))
          (SparseCore.rows (F := F) (View.read (Elt F) (((sb1V).slice (Rect.unit (s := S32x128) off S1x64.size inb) hr).squeeze S64 sq).view C) hn hin)⟩])) := by
  subst hjeq
  intro hj y
  refine (read_written_whole (F := F) (buf1V).view B _ y).trans ?_
  exact gathered_off1 TAB IDX OUT SH d L hSH hOUT hIDX s r h off inb hr sq hoff C hC hn hin hj y

/-! ## The write-back, the block read off the row buffer -/

/-- A buffer that reads chunk `j`, copied whole into a 64-row slice of the output whose offsets are the chunk's, leaves the
    kernel's result on the chunk. -/
theorem written_read_off {sp : Space} (bv : View sig .scVector sp S64x128 .f32) (B : bv.ty.Contents (Elt F)) (w : Fin 32) (j : Fin 320)
    (hB : isChunk OUT d w j (View.read (Elt F) bv B)) (fc : Buf (Elt F) (outLoc d))
    (off : Fin 2 → ℕ) (inb : ∀ a, off a + S64x128.size a ≤ S655360x128.size a) (hs : ∀ a, (Rect.unit (s := S655360x128) off S64x128.size inb).stride a = 1)
    (hoff : off = ![chunkRow w j, 0]) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) bv B)⟩] x = OUT d x := by
  subst hoff
  exact chunk_written_of_read OUT d bv B w j _ hB (fun _ => rfl) fc

/-- The same, the slice's rectangle given equal to the chunk's. -/
theorem written_read_rect {sp : Space} (bv : View sig .scVector sp S64x128 .f32) (B : bv.ty.Contents (Elt F)) (w : Fin 32) (j : Fin 320)
    (hB : isChunk OUT d w j (View.read (Elt F) bv B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) bv B)⟩] x = OUT d x :=
  written_read_off OUT d bv B w j hB fc off inb hs (congrArg (fun R : Rect S655360x128 => R.off) hR)

theorem written_read0 (w : Fin 32) (j : Fin 320) (B : Buf (Elt F) ((buf0V).view.loc (V d (cV L) (jV L))))
    (hB : isChunk OUT d w j (View.read (Elt F) (buf0V).view B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) (buf0V).view B)⟩] x = OUT d x :=
  written_read_rect OUT d (buf0V).view B w j hB fc off inb hs hR
theorem written_read1 (w : Fin 32) (j : Fin 320) (B : Buf (Elt F) ((buf1V).view.loc (V d (cV L) (jV L))))
    (hB : isChunk OUT d w j (View.read (Elt F) (buf1V).view B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) (buf1V).view B)⟩] x = OUT d x :=
  written_read_rect OUT d (buf1V).view B w j hB fc off inb hs hR

end Tile

end Cert.KernelIdeal.KProof

end
-- ==== Proof.KSec.lean ====
/-
  The state of a vector subcore's task between two pairs of chunks of a section, and how the worker's chunks of
  the output are taken out of it and put back.
-/
import proofs.«204824_g46875273068696_cont_8to1_c_371_32_alg».proof.Proof.KChunkVal2

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- Between two pairs of a section whose indices sit in staging buffer 0: the two gathers of pair `k` in flight (rows
    `k` of the staging buffer, halves 0 and 1), each to leave its row buffer reading as the pair's chunk; the staging buffer
    less their two windows; the write semaphores free; the worker's chunks of the output, the first `n₀ + 2·k` of them
    holding the gathered rows; and what the subcore owes. -/
def sec0 (O : CellTallies nD τ sig (HIx 1)) (W₀ : Waits sig (HIx 1)) (n₀ : ℕ) (C : Buf (Elt F) ((sb0V).view.loc (V d (cV L) (jV L)))) (k : ℕ) (_ : PUnit) : sProp 𝕄 :=
  iprop(∃ (B0 : Buf (Elt F) ((buf0V).view.loc (V d (cV L) (jV L)))) (B1 : Buf (Elt F) ((buf1V).view.loc (V d (cV L) (jV L)))),
    Transfers.MayWaits (V d (cV L) (jV L)) (default : HIx 1) O
    ∗ (Transfers.Flight (countersEmb (U := UU)) (V d (cV L) (jV L)) (SemLoc.dma cc1_scratch5.sem) (default : HIx 1) 262144
        iprop((((buf0V).view.loc (V d (cV L) (jV L)) ↦[(buf0V).view.set]{fullShare} B0)
              ∗ ((sb0V).view.loc (V d (cV L) (jV L)) ↦[(win0 (rowOf k) 0).view.set]{fullShare} C))
            ∗ ((shV).view.loc (V d (cV L) (jV L)) ↦[(shW).view.set]{Transfers.shareTokN (shTok (jV L)) 4} SH d (cV L))))
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} B0)
    ∗ (Transfers.Flight (countersEmb (U := UU)) (V d (cV L) (jV L)) (SemLoc.dma cc1_scratch6.sem) (default : HIx 1) 262144
        iprop((((buf1V).view.loc (V d (cV L) (jV L)) ↦[(buf1V).view.set]{fullShare} B1)
              ∗ ((sb0V).view.loc (V d (cV L) (jV L)) ↦[(win0 (rowOf k) 1).view.set]{fullShare} C))
            ∗ ((shV).view.loc (V d (cV L) (jV L)) ↦[(shW).view.set]{Transfers.shareTokN (shTok (jV L)) 5} SH d (cV L))))
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} B1)
    ∗ ((sb0V).view.loc (V d (cV L) (jV L)) ↦[(Finset.univ \ (win0 (rowOf k) 0).view.set) \ (win0 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ (∃ W', ⌜∀ p ∈ W', p ∈ W₀ ∨ p.2 = none ∨ p.2 = some (0 : Fin 1)⌝ ∗ owes (V d (cV L) (jV L)) O W')
    ∗ ⌜isChunkN OUT d (wid (cV L) (jV L)) (n₀ + 2 * k) (View.read (Elt F) (buf0V).view B0)⌝
    ∗ ⌜isChunkN OUT d (wid (cV L) (jV L)) (n₀ + 2 * k + 1) (View.read (Elt F) (buf1V).view B1)⌝)

/-- Between two pairs of a section whose indices sit in staging buffer 1: the two gathers of pair `k` in flight (rows
    `k` of the staging buffer, halves 0 and 1), each to leave its row buffer reading as the pair's chunk; the staging buffer
    less their two windows; the write semaphores free; the worker's chunks of the output, the first `n₀ + 2·k` of them
    holding the gathered rows; and what the subcore owes. -/
def sec1 (O : CellTallies nD τ sig (HIx 1)) (W₀ : Waits sig (HIx 1)) (n₀ : ℕ) (C : Buf (Elt F) ((sb1V).view.loc (V d (cV L) (jV L)))) (k : ℕ) (_ : PUnit) : sProp 𝕄 :=
  iprop(∃ (B0 : Buf (Elt F) ((buf0V).view.loc (V d (cV L) (jV L)))) (B1 : Buf (Elt F) ((buf1V).view.loc (V d (cV L) (jV L)))),
    Transfers.MayWaits (V d (cV L) (jV L)) (default : HIx 1) O
    ∗ (Transfers.Flight (countersEmb (U := UU)) (V d (cV L) (jV L)) (SemLoc.dma cc1_scratch5.sem) (default : HIx 1) 262144
        iprop((((buf0V).view.loc (V d (cV L) (jV L)) ↦[(buf0V).view.set]{fullShare} B0)
              ∗ ((sb1V).view.loc (V d (cV L) (jV L)) ↦[(win1 (rowOf k) 0).view.set]{fullShare} C))
            ∗ ((shV).view.loc (V d (cV L) (jV L)) ↦[(shW).view.set]{Transfers.shareTokN (shTok (jV L)) 4} SH d (cV L))))
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} B0)
    ∗ (Transfers.Flight (countersEmb (U := UU)) (V d (cV L) (jV L)) (SemLoc.dma cc1_scratch6.sem) (default : HIx 1) 262144
        iprop((((buf1V).view.loc (V d (cV L) (jV L)) ↦[(buf1V).view.set]{fullShare} B1)
              ∗ ((sb1V).view.loc (V d (cV L) (jV L)) ↦[(win1 (rowOf k) 1).view.set]{fullShare} C))
            ∗ ((shV).view.loc (V d (cV L) (jV L)) ↦[(shW).view.set]{Transfers.shareTokN (shTok (jV L)) 5} SH d (cV L))))
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} B1)
    ∗ ((sb1V).view.loc (V d (cV L) (jV L)) ↦[(Finset.univ \ (win1 (rowOf k) 0).view.set) \ (win1 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ (∃ W', ⌜∀ p ∈ W', p ∈ W₀ ∨ p.2 = none ∨ p.2 = some (0 : Fin 1)⌝ ∗ owes (V d (cV L) (jV L)) O W')
    ∗ ⌜isChunkN OUT d (wid (cV L) (jV L)) (n₀ + 2 * k) (View.read (Elt F) (buf0V).view B0)⌝
    ∗ ⌜isChunkN OUT d (wid (cV L) (jV L)) (n₀ + 2 * k + 1) (View.read (Elt F) (buf1V).view B1)⌝)

/-- The other chunks are indifferent to two more chunks counted as gathered. -/
theorem out_rest_mono (w : Fin 32) (n : ℕ) (j0 j1 : Fin 320) (h0 : j0.val = n) (h1 : j1.val = n + 1) :
    (bigSep ((Finset.univ.erase j0).erase j1) fun j : Fin 320 => iprop(∃ f, (outLoc d ↦[chunkSet w j]{fullShare} f) ∗ ⌜j.val < n → ∀ x ∈ chunkSet w j, f x = OUT d x⌝) : sProp 𝕄)
      ⊢ bigSep ((Finset.univ.erase j0).erase j1) fun j : Fin 320 => iprop(∃ f, (outLoc d ↦[chunkSet w j]{fullShare} f) ∗ ⌜j.val < n + 2 → ∀ x ∈ chunkSet w j, f x = OUT d x⌝) := by
  refine SparseCore.ent (bigSep_mono fun j hj => ?_)
  have hj1 : j ≠ j1 := (Finset.mem_erase.mp hj).1
  have hj0 : j ≠ j0 := (Finset.mem_erase.mp (Finset.mem_erase.mp hj).2).1
  have hlt : j.val < n + 2 → j.val < n := fun h => by
    have a0 : j.val ≠ n := fun e => hj0 (Fin.ext (e.trans h0.symm))
    have a1 : j.val ≠ n + 1 := fun e => hj1 (Fin.ext (e.trans h1.symm))
    omega
  exact (show (iprop(∃ f, (outLoc d ↦[chunkSet w j]{fullShare} f) ∗ ⌜j.val < n → ∀ x ∈ chunkSet w j, f x = OUT d x⌝) : sProp 𝕄)
      ⊢ iprop(∃ f, (outLoc d ↦[chunkSet w j]{fullShare} f) ∗ ⌜j.val < n + 2 → ∀ x ∈ chunkSet w j, f x = OUT d x⌝) from by
    iintro ⟨%f, H, %hf⟩; iexists f; isplitl [H]; · iexact H
    ipureintro; exact fun h => hf (hlt h))

/-- The staging buffer's contents at any of its 64-entry windows are entries of the index array: in range. -/
theorem win_inrange0 (s : Fin 5) (C : Buf (Elt F) ((sb0V).view.loc (V d (cV L) (jV L))))
    (hIDX : ∀ (d : Dev nD) (x : S32x160x128.Idx), ((IDX d x : BitVec 32)).toNat < 12288)
    (hC : ∀ x : S32x128.Idx, C x = IDX d (ValueIdx.ix3 (wid (cV L) (jV L)) ⟨32 * s.val + (x 0).val, by have := s.isLt; have := ValueIdx.idx2_lt0 x; omega⟩ ⟨(x 1).val, ValueIdx.idx2_lt1 x⟩))
    (off : Fin 2 → ℕ) (inb : ∀ a, off a + S1x64.size a ≤ S32x128.size a) (hs : ∀ a, (Rect.unit (s := S32x128) off S1x64.size inb).stride a = 1) (sq : S1x64.Squeezes S64) :
    ∀ x : S64.Idx, (View.read (Elt F) (((sb0V).slice (Rect.unit (s := S32x128) off S1x64.size inb) hs).squeeze S64 sq).view C x : BitVec 32).toNat < 12288 := by
  intro x
  show ((C _ : BitVec 32)).toNat < 12288
  rw [hC]; exact hIDX d _
theorem win_inrange1 (s : Fin 5) (C : Buf (Elt F) ((sb1V).view.loc (V d (cV L) (jV L))))
    (hIDX : ∀ (d : Dev nD) (x : S32x160x128.Idx), ((IDX d x : BitVec 32)).toNat < 12288)
    (hC : ∀ x : S32x128.Idx, C x = IDX d (ValueIdx.ix3 (wid (cV L) (jV L)) ⟨32 * s.val + (x 0).val, by have := s.isLt; have := ValueIdx.idx2_lt0 x; omega⟩ ⟨(x 1).val, ValueIdx.idx2_lt1 x⟩))
    (off : Fin 2 → ℕ) (inb : ∀ a, off a + S1x64.size a ≤ S32x128.size a) (hs : ∀ a, (Rect.unit (s := S32x128) off S1x64.size inb).stride a = 1) (sq : S1x64.Squeezes S64) :
    ∀ x : S64.Idx, (View.read (Elt F) (((sb1V).slice (Rect.unit (s := S32x128) off S1x64.size inb) hs).squeeze S64 sq).view C x : BitVec 32).toNat < 12288 := by
  intro x
  show ((C _ : BitVec 32)).toNat < 12288
  rw [hC]; exact hIDX d _

end Tile

end Cert.KernelIdeal.KProof

end
-- ==== Proof.KWinSet.lean ====
/-
  The windows a trip's two new gathers read their indices from, as element sets: row `t + 1` of the section's
  staging buffer, halves 0 and 1.
-/
import proofs.«204824_g46875273068696_cont_8to1_c_371_32_alg».proof.Proof.KSec

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

omit [FloatOps F] in
theorem win1_set2 (t : Fin k1_t1_loop.trips) (ht : t.val + 1 < 32) (inb : ∀ a, (k1_off9 t 2#32) a + S1x64.size a ≤ S32x128.size a)
    (hr : ∀ a, (Rect.unit (s := S32x128) (k1_off9 t 2#32) S1x64.size inb).stride a = 1) (sq : S1x64.Squeezes S64) :
    (((sb0V).slice (Rect.unit (s := S32x128) (k1_off9 t 2#32) S1x64.size inb) hr).squeeze S64 sq).view.set = (win0 ⟨t.val + 1, ht⟩ 0).view.set := by
  show (((sb0V).view.slice (Rect.unit (s := S32x128) (k1_off9 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off9 t 2#32) S1x64.size inb = Rect.unit (s := S32x128) ![t.val + 1, 64 * (0 : Fin 2).val] S1x64.size (win_inb ⟨t.val + 1, ht⟩ 0) :=
    Rect.unit_congr ((k1_off9_eq_2 t).trans (by funext a; match a with | 0 => rfl | 1 => rfl)) inb (win_inb ⟨t.val + 1, ht⟩ 0)
  exact e ▸ rfl
omit [FloatOps F] in
theorem win1_set3 (t : Fin k1_t1_loop.trips) (ht : t.val + 1 < 32) (inb : ∀ a, (k1_off9 t 3#32) a + S1x64.size a ≤ S32x128.size a)
    (hr : ∀ a, (Rect.unit (s := S32x128) (k1_off9 t 3#32) S1x64.size inb).stride a = 1) (sq : S1x64.Squeezes S64) :
    (((sb0V).slice (Rect.unit (s := S32x128) (k1_off9 t 3#32) S1x64.size inb) hr).squeeze S64 sq).view.set = (win0 ⟨t.val + 1, ht⟩ 1).view.set := by
  show (((sb0V).view.slice (Rect.unit (s := S32x128) (k1_off9 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off9 t 3#32) S1x64.size inb = Rect.unit (s := S32x128) ![t.val + 1, 64 * (1 : Fin 2).val] S1x64.size (win_inb ⟨t.val + 1, ht⟩ 1) :=
    Rect.unit_congr ((k1_off9_eq_3 t).trans (by funext a; match a with | 0 => rfl | 1 => rfl)) inb (win_inb ⟨t.val + 1, ht⟩ 1)
  exact e ▸ rfl

omit [FloatOps F] in
theorem win2_set2 (t : Fin k1_t2_loop.trips) (ht : t.val + 1 < 32) (inb : ∀ a, (k1_off15 t 2#32) a + S1x64.size a ≤ S32x128.size a)
    (hr : ∀ a, (Rect.unit (s := S32x128) (k1_off15 t 2#32) S1x64.size inb).stride a = 1) (sq : S1x64.Squeezes S64) :
    (((sb1V).slice (Rect.unit (s := S32x128) (k1_off15 t 2#32) S1x64.size inb) hr).squeeze S64 sq).view.set = (win1 ⟨t.val + 1, ht⟩ 0).view.set := by
  show (((sb1V).view.slice (Rect.unit (s := S32x128) (k1_off15 t 2#32) S1x64.size inb)).reshape S64 sq.numel_eq).set
    = (((sb1V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off15 t 2#32) S1x64.size inb = Rect.unit (s := S32x128) ![t.val + 1, 64 * (0 : Fin 2).val] S1x64.size (win_inb ⟨t.val + 1, ht⟩ 0) :=
    Rect.unit_congr ((k1_off15_eq_2 t).trans (by funext a; match a with | 0 => rfl | 1 => rfl)) inb (win_inb ⟨t.val + 1, ht⟩ 0)
  exact e ▸ rfl
omit [FloatOps F] in
theorem win2_set3 (t : Fin k1_t2_loop.trips) (ht : t.val + 1 < 32) (inb : ∀ a, (k1_off15 t 3#32) a + S1x64.size a ≤ S32x128.size a)
    (hr : ∀ a, (Rect.unit (s := S32x128) (k1_off15 t 3#32) S1x64.size inb).stride a = 1) (sq : S1x64.Squeezes S64) :
    (((sb1V).slice (Rect.unit (s := S32x128) (k1_off15 t 3#32) S1x64.size inb) hr).squeeze S64 sq).view.set = (win1 ⟨t.val + 1, ht⟩ 1).view.set := by
  show (((sb1V).view.slice (Rect.unit (s := S32x128) (k1_off15 t 3#32) S1x64.size inb)).reshape S64 sq.numel_eq).set
    = (((sb1V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off15 t 3#32) S1x64.size inb = Rect.unit (s := S32x128) ![t.val + 1, 64 * (1 : Fin 2).val] S1x64.size (win_inb ⟨t.val + 1, ht⟩ 1) :=
    Rect.unit_congr ((k1_off15_eq_3 t).trans (by funext a; match a with | 0 => rfl | 1 => rfl)) inb (win_inb ⟨t.val + 1, ht⟩ 1)
  exact e ▸ rfl

omit [FloatOps F] in
theorem win3_set2 (t : Fin k1_t3_loop.trips) (ht : t.val + 1 < 32) (inb : ∀ a, (k1_off20 t 2#32) a + S1x64.size a ≤ S32x128.size a)
    (hr : ∀ a, (Rect.unit (s := S32x128) (k1_off20 t 2#32) S1x64.size inb).stride a = 1) (sq : S1x64.Squeezes S64) :
    (((sb0V).slice (Rect.unit (s := S32x128) (k1_off20 t 2#32) S1x64.size inb) hr).squeeze S64 sq).view.set = (win0 ⟨t.val + 1, ht⟩ 0).view.set := by
  show (((sb0V).view.slice (Rect.unit (s := S32x128) (k1_off20 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off20 t 2#32) S1x64.size inb = Rect.unit (s := S32x128) ![t.val + 1, 64 * (0 : Fin 2).val] S1x64.size (win_inb ⟨t.val + 1, ht⟩ 0) :=
    Rect.unit_congr ((k1_off20_eq_2 t).trans (by funext a; match a with | 0 => rfl | 1 => rfl)) inb (win_inb ⟨t.val + 1, ht⟩ 0)
  exact e ▸ rfl
omit [FloatOps F] in
theorem win3_set3 (t : Fin k1_t3_loop.trips) (ht : t.val + 1 < 32) (inb : ∀ a, (k1_off20 t 3#32) a + S1x64.size a ≤ S32x128.size a)
    (hr : ∀ a, (Rect.unit (s := S32x128) (k1_off20 t 3#32) S1x64.size inb).stride a = 1) (sq : S1x64.Squeezes S64) :
    (((sb0V).slice (Rect.unit (s := S32x128) (k1_off20 t 3#32) S1x64.size inb) hr).squeeze S64 sq).view.set = (win0 ⟨t.val + 1, ht⟩ 1).view.set := by
  show (((sb0V).view.slice (Rect.unit (s := S32x128) (k1_off20 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off20 t 3#32) S1x64.size inb = Rect.unit (s := S32x128) ![t.val + 1, 64 * (1 : Fin 2).val] S1x64.size (win_inb ⟨t.val + 1, ht⟩ 1) :=
    Rect.unit_congr ((k1_off20_eq_3 t).trans (by funext a; match a with | 0 => rfl | 1 => rfl)) inb (win_inb ⟨t.val + 1, ht⟩ 1)
  exact e ▸ rfl

omit [FloatOps F] in
theorem win4_set2 (t : Fin k1_t4_loop.trips) (ht : t.val + 1 < 32) (inb : ∀ a, (k1_off25 t 2#32) a + S1x64.size a ≤ S32x128.size a)
    (hr : ∀ a, (Rect.unit (s := S32x128) (k1_off25 t 2#32) S1x64.size inb).stride a = 1) (sq : S1x64.Squeezes S64) :
    (((sb1V).slice (Rect.unit (s := S32x128) (k1_off25 t 2#32) S1x64.size inb) hr).squeeze S64 sq).view.set = (win1 ⟨t.val + 1, ht⟩ 0).view.set := by
  show (((sb1V).view.slice (Rect.unit (s := S32x128) (k1_off25 t 2#32) S1x64.size inb)).reshape S64 sq.numel_eq).set
    = (((sb1V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off25 t 2#32) S1x64.size inb = Rect.unit (s := S32x128) ![t.val + 1, 64 * (0 : Fin 2).val] S1x64.size (win_inb ⟨t.val + 1, ht⟩ 0) :=
    Rect.unit_congr ((k1_off25_eq_2 t).trans (by funext a; match a with | 0 => rfl | 1 => rfl)) inb (win_inb ⟨t.val + 1, ht⟩ 0)
  exact e ▸ rfl
omit [FloatOps F] in
theorem win4_set3 (t : Fin k1_t4_loop.trips) (ht : t.val + 1 < 32) (inb : ∀ a, (k1_off25 t 3#32) a + S1x64.size a ≤ S32x128.size a)
    (hr : ∀ a, (Rect.unit (s := S32x128) (k1_off25 t 3#32) S1x64.size inb).stride a = 1) (sq : S1x64.Squeezes S64) :
    (((sb1V).slice (Rect.unit (s := S32x128) (k1_off25 t 3#32) S1x64.size inb) hr).squeeze S64 sq).view.set = (win1 ⟨t.val + 1, ht⟩ 1).view.set := by
  show (((sb1V).view.slice (Rect.unit (s := S32x128) (k1_off25 t 3#32) S1x64.size inb)).reshape S64 sq.numel_eq).set
    = (((sb1V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off25 t 3#32) S1x64.size inb = Rect.unit (s := S32x128) ![t.val + 1, 64 * (1 : Fin 2).val] S1x64.size (win_inb ⟨t.val + 1, ht⟩ 1) :=
    Rect.unit_congr ((k1_off25_eq_3 t).trans (by funext a; match a with | 0 => rfl | 1 => rfl)) inb (win_inb ⟨t.val + 1, ht⟩ 1)
  exact e ▸ rfl

omit [FloatOps F] in
theorem win5_set2 (t : Fin k1_t5_loop.trips) (ht : t.val + 1 < 32) (inb : ∀ a, (k1_off29 t 2#32) a + S1x64.size a ≤ S32x128.size a)
    (hr : ∀ a, (Rect.unit (s := S32x128) (k1_off29 t 2#32) S1x64.size inb).stride a = 1) (sq : S1x64.Squeezes S64) :
    (((sb0V).slice (Rect.unit (s := S32x128) (k1_off29 t 2#32) S1x64.size inb) hr).squeeze S64 sq).view.set = (win0 ⟨t.val + 1, ht⟩ 0).view.set := by
  show (((sb0V).view.slice (Rect.unit (s := S32x128) (k1_off29 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off29 t 2#32) S1x64.size inb = Rect.unit (s := S32x128) ![t.val + 1, 64 * (0 : Fin 2).val] S1x64.size (win_inb ⟨t.val + 1, ht⟩ 0) :=
    Rect.unit_congr ((k1_off29_eq_2 t).trans (by funext a; match a with | 0 => rfl | 1 => rfl)) inb (win_inb ⟨t.val + 1, ht⟩ 0)
  exact e ▸ rfl
omit [FloatOps F] in
theorem win5_set3 (t : Fin k1_t5_loop.trips) (ht : t.val + 1 < 32) (inb : ∀ a, (k1_off29 t 3#32) a + S1x64.size a ≤ S32x128.size a)
    (hr : ∀ a, (Rect.unit (s := S32x128) (k1_off29 t 3#32) S1x64.size inb).stride a = 1) (sq : S1x64.Squeezes S64) :
    (((sb0V).slice (Rect.unit (s := S32x128) (k1_off29 t 3#32) S1x64.size inb) hr).squeeze S64 sq).view.set = (win0 ⟨t.val + 1, ht⟩ 1).view.set := by
  show (((sb0V).view.slice (Rect.unit (s := S32x128) (k1_off29 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off29 t 3#32) S1x64.size inb = Rect.unit (s := S32x128) ![t.val + 1, 64 * (1 : Fin 2).val] S1x64.size (win_inb ⟨t.val + 1, ht⟩ 1) :=
    Rect.unit_congr ((k1_off29_eq_3 t).trans (by funext a; match a with | 0 => rfl | 1 => rfl)) inb (win_inb ⟨t.val + 1, ht⟩ 1)
  exact e ▸ rfl

end Tile

end Cert.KernelIdeal.KProof

end
-- ==== Proof.KTrip1.lean ====
/-
  One trip of the loop of section 0 (chunks 0 + 2k and 0 + 2k + 1): the two gathers in flight land, their
  row buffers are written out to the pair's chunks of the output, and the next pair's gathers are issued.
-/
import proofs.«204824_g46875273068696_cont_8to1_c_371_32_alg».proof.Proof.KWinSet

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip1
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (0 : Fin 5).val + (x 0).val, by have := (0 : Fin 5).isLt; have := ValueIdx.idx2_lt0 x; omega⟩ ⟨(x 1).val, ValueIdx.idx2_lt1 x⟩))
    (v1 : BitVec 32) (k : Fin k1_t1_loop.trips) (acc : Unit) :
    sec0 OUT SH d L O W₀ 0 C k.val acc
      ⊢ wp frame (wpE (defs₀ (F := F)) 𝒱₀ (V d (cV L) (jV L)) none) Set.univ
          (k1_t1_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec0 OUT SH d L O W₀ 0 C (k.val + 1)) := by
  have hk : k.val < 31 := k1_t1_trips ▸ k.isLt
  have hwin := win_inrange0 (F := F) IDX d L 0 C hIDX hC
  unfold sec0
  rw [rowOf_lt k.val (by omega), rowOf_lt (k.val + 1) (by omega),
    ← win1_set2 k (by omega) (k1_off9_inb k 1) (fun _ => rfl) squeezes_S1x64_S64,
    ← win1_set3 k (by omega) (k1_off9_inb k 2) (fun _ => rfl) squeezes_S1x64_S64,
    show 0 + 2 * (k.val + 1) = 0 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (0 + 2 * k.val) ⟨0 + 2 * k.val, by omega⟩ ⟨0 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc10 (F := F) d L k _ _ _).symm) $$ Hc0
  ihave Hc1' := (Entails.of_eq (pts_oc11 (F := F) d L k _ _ _).symm) $$ Hc1
  unfold k1_t1_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (0 + 2 * k.val + 2) ⟨0 + 2 * k.val, by omega⟩ ⟨0 + 2 * k.val + 1, by omega⟩
      (by intro h; have := congrArg Fin.val h; simp at this)).symm)
    isplitl [Hc0']
    · iexists _; isplitl [Hc0']
      · iapply (Entails.of_eq (pts_oc10 (F := F) d L k _ _ _)); iexact Hc0'
      · ipureintro; intro _
        exact written_read0 OUT d L (wid (cV L) (jV L)) ⟨0 + 2 * k.val, by omega⟩ B0 (hg0 _) fc0 _ _ _ (oc10_rect L k _)
    isplitl [Hc1']
    · iexists _; isplitl [Hc1']
      · iapply (Entails.of_eq (pts_oc11 (F := F) d L k _ _ _)); iexact Hc1'
      · ipureintro; intro _
        exact written_read1 OUT d L (wid (cV L) (jV L)) ⟨0 + 2 * k.val + 1, by omega⟩ B1 (hg1 _) fc1 _ _ _ (oc11_rect L k _)
    iapply (out_rest_mono (F := F) OUT d (wid (cV L) (jV L)) (0 + 2 * k.val) ⟨0 + 2 * k.val, _⟩ ⟨0 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX 0 ⟨k.val + 1, by omega⟩ 0 _ _ _ _
      ((k1_off9_eq_2 k).trans (by funext a; match a with | 0 => rfl | 1 => rfl)) C hC _ _ _ _ (by simp only [Fin.val_mk]; norm_num; omega)
  · ipureintro
    exact gathered_read10 TAB IDX OUT SH d L hSH hOUT hIDX 0 ⟨k.val + 1, by omega⟩ 1 _ _ _ _
      ((k1_off9_eq_3 k).trans (by funext a; match a with | 0 => rfl | 1 => rfl)) C hC _ _ _ _ (by simp only [Fin.val_mk]; norm_num; omega)

end Tile

end Cert.KernelIdeal.KProof

end
-- ==== Proof.KTrip2.lean ====
/-
  One trip of the loop of section 1 (chunks 64 + 2k and 64 + 2k + 1): the two gathers in flight land, their
  row buffers are written out to the pair's chunks of the output, and the next pair's gathers are issued.
-/
import proofs.«204824_g46875273068696_cont_8to1_c_371_32_alg».proof.Proof.KWinSet

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip2
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb1V).view.loc (V d (cV L) (jV L))))
    (hC : ∀ x : S32x128.Idx, C x = IDX d (ValueIdx.ix3 (wid (cV L) (jV L)) ⟨32 * (⟨1, by decide⟩ : Fin 5).val + (x 0).val, by have := (⟨1, by decide⟩ : Fin 5).isLt; have := ValueIdx.idx2_lt0 x; omega⟩ ⟨(x 1).val, ValueIdx.idx2_lt1 x⟩))
    (v1 : BitVec 32) (k : Fin k1_t2_loop.trips) (acc : Unit) :
    sec1 OUT SH d L O W₀ 64 C k.val acc
      ⊢ wp frame (wpE (defs₀ (F := F)) 𝒱₀ (V d (cV L) (jV L)) none) Set.univ
          (k1_t2_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec1 OUT SH d L O W₀ 64 C (k.val + 1)) := by
  have hk : k.val < 31 := k1_t2_trips ▸ k.isLt
  have hwin := win_inrange1 (F := F) IDX d L ⟨1, by decide⟩ C hIDX hC
  unfold sec1
  rw [rowOf_lt k.val (by omega), rowOf_lt (k.val + 1) (by omega),
    ← win2_set2 k (by omega) (k1_off15_inb k 1) (fun _ => rfl) squeezes_S1x64_S64,
    ← win2_set3 k (by omega) (k1_off15_inb k 2) (fun _ => rfl) squeezes_S1x64_S64,
    show 64 + 2 * (k.val + 1) = 64 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (64 + 2 * k.val) ⟨64 + 2 * k.val, by omega⟩ ⟨64 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc20 (F := F) d L k _ _ _).symm) $$ Hc0
  ihave Hc1' := (Entails.of_eq (pts_oc21 (F := F) d L k _ _ _).symm) $$ Hc1
  unfold k1_t2_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (64 + 2 * k.val + 2) ⟨64 + 2 * k.val, by omega⟩ ⟨64 + 2 * k.val + 1, by omega⟩
      (by intro h; have := congrArg Fin.val h; simp at this)).symm)
    isplitl [Hc0']
    · iexists _; isplitl [Hc0']
      · iapply (Entails.of_eq (pts_oc20 (F := F) d L k _ _ _)); iexact Hc0'
      · ipureintro; intro _
        exact written_read0 OUT d L (wid (cV L) (jV L)) ⟨64 + 2 * k.val, by omega⟩ B0 (hg0 _) fc0 _ _ _ (oc20_rect L k _)
    isplitl [Hc1']
    · iexists _; isplitl [Hc1']
      · iapply (Entails.of_eq (pts_oc21 (F := F) d L k _ _ _)); iexact Hc1'
      · ipureintro; intro _
        exact written_read1 OUT d L (wid (cV L) (jV L)) ⟨64 + 2 * k.val + 1, by omega⟩ B1 (hg1 _) fc1 _ _ _ (oc21_rect L k _)
    iapply (out_rest_mono (F := F) OUT d (wid (cV L) (jV L)) (64 + 2 * k.val) ⟨64 + 2 * k.val, _⟩ ⟨64 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read01 TAB IDX OUT SH d L hSH hOUT hIDX ⟨1, by decide⟩ ⟨k.val + 1, by omega⟩ 0 _ _ _ _
      ((k1_off15_eq_2 k).trans (by funext a; match a with | 0 => rfl | 1 => rfl)) C hC _ _ _ _ (by simp only [Fin.val_mk]; norm_num; omega)
  · ipureintro
    exact gathered_read11 TAB IDX OUT SH d L hSH hOUT hIDX ⟨1, by decide⟩ ⟨k.val + 1, by omega⟩ 1 _ _ _ _
      ((k1_off15_eq_3 k).trans (by funext a; match a with | 0 => rfl | 1 => rfl)) C hC _ _ _ _ (by simp only [Fin.val_mk]; norm_num; omega)

end Tile

end Cert.KernelIdeal.KProof

end
-- ==== Proof.KTrip3.lean ====
/-
  One trip of the loop of section 2 (chunks 128 + 2k and 128 + 2k + 1): the two gathers in flight land, their
  row buffers are written out to the pair's chunks of the output, and the next pair's gathers are issued.
-/
import proofs.«204824_g46875273068696_cont_8to1_c_371_32_alg».proof.Proof.KWinSet

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip3
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (⟨2, by decide⟩ : Fin 5).val + (x 0).val, by have := (⟨2, by decide⟩ : Fin 5).isLt; have := ValueIdx.idx2_lt0 x; omega⟩ ⟨(x 1).val, ValueIdx.idx2_lt1 x⟩))
    (v1 : BitVec 32) {c0 c1 : BitVec 32} (k : Fin k1_t3_loop.trips) (acc : Unit) :
    sec0 OUT SH d L O W₀ 128 C k.val acc
      ⊢ wp frame (wpE (defs₀ (F := F)) 𝒱₀ (V d (cV L) (jV L)) none) Set.univ
          (k1_t3_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 c0 c1 k acc)
          (sec0 OUT SH d L O W₀ 128 C (k.val + 1)) := by
  have hk : k.val < 31 := k1_t3_trips ▸ k.isLt
  have hwin := win_inrange0 (F := F) IDX d L ⟨2, by decide⟩ C hIDX hC
  unfold sec0
  rw [rowOf_lt k.val (by omega), rowOf_lt (k.val + 1) (by omega),
    ← win3_set2 k (by omega) (k1_off20_inb k 1) (fun _ => rfl) squeezes_S1x64_S64,
    ← win3_set3 k (by omega) (k1_off20_inb k 2) (fun _ => rfl) squeezes_S1x64_S64,
    show 128 + 2 * (k.val + 1) = 128 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (128 + 2 * k.val) ⟨128 + 2 * k.val, by omega⟩ ⟨128 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc30 (F := F) d L k _ _ _).symm) $$ Hc0
  ihave Hc1' := (Entails.of_eq (pts_oc31 (F := F) d L k _ _ _).symm) $$ Hc1
  unfold k1_t3_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (128 + 2 * k.val + 2) ⟨128 + 2 * k.val, by omega⟩ ⟨128 + 2 * k.val + 1, by omega⟩
      (by intro h; have := congrArg Fin.val h; simp at this)).symm)
    isplitl [Hc0']
    · iexists _; isplitl [Hc0']
      · iapply (Entails.of_eq (pts_oc30 (F := F) d L k _ _ _)); iexact Hc0'
      · ipureintro; intro _
        exact written_read0 OUT d L (wid (cV L) (jV L)) ⟨128 + 2 * k.val, by omega⟩ B0 (hg0 _) fc0 _ _ _ (oc30_rect L k _)
    isplitl [Hc1']
    · iexists _; isplitl [Hc1']
      · iapply (Entails.of_eq (pts_oc31 (F := F) d L k _ _ _)); iexact Hc1'
      · ipureintro; intro _
        exact written_read1 OUT d L (wid (cV L) (jV L)) ⟨128 + 2 * k.val + 1, by omega⟩ B1 (hg1 _) fc1 _ _ _ (oc31_rect L k _)
    iapply (out_rest_mono (F := F) OUT d (wid (cV L) (jV L)) (128 + 2 * k.val) ⟨128 + 2 * k.val, _⟩ ⟨128 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX ⟨2, by decide⟩ ⟨k.val + 1, by omega⟩ 0 _ _ _ _
      ((k1_off20_eq_2 k).trans (by funext a; match a with | 0 => rfl | 1 => rfl)) C hC _ _ _ _ (by simp only [Fin.val_mk]; norm_num; omega)
  · ipureintro
    exact gathered_read10 TAB IDX OUT SH d L hSH hOUT hIDX ⟨2, by decide⟩ ⟨k.val + 1, by omega⟩ 1 _ _ _ _
      ((k1_off20_eq_3 k).trans (by funext a; match a with | 0 => rfl | 1 => rfl)) C hC _ _ _ _ (by simp only [Fin.val_mk]; norm_num; omega)

end Tile

end Cert.KernelIdeal.KProof

end
-- ==== Proof.KTrip4.lean ====
/-
  One trip of the loop of section 3 (chunks 192 + 2k and 192 + 2k + 1): the two gathers in flight land, their
  row buffers are written out to the pair's chunks of the output, and the next pair's gathers are issued.
-/
import proofs.«204824_g46875273068696_cont_8to1_c_371_32_alg».proof.Proof.KWinSet

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip4
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb1V).view.loc (V d (cV L) (jV L))))
    (hC : ∀ x : S32x128.Idx, C x = IDX d (ValueIdx.ix3 (wid (cV L) (jV L)) ⟨32 * (⟨3, by decide⟩ : Fin 5).val + (x 0).val, by have := (⟨3, by decide⟩ : Fin 5).isLt; have := ValueIdx.idx2_lt0 x; omega⟩ ⟨(x 1).val, ValueIdx.idx2_lt1 x⟩))
    (v1 : BitVec 32) (k : Fin k1_t4_loop.trips) (acc : Unit) :
    sec1 OUT SH d L O W₀ 192 C k.val acc
      ⊢ wp frame (wpE (defs₀ (F := F)) 𝒱₀ (V d (cV L) (jV L)) none) Set.univ
          (k1_t4_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec1 OUT SH d L O W₀ 192 C (k.val + 1)) := by
  have hk : k.val < 31 := k1_t4_trips ▸ k.isLt
  have hwin := win_inrange1 (F := F) IDX d L ⟨3, by decide⟩ C hIDX hC
  unfold sec1
  rw [rowOf_lt k.val (by omega), rowOf_lt (k.val + 1) (by omega),
    ← win4_set2 k (by omega) (k1_off25_inb k 1) (fun _ => rfl) squeezes_S1x64_S64,
    ← win4_set3 k (by omega) (k1_off25_inb k 2) (fun _ => rfl) squeezes_S1x64_S64,
    show 192 + 2 * (k.val + 1) = 192 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (192 + 2 * k.val) ⟨192 + 2 * k.val, by omega⟩ ⟨192 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc40 (F := F) d L k _ _ _).symm) $$ Hc0
  ihave Hc1' := (Entails.of_eq (pts_oc41 (F := F) d L k _ _ _).symm) $$ Hc1
  unfold k1_t4_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (192 + 2 * k.val + 2) ⟨192 + 2 * k.val, by omega⟩ ⟨192 + 2 * k.val + 1, by omega⟩
      (by intro h; have := congrArg Fin.val h; simp at this)).symm)
    isplitl [Hc0']
    · iexists _; isplitl [Hc0']
      · iapply (Entails.of_eq (pts_oc40 (F := F) d L k _ _ _)); iexact Hc0'
      · ipureintro; intro _
        exact written_read0 OUT d L (wid (cV L) (jV L)) ⟨192 + 2 * k.val, by omega⟩ B0 (hg0 _) fc0 _ _ _ (oc40_rect L k _)
    isplitl [Hc1']
    · iexists _; isplitl [Hc1']
      · iapply (Entails.of_eq (pts_oc41 (F := F) d L k _ _ _)); iexact Hc1'
      · ipureintro; intro _
        exact written_read1 OUT d L (wid (cV L) (jV L)) ⟨192 + 2 * k.val + 1, by omega⟩ B1 (hg1 _) fc1 _ _ _ (oc41_rect L k _)
    iapply (out_rest_mono (F := F) OUT d (wid (cV L) (jV L)) (192 + 2 * k.val) ⟨192 + 2 * k.val, _⟩ ⟨192 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read01 TAB IDX OUT SH d L hSH hOUT hIDX ⟨3, by decide⟩ ⟨k.val + 1, by omega⟩ 0 _ _ _ _
      ((k1_off25_eq_2 k).trans (by funext a; match a with | 0 => rfl | 1 => rfl)) C hC _ _ _ _ (by simp only [Fin.val_mk]; norm_num; omega)
  · ipureintro
    exact gathered_read11 TAB IDX OUT SH d L hSH hOUT hIDX ⟨3, by decide⟩ ⟨k.val + 1, by omega⟩ 1 _ _ _ _
      ((k1_off25_eq_3 k).trans (by funext a; match a with | 0 => rfl | 1 => rfl)) C hC _ _ _ _ (by simp only [Fin.val_mk]; norm_num; omega)

end Tile

end Cert.KernelIdeal.KProof

end
-- ==== Proof.KTrip5.lean ====
/-
  One trip of the loop of section 4 (chunks 256 + 2k and 256 + 2k + 1): the two gathers in flight land, their
  row buffers are written out to the pair's chunks of the output, and the next pair's gathers are issued.
-/
import proofs.«204824_g46875273068696_cont_8to1_c_371_32_alg».proof.Proof.KWinSet

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip5
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (⟨4, by decide⟩ : Fin 5).val + (x 0).val, by have := (⟨4, by decide⟩ : Fin 5).isLt; have := ValueIdx.idx2_lt0 x; omega⟩ ⟨(x 1).val, ValueIdx.idx2_lt1 x⟩))
    (v1 : BitVec 32) {v188 : BitVec 32} (k : Fin k1_t5_loop.trips) (acc : Unit) :
    sec0 OUT SH d L O W₀ 256 C k.val acc
      ⊢ wp frame (wpE (defs₀ (F := F)) 𝒱₀ (V d (cV L) (jV L)) none) Set.univ
          (k1_t5_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 v188 k acc)
          (sec0 OUT SH d L O W₀ 256 C (k.val + 1)) := by
  have hk : k.val < 31 := k1_t5_trips ▸ k.isLt
  have hwin := win_inrange0 (F := F) IDX d L ⟨4, by decide⟩ C hIDX hC
  unfold sec0
  rw [rowOf_lt k.val (by omega), rowOf_lt (k.val + 1) (by omega),
    ← win5_set2 k (by omega) (k1_off29_inb k 1) (fun _ => rfl) squeezes_S1x64_S64,
    ← win5_set3 k (by omega) (k1_off29_inb k 2) (fun _ => rfl) squeezes_S1x64_S64,
    show 256 + 2 * (k.val + 1) = 256 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (256 + 2 * k.val) ⟨256 + 2 * k.val, by omega⟩ ⟨256 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc50 (F := F) d L k _ _ _).symm) $$ Hc0
  ihave Hc1' := (Entails.of_eq (pts_oc51 (F := F) d L k _ _ _).symm) $$ Hc1
  unfold k1_t5_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (256 + 2 * k.val + 2) ⟨256 + 2 * k.val, by omega⟩ ⟨256 + 2 * k.val + 1, by omega⟩
      (by intro h; have := congrArg Fin.val h; simp at this)).symm)
    isplitl [Hc0']
    · iexists _; isplitl [Hc0']
      · iapply (Entails.of_eq (pts_oc50 (F := F) d L k _ _ _)); iexact Hc0'
      · ipureintro; intro _
        exact written_read0 OUT d L (wid (cV L) (jV L)) ⟨256 + 2 * k.val, by omega⟩ B0 (hg0 _) fc0 _ _ _ (oc50_rect L k _)
    isplitl [Hc1']
    · iexists _; isplitl [Hc1']
      · iapply (Entails.of_eq (pts_oc51 (F := F) d L k _ _ _)); iexact Hc1'
      · ipureintro; intro _
        exact written_read1 OUT d L (wid (cV L) (jV L)) ⟨256 + 2 * k.val + 1, by omega⟩ B1 (hg1 _) fc1 _ _ _ (oc51_rect L k _)
    iapply (out_rest_mono (F := F) OUT d (wid (cV L) (jV L)) (256 + 2 * k.val) ⟨256 + 2 * k.val, _⟩ ⟨256 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX ⟨4, by decide⟩ ⟨k.val + 1, by omega⟩ 0 _ _ _ _
      ((k1_off29_eq_2 k).trans (by funext a; match a with | 0 => rfl | 1 => rfl)) C hC _ _ _ _ (by simp only [Fin.val_mk]; norm_num; omega)
  · ipureintro
    exact gathered_read10 TAB IDX OUT SH d L hSH hOUT hIDX ⟨4, by decide⟩ ⟨k.val + 1, by omega⟩ 1 _ _ _ _
      ((k1_off29_eq_3 k).trans (by funext a; match a with | 0 => rfl | 1 => rfl)) C hC _ _ _ _ (by simp only [Fin.val_mk]; norm_num; omega)

end Tile

end Cert.KernelIdeal.KProof

end
-- ==== Proof.KEnds.lean ====
/-
  The last pair of chunks of each section (chunks 64·s + 62 and 64·s + 63), as the program slices them after the
  section's loop.
-/
import proofs.«204824_g46875273068696_cont_8to1_c_371_32_alg».proof.Proof.KSec

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

omit [FloatOps F] in
theorem oe10_rect :
    Rect.unit (s := S655360x128) (k1_off11 L 98304#32 896#32) S64x128.size (k1_off11_inb L 0 0) = chunkRect (wid (cV L) (jV L)) ⟨62, by decide⟩ :=
  Rect.unit_congr ((show k1_off11 L 98304#32 896#32 = _ from k1_off11_eq L 0 0).trans (by
    funext a
    match a with
    | 0 => show 131072 * (0 : Fin 5).val + 16384 * (L 0).val + 1024 * (L 1).val + 64 * (0 : Fin 2).val + 99200 = chunkRow (wid (cV L) (jV L)) ⟨62, by decide⟩
           unfold chunkRow wid; simp only [Fin.val_mk, Fin.coe_castLE]; norm_num; omega
    | 1 => rfl)) _ _
/-- Chunk 62 of the worker's rows, as the program slices it at the end of section 0. -/
abbrev oe10 : Memref sig .scVector .hbm S64x128 .f32 := (outV).slice (Rect.unit (s := S655360x128) (k1_off11 L 98304#32 896#32) S64x128.size (k1_off11_inb L 0 0)) (fun _ => rfl)
omit [FloatOps F] in
theorem pts_oe10 (q : PosShare TreeShare) (f : Buf (Elt F) (outLoc d)) :
    ((oe10 L).view.loc (V d (cV L) (jV L)) ↦[(oe10 L).view.set]{q} f : sProp 𝕄) = outLoc d ↦[chunkSet (wid (cV L) (jV L)) ⟨62, by decide⟩]{q} f := by
  show (_ ↦[((outV).view.slice (Rect.unit (s := S655360x128) (k1_off11 L 98304#32 896#32) S64x128.size (k1_off11_inb L 0 0))).set]{q} f : sProp 𝕄) = _
  rw [oe10_rect L]

omit [FloatOps F] in
theorem oe11_rect :
    Rect.unit (s := S655360x128) (k1_off11 L 98304#32 960#32) S64x128.size (k1_off11_inb L 0 1) = chunkRect (wid (cV L) (jV L)) ⟨63, by decide⟩ :=
  Rect.unit_congr ((show k1_off11 L 98304#32 960#32 = _ from k1_off11_eq L 0 1).trans (by
    funext a
    match a with
    | 0 => show 131072 * (0 : Fin 5).val + 16384 * (L 0).val + 1024 * (L 1).val + 64 * (1 : Fin 2).val + 99200 = chunkRow (wid (cV L) (jV L)) ⟨63, by decide⟩
           unfold chunkRow wid; simp only [Fin.val_mk, Fin.coe_castLE]; norm_num; omega
    | 1 => rfl)) _ _
/-- Chunk 63 of the worker's rows, as the program slices it at the end of section 0. -/
abbrev oe11 : Memref sig .scVector .hbm S64x128 .f32 := (outV).slice (Rect.unit (s := S655360x128) (k1_off11 L 98304#32 960#32) S64x128.size (k1_off11_inb L 0 1)) (fun _ => rfl)
omit [FloatOps F] in
theorem pts_oe11 (q : PosShare TreeShare) (f : Buf (Elt F) (outLoc d)) :
    ((oe11 L).view.loc (V d (cV L) (jV L)) ↦[(oe11 L).view.set]{q} f : sProp 𝕄) = outLoc d ↦[chunkSet (wid (cV L) (jV L)) ⟨63, by decide⟩]{q} f := by
  show (_ ↦[((outV).view.slice (Rect.unit (s := S655360x128) (k1_off11 L 98304#32 960#32) S64x128.size (k1_off11_inb L 0 1))).set]{q} f : sProp 𝕄) = _
  rw [oe11_rect L]

omit [FloatOps F] in
theorem oe20_rect :
    Rect.unit (s := S655360x128) (k1_off11 L 229376#32 896#32) S64x128.size (k1_off11_inb L 1 0) = chunkRect (wid (cV L) (jV L)) ⟨126, by decide⟩ :=
  Rect.unit_congr ((show k1_off11 L 229376#32 896#32 = _ from k1_off11_eq L 1 0).trans (by
    funext a
    match a with
    | 0 => show 131072 * (1 : Fin 5).val + 16384 * (L 0).val + 1024 * (L 1).val + 64 * (0 : Fin 2).val + 99200 = chunkRow (wid (cV L) (jV L)) ⟨126, by decide⟩
           unfold chunkRow wid; simp only [Fin.val_mk, Fin.coe_castLE]; norm_num; omega
    | 1 => rfl)) _ _
/-- Chunk 126 of the worker's rows, as the program slices it at the end of section 1. -/
abbrev oe20 : Memref sig .scVector .hbm S64x128 .f32 := (outV).slice (Rect.unit (s := S655360x128) (k1_off11 L 229376#32 896#32) S64x128.size (k1_off11_inb L 1 0)) (fun _ => rfl)
omit [FloatOps F] in
theorem pts_oe20 (q : PosShare TreeShare) (f : Buf (Elt F) (outLoc d)) :
    ((oe20 L).view.loc (V d (cV L) (jV L)) ↦[(oe20 L).view.set]{q} f : sProp 𝕄) = outLoc d ↦[chunkSet (wid (cV L) (jV L)) ⟨126, by decide⟩]{q} f := by
  show (_ ↦[((outV).view.slice (Rect.unit (s := S655360x128) (k1_off11 L 229376#32 896#32) S64x128.size (k1_off11_inb L 1 0))).set]{q} f : sProp 𝕄) = _
  rw [oe20_rect L]

omit [FloatOps F] in
theorem oe21_rect :
    Rect.unit (s := S655360x128) (k1_off11 L 229376#32 960#32) S64x128.size (k1_off11_inb L 1 1) = chunkRect (wid (cV L) (jV L)) ⟨127, by decide⟩ :=
  Rect.unit_congr ((show k1_off11 L 229376#32 960#32 = _ from k1_off11_eq L 1 1).trans (by
    funext a
    match a with
    | 0 => show 131072 * (1 : Fin 5).val + 16384 * (L 0).val + 1024 * (L 1).val + 64 * (1 : Fin 2).val + 99200 = chunkRow (wid (cV L) (jV L)) ⟨127, by decide⟩
           unfold chunkRow wid; simp only [Fin.val_mk, Fin.coe_castLE]; norm_num; omega
    | 1 => rfl)) _ _
/-- Chunk 127 of the worker's rows, as the program slices it at the end of section 1. -/
abbrev oe21 : Memref sig .scVector .hbm S64x128 .f32 := (outV).slice (Rect.unit (s := S655360x128) (k1_off11 L 229376#32 960#32) S64x128.size (k1_off11_inb L 1 1)) (fun _ => rfl)
omit [FloatOps F] in
theorem pts_oe21 (q : PosShare TreeShare) (f : Buf (Elt F) (outLoc d)) :
    ((oe21 L).view.loc (V d (cV L) (jV L)) ↦[(oe21 L).view.set]{q} f : sProp 𝕄) = outLoc d ↦[chunkSet (wid (cV L) (jV L)) ⟨127, by decide⟩]{q} f := by
  show (_ ↦[((outV).view.slice (Rect.unit (s := S655360x128) (k1_off11 L 229376#32 960#32) S64x128.size (k1_off11_inb L 1 1))).set]{q} f : sProp 𝕄) = _
  rw [oe21_rect L]

omit [FloatOps F] in
theorem oe30_rect :
    Rect.unit (s := S655360x128) (k1_off11 L 360448#32 896#32) S64x128.size (k1_off11_inb L 2 0) = chunkRect (wid (cV L) (jV L)) ⟨190, by decide⟩ :=
  Rect.unit_congr ((show k1_off11 L 360448#32 896#32 = _ from k1_off11_eq L 2 0).trans (by
    funext a
    match a with
    | 0 => show 131072 * (2 : Fin 5).val + 16384 * (L 0).val + 1024 * (L 1).val + 64 * (0 : Fin 2).val + 99200 = chunkRow (wid (cV L) (jV L)) ⟨190, by decide⟩
           unfold chunkRow wid; simp only [Fin.val_mk, Fin.coe_castLE]; norm_num; omega
    | 1 => rfl)) _ _
/-- Chunk 190 of the worker's rows, as the program slices it at the end of section 2. -/
abbrev oe30 : Memref sig .scVector .hbm S64x128 .f32 := (outV).slice (Rect.unit (s := S655360x128) (k1_off11 L 360448#32 896#32) S64x128.size (k1_off11_inb L 2 0)) (fun _ => rfl)
omit [FloatOps F] in
theorem pts_oe30 (q : PosShare TreeShare) (f : Buf (Elt F) (outLoc d)) :
    ((oe30 L).view.loc (V d (cV L) (jV L)) ↦[(oe30 L).view.set]{q} f : sProp 𝕄) = outLoc d ↦[chunkSet (wid (cV L) (jV L)) ⟨190, by decide⟩]{q} f := by
  show (_ ↦[((outV).view.slice (Rect.unit (s := S655360x128) (k1_off11 L 360448#32 896#32) S64x128.size (k1_off11_inb L 2 0))).set]{q} f : sProp 𝕄) = _
  rw [oe30_rect L]

omit [FloatOps F] in
theorem oe31_rect :
    Rect.unit (s := S655360x128) (k1_off11 L 360448#32 960#32) S64x128.size (k1_off11_inb L 2 1) = chunkRect (wid (cV L) (jV L)) ⟨191, by decide⟩ :=
  Rect.unit_congr ((show k1_off11 L 360448#32 960#32 = _ from k1_off11_eq L 2 1).trans (by
    funext a
    match a with
    | 0 => show 131072 * (2 : Fin 5).val + 16384 * (L 0).val + 1024 * (L 1).val + 64 * (1 : Fin 2).val + 99200 = chunkRow (wid (cV L) (jV L)) ⟨191, by decide⟩
           unfold chunkRow wid; simp only [Fin.val_mk, Fin.coe_castLE]; norm_num; omega
    | 1 => rfl)) _ _
/-- Chunk 191 of the worker's rows, as the program slices it at the end of section 2. -/
abbrev oe31 : Memref sig .scVector .hbm S64x128 .f32 := (outV).slice (Rect.unit (s := S655360x128) (k1_off11 L 360448#32 960#32) S64x128.size (k1_off11_inb L 2 1)) (fun _ => rfl)
omit [FloatOps F] in
theorem pts_oe31 (q : PosShare TreeShare) (f : Buf (Elt F) (outLoc d)) :
    ((oe31 L).view.loc (V d (cV L) (jV L)) ↦[(oe31 L).view.set]{q} f : sProp 𝕄) = outLoc d ↦[chunkSet (wid (cV L) (jV L)) ⟨191, by decide⟩]{q} f := by
  show (_ ↦[((outV).view.slice (Rect.unit (s := S655360x128) (k1_off11 L 360448#32 960#32) S64x128.size (k1_off11_inb L 2 1))).set]{q} f : sProp 𝕄) = _
  rw [oe31_rect L]

omit [FloatOps F] in
theorem oe40_rect :
    Rect.unit (s := S655360x128) (k1_off11 L 491520#32 896#32) S64x128.size (k1_off11_inb L 3 0) = chunkRect (wid (cV L) (jV L)) ⟨254, by decide⟩ :=
  Rect.unit_congr ((show k1_off11 L 491520#32 896#32 = _ from k1_off11_eq L 3 0).trans (by
    funext a
    match a with
    | 0 => show 131072 * (3 : Fin 5).val + 16384 * (L 0).val + 1024 * (L 1).val + 64 * (0 : Fin 2).val + 99200 = chunkRow (wid (cV L) (jV L)) ⟨254, by decide⟩
           unfold chunkRow wid; simp only [Fin.val_mk, Fin.coe_castLE]; norm_num; omega
    | 1 => rfl)) _ _
/-- Chunk 254 of the worker's rows, as the program slices it at the end of section 3. -/
abbrev oe40 : Memref sig .scVector .hbm S64x128 .f32 := (outV).slice (Rect.unit (s := S655360x128) (k1_off11 L 491520#32 896#32) S64x128.size (k1_off11_inb L 3 0)) (fun _ => rfl)
omit [FloatOps F] in
theorem pts_oe40 (q : PosShare TreeShare) (f : Buf (Elt F) (outLoc d)) :
    ((oe40 L).view.loc (V d (cV L) (jV L)) ↦[(oe40 L).view.set]{q} f : sProp 𝕄) = outLoc d ↦[chunkSet (wid (cV L) (jV L)) ⟨254, by decide⟩]{q} f := by
  show (_ ↦[((outV).view.slice (Rect.unit (s := S655360x128) (k1_off11 L 491520#32 896#32) S64x128.size (k1_off11_inb L 3 0))).set]{q} f : sProp 𝕄) = _
  rw [oe40_rect L]

omit [FloatOps F] in
theorem oe41_rect :
    Rect.unit (s := S655360x128) (k1_off11 L 491520#32 960#32) S64x128.size (k1_off11_inb L 3 1) = chunkRect (wid (cV L) (jV L)) ⟨255, by decide⟩ :=
  Rect.unit_congr ((show k1_off11 L 491520#32 960#32 = _ from k1_off11_eq L 3 1).trans (by
    funext a
    match a with
    | 0 => show 131072 * (3 : Fin 5).val + 16384 * (L 0).val + 1024 * (L 1).val + 64 * (1 : Fin 2).val + 99200 = chunkRow (wid (cV L) (jV L)) ⟨255, by decide⟩
           unfold chunkRow wid; simp only [Fin.val_mk, Fin.coe_castLE]; norm_num; omega
    | 1 => rfl)) _ _
/-- Chunk 255 of the worker's rows, as the program slices it at the end of section 3. -/
abbrev oe41 : Memref sig .scVector .hbm S64x128 .f32 := (outV).slice (Rect.unit (s := S655360x128) (k1_off11 L 491520#32 960#32) S64x128.size (k1_off11_inb L 3 1)) (fun _ => rfl)
omit [FloatOps F] in
theorem pts_oe41 (q : PosShare TreeShare) (f : Buf (Elt F) (outLoc d)) :
    ((oe41 L).view.loc (V d (cV L) (jV L)) ↦[(oe41 L).view.set]{q} f : sProp 𝕄) = outLoc d ↦[chunkSet (wid (cV L) (jV L)) ⟨255, by decide⟩]{q} f := by
  show (_ ↦[((outV).view.slice (Rect.unit (s := S655360x128) (k1_off11 L 491520#32 960#32) S64x128.size (k1_off11_inb L 3 1))).set]{q} f : sProp 𝕄) = _
  rw [oe41_rect L]

omit [FloatOps F] in
theorem oe50_rect :
    Rect.unit (s := S655360x128) (k1_off11 L 622592#32 896#32) S64x128.size (k1_off11_inb L 4 0) = chunkRect (wid (cV L) (jV L)) ⟨318, by decide⟩ :=
  Rect.unit_congr ((show k1_off11 L 622592#32 896#32 = _ from k1_off11_eq L 4 0).trans (by
    funext a
    match a with
    | 0 => show 131072 * (4 : Fin 5).val + 16384 * (L 0).val + 1024 * (L 1).val + 64 * (0 : Fin 2).val + 99200 = chunkRow (wid (cV L) (jV L)) ⟨318, by decide⟩
           unfold chunkRow wid; simp only [Fin.val_mk, Fin.coe_castLE]; norm_num; omega
    | 1 => rfl)) _ _
/-- Chunk 318 of the worker's rows, as the program slices it at the end of section 4. -/
abbrev oe50 : Memref sig .scVector .hbm S64x128 .f32 := (outV).slice (Rect.unit (s := S655360x128) (k1_off11 L 622592#32 896#32) S64x128.size (k1_off11_inb L 4 0)) (fun _ => rfl)
omit [FloatOps F] in
theorem pts_oe50 (q : PosShare TreeShare) (f : Buf (Elt F) (outLoc d)) :
    ((oe50 L).view.loc (V d (cV L) (jV L)) ↦[(oe50 L).view.set]{q} f : sProp 𝕄) = outLoc d ↦[chunkSet (wid (cV L) (jV L)) ⟨318, by decide⟩]{q} f := by
  show (_ ↦[((outV).view.slice (Rect.unit (s := S655360x128) (k1_off11 L 622592#32 896#32) S64x128.size (k1_off11_inb L 4 0))).set]{q} f : sProp 𝕄) = _
  rw [oe50_rect L]

omit [FloatOps F] in
theorem oe51_rect :
    Rect.unit (s := S655360x128) (k1_off11 L 622592#32 960#32) S64x128.size (k1_off11_inb L 4 1) = chunkRect (wid (cV L) (jV L)) ⟨319, by decide⟩ :=
  Rect.unit_congr ((show k1_off11 L 622592#32 960#32 = _ from k1_off11_eq L 4 1).trans (by
    funext a
    match a with
    | 0 => show 131072 * (4 : Fin 5).val + 16384 * (L 0).val + 1024 * (L 1).val + 64 * (1 : Fin 2).val + 99200 = chunkRow (wid (cV L) (jV L)) ⟨319, by decide⟩
           unfold chunkRow wid; simp only [Fin.val_mk, Fin.coe_castLE]; norm_num; omega
    | 1 => rfl)) _ _
/-- Chunk 319 of the worker's rows, as the program slices it at the end of section 4. -/
abbrev oe51 : Memref sig .scVector .hbm S64x128 .f32 := (outV).slice (Rect.unit (s := S655360x128) (k1_off11 L 622592#32 960#32) S64x128.size (k1_off11_inb L 4 1)) (fun _ => rfl)
omit [FloatOps F] in
theorem pts_oe51 (q : PosShare TreeShare) (f : Buf (Elt F) (outLoc d)) :
    ((oe51 L).view.loc (V d (cV L) (jV L)) ↦[(oe51 L).view.set]{q} f : sProp 𝕄) = outLoc d ↦[chunkSet (wid (cV L) (jV L)) ⟨319, by decide⟩]{q} f := by
  show (_ ↦[((outV).view.slice (Rect.unit (s := S655360x128) (k1_off11 L 622592#32 960#32) S64x128.size (k1_off11_inb L 4 1))).set]{q} f : sProp 𝕄) = _
  rw [oe51_rect L]

end Tile

end Cert.KernelIdeal.KProof

end
-- ==== Proof.KStaged.lean ====
/-
  What the two staging copies leave in the shared table. A subcore copies 256 rows of the projected part of the gather
  table (rows `256 i …`) onto the same rows of its SparseCore's shared table, and 512 rows of its SparseCore's half of the
  image part (rows `4096 + 8192 c + 512 i …`) onto rows `4096 + 512 i …`. The shared table, as a function of the gather
  table, holds row `r` of it at a row `r` below 4096 and row `4096 + 8192 c + x` at row `4096 + x`: so after one
  whole-slice write of the copied rows the slice's elements hold the shared table.
-/
import proofs.«204824_g46875273068696_cont_8to1_c_371_32_alg».proof.Proof.KTile
import proofs.«204824_g46875273068696_cont_8to1_c_371_32_alg».proof.Proof.KFun

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)

local notation "tabV" => (Memref.whole Cert.KernelIdeal.main_v5_scv : Memref Cert.KernelIdeal.sig Kind.scVector Space.hbm Cert.KernelIdeal.S20480x128 EltTy.f32)

variable (TAB : (d : Dev nD) → Buf (Elt F) (tabLoc d))
variable (SH : (d : Dev nD) → (c : Fin τ.nSC) → Buf (Elt F) (shLoc d c))

variable [FloatOps F]

/-- Row `y` of the first staged slice is row `256 i + y` of the shared table, `i` the subcore's number, -/
theorem emb_shA_row (L : grid1.Coords) (y : S256x128.Idx) : (((shA L).view.emb y) 0).val = 256 * (L 1).val + (y 0).val := by
  show k1_off1 L 0 + 1 * (y 0).val = _
  rw [k1_off1_eq]; show 256 * (L 1).val + 1 * (y 0).val = _; omega
theorem emb_shA_col (L : grid1.Coords) (y : S256x128.Idx) : (((shA L).view.emb y) 1).val = (y 1).val := by
  show k1_off1 L 1 + 1 * (y 1).val = _
  rw [k1_off1_eq]; show 0 + 1 * (y 1).val = _; omega
/-- and it is copied from row `256 i + y` of the gather table. -/
theorem emb_srcA_row (L : grid1.Coords) (y : S256x128.Idx) : (((srcA L).view.emb y) 0).val = 256 * (L 1).val + (y 0).val := by
  show k1_off2 L 0 + 1 * (y 0).val = _
  rw [k1_off2_eq]; show 256 * (L 1).val + 1 * (y 0).val = _; omega
theorem emb_srcA_col (L : grid1.Coords) (y : S256x128.Idx) : (((srcA L).view.emb y) 1).val = (y 1).val := by
  show k1_off2 L 1 + 1 * (y 1).val = _
  rw [k1_off2_eq]; show 0 + 1 * (y 1).val = _; omega

/-- Row `y` of the second staged slice is row `4096 + 512 i + y` of the shared table, -/
theorem emb_shB_row (L : grid1.Coords) (y : S512x128.Idx) : (((shB L).view.emb y) 0).val = 512 * (L 1).val + 4096 + (y 0).val := by
  show k1_off3 L 0 + 1 * (y 0).val = _
  rw [k1_off3_eq]; show 512 * (L 1).val + 4096 + 1 * (y 0).val = _; omega
theorem emb_shB_col (L : grid1.Coords) (y : S512x128.Idx) : (((shB L).view.emb y) 1).val = (y 1).val := by
  show k1_off3 L 1 + 1 * (y 1).val = _
  rw [k1_off3_eq]; show 0 + 1 * (y 1).val = _; omega
/-- and it is copied from row `4096 + 8192 c + 512 i + y` of the gather table, `c` the SparseCore's number. -/
theorem emb_srcB_row (L : grid1.Coords) (y : S512x128.Idx) : (((srcB L).view.emb y) 0).val = 8192 * (L 0).val + 512 * (L 1).val + 4096 + (y 0).val := by
  show k1_off4 L 0 + 1 * (y 0).val = _
  rw [k1_off4_eq]; show 8192 * (L 0).val + 512 * (L 1).val + 4096 + 1 * (y 0).val = _; omega
theorem emb_srcB_col (L : grid1.Coords) (y : S512x128.Idx) : (((srcB L).view.emb y) 1).val = (y 1).val := by
  show k1_off4 L 1 + 1 * (y 1).val = _
  rw [k1_off4_eq]; show 0 + 1 * (y 1).val = _; omega

/-- After the first staging copy the slice it wrote holds the shared table's rows: rows below 4096 of the shared table
    are the same rows of the gather table. -/
theorem staged_A (hSH : ∀ (d : Dev nD) (c : Fin τ.nSC), SH d c = KFun.shTab (F := F) (TAB d) (Fin.cast nSC_eq c)) (d : Dev nD) (L : grid1.Coords)
    (fa : Buf (Elt F) (shLoc d (cV L))) :
    ∀ x ∈ (shA L).view.set, (shA L).view.writes (Elt F) fa [⟨Rect.whole S256x128, stagedA TAB d L⟩] x = SH d (cV L) x := by
  intro x hx
  obtain ⟨y, -, rfl⟩ := Finset.mem_map.mp hx
  have h1 := View.read_writes_cons_emb (shA L).view fa (Rect.whole S256x128) (stagedA TAB d L) [] y
  rw [Rect.emb_whole_apply, View.read_apply] at h1
  have hL : (L 1).val < 16 := (L 1).isLt
  have hy : (y 0).val < 256 := (y 0).isLt
  have hlt : (((shA L).view.emb y) 0).val < 4096 := by rw [emb_shA_row]; omega
  refine (cast_eq _ _).symm.trans (h1.trans ?_)
  rw [hSH]
  unfold KFun.shTab
  rw [dif_pos hlt]
  show View.read (Elt F) (srcA L).view (TAB d) y = _
  rw [View.read_apply, cast_eq]
  refine congrArg (TAB d) (funext fun a => Fin.ext ?_)
  match a with
  | ⟨0, _⟩ => exact (emb_srcA_row L y).trans (emb_shA_row L y).symm
  | ⟨1, _⟩ => exact (emb_srcA_col L y).trans (emb_shA_col L y).symm

/-- After the second staging copy the slice it wrote holds the shared table's rows: row `4096 + x` of SparseCore `c`'s
    shared table is row `4096 + 8192 c + x` of the gather table. -/
theorem staged_B (hSH : ∀ (d : Dev nD) (c : Fin τ.nSC), SH d c = KFun.shTab (F := F) (TAB d) (Fin.cast nSC_eq c)) (d : Dev nD) (L : grid1.Coords)
    (fb : Buf (Elt F) (shLoc d (cV L))) :
    ∀ x ∈ (shB L).view.set, (shB L).view.writes (Elt F) fb [⟨Rect.whole S512x128, stagedB TAB d L⟩] x = SH d (cV L) x := by
  intro x hx
  obtain ⟨y, -, rfl⟩ := Finset.mem_map.mp hx
  have h1 := View.read_writes_cons_emb (shB L).view fb (Rect.whole S512x128) (stagedB TAB d L) [] y
  rw [Rect.emb_whole_apply, View.read_apply] at h1
  have hL : (L 1).val < 16 := (L 1).isLt
  have hy : (y 0).val < 512 := (y 0).isLt
  have hge : ¬ (((shB L).view.emb y) 0).val < 4096 := by rw [emb_shB_row]; omega
  refine (cast_eq _ _).symm.trans (h1.trans ?_)
  rw [hSH]
  unfold KFun.shTab
  rw [dif_neg hge]
  show View.read (Elt F) (srcB L).view (TAB d) y = _
  rw [View.read_apply, cast_eq]
  refine congrArg (TAB d) (funext fun a => Fin.ext ?_)
  match a with
  | ⟨0, _⟩ =>
    show (((srcB L).view.emb y) 0).val = (((shB L).view.emb y) 0).val + 8192 * (L 0).val
    rw [emb_srcB_row, emb_shB_row]; omega
  | ⟨1, _⟩ => exact (emb_srcB_col L y).trans (emb_shB_col L y).symm

end Cert.KernelIdeal.KProof

end
-- ==== Proof.KBody.lean ====
/-
  A vector subcore's task: it stages its rows of the gather table into its SparseCore's shared table, meets the other
  subcores at the barrier (handing each a read share of what it staged, receiving a read share of the whole table), and
  then, section by section and pair by pair, gathers the rows its index list names into its two row buffers and writes
  them out to its chunks of the output — the gathers of the next pair in flight while a pair is written out.
-/
import proofs.«204824_g46875273068696_cont_8to1_c_371_32_alg».proof.Proof.KTrip1
import proofs.«204824_g46875273068696_cont_8to1_c_371_32_alg».proof.Proof.KTrip2
import proofs.«204824_g46875273068696_cont_8to1_c_371_32_alg».proof.Proof.KTrip3
import proofs.«204824_g46875273068696_cont_8to1_c_371_32_alg».proof.Proof.KTrip4
import proofs.«204824_g46875273068696_cont_8to1_c_371_32_alg».proof.Proof.KTrip5
import proofs.«204824_g46875273068696_cont_8to1_c_371_32_alg».proof.Proof.KEnds
import proofs.«204824_g46875273068696_cont_8to1_c_371_32_alg».proof.Proof.KBarrierPay
import proofs.«204824_g46875273068696_cont_8to1_c_371_32_alg».proof.Proof.KStaged
import proofs.«204824_g46875273068696_cont_8to1_c_371_32_alg».proof.Proof.KData

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.KernelIdeal.main_v5_scv : Memref Cert.KernelIdeal.sig Kind.scVector Space.hbm Cert.KernelIdeal.S20480x128 EltTy.f32)
local notation "idxV" => (Memref.whole Cert.KernelIdeal.main_v34_scv : Memref Cert.KernelIdeal.sig Kind.scVector Space.hbm Cert.KernelIdeal.S32x160x128 EltTy.i32)
local notation "outV" => (Memref.whole Cert.KernelIdeal.main_v35_scv : Memref Cert.KernelIdeal.sig Kind.scVector Space.hbm Cert.KernelIdeal.S655360x128 EltTy.f32)
local notation "shV" => (Memref.whole Cert.KernelIdeal.cc1_scratch4 : Memref Cert.KernelIdeal.sig Kind.scVector Space.shared Cert.KernelIdeal.S12288x128 EltTy.f32)
local notation "sb0V" => (Memref.whole Cert.KernelIdeal.cc1_scratch0 : Memref Cert.KernelIdeal.sig Kind.scVector Space.vmem Cert.KernelIdeal.S32x128 EltTy.i32)
local notation "sb1V" => (Memref.whole Cert.KernelIdeal.cc1_scratch1 : Memref Cert.KernelIdeal.sig Kind.scVector Space.vmem Cert.KernelIdeal.S32x128 EltTy.i32)
local notation "buf0V" => (Memref.whole Cert.KernelIdeal.cc1_scratch2 : Memref Cert.KernelIdeal.sig Kind.scVector Space.vmem Cert.KernelIdeal.S64x128 EltTy.f32)
local notation "buf1V" => (Memref.whole Cert.KernelIdeal.cc1_scratch3 : Memref Cert.KernelIdeal.sig Kind.scVector Space.vmem Cert.KernelIdeal.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- All the worker's chunks gathered: its rows of the output hold what the kernel leaves there. -/
theorem out_final (w : Fin 32) (n : ℕ) (hn : 320 ≤ n) : outUpTo OUT d w n ⊢ outChunks d w (OUT d) := by
  unfold outUpTo
  refine SparseCore.ent (bigSep_mono fun j _ => ?_)
  exact (show (iprop(∃ f, (outLoc d ↦[chunkSet w j]{fullShare} f) ∗ ⌜j.val < n → ∀ x ∈ chunkSet w j, f x = OUT d x⌝) : sProp 𝕄)
      ⊢ (outLoc d ↦[chunkSet w j]{fullShare} OUT d) from by
    iintro ⟨%f, H, %hf⟩
    iapply (Entails.of_eq (pointsTo_congr (hf (by have := j.isLt; omega))))
    iexact H)

include OUT in
set_option maxHeartbeats 64000000 in
theorem tile_body (hF : (K (F := F)).Facts)
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit SH d (cV L) (jV L)
        ∗ goPts m TAB IDX d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_sc_kernel L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2)
          fun _ => iprop(tdPts TAB IDX OUT SH d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Htab, Hidx, Hout, ⟨%fa, HshA⟩, ⟨%fb, HshB⟩⟩, ⟨⟨⟨%f0, Hsb0⟩, ⟨%f1, Hsb1⟩, ⟨%f2, Hb0⟩, ⟨%f3, Hb1⟩⟩, Hbufs⟩, ⟨⟨Hgs0, Hgs1, Hos0, Hos1, Hss, Hr0, Hr1, Hr2⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htab' := (Entails.of_eq (pts_tab (F := F) d L _ _).symm) $$ Htab
  ihave Hidx' := (Entails.of_eq (pts_idx (F := F) d L _ _).symm) $$ Hidx
  ihave HshA' := (Entails.of_eq (pts_shA (F := F) d L _ _).symm) $$ HshA
  ihave HshB' := (Entails.of_eq (pts_shB (F := F) d L _ _).symm) $$ HshB
  ihave Hsb0' := (Entails.of_eq (pts_sb0 (F := F) d L _).symm) $$ Hsb0
  ihave Hsb1' := (Entails.of_eq (pts_sb1 (F := F) d L _).symm) $$ Hsb1
  ihave Hb0' := (Entails.of_eq (pts_buf0 (F := F) d L _).symm) $$ Hb0
  ihave Hb1' := (Entails.of_eq (pts_buf1 (F := F) d L _).symm) $$ Hb1
  -- the three staging copies
  sl_exec
  rw [show tile_body.sl.dma0 TAB d L = stagedA TAB d L from rfl, show tile_body.sl.dma0_1 TAB d L = stagedB TAB d L from rfl]
  -- the staged rows hold the table's contents
  ihave HshA2 := (Entails.of_eq ((pointsTo_congr (fun x hx => staged_A TAB SH hSH d L fa x hx)).trans (pts_shA (F := F) d L _ _))) $$ HshA'
  ihave HshB2 := (Entails.of_eq ((pointsTo_congr (fun x hx => staged_B TAB SH hSH d L fb x hx)).trans (pts_shB (F := F) d L _ _))) $$ HshB'
  ihave Hp := (pays_intro SH d (cV L) (jV L)) $$ [HshA2 HshB2]
  · isplitl [HshA2] <;> iassumption
  icases Hp with ⟨Hpays, HrestA, HrestB⟩
  -- the barrier: a read share of the staged rows to every subcore's round, a read share of the whole table from its own
  iapply (SparseCore.wp_subcoreBarrier 𝒱₀ none EB (bRd (F := F) SH) d (sc := cV L) (i := jV L) sc_bar0 (grid1.bound 1) hsub1 (L 1) rfl κ (fun _ => 0) (jV L).val
      (fun j => bRd_mem₀ SH d _ _ _) (fun _ => rfl) (bRd_expect SH d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim SH d (cV L) (jV L)) $$ Hgot
  ihave Hsh' := (Entails.of_eq (show ((shV).view.loc (V d (cV L) (jV L)) ↦{shTok (jV L)} SH d (cV L) : sProp 𝕄) = shLoc d (cV L) ↦{shTok (jV L)} SH d (cV L) from by
    simp only [Memref.view_whole, View.set_whole]; rfl).symm) $$ Hsh
  -- the read share of the shared table, one token per gather slot's semaphore (cells 4 and 5) and the rest
  have htoks : (((shV).view.loc (V d (cV L) (jV L)) ↦{shTok (jV L)} SH d (cV L)) : sProp 𝕄)
      ⊣⊢ iprop((((shV).view.loc (V d (cV L) (jV L)) ↦{Transfers.shareDrop (shTok (jV L)) 6} SH d (cV L)))
          ∗ (((shV).view.loc (V d (cV L) (jV L)) ↦{Transfers.shareTokN (shTok (jV L)) 4} SH d (cV L)))
          ∗ (((shV).view.loc (V d (cV L) (jV L)) ↦{Transfers.shareTokN (shTok (jV L)) 5} SH d (cV L)))
          ∗ bigSep ({0, 1, 2, 3} : Finset ℕ) fun i => ((shV).view.loc (V d (cV L) (jV L)) ↦{Transfers.shareTokN (shTok (jV L)) i} SH d (cV L))) := by
    have h := Transfers.pointsTo_toks_range (nD := nD) (τ := τ) (sig := sig) (Ix := HIx 1) (Val := Elt F) (Name := ℕ) (U := UU) (Lvl := ℕ)
      (ℓ := (shV).view.loc (V d (cV L) (jV L))) (S := Finset.univ) (f := SH d (cV L)) (shTok (jV L)) 6
    rw [show Finset.range 6 = insert 4 (insert 5 {0, 1, 2, 3}) from by decide, bigSep_insert (by decide), bigSep_insert (by decide)] at h
    exact h
  have htoks45 := htoks.1
  ihave Hsplit := htoks45 $$ Hsh'
  icases Hsplit with ⟨HshD, Hsh4, Hsh5, HshT⟩
  -- the staged index rows are entries of the index array: in range, at any window of the staging buffer
  have hsb0 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_2 IDX d L) Finset.univ) x : BitVec 32).toNat < 12288 := by
    intro g off inb hs sq x
    simp only [Memref.view_whole, View.write_whole_univ]
    exact hIDX d _
  have hC1 : ∀ x : S32x128.Idx, (View.write (Elt F) (sb0V).view f0 (tile_body.sl.dma0_2 IDX d L) Finset.univ) x
      = IDX d (ValueIdx.ix3 (wid (cV L) (jV L)) ⟨32 * (0 : Fin 5).val + (x 0).val, by have := ValueIdx.idx2_lt0 x; simp only [Fin.val_zero]; omega⟩ ⟨(x 1).val, ValueIdx.idx2_lt1 x⟩) := fun x => by
    rw [sb0_written]; exact secIdx0 IDX d L x
  -- the first pair's gathers, the next section's indices on their way
  sl_exec
  -- the worker's chunks: none gathered yet
  ihave Hout0 := (out_init (F := F) m OUT d (wid (cV L) (jV L))) $$ Hout
  sl_for (sec0 OUT SH d L O W 0 (View.write (Elt F) (sb0V).view f0 (tile_body.sl.dma0_2 IDX d L) Finset.univ)) $$ [Hmw2 Hgs0 Hsh4 Hb0' Hgs1 Hsh5 Hb1' Hsb0' Hos0 Hos1 Hout0 HO]
  case region =>
    intro k acc
    exact trip1 TAB IDX OUT SH d L hSH hOUT hIDX O W _ hC1 _ k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact .inl hp
    isplitr
    · ipureintro
      exact gathered_read00 TAB IDX OUT SH d L hSH hOUT hIDX 0 0 0 _ _ _ _ (by funext a; match a with | 0 => rfl | 1 => rfl) _ hC1 _ _ _ _ (by simp)
    · ipureintro
      exact gathered_read10 TAB IDX OUT SH d L hSH hOUT hIDX 0 0 1 _ _ _ _ (by funext a; match a with | 0 => rfl | 1 => rfl) _ hC1 _ _ _ _ (by simp)
  iintro %x1 HI
  ihave HI := (Entails.of_eq (congrArg (fun n => sec0 OUT SH d L O W 0 (View.write (Elt F) (sb0V).view f0 (tile_body.sl.dma0_2 IDX d L) Finset.univ) n x1)
    (show Scf.trips k1_t1_loop.lb k1_t1_loop.ub k1_t1_loop.st = 31 from k1_t1_trips))) $$ HI
  unfold sec0
  icases HI with ⟨%B0_1, %B1_1, -, Hgs0, Hsh4, Hb0', Hgs1, Hsh5, Hb1', Hsb0', Hos0, Hos1, Hout, ⟨%W1, %hW1, HO⟩, %hg0_1, %hg1_1⟩
  ihave Hout' := (Entails.of_eq (out_take2 (F := F) OUT d (wid (cV L) (jV L)) (0 + 2 * 31) ⟨62, by decide⟩ ⟨63, by decide⟩ (by decide))) $$ Hout
  icases Hout' with ⟨⟨%fe0_1, He0, %he0_1⟩, ⟨%fe1_1, He1, %he1_1⟩, Hrest⟩
  ihave He0' := (Entails.of_eq (pts_oe10 (F := F) d L _ _).symm) $$ He0
  ihave He1' := (Entails.of_eq (pts_oe11 (F := F) d L _ _).symm) $$ He1
  have hsb2 : ∀ (g : Buf (Elt F) ((sb1V).view.loc (V d (cV L) (jV L)))) (off : Fin 2 → ℕ) (inb : ∀ a, off a + S1x64.size a ≤ S32x128.size a) (hs) (sq : S1x64.Squeezes S64),
      ∀ x : S64.Idx, (View.read (Elt F) (((sb1V).slice (Rect.unit (s := S32x128) off S1x64.size inb) hs).squeeze S64 sq).view
        (View.write (Elt F) (sb1V).view g (tile_body.sl.dma0_3 IDX d L) Finset.univ) x : BitVec 32).toNat < 12288 := by
    intro g off inb hs sq x
    simp only [Memref.view_whole, View.write_whole_univ]
    exact hIDX d _
  sl_exec
  have hC2 : ∀ x : S32x128.Idx, (View.write (Elt F) (sb1V).view f1 (tile_body.sl.dma0_3 IDX d L) Finset.univ) x
      = IDX d (ValueIdx.ix3 (wid (cV L) (jV L)) ⟨32 * (⟨1, by decide⟩ : Fin 5).val + (x 0).val, by have := ValueIdx.idx2_lt0 x; simp only [Fin.val_mk]; omega⟩ ⟨(x 1).val, ValueIdx.idx2_lt1 x⟩) := fun x => by
    rw [sb1_written]; exact secIdx1 IDX d L x
  -- the last pair of section 0 is written: 64 chunks hold the gathered rows
  ihave Hout0 := (Entails.of_eq (out_take2 (F := F) OUT d (wid (cV L) (jV L)) (0 + 2 * 31 + 2) ⟨62, by decide⟩ ⟨63, by decide⟩ (by decide)).symm) $$ [He0' He1' Hrest]
  · isplitl [He0']
    · iexists _; isplitl [He0']
      · iapply (Entails.of_eq (pts_oe10 (F := F) d L _ _)); iexact He0'
      · ipureintro; intro _
        exact written_read0 OUT d L (wid (cV L) (jV L)) ⟨62, by decide⟩ B0_1 (hg0_1 _) _ _ _ _ (oe10_rect L)
    isplitl [He1']
    · iexists _; isplitl [He1']
      · iapply (Entails.of_eq (pts_oe11 (F := F) d L _ _)); iexact He1'
      · ipureintro; intro _
        exact written_read1 OUT d L (wid (cV L) (jV L)) ⟨63, by decide⟩ B1_1 (hg1_1 _) _ _ _ _ (oe11_rect L)
    iapply (out_rest_mono (F := F) OUT d (wid (cV L) (jV L)) (0 + 2 * 31) ⟨62, _⟩ ⟨63, _⟩ rfl rfl)
    iexact Hrest
  sl_for (sec1 OUT SH d L O W 64 (View.write (Elt F) (sb1V).view f1 (tile_body.sl.dma0_3 IDX d L) Finset.univ)) $$ [Hmw2 Hgs0 Hsh4 Hb0' Hgs1 Hsh5 Hb1' Hsb1' Hos0 Hos1 Hout0 HO]
  case region =>
    intro k acc
    exact trip2 TAB IDX OUT SH d L hSH hOUT hIDX O W _ hC2 _ k acc
  · unfold sec1
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb1']; · iexact Hsb1'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW1 p hp
    isplitr
    · ipureintro
      exact gathered_read01 TAB IDX OUT SH d L hSH hOUT hIDX ⟨1, by decide⟩ 0 0 _ _ _ _ (by funext a; match a with | 0 => rfl | 1 => rfl) _ hC2 _ _ _ _ (by simp)
    · ipureintro
      exact gathered_read11 TAB IDX OUT SH d L hSH hOUT hIDX ⟨1, by decide⟩ 0 1 _ _ _ _ (by funext a; match a with | 0 => rfl | 1 => rfl) _ hC2 _ _ _ _ (by simp)
  iintro %x2 HI
  ihave HI := (Entails.of_eq (congrArg (fun n => sec1 OUT SH d L O W 64 (View.write (Elt F) (sb1V).view f1 (tile_body.sl.dma0_3 IDX d L) Finset.univ) n x2)
    (show Scf.trips k1_t2_loop.lb k1_t2_loop.ub k1_t2_loop.st = 31 from k1_t2_trips))) $$ HI
  unfold sec1
  icases HI with ⟨%B0_2, %B1_2, -, Hgs0, Hsh4, Hb0', Hgs1, Hsh5, Hb1', Hsb1', Hos0, Hos1, Hout, ⟨%W2, %hW2, HO⟩, %hg0_2, %hg1_2⟩
  ihave Hout' := (Entails.of_eq (out_take2 (F := F) OUT d (wid (cV L) (jV L)) (64 + 2 * 31) ⟨126, by decide⟩ ⟨127, by decide⟩ (by decide))) $$ Hout
  icases Hout' with ⟨⟨%fe0_2, He0, %he0_2⟩, ⟨%fe1_2, He1, %he1_2⟩, Hrest⟩
  ihave He0' := (Entails.of_eq (pts_oe20 (F := F) d L _ _).symm) $$ He0
  ihave He1' := (Entails.of_eq (pts_oe21 (F := F) d L _ _).symm) $$ He1
  have hsb3 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_6 IDX d L) Finset.univ) x : BitVec 32).toNat < 12288 := by
    intro g off inb hs sq x
    simp only [Memref.view_whole, View.write_whole_univ]
    exact hIDX d _
  sl_exec
  have hC3 : ∀ x : S32x128.Idx, (View.write (Elt F) (sb0V).view (View.write (Elt F) (sb0V).view f0 (tile_body.sl.dma0_2 IDX d L) Finset.univ) (tile_body.sl.dma0_6 IDX d L) Finset.univ) x
      = IDX d (ValueIdx.ix3 (wid (cV L) (jV L)) ⟨32 * (⟨2, by decide⟩ : Fin 5).val + (x 0).val, by have := ValueIdx.idx2_lt0 x; simp only [Fin.val_mk]; omega⟩ ⟨(x 1).val, ValueIdx.idx2_lt1 x⟩) := fun x => by
    rw [sb0_written]; exact secIdx2 IDX d L x
  -- the last pair of section 1 is written: 128 chunks hold the gathered rows
  ihave Hout0 := (Entails.of_eq (out_take2 (F := F) OUT d (wid (cV L) (jV L)) (64 + 2 * 31 + 2) ⟨126, by decide⟩ ⟨127, by decide⟩ (by decide)).symm) $$ [He0' He1' Hrest]
  · isplitl [He0']
    · iexists _; isplitl [He0']
      · iapply (Entails.of_eq (pts_oe20 (F := F) d L _ _)); iexact He0'
      · ipureintro; intro _
        exact written_read0 OUT d L (wid (cV L) (jV L)) ⟨126, by decide⟩ B0_2 (hg0_2 _) _ _ _ _ (oe20_rect L)
    isplitl [He1']
    · iexists _; isplitl [He1']
      · iapply (Entails.of_eq (pts_oe21 (F := F) d L _ _)); iexact He1'
      · ipureintro; intro _
        exact written_read1 OUT d L (wid (cV L) (jV L)) ⟨127, by decide⟩ B1_2 (hg1_2 _) _ _ _ _ (oe21_rect L)
    iapply (out_rest_mono (F := F) OUT d (wid (cV L) (jV L)) (64 + 2 * 31) ⟨126, _⟩ ⟨127, _⟩ rfl rfl)
    iexact Hrest
  sl_for (sec0 OUT SH d L O W 128 (View.write (Elt F) (sb0V).view (View.write (Elt F) (sb0V).view f0 (tile_body.sl.dma0_2 IDX d L) Finset.univ) (tile_body.sl.dma0_6 IDX d L) Finset.univ)) $$ [Hmw2 Hgs0 Hsh4 Hb0' Hgs1 Hsh5 Hb1' Hsb0' Hos0 Hos1 Hout0 HO]
  case region =>
    intro k acc
    exact trip3 TAB IDX OUT SH d L hSH hOUT hIDX O W _ hC3 _ k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW2 p hp
    isplitr
    · ipureintro
      exact gathered_read00 TAB IDX OUT SH d L hSH hOUT hIDX ⟨2, by decide⟩ 0 0 _ _ _ _ (by funext a; match a with | 0 => rfl | 1 => rfl) _ hC3 _ _ _ _ (by simp)
    · ipureintro
      exact gathered_read10 TAB IDX OUT SH d L hSH hOUT hIDX ⟨2, by decide⟩ 0 1 _ _ _ _ (by funext a; match a with | 0 => rfl | 1 => rfl) _ hC3 _ _ _ _ (by simp)
  iintro %x3 HI
  ihave HI := (Entails.of_eq (congrArg (fun n => sec0 OUT SH d L O W 128 (View.write (Elt F) (sb0V).view (View.write (Elt F) (sb0V).view f0 (tile_body.sl.dma0_2 IDX d L) Finset.univ) (tile_body.sl.dma0_6 IDX d L) Finset.univ) n x3)
    (show Scf.trips k1_t3_loop.lb k1_t3_loop.ub k1_t3_loop.st = 31 from k1_t3_trips))) $$ HI
  unfold sec0
  icases HI with ⟨%B0_3, %B1_3, -, Hgs0, Hsh4, Hb0', Hgs1, Hsh5, Hb1', Hsb0', Hos0, Hos1, Hout, ⟨%W3, %hW3, HO⟩, %hg0_3, %hg1_3⟩
  ihave Hout' := (Entails.of_eq (out_take2 (F := F) OUT d (wid (cV L) (jV L)) (128 + 2 * 31) ⟨190, by decide⟩ ⟨191, by decide⟩ (by decide))) $$ Hout
  icases Hout' with ⟨⟨%fe0_3, He0, %he0_3⟩, ⟨%fe1_3, He1, %he1_3⟩, Hrest⟩
  ihave He0' := (Entails.of_eq (pts_oe30 (F := F) d L _ _).symm) $$ He0
  ihave He1' := (Entails.of_eq (pts_oe31 (F := F) d L _ _).symm) $$ He1
  have hsb4 : ∀ (g : Buf (Elt F) ((sb1V).view.loc (V d (cV L) (jV L)))) (off : Fin 2 → ℕ) (inb : ∀ a, off a + S1x64.size a ≤ S32x128.size a) (hs) (sq : S1x64.Squeezes S64),
      ∀ x : S64.Idx, (View.read (Elt F) (((sb1V).slice (Rect.unit (s := S32x128) off S1x64.size inb) hs).squeeze S64 sq).view
        (View.write (Elt F) (sb1V).view g (tile_body.sl.dma0_9 IDX d L) Finset.univ) x : BitVec 32).toNat < 12288 := by
    intro g off inb hs sq x
    simp only [Memref.view_whole, View.write_whole_univ]
    exact hIDX d _
  sl_exec
  have hC4 : ∀ x : S32x128.Idx, (View.write (Elt F) (sb1V).view (View.write (Elt F) (sb1V).view f1 (tile_body.sl.dma0_3 IDX d L) Finset.univ) (tile_body.sl.dma0_9 IDX d L) Finset.univ) x
      = IDX d (ValueIdx.ix3 (wid (cV L) (jV L)) ⟨32 * (⟨3, by decide⟩ : Fin 5).val + (x 0).val, by have := ValueIdx.idx2_lt0 x; simp only [Fin.val_mk]; omega⟩ ⟨(x 1).val, ValueIdx.idx2_lt1 x⟩) := fun x => by
    rw [sb1_written]; exact secIdx3 IDX d L x
  -- the last pair of section 2 is written: 192 chunks hold the gathered rows
  ihave Hout0 := (Entails.of_eq (out_take2 (F := F) OUT d (wid (cV L) (jV L)) (128 + 2 * 31 + 2) ⟨190, by decide⟩ ⟨191, by decide⟩ (by decide)).symm) $$ [He0' He1' Hrest]
  · isplitl [He0']
    · iexists _; isplitl [He0']
      · iapply (Entails.of_eq (pts_oe30 (F := F) d L _ _)); iexact He0'
      · ipureintro; intro _
        exact written_read0 OUT d L (wid (cV L) (jV L)) ⟨190, by decide⟩ B0_3 (hg0_3 _) _ _ _ _ (oe30_rect L)
    isplitl [He1']
    · iexists _; isplitl [He1']
      · iapply (Entails.of_eq (pts_oe31 (F := F) d L _ _)); iexact He1'
      · ipureintro; intro _
        exact written_read1 OUT d L (wid (cV L) (jV L)) ⟨191, by decide⟩ B1_3 (hg1_3 _) _ _ _ _ (oe31_rect L)
    iapply (out_rest_mono (F := F) OUT d (wid (cV L) (jV L)) (128 + 2 * 31) ⟨190, _⟩ ⟨191, _⟩ rfl rfl)
    iexact Hrest
  sl_for (sec1 OUT SH d L O W 192 (View.write (Elt F) (sb1V).view (View.write (Elt F) (sb1V).view f1 (tile_body.sl.dma0_3 IDX d L) Finset.univ) (tile_body.sl.dma0_9 IDX d L) Finset.univ)) $$ [Hmw2 Hgs0 Hsh4 Hb0' Hgs1 Hsh5 Hb1' Hsb1' Hos0 Hos1 Hout0 HO]
  case region =>
    intro k acc
    exact trip4 TAB IDX OUT SH d L hSH hOUT hIDX O W _ hC4 _ k acc
  · unfold sec1
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb1']; · iexact Hsb1'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW3 p hp
    isplitr
    · ipureintro
      exact gathered_read01 TAB IDX OUT SH d L hSH hOUT hIDX ⟨3, by decide⟩ 0 0 _ _ _ _ (by funext a; match a with | 0 => rfl | 1 => rfl) _ hC4 _ _ _ _ (by simp)
    · ipureintro
      exact gathered_read11 TAB IDX OUT SH d L hSH hOUT hIDX ⟨3, by decide⟩ 0 1 _ _ _ _ (by funext a; match a with | 0 => rfl | 1 => rfl) _ hC4 _ _ _ _ (by simp)
  iintro %x4 HI
  ihave HI := (Entails.of_eq (congrArg (fun n => sec1 OUT SH d L O W 192 (View.write (Elt F) (sb1V).view (View.write (Elt F) (sb1V).view f1 (tile_body.sl.dma0_3 IDX d L) Finset.univ) (tile_body.sl.dma0_9 IDX d L) Finset.univ) n x4)
    (show Scf.trips k1_t4_loop.lb k1_t4_loop.ub k1_t4_loop.st = 31 from k1_t4_trips))) $$ HI
  unfold sec1
  icases HI with ⟨%B0_4, %B1_4, -, Hgs0, Hsh4, Hb0', Hgs1, Hsh5, Hb1', Hsb1', Hos0, Hos1, Hout, ⟨%W4, %hW4, HO⟩, %hg0_4, %hg1_4⟩
  ihave Hout' := (Entails.of_eq (out_take2 (F := F) OUT d (wid (cV L) (jV L)) (192 + 2 * 31) ⟨254, by decide⟩ ⟨255, by decide⟩ (by decide))) $$ Hout
  icases Hout' with ⟨⟨%fe0_4, He0, %he0_4⟩, ⟨%fe1_4, He1, %he1_4⟩, Hrest⟩
  ihave He0' := (Entails.of_eq (pts_oe40 (F := F) d L _ _).symm) $$ He0
  ihave He1' := (Entails.of_eq (pts_oe41 (F := F) d L _ _).symm) $$ He1
  have hsb5 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_12 IDX d L) Finset.univ) x : BitVec 32).toNat < 12288 := by
    intro g off inb hs sq x
    simp only [Memref.view_whole, View.write_whole_univ]
    exact hIDX d _
  sl_exec
  have hC5 : ∀ x : S32x128.Idx, (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ) x
      = IDX d (ValueIdx.ix3 (wid (cV L) (jV L)) ⟨32 * (⟨4, by decide⟩ : Fin 5).val + (x 0).val, by have := ValueIdx.idx2_lt0 x; simp only [Fin.val_mk]; omega⟩ ⟨(x 1).val, ValueIdx.idx2_lt1 x⟩) := fun x => by
    rw [sb0_written]; exact secIdx4 IDX d L x
  -- the last pair of section 3 is written: 256 chunks hold the gathered rows
  ihave Hout0 := (Entails.of_eq (out_take2 (F := F) OUT d (wid (cV L) (jV L)) (192 + 2 * 31 + 2) ⟨254, by decide⟩ ⟨255, by decide⟩ (by decide)).symm) $$ [He0' He1' Hrest]
  · isplitl [He0']
    · iexists _; isplitl [He0']
      · iapply (Entails.of_eq (pts_oe40 (F := F) d L _ _)); iexact He0'
      · ipureintro; intro _
        exact written_read0 OUT d L (wid (cV L) (jV L)) ⟨254, by decide⟩ B0_4 (hg0_4 _) _ _ _ _ (oe40_rect L)
    isplitl [He1']
    · iexists _; isplitl [He1']
      · iapply (Entails.of_eq (pts_oe41 (F := F) d L _ _)); iexact He1'
      · ipureintro; intro _
        exact written_read1 OUT d L (wid (cV L) (jV L)) ⟨255, by decide⟩ B1_4 (hg1_4 _) _ _ _ _ (oe41_rect L)
    iapply (out_rest_mono (F := F) OUT d (wid (cV L) (jV L)) (192 + 2 * 31) ⟨254, _⟩ ⟨255, _⟩ rfl rfl)
    iexact Hrest
  sl_for (sec0 OUT SH d L O W 256 (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ)) $$ [Hmw2 Hgs0 Hsh4 Hb0' Hgs1 Hsh5 Hb1' Hsb0' Hos0 Hos1 Hout0 HO]
  case region =>
    intro k acc
    exact trip5 TAB IDX OUT SH d L hSH hOUT hIDX O W _ hC5 _ (v188 := 0#32) k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW4 p hp
    isplitr
    · ipureintro
      exact gathered_read00 TAB IDX OUT SH d L hSH hOUT hIDX ⟨4, by decide⟩ 0 0 _ _ _ _ (by funext a; match a with | 0 => rfl | 1 => rfl) _ hC5 _ _ _ _ (by simp)
    · ipureintro
      exact gathered_read10 TAB IDX OUT SH d L hSH hOUT hIDX ⟨4, by decide⟩ 0 1 _ _ _ _ (by funext a; match a with | 0 => rfl | 1 => rfl) _ hC5 _ _ _ _ (by simp)
  iintro %x5 HI
  ihave HI := (Entails.of_eq (congrArg (fun n => sec0 OUT SH d L O W 256 (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ) n x5)
    (show Scf.trips k1_t5_loop.lb k1_t5_loop.ub k1_t5_loop.st = 31 from k1_t5_trips))) $$ HI
  unfold sec0
  icases HI with ⟨%B0_5, %B1_5, -, Hgs0, Hsh4, Hb0', Hgs1, Hsh5, Hb1', Hsb0', Hos0, Hos1, Hout, ⟨%W5, %hW5, HO⟩, %hg0_5, %hg1_5⟩
  ihave Hout' := (Entails.of_eq (out_take2 (F := F) OUT d (wid (cV L) (jV L)) (256 + 2 * 31) ⟨318, by decide⟩ ⟨319, by decide⟩ (by decide))) $$ Hout
  icases Hout' with ⟨⟨%fe0_5, He0, %he0_5⟩, ⟨%fe1_5, He1, %he1_5⟩, Hrest⟩
  ihave He0' := (Entails.of_eq (pts_oe50 (F := F) d L _ _).symm) $$ He0
  ihave He1' := (Entails.of_eq (pts_oe51 (F := F) d L _ _).symm) $$ He1
  sl_exec
  sl_step
  -- the last pair of section 4 is written: all 320 chunks hold the gathered rows
  ihave Hout0 := (Entails.of_eq (out_take2 (F := F) OUT d (wid (cV L) (jV L)) (256 + 2 * 31 + 2) ⟨318, by decide⟩ ⟨319, by decide⟩ (by decide)).symm) $$ [He0' He1' Hrest]
  · isplitl [He0']
    · iexists _; isplitl [He0']
      · iapply (Entails.of_eq (pts_oe50 (F := F) d L _ _)); iexact He0'
      · ipureintro; intro _
        exact written_read0 OUT d L (wid (cV L) (jV L)) ⟨318, by decide⟩ B0_5 (hg0_5 _) _ _ _ _ (oe50_rect L)
    isplitl [He1']
    · iexists _; isplitl [He1']
      · iapply (Entails.of_eq (pts_oe51 (F := F) d L _ _)); iexact He1'
      · ipureintro; intro _
        exact written_read1 OUT d L (wid (cV L) (jV L)) ⟨319, by decide⟩ B1_5 (hg1_5 _) _ _ _ _ (oe51_rect L)
    iapply (out_rest_mono (F := F) OUT d (wid (cV L) (jV L)) (256 + 2 * 31) ⟨318, _⟩ ⟨319, _⟩ rfl rfl)
    iexact Hrest
  ihave Hout1 := (out_final (F := F) OUT d (wid (cV L) (jV L)) (256 + 2 * 31 + 2) (by decide)) $$ Hout0
  -- the read share of the shared table, whole again
  have htoks45r := htoks.2
  ihave Hshw := htoks45r $$ [HshD Hsh4 Hsh5 HshT]
  · isplitl [HshD]; · iexact HshD
    isplitl [Hsh4]; · iexact Hsh4
    isplitl [Hsh5]; · iexact Hsh5
    iexact HshT
  ihave Hshw' := (Entails.of_eq (show ((shV).view.loc (V d (cV L) (jV L)) ↦{shTok (jV L)} SH d (cV L) : sProp 𝕄) = shLoc d (cV L) ↦{shTok (jV L)} SH d (cV L) from by
    simp only [Memref.view_whole, View.set_whole]; rfl)) $$ Hshw
  isplitl [Htab' Hidx' Hout1 Hshw' HrestA HrestB]
  · isplitl [Htab']; · iapply (Entails.of_eq (pts_tab (F := F) d L _ _)); iexact Htab'
    isplitl [Hidx']; · iapply (Entails.of_eq (pts_idx (F := F) d L _ _)); iexact Hidx'
    isplitl [Hout1]; · iexact Hout1
    isplitl [Hshw']; · iexact Hshw'
    isplitl [HrestA]; · iexact HrestA
    iexact HrestB
  isplitl [Hsb0' Hsb1' Hb0' Hb1' Hbufs]
  · isplitl [Hsb0' Hsb1' Hb0' Hb1']
    · isplitl [Hsb0']; · iexists _; iapply (Entails.of_eq (pts_sb0 (F := F) d L _)); iexact Hsb0'
      isplitl [Hsb1']; · iexists _; iapply (Entails.of_eq (pts_sb1 (F := F) d L _)); iexact Hsb1'
      isplitl [Hb0']; · iexists _; iapply (Entails.of_eq (pts_buf0 (F := F) d L _)); iexact Hb0'
      iexists _; iapply (Entails.of_eq (pts_buf1 (F := F) d L _)); iexact Hb1'
    · iexact Hbufs
  isplitl [Hgs0 Hgs1 Hos0 Hos1 Hss Hr0 Hr1 Hr2 Hsems]
  · isplitl [Hgs0 Hgs1 Hos0 Hos1 Hss Hr0 Hr1 Hr2]
    · isplitl [Hgs0]; · iexact Hgs0
      isplitl [Hgs1]; · iexact Hgs1
      isplitl [Hos0]; · iexact Hos0
      isplitl [Hos1]; · iexact Hos1
      isplitl [Hss]; · iexact Hss
      isplitl [Hr0]; · iexact Hr0
      isplitl [Hr1]; · iexact Hr1
      iexact Hr2
    · iexact Hsems
  iexists _; isplitr
  swap; · iexact HO
  ipureintro; intro p hp
  repeat (rcases Finset.mem_insert.mp hp with hp | hp; · first | exact .inr (.inl (hp ▸ rfl)) | exact .inr (.inr (hp ▸ rfl)))
  exact hW5 p hp

end Tile

/-! ### The task's obligation to the launch -/

omit [FloatOps F] in
/-- The coordinates of subcore `s` of SparseCore `c` in the kernel's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_kernel (coordsV c s) tabV (Memref.isWhole_whole _) idxV (Memref.isWhole_whole _) outV (Memref.isWhole_whole _)
          sb0V (Memref.isWhole_whole _) sb1V (Memref.isWhole_whole _) buf0V (Memref.isWhole_whole _) buf1V (Memref.isWhole_whole _) shV (Memref.isWhole_whole _)
          cc1_scratch5 cc1_scratch6 cc1_scratch7 cc1_scratch8 cc1_scratch9 cc1_scoped0 cc1_scoped1 cc1_scoped2) ⟨⟩ c s := rfl

theorem tileObl (hIDX : ∀ (d : Dev nD) (x : S32x160x128.Idx), ((IDXm m d x : BitVec 32)).toNat < 12288) :
    (K (F := F)).TileObl (D (F := F)) 𝒱 (Pm m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m (TABm m) (IDXm m) (OUTm m) (SHm m) d (coordsV ⟨_, hci.1⟩ ⟨_, hci.2⟩) facts (fun _ _ => rfl) (fun _ => rfl) hIDX O W hO hOlev

end Cert.KernelIdeal.KProof

end
-- ==== Proof.Bits.KTile.lean ====
/-
  A vector subcore's own storage, as its task's proof opens it: the four scratch buffers (two index staging
  buffers, two row buffers) and the eight DMA semaphores (one per gather slot, one per write slot, one for the
  index staging, three for the staging copies before the barrier), each carved out of the subcore's scoped storage.
-/
import proofs.«204824_g46875273068696_cont_8to1_c_371_32_alg».proof.Proof.Bits.KPay

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev jL (L : grid1.Coords) : Fin 16 := i16 (jV L)

/-- The subcore's DMA semaphores as cells. -/
abbrev gs0cell (d : Dev nD) (c : Fin τ.nSC) (i : Fin τ.nSub) : GSem nD τ sig := (V d c i, .dma cc1_scratch5.sem)
abbrev gs1cell (d : Dev nD) (c : Fin τ.nSC) (i : Fin τ.nSub) : GSem nD τ sig := (V d c i, .dma cc1_scratch6.sem)
abbrev os0cell (d : Dev nD) (c : Fin τ.nSC) (i : Fin τ.nSub) : GSem nD τ sig := (V d c i, .dma cc1_scratch7.sem)
abbrev os1cell (d : Dev nD) (c : Fin τ.nSC) (i : Fin τ.nSub) : GSem nD τ sig := (V d c i, .dma cc1_scratch8.sem)
abbrev sscell (d : Dev nD) (c : Fin τ.nSC) (i : Fin τ.nSub) : GSem nD τ sig := (V d c i, .dma cc1_scratch9.sem)
abbrev r0cell (d : Dev nD) (c : Fin τ.nSC) (i : Fin τ.nSub) : GSem nD τ sig := (V d c i, .dma cc1_scoped0.sem)
abbrev r1cell (d : Dev nD) (c : Fin τ.nSC) (i : Fin τ.nSub) : GSem nD τ sig := (V d c i, .dma cc1_scoped1.sem)
abbrev r2cell (d : Dev nD) (c : Fin τ.nSC) (i : Fin τ.nSub) : GSem nD τ sig := (V d c i, .dma cc1_scoped2.sem)

/-- The eight cells, in the order they are carved out. -/
def myCells (d : Dev nD) (c : Fin τ.nSC) (i : Fin τ.nSub) : List (GSem nD τ sig) :=
  [gs0cell d c i, gs1cell d c i, os0cell d c i, os1cell d c i, sscell d c i, r0cell d c i, r1cell d c i, r2cell d c i]

omit [FloatOps F] in
theorem myCells_nodup (c : Fin τ.nSC) (i : Fin τ.nSub) : (myCells d c i).Nodup := by
  simp only [myCells, List.nodup_cons, List.mem_cons, List.not_mem_nil, or_false, not_or, Prod.mk.injEq, true_and, List.nodup_nil, and_true]
  decide

omit [FloatOps F] in
theorem myCells_own (c : Fin τ.nSC) (i : Fin τ.nSub) : ∀ g ∈ myCells d c i, g ∈ ownCells (V d c i) := by
  intro g hg
  simp only [myCells, List.mem_cons, List.not_mem_nil, or_false] at hg
  rcases hg with rfl | rfl | rfl | rfl | rfl | rfl | rfl | rfl
  · exact (mem_ownCells).mpr ⟨rfl, by show (SemLoc.dma cc1_scratch5.sem : SemLoc sig).isScoped .scVector = true; decide⟩
  · exact (mem_ownCells).mpr ⟨rfl, by show (SemLoc.dma cc1_scratch6.sem : SemLoc sig).isScoped .scVector = true; decide⟩
  · exact (mem_ownCells).mpr ⟨rfl, by show (SemLoc.dma cc1_scratch7.sem : SemLoc sig).isScoped .scVector = true; decide⟩
  · exact (mem_ownCells).mpr ⟨rfl, by show (SemLoc.dma cc1_scratch8.sem : SemLoc sig).isScoped .scVector = true; decide⟩
  · exact (mem_ownCells).mpr ⟨rfl, by show (SemLoc.dma cc1_scratch9.sem : SemLoc sig).isScoped .scVector = true; decide⟩
  · exact (mem_ownCells).mpr ⟨rfl, by show (SemLoc.dma cc1_scoped0.sem : SemLoc sig).isScoped .scVector = true; decide⟩
  · exact (mem_ownCells).mpr ⟨rfl, by show (SemLoc.dma cc1_scoped1.sem : SemLoc sig).isScoped .scVector = true; decide⟩
  · exact (mem_ownCells).mpr ⟨rfl, by show (SemLoc.dma cc1_scoped2.sem : SemLoc sig).isScoped .scVector = true; decide⟩

omit [FloatOps F] in
/-- The subcore's scoped semaphores at zero: its eight, one by one, and the rest. -/
theorem ownSems0_V (c : Fin τ.nSC) (i : Fin τ.nSub) :
    (ownSems0 (V d c i) : sProp 𝕄)
      = iprop((semVal (gs0cell d c i) 0 ∗ semVal (gs1cell d c i) 0 ∗ semVal (os0cell d c i) 0 ∗ semVal (os1cell d c i) 0 ∗ semVal (sscell d c i) 0
            ∗ semVal (r0cell d c i) 0 ∗ semVal (r1cell d c i) 0 ∗ semVal (r2cell d c i) 0)
          ∗ bigSep (ownCells (V d c i) \ (myCells d c i).toFinset) fun g => semVal g 0) := by
  unfold SparseCore.Cfg.ownSems0
  rw [SparseCore.bigSep_sdiff_split' (t := (myCells d c i).toFinset) (fun g hg => myCells_own d c i g (List.mem_toFinset.mp hg)),
    bigSep_eq_bigSepL _ (myCells_nodup d c i)]
  rfl

/-- The subcore's four scratch buffers as its own references. -/
def myRefs (c : Fin τ.nSC) (i : Fin τ.nSub) : List (DevRef τ sig) :=
  [(Proc.scVector c i).devRef cc1_scratch0, (Proc.scVector c i).devRef cc1_scratch1, (Proc.scVector c i).devRef cc1_scratch2, (Proc.scVector c i).devRef cc1_scratch3]

omit [FloatOps F] in
theorem myRefs_nodup (c : Fin τ.nSC) (i : Fin τ.nSub) : (myRefs c i).Nodup := by
  simp only [myRefs, List.nodup_cons, List.mem_cons, List.not_mem_nil, or_false, not_or, List.nodup_nil, and_true]
  decide +revert

omit [FloatOps F] in
theorem myRefs_own (c : Fin τ.nSC) (i : Fin τ.nSub) : ∀ b ∈ myRefs c i, b ∈ ownRefs (τ := τ) (sig := sig) (.scVector c i) := by
  intro b hb
  simp only [myRefs, List.mem_cons, List.not_mem_nil, or_false] at hb
  rcases hb with rfl | rfl | rfl | rfl <;> exact SparseCore.Cfg.mem_ownRefs_of_owner (p := Proc.scVector c i) rfl

omit [FloatOps F] in
/-- The subcore's own buffers: the four scratch buffers, each whole at some contents, and the rest. -/
theorem ownBufs_V (c : Fin τ.nSC) (i : Fin τ.nSub) :
    (ownBufs (V d c i) : sProp 𝕄)
      = iprop(((∃ f, (V d c i).loc cc1_scratch0 ↦{fullShare} f) ∗ (∃ f, (V d c i).loc cc1_scratch1 ↦{fullShare} f)
            ∗ (∃ f, (V d c i).loc cc1_scratch2 ↦{fullShare} f) ∗ (∃ f, (V d c i).loc cc1_scratch3 ↦{fullShare} f))
          ∗ bigSep (ownRefs (τ := τ) (.scVector c i) \ (myRefs c i).toFinset) fun b => iprop(∃ f, ((d, b) : Loc nD τ sig) ↦{fullShare} f)) := by
  unfold SparseCore.Cfg.ownBufs
  rw [SparseCore.bigSep_sdiff_split' (t := (myRefs c i).toFinset) (fun b hb => myRefs_own c i b (List.mem_toFinset.mp hb)),
    bigSep_eq_bigSepL _ (myRefs_nodup c i)]
  rfl

/-! ### The arrays as the subcore's memrefs address them -/

/-- The two slices of the shared table the subcore stages, the table's rows it reads them from, and its rows of the
    index array, section by section, as the program slices them. -/
abbrev shA (L : grid1.Coords) : Memref sig .scVector .shared S256x128 .f32 := (shV).slice (Rect.unit (s := S12288x128) (k1_off1 L) S256x128.size (k1_off1_inb L)) (fun _ => rfl)
abbrev shB (L : grid1.Coords) : Memref sig .scVector .shared S512x128 .f32 := (shV).slice (Rect.unit (s := S12288x128) (k1_off3 L) S512x128.size (k1_off3_inb L)) (fun _ => rfl)

omit [FloatOps F] in
theorem rectA_eq : Rect.unit (s := S12288x128) (k1_off1 L) S256x128.size (k1_off1_inb L) = shRectA (jL L) :=
  Rect.unit_congr ((k1_off1_eq L).trans rfl) _ _
omit [FloatOps F] in
theorem rectB_eq : Rect.unit (s := S12288x128) (k1_off3 L) S512x128.size (k1_off3_inb L) = shRectB (jL L) :=
  Rect.unit_congr ((k1_off3_eq L).trans rfl) _ _

omit [FloatOps F] in
theorem set_shA : (shA L).view.set = shRowsA (jL L) := by
  show ((shV).view.slice (Rect.unit (s := S12288x128) (k1_off1 L) S256x128.size (k1_off1_inb L))).set = ((shV).view.slice (shRectA (jL L))).set
  rw [rectA_eq]
omit [FloatOps F] in
theorem set_shB : (shB L).view.set = shRowsB (jL L) := by
  show ((shV).view.slice (Rect.unit (s := S12288x128) (k1_off3 L) S512x128.size (k1_off3_inb L))).set = ((shV).view.slice (shRectB (jL L))).set
  rw [rectB_eq]

omit [FloatOps F] in
theorem pts_shA (q : PosShare TreeShare) (f : Buf (Elt F) (shLoc d (cV L))) :
    ((shA L).view.loc (V d (cV L) (jV L)) ↦[(shA L).view.set]{q} f : sProp 𝕄) = shLoc d (cV L) ↦[shRowsA (jL L)]{q} f := by
  rw [set_shA]; rfl
omit [FloatOps F] in
theorem pts_shB (q : PosShare TreeShare) (f : Buf (Elt F) (shLoc d (cV L))) :
    ((shB L).view.loc (V d (cV L) (jV L)) ↦[(shB L).view.set]{q} f : sProp 𝕄) = shLoc d (cV L) ↦[shRowsB (jL L)]{q} f := by
  rw [set_shB]; rfl
omit [FloatOps F] in
theorem pts_tab (q : PosShare TreeShare) (f : Buf (Elt F) (tabLoc d)) :
    ((tabV).view.loc (V d (cV L) (jV L)) ↦{q} f : sProp 𝕄) = tabLoc d ↦{q} f := by
  simp only [Memref.view_whole, View.set_whole]
omit [FloatOps F] in
theorem pts_idx (q : PosShare TreeShare) (f : Buf (Elt F) (idxLoc d)) :
    ((idxV).view.loc (V d (cV L) (jV L)) ↦{q} f : sProp 𝕄) = idxLoc d ↦{q} f := by
  simp only [Memref.view_whole, View.set_whole]
omit [FloatOps F] in
theorem pts_sb0 (f : Buf (Elt F) ((V d (cV L) (jV L)).loc cc1_scratch0)) :
    ((sb0V).view.loc (V d (cV L) (jV L)) ↦{fullShare} f : sProp 𝕄) = (V d (cV L) (jV L)).loc cc1_scratch0 ↦{fullShare} f := rfl
omit [FloatOps F] in
theorem pts_sb1 (f : Buf (Elt F) ((V d (cV L) (jV L)).loc cc1_scratch1)) :
    ((sb1V).view.loc (V d (cV L) (jV L)) ↦{fullShare} f : sProp 𝕄) = (V d (cV L) (jV L)).loc cc1_scratch1 ↦{fullShare} f := rfl
omit [FloatOps F] in
theorem pts_buf0 (f : Buf (Elt F) ((V d (cV L) (jV L)).loc cc1_scratch2)) :
    ((buf0V).view.loc (V d (cV L) (jV L)) ↦{fullShare} f : sProp 𝕄) = (V d (cV L) (jV L)).loc cc1_scratch2 ↦{fullShare} f := rfl
omit [FloatOps F] in
theorem pts_buf1 (f : Buf (Elt F) ((V d (cV L) (jV L)).loc cc1_scratch3)) :
    ((buf1V).view.loc (V d (cV L) (jV L)) ↦{fullShare} f : sProp 𝕄) = (V d (cV L) (jV L)).loc cc1_scratch3 ↦{fullShare} f := rfl

/-- The rows of the gather table the subcore stages, as the program slices them. -/
abbrev srcA (L : grid1.Coords) : Memref sig .scVector .hbm S256x128 .f32 := (tabV).slice (Rect.unit (s := S20480x128) (k1_off2 L) S256x128.size (k1_off2_inb L)) (fun _ => rfl)
abbrev srcB (L : grid1.Coords) : Memref sig .scVector .hbm S512x128 .f32 := (tabV).slice (Rect.unit (s := S20480x128) (k1_off4 L) S512x128.size (k1_off4_inb L)) (fun _ => rfl)
/-- What the two staging copies carry: those rows' contents. -/
def stagedA (L : grid1.Coords) : S256x128.Idx → Elt F .f32 := ReadAs.same.apply (View.read (Elt F) (srcA L).view (TAB d))
def stagedB (L : grid1.Coords) : S512x128.Idx → Elt F .f32 := ReadAs.same.apply (View.read (Elt F) (srcB L).view (TAB d))

end Tile

end Cert.Kernel.KProof

end
-- ==== Proof.Bits.KOffs1.lean ====
/-
  Closed forms of the offsets computed inside counted loop 1 of the gather kernel.

  Trip `t` (`t < 31`) of this loop handles the two chunks `c = 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 2·t` this is
      `c / 16 = t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.Kernel
import Idealize.ShloMosaic.Lib.Exec.Geometry
import Idealize.ShloMosaic.Lib.Decide

set_option synthInstance.maxSize 4096
set_option Elab.async false

namespace Cert.Kernel.KProof

open Cert.Kernel Cert.Kernel.Gen
open Idealize.ShloMosaic

/-- The index window of chunk `2·t`: row `t`, lanes `0 …`. -/
theorem k1_off7_eq : ∀ t : Fin k1_t1_loop.trips, k1_off7 t = ![t.val, 0] := by decide +kernel
instance closedOff_k1_off7 (t : Fin k1_t1_loop.trips) : ClosedOff (k1_off7 t) := ⟨![t.val, 0], k1_off7_eq t⟩

/-- The output rows of chunk `2·t`. -/
theorem k1_off8_eq : ∀ (i : grid1.Coords) (t : Fin k1_t1_loop.trips),
    k1_off8 i t = ![32768 * (t.val / 8) + 16384 * (i 0).val + 1024 * (i 1).val + 128 * (t.val % 8), 0] := by decide +kernel
instance closedOff_k1_off8 (i : grid1.Coords) (t : Fin k1_t1_loop.trips) : ClosedOff (k1_off8 i t) :=
  ⟨![32768 * (t.val / 8) + 16384 * (i 0).val + 1024 * (i 1).val + 128 * (t.val % 8), 0], k1_off8_eq i t⟩

/-- The index window of chunk `2·t + k`, `k = 1 + r ∈ {1, 2, 3}`: row `t + k / 2`, lanes `64·(k mod 2) …`. -/
theorem k1_off9_eq : ∀ (t : Fin k1_t1_loop.trips) (r : Fin 3),
    k1_off9 t (BitVec.ofNat 32 (1 + r.val)) = ![t.val + (1 + r.val) / 2, 64 * ((1 + r.val) % 2)] := by decide +kernel
theorem k1_off9_eq_1 : ∀ t : Fin k1_t1_loop.trips, k1_off9 t 1#32 = ![t.val, 64] := by decide +kernel
theorem k1_off9_eq_2 : ∀ t : Fin k1_t1_loop.trips, k1_off9 t 2#32 = ![t.val + 1, 0] := by decide +kernel
theorem k1_off9_eq_3 : ∀ t : Fin k1_t1_loop.trips, k1_off9 t 3#32 = ![t.val + 1, 64] := by decide +kernel
instance closedOff_k1_off9_1 (t : Fin k1_t1_loop.trips) : ClosedOff (k1_off9 t 1#32) := ⟨![t.val, 64], k1_off9_eq_1 t⟩
instance closedOff_k1_off9_2 (t : Fin k1_t1_loop.trips) : ClosedOff (k1_off9 t 2#32) := ⟨![t.val + 1, 0], k1_off9_eq_2 t⟩
instance closedOff_k1_off9_3 (t : Fin k1_t1_loop.trips) : ClosedOff (k1_off9 t 3#32) := ⟨![t.val + 1, 64], k1_off9_eq_3 t⟩

/-- The output rows of chunk `2·t + 1`. -/
theorem k1_off10_eq : ∀ (i : grid1.Coords) (t : Fin k1_t1_loop.trips),
    k1_off10 i t = ![32768 * (t.val / 8) + 16384 * (i 0).val + 1024 * (i 1).val + 128 * (t.val % 8) + 64, 0] := by decide +kernel
instance closedOff_k1_off10 (i : grid1.Coords) (t : Fin k1_t1_loop.trips) : ClosedOff (k1_off10 i t) :=
  ⟨![32768 * (t.val / 8) + 16384 * (i 0).val + 1024 * (i 1).val + 128 * (t.val % 8) + 64, 0], k1_off10_eq i t⟩

end Cert.Kernel.KProof
-- ==== Proof.Bits.KOffs2.lean ====
/-
  Closed forms of the offsets computed inside counted loop 2 of the gather kernel.

  Trip `t` (`t < 31`) of this loop handles the two chunks `c = 64 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `64` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 64 + 2·t` this is
      `c / 16 = 4 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.Kernel
import Idealize.ShloMosaic.Lib.Exec.Geometry
import Idealize.ShloMosaic.Lib.Decide

set_option synthInstance.maxSize 4096
set_option Elab.async false

namespace Cert.Kernel.KProof

open Cert.Kernel Cert.Kernel.Gen
open Idealize.ShloMosaic

/-- The index window of chunk `64 + 2·t`: row `t`, lanes `0 …`. -/
theorem k1_off13_eq : ∀ t : Fin k1_t2_loop.trips, k1_off13 t = ![t.val, 0] := by decide +kernel
instance closedOff_k1_off13 (t : Fin k1_t2_loop.trips) : ClosedOff (k1_off13 t) := ⟨![t.val, 0], k1_off13_eq t⟩

/-- The output rows of chunk `64 + 2·t`. -/
theorem k1_off14_eq : ∀ (i : grid1.Coords) (t : Fin k1_t2_loop.trips),
    k1_off14 i t = ![32768 * (t.val / 8) + 16384 * (i 0).val + 1024 * (i 1).val + 128 * (t.val % 8) + 131072, 0] := by decide +kernel
instance closedOff_k1_off14 (i : grid1.Coords) (t : Fin k1_t2_loop.trips) : ClosedOff (k1_off14 i t) :=
  ⟨![32768 * (t.val / 8) + 16384 * (i 0).val + 1024 * (i 1).val + 128 * (t.val % 8) + 131072, 0], k1_off14_eq i t⟩

/-- The index window of chunk `64 + 2·t + k`, `k = 1 + r ∈ {1, 2, 3}`: row `t + k / 2`, lanes `64·(k mod 2) …`. -/
theorem k1_off15_eq : ∀ (t : Fin k1_t2_loop.trips) (r : Fin 3),
    k1_off15 t (BitVec.ofNat 32 (1 + r.val)) = ![t.val + (1 + r.val) / 2, 64 * ((1 + r.val) % 2)] := by decide +kernel
theorem k1_off15_eq_1 : ∀ t : Fin k1_t2_loop.trips, k1_off15 t 1#32 = ![t.val, 64] := by decide +kernel
theorem k1_off15_eq_2 : ∀ t : Fin k1_t2_loop.trips, k1_off15 t 2#32 = ![t.val + 1, 0] := by decide +kernel
theorem k1_off15_eq_3 : ∀ t : Fin k1_t2_loop.trips, k1_off15 t 3#32 = ![t.val + 1, 64] := by decide +kernel
instance closedOff_k1_off15_1 (t : Fin k1_t2_loop.trips) : ClosedOff (k1_off15 t 1#32) := ⟨![t.val, 64], k1_off15_eq_1 t⟩
instance closedOff_k1_off15_2 (t : Fin k1_t2_loop.trips) : ClosedOff (k1_off15 t 2#32) := ⟨![t.val + 1, 0], k1_off15_eq_2 t⟩
instance closedOff_k1_off15_3 (t : Fin k1_t2_loop.trips) : ClosedOff (k1_off15 t 3#32) := ⟨![t.val + 1, 64], k1_off15_eq_3 t⟩

/-- The output rows of chunk `64 + 2·t + 1`. -/
theorem k1_off16_eq : ∀ (i : grid1.Coords) (t : Fin k1_t2_loop.trips),
    k1_off16 i t = ![32768 * (t.val / 8) + 16384 * (i 0).val + 1024 * (i 1).val + 128 * (t.val % 8) + 131136, 0] := by decide +kernel
instance closedOff_k1_off16 (i : grid1.Coords) (t : Fin k1_t2_loop.trips) : ClosedOff (k1_off16 i t) :=
  ⟨![32768 * (t.val / 8) + 16384 * (i 0).val + 1024 * (i 1).val + 128 * (t.val % 8) + 131136, 0], k1_off16_eq i t⟩

end Cert.Kernel.KProof
-- ==== Proof.Bits.KOffs3.lean ====
/-
  Closed forms of the offsets computed inside counted loop 3 of the gather kernel.

  Trip `t` (`t < 31`) of this loop handles the two chunks `c = 128 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `128` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 128 + 2·t` this is
      `c / 16 = 8 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.Kernel
import Idealize.ShloMosaic.Lib.Exec.Geometry
import Idealize.ShloMosaic.Lib.Decide

set_option synthInstance.maxSize 4096
set_option Elab.async false

namespace Cert.Kernel.KProof

open Cert.Kernel Cert.Kernel.Gen
open Idealize.ShloMosaic

/-- The index window of chunk `128 + 2·t`: row `t`, lanes `0 …`. -/
theorem k1_off18_eq : ∀ t : Fin k1_t3_loop.trips, k1_off18 t = ![t.val, 0] := by decide +kernel
instance closedOff_k1_off18 (t : Fin k1_t3_loop.trips) : ClosedOff (k1_off18 t) := ⟨![t.val, 0], k1_off18_eq t⟩

/-- The output rows of chunk `128 + 2·t`. -/
theorem k1_off19_eq : ∀ (i : grid1.Coords) (t : Fin k1_t3_loop.trips),
    k1_off19 i t = ![32768 * (t.val / 8) + 16384 * (i 0).val + 1024 * (i 1).val + 128 * (t.val % 8) + 262144, 0] := by decide +kernel
instance closedOff_k1_off19 (i : grid1.Coords) (t : Fin k1_t3_loop.trips) : ClosedOff (k1_off19 i t) :=
  ⟨![32768 * (t.val / 8) + 16384 * (i 0).val + 1024 * (i 1).val + 128 * (t.val % 8) + 262144, 0], k1_off19_eq i t⟩

/-- The index window of chunk `128 + 2·t + k`, `k = 1 + r ∈ {1, 2, 3}`: row `t + k / 2`, lanes `64·(k mod 2) …`. -/
theorem k1_off20_eq : ∀ (t : Fin k1_t3_loop.trips) (r : Fin 3),
    k1_off20 t (BitVec.ofNat 32 (1 + r.val)) = ![t.val + (1 + r.val) / 2, 64 * ((1 + r.val) % 2)] := by decide +kernel
theorem k1_off20_eq_1 : ∀ t : Fin k1_t3_loop.trips, k1_off20 t 1#32 = ![t.val, 64] := by decide +kernel
theorem k1_off20_eq_2 : ∀ t : Fin k1_t3_loop.trips, k1_off20 t 2#32 = ![t.val + 1, 0] := by decide +kernel
theorem k1_off20_eq_3 : ∀ t : Fin k1_t3_loop.trips, k1_off20 t 3#32 = ![t.val + 1, 64] := by decide +kernel
instance closedOff_k1_off20_1 (t : Fin k1_t3_loop.trips) : ClosedOff (k1_off20 t 1#32) := ⟨![t.val, 64], k1_off20_eq_1 t⟩
instance closedOff_k1_off20_2 (t : Fin k1_t3_loop.trips) : ClosedOff (k1_off20 t 2#32) := ⟨![t.val + 1, 0], k1_off20_eq_2 t⟩
instance closedOff_k1_off20_3 (t : Fin k1_t3_loop.trips) : ClosedOff (k1_off20 t 3#32) := ⟨![t.val + 1, 64], k1_off20_eq_3 t⟩

/-- The output rows of chunk `128 + 2·t + 1`. -/
theorem k1_off21_eq : ∀ (i : grid1.Coords) (t : Fin k1_t3_loop.trips),
    k1_off21 i t = ![32768 * (t.val / 8) + 16384 * (i 0).val + 1024 * (i 1).val + 128 * (t.val % 8) + 262208, 0] := by decide +kernel
instance closedOff_k1_off21 (i : grid1.Coords) (t : Fin k1_t3_loop.trips) : ClosedOff (k1_off21 i t) :=
  ⟨![32768 * (t.val / 8) + 16384 * (i 0).val + 1024 * (i 1).val + 128 * (t.val % 8) + 262208, 0], k1_off21_eq i t⟩

end Cert.Kernel.KProof
-- ==== Proof.Bits.KOffs4.lean ====
/-
  Closed forms of the offsets computed inside counted loop 4 of the gather kernel.

  Trip `t` (`t < 31`) of this loop handles the two chunks `c = 192 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `192` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 192 + 2·t` this is
      `c / 16 = 12 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.Kernel
import Idealize.ShloMosaic.Lib.Exec.Geometry
import Idealize.ShloMosaic.Lib.Decide

set_option synthInstance.maxSize 4096
set_option Elab.async false

namespace Cert.Kernel.KProof

open Cert.Kernel Cert.Kernel.Gen
open Idealize.ShloMosaic

/-- The index window of chunk `192 + 2·t`: row `t`, lanes `0 …`. -/
theorem k1_off23_eq : ∀ t : Fin k1_t4_loop.trips, k1_off23 t = ![t.val, 0] := by decide +kernel
instance closedOff_k1_off23 (t : Fin k1_t4_loop.trips) : ClosedOff (k1_off23 t) := ⟨![t.val, 0], k1_off23_eq t⟩

/-- The output rows of chunk `192 + 2·t`. -/
theorem k1_off24_eq : ∀ (i : grid1.Coords) (t : Fin k1_t4_loop.trips),
    k1_off24 i t = ![32768 * (t.val / 8) + 16384 * (i 0).val + 1024 * (i 1).val + 128 * (t.val % 8) + 393216, 0] := by decide +kernel
instance closedOff_k1_off24 (i : grid1.Coords) (t : Fin k1_t4_loop.trips) : ClosedOff (k1_off24 i t) :=
  ⟨![32768 * (t.val / 8) + 16384 * (i 0).val + 1024 * (i 1).val + 128 * (t.val % 8) + 393216, 0], k1_off24_eq i t⟩

/-- The index window of chunk `192 + 2·t + k`, `k = 1 + r ∈ {1, 2, 3}`: row `t + k / 2`, lanes `64·(k mod 2) …`. -/
theorem k1_off25_eq : ∀ (t : Fin k1_t4_loop.trips) (r : Fin 3),
    k1_off25 t (BitVec.ofNat 32 (1 + r.val)) = ![t.val + (1 + r.val) / 2, 64 * ((1 + r.val) % 2)] := by decide +kernel
theorem k1_off25_eq_1 : ∀ t : Fin k1_t4_loop.trips, k1_off25 t 1#32 = ![t.val, 64] := by decide +kernel
theorem k1_off25_eq_2 : ∀ t : Fin k1_t4_loop.trips, k1_off25 t 2#32 = ![t.val + 1, 0] := by decide +kernel
theorem k1_off25_eq_3 : ∀ t : Fin k1_t4_loop.trips, k1_off25 t 3#32 = ![t.val + 1, 64] := by decide +kernel
instance closedOff_k1_off25_1 (t : Fin k1_t4_loop.trips) : ClosedOff (k1_off25 t 1#32) := ⟨![t.val, 64], k1_off25_eq_1 t⟩
instance closedOff_k1_off25_2 (t : Fin k1_t4_loop.trips) : ClosedOff (k1_off25 t 2#32) := ⟨![t.val + 1, 0], k1_off25_eq_2 t⟩
instance closedOff_k1_off25_3 (t : Fin k1_t4_loop.trips) : ClosedOff (k1_off25 t 3#32) := ⟨![t.val + 1, 64], k1_off25_eq_3 t⟩

/-- The output rows of chunk `192 + 2·t + 1`. -/
theorem k1_off26_eq : ∀ (i : grid1.Coords) (t : Fin k1_t4_loop.trips),
    k1_off26 i t = ![32768 * (t.val / 8) + 16384 * (i 0).val + 1024 * (i 1).val + 128 * (t.val % 8) + 393280, 0] := by decide +kernel
instance closedOff_k1_off26 (i : grid1.Coords) (t : Fin k1_t4_loop.trips) : ClosedOff (k1_off26 i t) :=
  ⟨![32768 * (t.val / 8) + 16384 * (i 0).val + 1024 * (i 1).val + 128 * (t.val % 8) + 393280, 0], k1_off26_eq i t⟩

end Cert.Kernel.KProof
-- ==== Proof.Bits.KOffs5.lean ====
/-
  Closed forms of the offsets computed inside counted loop 5 of the gather kernel.

  Trip `t` (`t < 31`) of this loop handles the two chunks `c = 256 + 2·t` and `c + 1` of the 320 chunks of 64
  rows each worker copies. The word arithmetic printed with the kernel computes, for a chunk `c`,

    * the window of the 32 × 128 index staging buffer holding the chunk's 64 indices: row `(c mod 64) / 2`,
      lanes `64·(c mod 2) …`. Since `256` is a multiple of 64 and `2·t + 3 < 64`, `(c + k) mod 64 = 2·t + k` for
      `k ≤ 3`, so chunk `c + k` sits in row `t + k / 2` at lane `64·(k mod 2)`;
    * the first of the chunk's 64 rows in the 655360 × 128 output:
      `32768·(c / 16) + 1024·w + 64·(c mod 16)` for worker `w = 16·(i 0) + (i 1)`. With `c = 256 + 2·t` this is
      `c / 16 = 16 + t / 8` and `c mod 16 = 2·(t mod 8)`, and chunk `c + 1` starts 64 rows later.

  Each equation ranges over finitely many trips and grid points, hence is decidable, and is proved by deciding it.
-/
import proofs.«204824_g46875273068696_cont_8to1_c_371_32_alg».proof.Proof.Gen.Kernel
import Idealize.ShloMosaic.Lib.Exec.Geometry
import Idealize.ShloMosaic.Lib.Decide

set_option synthInstance.maxSize 4096
set_option Elab.async false

namespace Cert.Kernel.KProof

open Cert.Kernel Cert.Kernel.Gen
open Idealize.ShloMosaic

/-- The index window of chunk `256 + 2·t`: row `t`, lanes `0 …`. -/
theorem k1_off27_eq : ∀ t : Fin k1_t5_loop.trips, k1_off27 t = ![t.val, 0] := by decide +kernel
instance closedOff_k1_off27 (t : Fin k1_t5_loop.trips) : ClosedOff (k1_off27 t) := ⟨![t.val, 0], k1_off27_eq t⟩

/-- The output rows of chunk `256 + 2·t`. -/
theorem k1_off28_eq : ∀ (i : grid1.Coords) (t : Fin k1_t5_loop.trips),
    k1_off28 i t = ![32768 * (t.val / 8) + 16384 * (i 0).val + 1024 * (i 1).val + 128 * (t.val % 8) + 524288, 0] := by decide +kernel
instance closedOff_k1_off28 (i : grid1.Coords) (t : Fin k1_t5_loop.trips) : ClosedOff (k1_off28 i t) :=
  ⟨![32768 * (t.val / 8) + 16384 * (i 0).val + 1024 * (i 1).val + 128 * (t.val % 8) + 524288, 0], k1_off28_eq i t⟩

/-- The index window of chunk `256 + 2·t + k`, `k = 1 + r ∈ {1, 2, 3}`: row `t + k / 2`, lanes `64·(k mod 2) …`. -/
theorem k1_off29_eq : ∀ (t : Fin k1_t5_loop.trips) (r : Fin 3),
    k1_off29 t (BitVec.ofNat 32 (1 + r.val)) = ![t.val + (1 + r.val) / 2, 64 * ((1 + r.val) % 2)] := by decide +kernel
theorem k1_off29_eq_1 : ∀ t : Fin k1_t5_loop.trips, k1_off29 t 1#32 = ![t.val, 64] := by decide +kernel
theorem k1_off29_eq_2 : ∀ t : Fin k1_t5_loop.trips, k1_off29 t 2#32 = ![t.val + 1, 0] := by decide +kernel
theorem k1_off29_eq_3 : ∀ t : Fin k1_t5_loop.trips, k1_off29 t 3#32 = ![t.val + 1, 64] := by decide +kernel
instance closedOff_k1_off29_1 (t : Fin k1_t5_loop.trips) : ClosedOff (k1_off29 t 1#32) := ⟨![t.val, 64], k1_off29_eq_1 t⟩
instance closedOff_k1_off29_2 (t : Fin k1_t5_loop.trips) : ClosedOff (k1_off29 t 2#32) := ⟨![t.val + 1, 0], k1_off29_eq_2 t⟩
instance closedOff_k1_off29_3 (t : Fin k1_t5_loop.trips) : ClosedOff (k1_off29 t 3#32) := ⟨![t.val + 1, 64], k1_off29_eq_3 t⟩

/-- The output rows of chunk `256 + 2·t + 1`. -/
theorem k1_off30_eq : ∀ (i : grid1.Coords) (t : Fin k1_t5_loop.trips),
    k1_off30 i t = ![32768 * (t.val / 8) + 16384 * (i 0).val + 1024 * (i 1).val + 128 * (t.val % 8) + 524352, 0] := by decide +kernel
instance closedOff_k1_off30 (i : grid1.Coords) (t : Fin k1_t5_loop.trips) : ClosedOff (k1_off30 i t) :=
  ⟨![32768 * (t.val / 8) + 16384 * (i 0).val + 1024 * (i 1).val + 128 * (t.val % 8) + 524352, 0], k1_off30_eq i t⟩

end Cert.Kernel.KProof
-- ==== Proof.Bits.KLoop.lean ====
/-
  The section loops of a vector subcore's task: the windows of the index staging buffers, the gathers in flight, the
  invariant between two pairs of chunks, and, section by section, the program's chunk slices and gather windows in
  closed form.
-/
import proofs.«204824_g46875273068696_cont_8to1_c_371_32_alg».proof.Proof.Bits.KTile
import proofs.«204824_g46875273068696_cont_8to1_c_371_32_alg».proof.Proof.Bits.KFun
import proofs.«204824_g46875273068696_cont_8to1_c_371_32_alg».proof.Proof.Bits.KOffs1
import proofs.«204824_g46875273068696_cont_8to1_c_371_32_alg».proof.Proof.Bits.KOffs2
import proofs.«204824_g46875273068696_cont_8to1_c_371_32_alg».proof.Proof.Bits.KOffs3
import proofs.«204824_g46875273068696_cont_8to1_c_371_32_alg».proof.Proof.Bits.KOffs4
import proofs.«204824_g46875273068696_cont_8to1_c_371_32_alg».proof.Proof.Bits.KOffs5

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-! ### The section loops' invariant: what is in flight between two pairs of chunks -/

/-- A 64-entry window of an index staging buffer: row `r`, half `h`. -/
theorem win_inb (r : Fin 32) (h : Fin 2) : ∀ a, (![r.val, 64 * h.val] : Fin 2 → ℕ) a + S1x64.size a ≤ S32x128.size a := by
  have hr := r.isLt; have hh := h.isLt
  intro a; match a with
  | 0 => show r.val + 1 ≤ 32; omega
  | 1 => show 64 * h.val + 64 ≤ 128; omega
abbrev win0 (r : Fin 32) (h : Fin 2) : Memref sig .scVector .vmem S64 .i32 :=
  ((sb0V).slice (Rect.unit (s := S32x128) ![r.val, 64 * h.val] S1x64.size (win_inb r h)) (fun _ => rfl)).squeeze S64 squeezes_S1x64_S64
abbrev win1 (r : Fin 32) (h : Fin 2) : Memref sig .scVector .vmem S64 .i32 :=
  ((sb1V).slice (Rect.unit (s := S32x128) ![r.val, 64 * h.val] S1x64.size (win_inb r h)) (fun _ => rfl)).squeeze S64 squeezes_S1x64_S64
/-- The shared table as the gathers slice it: whole. -/
abbrev shW : Memref sig .scVector .shared S12288x128 .f32 :=
  (shV).slice (Rect.unit (s := S12288x128) ![0, 0] S12288x128.size inb_S12288x128_S12288x128_0_0) (fun _ => rfl)
/-- The row a trip number stands for (the loops run 31 trips; row 31 is the section's last pair). -/
abbrev rowOf (k : ℕ) : Fin 32 := ⟨k % 32, Nat.mod_lt _ (by decide)⟩

/-- A gather in flight on a gather slot's semaphore: it delivers the slot's row buffer written with the gathered rows `g`,
    the window of the staging buffer it reads its indices from, and its read share of the shared table. (Slot 0 or 1; the
    staging buffer 0 or 1.) -/
abbrev gFlight00 (r : Fin 32)
    (fb : Buf (Elt F) ((buf0V).view.loc (V d (cV L) (jV L)))) (g : S64x128.Idx → Elt F .f32) (C : Buf (Elt F) ((sb0V).view.loc (V d (cV L) (jV L)))) : sProp 𝕄 :=
  Transfers.Flight (countersEmb (U := UU)) (V d (cV L) (jV L)) (SemLoc.dma cc1_scratch5.sem) (default : HIx 1) 262144
    iprop((((buf0V).view.loc (V d (cV L) (jV L)) ↦[(buf0V).view.set]{fullShare} (buf0V).view.writes (Elt F) fb [⟨Rect.whole _, g⟩])
          ∗ ((sb0V).view.loc (V d (cV L) (jV L)) ↦[(win0 r 0).view.set]{fullShare} C))
        ∗ ((shV).view.loc (V d (cV L) (jV L)) ↦[(shW).view.set]{Transfers.shareTokN (shTok (jV L)) 4} SH d (cV L)))
abbrev gFlight10 (r : Fin 32)
    (fb : Buf (Elt F) ((buf1V).view.loc (V d (cV L) (jV L)))) (g : S64x128.Idx → Elt F .f32) (C : Buf (Elt F) ((sb0V).view.loc (V d (cV L) (jV L)))) : sProp 𝕄 :=
  Transfers.Flight (countersEmb (U := UU)) (V d (cV L) (jV L)) (SemLoc.dma cc1_scratch6.sem) (default : HIx 1) 262144
    iprop((((buf1V).view.loc (V d (cV L) (jV L)) ↦[(buf1V).view.set]{fullShare} (buf1V).view.writes (Elt F) fb [⟨Rect.whole _, g⟩])
          ∗ ((sb0V).view.loc (V d (cV L) (jV L)) ↦[(win0 r 1).view.set]{fullShare} C))
        ∗ ((shV).view.loc (V d (cV L) (jV L)) ↦[(shW).view.set]{Transfers.shareTokN (shTok (jV L)) 5} SH d (cV L)))
abbrev gFlight01 (r : Fin 32)
    (fb : Buf (Elt F) ((buf0V).view.loc (V d (cV L) (jV L)))) (g : S64x128.Idx → Elt F .f32) (C : Buf (Elt F) ((sb1V).view.loc (V d (cV L) (jV L)))) : sProp 𝕄 :=
  Transfers.Flight (countersEmb (U := UU)) (V d (cV L) (jV L)) (SemLoc.dma cc1_scratch5.sem) (default : HIx 1) 262144
    iprop((((buf0V).view.loc (V d (cV L) (jV L)) ↦[(buf0V).view.set]{fullShare} (buf0V).view.writes (Elt F) fb [⟨Rect.whole _, g⟩])
          ∗ ((sb1V).view.loc (V d (cV L) (jV L)) ↦[(win1 r 0).view.set]{fullShare} C))
        ∗ ((shV).view.loc (V d (cV L) (jV L)) ↦[(shW).view.set]{Transfers.shareTokN (shTok (jV L)) 4} SH d (cV L)))
abbrev gFlight11 (r : Fin 32)
    (fb : Buf (Elt F) ((buf1V).view.loc (V d (cV L) (jV L)))) (g : S64x128.Idx → Elt F .f32) (C : Buf (Elt F) ((sb1V).view.loc (V d (cV L) (jV L)))) : sProp 𝕄 :=
  Transfers.Flight (countersEmb (U := UU)) (V d (cV L) (jV L)) (SemLoc.dma cc1_scratch6.sem) (default : HIx 1) 262144
    iprop((((buf1V).view.loc (V d (cV L) (jV L)) ↦[(buf1V).view.set]{fullShare} (buf1V).view.writes (Elt F) fb [⟨Rect.whole _, g⟩])
          ∗ ((sb1V).view.loc (V d (cV L) (jV L)) ↦[(win1 r 1).view.set]{fullShare} C))
        ∗ ((shV).view.loc (V d (cV L) (jV L)) ↦[(shW).view.set]{Transfers.shareTokN (shTok (jV L)) 5} SH d (cV L)))

/-- A 64×128 block of values is chunk `j` of what the kernel leaves in worker `w`'s rows of the output. -/
def isChunk (d : Dev nD) (w : Fin 32) (j : Fin 320) (g : S64x128.Idx → Elt F .f32) : Prop :=
  ∀ y : S64x128.Idx, g y = OUT d (((outV).view.slice (chunkRect w j)).emb y)
/-- The same for a chunk number given as a natural number (nothing asked past the last chunk). -/
def isChunkN (d : Dev nD) (w : Fin 32) (j : ℕ) (g : S64x128.Idx → Elt F .f32) : Prop :=
  ∀ hj : j < 320, isChunk OUT d w ⟨j, hj⟩ g

/-- The worker's chunks of the output, the first `n` of them holding what the kernel leaves there. -/
def outUpTo (d : Dev nD) (w : Fin 32) (n : ℕ) : sProp 𝕄 :=
  bigSep Finset.univ fun j : Fin 320 => iprop(∃ f, (outLoc d ↦[chunkSet w j]{fullShare} f) ∗ ⌜j.val < n → ∀ x ∈ chunkSet w j, f x = OUT d x⌝)

/-- Between two pairs of a section whose indices sit in staging buffer 0: the two gathers of pair `k` in flight (rows
    `k` of the staging buffer, halves 0 and 1), the staging buffer less their two windows, the write semaphores free, the
    worker's chunks of the output — the first `n₀ + 2·k` of them holding the gathered rows —, and what the subcore owes. -/
def inv0 (O : CellTallies nD τ sig (HIx 1)) (W₀ : Waits sig (HIx 1)) (n₀ : ℕ) (C : Buf (Elt F) ((sb0V).view.loc (V d (cV L) (jV L)))) (k : ℕ) (_ : PUnit) : sProp 𝕄 :=
  iprop(∃ (fb0 : Buf (Elt F) ((buf0V).view.loc (V d (cV L) (jV L)))) (g0 : S64x128.Idx → Elt F .f32)
      (fb1 : Buf (Elt F) ((buf1V).view.loc (V d (cV L) (jV L)))) (g1 : S64x128.Idx → Elt F .f32),
    ⌜isChunkN OUT d (wid (cV L) (jV L)) (n₀ + 2 * k) g0⌝ ∗ ⌜isChunkN OUT d (wid (cV L) (jV L)) (n₀ + 2 * k + 1) g1⌝
    ∗ Transfers.MayWaits (V d (cV L) (jV L)) (default : HIx 1) O
    ∗ gFlight00 SH d L (rowOf k) fb0 g0 C
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} (buf0V).view.writes (Elt F) fb0 [⟨Rect.whole _, g0⟩])
    ∗ gFlight10 SH d L (rowOf k) fb1 g1 C
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} (buf1V).view.writes (Elt F) fb1 [⟨Rect.whole _, g1⟩])
    ∗ ((sb0V).view.loc (V d (cV L) (jV L)) ↦[(Finset.univ \ (win0 (rowOf k) 0).view.set) \ (win0 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ ∃ W', ⌜∀ p ∈ W', p ∈ W₀ ∨ p.2 = none⌝ ∗ owes (V d (cV L) (jV L)) O W')

/-- Between two pairs of a section whose indices sit in staging buffer 1: the two gathers of pair `k` in flight (rows
    `k` of the staging buffer, halves 0 and 1), the staging buffer less their two windows, the write semaphores free, the
    worker's chunks of the output — the first `n₀ + 2·k` of them holding the gathered rows —, and what the subcore owes. -/
def inv1 (O : CellTallies nD τ sig (HIx 1)) (W₀ : Waits sig (HIx 1)) (n₀ : ℕ) (C : Buf (Elt F) ((sb1V).view.loc (V d (cV L) (jV L)))) (k : ℕ) (_ : PUnit) : sProp 𝕄 :=
  iprop(∃ (fb0 : Buf (Elt F) ((buf0V).view.loc (V d (cV L) (jV L)))) (g0 : S64x128.Idx → Elt F .f32)
      (fb1 : Buf (Elt F) ((buf1V).view.loc (V d (cV L) (jV L)))) (g1 : S64x128.Idx → Elt F .f32),
    ⌜isChunkN OUT d (wid (cV L) (jV L)) (n₀ + 2 * k) g0⌝ ∗ ⌜isChunkN OUT d (wid (cV L) (jV L)) (n₀ + 2 * k + 1) g1⌝
    ∗ Transfers.MayWaits (V d (cV L) (jV L)) (default : HIx 1) O
    ∗ gFlight01 SH d L (rowOf k) fb0 g0 C
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} (buf0V).view.writes (Elt F) fb0 [⟨Rect.whole _, g0⟩])
    ∗ gFlight11 SH d L (rowOf k) fb1 g1 C
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} (buf1V).view.writes (Elt F) fb1 [⟨Rect.whole _, g1⟩])
    ∗ ((sb1V).view.loc (V d (cV L) (jV L)) ↦[(Finset.univ \ (win1 (rowOf k) 0).view.set) \ (win1 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ ∃ W', ⌜∀ p ∈ W', p ∈ W₀ ∨ p.2 = none⌝ ∗ owes (V d (cV L) (jV L)) O W')

omit [FloatOps F] in
theorem rowOf_lt (k : ℕ) (hk : k < 32) : rowOf k = ⟨k, hk⟩ := Fin.ext (Nat.mod_eq_of_lt hk)

/-- Nothing gathered yet: the chunks as the launch left them. -/
theorem out_init (w : Fin 32) : outChunks d w (m (outLoc d)) ⊢ outUpTo OUT d w 0 := by
  unfold outUpTo
  refine SparseCore.ent (bigSep_mono fun j _ => ?_)
  exact (show ((outLoc d ↦[chunkSet w j]{fullShare} m (outLoc d)) : sProp 𝕄)
      ⊢ iprop(∃ f, (outLoc d ↦[chunkSet w j]{fullShare} f) ∗ ⌜j.val < 0 → ∀ x ∈ chunkSet w j, f x = OUT d x⌝) from by
    iintro H; iexists _; isplitl [H]; · iexact H
    ipureintro; intro h; exact absurd h (Nat.not_lt_zero _))

/-- Two chunks taken out of the worker's chunks, and put back. -/
theorem out_take2 (w : Fin 32) (n : ℕ) (j0 j1 : Fin 320) (hne : j0 ≠ j1) :
    outUpTo OUT d w n = iprop((∃ f, (outLoc d ↦[chunkSet w j0]{fullShare} f) ∗ ⌜j0.val < n → ∀ x ∈ chunkSet w j0, f x = OUT d x⌝)
      ∗ (∃ f, (outLoc d ↦[chunkSet w j1]{fullShare} f) ∗ ⌜j1.val < n → ∀ x ∈ chunkSet w j1, f x = OUT d x⌝)
      ∗ bigSep ((Finset.univ.erase j0).erase j1) fun j : Fin 320 => iprop(∃ f, (outLoc d ↦[chunkSet w j]{fullShare} f) ∗ ⌜j.val < n → ∀ x ∈ chunkSet w j, f x = OUT d x⌝)) := by
  unfold outUpTo
  rw [SparseCore.bigSep_erase' (Finset.mem_univ j0), SparseCore.bigSep_erase' (Finset.mem_erase.mpr ⟨hne.symm, Finset.mem_univ j1⟩)]

/-! #### Section 0 (chunks 0 … 63; indices in staging buffer 0) -/

omit [FloatOps F] in
theorem k1_t1_trips : k1_t1_loop.trips = 31 := by decide +kernel

/-- The chunks of pair `t` of the section, as the program slices them. -/
abbrev oc10 (t : Fin k1_t1_loop.trips) : Memref sig .scVector .hbm S64x128 .f32 := (outV).slice (Rect.unit (s := S655360x128) (k1_off8 L t) S64x128.size (k1_off8_inb L t)) (fun _ => rfl)
abbrev oc11 (t : Fin k1_t1_loop.trips) : Memref sig .scVector .hbm S64x128 .f32 := (outV).slice (Rect.unit (s := S655360x128) (k1_off10 L t) S64x128.size (k1_off10_inb L t)) (fun _ => rfl)

omit [FloatOps F] in
theorem oc10_rect (t : Fin k1_t1_loop.trips) (hj : 0 + 2 * t.val < 320) :
    Rect.unit (s := S655360x128) (k1_off8 L t) S64x128.size (k1_off8_inb L t) = chunkRect (wid (cV L) (jV L)) ⟨0 + 2 * t.val, hj⟩ :=
  Rect.unit_congr ((k1_off8_eq L t).trans (by
    funext a
    match a with
    | 0 => show 32768 * (t.val / 8) + 16384 * (L 0).val + 1024 * (L 1).val + 128 * (t.val % 8) = chunkRow (wid (cV L) (jV L)) ⟨0 + 2 * t.val, hj⟩
           unfold chunkRow wid; simp only [Fin.val_mk, Fin.coe_castLE]; omega
    | 1 => rfl)) _ _
omit [FloatOps F] in
theorem oc11_rect (t : Fin k1_t1_loop.trips) (hj : 0 + 2 * t.val + 1 < 320) :
    Rect.unit (s := S655360x128) (k1_off10 L t) S64x128.size (k1_off10_inb L t) = chunkRect (wid (cV L) (jV L)) ⟨0 + 2 * t.val + 1, hj⟩ :=
  Rect.unit_congr ((k1_off10_eq L t).trans (by
    funext a
    match a with
    | 0 => show 32768 * (t.val / 8) + 16384 * (L 0).val + 1024 * (L 1).val + 128 * (t.val % 8) + 64 = chunkRow (wid (cV L) (jV L)) ⟨0 + 2 * t.val + 1, hj⟩
           unfold chunkRow wid; simp only [Fin.val_mk, Fin.coe_castLE]; omega
    | 1 => rfl)) _ _
omit [FloatOps F] in
theorem pts_oc10 (t : Fin k1_t1_loop.trips) (hj : 0 + 2 * t.val < 320) (q : PosShare TreeShare) (f : Buf (Elt F) (outLoc d)) :
    ((oc10 L t).view.loc (V d (cV L) (jV L)) ↦[(oc10 L t).view.set]{q} f : sProp 𝕄) = outLoc d ↦[chunkSet (wid (cV L) (jV L)) ⟨0 + 2 * t.val, hj⟩]{q} f := by
  show (_ ↦[((outV).view.slice (Rect.unit (s := S655360x128) (k1_off8 L t) S64x128.size (k1_off8_inb L t))).set]{q} f : sProp 𝕄) = _
  rw [oc10_rect L t hj]
omit [FloatOps F] in
theorem pts_oc11 (t : Fin k1_t1_loop.trips) (hj : 0 + 2 * t.val + 1 < 320) (q : PosShare TreeShare) (f : Buf (Elt F) (outLoc d)) :
    ((oc11 L t).view.loc (V d (cV L) (jV L)) ↦[(oc11 L t).view.set]{q} f : sProp 𝕄) = outLoc d ↦[chunkSet (wid (cV L) (jV L)) ⟨0 + 2 * t.val + 1, hj⟩]{q} f := by
  show (_ ↦[((outV).view.slice (Rect.unit (s := S655360x128) (k1_off10 L t) S64x128.size (k1_off10_inb L t))).set]{q} f : sProp 𝕄) = _
  rw [oc11_rect L t hj]

omit [FloatOps F] in
/-- The windows the trip's two new gathers read, in closed form: row `t + 1`, halves 0 and 1. -/
theorem win1_eq2 (t : Fin k1_t1_loop.trips) (ht : t.val + 1 < 32) (inb : ∀ a, (k1_off9 t 2#32) a + S1x64.size a ≤ S32x128.size a)
    (hr : ∀ a, (Rect.unit (s := S32x128) (k1_off9 t 2#32) S1x64.size inb).stride a = 1) (sq : S1x64.Squeezes S64) :
    ((sb0V).slice (Rect.unit (s := S32x128) (k1_off9 t 2#32) S1x64.size inb) hr).squeeze S64 sq = win0 ⟨t.val + 1, ht⟩ 0 := by
  unfold win0
  congr 1
  exact Memref.slice_unit_congr _ ((k1_off9_eq_2 t).trans (by funext a; match a with | 0 => rfl | 1 => rfl)) _ _ _ _
omit [FloatOps F] in
theorem win1_eq3 (t : Fin k1_t1_loop.trips) (ht : t.val + 1 < 32) (inb : ∀ a, (k1_off9 t 3#32) a + S1x64.size a ≤ S32x128.size a)
    (hr : ∀ a, (Rect.unit (s := S32x128) (k1_off9 t 3#32) S1x64.size inb).stride a = 1) (sq : S1x64.Squeezes S64) :
    ((sb0V).slice (Rect.unit (s := S32x128) (k1_off9 t 3#32) S1x64.size inb) hr).squeeze S64 sq = win0 ⟨t.val + 1, ht⟩ 1 := by
  unfold win0
  congr 1
  exact Memref.slice_unit_congr _ ((k1_off9_eq_3 t).trans (by funext a; match a with | 0 => rfl | 1 => rfl)) _ _ _ _

/-! #### Section 1 (chunks 64 … 127; indices in staging buffer 1) -/

omit [FloatOps F] in
theorem k1_t2_trips : k1_t2_loop.trips = 31 := by decide +kernel

/-- The chunks of pair `t` of the section, as the program slices them. -/
abbrev oc20 (t : Fin k1_t2_loop.trips) : Memref sig .scVector .hbm S64x128 .f32 := (outV).slice (Rect.unit (s := S655360x128) (k1_off14 L t) S64x128.size (k1_off14_inb L t)) (fun _ => rfl)
abbrev oc21 (t : Fin k1_t2_loop.trips) : Memref sig .scVector .hbm S64x128 .f32 := (outV).slice (Rect.unit (s := S655360x128) (k1_off16 L t) S64x128.size (k1_off16_inb L t)) (fun _ => rfl)

omit [FloatOps F] in
theorem oc20_rect (t : Fin k1_t2_loop.trips) (hj : 64 + 2 * t.val < 320) :
    Rect.unit (s := S655360x128) (k1_off14 L t) S64x128.size (k1_off14_inb L t) = chunkRect (wid (cV L) (jV L)) ⟨64 + 2 * t.val, hj⟩ :=
  Rect.unit_congr ((k1_off14_eq L t).trans (by
    funext a
    match a with
    | 0 => show 32768 * (t.val / 8) + 16384 * (L 0).val + 1024 * (L 1).val + 128 * (t.val % 8) + 131072 = chunkRow (wid (cV L) (jV L)) ⟨64 + 2 * t.val, hj⟩
           unfold chunkRow wid; simp only [Fin.val_mk, Fin.coe_castLE]; omega
    | 1 => rfl)) _ _
omit [FloatOps F] in
theorem oc21_rect (t : Fin k1_t2_loop.trips) (hj : 64 + 2 * t.val + 1 < 320) :
    Rect.unit (s := S655360x128) (k1_off16 L t) S64x128.size (k1_off16_inb L t) = chunkRect (wid (cV L) (jV L)) ⟨64 + 2 * t.val + 1, hj⟩ :=
  Rect.unit_congr ((k1_off16_eq L t).trans (by
    funext a
    match a with
    | 0 => show 32768 * (t.val / 8) + 16384 * (L 0).val + 1024 * (L 1).val + 128 * (t.val % 8) + 131136 = chunkRow (wid (cV L) (jV L)) ⟨64 + 2 * t.val + 1, hj⟩
           unfold chunkRow wid; simp only [Fin.val_mk, Fin.coe_castLE]; omega
    | 1 => rfl)) _ _
omit [FloatOps F] in
theorem pts_oc20 (t : Fin k1_t2_loop.trips) (hj : 64 + 2 * t.val < 320) (q : PosShare TreeShare) (f : Buf (Elt F) (outLoc d)) :
    ((oc20 L t).view.loc (V d (cV L) (jV L)) ↦[(oc20 L t).view.set]{q} f : sProp 𝕄) = outLoc d ↦[chunkSet (wid (cV L) (jV L)) ⟨64 + 2 * t.val, hj⟩]{q} f := by
  show (_ ↦[((outV).view.slice (Rect.unit (s := S655360x128) (k1_off14 L t) S64x128.size (k1_off14_inb L t))).set]{q} f : sProp 𝕄) = _
  rw [oc20_rect L t hj]
omit [FloatOps F] in
theorem pts_oc21 (t : Fin k1_t2_loop.trips) (hj : 64 + 2 * t.val + 1 < 320) (q : PosShare TreeShare) (f : Buf (Elt F) (outLoc d)) :
    ((oc21 L t).view.loc (V d (cV L) (jV L)) ↦[(oc21 L t).view.set]{q} f : sProp 𝕄) = outLoc d ↦[chunkSet (wid (cV L) (jV L)) ⟨64 + 2 * t.val + 1, hj⟩]{q} f := by
  show (_ ↦[((outV).view.slice (Rect.unit (s := S655360x128) (k1_off16 L t) S64x128.size (k1_off16_inb L t))).set]{q} f : sProp 𝕄) = _
  rw [oc21_rect L t hj]

omit [FloatOps F] in
/-- The windows the trip's two new gathers read, in closed form: row `t + 1`, halves 0 and 1. -/
theorem win2_eq2 (t : Fin k1_t2_loop.trips) (ht : t.val + 1 < 32) (inb : ∀ a, (k1_off15 t 2#32) a + S1x64.size a ≤ S32x128.size a)
    (hr : ∀ a, (Rect.unit (s := S32x128) (k1_off15 t 2#32) S1x64.size inb).stride a = 1) (sq : S1x64.Squeezes S64) :
    ((sb1V).slice (Rect.unit (s := S32x128) (k1_off15 t 2#32) S1x64.size inb) hr).squeeze S64 sq = win1 ⟨t.val + 1, ht⟩ 0 := by
  unfold win1
  congr 1
  exact Memref.slice_unit_congr _ ((k1_off15_eq_2 t).trans (by funext a; match a with | 0 => rfl | 1 => rfl)) _ _ _ _
omit [FloatOps F] in
theorem win2_eq3 (t : Fin k1_t2_loop.trips) (ht : t.val + 1 < 32) (inb : ∀ a, (k1_off15 t 3#32) a + S1x64.size a ≤ S32x128.size a)
    (hr : ∀ a, (Rect.unit (s := S32x128) (k1_off15 t 3#32) S1x64.size inb).stride a = 1) (sq : S1x64.Squeezes S64) :
    ((sb1V).slice (Rect.unit (s := S32x128) (k1_off15 t 3#32) S1x64.size inb) hr).squeeze S64 sq = win1 ⟨t.val + 1, ht⟩ 1 := by
  unfold win1
  congr 1
  exact Memref.slice_unit_congr _ ((k1_off15_eq_3 t).trans (by funext a; match a with | 0 => rfl | 1 => rfl)) _ _ _ _

/-! #### Section 2 (chunks 128 … 191; indices in staging buffer 0) -/

omit [FloatOps F] in
theorem k1_t3_trips : k1_t3_loop.trips = 31 := by decide +kernel

/-- The chunks of pair `t` of the section, as the program slices them. -/
abbrev oc30 (t : Fin k1_t3_loop.trips) : Memref sig .scVector .hbm S64x128 .f32 := (outV).slice (Rect.unit (s := S655360x128) (k1_off19 L t) S64x128.size (k1_off19_inb L t)) (fun _ => rfl)
abbrev oc31 (t : Fin k1_t3_loop.trips) : Memref sig .scVector .hbm S64x128 .f32 := (outV).slice (Rect.unit (s := S655360x128) (k1_off21 L t) S64x128.size (k1_off21_inb L t)) (fun _ => rfl)

omit [FloatOps F] in
theorem oc30_rect (t : Fin k1_t3_loop.trips) (hj : 128 + 2 * t.val < 320) :
    Rect.unit (s := S655360x128) (k1_off19 L t) S64x128.size (k1_off19_inb L t) = chunkRect (wid (cV L) (jV L)) ⟨128 + 2 * t.val, hj⟩ :=
  Rect.unit_congr ((k1_off19_eq L t).trans (by
    funext a
    match a with
    | 0 => show 32768 * (t.val / 8) + 16384 * (L 0).val + 1024 * (L 1).val + 128 * (t.val % 8) + 262144 = chunkRow (wid (cV L) (jV L)) ⟨128 + 2 * t.val, hj⟩
           unfold chunkRow wid; simp only [Fin.val_mk, Fin.coe_castLE]; omega
    | 1 => rfl)) _ _
omit [FloatOps F] in
theorem oc31_rect (t : Fin k1_t3_loop.trips) (hj : 128 + 2 * t.val + 1 < 320) :
    Rect.unit (s := S655360x128) (k1_off21 L t) S64x128.size (k1_off21_inb L t) = chunkRect (wid (cV L) (jV L)) ⟨128 + 2 * t.val + 1, hj⟩ :=
  Rect.unit_congr ((k1_off21_eq L t).trans (by
    funext a
    match a with
    | 0 => show 32768 * (t.val / 8) + 16384 * (L 0).val + 1024 * (L 1).val + 128 * (t.val % 8) + 262208 = chunkRow (wid (cV L) (jV L)) ⟨128 + 2 * t.val + 1, hj⟩
           unfold chunkRow wid; simp only [Fin.val_mk, Fin.coe_castLE]; omega
    | 1 => rfl)) _ _
omit [FloatOps F] in
theorem pts_oc30 (t : Fin k1_t3_loop.trips) (hj : 128 + 2 * t.val < 320) (q : PosShare TreeShare) (f : Buf (Elt F) (outLoc d)) :
    ((oc30 L t).view.loc (V d (cV L) (jV L)) ↦[(oc30 L t).view.set]{q} f : sProp 𝕄) = outLoc d ↦[chunkSet (wid (cV L) (jV L)) ⟨128 + 2 * t.val, hj⟩]{q} f := by
  show (_ ↦[((outV).view.slice (Rect.unit (s := S655360x128) (k1_off19 L t) S64x128.size (k1_off19_inb L t))).set]{q} f : sProp 𝕄) = _
  rw [oc30_rect L t hj]
omit [FloatOps F] in
theorem pts_oc31 (t : Fin k1_t3_loop.trips) (hj : 128 + 2 * t.val + 1 < 320) (q : PosShare TreeShare) (f : Buf (Elt F) (outLoc d)) :
    ((oc31 L t).view.loc (V d (cV L) (jV L)) ↦[(oc31 L t).view.set]{q} f : sProp 𝕄) = outLoc d ↦[chunkSet (wid (cV L) (jV L)) ⟨128 + 2 * t.val + 1, hj⟩]{q} f := by
  show (_ ↦[((outV).view.slice (Rect.unit (s := S655360x128) (k1_off21 L t) S64x128.size (k1_off21_inb L t))).set]{q} f : sProp 𝕄) = _
  rw [oc31_rect L t hj]

omit [FloatOps F] in
/-- The windows the trip's two new gathers read, in closed form: row `t + 1`, halves 0 and 1. -/
theorem win3_eq2 (t : Fin k1_t3_loop.trips) (ht : t.val + 1 < 32) (inb : ∀ a, (k1_off20 t 2#32) a + S1x64.size a ≤ S32x128.size a)
    (hr : ∀ a, (Rect.unit (s := S32x128) (k1_off20 t 2#32) S1x64.size inb).stride a = 1) (sq : S1x64.Squeezes S64) :
    ((sb0V).slice (Rect.unit (s := S32x128) (k1_off20 t 2#32) S1x64.size inb) hr).squeeze S64 sq = win0 ⟨t.val + 1, ht⟩ 0 := by
  unfold win0
  congr 1
  exact Memref.slice_unit_congr _ ((k1_off20_eq_2 t).trans (by funext a; match a with | 0 => rfl | 1 => rfl)) _ _ _ _
omit [FloatOps F] in
theorem win3_eq3 (t : Fin k1_t3_loop.trips) (ht : t.val + 1 < 32) (inb : ∀ a, (k1_off20 t 3#32) a + S1x64.size a ≤ S32x128.size a)
    (hr : ∀ a, (Rect.unit (s := S32x128) (k1_off20 t 3#32) S1x64.size inb).stride a = 1) (sq : S1x64.Squeezes S64) :
    ((sb0V).slice (Rect.unit (s := S32x128) (k1_off20 t 3#32) S1x64.size inb) hr).squeeze S64 sq = win0 ⟨t.val + 1, ht⟩ 1 := by
  unfold win0
  congr 1
  exact Memref.slice_unit_congr _ ((k1_off20_eq_3 t).trans (by funext a; match a with | 0 => rfl | 1 => rfl)) _ _ _ _

/-! #### Section 3 (chunks 192 … 255; indices in staging buffer 1) -/

omit [FloatOps F] in
theorem k1_t4_trips : k1_t4_loop.trips = 31 := by decide +kernel

/-- The chunks of pair `t` of the section, as the program slices them. -/
abbrev oc40 (t : Fin k1_t4_loop.trips) : Memref sig .scVector .hbm S64x128 .f32 := (outV).slice (Rect.unit (s := S655360x128) (k1_off24 L t) S64x128.size (k1_off24_inb L t)) (fun _ => rfl)
abbrev oc41 (t : Fin k1_t4_loop.trips) : Memref sig .scVector .hbm S64x128 .f32 := (outV).slice (Rect.unit (s := S655360x128) (k1_off26 L t) S64x128.size (k1_off26_inb L t)) (fun _ => rfl)

omit [FloatOps F] in
theorem oc40_rect (t : Fin k1_t4_loop.trips) (hj : 192 + 2 * t.val < 320) :
    Rect.unit (s := S655360x128) (k1_off24 L t) S64x128.size (k1_off24_inb L t) = chunkRect (wid (cV L) (jV L)) ⟨192 + 2 * t.val, hj⟩ :=
  Rect.unit_congr ((k1_off24_eq L t).trans (by
    funext a
    match a with
    | 0 => show 32768 * (t.val / 8) + 16384 * (L 0).val + 1024 * (L 1).val + 128 * (t.val % 8) + 393216 = chunkRow (wid (cV L) (jV L)) ⟨192 + 2 * t.val, hj⟩
           unfold chunkRow wid; simp only [Fin.val_mk, Fin.coe_castLE]; omega
    | 1 => rfl)) _ _
omit [FloatOps F] in
theorem oc41_rect (t : Fin k1_t4_loop.trips) (hj : 192 + 2 * t.val + 1 < 320) :
    Rect.unit (s := S655360x128) (k1_off26 L t) S64x128.size (k1_off26_inb L t) = chunkRect (wid (cV L) (jV L)) ⟨192 + 2 * t.val + 1, hj⟩ :=
  Rect.unit_congr ((k1_off26_eq L t).trans (by
    funext a
    match a with
    | 0 => show 32768 * (t.val / 8) + 16384 * (L 0).val + 1024 * (L 1).val + 128 * (t.val % 8) + 393280 = chunkRow (wid (cV L) (jV L)) ⟨192 + 2 * t.val + 1, hj⟩
           unfold chunkRow wid; simp only [Fin.val_mk, Fin.coe_castLE]; omega
    | 1 => rfl)) _ _
omit [FloatOps F] in
theorem pts_oc40 (t : Fin k1_t4_loop.trips) (hj : 192 + 2 * t.val < 320) (q : PosShare TreeShare) (f : Buf (Elt F) (outLoc d)) :
    ((oc40 L t).view.loc (V d (cV L) (jV L)) ↦[(oc40 L t).view.set]{q} f : sProp 𝕄) = outLoc d ↦[chunkSet (wid (cV L) (jV L)) ⟨192 + 2 * t.val, hj⟩]{q} f := by
  show (_ ↦[((outV).view.slice (Rect.unit (s := S655360x128) (k1_off24 L t) S64x128.size (k1_off24_inb L t))).set]{q} f : sProp 𝕄) = _
  rw [oc40_rect L t hj]
omit [FloatOps F] in
theorem pts_oc41 (t : Fin k1_t4_loop.trips) (hj : 192 + 2 * t.val + 1 < 320) (q : PosShare TreeShare) (f : Buf (Elt F) (outLoc d)) :
    ((oc41 L t).view.loc (V d (cV L) (jV L)) ↦[(oc41 L t).view.set]{q} f : sProp 𝕄) = outLoc d ↦[chunkSet (wid (cV L) (jV L)) ⟨192 + 2 * t.val + 1, hj⟩]{q} f := by
  show (_ ↦[((outV).view.slice (Rect.unit (s := S655360x128) (k1_off26 L t) S64x128.size (k1_off26_inb L t))).set]{q} f : sProp 𝕄) = _
  rw [oc41_rect L t hj]

omit [FloatOps F] in
/-- The windows the trip's two new gathers read, in closed form: row `t + 1`, halves 0 and 1. -/
theorem win4_eq2 (t : Fin k1_t4_loop.trips) (ht : t.val + 1 < 32) (inb : ∀ a, (k1_off25 t 2#32) a + S1x64.size a ≤ S32x128.size a)
    (hr : ∀ a, (Rect.unit (s := S32x128) (k1_off25 t 2#32) S1x64.size inb).stride a = 1) (sq : S1x64.Squeezes S64) :
    ((sb1V).slice (Rect.unit (s := S32x128) (k1_off25 t 2#32) S1x64.size inb) hr).squeeze S64 sq = win1 ⟨t.val + 1, ht⟩ 0 := by
  unfold win1
  congr 1
  exact Memref.slice_unit_congr _ ((k1_off25_eq_2 t).trans (by funext a; match a with | 0 => rfl | 1 => rfl)) _ _ _ _
omit [FloatOps F] in
theorem win4_eq3 (t : Fin k1_t4_loop.trips) (ht : t.val + 1 < 32) (inb : ∀ a, (k1_off25 t 3#32) a + S1x64.size a ≤ S32x128.size a)
    (hr : ∀ a, (Rect.unit (s := S32x128) (k1_off25 t 3#32) S1x64.size inb).stride a = 1) (sq : S1x64.Squeezes S64) :
    ((sb1V).slice (Rect.unit (s := S32x128) (k1_off25 t 3#32) S1x64.size inb) hr).squeeze S64 sq = win1 ⟨t.val + 1, ht⟩ 1 := by
  unfold win1
  congr 1
  exact Memref.slice_unit_congr _ ((k1_off25_eq_3 t).trans (by funext a; match a with | 0 => rfl | 1 => rfl)) _ _ _ _

/-! #### Section 4 (chunks 256 … 319; indices in staging buffer 0) -/

omit [FloatOps F] in
theorem k1_t5_trips : k1_t5_loop.trips = 31 := by decide +kernel

/-- The chunks of pair `t` of the section, as the program slices them. -/
abbrev oc50 (t : Fin k1_t5_loop.trips) : Memref sig .scVector .hbm S64x128 .f32 := (outV).slice (Rect.unit (s := S655360x128) (k1_off28 L t) S64x128.size (k1_off28_inb L t)) (fun _ => rfl)
abbrev oc51 (t : Fin k1_t5_loop.trips) : Memref sig .scVector .hbm S64x128 .f32 := (outV).slice (Rect.unit (s := S655360x128) (k1_off30 L t) S64x128.size (k1_off30_inb L t)) (fun _ => rfl)

omit [FloatOps F] in
theorem oc50_rect (t : Fin k1_t5_loop.trips) (hj : 256 + 2 * t.val < 320) :
    Rect.unit (s := S655360x128) (k1_off28 L t) S64x128.size (k1_off28_inb L t) = chunkRect (wid (cV L) (jV L)) ⟨256 + 2 * t.val, hj⟩ :=
  Rect.unit_congr ((k1_off28_eq L t).trans (by
    funext a
    match a with
    | 0 => show 32768 * (t.val / 8) + 16384 * (L 0).val + 1024 * (L 1).val + 128 * (t.val % 8) + 524288 = chunkRow (wid (cV L) (jV L)) ⟨256 + 2 * t.val, hj⟩
           unfold chunkRow wid; simp only [Fin.val_mk, Fin.coe_castLE]; omega
    | 1 => rfl)) _ _
omit [FloatOps F] in
theorem oc51_rect (t : Fin k1_t5_loop.trips) (hj : 256 + 2 * t.val + 1 < 320) :
    Rect.unit (s := S655360x128) (k1_off30 L t) S64x128.size (k1_off30_inb L t) = chunkRect (wid (cV L) (jV L)) ⟨256 + 2 * t.val + 1, hj⟩ :=
  Rect.unit_congr ((k1_off30_eq L t).trans (by
    funext a
    match a with
    | 0 => show 32768 * (t.val / 8) + 16384 * (L 0).val + 1024 * (L 1).val + 128 * (t.val % 8) + 524352 = chunkRow (wid (cV L) (jV L)) ⟨256 + 2 * t.val + 1, hj⟩
           unfold chunkRow wid; simp only [Fin.val_mk, Fin.coe_castLE]; omega
    | 1 => rfl)) _ _
omit [FloatOps F] in
theorem pts_oc50 (t : Fin k1_t5_loop.trips) (hj : 256 + 2 * t.val < 320) (q : PosShare TreeShare) (f : Buf (Elt F) (outLoc d)) :
    ((oc50 L t).view.loc (V d (cV L) (jV L)) ↦[(oc50 L t).view.set]{q} f : sProp 𝕄) = outLoc d ↦[chunkSet (wid (cV L) (jV L)) ⟨256 + 2 * t.val, hj⟩]{q} f := by
  show (_ ↦[((outV).view.slice (Rect.unit (s := S655360x128) (k1_off28 L t) S64x128.size (k1_off28_inb L t))).set]{q} f : sProp 𝕄) = _
  rw [oc50_rect L t hj]
omit [FloatOps F] in
theorem pts_oc51 (t : Fin k1_t5_loop.trips) (hj : 256 + 2 * t.val + 1 < 320) (q : PosShare TreeShare) (f : Buf (Elt F) (outLoc d)) :
    ((oc51 L t).view.loc (V d (cV L) (jV L)) ↦[(oc51 L t).view.set]{q} f : sProp 𝕄) = outLoc d ↦[chunkSet (wid (cV L) (jV L)) ⟨256 + 2 * t.val + 1, hj⟩]{q} f := by
  show (_ ↦[((outV).view.slice (Rect.unit (s := S655360x128) (k1_off30 L t) S64x128.size (k1_off30_inb L t))).set]{q} f : sProp 𝕄) = _
  rw [oc51_rect L t hj]

omit [FloatOps F] in
/-- The windows the trip's two new gathers read, in closed form: row `t + 1`, halves 0 and 1. -/
theorem win5_eq2 (t : Fin k1_t5_loop.trips) (ht : t.val + 1 < 32) (inb : ∀ a, (k1_off29 t 2#32) a + S1x64.size a ≤ S32x128.size a)
    (hr : ∀ a, (Rect.unit (s := S32x128) (k1_off29 t 2#32) S1x64.size inb).stride a = 1) (sq : S1x64.Squeezes S64) :
    ((sb0V).slice (Rect.unit (s := S32x128) (k1_off29 t 2#32) S1x64.size inb) hr).squeeze S64 sq = win0 ⟨t.val + 1, ht⟩ 0 := by
  unfold win0
  congr 1
  exact Memref.slice_unit_congr _ ((k1_off29_eq_2 t).trans (by funext a; match a with | 0 => rfl | 1 => rfl)) _ _ _ _
omit [FloatOps F] in
theorem win5_eq3 (t : Fin k1_t5_loop.trips) (ht : t.val + 1 < 32) (inb : ∀ a, (k1_off29 t 3#32) a + S1x64.size a ≤ S32x128.size a)
    (hr : ∀ a, (Rect.unit (s := S32x128) (k1_off29 t 3#32) S1x64.size inb).stride a = 1) (sq : S1x64.Squeezes S64) :
    ((sb0V).slice (Rect.unit (s := S32x128) (k1_off29 t 3#32) S1x64.size inb) hr).squeeze S64 sq = win0 ⟨t.val + 1, ht⟩ 1 := by
  unfold win0
  congr 1
  exact Memref.slice_unit_congr _ ((k1_off29_eq_3 t).trans (by funext a; match a with | 0 => rfl | 1 => rfl)) _ _ _ _

end Tile

end Cert.Kernel.KProof

end
-- ==== Proof.Bits.KChunkVal.lean ====
/-
  The values the section loops of a vector subcore move, as pure facts about the arrays.

  * Write-back: a row buffer that holds chunk `j` of the kernel's result, copied whole into the chunk's slice of the output,
    leaves the result on the chunk's elements.
  * Gather: output row `R = (j/16)·32768 + w·1024 + (j%16)·64 + e` (row `e` of worker `w`'s chunk `j`) reads index
    `f = (R/32768)·1024 + R%1024 = 64 j + e` of the worker's lists, that is entry `64 (j%2) + e` of row `j/2`; a staging buffer
    holds rows `32 s …` of the lists, so the window row `r`, half `h` of it names the rows of chunk `64 s + 2 r + h`, and the
    gather over those rows of the shared table is that chunk.
  * The staged index rows: section `s`'s staging copy carries rows `32 s … 32 s + 31` of the worker's lists.
-/
import proofs.«204824_g46875273068696_cont_8to1_c_371_32_alg».proof.Proof.Bits.KLoop
import Idealize.ShloMosaic.Lib.ValueLayout

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

open Idealize.ShloMosaic.ValueIdx

local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-! ## Write-back: a row buffer holding a chunk, copied whole into the chunk's slice of the output -/

/-- The chunk's slice of the output, as a memref. -/
abbrev ocC (w : Fin 32) (j : Fin 320) : Memref sig .scVector .hbm S64x128 .f32 := (outV).slice (chunkRect w j) (fun _ => rfl)

/-- A block that is chunk `j`, written whole through the chunk's slice, leaves the kernel's result on the chunk. -/
theorem chunk_written_of_payload (w : Fin 32) (j : Fin 320) (g : S64x128.Idx → Elt F .f32) (hg : isChunk OUT d w j g)
    (fc : Buf (Elt F) (outLoc d)) (p : S64x128.Idx → Elt F .f32) (hp : ∀ y, p y = g y) :
    ∀ x ∈ chunkSet w j, (ocC w j).view.writes (Elt F) fc [⟨Rect.whole S64x128, p⟩] x = OUT d x := by
  intro x hx
  obtain ⟨y, -, rfl⟩ := Finset.mem_map.mp hx
  have h1 := View.read_writes_cons_emb (ocC w j).view fc (Rect.whole S64x128) p [] y
  rw [Rect.emb_whole_apply, View.read_apply] at h1
  refine (cast_eq _ _).symm.trans (h1.trans ?_)
  rw [hp y]
  exact hg y

/-- The same, the block read off any buffer that holds it. -/
theorem chunk_written_of_read {sp : Space} (bv : View sig .scVector sp S64x128 .f32) (B : bv.ty.Contents (Elt F))
    (w : Fin 32) (j : Fin 320) (g : S64x128.Idx → Elt F .f32) (hg : isChunk OUT d w j g) (hB : ∀ y, View.read (Elt F) bv B y = g y)
    (fc : Buf (Elt F) (outLoc d)) :
    ∀ x ∈ chunkSet w j, (ocC w j).view.writes (Elt F) fc [⟨Rect.whole S64x128, ReadAs.same.apply (View.read (Elt F) bv B)⟩] x = OUT d x :=
  chunk_written_of_payload OUT d w j g hg fc _ hB

/-- A view written whole with a block reads the block. -/
theorem read_written_whole {sp : Space} {s : Shape} {e : EltTy} (bv : View sig .scVector sp s e) (fb : bv.ty.Contents (Elt F)) (g : s.Idx → Elt F e) (y : s.Idx) :
    View.read (Elt F) bv (bv.writes (Elt F) fb [⟨Rect.whole s, g⟩]) y = g y := by
  have h1 := View.read_writes_cons_emb bv fb (Rect.whole s) g [] y
  rwa [Rect.emb_whole_apply] at h1

theorem chunk_written0 (w : Fin 32) (j : Fin 320) (g : S64x128.Idx → Elt F .f32) (hg : isChunk OUT d w j g)
    (fc : Buf (Elt F) (outLoc d)) (fb : Buf (Elt F) ((buf0V).view.loc (V d (cV L) (jV L)))) :
    ∀ x ∈ chunkSet w j, (ocC w j).view.writes (Elt F) fc [⟨Rect.whole S64x128, ReadAs.same.apply (View.read (Elt F) (buf0V).view ((buf0V).view.writes (Elt F) fb [⟨Rect.whole _, g⟩]))⟩] x = OUT d x :=
  chunk_written_of_read OUT d (buf0V).view _ w j g hg (fun y => read_written_whole (buf0V).view fb g y) fc
theorem chunk_written1 (w : Fin 32) (j : Fin 320) (g : S64x128.Idx → Elt F .f32) (hg : isChunk OUT d w j g)
    (fc : Buf (Elt F) (outLoc d)) (fb : Buf (Elt F) ((buf1V).view.loc (V d (cV L) (jV L)))) :
    ∀ x ∈ chunkSet w j, (ocC w j).view.writes (Elt F) fc [⟨Rect.whole S64x128, ReadAs.same.apply (View.read (Elt F) (buf1V).view ((buf1V).view.writes (Elt F) fb [⟨Rect.whole _, g⟩]))⟩] x = OUT d x :=
  chunk_written_of_read OUT d (buf1V).view _ w j g hg (fun y => read_written_whole (buf1V).view fb g y) fc

/-! ## The staged index rows -/

/-- Section `s`'s window of the index lists — 32 rows of worker `w`'s 160 from row `32 s` on, the leading unit axis
    dropped — reads row `x 0`, lane `x 1` off row `32 s + x 0` of the worker's lists. -/
theorem secIdx_gen (s : ℕ) (hs : s < 5) (off : Fin 3 → ℕ) (inb : ∀ a, off a + S1x32x128.size a ≤ S32x160x128.size a)
    (hr : ∀ a, (Rect.unit (s := S32x160x128) off S1x32x128.size inb).stride a = 1) (sq : S1x32x128.Squeezes S32x128)
    (hoff : off = ![16 * (L 0).val + (L 1).val, 32 * s, 0]) (x : S32x128.Idx) :
    ReadAs.same.apply (View.read (Elt F) (((idxV).slice (Rect.unit (s := S32x160x128) off S1x32x128.size inb) hr).squeeze S32x128 sq).view (IDX d)) x
      = IDX d (ix3 (wid (cV L) (jV L)) ⟨32 * s + (x 0).val, by have := idx2_lt0 x; omega⟩ ⟨(x 1).val, idx2_lt1 x⟩) := by
  subst hoff
  show View.read (Elt F) (((idxV).view.slice (Rect.unit (s := S32x160x128) _ S1x32x128.size inb)).reshape S32x128 sq.numel_eq) (IDX d) x = _
  rw [View.read_apply, cast_eq]
  refine congrArg (IDX d) ?_
  show (Rect.unit (s := S32x160x128) _ S1x32x128.size inb).emb (Shape.reshapeEquiv sq.numel_eq x) = _
  have hx : Shape.reshapeEquiv sq.numel_eq x = ix3 (⟨0, Nat.one_pos⟩ : Fin 1) (x 0) (x 1) :=
    (congrArg (Shape.reshapeEquiv sq.numel_eq) (eq_ix2 (n0 := 32) (n1 := 128) x)).trans (reshapeEquiv_ix2_1ab sq.numel_eq (x 0) (x 1))
  rw [hx]
  funext a
  apply Fin.ext
  match a with
  | ⟨0, _⟩ => show 16 * (L 0).val + (L 1).val + 1 * 0 = 16 * (L 0).val + (L 1).val; omega
  | ⟨1, _⟩ => show 32 * s + 1 * (x 0).val = 32 * s + (x 0).val; omega
  | ⟨2, _⟩ => show 0 + 1 * (x 1).val = (x 1).val; omega

/-- The five sections' staging copies carry the worker's index rows `32 s …`. -/
theorem secIdx0 (x : S32x128.Idx) :
    ReadAs.same.apply (View.read (Elt F) (((idxV).slice (Rect.unit (s := S32x160x128) (k1_off5 L) S1x32x128.size (k1_off5_inb L)) (fun _ => rfl)).squeeze S32x128 squeezes_S1x32x128_S32x128).view (IDX d)) x
      = IDX d (ix3 (wid (cV L) (jV L)) ⟨32 * 0 + (x 0).val, by have := idx2_lt0 x; omega⟩ ⟨(x 1).val, idx2_lt1 x⟩) :=
  secIdx_gen IDX d L 0 (by decide) _ _ _ _ (k1_off5_eq L) x
theorem secIdx1 (x : S32x128.Idx) :
    ReadAs.same.apply (View.read (Elt F) (((idxV).slice (Rect.unit (s := S32x160x128) (k1_off6 L) S1x32x128.size (k1_off6_inb L)) (fun _ => rfl)).squeeze S32x128 squeezes_S1x32x128_S32x128).view (IDX d)) x
      = IDX d (ix3 (wid (cV L) (jV L)) ⟨32 * 1 + (x 0).val, by have := idx2_lt0 x; omega⟩ ⟨(x 1).val, idx2_lt1 x⟩) :=
  secIdx_gen IDX d L 1 (by decide) _ _ _ _ (k1_off6_eq L) x
theorem secIdx2 (x : S32x128.Idx) :
    ReadAs.same.apply (View.read (Elt F) (((idxV).slice (Rect.unit (s := S32x160x128) (k1_off12 L) S1x32x128.size (k1_off12_inb L)) (fun _ => rfl)).squeeze S32x128 squeezes_S1x32x128_S32x128).view (IDX d)) x
      = IDX d (ix3 (wid (cV L) (jV L)) ⟨32 * 2 + (x 0).val, by have := idx2_lt0 x; omega⟩ ⟨(x 1).val, idx2_lt1 x⟩) :=
  secIdx_gen IDX d L 2 (by decide) _ _ _ _ (k1_off12_eq L) x
theorem secIdx3 (x : S32x128.Idx) :
    ReadAs.same.apply (View.read (Elt F) (((idxV).slice (Rect.unit (s := S32x160x128) (k1_off17 L) S1x32x128.size (k1_off17_inb L)) (fun _ => rfl)).squeeze S32x128 squeezes_S1x32x128_S32x128).view (IDX d)) x
      = IDX d (ix3 (wid (cV L) (jV L)) ⟨32 * 3 + (x 0).val, by have := idx2_lt0 x; omega⟩ ⟨(x 1).val, idx2_lt1 x⟩) :=
  secIdx_gen IDX d L 3 (by decide) _ _ _ _ (k1_off17_eq L) x
theorem secIdx4 (x : S32x128.Idx) :
    ReadAs.same.apply (View.read (Elt F) (((idxV).slice (Rect.unit (s := S32x160x128) (k1_off22 L) S1x32x128.size (k1_off22_inb L)) (fun _ => rfl)).squeeze S32x128 squeezes_S1x32x128_S32x128).view (IDX d)) x
      = IDX d (ix3 (wid (cV L) (jV L)) ⟨32 * 4 + (x 0).val, by have := idx2_lt0 x; omega⟩ ⟨(x 1).val, idx2_lt1 x⟩) :=
  secIdx_gen IDX d L 4 (by decide) _ _ _ _ (k1_off22_eq L) x

/-- A staging buffer written whole holds what was written. -/
theorem sb0_written (f : (sb0V).view.ty.Contents (Elt F)) (pay : S32x128.Idx → Elt F .i32) :
    View.write (Elt F) (sb0V).view f pay Finset.univ = pay :=
  View.write_whole_univ (cc1_scratch0 : Ref sig .scVector) f pay
theorem sb1_written (f : (sb1V).view.ty.Contents (Elt F)) (pay : S32x128.Idx → Elt F .i32) :
    View.write (Elt F) (sb1V).view f pay Finset.univ = pay :=
  View.write_whole_univ (cc1_scratch1 : Ref sig .scVector) f pay

/-! ## The gathers -/

/-- The row of the worker's index lists chunk `j` reads (two chunks per row), and the lane of it row `y 0` of the chunk reads. -/
abbrev idxRowOf (j : Fin 320) : Fin 160 := ⟨j.val / 2, by have := j.isLt; omega⟩
abbrev idxLaneOf (j : Fin 320) (y : S64x128.Idx) : Fin 128 := ⟨64 * (j.val % 2) + (y 0).val, by have := idx2_lt0 y; omega⟩

omit [FloatOps F] in
theorem emb_chunk_row (w : Fin 32) (j : Fin 320) (y : S64x128.Idx) : ((((outV).view.slice (chunkRect w j)).emb y) 0).val = chunkRow w j + (y 0).val := by
  show chunkRow w j + 1 * (y 0).val = _; omega
omit [FloatOps F] in
theorem emb_chunk_col (w : Fin 32) (j : Fin 320) (y : S64x128.Idx) : ((((outV).view.slice (chunkRect w j)).emb y) 1).val = (y 1).val := by
  show 0 + 1 * (y 1).val = _; omega

/-- The kernel's result at row `e` of chunk `j` of worker `w`: output row `R = (j/16)·32768 + w·1024 + (j%16)·64 + e` reads
    index `f = (R/32768)·1024 + R%1024 = 64 j + e`, that is entry `64 (j%2) + e` of row `j/2` of the worker's lists, and is
    that row of the worker's SparseCore's shared table. -/
theorem scOut_chunk (tab : FVec F S20480x128 .f32) (idx : IVec S32x160x128 32) (w : Fin 32) (j : Fin 320) (y : S64x128.Idx)
    (hlt : (idx (ix3 w (idxRowOf j) (idxLaneOf j y))).toNat < 12288) :
    KFun.scOut tab idx (((outV).view.slice (chunkRect w j)).emb y)
      = KFun.shTab tab ⟨w.val / 16, by have := w.isLt; omega⟩ (ix2 ⟨(idx (ix3 w (idxRowOf j) (idxLaneOf j y))).toNat, hlt⟩ ⟨(y 1).val, idx2_lt1 y⟩) := by
  have e0 := emb_chunk_row w j y
  have e1 := emb_chunk_col w j y
  have hy : (y 0).val < 64 := idx2_lt0 y
  have hw := w.isLt; have hj := j.isLt
  have a1 : ((((outV).view.slice (chunkRect w j)).emb y) 0).val % 32768 / 1024 = w.val := by rw [e0]; unfold chunkRow; omega
  have a2 : (((((outV).view.slice (chunkRect w j)).emb y) 0).val / 32768 * 1024 + ((((outV).view.slice (chunkRect w j)).emb y) 0).val % 1024) / 128 = j.val / 2 := by
    rw [e0]; unfold chunkRow; omega
  have a3 : (((((outV).view.slice (chunkRect w j)).emb y) 0).val / 32768 * 1024 + ((((outV).view.slice (chunkRect w j)).emb y) 0).val % 1024) % 128 = 64 * (j.val % 2) + (y 0).val := by
    rw [e0]; unfold chunkRow; omega
  unfold KFun.scOut
  refine congrArg₂ (KFun.shTab tab) (Fin.ext ?_) (congrArg₂ (ix2 (n0 := 12288) (n1 := 128)) (Fin.ext ?_) (Fin.ext ?_))
  · show ((((outV).view.slice (chunkRect w j)).emb y) 0).val % 32768 / 1024 / 16 = w.val / 16
    rw [a1]
  · show (idx (ix3 _ _ _)).toNat % 12288 = (idx (ix3 w (idxRowOf j) (idxLaneOf j y))).toNat
    have hI : ∀ (A : Fin 32) (B : Fin 160) (C : Fin 128), A.val = w.val → B.val = j.val / 2 → C.val = 64 * (j.val % 2) + (y 0).val →
        (idx (ix3 A B C)).toNat % 12288 = (idx (ix3 w (idxRowOf j) (idxLaneOf j y))).toNat := by
      intro A B C hA hB hC
      obtain rfl : A = w := Fin.ext hA
      obtain rfl : B = idxRowOf j := Fin.ext hB
      obtain rfl : C = idxLaneOf j y := Fin.ext hC
      exact Nat.mod_eq_of_lt hlt
    exact hI _ _ _ a1 a2 a3
  · exact e1

/-- A gather whose row list names, for row `k` of the block, the row of the shared table that entry `64 (j%2) + k` of row `j/2`
    of the worker's index lists holds, delivers chunk `j`. -/
theorem gathered_of_rows (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288) (j : Fin 320)
    (ρ : Fin (S64x128.size (gathers_S12288x128_S64x128).axis') → Fin (S12288x128.size (gathers_S12288x128_S64x128).axis))
    (hρ : ∀ y : S64x128.Idx, (ρ (y (gathers_S12288x128_S64x128).axis')).val = (IDX d (ix3 (wid (cV L) (jV L)) (idxRowOf j) (idxLaneOf j y)) : BitVec 32).toNat) :
    isChunk OUT d (wid (cV L) (jV L)) j (SparseCore.gatherPayload gathers_S12288x128_S64x128 (View.read (Elt F) (shW).view (SH d (cV L))) ρ) := by
  intro y
  have hlt := hIDX d (ix3 (wid (cV L) (jV L)) (idxRowOf j) (idxLaneOf j y))
  rw [hOUT, scOut_chunk (TAB d) (IDX d) (wid (cV L) (jV L)) j y hlt]
  show View.read (Elt F) (shW).view (SH d (cV L)) ((gathers_S12288x128_S64x128).idx ρ y) = _
  rw [View.read_apply, cast_eq, hSH]
  refine congrArg₂ (KFun.shTab (TAB d)) (Fin.ext ?_) (funext fun a => Fin.ext ?_)
  · show (L 0).val = (16 * (L 0).val + (L 1).val) / 16
    have := (L 1).isLt
    have h16 : (L 1).val < 16 := this
    omega
  · match a with
    | ⟨0, _⟩ =>
      show 0 + 1 * ((gathers_S12288x128_S64x128).idx ρ y (gathers_S12288x128_S64x128).axis).val = _
      rw [Shape.Gathers.idx_axis, hρ y, Nat.zero_add, Nat.one_mul]
    | ⟨1, _⟩ =>
      show 0 + 1 * ((gathers_S12288x128_S64x128).idx ρ y ⟨1, by decide⟩).val = (y 1).val
      rw [Shape.Gathers.idx_of_ne (gathers_S12288x128_S64x128) ρ y ⟨1, by decide⟩ (by decide), Nat.zero_add, Nat.one_mul]
      rfl

/-- A 64-entry window of a 32 × 128 buffer — row `r`, half `h`, the unit axis dropped — reads entry `x` off lane `64 h + x` of row `r`. -/
theorem read_win {κ : Kind} {sp : Space} (bv : View sig κ sp S32x128 .i32) (C : bv.ty.Contents (Elt F)) (r : Fin 32) (h : Fin 2) (x : S64.Idx) :
    View.read (Elt F) ((bv.slice (Rect.unit (s := S32x128) ![r.val, 64 * h.val] S1x64.size (win_inb r h))).reshape S64 squeezes_S1x64_S64.numel_eq) C x
      = View.read (Elt F) bv C (ix2 r ⟨64 * h.val + (x 0).val, by have := h.isLt; have hx : (x 0).val < 64 := (x 0).isLt; omega⟩) := by
  have hx : (Rect.unit (s := S32x128) ![r.val, 64 * h.val] S1x64.size (win_inb r h)).emb (Shape.reshapeEquiv squeezes_S1x64_S64.numel_eq x)
      = ix2 r ⟨64 * h.val + (x 0).val, by have := h.isLt; have hx : (x 0).val < 64 := (x 0).isLt; omega⟩ := by
    rw [Shape.reshapeEquiv_cons_one]
    funext a
    apply Fin.ext
    match a with
    | ⟨0, _⟩ => show r.val + 1 * 0 = r.val; omega
    | ⟨1, _⟩ => show 64 * h.val + 1 * (x 0).val = 64 * h.val + (x 0).val; omega
  show View.read (Elt F) bv C ((Rect.unit (s := S32x128) ![r.val, 64 * h.val] S1x64.size (win_inb r h)).emb (Shape.reshapeEquiv squeezes_S1x64_S64.numel_eq x)) = _
  rw [hx]

omit [FloatOps F] in
/-- Entry `k` of a one-axis shape in row-major order is index `k`. -/
theorem rowMajor_symm_val {n : ℕ} (k : Fin (⟨1, ![n]⟩ : Shape).numel) : (((⟨1, ![n]⟩ : Shape).rowMajor.symm k) 0).val = k.val :=
  (Shape.rowMajor_val_one _).symm.trans (congrArg Fin.val (Equiv.apply_symm_apply _ k))

/-- The rows the window `(r, h)` of staging buffer 0 names, the buffer holding section `s` of the worker's index lists. -/
theorem rows_win0_val {o z : ℕ} (s : Fin 5) (r : Fin 32) (h : Fin 2) (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = o) (hin : ∀ x : S64.Idx, (View.read (Elt F) (win0 r h).view C x : BitVec 32).toNat < z) (k : Fin o) (hk : k.val < 64) :
    (SparseCore.rows (F := F) (View.read (Elt F) (win0 r h).view C) hn hin k).val
      = (IDX d (ix3 (wid (cV L) (jV L)) ⟨32 * s.val + r.val, by have := s.isLt; have := r.isLt; omega⟩ ⟨64 * h.val + k.val, by have := h.isLt; omega⟩) : BitVec 32).toNat := by
  show (View.read (Elt F) (win0 r h).view C (S64.rowMajor.symm (k.cast hn.symm)) : BitVec 32).toNat = _
  have e := read_win (F := F) (sb0V).view C r h (S64.rowMajor.symm (k.cast hn.symm))
  have e' : View.read (Elt F) (win0 r h).view C (S64.rowMajor.symm (k.cast hn.symm))
      = C (ix2 r ⟨64 * h.val + ((S64.rowMajor.symm (k.cast hn.symm)) 0).val, by
          have := h.isLt; have hx : ((S64.rowMajor.symm (k.cast hn.symm)) 0).val < 64 := ((S64.rowMajor.symm (k.cast hn.symm)) 0).isLt; omega⟩) := e
  rw [e', hC]
  have hv : ((S64.rowMajor.symm (k.cast hn.symm)) 0).val = k.val := rowMajor_symm_val (n := 64) (k.cast hn.symm)
  congr 3
  exact Fin.ext (by show 64 * h.val + ((S64.rowMajor.symm (k.cast hn.symm)) 0).val = 64 * h.val + k.val; rw [hv])
/-- The rows the window `(r, h)` of staging buffer 1 names, the buffer holding section `s` of the worker's index lists. -/
theorem rows_win1_val {o z : ℕ} (s : Fin 5) (r : Fin 32) (h : Fin 2) (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = o) (hin : ∀ x : S64.Idx, (View.read (Elt F) (win1 r h).view C x : BitVec 32).toNat < z) (k : Fin o) (hk : k.val < 64) :
    (SparseCore.rows (F := F) (View.read (Elt F) (win1 r h).view C) hn hin k).val
      = (IDX d (ix3 (wid (cV L) (jV L)) ⟨32 * s.val + r.val, by have := s.isLt; have := r.isLt; omega⟩ ⟨64 * h.val + k.val, by have := h.isLt; omega⟩) : BitVec 32).toNat := by
  show (View.read (Elt F) (win1 r h).view C (S64.rowMajor.symm (k.cast hn.symm)) : BitVec 32).toNat = _
  have e := read_win (F := F) (sb1V).view C r h (S64.rowMajor.symm (k.cast hn.symm))
  have e' : View.read (Elt F) (win1 r h).view C (S64.rowMajor.symm (k.cast hn.symm))
      = C (ix2 r ⟨64 * h.val + ((S64.rowMajor.symm (k.cast hn.symm)) 0).val, by
          have := h.isLt; have hx : ((S64.rowMajor.symm (k.cast hn.symm)) 0).val < 64 := ((S64.rowMajor.symm (k.cast hn.symm)) 0).isLt; omega⟩) := e
  rw [e', hC]
  have hv : ((S64.rowMajor.symm (k.cast hn.symm)) 0).val = k.val := rowMajor_symm_val (n := 64) (k.cast hn.symm)
  congr 3
  exact Fin.ext (by show 64 * h.val + ((S64.rowMajor.symm (k.cast hn.symm)) 0).val = 64 * h.val + k.val; rw [hv])

/-- The gather of window `(r, h)` of staging buffer 0, the buffer holding section `s` of the worker's index lists, delivers
    chunk `64 s + 2 r + h`. -/
theorem gathered0 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2) (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = 64)
    (hin : ∀ x : S64.Idx, (View.read (Elt F) (win0 r h).view C x : BitVec 32).toNat < S12288x128.size (gathers_S12288x128_S64x128).axis) :
    isChunk OUT d (wid (cV L) (jV L)) ⟨64 * s.val + 2 * r.val + h.val, by have := s.isLt; have := r.isLt; have := h.isLt; omega⟩
      (SparseCore.gatherPayload gathers_S12288x128_S64x128 (View.read (Elt F) (shW).view (SH d (cV L)))
        (SparseCore.rows (F := F) (View.read (Elt F) (win0 r h).view C) hn hin)) := by
  refine gathered_of_rows TAB IDX OUT SH d L hSH hOUT hIDX _ _ fun y => ?_
  have hy : (y (gathers_S12288x128_S64x128).axis').val < 64 := (y (gathers_S12288x128_S64x128).axis').isLt
  refine (rows_win0_val (o := 64) IDX d L s r h C hC hn hin (y (gathers_S12288x128_S64x128).axis') hy).trans ?_
  have hs := s.isLt; have hr := r.isLt; have hh := h.isLt
  congr 3
  · exact Fin.ext (by show 32 * s.val + r.val = (64 * s.val + 2 * r.val + h.val) / 2; omega)
  · exact Fin.ext (by show 64 * h.val + (y (gathers_S12288x128_S64x128).axis').val = 64 * ((64 * s.val + 2 * r.val + h.val) % 2) + (y 0).val
                      have : (y (gathers_S12288x128_S64x128).axis').val = (y 0).val := rfl
                      omega)

/-- The gather of window `(r, h)` of staging buffer 1, the buffer holding section `s` of the worker's index lists, delivers
    chunk `64 s + 2 r + h`. -/
theorem gathered1 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2) (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = 64)
    (hin : ∀ x : S64.Idx, (View.read (Elt F) (win1 r h).view C x : BitVec 32).toNat < S12288x128.size (gathers_S12288x128_S64x128).axis) :
    isChunk OUT d (wid (cV L) (jV L)) ⟨64 * s.val + 2 * r.val + h.val, by have := s.isLt; have := r.isLt; have := h.isLt; omega⟩
      (SparseCore.gatherPayload gathers_S12288x128_S64x128 (View.read (Elt F) (shW).view (SH d (cV L)))
        (SparseCore.rows (F := F) (View.read (Elt F) (win1 r h).view C) hn hin)) := by
  refine gathered_of_rows TAB IDX OUT SH d L hSH hOUT hIDX _ _ fun y => ?_
  have hy : (y (gathers_S12288x128_S64x128).axis').val < 64 := (y (gathers_S12288x128_S64x128).axis').isLt
  refine (rows_win1_val (o := 64) IDX d L s r h C hC hn hin (y (gathers_S12288x128_S64x128).axis') hy).trans ?_
  have hs := s.isLt; have hr := r.isLt; have hh := h.isLt
  congr 3
  · exact Fin.ext (by show 32 * s.val + r.val = (64 * s.val + 2 * r.val + h.val) / 2; omega)
  · exact Fin.ext (by show 64 * h.val + (y (gathers_S12288x128_S64x128).axis').val = 64 * ((64 * s.val + 2 * r.val + h.val) % 2) + (y 0).val
                      have : (y (gathers_S12288x128_S64x128).axis').val = (y 0).val := rfl
                      omega)

end Tile

end Cert.Kernel.KProof

end
-- ==== Proof.Bits.KChunkVal2.lean ====
/-
  The gathers and the write-back of the section loops once more, stated for a window and a chunk slice given by ANY offsets
  equal to the window's (row `r`, lane `64 h` of a staging buffer) or to the chunk's (row `chunkRow w j` of the output), and
  with the gathered block read back off the row buffer it was written to whole: the block a row buffer reads after the
  gather of window `(r, h)` of section `s` is chunk `64 s + 2 r + h`, and a row buffer that reads chunk `j`, copied whole
  into the chunk's slice of the output, leaves the kernel's result there.
-/
import proofs.«204824_g46875273068696_cont_8to1_c_371_32_alg».proof.Proof.Bits.KChunkVal

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

open Idealize.ShloMosaic.ValueIdx

local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- The gather of a window of staging buffer 0 given by any offsets equal to row `r`, lane `64 h`. -/
theorem gathered_off0 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (hj : 64 * s.val + 2 * r.val + h.val < 320) :
    isChunk OUT d (wid (cV L) (jV L)) ⟨64 * s.val + 2 * r.val + h.val, hj⟩
      (SparseCore.gatherPayload gathers_S12288x128_S64x128 (View.read (Elt F) (shW).view (SH d (cV L)))
        (SparseCore.rows (F := F) (View.read (Elt F) (((sb0V).slice (Rect.unit (s := S32x128) off S1x64.size inb) hr).squeeze S64 sq).view C) hn hin)) := by
  subst hoff
  exact gathered0 TAB IDX OUT SH d L hSH hOUT hIDX s r h C hC hn hin

/-- The gather of a window of staging buffer 1 given by any offsets equal to row `r`, lane `64 h`. -/
theorem gathered_off1 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (hj : 64 * s.val + 2 * r.val + h.val < 320) :
    isChunk OUT d (wid (cV L) (jV L)) ⟨64 * s.val + 2 * r.val + h.val, hj⟩
      (SparseCore.gatherPayload gathers_S12288x128_S64x128 (View.read (Elt F) (shW).view (SH d (cV L)))
        (SparseCore.rows (F := F) (View.read (Elt F) (((sb1V).slice (Rect.unit (s := S32x128) off S1x64.size inb) hr).squeeze S64 sq).view C) hn hin)) := by
  subst hoff
  exact gathered1 TAB IDX OUT SH d L hSH hOUT hIDX s r h C hC hn hin

/-- The row buffer 0, written whole with the gather of a window of staging buffer 0, reads chunk `64 s + 2 r + h`. -/
theorem gathered_read00 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (B : Buf (Elt F) ((buf0V).view.loc (V d (cV L) (jV L)))) (j : ℕ) (hjeq : j = 64 * s.val + 2 * r.val + h.val) :
    isChunkN OUT d (wid (cV L) (jV L)) j
      (View.read (Elt F) (buf0V).view ((buf0V).view.writes (Elt F) B [⟨Rect.whole _,
        SparseCore.gatherPayload gathers_S12288x128_S64x128 (View.read (Elt F) (shW).view (SH d (cV L)))
          (SparseCore.rows (F := F) (View.read (Elt F) (((sb0V).slice (Rect.unit (s := S32x128) off S1x64.size inb) hr).squeeze S64 sq).view C) hn hin)⟩])) := by
  subst hjeq
  intro hj y
  refine (read_written_whole (F := F) (buf0V).view B _ y).trans ?_
  exact gathered_off0 TAB IDX OUT SH d L hSH hOUT hIDX s r h off inb hr sq hoff C hC hn hin hj y

/-- The row buffer 1, written whole with the gather of a window of staging buffer 0, reads chunk `64 s + 2 r + h`. -/
theorem gathered_read10 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb0V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb0V).slice (Rect.unit (s := S32x128) off S1x64.size inb) hr).squeeze S64 sq).view C x : BitVec 32).toNat
      < S12288x128.size (gathers_S12288x128_S64x128).axis)
    (B : Buf (Elt F) ((buf1V).view.loc (V d (cV L) (jV L)))) (j : ℕ) (hjeq : j = 64 * s.val + 2 * r.val + h.val) :
    isChunkN OUT d (wid (cV L) (jV L)) j
      (View.read (Elt F) (buf1V).view ((buf1V).view.writes (Elt F) B [⟨Rect.whole _,
        SparseCore.gatherPayload gathers_S12288x128_S64x128 (View.read (Elt F) (shW).view (SH d (cV L)))
          (SparseCore.rows (F := F) (View.read (Elt F) (((sb0V).slice (Rect.unit (s := S32x128) off S1x64.size inb) hr).squeeze S64 sq).view C) hn hin)⟩])) := by
  subst hjeq
  intro hj y
  refine (read_written_whole (F := F) (buf1V).view B _ y).trans ?_
  exact gathered_off0 TAB IDX OUT SH d L hSH hOUT hIDX s r h off inb hr sq hoff C hC hn hin hj y

/-- The row buffer 0, written whole with the gather of a window of staging buffer 1, reads chunk `64 s + 2 r + h`. -/
theorem gathered_read01 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (B : Buf (Elt F) ((buf0V).view.loc (V d (cV L) (jV L)))) (j : ℕ) (hjeq : j = 64 * s.val + 2 * r.val + h.val) :
    isChunkN OUT d (wid (cV L) (jV L)) j
      (View.read (Elt F) (buf0V).view ((buf0V).view.writes (Elt F) B [⟨Rect.whole _,
        SparseCore.gatherPayload gathers_S12288x128_S64x128 (View.read (Elt F) (shW).view (SH d (cV L)))
          (SparseCore.rows (F := F) (View.read (Elt F) (((sb1V).slice (Rect.unit (s := S32x128) off S1x64.size inb) hr).squeeze S64 sq).view C) hn hin)⟩])) := by
  subst hjeq
  intro hj y
  refine (read_written_whole (F := F) (buf0V).view B _ y).trans ?_
  exact gathered_off1 TAB IDX OUT SH d L hSH hOUT hIDX s r h off inb hr sq hoff C hC hn hin hj y

/-- The row buffer 1, written whole with the gather of a window of staging buffer 1, reads chunk `64 s + 2 r + h`. -/
theorem gathered_read11 (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), (IDX d x : BitVec 32).toNat < 12288)
    (s : Fin 5) (r : Fin 32) (h : Fin 2)
    (off : Fin 2 → ℕ) (inb : ∀ a, off a + S1x64.size a ≤ S32x128.size a) (hr : ∀ a, (Rect.unit (s := S32x128) off S1x64.size inb).stride a = 1) (sq : S1x64.Squeezes S64)
    (hoff : off = ![r.val, 64 * h.val])
    (C : Buf (Elt F) ((sb1V).view.loc (V d (cV L) (jV L))))
    (hC : ∀ x : S32x128.Idx, C x = IDX d (ix3 (wid (cV L) (jV L)) ⟨32 * s.val + (x 0).val, by have := s.isLt; have := idx2_lt0 x; omega⟩ ⟨(x 1).val, idx2_lt1 x⟩))
    (hn : S64.numel = S64x128.size (gathers_S12288x128_S64x128).axis')
    (hin : ∀ x : S64.Idx, (View.read (Elt F) (((sb1V).slice (Rect.unit (s := S32x128) off S1x64.size inb) hr).squeeze S64 sq).view C x : BitVec 32).toNat
      < S12288x128.size (gathers_S12288x128_S64x128).axis)
    (B : Buf (Elt F) ((buf1V).view.loc (V d (cV L) (jV L)))) (j : ℕ) (hjeq : j = 64 * s.val + 2 * r.val + h.val) :
    isChunkN OUT d (wid (cV L) (jV L)) j
      (View.read (Elt F) (buf1V).view ((buf1V).view.writes (Elt F) B [⟨Rect.whole _,
        SparseCore.gatherPayload gathers_S12288x128_S64x128 (View.read (Elt F) (shW).view (SH d (cV L)))
          (SparseCore.rows (F := F) (View.read (Elt F) (((sb1V).slice (Rect.unit (s := S32x128) off S1x64.size inb) hr).squeeze S64 sq).view C) hn hin)⟩])) := by
  subst hjeq
  intro hj y
  refine (read_written_whole (F := F) (buf1V).view B _ y).trans ?_
  exact gathered_off1 TAB IDX OUT SH d L hSH hOUT hIDX s r h off inb hr sq hoff C hC hn hin hj y

/-! ## The write-back, the block read off the row buffer -/

/-- A buffer that reads chunk `j`, copied whole into a 64-row slice of the output whose offsets are the chunk's, leaves the
    kernel's result on the chunk. -/
theorem written_read_off {sp : Space} (bv : View sig .scVector sp S64x128 .f32) (B : bv.ty.Contents (Elt F)) (w : Fin 32) (j : Fin 320)
    (hB : isChunk OUT d w j (View.read (Elt F) bv B)) (fc : Buf (Elt F) (outLoc d))
    (off : Fin 2 → ℕ) (inb : ∀ a, off a + S64x128.size a ≤ S655360x128.size a) (hs : ∀ a, (Rect.unit (s := S655360x128) off S64x128.size inb).stride a = 1)
    (hoff : off = ![chunkRow w j, 0]) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) bv B)⟩] x = OUT d x := by
  subst hoff
  exact chunk_written_of_read OUT d bv B w j _ hB (fun _ => rfl) fc

/-- The same, the slice's rectangle given equal to the chunk's. -/
theorem written_read_rect {sp : Space} (bv : View sig .scVector sp S64x128 .f32) (B : bv.ty.Contents (Elt F)) (w : Fin 32) (j : Fin 320)
    (hB : isChunk OUT d w j (View.read (Elt F) bv B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) bv B)⟩] x = OUT d x :=
  written_read_off OUT d bv B w j hB fc off inb hs (congrArg (fun R : Rect S655360x128 => R.off) hR)

theorem written_read0 (w : Fin 32) (j : Fin 320) (B : Buf (Elt F) ((buf0V).view.loc (V d (cV L) (jV L))))
    (hB : isChunk OUT d w j (View.read (Elt F) (buf0V).view B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) (buf0V).view B)⟩] x = OUT d x :=
  written_read_rect OUT d (buf0V).view B w j hB fc off inb hs hR
theorem written_read1 (w : Fin 32) (j : Fin 320) (B : Buf (Elt F) ((buf1V).view.loc (V d (cV L) (jV L))))
    (hB : isChunk OUT d w j (View.read (Elt F) (buf1V).view B)) (fc : Buf (Elt F) (outLoc d))
    (off : Fin 2 → ℕ) (inb : ∀ a, off a + S64x128.size a ≤ S655360x128.size a) (hs : ∀ a, (Rect.unit (s := S655360x128) off S64x128.size inb).stride a = 1)
    (hR : Rect.unit (s := S655360x128) off S64x128.size inb = chunkRect w j) :
    ∀ x ∈ chunkSet w j, ((outV).slice (Rect.unit (s := S655360x128) off S64x128.size inb) hs : Memref sig .scVector .hbm S64x128 .f32).view.writes (Elt F) fc
      [⟨Rect.whole S64x128, ReadAs.same.apply (View.read (Elt F) (buf1V).view B)⟩] x = OUT d x :=
  written_read_rect OUT d (buf1V).view B w j hB fc off inb hs hR

end Tile

end Cert.Kernel.KProof

end
-- ==== Proof.Bits.KSec.lean ====
/-
  The state of a vector subcore's task between two pairs of chunks of a section, and how the worker's chunks of
  the output are taken out of it and put back.
-/
import proofs.«204824_g46875273068696_cont_8to1_c_371_32_alg».proof.Proof.Bits.KChunkVal2

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- Between two pairs of a section whose indices sit in staging buffer 0: the two gathers of pair `k` in flight (rows
    `k` of the staging buffer, halves 0 and 1), each to leave its row buffer reading as the pair's chunk; the staging buffer
    less their two windows; the write semaphores free; the worker's chunks of the output, the first `n₀ + 2·k` of them
    holding the gathered rows; and what the subcore owes. -/
def sec0 (O : CellTallies nD τ sig (HIx 1)) (W₀ : Waits sig (HIx 1)) (n₀ : ℕ) (C : Buf (Elt F) ((sb0V).view.loc (V d (cV L) (jV L)))) (k : ℕ) (_ : PUnit) : sProp 𝕄 :=
  iprop(∃ (B0 : Buf (Elt F) ((buf0V).view.loc (V d (cV L) (jV L)))) (B1 : Buf (Elt F) ((buf1V).view.loc (V d (cV L) (jV L)))),
    Transfers.MayWaits (V d (cV L) (jV L)) (default : HIx 1) O
    ∗ (Transfers.Flight (countersEmb (U := UU)) (V d (cV L) (jV L)) (SemLoc.dma cc1_scratch5.sem) (default : HIx 1) 262144
        iprop((((buf0V).view.loc (V d (cV L) (jV L)) ↦[(buf0V).view.set]{fullShare} B0)
              ∗ ((sb0V).view.loc (V d (cV L) (jV L)) ↦[(win0 (rowOf k) 0).view.set]{fullShare} C))
            ∗ ((shV).view.loc (V d (cV L) (jV L)) ↦[(shW).view.set]{Transfers.shareTokN (shTok (jV L)) 4} SH d (cV L))))
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} B0)
    ∗ (Transfers.Flight (countersEmb (U := UU)) (V d (cV L) (jV L)) (SemLoc.dma cc1_scratch6.sem) (default : HIx 1) 262144
        iprop((((buf1V).view.loc (V d (cV L) (jV L)) ↦[(buf1V).view.set]{fullShare} B1)
              ∗ ((sb0V).view.loc (V d (cV L) (jV L)) ↦[(win0 (rowOf k) 1).view.set]{fullShare} C))
            ∗ ((shV).view.loc (V d (cV L) (jV L)) ↦[(shW).view.set]{Transfers.shareTokN (shTok (jV L)) 5} SH d (cV L))))
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} B1)
    ∗ ((sb0V).view.loc (V d (cV L) (jV L)) ↦[(Finset.univ \ (win0 (rowOf k) 0).view.set) \ (win0 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ (∃ W', ⌜∀ p ∈ W', p ∈ W₀ ∨ p.2 = none ∨ p.2 = some (0 : Fin 1)⌝ ∗ owes (V d (cV L) (jV L)) O W')
    ∗ ⌜isChunkN OUT d (wid (cV L) (jV L)) (n₀ + 2 * k) (View.read (Elt F) (buf0V).view B0)⌝
    ∗ ⌜isChunkN OUT d (wid (cV L) (jV L)) (n₀ + 2 * k + 1) (View.read (Elt F) (buf1V).view B1)⌝)

/-- Between two pairs of a section whose indices sit in staging buffer 1: the two gathers of pair `k` in flight (rows
    `k` of the staging buffer, halves 0 and 1), each to leave its row buffer reading as the pair's chunk; the staging buffer
    less their two windows; the write semaphores free; the worker's chunks of the output, the first `n₀ + 2·k` of them
    holding the gathered rows; and what the subcore owes. -/
def sec1 (O : CellTallies nD τ sig (HIx 1)) (W₀ : Waits sig (HIx 1)) (n₀ : ℕ) (C : Buf (Elt F) ((sb1V).view.loc (V d (cV L) (jV L)))) (k : ℕ) (_ : PUnit) : sProp 𝕄 :=
  iprop(∃ (B0 : Buf (Elt F) ((buf0V).view.loc (V d (cV L) (jV L)))) (B1 : Buf (Elt F) ((buf1V).view.loc (V d (cV L) (jV L)))),
    Transfers.MayWaits (V d (cV L) (jV L)) (default : HIx 1) O
    ∗ (Transfers.Flight (countersEmb (U := UU)) (V d (cV L) (jV L)) (SemLoc.dma cc1_scratch5.sem) (default : HIx 1) 262144
        iprop((((buf0V).view.loc (V d (cV L) (jV L)) ↦[(buf0V).view.set]{fullShare} B0)
              ∗ ((sb1V).view.loc (V d (cV L) (jV L)) ↦[(win1 (rowOf k) 0).view.set]{fullShare} C))
            ∗ ((shV).view.loc (V d (cV L) (jV L)) ↦[(shW).view.set]{Transfers.shareTokN (shTok (jV L)) 4} SH d (cV L))))
    ∗ ((shV).view.loc (V d (cV L) (jV L)) ↦[Finset.univ \ (shW).view.set]{Transfers.shareTokN (shTok (jV L)) 4} SH d (cV L))
    ∗ ((buf0V).view.loc (V d (cV L) (jV L)) ↦[Finset.univ \ (buf0V).view.set]{fullShare} B0)
    ∗ (Transfers.Flight (countersEmb (U := UU)) (V d (cV L) (jV L)) (SemLoc.dma cc1_scratch6.sem) (default : HIx 1) 262144
        iprop((((buf1V).view.loc (V d (cV L) (jV L)) ↦[(buf1V).view.set]{fullShare} B1)
              ∗ ((sb1V).view.loc (V d (cV L) (jV L)) ↦[(win1 (rowOf k) 1).view.set]{fullShare} C))
            ∗ ((shV).view.loc (V d (cV L) (jV L)) ↦[(shW).view.set]{Transfers.shareTokN (shTok (jV L)) 5} SH d (cV L))))
    ∗ ((shV).view.loc (V d (cV L) (jV L)) ↦[Finset.univ \ (shW).view.set]{Transfers.shareTokN (shTok (jV L)) 5} SH d (cV L))
    ∗ ((buf1V).view.loc (V d (cV L) (jV L)) ↦[Finset.univ \ (buf1V).view.set]{fullShare} B1)
    ∗ ((sb1V).view.loc (V d (cV L) (jV L)) ↦[(Finset.univ \ (win1 (rowOf k) 0).view.set) \ (win1 (rowOf k) 1).view.set]{fullShare} C)
    ∗ semVal (os0cell d (cV L) (jV L)) 0 ∗ semVal (os1cell d (cV L) (jV L)) 0
    ∗ outUpTo OUT d (wid (cV L) (jV L)) (n₀ + 2 * k)
    ∗ (∃ W', ⌜∀ p ∈ W', p ∈ W₀ ∨ p.2 = none ∨ p.2 = some (0 : Fin 1)⌝ ∗ owes (V d (cV L) (jV L)) O W')
    ∗ ⌜isChunkN OUT d (wid (cV L) (jV L)) (n₀ + 2 * k) (View.read (Elt F) (buf0V).view B0)⌝
    ∗ ⌜isChunkN OUT d (wid (cV L) (jV L)) (n₀ + 2 * k + 1) (View.read (Elt F) (buf1V).view B1)⌝)

/-- The other chunks are indifferent to two more chunks counted as gathered. -/
theorem out_rest_mono (w : Fin 32) (n : ℕ) (j0 j1 : Fin 320) (h0 : j0.val = n) (h1 : j1.val = n + 1) :
    (bigSep ((Finset.univ.erase j0).erase j1) fun j : Fin 320 => iprop(∃ f, (outLoc d ↦[chunkSet w j]{fullShare} f) ∗ ⌜j.val < n → ∀ x ∈ chunkSet w j, f x = OUT d x⌝) : sProp 𝕄)
      ⊢ bigSep ((Finset.univ.erase j0).erase j1) fun j : Fin 320 => iprop(∃ f, (outLoc d ↦[chunkSet w j]{fullShare} f) ∗ ⌜j.val < n + 2 → ∀ x ∈ chunkSet w j, f x = OUT d x⌝) := by
  refine SparseCore.ent (bigSep_mono fun j hj => ?_)
  have hj1 : j ≠ j1 := (Finset.mem_erase.mp hj).1
  have hj0 : j ≠ j0 := (Finset.mem_erase.mp (Finset.mem_erase.mp hj).2).1
  have hlt : j.val < n + 2 → j.val < n := fun h => by
    have a0 : j.val ≠ n := fun e => hj0 (Fin.ext (e.trans h0.symm))
    have a1 : j.val ≠ n + 1 := fun e => hj1 (Fin.ext (e.trans h1.symm))
    omega
  exact (show (iprop(∃ f, (outLoc d ↦[chunkSet w j]{fullShare} f) ∗ ⌜j.val < n → ∀ x ∈ chunkSet w j, f x = OUT d x⌝) : sProp 𝕄)
      ⊢ iprop(∃ f, (outLoc d ↦[chunkSet w j]{fullShare} f) ∗ ⌜j.val < n + 2 → ∀ x ∈ chunkSet w j, f x = OUT d x⌝) from by
    iintro ⟨%f, H, %hf⟩; iexists f; isplitl [H]; · iexact H
    ipureintro; exact fun h => hf (hlt h))

/-- The staging buffer's contents at any of its 64-entry windows are entries of the index array: in range. -/
theorem win_inrange0 (s : Fin 5) (C : Buf (Elt F) ((sb0V).view.loc (V d (cV L) (jV L))))
    (hIDX : ∀ (d : Dev nD) (x : S32x160x128.Idx), ((IDX d x : BitVec 32)).toNat < 12288)
    (hC : ∀ x : S32x128.Idx, C x = IDX d (ValueIdx.ix3 (wid (cV L) (jV L)) ⟨32 * s.val + (x 0).val, by have := s.isLt; have := ValueIdx.idx2_lt0 x; omega⟩ ⟨(x 1).val, ValueIdx.idx2_lt1 x⟩))
    (off : Fin 2 → ℕ) (inb : ∀ a, off a + S1x64.size a ≤ S32x128.size a) (hs : ∀ a, (Rect.unit (s := S32x128) off S1x64.size inb).stride a = 1) (sq : S1x64.Squeezes S64) :
    ∀ x : S64.Idx, (View.read (Elt F) (((sb0V).slice (Rect.unit (s := S32x128) off S1x64.size inb) hs).squeeze S64 sq).view C x : BitVec 32).toNat < 12288 := by
  intro x
  show ((C _ : BitVec 32)).toNat < 12288
  rw [hC]; exact hIDX d _
theorem win_inrange1 (s : Fin 5) (C : Buf (Elt F) ((sb1V).view.loc (V d (cV L) (jV L))))
    (hIDX : ∀ (d : Dev nD) (x : S32x160x128.Idx), ((IDX d x : BitVec 32)).toNat < 12288)
    (hC : ∀ x : S32x128.Idx, C x = IDX d (ValueIdx.ix3 (wid (cV L) (jV L)) ⟨32 * s.val + (x 0).val, by have := s.isLt; have := ValueIdx.idx2_lt0 x; omega⟩ ⟨(x 1).val, ValueIdx.idx2_lt1 x⟩))
    (off : Fin 2 → ℕ) (inb : ∀ a, off a + S1x64.size a ≤ S32x128.size a) (hs : ∀ a, (Rect.unit (s := S32x128) off S1x64.size inb).stride a = 1) (sq : S1x64.Squeezes S64) :
    ∀ x : S64.Idx, (View.read (Elt F) (((sb1V).slice (Rect.unit (s := S32x128) off S1x64.size inb) hs).squeeze S64 sq).view C x : BitVec 32).toNat < 12288 := by
  intro x
  show ((C _ : BitVec 32)).toNat < 12288
  rw [hC]; exact hIDX d _

end Tile

end Cert.Kernel.KProof

end
-- ==== Proof.Bits.KWinSet.lean ====
/-
  The windows a trip's two new gathers read their indices from, as element sets: row `t + 1` of the section's
  staging buffer, halves 0 and 1.
-/
import proofs.«204824_g46875273068696_cont_8to1_c_371_32_alg».proof.Proof.Bits.KSec

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

omit [FloatOps F] in
theorem win1_set2 (t : Fin k1_t1_loop.trips) (ht : t.val + 1 < 32) (inb : ∀ a, (k1_off9 t 2#32) a + S1x64.size a ≤ S32x128.size a)
    (hr : ∀ a, (Rect.unit (s := S32x128) (k1_off9 t 2#32) S1x64.size inb).stride a = 1) (sq : S1x64.Squeezes S64) :
    (((sb0V).slice (Rect.unit (s := S32x128) (k1_off9 t 2#32) S1x64.size inb) hr).squeeze S64 sq).view.set = (win0 ⟨t.val + 1, ht⟩ 0).view.set := by
  show (((sb0V).view.slice (Rect.unit (s := S32x128) (k1_off9 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off9 t 2#32) S1x64.size inb = Rect.unit (s := S32x128) ![t.val + 1, 64 * (0 : Fin 2).val] S1x64.size (win_inb ⟨t.val + 1, ht⟩ 0) :=
    Rect.unit_congr ((k1_off9_eq_2 t).trans (by funext a; match a with | 0 => rfl | 1 => rfl)) inb (win_inb ⟨t.val + 1, ht⟩ 0)
  exact e ▸ rfl
omit [FloatOps F] in
theorem win1_set3 (t : Fin k1_t1_loop.trips) (ht : t.val + 1 < 32) (inb : ∀ a, (k1_off9 t 3#32) a + S1x64.size a ≤ S32x128.size a)
    (hr : ∀ a, (Rect.unit (s := S32x128) (k1_off9 t 3#32) S1x64.size inb).stride a = 1) (sq : S1x64.Squeezes S64) :
    (((sb0V).slice (Rect.unit (s := S32x128) (k1_off9 t 3#32) S1x64.size inb) hr).squeeze S64 sq).view.set = (win0 ⟨t.val + 1, ht⟩ 1).view.set := by
  show (((sb0V).view.slice (Rect.unit (s := S32x128) (k1_off9 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off9 t 3#32) S1x64.size inb = Rect.unit (s := S32x128) ![t.val + 1, 64 * (1 : Fin 2).val] S1x64.size (win_inb ⟨t.val + 1, ht⟩ 1) :=
    Rect.unit_congr ((k1_off9_eq_3 t).trans (by funext a; match a with | 0 => rfl | 1 => rfl)) inb (win_inb ⟨t.val + 1, ht⟩ 1)
  exact e ▸ rfl

omit [FloatOps F] in
theorem win2_set2 (t : Fin k1_t2_loop.trips) (ht : t.val + 1 < 32) (inb : ∀ a, (k1_off15 t 2#32) a + S1x64.size a ≤ S32x128.size a)
    (hr : ∀ a, (Rect.unit (s := S32x128) (k1_off15 t 2#32) S1x64.size inb).stride a = 1) (sq : S1x64.Squeezes S64) :
    (((sb1V).slice (Rect.unit (s := S32x128) (k1_off15 t 2#32) S1x64.size inb) hr).squeeze S64 sq).view.set = (win1 ⟨t.val + 1, ht⟩ 0).view.set := by
  show (((sb1V).view.slice (Rect.unit (s := S32x128) (k1_off15 t 2#32) S1x64.size inb)).reshape S64 sq.numel_eq).set
    = (((sb1V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off15 t 2#32) S1x64.size inb = Rect.unit (s := S32x128) ![t.val + 1, 64 * (0 : Fin 2).val] S1x64.size (win_inb ⟨t.val + 1, ht⟩ 0) :=
    Rect.unit_congr ((k1_off15_eq_2 t).trans (by funext a; match a with | 0 => rfl | 1 => rfl)) inb (win_inb ⟨t.val + 1, ht⟩ 0)
  exact e ▸ rfl
omit [FloatOps F] in
theorem win2_set3 (t : Fin k1_t2_loop.trips) (ht : t.val + 1 < 32) (inb : ∀ a, (k1_off15 t 3#32) a + S1x64.size a ≤ S32x128.size a)
    (hr : ∀ a, (Rect.unit (s := S32x128) (k1_off15 t 3#32) S1x64.size inb).stride a = 1) (sq : S1x64.Squeezes S64) :
    (((sb1V).slice (Rect.unit (s := S32x128) (k1_off15 t 3#32) S1x64.size inb) hr).squeeze S64 sq).view.set = (win1 ⟨t.val + 1, ht⟩ 1).view.set := by
  show (((sb1V).view.slice (Rect.unit (s := S32x128) (k1_off15 t 3#32) S1x64.size inb)).reshape S64 sq.numel_eq).set
    = (((sb1V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off15 t 3#32) S1x64.size inb = Rect.unit (s := S32x128) ![t.val + 1, 64 * (1 : Fin 2).val] S1x64.size (win_inb ⟨t.val + 1, ht⟩ 1) :=
    Rect.unit_congr ((k1_off15_eq_3 t).trans (by funext a; match a with | 0 => rfl | 1 => rfl)) inb (win_inb ⟨t.val + 1, ht⟩ 1)
  exact e ▸ rfl

omit [FloatOps F] in
theorem win3_set2 (t : Fin k1_t3_loop.trips) (ht : t.val + 1 < 32) (inb : ∀ a, (k1_off20 t 2#32) a + S1x64.size a ≤ S32x128.size a)
    (hr : ∀ a, (Rect.unit (s := S32x128) (k1_off20 t 2#32) S1x64.size inb).stride a = 1) (sq : S1x64.Squeezes S64) :
    (((sb0V).slice (Rect.unit (s := S32x128) (k1_off20 t 2#32) S1x64.size inb) hr).squeeze S64 sq).view.set = (win0 ⟨t.val + 1, ht⟩ 0).view.set := by
  show (((sb0V).view.slice (Rect.unit (s := S32x128) (k1_off20 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off20 t 2#32) S1x64.size inb = Rect.unit (s := S32x128) ![t.val + 1, 64 * (0 : Fin 2).val] S1x64.size (win_inb ⟨t.val + 1, ht⟩ 0) :=
    Rect.unit_congr ((k1_off20_eq_2 t).trans (by funext a; match a with | 0 => rfl | 1 => rfl)) inb (win_inb ⟨t.val + 1, ht⟩ 0)
  exact e ▸ rfl
omit [FloatOps F] in
theorem win3_set3 (t : Fin k1_t3_loop.trips) (ht : t.val + 1 < 32) (inb : ∀ a, (k1_off20 t 3#32) a + S1x64.size a ≤ S32x128.size a)
    (hr : ∀ a, (Rect.unit (s := S32x128) (k1_off20 t 3#32) S1x64.size inb).stride a = 1) (sq : S1x64.Squeezes S64) :
    (((sb0V).slice (Rect.unit (s := S32x128) (k1_off20 t 3#32) S1x64.size inb) hr).squeeze S64 sq).view.set = (win0 ⟨t.val + 1, ht⟩ 1).view.set := by
  show (((sb0V).view.slice (Rect.unit (s := S32x128) (k1_off20 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off20 t 3#32) S1x64.size inb = Rect.unit (s := S32x128) ![t.val + 1, 64 * (1 : Fin 2).val] S1x64.size (win_inb ⟨t.val + 1, ht⟩ 1) :=
    Rect.unit_congr ((k1_off20_eq_3 t).trans (by funext a; match a with | 0 => rfl | 1 => rfl)) inb (win_inb ⟨t.val + 1, ht⟩ 1)
  exact e ▸ rfl

omit [FloatOps F] in
theorem win4_set2 (t : Fin k1_t4_loop.trips) (ht : t.val + 1 < 32) (inb : ∀ a, (k1_off25 t 2#32) a + S1x64.size a ≤ S32x128.size a)
    (hr : ∀ a, (Rect.unit (s := S32x128) (k1_off25 t 2#32) S1x64.size inb).stride a = 1) (sq : S1x64.Squeezes S64) :
    (((sb1V).slice (Rect.unit (s := S32x128) (k1_off25 t 2#32) S1x64.size inb) hr).squeeze S64 sq).view.set = (win1 ⟨t.val + 1, ht⟩ 0).view.set := by
  show (((sb1V).view.slice (Rect.unit (s := S32x128) (k1_off25 t 2#32) S1x64.size inb)).reshape S64 sq.numel_eq).set
    = (((sb1V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off25 t 2#32) S1x64.size inb = Rect.unit (s := S32x128) ![t.val + 1, 64 * (0 : Fin 2).val] S1x64.size (win_inb ⟨t.val + 1, ht⟩ 0) :=
    Rect.unit_congr ((k1_off25_eq_2 t).trans (by funext a; match a with | 0 => rfl | 1 => rfl)) inb (win_inb ⟨t.val + 1, ht⟩ 0)
  exact e ▸ rfl
omit [FloatOps F] in
theorem win4_set3 (t : Fin k1_t4_loop.trips) (ht : t.val + 1 < 32) (inb : ∀ a, (k1_off25 t 3#32) a + S1x64.size a ≤ S32x128.size a)
    (hr : ∀ a, (Rect.unit (s := S32x128) (k1_off25 t 3#32) S1x64.size inb).stride a = 1) (sq : S1x64.Squeezes S64) :
    (((sb1V).slice (Rect.unit (s := S32x128) (k1_off25 t 3#32) S1x64.size inb) hr).squeeze S64 sq).view.set = (win1 ⟨t.val + 1, ht⟩ 1).view.set := by
  show (((sb1V).view.slice (Rect.unit (s := S32x128) (k1_off25 t 3#32) S1x64.size inb)).reshape S64 sq.numel_eq).set
    = (((sb1V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off25 t 3#32) S1x64.size inb = Rect.unit (s := S32x128) ![t.val + 1, 64 * (1 : Fin 2).val] S1x64.size (win_inb ⟨t.val + 1, ht⟩ 1) :=
    Rect.unit_congr ((k1_off25_eq_3 t).trans (by funext a; match a with | 0 => rfl | 1 => rfl)) inb (win_inb ⟨t.val + 1, ht⟩ 1)
  exact e ▸ rfl

omit [FloatOps F] in
theorem win5_set2 (t : Fin k1_t5_loop.trips) (ht : t.val + 1 < 32) (inb : ∀ a, (k1_off29 t 2#32) a + S1x64.size a ≤ S32x128.size a)
    (hr : ∀ a, (Rect.unit (s := S32x128) (k1_off29 t 2#32) S1x64.size inb).stride a = 1) (sq : S1x64.Squeezes S64) :
    (((sb0V).slice (Rect.unit (s := S32x128) (k1_off29 t 2#32) S1x64.size inb) hr).squeeze S64 sq).view.set = (win0 ⟨t.val + 1, ht⟩ 0).view.set := by
  show (((sb0V).view.slice (Rect.unit (s := S32x128) (k1_off29 t 2#32) S1x64.size inb)).reshape S64 sq.numel_eq).set
    = (((sb0V).view.slice (Rect.unit (s := S32x128) ![t.val + 1, 64 * (0 : Fin 2).val] S1x64.size (win_inb ⟨t.val + 1, ht⟩ 0))).reshape S64 squeezes_S1x64_S64.numel_eq).set
  rw [View.set_reshape, View.set_reshape]
  have e : Rect.unit (s := S32x128) (k1_off29 t 2#32) S1x64.size inb = Rect.unit (s := S32x128) ![t.val + 1, 64 * (0 : Fin 2).val] S1x64.size (win_inb ⟨t.val + 1, ht⟩ 0) :=
    Rect.unit_congr ((k1_off29_eq_2 t).trans (by funext a; match a with | 0 => rfl | 1 => rfl)) inb (win_inb ⟨t.val + 1, ht⟩ 0)
  exact e ▸ rfl
omit [FloatOps F] in
theorem win5_set3 (t : Fin k1_t5_loop.trips) (ht : t.val + 1 < 32) (inb : ∀ a, (k1_off29 t 3#32) a + S1x64.size a ≤ S32x128.size a)
    (hr : ∀ a, (Rect.unit (s := S32x128) (k1_off29 t 3#32) S1x64.size inb).stride a = 1) (sq : S1x64.Squeezes S64) :
    (((sb0V).slice (Rect.unit (s := S32x128) (k1_off29 t 3#32) S1x64.size inb) hr).squeeze S64 sq).view.set = (win0 ⟨t.val + 1, ht⟩ 1).view.set := by
  show (((sb0V).view.slice (Rect.unit (s := S32x128) (k1_off29 t 3#32) S1x64.size inb)).reshape S64 sq.numel_eq).set
    = (((sb0V).view.slice (Rect.unit (s := S32x128) ![t.val + 1, 64 * (1 : Fin 2).val] S1x64.size (win_inb ⟨t.val + 1, ht⟩ 1))).reshape S64 squeezes_S1x64_S64.numel_eq).set
  rw [View.set_reshape, View.set_reshape]
  have e : Rect.unit (s := S32x128) (k1_off29 t 3#32) S1x64.size inb = Rect.unit (s := S32x128) ![t.val + 1, 64 * (1 : Fin 2).val] S1x64.size (win_inb ⟨t.val + 1, ht⟩ 1) :=
    Rect.unit_congr ((k1_off29_eq_3 t).trans (by funext a; match a with | 0 => rfl | 1 => rfl)) inb (win_inb ⟨t.val + 1, ht⟩ 1)
  exact e ▸ rfl

end Tile

end Cert.Kernel.KProof

end
-- ==== Proof.Bits.KTrip1.lean ====
/-
  One trip of the loop of section 0 (chunks 0 + 2k and 0 + 2k + 1): the two gathers in flight land, their
  row buffers are written out to the pair's chunks of the output, and the next pair's gathers are issued.
-/
import proofs.«204824_g46875273068696_cont_8to1_c_371_32_alg».proof.Proof.Bits.KWinSet

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip1
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (0 : Fin 5).val + (x 0).val, by have := (0 : Fin 5).isLt; have := ValueIdx.idx2_lt0 x; omega⟩ ⟨(x 1).val, ValueIdx.idx2_lt1 x⟩))
    (v1 : BitVec 32) (k : Fin k1_t1_loop.trips) (acc : Unit) :
    sec0 OUT SH d L O W₀ 0 C k.val acc
      ⊢ wp frame (wpE (defs₀ (F := F)) 𝒱₀ (V d (cV L) (jV L)) none) Set.univ
          (k1_t1_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec0 OUT SH d L O W₀ 0 C (k.val + 1)) := by
  have hk : k.val < 31 := k1_t1_trips ▸ k.isLt
  have hwin := win_inrange0 (F := F) IDX d L 0 C hIDX hC
  unfold sec0
  rw [rowOf_lt k.val (by omega), rowOf_lt (k.val + 1) (by omega),
    ← win1_set2 k (by omega) (k1_off9_inb k 1) (fun _ => rfl) squeezes_S1x64_S64,
    ← win1_set3 k (by omega) (k1_off9_inb k 2) (fun _ => rfl) squeezes_S1x64_S64,
    show 0 + 2 * (k.val + 1) = 0 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (0 + 2 * k.val) ⟨0 + 2 * k.val, by omega⟩ ⟨0 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc10 (F := F) d L k _ _ _).symm) $$ Hc0
  ihave Hc1' := (Entails.of_eq (pts_oc11 (F := F) d L k _ _ _).symm) $$ Hc1
  unfold k1_t1_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (0 + 2 * k.val + 2) ⟨0 + 2 * k.val, by omega⟩ ⟨0 + 2 * k.val + 1, by omega⟩
      (by intro h; have := congrArg Fin.val h; simp at this)).symm)
    isplitl [Hc0']
    · iexists _; isplitl [Hc0']
      · iapply (Entails.of_eq (pts_oc10 (F := F) d L k _ _ _)); iexact Hc0'
      · ipureintro; intro _
        exact written_read0 OUT d L (wid (cV L) (jV L)) ⟨0 + 2 * k.val, by omega⟩ B0 (hg0 _) fc0 _ _ _ (oc10_rect L k _)
    isplitl [Hc1']
    · iexists _; isplitl [Hc1']
      · iapply (Entails.of_eq (pts_oc11 (F := F) d L k _ _ _)); iexact Hc1'
      · ipureintro; intro _
        exact written_read1 OUT d L (wid (cV L) (jV L)) ⟨0 + 2 * k.val + 1, by omega⟩ B1 (hg1 _) fc1 _ _ _ (oc11_rect L k _)
    iapply (out_rest_mono (F := F) OUT d (wid (cV L) (jV L)) (0 + 2 * k.val) ⟨0 + 2 * k.val, _⟩ ⟨0 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX 0 ⟨k.val + 1, by omega⟩ 0 _ _ _ _
      ((k1_off9_eq_2 k).trans (by funext a; match a with | 0 => rfl | 1 => rfl)) C hC _ _ _ _ (by simp only [Fin.val_mk]; norm_num; omega)
  · ipureintro
    exact gathered_read10 TAB IDX OUT SH d L hSH hOUT hIDX 0 ⟨k.val + 1, by omega⟩ 1 _ _ _ _
      ((k1_off9_eq_3 k).trans (by funext a; match a with | 0 => rfl | 1 => rfl)) C hC _ _ _ _ (by simp only [Fin.val_mk]; norm_num; omega)

end Tile

end Cert.Kernel.KProof

end
-- ==== Proof.Bits.KTrip2.lean ====
/-
  One trip of the loop of section 1 (chunks 64 + 2k and 64 + 2k + 1): the two gathers in flight land, their
  row buffers are written out to the pair's chunks of the output, and the next pair's gathers are issued.
-/
import proofs.«204824_g46875273068696_cont_8to1_c_371_32_alg».proof.Proof.Bits.KWinSet

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip2
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb1V).view.loc (V d (cV L) (jV L))))
    (hC : ∀ x : S32x128.Idx, C x = IDX d (ValueIdx.ix3 (wid (cV L) (jV L)) ⟨32 * (⟨1, by decide⟩ : Fin 5).val + (x 0).val, by have := (⟨1, by decide⟩ : Fin 5).isLt; have := ValueIdx.idx2_lt0 x; omega⟩ ⟨(x 1).val, ValueIdx.idx2_lt1 x⟩))
    (v1 : BitVec 32) (k : Fin k1_t2_loop.trips) (acc : Unit) :
    sec1 OUT SH d L O W₀ 64 C k.val acc
      ⊢ wp frame (wpE (defs₀ (F := F)) 𝒱₀ (V d (cV L) (jV L)) none) Set.univ
          (k1_t2_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec1 OUT SH d L O W₀ 64 C (k.val + 1)) := by
  have hk : k.val < 31 := k1_t2_trips ▸ k.isLt
  have hwin := win_inrange1 (F := F) IDX d L ⟨1, by decide⟩ C hIDX hC
  unfold sec1
  rw [rowOf_lt k.val (by omega), rowOf_lt (k.val + 1) (by omega),
    ← win2_set2 k (by omega) (k1_off15_inb k 1) (fun _ => rfl) squeezes_S1x64_S64,
    ← win2_set3 k (by omega) (k1_off15_inb k 2) (fun _ => rfl) squeezes_S1x64_S64,
    show 64 + 2 * (k.val + 1) = 64 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (64 + 2 * k.val) ⟨64 + 2 * k.val, by omega⟩ ⟨64 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc20 (F := F) d L k _ _ _).symm) $$ Hc0
  ihave Hc1' := (Entails.of_eq (pts_oc21 (F := F) d L k _ _ _).symm) $$ Hc1
  unfold k1_t2_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (64 + 2 * k.val + 2) ⟨64 + 2 * k.val, by omega⟩ ⟨64 + 2 * k.val + 1, by omega⟩
      (by intro h; have := congrArg Fin.val h; simp at this)).symm)
    isplitl [Hc0']
    · iexists _; isplitl [Hc0']
      · iapply (Entails.of_eq (pts_oc20 (F := F) d L k _ _ _)); iexact Hc0'
      · ipureintro; intro _
        exact written_read0 OUT d L (wid (cV L) (jV L)) ⟨64 + 2 * k.val, by omega⟩ B0 (hg0 _) fc0 _ _ _ (oc20_rect L k _)
    isplitl [Hc1']
    · iexists _; isplitl [Hc1']
      · iapply (Entails.of_eq (pts_oc21 (F := F) d L k _ _ _)); iexact Hc1'
      · ipureintro; intro _
        exact written_read1 OUT d L (wid (cV L) (jV L)) ⟨64 + 2 * k.val + 1, by omega⟩ B1 (hg1 _) fc1 _ _ _ (oc21_rect L k _)
    iapply (out_rest_mono (F := F) OUT d (wid (cV L) (jV L)) (64 + 2 * k.val) ⟨64 + 2 * k.val, _⟩ ⟨64 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read01 TAB IDX OUT SH d L hSH hOUT hIDX ⟨1, by decide⟩ ⟨k.val + 1, by omega⟩ 0 _ _ _ _
      ((k1_off15_eq_2 k).trans (by funext a; match a with | 0 => rfl | 1 => rfl)) C hC _ _ _ _ (by simp only [Fin.val_mk]; norm_num; omega)
  · ipureintro
    exact gathered_read11 TAB IDX OUT SH d L hSH hOUT hIDX ⟨1, by decide⟩ ⟨k.val + 1, by omega⟩ 1 _ _ _ _
      ((k1_off15_eq_3 k).trans (by funext a; match a with | 0 => rfl | 1 => rfl)) C hC _ _ _ _ (by simp only [Fin.val_mk]; norm_num; omega)

end Tile

end Cert.Kernel.KProof

end
-- ==== Proof.Bits.KTrip3.lean ====
/-
  One trip of the loop of section 2 (chunks 128 + 2k and 128 + 2k + 1): the two gathers in flight land, their
  row buffers are written out to the pair's chunks of the output, and the next pair's gathers are issued.
-/
import proofs.«204824_g46875273068696_cont_8to1_c_371_32_alg».proof.Proof.Bits.KWinSet

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip3
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (⟨2, by decide⟩ : Fin 5).val + (x 0).val, by have := (⟨2, by decide⟩ : Fin 5).isLt; have := ValueIdx.idx2_lt0 x; omega⟩ ⟨(x 1).val, ValueIdx.idx2_lt1 x⟩))
    (v1 : BitVec 32) {c0 c1 : BitVec 32} (k : Fin k1_t3_loop.trips) (acc : Unit) :
    sec0 OUT SH d L O W₀ 128 C k.val acc
      ⊢ wp frame (wpE (defs₀ (F := F)) 𝒱₀ (V d (cV L) (jV L)) none) Set.univ
          (k1_t3_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 c0 c1 k acc)
          (sec0 OUT SH d L O W₀ 128 C (k.val + 1)) := by
  have hk : k.val < 31 := k1_t3_trips ▸ k.isLt
  have hwin := win_inrange0 (F := F) IDX d L ⟨2, by decide⟩ C hIDX hC
  unfold sec0
  rw [rowOf_lt k.val (by omega), rowOf_lt (k.val + 1) (by omega),
    ← win3_set2 k (by omega) (k1_off20_inb k 1) (fun _ => rfl) squeezes_S1x64_S64,
    ← win3_set3 k (by omega) (k1_off20_inb k 2) (fun _ => rfl) squeezes_S1x64_S64,
    show 128 + 2 * (k.val + 1) = 128 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (128 + 2 * k.val) ⟨128 + 2 * k.val, by omega⟩ ⟨128 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc30 (F := F) d L k _ _ _).symm) $$ Hc0
  ihave Hc1' := (Entails.of_eq (pts_oc31 (F := F) d L k _ _ _).symm) $$ Hc1
  unfold k1_t3_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (128 + 2 * k.val + 2) ⟨128 + 2 * k.val, by omega⟩ ⟨128 + 2 * k.val + 1, by omega⟩
      (by intro h; have := congrArg Fin.val h; simp at this)).symm)
    isplitl [Hc0']
    · iexists _; isplitl [Hc0']
      · iapply (Entails.of_eq (pts_oc30 (F := F) d L k _ _ _)); iexact Hc0'
      · ipureintro; intro _
        exact written_read0 OUT d L (wid (cV L) (jV L)) ⟨128 + 2 * k.val, by omega⟩ B0 (hg0 _) fc0 _ _ _ (oc30_rect L k _)
    isplitl [Hc1']
    · iexists _; isplitl [Hc1']
      · iapply (Entails.of_eq (pts_oc31 (F := F) d L k _ _ _)); iexact Hc1'
      · ipureintro; intro _
        exact written_read1 OUT d L (wid (cV L) (jV L)) ⟨128 + 2 * k.val + 1, by omega⟩ B1 (hg1 _) fc1 _ _ _ (oc31_rect L k _)
    iapply (out_rest_mono (F := F) OUT d (wid (cV L) (jV L)) (128 + 2 * k.val) ⟨128 + 2 * k.val, _⟩ ⟨128 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX ⟨2, by decide⟩ ⟨k.val + 1, by omega⟩ 0 _ _ _ _
      ((k1_off20_eq_2 k).trans (by funext a; match a with | 0 => rfl | 1 => rfl)) C hC _ _ _ _ (by simp only [Fin.val_mk]; norm_num; omega)
  · ipureintro
    exact gathered_read10 TAB IDX OUT SH d L hSH hOUT hIDX ⟨2, by decide⟩ ⟨k.val + 1, by omega⟩ 1 _ _ _ _
      ((k1_off20_eq_3 k).trans (by funext a; match a with | 0 => rfl | 1 => rfl)) C hC _ _ _ _ (by simp only [Fin.val_mk]; norm_num; omega)

end Tile

end Cert.Kernel.KProof

end
-- ==== Proof.Bits.KTrip4.lean ====
/-
  One trip of the loop of section 3 (chunks 192 + 2k and 192 + 2k + 1): the two gathers in flight land, their
  row buffers are written out to the pair's chunks of the output, and the next pair's gathers are issued.
-/
import proofs.«204824_g46875273068696_cont_8to1_c_371_32_alg».proof.Proof.Bits.KWinSet

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip4
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb1V).view.loc (V d (cV L) (jV L))))
    (hC : ∀ x : S32x128.Idx, C x = IDX d (ValueIdx.ix3 (wid (cV L) (jV L)) ⟨32 * (⟨3, by decide⟩ : Fin 5).val + (x 0).val, by have := (⟨3, by decide⟩ : Fin 5).isLt; have := ValueIdx.idx2_lt0 x; omega⟩ ⟨(x 1).val, ValueIdx.idx2_lt1 x⟩))
    (v1 : BitVec 32) (k : Fin k1_t4_loop.trips) (acc : Unit) :
    sec1 OUT SH d L O W₀ 192 C k.val acc
      ⊢ wp frame (wpE (defs₀ (F := F)) 𝒱₀ (V d (cV L) (jV L)) none) Set.univ
          (k1_t4_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 k acc)
          (sec1 OUT SH d L O W₀ 192 C (k.val + 1)) := by
  have hk : k.val < 31 := k1_t4_trips ▸ k.isLt
  have hwin := win_inrange1 (F := F) IDX d L ⟨3, by decide⟩ C hIDX hC
  unfold sec1
  rw [rowOf_lt k.val (by omega), rowOf_lt (k.val + 1) (by omega),
    ← win4_set2 k (by omega) (k1_off25_inb k 1) (fun _ => rfl) squeezes_S1x64_S64,
    ← win4_set3 k (by omega) (k1_off25_inb k 2) (fun _ => rfl) squeezes_S1x64_S64,
    show 192 + 2 * (k.val + 1) = 192 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (192 + 2 * k.val) ⟨192 + 2 * k.val, by omega⟩ ⟨192 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc40 (F := F) d L k _ _ _).symm) $$ Hc0
  ihave Hc1' := (Entails.of_eq (pts_oc41 (F := F) d L k _ _ _).symm) $$ Hc1
  unfold k1_t4_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (192 + 2 * k.val + 2) ⟨192 + 2 * k.val, by omega⟩ ⟨192 + 2 * k.val + 1, by omega⟩
      (by intro h; have := congrArg Fin.val h; simp at this)).symm)
    isplitl [Hc0']
    · iexists _; isplitl [Hc0']
      · iapply (Entails.of_eq (pts_oc40 (F := F) d L k _ _ _)); iexact Hc0'
      · ipureintro; intro _
        exact written_read0 OUT d L (wid (cV L) (jV L)) ⟨192 + 2 * k.val, by omega⟩ B0 (hg0 _) fc0 _ _ _ (oc40_rect L k _)
    isplitl [Hc1']
    · iexists _; isplitl [Hc1']
      · iapply (Entails.of_eq (pts_oc41 (F := F) d L k _ _ _)); iexact Hc1'
      · ipureintro; intro _
        exact written_read1 OUT d L (wid (cV L) (jV L)) ⟨192 + 2 * k.val + 1, by omega⟩ B1 (hg1 _) fc1 _ _ _ (oc41_rect L k _)
    iapply (out_rest_mono (F := F) OUT d (wid (cV L) (jV L)) (192 + 2 * k.val) ⟨192 + 2 * k.val, _⟩ ⟨192 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read01 TAB IDX OUT SH d L hSH hOUT hIDX ⟨3, by decide⟩ ⟨k.val + 1, by omega⟩ 0 _ _ _ _
      ((k1_off25_eq_2 k).trans (by funext a; match a with | 0 => rfl | 1 => rfl)) C hC _ _ _ _ (by simp only [Fin.val_mk]; norm_num; omega)
  · ipureintro
    exact gathered_read11 TAB IDX OUT SH d L hSH hOUT hIDX ⟨3, by decide⟩ ⟨k.val + 1, by omega⟩ 1 _ _ _ _
      ((k1_off25_eq_3 k).trans (by funext a; match a with | 0 => rfl | 1 => rfl)) C hC _ _ _ _ (by simp only [Fin.val_mk]; norm_num; omega)

end Tile

end Cert.Kernel.KProof

end
-- ==== Proof.Bits.KTrip5.lean ====
/-
  One trip of the loop of section 4 (chunks 256 + 2k and 256 + 2k + 1): the two gathers in flight land, their
  row buffers are written out to the pair's chunks of the output, and the next pair's gathers are issued.
-/
import proofs.«204824_g46875273068696_cont_8to1_c_371_32_alg».proof.Proof.Bits.KWinSet

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

set_option maxHeartbeats 16000000 in
theorem trip5
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W₀ : Waits sig (HIx 1))
    (C : Buf (Elt F) ((sb0V).view.loc (V d (cV L) (jV L))))
    (hC : ∀ x : S32x128.Idx, C x = IDX d (ValueIdx.ix3 (wid (cV L) (jV L)) ⟨32 * (⟨4, by decide⟩ : Fin 5).val + (x 0).val, by have := (⟨4, by decide⟩ : Fin 5).isLt; have := ValueIdx.idx2_lt0 x; omega⟩ ⟨(x 1).val, ValueIdx.idx2_lt1 x⟩))
    (v1 : BitVec 32) {v188 : BitVec 32} (k : Fin k1_t5_loop.trips) (acc : Unit) :
    sec0 OUT SH d L O W₀ 256 C k.val acc
      ⊢ wp frame (wpE (defs₀ (F := F)) 𝒱₀ (V d (cV L) (jV L)) none) Set.univ
          (k1_t5_body L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2 v1 v188 k acc)
          (sec0 OUT SH d L O W₀ 256 C (k.val + 1)) := by
  have hk : k.val < 31 := k1_t5_trips ▸ k.isLt
  have hwin := win_inrange0 (F := F) IDX d L ⟨4, by decide⟩ C hIDX hC
  unfold sec0
  rw [rowOf_lt k.val (by omega), rowOf_lt (k.val + 1) (by omega),
    ← win5_set2 k (by omega) (k1_off29_inb k 1) (fun _ => rfl) squeezes_S1x64_S64,
    ← win5_set3 k (by omega) (k1_off29_inb k 2) (fun _ => rfl) squeezes_S1x64_S64,
    show 256 + 2 * (k.val + 1) = 256 + 2 * k.val + 2 from by omega]
  iintro ⟨%B0, %B1, Hmw, Hgs0, Hsh4, Hb0r, Hgs1, Hsh5, Hb1r, Hsbr, Hos0, Hos1, Hout, ⟨%W', %hW', HO⟩, %hg0, %hg1⟩
  ihave Hout' := (Entails.of_eq (out_take2 (F := F) OUT d (wid (cV L) (jV L)) (256 + 2 * k.val) ⟨256 + 2 * k.val, by omega⟩ ⟨256 + 2 * k.val + 1, by omega⟩
    (by intro h; have := congrArg Fin.val h; simp at this))) $$ Hout
  icases Hout' with ⟨⟨%fc0, Hc0, %hc0⟩, ⟨%fc1, Hc1, %hc1⟩, Hrest⟩
  ihave Hc0' := (Entails.of_eq (pts_oc50 (F := F) d L k _ _ _).symm) $$ Hc0
  ihave Hc1' := (Entails.of_eq (pts_oc51 (F := F) d L k _ _ _).symm) $$ Hc1
  unfold k1_t5_body
  sl_exec
  sl_step
  iexists _, _
  isplitl [Hmw]; · iexact Hmw
  isplitl [Hgs0]; · iexact Hgs0
  isplitl [Hsh4]; · iexact Hsh4
  isplitl [Hb0r]; · iexact Hb0r
  isplitl [Hgs1]; · iexact Hgs1
  isplitl [Hsh5]; · iexact Hsh5
  isplitl [Hb1r]; · iexact Hb1r
  isplitl [Hsbr]; · iexact Hsbr
  isplitl [Hos0]; · iexact Hos0
  isplitl [Hos1]; · iexact Hos1
  isplitl [Hc0' Hc1' Hrest]
  · iapply (Entails.of_eq (out_take2 (F := F) OUT d (wid (cV L) (jV L)) (256 + 2 * k.val + 2) ⟨256 + 2 * k.val, by omega⟩ ⟨256 + 2 * k.val + 1, by omega⟩
      (by intro h; have := congrArg Fin.val h; simp at this)).symm)
    isplitl [Hc0']
    · iexists _; isplitl [Hc0']
      · iapply (Entails.of_eq (pts_oc50 (F := F) d L k _ _ _)); iexact Hc0'
      · ipureintro; intro _
        exact written_read0 OUT d L (wid (cV L) (jV L)) ⟨256 + 2 * k.val, by omega⟩ B0 (hg0 _) fc0 _ _ _ (oc50_rect L k _)
    isplitl [Hc1']
    · iexists _; isplitl [Hc1']
      · iapply (Entails.of_eq (pts_oc51 (F := F) d L k _ _ _)); iexact Hc1'
      · ipureintro; intro _
        exact written_read1 OUT d L (wid (cV L) (jV L)) ⟨256 + 2 * k.val + 1, by omega⟩ B1 (hg1 _) fc1 _ _ _ (oc51_rect L k _)
    iapply (out_rest_mono (F := F) OUT d (wid (cV L) (jV L)) (256 + 2 * k.val) ⟨256 + 2 * k.val, _⟩ ⟨256 + 2 * k.val + 1, _⟩ rfl rfl)
    iexact Hrest
  isplitl [HO]
  · iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW' p hp
  isplitr
  · ipureintro
    exact gathered_read00 TAB IDX OUT SH d L hSH hOUT hIDX ⟨4, by decide⟩ ⟨k.val + 1, by omega⟩ 0 _ _ _ _
      ((k1_off29_eq_2 k).trans (by funext a; match a with | 0 => rfl | 1 => rfl)) C hC _ _ _ _ (by simp only [Fin.val_mk]; norm_num; omega)
  · ipureintro
    exact gathered_read10 TAB IDX OUT SH d L hSH hOUT hIDX ⟨4, by decide⟩ ⟨k.val + 1, by omega⟩ 1 _ _ _ _
      ((k1_off29_eq_3 k).trans (by funext a; match a with | 0 => rfl | 1 => rfl)) C hC _ _ _ _ (by simp only [Fin.val_mk]; norm_num; omega)

end Tile

end Cert.Kernel.KProof

end
-- ==== Proof.Bits.KEnds.lean ====
/-
  The last pair of chunks of each section (chunks 64·s + 62 and 64·s + 63), as the program slices them after the
  section's loop.
-/
import proofs.«204824_g46875273068696_cont_8to1_c_371_32_alg».proof.Proof.Bits.KSec

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

omit [FloatOps F] in
theorem oe10_rect :
    Rect.unit (s := S655360x128) (k1_off11 L 98304#32 896#32) S64x128.size (k1_off11_inb L 0 0) = chunkRect (wid (cV L) (jV L)) ⟨62, by decide⟩ :=
  Rect.unit_congr ((show k1_off11 L 98304#32 896#32 = _ from k1_off11_eq L 0 0).trans (by
    funext a
    match a with
    | 0 => show 131072 * (0 : Fin 5).val + 16384 * (L 0).val + 1024 * (L 1).val + 64 * (0 : Fin 2).val + 99200 = chunkRow (wid (cV L) (jV L)) ⟨62, by decide⟩
           unfold chunkRow wid; simp only [Fin.val_mk, Fin.coe_castLE]; norm_num; omega
    | 1 => rfl)) _ _
/-- Chunk 62 of the worker's rows, as the program slices it at the end of section 0. -/
abbrev oe10 : Memref sig .scVector .hbm S64x128 .f32 := (outV).slice (Rect.unit (s := S655360x128) (k1_off11 L 98304#32 896#32) S64x128.size (k1_off11_inb L 0 0)) (fun _ => rfl)
omit [FloatOps F] in
theorem pts_oe10 (q : PosShare TreeShare) (f : Buf (Elt F) (outLoc d)) :
    ((oe10 L).view.loc (V d (cV L) (jV L)) ↦[(oe10 L).view.set]{q} f : sProp 𝕄) = outLoc d ↦[chunkSet (wid (cV L) (jV L)) ⟨62, by decide⟩]{q} f := by
  show (_ ↦[((outV).view.slice (Rect.unit (s := S655360x128) (k1_off11 L 98304#32 896#32) S64x128.size (k1_off11_inb L 0 0))).set]{q} f : sProp 𝕄) = _
  rw [oe10_rect L]

omit [FloatOps F] in
theorem oe11_rect :
    Rect.unit (s := S655360x128) (k1_off11 L 98304#32 960#32) S64x128.size (k1_off11_inb L 0 1) = chunkRect (wid (cV L) (jV L)) ⟨63, by decide⟩ :=
  Rect.unit_congr ((show k1_off11 L 98304#32 960#32 = _ from k1_off11_eq L 0 1).trans (by
    funext a
    match a with
    | 0 => show 131072 * (0 : Fin 5).val + 16384 * (L 0).val + 1024 * (L 1).val + 64 * (1 : Fin 2).val + 99200 = chunkRow (wid (cV L) (jV L)) ⟨63, by decide⟩
           unfold chunkRow wid; simp only [Fin.val_mk, Fin.coe_castLE]; norm_num; omega
    | 1 => rfl)) _ _
/-- Chunk 63 of the worker's rows, as the program slices it at the end of section 0. -/
abbrev oe11 : Memref sig .scVector .hbm S64x128 .f32 := (outV).slice (Rect.unit (s := S655360x128) (k1_off11 L 98304#32 960#32) S64x128.size (k1_off11_inb L 0 1)) (fun _ => rfl)
omit [FloatOps F] in
theorem pts_oe11 (q : PosShare TreeShare) (f : Buf (Elt F) (outLoc d)) :
    ((oe11 L).view.loc (V d (cV L) (jV L)) ↦[(oe11 L).view.set]{q} f : sProp 𝕄) = outLoc d ↦[chunkSet (wid (cV L) (jV L)) ⟨63, by decide⟩]{q} f := by
  show (_ ↦[((outV).view.slice (Rect.unit (s := S655360x128) (k1_off11 L 98304#32 960#32) S64x128.size (k1_off11_inb L 0 1))).set]{q} f : sProp 𝕄) = _
  rw [oe11_rect L]

omit [FloatOps F] in
theorem oe20_rect :
    Rect.unit (s := S655360x128) (k1_off11 L 229376#32 896#32) S64x128.size (k1_off11_inb L 1 0) = chunkRect (wid (cV L) (jV L)) ⟨126, by decide⟩ :=
  Rect.unit_congr ((show k1_off11 L 229376#32 896#32 = _ from k1_off11_eq L 1 0).trans (by
    funext a
    match a with
    | 0 => show 131072 * (1 : Fin 5).val + 16384 * (L 0).val + 1024 * (L 1).val + 64 * (0 : Fin 2).val + 99200 = chunkRow (wid (cV L) (jV L)) ⟨126, by decide⟩
           unfold chunkRow wid; simp only [Fin.val_mk, Fin.coe_castLE]; norm_num; omega
    | 1 => rfl)) _ _
/-- Chunk 126 of the worker's rows, as the program slices it at the end of section 1. -/
abbrev oe20 : Memref sig .scVector .hbm S64x128 .f32 := (outV).slice (Rect.unit (s := S655360x128) (k1_off11 L 229376#32 896#32) S64x128.size (k1_off11_inb L 1 0)) (fun _ => rfl)
omit [FloatOps F] in
theorem pts_oe20 (q : PosShare TreeShare) (f : Buf (Elt F) (outLoc d)) :
    ((oe20 L).view.loc (V d (cV L) (jV L)) ↦[(oe20 L).view.set]{q} f : sProp 𝕄) = outLoc d ↦[chunkSet (wid (cV L) (jV L)) ⟨126, by decide⟩]{q} f := by
  show (_ ↦[((outV).view.slice (Rect.unit (s := S655360x128) (k1_off11 L 229376#32 896#32) S64x128.size (k1_off11_inb L 1 0))).set]{q} f : sProp 𝕄) = _
  rw [oe20_rect L]

omit [FloatOps F] in
theorem oe21_rect :
    Rect.unit (s := S655360x128) (k1_off11 L 229376#32 960#32) S64x128.size (k1_off11_inb L 1 1) = chunkRect (wid (cV L) (jV L)) ⟨127, by decide⟩ :=
  Rect.unit_congr ((show k1_off11 L 229376#32 960#32 = _ from k1_off11_eq L 1 1).trans (by
    funext a
    match a with
    | 0 => show 131072 * (1 : Fin 5).val + 16384 * (L 0).val + 1024 * (L 1).val + 64 * (1 : Fin 2).val + 99200 = chunkRow (wid (cV L) (jV L)) ⟨127, by decide⟩
           unfold chunkRow wid; simp only [Fin.val_mk, Fin.coe_castLE]; norm_num; omega
    | 1 => rfl)) _ _
/-- Chunk 127 of the worker's rows, as the program slices it at the end of section 1. -/
abbrev oe21 : Memref sig .scVector .hbm S64x128 .f32 := (outV).slice (Rect.unit (s := S655360x128) (k1_off11 L 229376#32 960#32) S64x128.size (k1_off11_inb L 1 1)) (fun _ => rfl)
omit [FloatOps F] in
theorem pts_oe21 (q : PosShare TreeShare) (f : Buf (Elt F) (outLoc d)) :
    ((oe21 L).view.loc (V d (cV L) (jV L)) ↦[(oe21 L).view.set]{q} f : sProp 𝕄) = outLoc d ↦[chunkSet (wid (cV L) (jV L)) ⟨127, by decide⟩]{q} f := by
  show (_ ↦[((outV).view.slice (Rect.unit (s := S655360x128) (k1_off11 L 229376#32 960#32) S64x128.size (k1_off11_inb L 1 1))).set]{q} f : sProp 𝕄) = _
  rw [oe21_rect L]

omit [FloatOps F] in
theorem oe30_rect :
    Rect.unit (s := S655360x128) (k1_off11 L 360448#32 896#32) S64x128.size (k1_off11_inb L 2 0) = chunkRect (wid (cV L) (jV L)) ⟨190, by decide⟩ :=
  Rect.unit_congr ((show k1_off11 L 360448#32 896#32 = _ from k1_off11_eq L 2 0).trans (by
    funext a
    match a with
    | 0 => show 131072 * (2 : Fin 5).val + 16384 * (L 0).val + 1024 * (L 1).val + 64 * (0 : Fin 2).val + 99200 = chunkRow (wid (cV L) (jV L)) ⟨190, by decide⟩
           unfold chunkRow wid; simp only [Fin.val_mk, Fin.coe_castLE]; norm_num; omega
    | 1 => rfl)) _ _
/-- Chunk 190 of the worker's rows, as the program slices it at the end of section 2. -/
abbrev oe30 : Memref sig .scVector .hbm S64x128 .f32 := (outV).slice (Rect.unit (s := S655360x128) (k1_off11 L 360448#32 896#32) S64x128.size (k1_off11_inb L 2 0)) (fun _ => rfl)
omit [FloatOps F] in
theorem pts_oe30 (q : PosShare TreeShare) (f : Buf (Elt F) (outLoc d)) :
    ((oe30 L).view.loc (V d (cV L) (jV L)) ↦[(oe30 L).view.set]{q} f : sProp 𝕄) = outLoc d ↦[chunkSet (wid (cV L) (jV L)) ⟨190, by decide⟩]{q} f := by
  show (_ ↦[((outV).view.slice (Rect.unit (s := S655360x128) (k1_off11 L 360448#32 896#32) S64x128.size (k1_off11_inb L 2 0))).set]{q} f : sProp 𝕄) = _
  rw [oe30_rect L]

omit [FloatOps F] in
theorem oe31_rect :
    Rect.unit (s := S655360x128) (k1_off11 L 360448#32 960#32) S64x128.size (k1_off11_inb L 2 1) = chunkRect (wid (cV L) (jV L)) ⟨191, by decide⟩ :=
  Rect.unit_congr ((show k1_off11 L 360448#32 960#32 = _ from k1_off11_eq L 2 1).trans (by
    funext a
    match a with
    | 0 => show 131072 * (2 : Fin 5).val + 16384 * (L 0).val + 1024 * (L 1).val + 64 * (1 : Fin 2).val + 99200 = chunkRow (wid (cV L) (jV L)) ⟨191, by decide⟩
           unfold chunkRow wid; simp only [Fin.val_mk, Fin.coe_castLE]; norm_num; omega
    | 1 => rfl)) _ _
/-- Chunk 191 of the worker's rows, as the program slices it at the end of section 2. -/
abbrev oe31 : Memref sig .scVector .hbm S64x128 .f32 := (outV).slice (Rect.unit (s := S655360x128) (k1_off11 L 360448#32 960#32) S64x128.size (k1_off11_inb L 2 1)) (fun _ => rfl)
omit [FloatOps F] in
theorem pts_oe31 (q : PosShare TreeShare) (f : Buf (Elt F) (outLoc d)) :
    ((oe31 L).view.loc (V d (cV L) (jV L)) ↦[(oe31 L).view.set]{q} f : sProp 𝕄) = outLoc d ↦[chunkSet (wid (cV L) (jV L)) ⟨191, by decide⟩]{q} f := by
  show (_ ↦[((outV).view.slice (Rect.unit (s := S655360x128) (k1_off11 L 360448#32 960#32) S64x128.size (k1_off11_inb L 2 1))).set]{q} f : sProp 𝕄) = _
  rw [oe31_rect L]

omit [FloatOps F] in
theorem oe40_rect :
    Rect.unit (s := S655360x128) (k1_off11 L 491520#32 896#32) S64x128.size (k1_off11_inb L 3 0) = chunkRect (wid (cV L) (jV L)) ⟨254, by decide⟩ :=
  Rect.unit_congr ((show k1_off11 L 491520#32 896#32 = _ from k1_off11_eq L 3 0).trans (by
    funext a
    match a with
    | 0 => show 131072 * (3 : Fin 5).val + 16384 * (L 0).val + 1024 * (L 1).val + 64 * (0 : Fin 2).val + 99200 = chunkRow (wid (cV L) (jV L)) ⟨254, by decide⟩
           unfold chunkRow wid; simp only [Fin.val_mk, Fin.coe_castLE]; norm_num; omega
    | 1 => rfl)) _ _
/-- Chunk 254 of the worker's rows, as the program slices it at the end of section 3. -/
abbrev oe40 : Memref sig .scVector .hbm S64x128 .f32 := (outV).slice (Rect.unit (s := S655360x128) (k1_off11 L 491520#32 896#32) S64x128.size (k1_off11_inb L 3 0)) (fun _ => rfl)
omit [FloatOps F] in
theorem pts_oe40 (q : PosShare TreeShare) (f : Buf (Elt F) (outLoc d)) :
    ((oe40 L).view.loc (V d (cV L) (jV L)) ↦[(oe40 L).view.set]{q} f : sProp 𝕄) = outLoc d ↦[chunkSet (wid (cV L) (jV L)) ⟨254, by decide⟩]{q} f := by
  show (_ ↦[((outV).view.slice (Rect.unit (s := S655360x128) (k1_off11 L 491520#32 896#32) S64x128.size (k1_off11_inb L 3 0))).set]{q} f : sProp 𝕄) = _
  rw [oe40_rect L]

omit [FloatOps F] in
theorem oe41_rect :
    Rect.unit (s := S655360x128) (k1_off11 L 491520#32 960#32) S64x128.size (k1_off11_inb L 3 1) = chunkRect (wid (cV L) (jV L)) ⟨255, by decide⟩ :=
  Rect.unit_congr ((show k1_off11 L 491520#32 960#32 = _ from k1_off11_eq L 3 1).trans (by
    funext a
    match a with
    | 0 => show 131072 * (3 : Fin 5).val + 16384 * (L 0).val + 1024 * (L 1).val + 64 * (1 : Fin 2).val + 99200 = chunkRow (wid (cV L) (jV L)) ⟨255, by decide⟩
           unfold chunkRow wid; simp only [Fin.val_mk, Fin.coe_castLE]; norm_num; omega
    | 1 => rfl)) _ _
/-- Chunk 255 of the worker's rows, as the program slices it at the end of section 3. -/
abbrev oe41 : Memref sig .scVector .hbm S64x128 .f32 := (outV).slice (Rect.unit (s := S655360x128) (k1_off11 L 491520#32 960#32) S64x128.size (k1_off11_inb L 3 1)) (fun _ => rfl)
omit [FloatOps F] in
theorem pts_oe41 (q : PosShare TreeShare) (f : Buf (Elt F) (outLoc d)) :
    ((oe41 L).view.loc (V d (cV L) (jV L)) ↦[(oe41 L).view.set]{q} f : sProp 𝕄) = outLoc d ↦[chunkSet (wid (cV L) (jV L)) ⟨255, by decide⟩]{q} f := by
  show (_ ↦[((outV).view.slice (Rect.unit (s := S655360x128) (k1_off11 L 491520#32 960#32) S64x128.size (k1_off11_inb L 3 1))).set]{q} f : sProp 𝕄) = _
  rw [oe41_rect L]

omit [FloatOps F] in
theorem oe50_rect :
    Rect.unit (s := S655360x128) (k1_off11 L 622592#32 896#32) S64x128.size (k1_off11_inb L 4 0) = chunkRect (wid (cV L) (jV L)) ⟨318, by decide⟩ :=
  Rect.unit_congr ((show k1_off11 L 622592#32 896#32 = _ from k1_off11_eq L 4 0).trans (by
    funext a
    match a with
    | 0 => show 131072 * (4 : Fin 5).val + 16384 * (L 0).val + 1024 * (L 1).val + 64 * (0 : Fin 2).val + 99200 = chunkRow (wid (cV L) (jV L)) ⟨318, by decide⟩
           unfold chunkRow wid; simp only [Fin.val_mk, Fin.coe_castLE]; norm_num; omega
    | 1 => rfl)) _ _
/-- Chunk 318 of the worker's rows, as the program slices it at the end of section 4. -/
abbrev oe50 : Memref sig .scVector .hbm S64x128 .f32 := (outV).slice (Rect.unit (s := S655360x128) (k1_off11 L 622592#32 896#32) S64x128.size (k1_off11_inb L 4 0)) (fun _ => rfl)
omit [FloatOps F] in
theorem pts_oe50 (q : PosShare TreeShare) (f : Buf (Elt F) (outLoc d)) :
    ((oe50 L).view.loc (V d (cV L) (jV L)) ↦[(oe50 L).view.set]{q} f : sProp 𝕄) = outLoc d ↦[chunkSet (wid (cV L) (jV L)) ⟨318, by decide⟩]{q} f := by
  show (_ ↦[((outV).view.slice (Rect.unit (s := S655360x128) (k1_off11 L 622592#32 896#32) S64x128.size (k1_off11_inb L 4 0))).set]{q} f : sProp 𝕄) = _
  rw [oe50_rect L]

omit [FloatOps F] in
theorem oe51_rect :
    Rect.unit (s := S655360x128) (k1_off11 L 622592#32 960#32) S64x128.size (k1_off11_inb L 4 1) = chunkRect (wid (cV L) (jV L)) ⟨319, by decide⟩ :=
  Rect.unit_congr ((show k1_off11 L 622592#32 960#32 = _ from k1_off11_eq L 4 1).trans (by
    funext a
    match a with
    | 0 => show 131072 * (4 : Fin 5).val + 16384 * (L 0).val + 1024 * (L 1).val + 64 * (1 : Fin 2).val + 99200 = chunkRow (wid (cV L) (jV L)) ⟨319, by decide⟩
           unfold chunkRow wid; simp only [Fin.val_mk, Fin.coe_castLE]; norm_num; omega
    | 1 => rfl)) _ _
/-- Chunk 319 of the worker's rows, as the program slices it at the end of section 4. -/
abbrev oe51 : Memref sig .scVector .hbm S64x128 .f32 := (outV).slice (Rect.unit (s := S655360x128) (k1_off11 L 622592#32 960#32) S64x128.size (k1_off11_inb L 4 1)) (fun _ => rfl)
omit [FloatOps F] in
theorem pts_oe51 (q : PosShare TreeShare) (f : Buf (Elt F) (outLoc d)) :
    ((oe51 L).view.loc (V d (cV L) (jV L)) ↦[(oe51 L).view.set]{q} f : sProp 𝕄) = outLoc d ↦[chunkSet (wid (cV L) (jV L)) ⟨319, by decide⟩]{q} f := by
  show (_ ↦[((outV).view.slice (Rect.unit (s := S655360x128) (k1_off11 L 622592#32 960#32) S64x128.size (k1_off11_inb L 4 1))).set]{q} f : sProp 𝕄) = _
  rw [oe51_rect L]

end Tile

end Cert.Kernel.KProof

end
-- ==== Proof.Bits.KStaged.lean ====
/-
  What the two staging copies leave in the shared table. A subcore copies 256 rows of the projected part of the gather
  table (rows `256 i …`) onto the same rows of its SparseCore's shared table, and 512 rows of its SparseCore's half of the
  image part (rows `4096 + 8192 c + 512 i …`) onto rows `4096 + 512 i …`. The shared table, as a function of the gather
  table, holds row `r` of it at a row `r` below 4096 and row `4096 + 8192 c + x` at row `4096 + x`: so after one
  whole-slice write of the copied rows the slice's elements hold the shared table.
-/
import proofs.«204824_g46875273068696_cont_8to1_c_371_32_alg».proof.Proof.Bits.KTile
import proofs.«204824_g46875273068696_cont_8to1_c_371_32_alg».proof.Proof.Bits.KFun

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)

local notation "tabV" => (Memref.whole Cert.Kernel.main_v5_scv : Memref Cert.Kernel.sig Kind.scVector Space.hbm Cert.Kernel.S20480x128 EltTy.f32)

variable (TAB : (d : Dev nD) → Buf (Elt F) (tabLoc d))
variable (SH : (d : Dev nD) → (c : Fin τ.nSC) → Buf (Elt F) (shLoc d c))

variable [FloatOps F]

/-- Row `y` of the first staged slice is row `256 i + y` of the shared table, `i` the subcore's number, -/
theorem emb_shA_row (L : grid1.Coords) (y : S256x128.Idx) : (((shA L).view.emb y) 0).val = 256 * (L 1).val + (y 0).val := by
  show k1_off1 L 0 + 1 * (y 0).val = _
  rw [k1_off1_eq]; show 256 * (L 1).val + 1 * (y 0).val = _; omega
theorem emb_shA_col (L : grid1.Coords) (y : S256x128.Idx) : (((shA L).view.emb y) 1).val = (y 1).val := by
  show k1_off1 L 1 + 1 * (y 1).val = _
  rw [k1_off1_eq]; show 0 + 1 * (y 1).val = _; omega
/-- and it is copied from row `256 i + y` of the gather table. -/
theorem emb_srcA_row (L : grid1.Coords) (y : S256x128.Idx) : (((srcA L).view.emb y) 0).val = 256 * (L 1).val + (y 0).val := by
  show k1_off2 L 0 + 1 * (y 0).val = _
  rw [k1_off2_eq]; show 256 * (L 1).val + 1 * (y 0).val = _; omega
theorem emb_srcA_col (L : grid1.Coords) (y : S256x128.Idx) : (((srcA L).view.emb y) 1).val = (y 1).val := by
  show k1_off2 L 1 + 1 * (y 1).val = _
  rw [k1_off2_eq]; show 0 + 1 * (y 1).val = _; omega

/-- Row `y` of the second staged slice is row `4096 + 512 i + y` of the shared table, -/
theorem emb_shB_row (L : grid1.Coords) (y : S512x128.Idx) : (((shB L).view.emb y) 0).val = 512 * (L 1).val + 4096 + (y 0).val := by
  show k1_off3 L 0 + 1 * (y 0).val = _
  rw [k1_off3_eq]; show 512 * (L 1).val + 4096 + 1 * (y 0).val = _; omega
theorem emb_shB_col (L : grid1.Coords) (y : S512x128.Idx) : (((shB L).view.emb y) 1).val = (y 1).val := by
  show k1_off3 L 1 + 1 * (y 1).val = _
  rw [k1_off3_eq]; show 0 + 1 * (y 1).val = _; omega
/-- and it is copied from row `4096 + 8192 c + 512 i + y` of the gather table, `c` the SparseCore's number. -/
theorem emb_srcB_row (L : grid1.Coords) (y : S512x128.Idx) : (((srcB L).view.emb y) 0).val = 8192 * (L 0).val + 512 * (L 1).val + 4096 + (y 0).val := by
  show k1_off4 L 0 + 1 * (y 0).val = _
  rw [k1_off4_eq]; show 8192 * (L 0).val + 512 * (L 1).val + 4096 + 1 * (y 0).val = _; omega
theorem emb_srcB_col (L : grid1.Coords) (y : S512x128.Idx) : (((srcB L).view.emb y) 1).val = (y 1).val := by
  show k1_off4 L 1 + 1 * (y 1).val = _
  rw [k1_off4_eq]; show 0 + 1 * (y 1).val = _; omega

/-- After the first staging copy the slice it wrote holds the shared table's rows: rows below 4096 of the shared table
    are the same rows of the gather table. -/
theorem staged_A (hSH : ∀ (d : Dev nD) (c : Fin τ.nSC), SH d c = KFun.shTab (F := F) (TAB d) (Fin.cast nSC_eq c)) (d : Dev nD) (L : grid1.Coords)
    (fa : Buf (Elt F) (shLoc d (cV L))) :
    ∀ x ∈ (shA L).view.set, (shA L).view.writes (Elt F) fa [⟨Rect.whole S256x128, stagedA TAB d L⟩] x = SH d (cV L) x := by
  intro x hx
  obtain ⟨y, -, rfl⟩ := Finset.mem_map.mp hx
  have h1 := View.read_writes_cons_emb (shA L).view fa (Rect.whole S256x128) (stagedA TAB d L) [] y
  rw [Rect.emb_whole_apply, View.read_apply] at h1
  have hL : (L 1).val < 16 := (L 1).isLt
  have hy : (y 0).val < 256 := (y 0).isLt
  have hlt : (((shA L).view.emb y) 0).val < 4096 := by rw [emb_shA_row]; omega
  refine (cast_eq _ _).symm.trans (h1.trans ?_)
  rw [hSH]
  unfold KFun.shTab
  rw [dif_pos hlt]
  show View.read (Elt F) (srcA L).view (TAB d) y = _
  rw [View.read_apply, cast_eq]
  refine congrArg (TAB d) (funext fun a => Fin.ext ?_)
  match a with
  | ⟨0, _⟩ => exact (emb_srcA_row L y).trans (emb_shA_row L y).symm
  | ⟨1, _⟩ => exact (emb_srcA_col L y).trans (emb_shA_col L y).symm

/-- After the second staging copy the slice it wrote holds the shared table's rows: row `4096 + x` of SparseCore `c`'s
    shared table is row `4096 + 8192 c + x` of the gather table. -/
theorem staged_B (hSH : ∀ (d : Dev nD) (c : Fin τ.nSC), SH d c = KFun.shTab (F := F) (TAB d) (Fin.cast nSC_eq c)) (d : Dev nD) (L : grid1.Coords)
    (fb : Buf (Elt F) (shLoc d (cV L))) :
    ∀ x ∈ (shB L).view.set, (shB L).view.writes (Elt F) fb [⟨Rect.whole S512x128, stagedB TAB d L⟩] x = SH d (cV L) x := by
  intro x hx
  obtain ⟨y, -, rfl⟩ := Finset.mem_map.mp hx
  have h1 := View.read_writes_cons_emb (shB L).view fb (Rect.whole S512x128) (stagedB TAB d L) [] y
  rw [Rect.emb_whole_apply, View.read_apply] at h1
  have hL : (L 1).val < 16 := (L 1).isLt
  have hy : (y 0).val < 512 := (y 0).isLt
  have hge : ¬ (((shB L).view.emb y) 0).val < 4096 := by rw [emb_shB_row]; omega
  refine (cast_eq _ _).symm.trans (h1.trans ?_)
  rw [hSH]
  unfold KFun.shTab
  rw [dif_neg hge]
  show View.read (Elt F) (srcB L).view (TAB d) y = _
  rw [View.read_apply, cast_eq]
  refine congrArg (TAB d) (funext fun a => Fin.ext ?_)
  match a with
  | ⟨0, _⟩ =>
    show (((srcB L).view.emb y) 0).val = (((shB L).view.emb y) 0).val + 8192 * (L 0).val
    rw [emb_srcB_row, emb_shB_row]; omega
  | ⟨1, _⟩ => exact (emb_srcB_col L y).trans (emb_shB_col L y).symm

end Cert.Kernel.KProof

end
-- ==== Proof.Bits.KBody.lean ====
/-
  A vector subcore's task: it stages its rows of the gather table into its SparseCore's shared table, meets the other
  subcores at the barrier (handing each a read share of what it staged, receiving a read share of the whole table), and
  then, section by section and pair by pair, gathers the rows its index list names into its two row buffers and writes
  them out to its chunks of the output — the gathers of the next pair in flight while a pair is written out.
-/
import proofs.«204824_g46875273068696_cont_8to1_c_371_32_alg».proof.Proof.Bits.KTrip1
import proofs.«204824_g46875273068696_cont_8to1_c_371_32_alg».proof.Proof.Bits.KTrip2
import proofs.«204824_g46875273068696_cont_8to1_c_371_32_alg».proof.Proof.Bits.KTrip3
import proofs.«204824_g46875273068696_cont_8to1_c_371_32_alg».proof.Proof.Bits.KTrip4
import proofs.«204824_g46875273068696_cont_8to1_c_371_32_alg».proof.Proof.Bits.KTrip5
import proofs.«204824_g46875273068696_cont_8to1_c_371_32_alg».proof.Proof.Bits.KEnds
import proofs.«204824_g46875273068696_cont_8to1_c_371_32_alg».proof.Proof.Bits.KBarrierPay
import proofs.«204824_g46875273068696_cont_8to1_c_371_32_alg».proof.Proof.Bits.KStaged
import proofs.«204824_g46875273068696_cont_8to1_c_371_32_alg».proof.Proof.Bits.KData

noncomputable section

namespace Cert.Kernel.KProof

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tabV" => (Memref.whole Cert.Kernel.main_v5_scv : Memref Cert.Kernel.sig Kind.scVector Space.hbm Cert.Kernel.S20480x128 EltTy.f32)
local notation "idxV" => (Memref.whole Cert.Kernel.main_v34_scv : Memref Cert.Kernel.sig Kind.scVector Space.hbm Cert.Kernel.S32x160x128 EltTy.i32)
local notation "outV" => (Memref.whole Cert.Kernel.main_v35_scv : Memref Cert.Kernel.sig Kind.scVector Space.hbm Cert.Kernel.S655360x128 EltTy.f32)
local notation "shV" => (Memref.whole Cert.Kernel.cc1_scratch4 : Memref Cert.Kernel.sig Kind.scVector Space.shared Cert.Kernel.S12288x128 EltTy.f32)
local notation "sb0V" => (Memref.whole Cert.Kernel.cc1_scratch0 : Memref Cert.Kernel.sig Kind.scVector Space.vmem Cert.Kernel.S32x128 EltTy.i32)
local notation "sb1V" => (Memref.whole Cert.Kernel.cc1_scratch1 : Memref Cert.Kernel.sig Kind.scVector Space.vmem Cert.Kernel.S32x128 EltTy.i32)
local notation "buf0V" => (Memref.whole Cert.Kernel.cc1_scratch2 : Memref Cert.Kernel.sig Kind.scVector Space.vmem Cert.Kernel.S64x128 EltTy.f32)
local notation "buf1V" => (Memref.whole Cert.Kernel.cc1_scratch3 : Memref Cert.Kernel.sig Kind.scVector Space.vmem Cert.Kernel.S64x128 EltTy.f32)

variable (m : (ℓ : Loc nD τ sig) → Buf (Elt F) ℓ) (ρ : Dev nD → PrngReg)
variable (TAB : (d : Dev nD) → Buf (Elt F) (tabLoc d)) (IDX : (d : Dev nD) → Buf (Elt F) (idxLoc d)) (OUT : (d : Dev nD) → Buf (Elt F) (outLoc d))
variable (SH : (d : Dev nD) → (c : Fin τ.nSC) → Buf (Elt F) (shLoc d c))

variable [FloatOps F]

section Tile
variable (d : Dev nD) (L : grid1.Coords)

/-- All the worker's chunks gathered: its rows of the output hold what the kernel leaves there. -/
theorem out_final (w : Fin 32) (n : ℕ) (hn : 320 ≤ n) : outUpTo OUT d w n ⊢ outChunks d w (OUT d) := by
  unfold outUpTo
  refine SparseCore.ent (bigSep_mono fun j _ => ?_)
  exact (show (iprop(∃ f, (outLoc d ↦[chunkSet w j]{fullShare} f) ∗ ⌜j.val < n → ∀ x ∈ chunkSet w j, f x = OUT d x⌝) : sProp 𝕄)
      ⊢ (outLoc d ↦[chunkSet w j]{fullShare} OUT d) from by
    iintro ⟨%f, H, %hf⟩
    iapply (Entails.of_eq (pointsTo_congr (hf (by have := j.isLt; omega))))
    iexact H)

include OUT in
set_option maxHeartbeats 64000000 in
theorem tile_body (hF : (K (F := F)).Facts)
    (hSH : ∀ (d : Dev nD) (c : Fin τ.nSC), SH d c = KFun.shTab (F := F) (TAB d) (Fin.cast nSC_eq c))
    (hOUT : ∀ d : Dev nD, OUT d = KFun.scOut (F := F) (TAB d) (IDX d))
    (hIDX : ∀ (d : Dev nD) (x : S32x160x128.Idx), ((IDX d x : BitVec 32)).toNat < 12288)
    (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit SH d (cV L) (jV L)
        ∗ goPts m TAB IDX d (cV L) (jV L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1_sc_kernel L tabV (Memref.isWhole_whole _) idxV (Memref.isWhole_whole _) outV (Memref.isWhole_whole _) sb0V (Memref.isWhole_whole _) sb1V (Memref.isWhole_whole _)
            buf0V (Memref.isWhole_whole _) buf1V (Memref.isWhole_whole _) shV (Memref.isWhole_whole _)
            cc1_scratch5 cc1_scratch6 cc1_scratch7 cc1_scratch8 cc1_scratch9 cc1_scoped0 cc1_scoped1 cc1_scoped2)
          fun _ => iprop(tdPts TAB IDX OUT SH d (cV L) (jV L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1_sc_kernel_eq_skeleton]; unfold cc1_sc_kernel_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Htab, Hidx, Hout, ⟨%fa, HshA⟩, ⟨%fb, HshB⟩⟩, ⟨⟨⟨%f0, Hsb0⟩, ⟨%f1, Hsb1⟩, ⟨%f2, Hb0⟩, ⟨%f3, Hb1⟩⟩, Hbufs⟩, ⟨⟨Hgs0, Hgs1, Hos0, Hos1, Hss, Hr0, Hr1, Hr2⟩, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Htab' := (Entails.of_eq (pts_tab (F := F) d L _ _).symm) $$ Htab
  ihave Hidx' := (Entails.of_eq (pts_idx (F := F) d L _ _).symm) $$ Hidx
  ihave HshA' := (Entails.of_eq (pts_shA (F := F) d L _ _).symm) $$ HshA
  ihave HshB' := (Entails.of_eq (pts_shB (F := F) d L _ _).symm) $$ HshB
  ihave Hsb0' := (Entails.of_eq (pts_sb0 (F := F) d L _).symm) $$ Hsb0
  ihave Hsb1' := (Entails.of_eq (pts_sb1 (F := F) d L _).symm) $$ Hsb1
  ihave Hb0' := (Entails.of_eq (pts_buf0 (F := F) d L _).symm) $$ Hb0
  ihave Hb1' := (Entails.of_eq (pts_buf1 (F := F) d L _).symm) $$ Hb1
  -- the three staging copies
  sl_exec
  rw [show tile_body.sl.dma0 TAB d L = stagedA TAB d L from rfl, show tile_body.sl.dma0_1 TAB d L = stagedB TAB d L from rfl]
  -- the staged rows hold the table's contents
  ihave HshA2 := (Entails.of_eq ((pointsTo_congr (fun x hx => staged_A TAB SH hSH d L fa x hx)).trans (pts_shA (F := F) d L _ _))) $$ HshA'
  ihave HshB2 := (Entails.of_eq ((pointsTo_congr (fun x hx => staged_B TAB SH hSH d L fb x hx)).trans (pts_shB (F := F) d L _ _))) $$ HshB'
  ihave Hp := (pays_intro SH d (cV L) (jV L)) $$ [HshA2 HshB2]
  · isplitl [HshA2] <;> iassumption
  icases Hp with ⟨Hpays, HrestA, HrestB⟩
  -- the barrier: a read share of the staged rows to every subcore's round, a read share of the whole table from its own
  iapply (SparseCore.wp_subcoreBarrier 𝒱₀ none EB (bRd (F := F) SH) d (sc := cV L) (i := jV L) sc_bar0 (grid1.bound 1) hsub1 (L 1) rfl κ (fun _ => 0) (jV L).val
      (fun j => bRd_mem₀ SH d _ _ _) (fun _ => rfl) (bRd_expect SH d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hsh := (pays_elim SH d (cV L) (jV L)) $$ Hgot
  ihave Hsh' := (Entails.of_eq (show ((shV).view.loc (V d (cV L) (jV L)) ↦{shTok (jV L)} SH d (cV L) : sProp 𝕄) = shLoc d (cV L) ↦{shTok (jV L)} SH d (cV L) from by
    simp only [Memref.view_whole, View.set_whole]; rfl).symm) $$ Hsh
  -- the read share of the shared table, one token per gather slot's semaphore (cells 4 and 5) and the rest
  have htoks : (((shV).view.loc (V d (cV L) (jV L)) ↦{shTok (jV L)} SH d (cV L)) : sProp 𝕄)
      ⊣⊢ iprop((((shV).view.loc (V d (cV L) (jV L)) ↦{Transfers.shareDrop (shTok (jV L)) 6} SH d (cV L)))
          ∗ (((shV).view.loc (V d (cV L) (jV L)) ↦{Transfers.shareTokN (shTok (jV L)) 4} SH d (cV L)))
          ∗ (((shV).view.loc (V d (cV L) (jV L)) ↦{Transfers.shareTokN (shTok (jV L)) 5} SH d (cV L)))
          ∗ bigSep ({0, 1, 2, 3} : Finset ℕ) fun i => ((shV).view.loc (V d (cV L) (jV L)) ↦{Transfers.shareTokN (shTok (jV L)) i} SH d (cV L))) := by
    have h := Transfers.pointsTo_toks_range (nD := nD) (τ := τ) (sig := sig) (Ix := HIx 1) (Val := Elt F) (Name := ℕ) (U := UU) (Lvl := ℕ)
      (ℓ := (shV).view.loc (V d (cV L) (jV L))) (S := Finset.univ) (f := SH d (cV L)) (shTok (jV L)) 6
    rw [show Finset.range 6 = insert 4 (insert 5 {0, 1, 2, 3}) from by decide, bigSep_insert (by decide), bigSep_insert (by decide)] at h
    exact h
  have htoks45 := htoks.1
  ihave Hsplit := htoks45 $$ Hsh'
  icases Hsplit with ⟨HshD, Hsh4, Hsh5, HshT⟩
  -- the staged index rows are entries of the index array: in range, at any window of the staging buffer
  have hsb0 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_2 IDX d L) Finset.univ) x : BitVec 32).toNat < 12288 := by
    intro g off inb hs sq x
    simp only [Memref.view_whole, View.write_whole_univ]
    exact hIDX d _
  have hC1 : ∀ x : S32x128.Idx, (View.write (Elt F) (sb0V).view f0 (tile_body.sl.dma0_2 IDX d L) Finset.univ) x
      = IDX d (ValueIdx.ix3 (wid (cV L) (jV L)) ⟨32 * (0 : Fin 5).val + (x 0).val, by have := ValueIdx.idx2_lt0 x; simp only [Fin.val_zero]; omega⟩ ⟨(x 1).val, ValueIdx.idx2_lt1 x⟩) := fun x => by
    rw [sb0_written]; exact secIdx0 IDX d L x
  -- the first pair's gathers, the next section's indices on their way
  sl_exec
  -- the worker's chunks: none gathered yet
  ihave Hout0 := (out_init (F := F) m OUT d (wid (cV L) (jV L))) $$ Hout
  sl_for (sec0 OUT SH d L O W 0 (View.write (Elt F) (sb0V).view f0 (tile_body.sl.dma0_2 IDX d L) Finset.univ)) $$ [Hmw2 Hgs0 Hsh4 Hb0' Hgs1 Hsh5 Hb1' Hsb0' Hos0 Hos1 Hout0 HO]
  case region =>
    intro k acc
    exact trip1 TAB IDX OUT SH d L hSH hOUT hIDX O W _ hC1 _ k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact .inl hp
    isplitr
    · ipureintro
      exact gathered_read00 TAB IDX OUT SH d L hSH hOUT hIDX 0 0 0 _ _ _ _ (by funext a; match a with | 0 => rfl | 1 => rfl) _ hC1 _ _ _ _ (by simp)
    · ipureintro
      exact gathered_read10 TAB IDX OUT SH d L hSH hOUT hIDX 0 0 1 _ _ _ _ (by funext a; match a with | 0 => rfl | 1 => rfl) _ hC1 _ _ _ _ (by simp)
  iintro %x1 HI
  ihave HI := (Entails.of_eq (congrArg (fun n => sec0 OUT SH d L O W 0 (View.write (Elt F) (sb0V).view f0 (tile_body.sl.dma0_2 IDX d L) Finset.univ) n x1)
    (show Scf.trips k1_t1_loop.lb k1_t1_loop.ub k1_t1_loop.st = 31 from k1_t1_trips))) $$ HI
  unfold sec0
  icases HI with ⟨%B0_1, %B1_1, -, Hgs0, Hsh4, Hb0', Hgs1, Hsh5, Hb1', Hsb0', Hos0, Hos1, Hout, ⟨%W1, %hW1, HO⟩, %hg0_1, %hg1_1⟩
  ihave Hout' := (Entails.of_eq (out_take2 (F := F) OUT d (wid (cV L) (jV L)) (0 + 2 * 31) ⟨62, by decide⟩ ⟨63, by decide⟩ (by decide))) $$ Hout
  icases Hout' with ⟨⟨%fe0_1, He0, %he0_1⟩, ⟨%fe1_1, He1, %he1_1⟩, Hrest⟩
  ihave He0' := (Entails.of_eq (pts_oe10 (F := F) d L _ _).symm) $$ He0
  ihave He1' := (Entails.of_eq (pts_oe11 (F := F) d L _ _).symm) $$ He1
  have hsb2 : ∀ (g : Buf (Elt F) ((sb1V).view.loc (V d (cV L) (jV L)))) (off : Fin 2 → ℕ) (inb : ∀ a, off a + S1x64.size a ≤ S32x128.size a) (hs) (sq : S1x64.Squeezes S64),
      ∀ x : S64.Idx, (View.read (Elt F) (((sb1V).slice (Rect.unit (s := S32x128) off S1x64.size inb) hs).squeeze S64 sq).view
        (View.write (Elt F) (sb1V).view g (tile_body.sl.dma0_3 IDX d L) Finset.univ) x : BitVec 32).toNat < 12288 := by
    intro g off inb hs sq x
    simp only [Memref.view_whole, View.write_whole_univ]
    exact hIDX d _
  sl_exec
  have hC2 : ∀ x : S32x128.Idx, (View.write (Elt F) (sb1V).view f1 (tile_body.sl.dma0_3 IDX d L) Finset.univ) x
      = IDX d (ValueIdx.ix3 (wid (cV L) (jV L)) ⟨32 * (⟨1, by decide⟩ : Fin 5).val + (x 0).val, by have := ValueIdx.idx2_lt0 x; simp only [Fin.val_mk]; omega⟩ ⟨(x 1).val, ValueIdx.idx2_lt1 x⟩) := fun x => by
    rw [sb1_written]; exact secIdx1 IDX d L x
  -- the last pair of section 0 is written: 64 chunks hold the gathered rows
  ihave Hout0 := (Entails.of_eq (out_take2 (F := F) OUT d (wid (cV L) (jV L)) (0 + 2 * 31 + 2) ⟨62, by decide⟩ ⟨63, by decide⟩ (by decide)).symm) $$ [He0' He1' Hrest]
  · isplitl [He0']
    · iexists _; isplitl [He0']
      · iapply (Entails.of_eq (pts_oe10 (F := F) d L _ _)); iexact He0'
      · ipureintro; intro _
        exact written_read0 OUT d L (wid (cV L) (jV L)) ⟨62, by decide⟩ B0_1 (hg0_1 _) _ _ _ _ (oe10_rect L)
    isplitl [He1']
    · iexists _; isplitl [He1']
      · iapply (Entails.of_eq (pts_oe11 (F := F) d L _ _)); iexact He1'
      · ipureintro; intro _
        exact written_read1 OUT d L (wid (cV L) (jV L)) ⟨63, by decide⟩ B1_1 (hg1_1 _) _ _ _ _ (oe11_rect L)
    iapply (out_rest_mono (F := F) OUT d (wid (cV L) (jV L)) (0 + 2 * 31) ⟨62, _⟩ ⟨63, _⟩ rfl rfl)
    iexact Hrest
  sl_for (sec1 OUT SH d L O W 64 (View.write (Elt F) (sb1V).view f1 (tile_body.sl.dma0_3 IDX d L) Finset.univ)) $$ [Hmw2 Hgs0 Hsh4 Hb0' Hgs1 Hsh5 Hb1' Hsb1' Hos0 Hos1 Hout0 HO]
  case region =>
    intro k acc
    exact trip2 TAB IDX OUT SH d L hSH hOUT hIDX O W _ hC2 _ k acc
  · unfold sec1
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb1']; · iexact Hsb1'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW1 p hp
    isplitr
    · ipureintro
      exact gathered_read01 TAB IDX OUT SH d L hSH hOUT hIDX ⟨1, by decide⟩ 0 0 _ _ _ _ (by funext a; match a with | 0 => rfl | 1 => rfl) _ hC2 _ _ _ _ (by simp)
    · ipureintro
      exact gathered_read11 TAB IDX OUT SH d L hSH hOUT hIDX ⟨1, by decide⟩ 0 1 _ _ _ _ (by funext a; match a with | 0 => rfl | 1 => rfl) _ hC2 _ _ _ _ (by simp)
  iintro %x2 HI
  ihave HI := (Entails.of_eq (congrArg (fun n => sec1 OUT SH d L O W 64 (View.write (Elt F) (sb1V).view f1 (tile_body.sl.dma0_3 IDX d L) Finset.univ) n x2)
    (show Scf.trips k1_t2_loop.lb k1_t2_loop.ub k1_t2_loop.st = 31 from k1_t2_trips))) $$ HI
  unfold sec1
  icases HI with ⟨%B0_2, %B1_2, -, Hgs0, Hsh4, Hb0', Hgs1, Hsh5, Hb1', Hsb1', Hos0, Hos1, Hout, ⟨%W2, %hW2, HO⟩, %hg0_2, %hg1_2⟩
  ihave Hout' := (Entails.of_eq (out_take2 (F := F) OUT d (wid (cV L) (jV L)) (64 + 2 * 31) ⟨126, by decide⟩ ⟨127, by decide⟩ (by decide))) $$ Hout
  icases Hout' with ⟨⟨%fe0_2, He0, %he0_2⟩, ⟨%fe1_2, He1, %he1_2⟩, Hrest⟩
  ihave He0' := (Entails.of_eq (pts_oe20 (F := F) d L _ _).symm) $$ He0
  ihave He1' := (Entails.of_eq (pts_oe21 (F := F) d L _ _).symm) $$ He1
  have hsb3 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_6 IDX d L) Finset.univ) x : BitVec 32).toNat < 12288 := by
    intro g off inb hs sq x
    simp only [Memref.view_whole, View.write_whole_univ]
    exact hIDX d _
  sl_exec
  have hC3 : ∀ x : S32x128.Idx, (View.write (Elt F) (sb0V).view (View.write (Elt F) (sb0V).view f0 (tile_body.sl.dma0_2 IDX d L) Finset.univ) (tile_body.sl.dma0_6 IDX d L) Finset.univ) x
      = IDX d (ValueIdx.ix3 (wid (cV L) (jV L)) ⟨32 * (⟨2, by decide⟩ : Fin 5).val + (x 0).val, by have := ValueIdx.idx2_lt0 x; simp only [Fin.val_mk]; omega⟩ ⟨(x 1).val, ValueIdx.idx2_lt1 x⟩) := fun x => by
    rw [sb0_written]; exact secIdx2 IDX d L x
  -- the last pair of section 1 is written: 128 chunks hold the gathered rows
  ihave Hout0 := (Entails.of_eq (out_take2 (F := F) OUT d (wid (cV L) (jV L)) (64 + 2 * 31 + 2) ⟨126, by decide⟩ ⟨127, by decide⟩ (by decide)).symm) $$ [He0' He1' Hrest]
  · isplitl [He0']
    · iexists _; isplitl [He0']
      · iapply (Entails.of_eq (pts_oe20 (F := F) d L _ _)); iexact He0'
      · ipureintro; intro _
        exact written_read0 OUT d L (wid (cV L) (jV L)) ⟨126, by decide⟩ B0_2 (hg0_2 _) _ _ _ _ (oe20_rect L)
    isplitl [He1']
    · iexists _; isplitl [He1']
      · iapply (Entails.of_eq (pts_oe21 (F := F) d L _ _)); iexact He1'
      · ipureintro; intro _
        exact written_read1 OUT d L (wid (cV L) (jV L)) ⟨127, by decide⟩ B1_2 (hg1_2 _) _ _ _ _ (oe21_rect L)
    iapply (out_rest_mono (F := F) OUT d (wid (cV L) (jV L)) (64 + 2 * 31) ⟨126, _⟩ ⟨127, _⟩ rfl rfl)
    iexact Hrest
  sl_for (sec0 OUT SH d L O W 128 (View.write (Elt F) (sb0V).view (View.write (Elt F) (sb0V).view f0 (tile_body.sl.dma0_2 IDX d L) Finset.univ) (tile_body.sl.dma0_6 IDX d L) Finset.univ)) $$ [Hmw2 Hgs0 Hsh4 Hb0' Hgs1 Hsh5 Hb1' Hsb0' Hos0 Hos1 Hout0 HO]
  case region =>
    intro k acc
    exact trip3 TAB IDX OUT SH d L hSH hOUT hIDX O W _ hC3 _ k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW2 p hp
    isplitr
    · ipureintro
      exact gathered_read00 TAB IDX OUT SH d L hSH hOUT hIDX ⟨2, by decide⟩ 0 0 _ _ _ _ (by funext a; match a with | 0 => rfl | 1 => rfl) _ hC3 _ _ _ _ (by simp)
    · ipureintro
      exact gathered_read10 TAB IDX OUT SH d L hSH hOUT hIDX ⟨2, by decide⟩ 0 1 _ _ _ _ (by funext a; match a with | 0 => rfl | 1 => rfl) _ hC3 _ _ _ _ (by simp)
  iintro %x3 HI
  ihave HI := (Entails.of_eq (congrArg (fun n => sec0 OUT SH d L O W 128 (View.write (Elt F) (sb0V).view (View.write (Elt F) (sb0V).view f0 (tile_body.sl.dma0_2 IDX d L) Finset.univ) (tile_body.sl.dma0_6 IDX d L) Finset.univ) n x3)
    (show Scf.trips k1_t3_loop.lb k1_t3_loop.ub k1_t3_loop.st = 31 from k1_t3_trips))) $$ HI
  unfold sec0
  icases HI with ⟨%B0_3, %B1_3, -, Hgs0, Hsh4, Hb0', Hgs1, Hsh5, Hb1', Hsb0', Hos0, Hos1, Hout, ⟨%W3, %hW3, HO⟩, %hg0_3, %hg1_3⟩
  ihave Hout' := (Entails.of_eq (out_take2 (F := F) OUT d (wid (cV L) (jV L)) (128 + 2 * 31) ⟨190, by decide⟩ ⟨191, by decide⟩ (by decide))) $$ Hout
  icases Hout' with ⟨⟨%fe0_3, He0, %he0_3⟩, ⟨%fe1_3, He1, %he1_3⟩, Hrest⟩
  ihave He0' := (Entails.of_eq (pts_oe30 (F := F) d L _ _).symm) $$ He0
  ihave He1' := (Entails.of_eq (pts_oe31 (F := F) d L _ _).symm) $$ He1
  have hsb4 : ∀ (g : Buf (Elt F) ((sb1V).view.loc (V d (cV L) (jV L)))) (off : Fin 2 → ℕ) (inb : ∀ a, off a + S1x64.size a ≤ S32x128.size a) (hs) (sq : S1x64.Squeezes S64),
      ∀ x : S64.Idx, (View.read (Elt F) (((sb1V).slice (Rect.unit (s := S32x128) off S1x64.size inb) hs).squeeze S64 sq).view
        (View.write (Elt F) (sb1V).view g (tile_body.sl.dma0_9 IDX d L) Finset.univ) x : BitVec 32).toNat < 12288 := by
    intro g off inb hs sq x
    simp only [Memref.view_whole, View.write_whole_univ]
    exact hIDX d _
  sl_exec
  have hC4 : ∀ x : S32x128.Idx, (View.write (Elt F) (sb1V).view (View.write (Elt F) (sb1V).view f1 (tile_body.sl.dma0_3 IDX d L) Finset.univ) (tile_body.sl.dma0_9 IDX d L) Finset.univ) x
      = IDX d (ValueIdx.ix3 (wid (cV L) (jV L)) ⟨32 * (⟨3, by decide⟩ : Fin 5).val + (x 0).val, by have := ValueIdx.idx2_lt0 x; simp only [Fin.val_mk]; omega⟩ ⟨(x 1).val, ValueIdx.idx2_lt1 x⟩) := fun x => by
    rw [sb1_written]; exact secIdx3 IDX d L x
  -- the last pair of section 2 is written: 192 chunks hold the gathered rows
  ihave Hout0 := (Entails.of_eq (out_take2 (F := F) OUT d (wid (cV L) (jV L)) (128 + 2 * 31 + 2) ⟨190, by decide⟩ ⟨191, by decide⟩ (by decide)).symm) $$ [He0' He1' Hrest]
  · isplitl [He0']
    · iexists _; isplitl [He0']
      · iapply (Entails.of_eq (pts_oe30 (F := F) d L _ _)); iexact He0'
      · ipureintro; intro _
        exact written_read0 OUT d L (wid (cV L) (jV L)) ⟨190, by decide⟩ B0_3 (hg0_3 _) _ _ _ _ (oe30_rect L)
    isplitl [He1']
    · iexists _; isplitl [He1']
      · iapply (Entails.of_eq (pts_oe31 (F := F) d L _ _)); iexact He1'
      · ipureintro; intro _
        exact written_read1 OUT d L (wid (cV L) (jV L)) ⟨191, by decide⟩ B1_3 (hg1_3 _) _ _ _ _ (oe31_rect L)
    iapply (out_rest_mono (F := F) OUT d (wid (cV L) (jV L)) (128 + 2 * 31) ⟨190, _⟩ ⟨191, _⟩ rfl rfl)
    iexact Hrest
  sl_for (sec1 OUT SH d L O W 192 (View.write (Elt F) (sb1V).view (View.write (Elt F) (sb1V).view f1 (tile_body.sl.dma0_3 IDX d L) Finset.univ) (tile_body.sl.dma0_9 IDX d L) Finset.univ)) $$ [Hmw2 Hgs0 Hsh4 Hb0' Hgs1 Hsh5 Hb1' Hsb1' Hos0 Hos1 Hout0 HO]
  case region =>
    intro k acc
    exact trip4 TAB IDX OUT SH d L hSH hOUT hIDX O W _ hC4 _ k acc
  · unfold sec1
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb1']; · iexact Hsb1'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW3 p hp
    isplitr
    · ipureintro
      exact gathered_read01 TAB IDX OUT SH d L hSH hOUT hIDX ⟨3, by decide⟩ 0 0 _ _ _ _ (by funext a; match a with | 0 => rfl | 1 => rfl) _ hC4 _ _ _ _ (by simp)
    · ipureintro
      exact gathered_read11 TAB IDX OUT SH d L hSH hOUT hIDX ⟨3, by decide⟩ 0 1 _ _ _ _ (by funext a; match a with | 0 => rfl | 1 => rfl) _ hC4 _ _ _ _ (by simp)
  iintro %x4 HI
  ihave HI := (Entails.of_eq (congrArg (fun n => sec1 OUT SH d L O W 192 (View.write (Elt F) (sb1V).view (View.write (Elt F) (sb1V).view f1 (tile_body.sl.dma0_3 IDX d L) Finset.univ) (tile_body.sl.dma0_9 IDX d L) Finset.univ) n x4)
    (show Scf.trips k1_t4_loop.lb k1_t4_loop.ub k1_t4_loop.st = 31 from k1_t4_trips))) $$ HI
  unfold sec1
  icases HI with ⟨%B0_4, %B1_4, -, Hgs0, Hsh4, Hb0', Hgs1, Hsh5, Hb1', Hsb1', Hos0, Hos1, Hout, ⟨%W4, %hW4, HO⟩, %hg0_4, %hg1_4⟩
  ihave Hout' := (Entails.of_eq (out_take2 (F := F) OUT d (wid (cV L) (jV L)) (192 + 2 * 31) ⟨254, by decide⟩ ⟨255, by decide⟩ (by decide))) $$ Hout
  icases Hout' with ⟨⟨%fe0_4, He0, %he0_4⟩, ⟨%fe1_4, He1, %he1_4⟩, Hrest⟩
  ihave He0' := (Entails.of_eq (pts_oe40 (F := F) d L _ _).symm) $$ He0
  ihave He1' := (Entails.of_eq (pts_oe41 (F := F) d L _ _).symm) $$ He1
  have hsb5 : ∀ (g : Buf (Elt F) ((sb0V).view.loc (V d (cV L) (jV L)))) (off : Fin 2 → ℕ) (inb : ∀ a, off a + S1x64.size a ≤ S32x128.size a) (hs) (sq : S1x64.Squeezes S64),
      ∀ x : S64.Idx, (View.read (Elt F) (((sb0V).slice (Rect.unit (s := S32x128) off S1x64.size inb) hs).squeeze S64 sq).view
        (View.write (Elt F) (sb0V).view g (tile_body.sl.dma0_12 IDX d L) Finset.univ) x : BitVec 32).toNat < 12288 := by
    intro g off inb hs sq x
    simp only [Memref.view_whole, View.write_whole_univ]
    exact hIDX d _
  sl_exec
  have hC5 : ∀ x : S32x128.Idx, (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ) x
      = IDX d (ValueIdx.ix3 (wid (cV L) (jV L)) ⟨32 * (⟨4, by decide⟩ : Fin 5).val + (x 0).val, by have := ValueIdx.idx2_lt0 x; simp only [Fin.val_mk]; omega⟩ ⟨(x 1).val, ValueIdx.idx2_lt1 x⟩) := fun x => by
    rw [sb0_written]; exact secIdx4 IDX d L x
  -- the last pair of section 3 is written: 256 chunks hold the gathered rows
  ihave Hout0 := (Entails.of_eq (out_take2 (F := F) OUT d (wid (cV L) (jV L)) (192 + 2 * 31 + 2) ⟨254, by decide⟩ ⟨255, by decide⟩ (by decide)).symm) $$ [He0' He1' Hrest]
  · isplitl [He0']
    · iexists _; isplitl [He0']
      · iapply (Entails.of_eq (pts_oe40 (F := F) d L _ _)); iexact He0'
      · ipureintro; intro _
        exact written_read0 OUT d L (wid (cV L) (jV L)) ⟨254, by decide⟩ B0_4 (hg0_4 _) _ _ _ _ (oe40_rect L)
    isplitl [He1']
    · iexists _; isplitl [He1']
      · iapply (Entails.of_eq (pts_oe41 (F := F) d L _ _)); iexact He1'
      · ipureintro; intro _
        exact written_read1 OUT d L (wid (cV L) (jV L)) ⟨255, by decide⟩ B1_4 (hg1_4 _) _ _ _ _ (oe41_rect L)
    iapply (out_rest_mono (F := F) OUT d (wid (cV L) (jV L)) (192 + 2 * 31) ⟨254, _⟩ ⟨255, _⟩ rfl rfl)
    iexact Hrest
  sl_for (sec0 OUT SH d L O W 256 (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ)) $$ [Hmw2 Hgs0 Hsh4 Hb0' Hgs1 Hsh5 Hb1' Hsb0' Hos0 Hos1 Hout0 HO]
  case region =>
    intro k acc
    exact trip5 TAB IDX OUT SH d L hSH hOUT hIDX O W _ hC5 _ (v188 := 0#32) k acc
  · unfold sec0
    iexists _, _
    isplitl [Hmw2]; · iexact Hmw2
    isplitl [Hgs0]; · iexact Hgs0
    isplitl [Hsh4]; · iexact Hsh4
    isplitl [Hb0']; · iexact Hb0'
    isplitl [Hgs1]; · iexact Hgs1
    isplitl [Hsh5]; · iexact Hsh5
    isplitl [Hb1']; · iexact Hb1'
    isplitl [Hsb0']; · iexact Hsb0'
    isplitl [Hos0]; · iexact Hos0
    isplitl [Hos1]; · iexact Hos1
    isplitl [Hout0]; · iexact Hout0
    isplitl [HO]
    · iexists _; isplitr
      swap; · iexact HO
      ipureintro; intro p hp
      repeat (rcases Finset.mem_insert.mp hp with hp | hp; · first | exact .inr (.inl (hp ▸ rfl)) | exact .inr (.inr (hp ▸ rfl)))
      exact hW4 p hp
    isplitr
    · ipureintro
      exact gathered_read00 TAB IDX OUT SH d L hSH hOUT hIDX ⟨4, by decide⟩ 0 0 _ _ _ _ (by funext a; match a with | 0 => rfl | 1 => rfl) _ hC5 _ _ _ _ (by simp)
    · ipureintro
      exact gathered_read10 TAB IDX OUT SH d L hSH hOUT hIDX ⟨4, by decide⟩ 0 1 _ _ _ _ (by funext a; match a with | 0 => rfl | 1 => rfl) _ hC5 _ _ _ _ (by simp)
  iintro %x5 HI
  ihave HI := (Entails.of_eq (congrArg (fun n => sec0 OUT SH d L O W 256 (View.write (Elt F) (sb0V).view (View.write (Elt F) (sb0V).view (View.write (Elt F) (sb0V).view f0 (tile_body.sl.dma0_2 IDX d L) Finset.univ) (tile_body.sl.dma0_6 IDX d L) Finset.univ) (tile_body.sl.dma0_12 IDX d L) Finset.univ) n x5)
    (show Scf.trips k1_t5_loop.lb k1_t5_loop.ub k1_t5_loop.st = 31 from k1_t5_trips))) $$ HI
  unfold sec0
  icases HI with ⟨%B0_5, %B1_5, -, Hgs0, Hsh4, Hb0', Hgs1, Hsh5, Hb1', Hsb0', Hos0, Hos1, Hout, ⟨%W5, %hW5, HO⟩, %hg0_5, %hg1_5⟩
  ihave Hout' := (Entails.of_eq (out_take2 (F := F) OUT d (wid (cV L) (jV L)) (256 + 2 * 31) ⟨318, by decide⟩ ⟨319, by decide⟩ (by decide))) $$ Hout
  icases Hout' with ⟨⟨%fe0_5, He0, %he0_5⟩, ⟨%fe1_5, He1, %he1_5⟩, Hrest⟩
  ihave He0' := (Entails.of_eq (pts_oe50 (F := F) d L _ _).symm) $$ He0
  ihave He1' := (Entails.of_eq (pts_oe51 (F := F) d L _ _).symm) $$ He1
  sl_exec
  sl_step
  -- the last pair of section 4 is written: all 320 chunks hold the gathered rows
  ihave Hout0 := (Entails.of_eq (out_take2 (F := F) OUT d (wid (cV L) (jV L)) (256 + 2 * 31 + 2) ⟨318, by decide⟩ ⟨319, by decide⟩ (by decide)).symm) $$ [He0' He1' Hrest]
  · isplitl [He0']
    · iexists _; isplitl [He0']
      · iapply (Entails.of_eq (pts_oe50 (F := F) d L _ _)); iexact He0'
      · ipureintro; intro _
        exact written_read0 OUT d L (wid (cV L) (jV L)) ⟨318, by decide⟩ B0_5 (hg0_5 _) _ _ _ _ (oe50_rect L)
    isplitl [He1']
    · iexists _; isplitl [He1']
      · iapply (Entails.of_eq (pts_oe51 (F := F) d L _ _)); iexact He1'
      · ipureintro; intro _
        exact written_read1 OUT d L (wid (cV L) (jV L)) ⟨319, by decide⟩ B1_5 (hg1_5 _) _ _ _ _ (oe51_rect L)
    iapply (out_rest_mono (F := F) OUT d (wid (cV L) (jV L)) (256 + 2 * 31) ⟨318, _⟩ ⟨319, _⟩ rfl rfl)
    iexact Hrest
  ihave Hout1 := (out_final (F := F) OUT d (wid (cV L) (jV L)) (256 + 2 * 31 + 2) (by decide)) $$ Hout0
  -- the read share of the shared table, whole again
  have htoks45r := htoks.2
  ihave Hshw := htoks45r $$ [HshD Hsh4 Hsh5 HshT]
  · isplitl [HshD]; · iexact HshD
    isplitl [Hsh4]; · iexact Hsh4
    isplitl [Hsh5]; · iexact Hsh5
    iexact HshT
  ihave Hshw' := (Entails.of_eq (show ((shV).view.loc (V d (cV L) (jV L)) ↦{shTok (jV L)} SH d (cV L) : sProp 𝕄) = shLoc d (cV L) ↦{shTok (jV L)} SH d (cV L) from by
    simp only [Memref.view_whole, View.set_whole]; rfl)) $$ Hshw
  isplitl [Htab' Hidx' Hout1 Hshw' HrestA HrestB]
  · isplitl [Htab']; · iapply (Entails.of_eq (pts_tab (F := F) d L _ _)); iexact Htab'
    isplitl [Hidx']; · iapply (Entails.of_eq (pts_idx (F := F) d L _ _)); iexact Hidx'
    isplitl [Hout1]; · iexact Hout1
    isplitl [Hshw']; · iexact Hshw'
    isplitl [HrestA]; · iexact HrestA
    iexact HrestB
  isplitl [Hsb0' Hsb1' Hb0' Hb1' Hbufs]
  · isplitl [Hsb0' Hsb1' Hb0' Hb1']
    · isplitl [Hsb0']; · iexists _; iapply (Entails.of_eq (pts_sb0 (F := F) d L _)); iexact Hsb0'
      isplitl [Hsb1']; · iexists _; iapply (Entails.of_eq (pts_sb1 (F := F) d L _)); iexact Hsb1'
      isplitl [Hb0']; · iexists _; iapply (Entails.of_eq (pts_buf0 (F := F) d L _)); iexact Hb0'
      iexists _; iapply (Entails.of_eq (pts_buf1 (F := F) d L _)); iexact Hb1'
    · iexact Hbufs
  isplitl [Hgs0 Hgs1 Hos0 Hos1 Hss Hr0 Hr1 Hr2 Hsems]
  · isplitl [Hgs0 Hgs1 Hos0 Hos1 Hss Hr0 Hr1 Hr2]
    · isplitl [Hgs0]; · iexact Hgs0
      isplitl [Hgs1]; · iexact Hgs1
      isplitl [Hos0]; · iexact Hos0
      isplitl [Hos1]; · iexact Hos1
      isplitl [Hss]; · iexact Hss
      isplitl [Hr0]; · iexact Hr0
      isplitl [Hr1]; · iexact Hr1
      iexact Hr2
    · iexact Hsems
  iexists _; isplitr
  swap; · iexact HO
  ipureintro; intro p hp
  repeat (rcases Finset.mem_insert.mp hp with hp | hp; · first | exact .inr (.inl (hp ▸ rfl)) | exact .inr (.inr (hp ▸ rfl)))
  exact hW5 p hp

end Tile

/-! ### The task's obligation to the launch -/

omit [FloatOps F] in
/-- The coordinates of subcore `s` of SparseCore `c` in the kernel's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_kernel (coordsV c s) tabV (Memref.isWhole_whole _) idxV (Memref.isWhole_whole _) outV (Memref.isWhole_whole _)
          sb0V (Memref.isWhole_whole _) sb1V (Memref.isWhole_whole _) buf0V (Memref.isWhole_whole _) buf1V (Memref.isWhole_whole _) shV (Memref.isWhole_whole _)
          cc1_scratch5 cc1_scratch6 cc1_scratch7 cc1_scratch8 cc1_scratch9 cc1_scoped0 cc1_scoped1 cc1_scoped2) ⟨⟩ c s := rfl

theorem tileObl (hIDX : ∀ (d : Dev nD) (x : S32x160x128.Idx), ((IDXm m d x : BitVec 32)).toNat < 12288) :
    (K (F := F)).TileObl (D (F := F)) 𝒱 (Pm m) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m (TABm m) (IDXm m) (OUTm m) (SHm m) d (coordsV ⟨_, hci.1⟩ ⟨_, hci.2⟩) facts (fun _ _ => rfl) (fun _ => rfl) hIDX O W hO hOlev

end Cert.Kernel.KProof

end
-- ==== Proof.lean ====
/- The proof of `Cert.Claim` (proofs.«204824_g46875273068696_cont_8to1_c_371_32_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«204824_g46875273068696_cont_8to1_c_371_32_alg».proof.Defs
import proofs.«204824_g46875273068696_cont_8to1_c_371_32_alg».proof.Proof.Gen.Kernel
import proofs.«204824_g46875273068696_cont_8to1_c_371_32_alg».proof.Proof.Gen.Kernel.Skeleton
import proofs.«204824_g46875273068696_cont_8to1_c_371_32_alg».proof.Proof.Gen.Kernel.Launch
import proofs.«204824_g46875273068696_cont_8to1_c_371_32_alg».proof.Proof.Gen.Kernel.Points
import proofs.«204824_g46875273068696_cont_8to1_c_371_32_alg».proof.Proof.Gen.KernelIdeal
import proofs.«204824_g46875273068696_cont_8to1_c_371_32_alg».proof.Proof.Gen.KernelIdeal.Skeleton
import proofs.«204824_g46875273068696_cont_8to1_c_371_32_alg».proof.Proof.Gen.KernelIdeal.Launch
import proofs.«204824_g46875273068696_cont_8to1_c_371_32_alg».proof.Proof.Gen.KernelIdeal.Points
import proofs.«204824_g46875273068696_cont_8to1_c_371_32_alg».proof.Proof.Gen.ReferenceIdeal
import proofs.«204824_g46875273068696_cont_8to1_c_371_32_alg».proof.Proof.Gen.Pre_input_domain
import proofs.«204824_g46875273068696_cont_8to1_c_371_32_alg».proof.Proof.KClaims
import proofs.«204824_g46875273068696_cont_8to1_c_371_32_alg».proof.Proof.KBody
import proofs.«204824_g46875273068696_cont_8to1_c_371_32_alg».proof.Proof.Bits.KBody
import Idealize.ShloMosaic.Adequacy
import Idealize.ShloMosaic.Init

noncomputable section

namespace Cert.Proof

open Idealize.ShloMosaic Idealize.SL.Sem Cert.Kernel

/-- The five claims, from the two programs' launch theorems (the word-level kernel and its reading over the extended
    reals, each through its vector subcores' task obligation) and the reference's run. -/
theorem claim : Cert.Claim :=
  Cert.Proof.KClaims.claim (fun m h => Cert.KernelIdeal.KProof.tileObl (F := Ideal) m h) (fun m h => Cert.Kernel.KProof.tileObl (F := Bits) m h)

end Cert.Proof

end
